-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v534)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v534) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v677) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x4 : Shape := ⟨2, ![1000000, 4]⟩
abbrev S16x128x128x128 : Shape := ⟨4, ![16, 128, 128, 128]⟩
abbrev S16x256x256 : Shape := ⟨3, ![16, 256, 256]⟩
abbrev S16x64 : Shape := ⟨2, ![16, 64]⟩
abbrev S_ : Shape := ⟨0, ![]⟩

class Facts : Prop where
  bcast_S_S1000000x4 : S_.BroadcastsInDim S1000000x4 (![] : Fin 0 → Fin S1000000x4.rank)
  reducesTo_S1000000x4_S_d0_1 : S1000000x4.ReducesTo [0, 1] S_
  h_S_ : 0 < S_.numel
  bcast_S_S16x128x128x128 : S_.BroadcastsInDim S16x128x128x128 (![] : Fin 0 → Fin S16x128x128x128.rank)
  reducesTo_S16x128x128x128_S_d0_1_2_3 : S16x128x128x128.ReducesTo [0, 1, 2, 3] S_
  bcast_S_S16x256x256 : S_.BroadcastsInDim S16x256x256 (![] : Fin 0 → Fin S16x256x256.rank)
  reducesTo_S16x256x256_S_d0_1_2 : S16x256x256.ReducesTo [0, 1, 2] S_
  bcast_S_S16x64 : S_.BroadcastsInDim S16x64 (![] : Fin 0 → Fin S16x64.rank)
  reducesTo_S16x64_S_d0_1 : S16x64.ReducesTo [0, 1] S_

variable [Facts]

def fn_part1 {F : FTy → Type} [FloatOps F] (main_arg4 : FVec F S16x256x256 .f32) (main_arg5 : FVec F S16x64 .f32) (main_v13 : IVec S_ 1) (main_v16 : IVec S16x256x256 1) : IVec S_ 1 :=
  let main_c_5 : IVec S_ 1 := constantI S_ 1 1#1
  let main_v17 : IVec S_ 1 := (fun x v => Host.reduce IntOp.andi x v reducesTo_S16x256x256_S_d0_1_2 h_S_) main_v16 main_c_5
  let main_v18 : IVec S_ 1 := andi main_v13 main_v17
  let main_v19 : FVec F S16x256x256 .f32 := Host.absf main_arg4
  let main_cst_6 : FVec F S_ .f32 := constant S_ .f32 0x7F800000#32
  let main_v20 : FVec F S16x256x256 .f32 := broadcastInDim S16x256x256 ![] bcast_S_S16x256x256 main_cst_6
  let main_v21 : IVec S16x256x256 1 := cmpf .olt main_v19 main_v20
  let main_c_7 : IVec S_ 1 := constantI S_ 1 1#1
  let main_v22 : IVec S_ 1 := (fun x v => Host.reduce IntOp.andi x v reducesTo_S16x256x256_S_d0_1_2 h_S_) main_v21 main_c_7
  let main_v23 : IVec S_ 1 := andi main_v18 main_v22
  let main_v24 : FVec F S16x64 .f32 := Host.absf main_arg5
  let main_cst_8 : FVec F S_ .f32 := constant S_ .f32 0x7F800000#32
  let main_v25 : FVec F S16x64 .f32 := broadcastInDim S16x64 ![] bcast_S_S16x64 main_cst_8
  let main_v26 : IVec S16x64 1 := cmpf .olt main_v24 main_v25
  let main_c_9 : IVec S_ 1 := constantI S_ 1 1#1
  let main_v27 : IVec S_ 1 := (fun x v => Host.reduce IntOp.andi x v reducesTo_S16x64_S_d0_1 h_S_) main_v26 main_c_9
  let main_v28 : IVec S_ 1 := andi main_v23 main_v27
  main_v28

def fn {F : FTy → Type} [FloatOps F] (main_arg0 : FVec F S1000000x4 .f32) (main_arg1 : FVec F S16x128x128x128 .f32) (main_arg2 : FVec F S16x256x256 .f32) (main_arg3 : FVec F S16x256x256 .f32) (main_arg4 : FVec F S16x256x256 .f32) (main_arg5 : FVec F S16x64 .f32) : IVec S_ 1 :=
  let main_v0 : FVec F S1000000x4 .f32 := Host.absf main_arg0
  let main_cst : FVec F S_ .f32 := constant S_ .f32 0x7F800000#32
  let main_v1 : FVec F S1000000x4 .f32 := broadcastInDim S1000000x4 ![] bcast_S_S1000000x4 main_cst
  let main_v2 : IVec S1000000x4 1 := cmpf .olt main_v0 main_v1
  let main_c : IVec S_ 1 := constantI S_ 1 1#1
  let main_v3 : IVec S_ 1 := (fun x v => Host.reduce IntOp.andi x v reducesTo_S1000000x4_S_d0_1 h_S_) main_v2 main_c
  let main_v4 : FVec F S16x128x128x128 .f32 := Host.absf main_arg1
  let main_cst_0 : FVec F S_ .f32 := constant S_ .f32 0x7F800000#32
  let main_v5 : FVec F S16x128x128x128 .f32 := broadcastInDim S16x128x128x128 ![] bcast_S_S16x128x128x128 main_cst_0
  let main_v6 : IVec S16x128x128x128 1 := cmpf .olt main_v4 main_v5
  let main_c_1 : IVec S_ 1 := constantI S_ 1 1#1
  let main_v7 : IVec S_ 1 := (fun x v => Host.reduce IntOp.andi x v reducesTo_S16x128x128x128_S_d0_1_2_3 h_S_) main_v6 main_c_1
  let main_v8 : IVec S_ 1 := andi main_v3 main_v7
  let main_v9 : FVec F S16x256x256 .f32 := Host.absf main_arg2
  let main_cst_2 : FVec F S_ .f32 := constant S_ .f32 0x7F800000#32
  let main_v10 : FVec F S16x256x256 .f32 := broadcastInDim S16x256x256 ![] bcast_S_S16x256x256 main_cst_2
  let main_v11 : IVec S16x256x256 1 := cmpf .olt main_v9 main_v10
  let main_c_3 : IVec S_ 1 := constantI S_ 1 1#1
  let main_v12 : IVec S_ 1 := (fun x v => Host.reduce IntOp.andi x v reducesTo_S16x256x256_S_d0_1_2 h_S_) main_v11 main_c_3
  let main_v13 : IVec S_ 1 := andi main_v8 main_v12
  let main_v14 : FVec F S16x256x256 .f32 := Host.absf main_arg3
  let main_cst_4 : FVec F S_ .f32 := constant S_ .f32 0x7F800000#32
  let main_v15 : FVec F S16x256x256 .f32 := broadcastInDim S16x256x256 ![] bcast_S_S16x256x256 main_cst_4
  let main_v16 : IVec S16x256x256 1 := cmpf .olt main_v14 main_v15
  fn_part1 (F := F) main_arg4 main_arg5 main_v13 main_v16
-- ==== Kernel.lean ====
abbrev S1000000x4 : Shape := ⟨2, ![1000000, 4]⟩
abbrev S16x128x128x128 : Shape := ⟨4, ![16, 128, 128, 128]⟩
abbrev S16x256x256 : Shape := ⟨3, ![16, 256, 256]⟩
abbrev S16x64 : Shape := ⟨2, ![16, 64]⟩
abbrev S_ : Shape := ⟨0, ![]⟩
abbrev S1015808x4 : Shape := ⟨2, ![1015808, 4]⟩
abbrev S128x128x128x16 : Shape := ⟨4, ![128, 128, 128, 16]⟩
abbrev S2097152x16 : Shape := ⟨2, ![2097152, 16]⟩
abbrev S256x256x16 : Shape := ⟨3, ![256, 256, 16]⟩
abbrev S65536x16 : Shape := ⟨2, ![65536, 16]⟩
abbrev S64x16 : Shape := ⟨2, ![64, 16]⟩
abbrev S1015808x3 : Shape := ⟨2, ![1015808, 3]⟩
abbrev S1015808x1 : Shape := ⟨2, ![1015808, 1]⟩
abbrev S1015808 : Shape := ⟨1, ![1015808]⟩
abbrev S1015808x16 : Shape := ⟨2, ![1015808, 16]⟩
abbrev S1015808x32 : Shape := ⟨2, ![1015808, 32]⟩
abbrev S32768x16 : Shape := ⟨2, ![32768, 16]⟩
abbrev S32768x32 : Shape := ⟨2, ![32768, 32]⟩
abbrev S1000000x32 : Shape := ⟨2, ![1000000, 32]⟩

abbrev nBuf : Space → Nat
  | .hbm => 803
  | .vmem => 12
  | .smem => 0
  | _ => 0

abbrev hbmTy0_0 (i : Nat) : BufTy := match i % 128 with
  | 0 => ⟨S1000000x4, .f32⟩
  | 1 => ⟨S16x128x128x128, .f32⟩
  | 2 => ⟨S16x256x256, .f32⟩
  | 3 => ⟨S16x256x256, .f32⟩
  | 4 => ⟨S16x256x256, .f32⟩
  | 5 => ⟨S16x64, .f32⟩
  | 6 => ⟨S_, .i32⟩
  | 7 => ⟨S_, .f32⟩
  | 8 => ⟨S1015808x4, .f32⟩
  | 9 => ⟨S128x128x128x16, .f32⟩
  | 10 => ⟨S2097152x16, .f32⟩
  | 11 => ⟨S256x256x16, .f32⟩
  | 12 => ⟨S65536x16, .f32⟩
  | 13 => ⟨S256x256x16, .f32⟩
  | 14 => ⟨S65536x16, .f32⟩
  | 15 => ⟨S256x256x16, .f32⟩
  | 16 => ⟨S65536x16, .f32⟩
  | 17 => ⟨S64x16, .f32⟩
  | 18 => ⟨S1015808x3, .f32⟩
  | 19 => ⟨S1015808x1, .f32⟩
  | 20 => ⟨S1015808, .f32⟩
  | 21 => ⟨S_, .f32⟩
  | 22 => ⟨S1015808, .f32⟩
  | 23 => ⟨S1015808, .f32⟩
  | 24 => ⟨S_, .f32⟩
  | 25 => ⟨S1015808, .f32⟩
  | 26 => ⟨S1015808, .f32⟩
  | 27 => ⟨S_, .f32⟩
  | 28 => ⟨S1015808, .f32⟩
  | 29 => ⟨S1015808, .f32⟩
  | 30 => ⟨S1015808x1, .f32⟩
  | 31 => ⟨S1015808, .f32⟩
  | 32 => ⟨S_, .f32⟩
  | 33 => ⟨S1015808, .f32⟩
  | 34 => ⟨S1015808, .f32⟩
  | 35 => ⟨S_, .f32⟩
  | 36 => ⟨S1015808, .f32⟩
  | 37 => ⟨S1015808, .f32⟩
  | 38 => ⟨S_, .f32⟩
  | 39 => ⟨S1015808, .f32⟩
  | 40 => ⟨S1015808, .f32⟩
  | 41 => ⟨S1015808x1, .f32⟩
  | 42 => ⟨S1015808, .f32⟩
  | 43 => ⟨S_, .f32⟩
  | 44 => ⟨S1015808, .f32⟩
  | 45 => ⟨S1015808, .f32⟩
  | 46 => ⟨S_, .f32⟩
  | 47 => ⟨S1015808, .f32⟩
  | 48 => ⟨S1015808, .f32⟩
  | 49 => ⟨S_, .f32⟩
  | 50 => ⟨S1015808, .f32⟩
  | 51 => ⟨S1015808, .f32⟩
  | 52 => ⟨S1015808, .f32⟩
  | 53 => ⟨S_, .i32⟩
  | 54 => ⟨S_, .i32⟩
  | 55 => ⟨S_, .f32⟩
  | 56 => ⟨S1015808, .f32⟩
  | 57 => ⟨S1015808, .f32⟩
  | 58 => ⟨S_, .f32⟩
  | 59 => ⟨S1015808, .f32⟩
  | 60 => ⟨S1015808, .f32⟩
  | 61 => ⟨S1015808, .i32⟩
  | 62 => ⟨S_, .f32⟩
  | 63 => ⟨S1015808, .f32⟩
  | 64 => ⟨S1015808, .f32⟩
  | 65 => ⟨S_, .i32⟩
  | 66 => ⟨S_, .i32⟩
  | 67 => ⟨S_, .f32⟩
  | 68 => ⟨S1015808, .f32⟩
  | 69 => ⟨S1015808, .f32⟩
  | 70 => ⟨S_, .f32⟩
  | 71 => ⟨S1015808, .f32⟩
  | 72 => ⟨S1015808, .f32⟩
  | 73 => ⟨S1015808, .i32⟩
  | 74 => ⟨S1015808, .f32⟩
  | 75 => ⟨S1015808, .f32⟩
  | 76 => ⟨S_, .i32⟩
  | 77 => ⟨S_, .i32⟩
  | 78 => ⟨S_, .f32⟩
  | 79 => ⟨S1015808, .f32⟩
  | 80 => ⟨S1015808, .f32⟩
  | 81 => ⟨S_, .f32⟩
  | 82 => ⟨S1015808, .f32⟩
  | 83 => ⟨S1015808, .f32⟩
  | 84 => ⟨S1015808, .i32⟩
  | 85 => ⟨S_, .f32⟩
  | 86 => ⟨S1015808, .f32⟩
  | 87 => ⟨S1015808, .f32⟩
  | 88 => ⟨S_, .i32⟩
  | 89 => ⟨S_, .i32⟩
  | 90 => ⟨S_, .f32⟩
  | 91 => ⟨S1015808, .f32⟩
  | 92 => ⟨S1015808, .f32⟩
  | 93 => ⟨S_, .f32⟩
  | 94 => ⟨S1015808, .f32⟩
  | 95 => ⟨S1015808, .f32⟩
  | 96 => ⟨S1015808, .i32⟩
  | 97 => ⟨S1015808, .f32⟩
  | 98 => ⟨S1015808, .f32⟩
  | 99 => ⟨S_, .i32⟩
  | 100 => ⟨S_, .i32⟩
  | 101 => ⟨S_, .f32⟩
  | 102 => ⟨S1015808, .f32⟩
  | 103 => ⟨S1015808, .f32⟩
  | 104 => ⟨S_, .f32⟩
  | 105 => ⟨S1015808, .f32⟩
  | 106 => ⟨S1015808, .f32⟩
  | 107 => ⟨S1015808, .i32⟩
  | 108 => ⟨S_, .f32⟩
  | 109 => ⟨S1015808, .f32⟩
  | 110 => ⟨S1015808, .f32⟩
  | 111 => ⟨S_, .i32⟩
  | 112 => ⟨S_, .i32⟩
  | 113 => ⟨S_, .f32⟩
  | 114 => ⟨S1015808, .f32⟩
  | 115 => ⟨S1015808, .f32⟩
  | 116 => ⟨S_, .f32⟩
  | 117 => ⟨S1015808, .f32⟩
  | 118 => ⟨S1015808, .f32⟩
  | 119 => ⟨S1015808, .i32⟩
  | 120 => ⟨S1015808, .f32⟩
  | 121 => ⟨S_, .i32⟩
  | 122 => ⟨S1015808, .i32⟩
  | 123 => ⟨S1015808, .i32⟩
  | 124 => ⟨S_, .i32⟩
  | 125 => ⟨S1015808, .i32⟩
  | 126 => ⟨S1015808, .i32⟩
  | 127 => ⟨S1015808, .i32⟩
  | _ => ⟨S1000000x4, .f32⟩

abbrev hbmTy0_1 (i : Nat) : BufTy := match i % 128 with
  | 0 => ⟨S1015808, .i32⟩
  | 1 => ⟨S_, .i32⟩
  | 2 => ⟨S1015808, .i32⟩
  | 3 => ⟨S1015808, .i1⟩
  | 4 => ⟨S_, .i32⟩
  | 5 => ⟨S1015808, .i32⟩
  | 6 => ⟨S1015808, .i32⟩
  | 7 => ⟨S1015808, .i32⟩
  | 8 => ⟨S1015808x1, .i32⟩
  | 9 => ⟨S1015808x16, .f32⟩
  | 10 => ⟨S_, .i32⟩
  | 11 => ⟨S1015808, .i32⟩
  | 12 => ⟨S1015808, .i32⟩
  | 13 => ⟨S_, .i32⟩
  | 14 => ⟨S1015808, .i32⟩
  | 15 => ⟨S1015808, .i32⟩
  | 16 => ⟨S1015808, .i32⟩
  | 17 => ⟨S1015808, .i32⟩
  | 18 => ⟨S_, .i32⟩
  | 19 => ⟨S1015808, .i32⟩
  | 20 => ⟨S1015808, .i1⟩
  | 21 => ⟨S_, .i32⟩
  | 22 => ⟨S1015808, .i32⟩
  | 23 => ⟨S1015808, .i32⟩
  | 24 => ⟨S1015808, .i32⟩
  | 25 => ⟨S1015808x1, .i32⟩
  | 26 => ⟨S1015808x16, .f32⟩
  | 27 => ⟨S_, .i32⟩
  | 28 => ⟨S1015808, .i32⟩
  | 29 => ⟨S1015808, .i32⟩
  | 30 => ⟨S_, .i32⟩
  | 31 => ⟨S1015808, .i32⟩
  | 32 => ⟨S1015808, .i32⟩
  | 33 => ⟨S1015808, .i32⟩
  | 34 => ⟨S1015808, .i32⟩
  | 35 => ⟨S_, .i32⟩
  | 36 => ⟨S1015808, .i32⟩
  | 37 => ⟨S1015808, .i1⟩
  | 38 => ⟨S_, .i32⟩
  | 39 => ⟨S1015808, .i32⟩
  | 40 => ⟨S1015808, .i32⟩
  | 41 => ⟨S1015808, .i32⟩
  | 42 => ⟨S1015808x1, .i32⟩
  | 43 => ⟨S1015808x16, .f32⟩
  | 44 => ⟨S_, .i32⟩
  | 45 => ⟨S1015808, .i32⟩
  | 46 => ⟨S1015808, .i32⟩
  | 47 => ⟨S_, .i32⟩
  | 48 => ⟨S1015808, .i32⟩
  | 49 => ⟨S1015808, .i32⟩
  | 50 => ⟨S1015808, .i32⟩
  | 51 => ⟨S1015808, .i32⟩
  | 52 => ⟨S_, .i32⟩
  | 53 => ⟨S1015808, .i32⟩
  | 54 => ⟨S1015808, .i1⟩
  | 55 => ⟨S_, .i32⟩
  | 56 => ⟨S1015808, .i32⟩
  | 57 => ⟨S1015808, .i32⟩
  | 58 => ⟨S1015808, .i32⟩
  | 59 => ⟨S1015808x1, .i32⟩
  | 60 => ⟨S1015808x16, .f32⟩
  | 61 => ⟨S_, .i32⟩
  | 62 => ⟨S1015808, .i32⟩
  | 63 => ⟨S1015808, .i32⟩
  | 64 => ⟨S_, .i32⟩
  | 65 => ⟨S1015808, .i32⟩
  | 66 => ⟨S1015808, .i32⟩
  | 67 => ⟨S1015808, .i32⟩
  | 68 => ⟨S1015808, .i32⟩
  | 69 => ⟨S_, .i32⟩
  | 70 => ⟨S1015808, .i32⟩
  | 71 => ⟨S1015808, .i1⟩
  | 72 => ⟨S_, .i32⟩
  | 73 => ⟨S1015808, .i32⟩
  | 74 => ⟨S1015808, .i32⟩
  | 75 => ⟨S1015808, .i32⟩
  | 76 => ⟨S1015808x1, .i32⟩
  | 77 => ⟨S1015808x16, .f32⟩
  | 78 => ⟨S_, .i32⟩
  | 79 => ⟨S1015808, .i32⟩
  | 80 => ⟨S1015808, .i32⟩
  | 81 => ⟨S_, .i32⟩
  | 82 => ⟨S1015808, .i32⟩
  | 83 => ⟨S1015808, .i32⟩
  | 84 => ⟨S1015808, .i32⟩
  | 85 => ⟨S1015808, .i32⟩
  | 86 => ⟨S_, .i32⟩
  | 87 => ⟨S1015808, .i32⟩
  | 88 => ⟨S1015808, .i1⟩
  | 89 => ⟨S_, .i32⟩
  | 90 => ⟨S1015808, .i32⟩
  | 91 => ⟨S1015808, .i32⟩
  | 92 => ⟨S1015808, .i32⟩
  | 93 => ⟨S1015808x1, .i32⟩
  | 94 => ⟨S1015808x16, .f32⟩
  | 95 => ⟨S_, .i32⟩
  | 96 => ⟨S1015808, .i32⟩
  | 97 => ⟨S1015808, .i32⟩
  | 98 => ⟨S_, .i32⟩
  | 99 => ⟨S1015808, .i32⟩
  | 100 => ⟨S1015808, .i32⟩
  | 101 => ⟨S1015808, .i32⟩
  | 102 => ⟨S1015808, .i32⟩
  | 103 => ⟨S_, .i32⟩
  | 104 => ⟨S1015808, .i32⟩
  | 105 => ⟨S1015808, .i1⟩
  | 106 => ⟨S_, .i32⟩
  | 107 => ⟨S1015808, .i32⟩
  | 108 => ⟨S1015808, .i32⟩
  | 109 => ⟨S1015808, .i32⟩
  | 110 => ⟨S1015808x1, .i32⟩
  | 111 => ⟨S1015808x16, .f32⟩
  | 112 => ⟨S_, .i32⟩
  | 113 => ⟨S1015808, .i32⟩
  | 114 => ⟨S1015808, .i32⟩
  | 115 => ⟨S_, .i32⟩
  | 116 => ⟨S1015808, .i32⟩
  | 117 => ⟨S1015808, .i32⟩
  | 118 => ⟨S1015808, .i32⟩
  | 119 => ⟨S1015808, .i32⟩
  | 120 => ⟨S_, .i32⟩
  | 121 => ⟨S1015808, .i32⟩
  | 122 => ⟨S1015808, .i1⟩
  | 123 => ⟨S_, .i32⟩
  | 124 => ⟨S1015808, .i32⟩
  | 125 => ⟨S1015808, .i32⟩
  | 126 => ⟨S1015808, .i32⟩
  | 127 => ⟨S1015808x1, .i32⟩
  | _ => ⟨S1000000x4, .f32⟩

abbrev hbmTy0_2 (i : Nat) : BufTy := match i % 128 with
  | 0 => ⟨S1015808x16, .f32⟩
  | 1 => ⟨S1015808x1, .f32⟩
  | 2 => ⟨S1015808x1, .f32⟩
  | 3 => ⟨S1015808x1, .f32⟩
  | 4 => ⟨S_, .f32⟩
  | 5 => ⟨S1015808x1, .f32⟩
  | 6 => ⟨S1015808x1, .f32⟩
  | 7 => ⟨S1015808x16, .f32⟩
  | 8 => ⟨S1015808x16, .f32⟩
  | 9 => ⟨S1015808x16, .f32⟩
  | 10 => ⟨S1015808x16, .f32⟩
  | 11 => ⟨S1015808x16, .f32⟩
  | 12 => ⟨S_, .f32⟩
  | 13 => ⟨S1015808x1, .f32⟩
  | 14 => ⟨S1015808x1, .f32⟩
  | 15 => ⟨S1015808x16, .f32⟩
  | 16 => ⟨S1015808x16, .f32⟩
  | 17 => ⟨S1015808x16, .f32⟩
  | 18 => ⟨S1015808x16, .f32⟩
  | 19 => ⟨S1015808x16, .f32⟩
  | 20 => ⟨S_, .f32⟩
  | 21 => ⟨S1015808x1, .f32⟩
  | 22 => ⟨S1015808x1, .f32⟩
  | 23 => ⟨S1015808x16, .f32⟩
  | 24 => ⟨S1015808x16, .f32⟩
  | 25 => ⟨S1015808x16, .f32⟩
  | 26 => ⟨S1015808x16, .f32⟩
  | 27 => ⟨S1015808x16, .f32⟩
  | 28 => ⟨S_, .f32⟩
  | 29 => ⟨S1015808x1, .f32⟩
  | 30 => ⟨S1015808x1, .f32⟩
  | 31 => ⟨S1015808x16, .f32⟩
  | 32 => ⟨S1015808x16, .f32⟩
  | 33 => ⟨S1015808x16, .f32⟩
  | 34 => ⟨S1015808x16, .f32⟩
  | 35 => ⟨S1015808x16, .f32⟩
  | 36 => ⟨S_, .f32⟩
  | 37 => ⟨S1015808x1, .f32⟩
  | 38 => ⟨S1015808x1, .f32⟩
  | 39 => ⟨S1015808x16, .f32⟩
  | 40 => ⟨S1015808x16, .f32⟩
  | 41 => ⟨S1015808x16, .f32⟩
  | 42 => ⟨S1015808x16, .f32⟩
  | 43 => ⟨S1015808x16, .f32⟩
  | 44 => ⟨S_, .f32⟩
  | 45 => ⟨S1015808x1, .f32⟩
  | 46 => ⟨S1015808x1, .f32⟩
  | 47 => ⟨S1015808x16, .f32⟩
  | 48 => ⟨S1015808x16, .f32⟩
  | 49 => ⟨S1015808x16, .f32⟩
  | 50 => ⟨S1015808x16, .f32⟩
  | 51 => ⟨S1015808x16, .f32⟩
  | 52 => ⟨S_, .f32⟩
  | 53 => ⟨S1015808x1, .f32⟩
  | 54 => ⟨S1015808x1, .f32⟩
  | 55 => ⟨S1015808x16, .f32⟩
  | 56 => ⟨S1015808x16, .f32⟩
  | 57 => ⟨S1015808x16, .f32⟩
  | 58 => ⟨S1015808x16, .f32⟩
  | 59 => ⟨S1015808x16, .f32⟩
  | 60 => ⟨S1015808x1, .f32⟩
  | 61 => ⟨S1015808, .f32⟩
  | 62 => ⟨S1015808x1, .f32⟩
  | 63 => ⟨S1015808, .f32⟩
  | 64 => ⟨S_, .f32⟩
  | 65 => ⟨S1015808, .f32⟩
  | 66 => ⟨S1015808, .f32⟩
  | 67 => ⟨S_, .f32⟩
  | 68 => ⟨S1015808, .f32⟩
  | 69 => ⟨S1015808, .f32⟩
  | 70 => ⟨S_, .f32⟩
  | 71 => ⟨S1015808, .f32⟩
  | 72 => ⟨S1015808, .f32⟩
  | 73 => ⟨S_, .f32⟩
  | 74 => ⟨S1015808, .f32⟩
  | 75 => ⟨S1015808, .f32⟩
  | 76 => ⟨S_, .f32⟩
  | 77 => ⟨S1015808, .f32⟩
  | 78 => ⟨S1015808, .f32⟩
  | 79 => ⟨S_, .f32⟩
  | 80 => ⟨S1015808, .f32⟩
  | 81 => ⟨S1015808, .f32⟩
  | 82 => ⟨S1015808, .f32⟩
  | 83 => ⟨S_, .i32⟩
  | 84 => ⟨S_, .i32⟩
  | 85 => ⟨S_, .f32⟩
  | 86 => ⟨S1015808, .f32⟩
  | 87 => ⟨S1015808, .f32⟩
  | 88 => ⟨S_, .f32⟩
  | 89 => ⟨S1015808, .f32⟩
  | 90 => ⟨S1015808, .f32⟩
  | 91 => ⟨S1015808, .i32⟩
  | 92 => ⟨S_, .f32⟩
  | 93 => ⟨S1015808, .f32⟩
  | 94 => ⟨S1015808, .f32⟩
  | 95 => ⟨S_, .i32⟩
  | 96 => ⟨S_, .i32⟩
  | 97 => ⟨S_, .f32⟩
  | 98 => ⟨S1015808, .f32⟩
  | 99 => ⟨S1015808, .f32⟩
  | 100 => ⟨S_, .f32⟩
  | 101 => ⟨S1015808, .f32⟩
  | 102 => ⟨S1015808, .f32⟩
  | 103 => ⟨S1015808, .i32⟩
  | 104 => ⟨S1015808, .f32⟩
  | 105 => ⟨S1015808, .f32⟩
  | 106 => ⟨S_, .i32⟩
  | 107 => ⟨S_, .i32⟩
  | 108 => ⟨S_, .f32⟩
  | 109 => ⟨S1015808, .f32⟩
  | 110 => ⟨S1015808, .f32⟩
  | 111 => ⟨S_, .f32⟩
  | 112 => ⟨S1015808, .f32⟩
  | 113 => ⟨S1015808, .f32⟩
  | 114 => ⟨S1015808, .i32⟩
  | 115 => ⟨S_, .f32⟩
  | 116 => ⟨S1015808, .f32⟩
  | 117 => ⟨S1015808, .f32⟩
  | 118 => ⟨S_, .i32⟩
  | 119 => ⟨S_, .i32⟩
  | 120 => ⟨S_, .f32⟩
  | 121 => ⟨S1015808, .f32⟩
  | 122 => ⟨S1015808, .f32⟩
  | 123 => ⟨S_, .f32⟩
  | 124 => ⟨S1015808, .f32⟩
  | 125 => ⟨S1015808, .f32⟩
  | 126 => ⟨S1015808, .i32⟩
  | 127 => ⟨S1015808, .f32⟩
  | _ => ⟨S1000000x4, .f32⟩

abbrev hbmTy0_3 (i : Nat) : BufTy := match i % 128 with
  | 0 => ⟨S_, .i32⟩
  | 1 => ⟨S1015808, .i32⟩
  | 2 => ⟨S1015808, .i32⟩
  | 3 => ⟨S1015808, .i32⟩
  | 4 => ⟨S_, .i32⟩
  | 5 => ⟨S1015808, .i32⟩
  | 6 => ⟨S1015808, .i1⟩
  | 7 => ⟨S_, .i32⟩
  | 8 => ⟨S1015808, .i32⟩
  | 9 => ⟨S1015808, .i32⟩
  | 10 => ⟨S1015808, .i32⟩
  | 11 => ⟨S1015808x1, .i32⟩
  | 12 => ⟨S1015808x16, .f32⟩
  | 13 => ⟨S_, .i32⟩
  | 14 => ⟨S1015808, .i32⟩
  | 15 => ⟨S1015808, .i32⟩
  | 16 => ⟨S1015808, .i32⟩
  | 17 => ⟨S_, .i32⟩
  | 18 => ⟨S1015808, .i32⟩
  | 19 => ⟨S1015808, .i1⟩
  | 20 => ⟨S_, .i32⟩
  | 21 => ⟨S1015808, .i32⟩
  | 22 => ⟨S1015808, .i32⟩
  | 23 => ⟨S1015808, .i32⟩
  | 24 => ⟨S1015808x1, .i32⟩
  | 25 => ⟨S1015808x16, .f32⟩
  | 26 => ⟨S_, .i32⟩
  | 27 => ⟨S1015808, .i32⟩
  | 28 => ⟨S1015808, .i32⟩
  | 29 => ⟨S1015808, .i32⟩
  | 30 => ⟨S_, .i32⟩
  | 31 => ⟨S1015808, .i32⟩
  | 32 => ⟨S1015808, .i1⟩
  | 33 => ⟨S_, .i32⟩
  | 34 => ⟨S1015808, .i32⟩
  | 35 => ⟨S1015808, .i32⟩
  | 36 => ⟨S1015808, .i32⟩
  | 37 => ⟨S1015808x1, .i32⟩
  | 38 => ⟨S1015808x16, .f32⟩
  | 39 => ⟨S_, .i32⟩
  | 40 => ⟨S1015808, .i32⟩
  | 41 => ⟨S1015808, .i32⟩
  | 42 => ⟨S1015808, .i32⟩
  | 43 => ⟨S_, .i32⟩
  | 44 => ⟨S1015808, .i32⟩
  | 45 => ⟨S1015808, .i1⟩
  | 46 => ⟨S_, .i32⟩
  | 47 => ⟨S1015808, .i32⟩
  | 48 => ⟨S1015808, .i32⟩
  | 49 => ⟨S1015808, .i32⟩
  | 50 => ⟨S1015808x1, .i32⟩
  | 51 => ⟨S1015808x16, .f32⟩
  | 52 => ⟨S1015808x1, .f32⟩
  | 53 => ⟨S1015808x1, .f32⟩
  | 54 => ⟨S_, .f32⟩
  | 55 => ⟨S1015808x1, .f32⟩
  | 56 => ⟨S1015808x1, .f32⟩
  | 57 => ⟨S1015808x16, .f32⟩
  | 58 => ⟨S1015808x16, .f32⟩
  | 59 => ⟨S1015808x16, .f32⟩
  | 60 => ⟨S1015808x16, .f32⟩
  | 61 => ⟨S1015808x16, .f32⟩
  | 62 => ⟨S_, .f32⟩
  | 63 => ⟨S1015808x1, .f32⟩
  | 64 => ⟨S1015808x1, .f32⟩
  | 65 => ⟨S1015808x16, .f32⟩
  | 66 => ⟨S1015808x16, .f32⟩
  | 67 => ⟨S1015808x16, .f32⟩
  | 68 => ⟨S1015808x16, .f32⟩
  | 69 => ⟨S1015808x16, .f32⟩
  | 70 => ⟨S_, .f32⟩
  | 71 => ⟨S1015808x1, .f32⟩
  | 72 => ⟨S1015808x1, .f32⟩
  | 73 => ⟨S1015808x16, .f32⟩
  | 74 => ⟨S1015808x16, .f32⟩
  | 75 => ⟨S1015808x16, .f32⟩
  | 76 => ⟨S1015808x16, .f32⟩
  | 77 => ⟨S1015808x16, .f32⟩
  | 78 => ⟨S1015808x1, .f32⟩
  | 79 => ⟨S1015808, .f32⟩
  | 80 => ⟨S1015808x1, .f32⟩
  | 81 => ⟨S1015808, .f32⟩
  | 82 => ⟨S_, .f32⟩
  | 83 => ⟨S1015808, .f32⟩
  | 84 => ⟨S1015808, .f32⟩
  | 85 => ⟨S_, .f32⟩
  | 86 => ⟨S1015808, .f32⟩
  | 87 => ⟨S1015808, .f32⟩
  | 88 => ⟨S_, .f32⟩
  | 89 => ⟨S1015808, .f32⟩
  | 90 => ⟨S1015808, .f32⟩
  | 91 => ⟨S_, .f32⟩
  | 92 => ⟨S1015808, .f32⟩
  | 93 => ⟨S1015808, .f32⟩
  | 94 => ⟨S_, .f32⟩
  | 95 => ⟨S1015808, .f32⟩
  | 96 => ⟨S1015808, .f32⟩
  | 97 => ⟨S_, .f32⟩
  | 98 => ⟨S1015808, .f32⟩
  | 99 => ⟨S1015808, .f32⟩
  | 100 => ⟨S1015808, .f32⟩
  | 101 => ⟨S_, .i32⟩
  | 102 => ⟨S_, .i32⟩
  | 103 => ⟨S_, .f32⟩
  | 104 => ⟨S1015808, .f32⟩
  | 105 => ⟨S1015808, .f32⟩
  | 106 => ⟨S_, .f32⟩
  | 107 => ⟨S1015808, .f32⟩
  | 108 => ⟨S1015808, .f32⟩
  | 109 => ⟨S1015808, .i32⟩
  | 110 => ⟨S_, .f32⟩
  | 111 => ⟨S1015808, .f32⟩
  | 112 => ⟨S1015808, .f32⟩
  | 113 => ⟨S_, .i32⟩
  | 114 => ⟨S_, .i32⟩
  | 115 => ⟨S_, .f32⟩
  | 116 => ⟨S1015808, .f32⟩
  | 117 => ⟨S1015808, .f32⟩
  | 118 => ⟨S_, .f32⟩
  | 119 => ⟨S1015808, .f32⟩
  | 120 => ⟨S1015808, .f32⟩
  | 121 => ⟨S1015808, .i32⟩
  | 122 => ⟨S1015808, .f32⟩
  | 123 => ⟨S1015808, .f32⟩
  | 124 => ⟨S_, .i32⟩
  | 125 => ⟨S_, .i32⟩
  | 126 => ⟨S_, .f32⟩
  | 127 => ⟨S1015808, .f32⟩
  | _ => ⟨S1000000x4, .f32⟩

abbrev hbmTy0_4 (i : Nat) : BufTy := match i % 128 with
  | 0 => ⟨S1015808, .f32⟩
  | 1 => ⟨S_, .f32⟩
  | 2 => ⟨S1015808, .f32⟩
  | 3 => ⟨S1015808, .f32⟩
  | 4 => ⟨S1015808, .i32⟩
  | 5 => ⟨S_, .f32⟩
  | 6 => ⟨S1015808, .f32⟩
  | 7 => ⟨S1015808, .f32⟩
  | 8 => ⟨S_, .i32⟩
  | 9 => ⟨S_, .i32⟩
  | 10 => ⟨S_, .f32⟩
  | 11 => ⟨S1015808, .f32⟩
  | 12 => ⟨S1015808, .f32⟩
  | 13 => ⟨S_, .f32⟩
  | 14 => ⟨S1015808, .f32⟩
  | 15 => ⟨S1015808, .f32⟩
  | 16 => ⟨S1015808, .i32⟩
  | 17 => ⟨S1015808, .f32⟩
  | 18 => ⟨S_, .i32⟩
  | 19 => ⟨S1015808, .i32⟩
  | 20 => ⟨S1015808, .i32⟩
  | 21 => ⟨S1015808, .i32⟩
  | 22 => ⟨S_, .i32⟩
  | 23 => ⟨S1015808, .i32⟩
  | 24 => ⟨S1015808, .i1⟩
  | 25 => ⟨S_, .i32⟩
  | 26 => ⟨S1015808, .i32⟩
  | 27 => ⟨S1015808, .i32⟩
  | 28 => ⟨S1015808, .i32⟩
  | 29 => ⟨S1015808x1, .i32⟩
  | 30 => ⟨S1015808x16, .f32⟩
  | 31 => ⟨S_, .i32⟩
  | 32 => ⟨S1015808, .i32⟩
  | 33 => ⟨S1015808, .i32⟩
  | 34 => ⟨S1015808, .i32⟩
  | 35 => ⟨S_, .i32⟩
  | 36 => ⟨S1015808, .i32⟩
  | 37 => ⟨S1015808, .i1⟩
  | 38 => ⟨S_, .i32⟩
  | 39 => ⟨S1015808, .i32⟩
  | 40 => ⟨S1015808, .i32⟩
  | 41 => ⟨S1015808, .i32⟩
  | 42 => ⟨S1015808x1, .i32⟩
  | 43 => ⟨S1015808x16, .f32⟩
  | 44 => ⟨S_, .i32⟩
  | 45 => ⟨S1015808, .i32⟩
  | 46 => ⟨S1015808, .i32⟩
  | 47 => ⟨S1015808, .i32⟩
  | 48 => ⟨S_, .i32⟩
  | 49 => ⟨S1015808, .i32⟩
  | 50 => ⟨S1015808, .i1⟩
  | 51 => ⟨S_, .i32⟩
  | 52 => ⟨S1015808, .i32⟩
  | 53 => ⟨S1015808, .i32⟩
  | 54 => ⟨S1015808, .i32⟩
  | 55 => ⟨S1015808x1, .i32⟩
  | 56 => ⟨S1015808x16, .f32⟩
  | 57 => ⟨S_, .i32⟩
  | 58 => ⟨S1015808, .i32⟩
  | 59 => ⟨S1015808, .i32⟩
  | 60 => ⟨S1015808, .i32⟩
  | 61 => ⟨S_, .i32⟩
  | 62 => ⟨S1015808, .i32⟩
  | 63 => ⟨S1015808, .i1⟩
  | 64 => ⟨S_, .i32⟩
  | 65 => ⟨S1015808, .i32⟩
  | 66 => ⟨S1015808, .i32⟩
  | 67 => ⟨S1015808, .i32⟩
  | 68 => ⟨S1015808x1, .i32⟩
  | 69 => ⟨S1015808x16, .f32⟩
  | 70 => ⟨S1015808x1, .f32⟩
  | 71 => ⟨S1015808x1, .f32⟩
  | 72 => ⟨S_, .f32⟩
  | 73 => ⟨S1015808x1, .f32⟩
  | 74 => ⟨S1015808x1, .f32⟩
  | 75 => ⟨S1015808x16, .f32⟩
  | 76 => ⟨S1015808x16, .f32⟩
  | 77 => ⟨S1015808x16, .f32⟩
  | 78 => ⟨S1015808x16, .f32⟩
  | 79 => ⟨S1015808x16, .f32⟩
  | 80 => ⟨S_, .f32⟩
  | 81 => ⟨S1015808x1, .f32⟩
  | 82 => ⟨S1015808x1, .f32⟩
  | 83 => ⟨S1015808x16, .f32⟩
  | 84 => ⟨S1015808x16, .f32⟩
  | 85 => ⟨S1015808x16, .f32⟩
  | 86 => ⟨S1015808x16, .f32⟩
  | 87 => ⟨S1015808x16, .f32⟩
  | 88 => ⟨S_, .f32⟩
  | 89 => ⟨S1015808x1, .f32⟩
  | 90 => ⟨S1015808x1, .f32⟩
  | 91 => ⟨S1015808x16, .f32⟩
  | 92 => ⟨S1015808x16, .f32⟩
  | 93 => ⟨S1015808x16, .f32⟩
  | 94 => ⟨S1015808x16, .f32⟩
  | 95 => ⟨S1015808x16, .f32⟩
  | 96 => ⟨S1015808x1, .f32⟩
  | 97 => ⟨S1015808, .f32⟩
  | 98 => ⟨S1015808x1, .f32⟩
  | 99 => ⟨S1015808, .f32⟩
  | 100 => ⟨S_, .f32⟩
  | 101 => ⟨S1015808, .f32⟩
  | 102 => ⟨S1015808, .f32⟩
  | 103 => ⟨S_, .f32⟩
  | 104 => ⟨S1015808, .f32⟩
  | 105 => ⟨S1015808, .f32⟩
  | 106 => ⟨S_, .f32⟩
  | 107 => ⟨S1015808, .f32⟩
  | 108 => ⟨S1015808, .f32⟩
  | 109 => ⟨S_, .f32⟩
  | 110 => ⟨S1015808, .f32⟩
  | 111 => ⟨S1015808, .f32⟩
  | 112 => ⟨S_, .f32⟩
  | 113 => ⟨S1015808, .f32⟩
  | 114 => ⟨S1015808, .f32⟩
  | 115 => ⟨S_, .f32⟩
  | 116 => ⟨S1015808, .f32⟩
  | 117 => ⟨S1015808, .f32⟩
  | 118 => ⟨S1015808, .f32⟩
  | 119 => ⟨S_, .i32⟩
  | 120 => ⟨S_, .i32⟩
  | 121 => ⟨S_, .f32⟩
  | 122 => ⟨S1015808, .f32⟩
  | 123 => ⟨S1015808, .f32⟩
  | 124 => ⟨S_, .f32⟩
  | 125 => ⟨S1015808, .f32⟩
  | 126 => ⟨S1015808, .f32⟩
  | 127 => ⟨S1015808, .i32⟩
  | _ => ⟨S1000000x4, .f32⟩

abbrev hbmTy0_5 (i : Nat) : BufTy := match i % 128 with
  | 0 => ⟨S_, .f32⟩
  | 1 => ⟨S1015808, .f32⟩
  | 2 => ⟨S1015808, .f32⟩
  | 3 => ⟨S_, .i32⟩
  | 4 => ⟨S_, .i32⟩
  | 5 => ⟨S_, .f32⟩
  | 6 => ⟨S1015808, .f32⟩
  | 7 => ⟨S1015808, .f32⟩
  | 8 => ⟨S_, .f32⟩
  | 9 => ⟨S1015808, .f32⟩
  | 10 => ⟨S1015808, .f32⟩
  | 11 => ⟨S1015808, .i32⟩
  | 12 => ⟨S1015808, .f32⟩
  | 13 => ⟨S1015808, .f32⟩
  | 14 => ⟨S_, .i32⟩
  | 15 => ⟨S_, .i32⟩
  | 16 => ⟨S_, .f32⟩
  | 17 => ⟨S1015808, .f32⟩
  | 18 => ⟨S1015808, .f32⟩
  | 19 => ⟨S_, .f32⟩
  | 20 => ⟨S1015808, .f32⟩
  | 21 => ⟨S1015808, .f32⟩
  | 22 => ⟨S1015808, .i32⟩
  | 23 => ⟨S_, .f32⟩
  | 24 => ⟨S1015808, .f32⟩
  | 25 => ⟨S1015808, .f32⟩
  | 26 => ⟨S_, .i32⟩
  | 27 => ⟨S_, .i32⟩
  | 28 => ⟨S_, .f32⟩
  | 29 => ⟨S1015808, .f32⟩
  | 30 => ⟨S1015808, .f32⟩
  | 31 => ⟨S_, .f32⟩
  | 32 => ⟨S1015808, .f32⟩
  | 33 => ⟨S1015808, .f32⟩
  | 34 => ⟨S1015808, .i32⟩
  | 35 => ⟨S1015808, .f32⟩
  | 36 => ⟨S_, .i32⟩
  | 37 => ⟨S1015808, .i32⟩
  | 38 => ⟨S1015808, .i32⟩
  | 39 => ⟨S1015808, .i32⟩
  | 40 => ⟨S_, .i32⟩
  | 41 => ⟨S1015808, .i32⟩
  | 42 => ⟨S1015808, .i1⟩
  | 43 => ⟨S_, .i32⟩
  | 44 => ⟨S1015808, .i32⟩
  | 45 => ⟨S1015808, .i32⟩
  | 46 => ⟨S1015808, .i32⟩
  | 47 => ⟨S1015808x1, .i32⟩
  | 48 => ⟨S1015808x16, .f32⟩
  | 49 => ⟨S_, .i32⟩
  | 50 => ⟨S1015808, .i32⟩
  | 51 => ⟨S1015808, .i32⟩
  | 52 => ⟨S1015808, .i32⟩
  | 53 => ⟨S_, .i32⟩
  | 54 => ⟨S1015808, .i32⟩
  | 55 => ⟨S1015808, .i1⟩
  | 56 => ⟨S_, .i32⟩
  | 57 => ⟨S1015808, .i32⟩
  | 58 => ⟨S1015808, .i32⟩
  | 59 => ⟨S1015808, .i32⟩
  | 60 => ⟨S1015808x1, .i32⟩
  | 61 => ⟨S1015808x16, .f32⟩
  | 62 => ⟨S_, .i32⟩
  | 63 => ⟨S1015808, .i32⟩
  | 64 => ⟨S1015808, .i32⟩
  | 65 => ⟨S1015808, .i32⟩
  | 66 => ⟨S_, .i32⟩
  | 67 => ⟨S1015808, .i32⟩
  | 68 => ⟨S1015808, .i1⟩
  | 69 => ⟨S_, .i32⟩
  | 70 => ⟨S1015808, .i32⟩
  | 71 => ⟨S1015808, .i32⟩
  | 72 => ⟨S1015808, .i32⟩
  | 73 => ⟨S1015808x1, .i32⟩
  | 74 => ⟨S1015808x16, .f32⟩
  | 75 => ⟨S_, .i32⟩
  | 76 => ⟨S1015808, .i32⟩
  | 77 => ⟨S1015808, .i32⟩
  | 78 => ⟨S1015808, .i32⟩
  | 79 => ⟨S_, .i32⟩
  | 80 => ⟨S1015808, .i32⟩
  | 81 => ⟨S1015808, .i1⟩
  | 82 => ⟨S_, .i32⟩
  | 83 => ⟨S1015808, .i32⟩
  | 84 => ⟨S1015808, .i32⟩
  | 85 => ⟨S1015808, .i32⟩
  | 86 => ⟨S1015808x1, .i32⟩
  | 87 => ⟨S1015808x16, .f32⟩
  | 88 => ⟨S1015808x1, .f32⟩
  | 89 => ⟨S1015808x1, .f32⟩
  | 90 => ⟨S_, .f32⟩
  | 91 => ⟨S1015808x1, .f32⟩
  | 92 => ⟨S1015808x1, .f32⟩
  | 93 => ⟨S1015808x16, .f32⟩
  | 94 => ⟨S1015808x16, .f32⟩
  | 95 => ⟨S1015808x16, .f32⟩
  | 96 => ⟨S1015808x16, .f32⟩
  | 97 => ⟨S1015808x16, .f32⟩
  | 98 => ⟨S_, .f32⟩
  | 99 => ⟨S1015808x1, .f32⟩
  | 100 => ⟨S1015808x1, .f32⟩
  | 101 => ⟨S1015808x16, .f32⟩
  | 102 => ⟨S1015808x16, .f32⟩
  | 103 => ⟨S1015808x16, .f32⟩
  | 104 => ⟨S1015808x16, .f32⟩
  | 105 => ⟨S1015808x16, .f32⟩
  | 106 => ⟨S_, .f32⟩
  | 107 => ⟨S1015808x1, .f32⟩
  | 108 => ⟨S1015808x1, .f32⟩
  | 109 => ⟨S1015808x16, .f32⟩
  | 110 => ⟨S1015808x16, .f32⟩
  | 111 => ⟨S1015808x16, .f32⟩
  | 112 => ⟨S1015808x16, .f32⟩
  | 113 => ⟨S1015808x16, .f32⟩
  | 114 => ⟨S1015808x1, .f32⟩
  | 115 => ⟨S1015808, .f32⟩
  | 116 => ⟨S_, .f32⟩
  | 117 => ⟨S1015808, .f32⟩
  | 118 => ⟨S1015808, .f32⟩
  | 119 => ⟨S1015808, .f32⟩
  | 120 => ⟨S1015808, .i32⟩
  | 121 => ⟨S_, .f32⟩
  | 122 => ⟨S1015808, .f32⟩
  | 123 => ⟨S1015808, .f32⟩
  | 124 => ⟨S_, .f32⟩
  | 125 => ⟨S_, .i32⟩
  | 126 => ⟨S_, .f32⟩
  | 127 => ⟨S1015808, .f32⟩
  | _ => ⟨S1000000x4, .f32⟩

abbrev hbmTy0_6 (i : Nat) : BufTy := match i % 128 with
  | 0 => ⟨S1015808, .f32⟩
  | 1 => ⟨S_, .f32⟩
  | 2 => ⟨S1015808, .f32⟩
  | 3 => ⟨S1015808, .f32⟩
  | 4 => ⟨S1015808, .i32⟩
  | 5 => ⟨S1015808, .f32⟩
  | 6 => ⟨S1015808x1, .f32⟩
  | 7 => ⟨S_, .i32⟩
  | 8 => ⟨S1015808, .i32⟩
  | 9 => ⟨S1015808, .i1⟩
  | 10 => ⟨S_, .i32⟩
  | 11 => ⟨S1015808, .i32⟩
  | 12 => ⟨S1015808, .i32⟩
  | 13 => ⟨S1015808, .i32⟩
  | 14 => ⟨S1015808x1, .i32⟩
  | 15 => ⟨S1015808x16, .f32⟩
  | 16 => ⟨S_, .i32⟩
  | 17 => ⟨S1015808, .i32⟩
  | 18 => ⟨S1015808, .i1⟩
  | 19 => ⟨S_, .i32⟩
  | 20 => ⟨S1015808, .i32⟩
  | 21 => ⟨S1015808, .i32⟩
  | 22 => ⟨S1015808, .i32⟩
  | 23 => ⟨S1015808x1, .i32⟩
  | 24 => ⟨S1015808x16, .f32⟩
  | 25 => ⟨S_, .f32⟩
  | 26 => ⟨S1015808x1, .f32⟩
  | 27 => ⟨S1015808x1, .f32⟩
  | 28 => ⟨S1015808x16, .f32⟩
  | 29 => ⟨S1015808x16, .f32⟩
  | 30 => ⟨S1015808x16, .f32⟩
  | 31 => ⟨S1015808x16, .f32⟩
  | 32 => ⟨S1015808x16, .f32⟩
  | 33 => ⟨S1015808x32, .f32⟩
  | 34 => ⟨S1000000x32, .f32⟩
  | _ => ⟨S1000000x4, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S1000000x4, .f32⟩

abbrev bufTy : (tb : Table) → Fin (tcTables nBuf tb) → BufTy
  | .hbm, ⟨i, _⟩ => hbmTy i
  | .local _ .vmem, ⟨0, _⟩ => ⟨S32768x16, .f32⟩
  | .local _ .vmem, ⟨1, _⟩ => ⟨S32768x16, .f32⟩
  | .local _ .vmem, ⟨2, _⟩ => ⟨S32768x16, .f32⟩
  | .local _ .vmem, ⟨3, _⟩ => ⟨S32768x16, .f32⟩
  | .local _ .vmem, ⟨4, _⟩ => ⟨S32768x16, .f32⟩
  | .local _ .vmem, ⟨5, _⟩ => ⟨S32768x16, .f32⟩
  | .local _ .vmem, ⟨6, _⟩ => ⟨S32768x16, .f32⟩
  | .local _ .vmem, ⟨7, _⟩ => ⟨S32768x16, .f32⟩
  | .local _ .vmem, ⟨8, _⟩ => ⟨S32768x16, .f32⟩
  | .local _ .vmem, ⟨9, _⟩ => ⟨S32768x16, .f32⟩
  | .local _ .vmem, ⟨10, _⟩ => ⟨S32768x32, .f32⟩
  | .local _ .vmem, ⟨11, _⟩ => ⟨S32768x32, .f32⟩
  | _, _ => ⟨S1000000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩
abbrev main_cst_6 : Ref sig .tc := ⟨.hbm, 46, rfl⟩
abbrev main_v31 : Ref sig .tc := ⟨.hbm, 47, rfl⟩
abbrev main_v32 : Ref sig .tc := ⟨.hbm, 48, rfl⟩
abbrev main_cst_7 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_c_8 : Ref sig .tc := ⟨.hbm, 53, rfl⟩
abbrev main_c_9 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_call1_v3 : Ref sig .tc := ⟨.hbm, 58, rfl⟩
abbrev main_call1_v4 : Ref sig .tc := ⟨.hbm, 59, rfl⟩
abbrev main_v36 : Ref sig .tc := ⟨.hbm, 60, rfl⟩
abbrev main_v37 : Ref sig .tc := ⟨.hbm, 61, rfl⟩
abbrev main_cst_10 : Ref sig .tc := ⟨.hbm, 62, rfl⟩
abbrev main_v38 : Ref sig .tc := ⟨.hbm, 63, rfl⟩
abbrev main_v39 : Ref sig .tc := ⟨.hbm, 64, rfl⟩
abbrev main_c_11 : Ref sig .tc := ⟨.hbm, 65, rfl⟩
abbrev main_c_12 : Ref sig .tc := ⟨.hbm, 66, rfl⟩
abbrev main_call2_v0 : Ref sig .tc := ⟨.hbm, 67, rfl⟩
abbrev main_call2_v1 : Ref sig .tc := ⟨.hbm, 68, rfl⟩
abbrev main_call2_v2 : Ref sig .tc := ⟨.hbm, 69, rfl⟩
abbrev main_call2_v3 : Ref sig .tc := ⟨.hbm, 70, rfl⟩
abbrev main_call2_v4 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_c_13 : Ref sig .tc := ⟨.hbm, 76, rfl⟩
abbrev main_c_14 : Ref sig .tc := ⟨.hbm, 77, rfl⟩
abbrev main_call3_v0 : Ref sig .tc := ⟨.hbm, 78, rfl⟩
abbrev main_call3_v1 : Ref sig .tc := ⟨.hbm, 79, rfl⟩
abbrev main_call3_v2 : Ref sig .tc := ⟨.hbm, 80, rfl⟩
abbrev main_call3_v3 : Ref sig .tc := ⟨.hbm, 81, rfl⟩
abbrev main_call3_v4 : Ref sig .tc := ⟨.hbm, 82, rfl⟩
abbrev main_v44 : Ref sig .tc := ⟨.hbm, 83, rfl⟩
abbrev main_v45 : Ref sig .tc := ⟨.hbm, 84, rfl⟩
abbrev main_cst_15 : Ref sig .tc := ⟨.hbm, 85, rfl⟩
abbrev main_v46 : Ref sig .tc := ⟨.hbm, 86, rfl⟩
abbrev main_v47 : Ref sig .tc := ⟨.hbm, 87, rfl⟩
abbrev main_c_16 : Ref sig .tc := ⟨.hbm, 88, rfl⟩
abbrev main_c_17 : Ref sig .tc := ⟨.hbm, 89, rfl⟩
abbrev main_call4_v0 : Ref sig .tc := ⟨.hbm, 90, rfl⟩
abbrev main_call4_v1 : Ref sig .tc := ⟨.hbm, 91, rfl⟩
abbrev main_call4_v2 : Ref sig .tc := ⟨.hbm, 92, rfl⟩
abbrev main_call4_v3 : Ref sig .tc := ⟨.hbm, 93, rfl⟩
abbrev main_call4_v4 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_c_18 : Ref sig .tc := ⟨.hbm, 99, rfl⟩
abbrev main_c_19 : Ref sig .tc := ⟨.hbm, 100, rfl⟩
abbrev main_call5_v0 : Ref sig .tc := ⟨.hbm, 101, rfl⟩
abbrev main_call5_v1 : Ref sig .tc := ⟨.hbm, 102, rfl⟩
abbrev main_call5_v2 : Ref sig .tc := ⟨.hbm, 103, rfl⟩
abbrev main_call5_v3 : Ref sig .tc := ⟨.hbm, 104, rfl⟩
abbrev main_call5_v4 : Ref sig .tc := ⟨.hbm, 105, rfl⟩
abbrev main_v52 : Ref sig .tc := ⟨.hbm, 106, rfl⟩
abbrev main_v53 : Ref sig .tc := ⟨.hbm, 107, rfl⟩
abbrev main_cst_20 : Ref sig .tc := ⟨.hbm, 108, rfl⟩
abbrev main_v54 : Ref sig .tc := ⟨.hbm, 109, rfl⟩
abbrev main_v55 : Ref sig .tc := ⟨.hbm, 110, rfl⟩
abbrev main_c_21 : Ref sig .tc := ⟨.hbm, 111, rfl⟩
abbrev main_c_22 : Ref sig .tc := ⟨.hbm, 112, rfl⟩
abbrev main_call6_v0 : Ref sig .tc := ⟨.hbm, 113, rfl⟩
abbrev main_call6_v1 : Ref sig .tc := ⟨.hbm, 114, rfl⟩
abbrev main_call6_v2 : Ref sig .tc := ⟨.hbm, 115, rfl⟩
abbrev main_call6_v3 : Ref sig .tc := ⟨.hbm, 116, rfl⟩
abbrev main_call6_v4 : Ref sig .tc := ⟨.hbm, 117, rfl⟩
abbrev main_v56 : Ref sig .tc := ⟨.hbm, 118, rfl⟩
abbrev main_v57 : Ref sig .tc := ⟨.hbm, 119, rfl⟩
abbrev main_v58 : Ref sig .tc := ⟨.hbm, 120, rfl⟩
abbrev main_c_23 : Ref sig .tc := ⟨.hbm, 121, rfl⟩
abbrev main_v59 : Ref sig .tc := ⟨.hbm, 122, rfl⟩
abbrev main_v60 : Ref sig .tc := ⟨.hbm, 123, rfl⟩
abbrev main_c_24 : Ref sig .tc := ⟨.hbm, 124, rfl⟩
abbrev main_v61 : Ref sig .tc := ⟨.hbm, 125, rfl⟩
abbrev main_v62 : Ref sig .tc := ⟨.hbm, 126, rfl⟩
abbrev main_v63 : Ref sig .tc := ⟨.hbm, 127, rfl⟩
abbrev main_v64 : Ref sig .tc := ⟨.hbm, 128, rfl⟩
abbrev main_c_25 : Ref sig .tc := ⟨.hbm, 129, rfl⟩
abbrev main_v65 : Ref sig .tc := ⟨.hbm, 130, rfl⟩
abbrev main_v66 : Ref sig .tc := ⟨.hbm, 131, rfl⟩
abbrev main_c_26 : Ref sig .tc := ⟨.hbm, 132, rfl⟩
abbrev main_v67 : Ref sig .tc := ⟨.hbm, 133, rfl⟩
abbrev main_v68 : Ref sig .tc := ⟨.hbm, 134, rfl⟩
abbrev main_v69 : Ref sig .tc := ⟨.hbm, 135, rfl⟩
abbrev main_v70 : Ref sig .tc := ⟨.hbm, 136, rfl⟩
abbrev main_v71 : Ref sig .tc := ⟨.hbm, 137, rfl⟩
abbrev main_c_27 : Ref sig .tc := ⟨.hbm, 138, rfl⟩
abbrev main_v72 : Ref sig .tc := ⟨.hbm, 139, rfl⟩
abbrev main_v73 : Ref sig .tc := ⟨.hbm, 140, rfl⟩
abbrev main_c_28 : Ref sig .tc := ⟨.hbm, 141, rfl⟩
abbrev main_v74 : Ref sig .tc := ⟨.hbm, 142, rfl⟩
abbrev main_v75 : Ref sig .tc := ⟨.hbm, 143, rfl⟩
abbrev main_v76 : Ref sig .tc := ⟨.hbm, 144, rfl⟩
abbrev main_v77 : Ref sig .tc := ⟨.hbm, 145, rfl⟩
abbrev main_c_29 : Ref sig .tc := ⟨.hbm, 146, rfl⟩
abbrev main_v78 : Ref sig .tc := ⟨.hbm, 147, rfl⟩
abbrev main_v79 : Ref sig .tc := ⟨.hbm, 148, rfl⟩
abbrev main_c_30 : Ref sig .tc := ⟨.hbm, 149, rfl⟩
abbrev main_v80 : Ref sig .tc := ⟨.hbm, 150, rfl⟩
abbrev main_v81 : Ref sig .tc := ⟨.hbm, 151, rfl⟩
abbrev main_v82 : Ref sig .tc := ⟨.hbm, 152, rfl⟩
abbrev main_v83 : Ref sig .tc := ⟨.hbm, 153, rfl⟩
abbrev main_v84 : Ref sig .tc := ⟨.hbm, 154, rfl⟩
abbrev main_c_31 : Ref sig .tc := ⟨.hbm, 155, rfl⟩
abbrev main_v85 : Ref sig .tc := ⟨.hbm, 156, rfl⟩
abbrev main_v86 : Ref sig .tc := ⟨.hbm, 157, rfl⟩
abbrev main_c_32 : Ref sig .tc := ⟨.hbm, 158, rfl⟩
abbrev main_v87 : Ref sig .tc := ⟨.hbm, 159, rfl⟩
abbrev main_v88 : Ref sig .tc := ⟨.hbm, 160, rfl⟩
abbrev main_v89 : Ref sig .tc := ⟨.hbm, 161, rfl⟩
abbrev main_v90 : Ref sig .tc := ⟨.hbm, 162, rfl⟩
abbrev main_c_33 : Ref sig .tc := ⟨.hbm, 163, rfl⟩
abbrev main_v91 : Ref sig .tc := ⟨.hbm, 164, rfl⟩
abbrev main_v92 : Ref sig .tc := ⟨.hbm, 165, rfl⟩
abbrev main_c_34 : Ref sig .tc := ⟨.hbm, 166, rfl⟩
abbrev main_v93 : Ref sig .tc := ⟨.hbm, 167, rfl⟩
abbrev main_v94 : Ref sig .tc := ⟨.hbm, 168, rfl⟩
abbrev main_v95 : Ref sig .tc := ⟨.hbm, 169, rfl⟩
abbrev main_v96 : Ref sig .tc := ⟨.hbm, 170, rfl⟩
abbrev main_v97 : Ref sig .tc := ⟨.hbm, 171, rfl⟩
abbrev main_c_35 : Ref sig .tc := ⟨.hbm, 172, rfl⟩
abbrev main_v98 : Ref sig .tc := ⟨.hbm, 173, rfl⟩
abbrev main_v99 : Ref sig .tc := ⟨.hbm, 174, rfl⟩
abbrev main_c_36 : Ref sig .tc := ⟨.hbm, 175, rfl⟩
abbrev main_v100 : Ref sig .tc := ⟨.hbm, 176, rfl⟩
abbrev main_v101 : Ref sig .tc := ⟨.hbm, 177, rfl⟩
abbrev main_v102 : Ref sig .tc := ⟨.hbm, 178, rfl⟩
abbrev main_v103 : Ref sig .tc := ⟨.hbm, 179, rfl⟩
abbrev main_c_37 : Ref sig .tc := ⟨.hbm, 180, rfl⟩
abbrev main_v104 : Ref sig .tc := ⟨.hbm, 181, rfl⟩
abbrev main_v105 : Ref sig .tc := ⟨.hbm, 182, rfl⟩
abbrev main_c_38 : Ref sig .tc := ⟨.hbm, 183, rfl⟩
abbrev main_v106 : Ref sig .tc := ⟨.hbm, 184, rfl⟩
abbrev main_v107 : Ref sig .tc := ⟨.hbm, 185, rfl⟩
abbrev main_v108 : Ref sig .tc := ⟨.hbm, 186, rfl⟩
abbrev main_v109 : Ref sig .tc := ⟨.hbm, 187, rfl⟩
abbrev main_v110 : Ref sig .tc := ⟨.hbm, 188, rfl⟩
abbrev main_c_39 : Ref sig .tc := ⟨.hbm, 189, rfl⟩
abbrev main_v111 : Ref sig .tc := ⟨.hbm, 190, rfl⟩
abbrev main_v112 : Ref sig .tc := ⟨.hbm, 191, rfl⟩
abbrev main_c_40 : Ref sig .tc := ⟨.hbm, 192, rfl⟩
abbrev main_v113 : Ref sig .tc := ⟨.hbm, 193, rfl⟩
abbrev main_v114 : Ref sig .tc := ⟨.hbm, 194, rfl⟩
abbrev main_v115 : Ref sig .tc := ⟨.hbm, 195, rfl⟩
abbrev main_v116 : Ref sig .tc := ⟨.hbm, 196, rfl⟩
abbrev main_c_41 : Ref sig .tc := ⟨.hbm, 197, rfl⟩
abbrev main_v117 : Ref sig .tc := ⟨.hbm, 198, rfl⟩
abbrev main_v118 : Ref sig .tc := ⟨.hbm, 199, rfl⟩
abbrev main_c_42 : Ref sig .tc := ⟨.hbm, 200, rfl⟩
abbrev main_v119 : Ref sig .tc := ⟨.hbm, 201, rfl⟩
abbrev main_v120 : Ref sig .tc := ⟨.hbm, 202, rfl⟩
abbrev main_v121 : Ref sig .tc := ⟨.hbm, 203, rfl⟩
abbrev main_v122 : Ref sig .tc := ⟨.hbm, 204, rfl⟩
abbrev main_v123 : Ref sig .tc := ⟨.hbm, 205, rfl⟩
abbrev main_c_43 : Ref sig .tc := ⟨.hbm, 206, rfl⟩
abbrev main_v124 : Ref sig .tc := ⟨.hbm, 207, rfl⟩
abbrev main_v125 : Ref sig .tc := ⟨.hbm, 208, rfl⟩
abbrev main_c_44 : Ref sig .tc := ⟨.hbm, 209, rfl⟩
abbrev main_v126 : Ref sig .tc := ⟨.hbm, 210, rfl⟩
abbrev main_v127 : Ref sig .tc := ⟨.hbm, 211, rfl⟩
abbrev main_v128 : Ref sig .tc := ⟨.hbm, 212, rfl⟩
abbrev main_v129 : Ref sig .tc := ⟨.hbm, 213, rfl⟩
abbrev main_c_45 : Ref sig .tc := ⟨.hbm, 214, rfl⟩
abbrev main_v130 : Ref sig .tc := ⟨.hbm, 215, rfl⟩
abbrev main_v131 : Ref sig .tc := ⟨.hbm, 216, rfl⟩
abbrev main_c_46 : Ref sig .tc := ⟨.hbm, 217, rfl⟩
abbrev main_v132 : Ref sig .tc := ⟨.hbm, 218, rfl⟩
abbrev main_v133 : Ref sig .tc := ⟨.hbm, 219, rfl⟩
abbrev main_v134 : Ref sig .tc := ⟨.hbm, 220, rfl⟩
abbrev main_v135 : Ref sig .tc := ⟨.hbm, 221, rfl⟩
abbrev main_v136 : Ref sig .tc := ⟨.hbm, 222, rfl⟩
abbrev main_c_47 : Ref sig .tc := ⟨.hbm, 223, rfl⟩
abbrev main_v137 : Ref sig .tc := ⟨.hbm, 224, rfl⟩
abbrev main_v138 : Ref sig .tc := ⟨.hbm, 225, rfl⟩
abbrev main_c_48 : Ref sig .tc := ⟨.hbm, 226, rfl⟩
abbrev main_v139 : Ref sig .tc := ⟨.hbm, 227, rfl⟩
abbrev main_v140 : Ref sig .tc := ⟨.hbm, 228, rfl⟩
abbrev main_v141 : Ref sig .tc := ⟨.hbm, 229, rfl⟩
abbrev main_v142 : Ref sig .tc := ⟨.hbm, 230, rfl⟩
abbrev main_c_49 : Ref sig .tc := ⟨.hbm, 231, rfl⟩
abbrev main_v143 : Ref sig .tc := ⟨.hbm, 232, rfl⟩
abbrev main_v144 : Ref sig .tc := ⟨.hbm, 233, rfl⟩
abbrev main_c_50 : Ref sig .tc := ⟨.hbm, 234, rfl⟩
abbrev main_v145 : Ref sig .tc := ⟨.hbm, 235, rfl⟩
abbrev main_v146 : Ref sig .tc := ⟨.hbm, 236, rfl⟩
abbrev main_v147 : Ref sig .tc := ⟨.hbm, 237, rfl⟩
abbrev main_v148 : Ref sig .tc := ⟨.hbm, 238, rfl⟩
abbrev main_v149 : Ref sig .tc := ⟨.hbm, 239, rfl⟩
abbrev main_c_51 : Ref sig .tc := ⟨.hbm, 240, rfl⟩
abbrev main_v150 : Ref sig .tc := ⟨.hbm, 241, rfl⟩
abbrev main_v151 : Ref sig .tc := ⟨.hbm, 242, rfl⟩
abbrev main_c_52 : Ref sig .tc := ⟨.hbm, 243, rfl⟩
abbrev main_v152 : Ref sig .tc := ⟨.hbm, 244, rfl⟩
abbrev main_v153 : Ref sig .tc := ⟨.hbm, 245, rfl⟩
abbrev main_v154 : Ref sig .tc := ⟨.hbm, 246, rfl⟩
abbrev main_v155 : Ref sig .tc := ⟨.hbm, 247, rfl⟩
abbrev main_c_53 : Ref sig .tc := ⟨.hbm, 248, rfl⟩
abbrev main_v156 : Ref sig .tc := ⟨.hbm, 249, rfl⟩
abbrev main_v157 : Ref sig .tc := ⟨.hbm, 250, rfl⟩
abbrev main_c_54 : Ref sig .tc := ⟨.hbm, 251, rfl⟩
abbrev main_v158 : Ref sig .tc := ⟨.hbm, 252, rfl⟩
abbrev main_v159 : Ref sig .tc := ⟨.hbm, 253, rfl⟩
abbrev main_v160 : Ref sig .tc := ⟨.hbm, 254, rfl⟩
abbrev main_v161 : Ref sig .tc := ⟨.hbm, 255, rfl⟩
abbrev main_v162 : Ref sig .tc := ⟨.hbm, 256, rfl⟩
abbrev main_v163 : Ref sig .tc := ⟨.hbm, 257, rfl⟩
abbrev main_v164 : Ref sig .tc := ⟨.hbm, 258, rfl⟩
abbrev main_v165 : Ref sig .tc := ⟨.hbm, 259, rfl⟩
abbrev main_cst_55 : Ref sig .tc := ⟨.hbm, 260, rfl⟩
abbrev main_v166 : Ref sig .tc := ⟨.hbm, 261, rfl⟩
abbrev main_v167 : Ref sig .tc := ⟨.hbm, 262, rfl⟩
abbrev main_v168 : Ref sig .tc := ⟨.hbm, 263, rfl⟩
abbrev main_v169 : Ref sig .tc := ⟨.hbm, 264, rfl⟩
abbrev main_v170 : Ref sig .tc := ⟨.hbm, 265, rfl⟩
abbrev main_v171 : Ref sig .tc := ⟨.hbm, 266, rfl⟩
abbrev main_v172 : Ref sig .tc := ⟨.hbm, 267, rfl⟩
abbrev main_cst_56 : Ref sig .tc := ⟨.hbm, 268, rfl⟩
abbrev main_v173 : Ref sig .tc := ⟨.hbm, 269, rfl⟩
abbrev main_v174 : Ref sig .tc := ⟨.hbm, 270, rfl⟩
abbrev main_v175 : Ref sig .tc := ⟨.hbm, 271, rfl⟩
abbrev main_v176 : Ref sig .tc := ⟨.hbm, 272, rfl⟩
abbrev main_v177 : Ref sig .tc := ⟨.hbm, 273, rfl⟩
abbrev main_v178 : Ref sig .tc := ⟨.hbm, 274, rfl⟩
abbrev main_v179 : Ref sig .tc := ⟨.hbm, 275, rfl⟩
abbrev main_cst_57 : Ref sig .tc := ⟨.hbm, 276, rfl⟩
abbrev main_v180 : Ref sig .tc := ⟨.hbm, 277, rfl⟩
abbrev main_v181 : Ref sig .tc := ⟨.hbm, 278, rfl⟩
abbrev main_v182 : Ref sig .tc := ⟨.hbm, 279, rfl⟩
abbrev main_v183 : Ref sig .tc := ⟨.hbm, 280, rfl⟩
abbrev main_v184 : Ref sig .tc := ⟨.hbm, 281, rfl⟩
abbrev main_v185 : Ref sig .tc := ⟨.hbm, 282, rfl⟩
abbrev main_v186 : Ref sig .tc := ⟨.hbm, 283, rfl⟩
abbrev main_cst_58 : Ref sig .tc := ⟨.hbm, 284, rfl⟩
abbrev main_v187 : Ref sig .tc := ⟨.hbm, 285, rfl⟩
abbrev main_v188 : Ref sig .tc := ⟨.hbm, 286, rfl⟩
abbrev main_v189 : Ref sig .tc := ⟨.hbm, 287, rfl⟩
abbrev main_v190 : Ref sig .tc := ⟨.hbm, 288, rfl⟩
abbrev main_v191 : Ref sig .tc := ⟨.hbm, 289, rfl⟩
abbrev main_v192 : Ref sig .tc := ⟨.hbm, 290, rfl⟩
abbrev main_v193 : Ref sig .tc := ⟨.hbm, 291, rfl⟩
abbrev main_cst_59 : Ref sig .tc := ⟨.hbm, 292, rfl⟩
abbrev main_v194 : Ref sig .tc := ⟨.hbm, 293, rfl⟩
abbrev main_v195 : Ref sig .tc := ⟨.hbm, 294, rfl⟩
abbrev main_v196 : Ref sig .tc := ⟨.hbm, 295, rfl⟩
abbrev main_v197 : Ref sig .tc := ⟨.hbm, 296, rfl⟩
abbrev main_v198 : Ref sig .tc := ⟨.hbm, 297, rfl⟩
abbrev main_v199 : Ref sig .tc := ⟨.hbm, 298, rfl⟩
abbrev main_v200 : Ref sig .tc := ⟨.hbm, 299, rfl⟩
abbrev main_cst_60 : Ref sig .tc := ⟨.hbm, 300, rfl⟩
abbrev main_v201 : Ref sig .tc := ⟨.hbm, 301, rfl⟩
abbrev main_v202 : Ref sig .tc := ⟨.hbm, 302, rfl⟩
abbrev main_v203 : Ref sig .tc := ⟨.hbm, 303, rfl⟩
abbrev main_v204 : Ref sig .tc := ⟨.hbm, 304, rfl⟩
abbrev main_v205 : Ref sig .tc := ⟨.hbm, 305, rfl⟩
abbrev main_v206 : Ref sig .tc := ⟨.hbm, 306, rfl⟩
abbrev main_v207 : Ref sig .tc := ⟨.hbm, 307, rfl⟩
abbrev main_cst_61 : Ref sig .tc := ⟨.hbm, 308, rfl⟩
abbrev main_v208 : Ref sig .tc := ⟨.hbm, 309, rfl⟩
abbrev main_v209 : Ref sig .tc := ⟨.hbm, 310, rfl⟩
abbrev main_v210 : Ref sig .tc := ⟨.hbm, 311, rfl⟩
abbrev main_v211 : Ref sig .tc := ⟨.hbm, 312, rfl⟩
abbrev main_v212 : Ref sig .tc := ⟨.hbm, 313, rfl⟩
abbrev main_v213 : Ref sig .tc := ⟨.hbm, 314, rfl⟩
abbrev main_v214 : Ref sig .tc := ⟨.hbm, 315, rfl⟩
abbrev main_v215 : Ref sig .tc := ⟨.hbm, 316, rfl⟩
abbrev main_v216 : Ref sig .tc := ⟨.hbm, 317, rfl⟩
abbrev main_v217 : Ref sig .tc := ⟨.hbm, 318, rfl⟩
abbrev main_v218 : Ref sig .tc := ⟨.hbm, 319, rfl⟩
abbrev main_cst_62 : Ref sig .tc := ⟨.hbm, 320, rfl⟩
abbrev main_v219 : Ref sig .tc := ⟨.hbm, 321, rfl⟩
abbrev main_v220 : Ref sig .tc := ⟨.hbm, 322, rfl⟩
abbrev main_cst_63 : Ref sig .tc := ⟨.hbm, 323, rfl⟩
abbrev main_v221 : Ref sig .tc := ⟨.hbm, 324, rfl⟩
abbrev main_v222 : Ref sig .tc := ⟨.hbm, 325, rfl⟩
abbrev main_cst_64 : Ref sig .tc := ⟨.hbm, 326, rfl⟩
abbrev main_v223 : Ref sig .tc := ⟨.hbm, 327, rfl⟩
abbrev main_v224 : Ref sig .tc := ⟨.hbm, 328, rfl⟩
abbrev main_cst_65 : Ref sig .tc := ⟨.hbm, 329, rfl⟩
abbrev main_v225 : Ref sig .tc := ⟨.hbm, 330, rfl⟩
abbrev main_v226 : Ref sig .tc := ⟨.hbm, 331, rfl⟩
abbrev main_cst_66 : Ref sig .tc := ⟨.hbm, 332, rfl⟩
abbrev main_v227 : Ref sig .tc := ⟨.hbm, 333, rfl⟩
abbrev main_v228 : Ref sig .tc := ⟨.hbm, 334, rfl⟩
abbrev main_cst_67 : Ref sig .tc := ⟨.hbm, 335, rfl⟩
abbrev main_v229 : Ref sig .tc := ⟨.hbm, 336, rfl⟩
abbrev main_v230 : Ref sig .tc := ⟨.hbm, 337, rfl⟩
abbrev main_v231 : Ref sig .tc := ⟨.hbm, 338, rfl⟩
abbrev main_c_68 : Ref sig .tc := ⟨.hbm, 339, rfl⟩
abbrev main_c_69 : Ref sig .tc := ⟨.hbm, 340, rfl⟩
abbrev main_call7_v0 : Ref sig .tc := ⟨.hbm, 341, rfl⟩
abbrev main_call7_v1 : Ref sig .tc := ⟨.hbm, 342, rfl⟩
abbrev main_call7_v2 : Ref sig .tc := ⟨.hbm, 343, rfl⟩
abbrev main_call7_v3 : Ref sig .tc := ⟨.hbm, 344, rfl⟩
abbrev main_call7_v4 : Ref sig .tc := ⟨.hbm, 345, rfl⟩
abbrev main_v232 : Ref sig .tc := ⟨.hbm, 346, rfl⟩
abbrev main_v233 : Ref sig .tc := ⟨.hbm, 347, rfl⟩
abbrev main_cst_70 : Ref sig .tc := ⟨.hbm, 348, rfl⟩
abbrev main_v234 : Ref sig .tc := ⟨.hbm, 349, rfl⟩
abbrev main_v235 : Ref sig .tc := ⟨.hbm, 350, rfl⟩
abbrev main_c_71 : Ref sig .tc := ⟨.hbm, 351, rfl⟩
abbrev main_c_72 : Ref sig .tc := ⟨.hbm, 352, rfl⟩
abbrev main_call8_v0 : Ref sig .tc := ⟨.hbm, 353, rfl⟩
abbrev main_call8_v1 : Ref sig .tc := ⟨.hbm, 354, rfl⟩
abbrev main_call8_v2 : Ref sig .tc := ⟨.hbm, 355, rfl⟩
abbrev main_call8_v3 : Ref sig .tc := ⟨.hbm, 356, rfl⟩
abbrev main_call8_v4 : Ref sig .tc := ⟨.hbm, 357, rfl⟩
abbrev main_v236 : Ref sig .tc := ⟨.hbm, 358, rfl⟩
abbrev main_v237 : Ref sig .tc := ⟨.hbm, 359, rfl⟩
abbrev main_v238 : Ref sig .tc := ⟨.hbm, 360, rfl⟩
abbrev main_v239 : Ref sig .tc := ⟨.hbm, 361, rfl⟩
abbrev main_c_73 : Ref sig .tc := ⟨.hbm, 362, rfl⟩
abbrev main_c_74 : Ref sig .tc := ⟨.hbm, 363, rfl⟩
abbrev main_call9_v0 : Ref sig .tc := ⟨.hbm, 364, rfl⟩
abbrev main_call9_v1 : Ref sig .tc := ⟨.hbm, 365, rfl⟩
abbrev main_call9_v2 : Ref sig .tc := ⟨.hbm, 366, rfl⟩
abbrev main_call9_v3 : Ref sig .tc := ⟨.hbm, 367, rfl⟩
abbrev main_call9_v4 : Ref sig .tc := ⟨.hbm, 368, rfl⟩
abbrev main_v240 : Ref sig .tc := ⟨.hbm, 369, rfl⟩
abbrev main_v241 : Ref sig .tc := ⟨.hbm, 370, rfl⟩
abbrev main_cst_75 : Ref sig .tc := ⟨.hbm, 371, rfl⟩
abbrev main_v242 : Ref sig .tc := ⟨.hbm, 372, rfl⟩
abbrev main_v243 : Ref sig .tc := ⟨.hbm, 373, rfl⟩
abbrev main_c_76 : Ref sig .tc := ⟨.hbm, 374, rfl⟩
abbrev main_c_77 : Ref sig .tc := ⟨.hbm, 375, rfl⟩
abbrev main_call10_v0 : Ref sig .tc := ⟨.hbm, 376, rfl⟩
abbrev main_call10_v1 : Ref sig .tc := ⟨.hbm, 377, rfl⟩
abbrev main_call10_v2 : Ref sig .tc := ⟨.hbm, 378, rfl⟩
abbrev main_call10_v3 : Ref sig .tc := ⟨.hbm, 379, rfl⟩
abbrev main_call10_v4 : Ref sig .tc := ⟨.hbm, 380, rfl⟩
abbrev main_v244 : Ref sig .tc := ⟨.hbm, 381, rfl⟩
abbrev main_v245 : Ref sig .tc := ⟨.hbm, 382, rfl⟩
abbrev main_v246 : Ref sig .tc := ⟨.hbm, 383, rfl⟩
abbrev main_c_78 : Ref sig .tc := ⟨.hbm, 384, rfl⟩
abbrev main_v247 : Ref sig .tc := ⟨.hbm, 385, rfl⟩
abbrev main_v248 : Ref sig .tc := ⟨.hbm, 386, rfl⟩
abbrev main_v249 : Ref sig .tc := ⟨.hbm, 387, rfl⟩
abbrev main_c_79 : Ref sig .tc := ⟨.hbm, 388, rfl⟩
abbrev main_v250 : Ref sig .tc := ⟨.hbm, 389, rfl⟩
abbrev main_v251 : Ref sig .tc := ⟨.hbm, 390, rfl⟩
abbrev main_c_80 : Ref sig .tc := ⟨.hbm, 391, rfl⟩
abbrev main_v252 : Ref sig .tc := ⟨.hbm, 392, rfl⟩
abbrev main_v253 : Ref sig .tc := ⟨.hbm, 393, rfl⟩
abbrev main_v254 : Ref sig .tc := ⟨.hbm, 394, rfl⟩
abbrev main_v255 : Ref sig .tc := ⟨.hbm, 395, rfl⟩
abbrev main_v256 : Ref sig .tc := ⟨.hbm, 396, rfl⟩
abbrev main_c_81 : Ref sig .tc := ⟨.hbm, 397, rfl⟩
abbrev main_v257 : Ref sig .tc := ⟨.hbm, 398, rfl⟩
abbrev main_v258 : Ref sig .tc := ⟨.hbm, 399, rfl⟩
abbrev main_v259 : Ref sig .tc := ⟨.hbm, 400, rfl⟩
abbrev main_c_82 : Ref sig .tc := ⟨.hbm, 401, rfl⟩
abbrev main_v260 : Ref sig .tc := ⟨.hbm, 402, rfl⟩
abbrev main_v261 : Ref sig .tc := ⟨.hbm, 403, rfl⟩
abbrev main_c_83 : Ref sig .tc := ⟨.hbm, 404, rfl⟩
abbrev main_v262 : Ref sig .tc := ⟨.hbm, 405, rfl⟩
abbrev main_v263 : Ref sig .tc := ⟨.hbm, 406, rfl⟩
abbrev main_v264 : Ref sig .tc := ⟨.hbm, 407, rfl⟩
abbrev main_v265 : Ref sig .tc := ⟨.hbm, 408, rfl⟩
abbrev main_v266 : Ref sig .tc := ⟨.hbm, 409, rfl⟩
abbrev main_c_84 : Ref sig .tc := ⟨.hbm, 410, rfl⟩
abbrev main_v267 : Ref sig .tc := ⟨.hbm, 411, rfl⟩
abbrev main_v268 : Ref sig .tc := ⟨.hbm, 412, rfl⟩
abbrev main_v269 : Ref sig .tc := ⟨.hbm, 413, rfl⟩
abbrev main_c_85 : Ref sig .tc := ⟨.hbm, 414, rfl⟩
abbrev main_v270 : Ref sig .tc := ⟨.hbm, 415, rfl⟩
abbrev main_v271 : Ref sig .tc := ⟨.hbm, 416, rfl⟩
abbrev main_c_86 : Ref sig .tc := ⟨.hbm, 417, rfl⟩
abbrev main_v272 : Ref sig .tc := ⟨.hbm, 418, rfl⟩
abbrev main_v273 : Ref sig .tc := ⟨.hbm, 419, rfl⟩
abbrev main_v274 : Ref sig .tc := ⟨.hbm, 420, rfl⟩
abbrev main_v275 : Ref sig .tc := ⟨.hbm, 421, rfl⟩
abbrev main_v276 : Ref sig .tc := ⟨.hbm, 422, rfl⟩
abbrev main_c_87 : Ref sig .tc := ⟨.hbm, 423, rfl⟩
abbrev main_v277 : Ref sig .tc := ⟨.hbm, 424, rfl⟩
abbrev main_v278 : Ref sig .tc := ⟨.hbm, 425, rfl⟩
abbrev main_v279 : Ref sig .tc := ⟨.hbm, 426, rfl⟩
abbrev main_c_88 : Ref sig .tc := ⟨.hbm, 427, rfl⟩
abbrev main_v280 : Ref sig .tc := ⟨.hbm, 428, rfl⟩
abbrev main_v281 : Ref sig .tc := ⟨.hbm, 429, rfl⟩
abbrev main_c_89 : Ref sig .tc := ⟨.hbm, 430, rfl⟩
abbrev main_v282 : Ref sig .tc := ⟨.hbm, 431, rfl⟩
abbrev main_v283 : Ref sig .tc := ⟨.hbm, 432, rfl⟩
abbrev main_v284 : Ref sig .tc := ⟨.hbm, 433, rfl⟩
abbrev main_v285 : Ref sig .tc := ⟨.hbm, 434, rfl⟩
abbrev main_v286 : Ref sig .tc := ⟨.hbm, 435, rfl⟩
abbrev main_v287 : Ref sig .tc := ⟨.hbm, 436, rfl⟩
abbrev main_v288 : Ref sig .tc := ⟨.hbm, 437, rfl⟩
abbrev main_cst_90 : Ref sig .tc := ⟨.hbm, 438, rfl⟩
abbrev main_v289 : Ref sig .tc := ⟨.hbm, 439, rfl⟩
abbrev main_v290 : Ref sig .tc := ⟨.hbm, 440, rfl⟩
abbrev main_v291 : Ref sig .tc := ⟨.hbm, 441, rfl⟩
abbrev main_v292 : Ref sig .tc := ⟨.hbm, 442, rfl⟩
abbrev main_v293 : Ref sig .tc := ⟨.hbm, 443, rfl⟩
abbrev main_v294 : Ref sig .tc := ⟨.hbm, 444, rfl⟩
abbrev main_v295 : Ref sig .tc := ⟨.hbm, 445, rfl⟩
abbrev main_cst_91 : Ref sig .tc := ⟨.hbm, 446, rfl⟩
abbrev main_v296 : Ref sig .tc := ⟨.hbm, 447, rfl⟩
abbrev main_v297 : Ref sig .tc := ⟨.hbm, 448, rfl⟩
abbrev main_v298 : Ref sig .tc := ⟨.hbm, 449, rfl⟩
abbrev main_v299 : Ref sig .tc := ⟨.hbm, 450, rfl⟩
abbrev main_v300 : Ref sig .tc := ⟨.hbm, 451, rfl⟩
abbrev main_v301 : Ref sig .tc := ⟨.hbm, 452, rfl⟩
abbrev main_v302 : Ref sig .tc := ⟨.hbm, 453, rfl⟩
abbrev main_cst_92 : Ref sig .tc := ⟨.hbm, 454, rfl⟩
abbrev main_v303 : Ref sig .tc := ⟨.hbm, 455, rfl⟩
abbrev main_v304 : Ref sig .tc := ⟨.hbm, 456, rfl⟩
abbrev main_v305 : Ref sig .tc := ⟨.hbm, 457, rfl⟩
abbrev main_v306 : Ref sig .tc := ⟨.hbm, 458, rfl⟩
abbrev main_v307 : Ref sig .tc := ⟨.hbm, 459, rfl⟩
abbrev main_v308 : Ref sig .tc := ⟨.hbm, 460, rfl⟩
abbrev main_v309 : Ref sig .tc := ⟨.hbm, 461, rfl⟩
abbrev main_v310 : Ref sig .tc := ⟨.hbm, 462, rfl⟩
abbrev main_v311 : Ref sig .tc := ⟨.hbm, 463, rfl⟩
abbrev main_v312 : Ref sig .tc := ⟨.hbm, 464, rfl⟩
abbrev main_v313 : Ref sig .tc := ⟨.hbm, 465, rfl⟩
abbrev main_cst_93 : Ref sig .tc := ⟨.hbm, 466, rfl⟩
abbrev main_v314 : Ref sig .tc := ⟨.hbm, 467, rfl⟩
abbrev main_v315 : Ref sig .tc := ⟨.hbm, 468, rfl⟩
abbrev main_cst_94 : Ref sig .tc := ⟨.hbm, 469, rfl⟩
abbrev main_v316 : Ref sig .tc := ⟨.hbm, 470, rfl⟩
abbrev main_v317 : Ref sig .tc := ⟨.hbm, 471, rfl⟩
abbrev main_cst_95 : Ref sig .tc := ⟨.hbm, 472, rfl⟩
abbrev main_v318 : Ref sig .tc := ⟨.hbm, 473, rfl⟩
abbrev main_v319 : Ref sig .tc := ⟨.hbm, 474, rfl⟩
abbrev main_cst_96 : Ref sig .tc := ⟨.hbm, 475, rfl⟩
abbrev main_v320 : Ref sig .tc := ⟨.hbm, 476, rfl⟩
abbrev main_v321 : Ref sig .tc := ⟨.hbm, 477, rfl⟩
abbrev main_cst_97 : Ref sig .tc := ⟨.hbm, 478, rfl⟩
abbrev main_v322 : Ref sig .tc := ⟨.hbm, 479, rfl⟩
abbrev main_v323 : Ref sig .tc := ⟨.hbm, 480, rfl⟩
abbrev main_cst_98 : Ref sig .tc := ⟨.hbm, 481, rfl⟩
abbrev main_v324 : Ref sig .tc := ⟨.hbm, 482, rfl⟩
abbrev main_v325 : Ref sig .tc := ⟨.hbm, 483, rfl⟩
abbrev main_v326 : Ref sig .tc := ⟨.hbm, 484, rfl⟩
abbrev main_c_99 : Ref sig .tc := ⟨.hbm, 485, rfl⟩
abbrev main_c_100 : Ref sig .tc := ⟨.hbm, 486, rfl⟩
abbrev main_call11_v0 : Ref sig .tc := ⟨.hbm, 487, rfl⟩
abbrev main_call11_v1 : Ref sig .tc := ⟨.hbm, 488, rfl⟩
abbrev main_call11_v2 : Ref sig .tc := ⟨.hbm, 489, rfl⟩
abbrev main_call11_v3 : Ref sig .tc := ⟨.hbm, 490, rfl⟩
abbrev main_call11_v4 : Ref sig .tc := ⟨.hbm, 491, rfl⟩
abbrev main_v327 : Ref sig .tc := ⟨.hbm, 492, rfl⟩
abbrev main_v328 : Ref sig .tc := ⟨.hbm, 493, rfl⟩
abbrev main_cst_101 : Ref sig .tc := ⟨.hbm, 494, rfl⟩
abbrev main_v329 : Ref sig .tc := ⟨.hbm, 495, rfl⟩
abbrev main_v330 : Ref sig .tc := ⟨.hbm, 496, rfl⟩
abbrev main_c_102 : Ref sig .tc := ⟨.hbm, 497, rfl⟩
abbrev main_c_103 : Ref sig .tc := ⟨.hbm, 498, rfl⟩
abbrev main_call12_v0 : Ref sig .tc := ⟨.hbm, 499, rfl⟩
abbrev main_call12_v1 : Ref sig .tc := ⟨.hbm, 500, rfl⟩
abbrev main_call12_v2 : Ref sig .tc := ⟨.hbm, 501, rfl⟩
abbrev main_call12_v3 : Ref sig .tc := ⟨.hbm, 502, rfl⟩
abbrev main_call12_v4 : Ref sig .tc := ⟨.hbm, 503, rfl⟩
abbrev main_v331 : Ref sig .tc := ⟨.hbm, 504, rfl⟩
abbrev main_v332 : Ref sig .tc := ⟨.hbm, 505, rfl⟩
abbrev main_v333 : Ref sig .tc := ⟨.hbm, 506, rfl⟩
abbrev main_v334 : Ref sig .tc := ⟨.hbm, 507, rfl⟩
abbrev main_c_104 : Ref sig .tc := ⟨.hbm, 508, rfl⟩
abbrev main_c_105 : Ref sig .tc := ⟨.hbm, 509, rfl⟩
abbrev main_call13_v0 : Ref sig .tc := ⟨.hbm, 510, rfl⟩
abbrev main_call13_v1 : Ref sig .tc := ⟨.hbm, 511, rfl⟩
abbrev main_call13_v2 : Ref sig .tc := ⟨.hbm, 512, rfl⟩
abbrev main_call13_v3 : Ref sig .tc := ⟨.hbm, 513, rfl⟩
abbrev main_call13_v4 : Ref sig .tc := ⟨.hbm, 514, rfl⟩
abbrev main_v335 : Ref sig .tc := ⟨.hbm, 515, rfl⟩
abbrev main_v336 : Ref sig .tc := ⟨.hbm, 516, rfl⟩
abbrev main_cst_106 : Ref sig .tc := ⟨.hbm, 517, rfl⟩
abbrev main_v337 : Ref sig .tc := ⟨.hbm, 518, rfl⟩
abbrev main_v338 : Ref sig .tc := ⟨.hbm, 519, rfl⟩
abbrev main_c_107 : Ref sig .tc := ⟨.hbm, 520, rfl⟩
abbrev main_c_108 : Ref sig .tc := ⟨.hbm, 521, rfl⟩
abbrev main_call14_v0 : Ref sig .tc := ⟨.hbm, 522, rfl⟩
abbrev main_call14_v1 : Ref sig .tc := ⟨.hbm, 523, rfl⟩
abbrev main_call14_v2 : Ref sig .tc := ⟨.hbm, 524, rfl⟩
abbrev main_call14_v3 : Ref sig .tc := ⟨.hbm, 525, rfl⟩
abbrev main_call14_v4 : Ref sig .tc := ⟨.hbm, 526, rfl⟩
abbrev main_v339 : Ref sig .tc := ⟨.hbm, 527, rfl⟩
abbrev main_v340 : Ref sig .tc := ⟨.hbm, 528, rfl⟩
abbrev main_v341 : Ref sig .tc := ⟨.hbm, 529, rfl⟩
abbrev main_c_109 : Ref sig .tc := ⟨.hbm, 530, rfl⟩
abbrev main_v342 : Ref sig .tc := ⟨.hbm, 531, rfl⟩
abbrev main_v343 : Ref sig .tc := ⟨.hbm, 532, rfl⟩
abbrev main_v344 : Ref sig .tc := ⟨.hbm, 533, rfl⟩
abbrev main_c_110 : Ref sig .tc := ⟨.hbm, 534, rfl⟩
abbrev main_v345 : Ref sig .tc := ⟨.hbm, 535, rfl⟩
abbrev main_v346 : Ref sig .tc := ⟨.hbm, 536, rfl⟩
abbrev main_c_111 : Ref sig .tc := ⟨.hbm, 537, rfl⟩
abbrev main_v347 : Ref sig .tc := ⟨.hbm, 538, rfl⟩
abbrev main_v348 : Ref sig .tc := ⟨.hbm, 539, rfl⟩
abbrev main_v349 : Ref sig .tc := ⟨.hbm, 540, rfl⟩
abbrev main_v350 : Ref sig .tc := ⟨.hbm, 541, rfl⟩
abbrev main_v351 : Ref sig .tc := ⟨.hbm, 542, rfl⟩
abbrev main_c_112 : Ref sig .tc := ⟨.hbm, 543, rfl⟩
abbrev main_v352 : Ref sig .tc := ⟨.hbm, 544, rfl⟩
abbrev main_v353 : Ref sig .tc := ⟨.hbm, 545, rfl⟩
abbrev main_v354 : Ref sig .tc := ⟨.hbm, 546, rfl⟩
abbrev main_c_113 : Ref sig .tc := ⟨.hbm, 547, rfl⟩
abbrev main_v355 : Ref sig .tc := ⟨.hbm, 548, rfl⟩
abbrev main_v356 : Ref sig .tc := ⟨.hbm, 549, rfl⟩
abbrev main_c_114 : Ref sig .tc := ⟨.hbm, 550, rfl⟩
abbrev main_v357 : Ref sig .tc := ⟨.hbm, 551, rfl⟩
abbrev main_v358 : Ref sig .tc := ⟨.hbm, 552, rfl⟩
abbrev main_v359 : Ref sig .tc := ⟨.hbm, 553, rfl⟩
abbrev main_v360 : Ref sig .tc := ⟨.hbm, 554, rfl⟩
abbrev main_v361 : Ref sig .tc := ⟨.hbm, 555, rfl⟩
abbrev main_c_115 : Ref sig .tc := ⟨.hbm, 556, rfl⟩
abbrev main_v362 : Ref sig .tc := ⟨.hbm, 557, rfl⟩
abbrev main_v363 : Ref sig .tc := ⟨.hbm, 558, rfl⟩
abbrev main_v364 : Ref sig .tc := ⟨.hbm, 559, rfl⟩
abbrev main_c_116 : Ref sig .tc := ⟨.hbm, 560, rfl⟩
abbrev main_v365 : Ref sig .tc := ⟨.hbm, 561, rfl⟩
abbrev main_v366 : Ref sig .tc := ⟨.hbm, 562, rfl⟩
abbrev main_c_117 : Ref sig .tc := ⟨.hbm, 563, rfl⟩
abbrev main_v367 : Ref sig .tc := ⟨.hbm, 564, rfl⟩
abbrev main_v368 : Ref sig .tc := ⟨.hbm, 565, rfl⟩
abbrev main_v369 : Ref sig .tc := ⟨.hbm, 566, rfl⟩
abbrev main_v370 : Ref sig .tc := ⟨.hbm, 567, rfl⟩
abbrev main_v371 : Ref sig .tc := ⟨.hbm, 568, rfl⟩
abbrev main_c_118 : Ref sig .tc := ⟨.hbm, 569, rfl⟩
abbrev main_v372 : Ref sig .tc := ⟨.hbm, 570, rfl⟩
abbrev main_v373 : Ref sig .tc := ⟨.hbm, 571, rfl⟩
abbrev main_v374 : Ref sig .tc := ⟨.hbm, 572, rfl⟩
abbrev main_c_119 : Ref sig .tc := ⟨.hbm, 573, rfl⟩
abbrev main_v375 : Ref sig .tc := ⟨.hbm, 574, rfl⟩
abbrev main_v376 : Ref sig .tc := ⟨.hbm, 575, rfl⟩
abbrev main_c_120 : Ref sig .tc := ⟨.hbm, 576, rfl⟩
abbrev main_v377 : Ref sig .tc := ⟨.hbm, 577, rfl⟩
abbrev main_v378 : Ref sig .tc := ⟨.hbm, 578, rfl⟩
abbrev main_v379 : Ref sig .tc := ⟨.hbm, 579, rfl⟩
abbrev main_v380 : Ref sig .tc := ⟨.hbm, 580, rfl⟩
abbrev main_v381 : Ref sig .tc := ⟨.hbm, 581, rfl⟩
abbrev main_v382 : Ref sig .tc := ⟨.hbm, 582, rfl⟩
abbrev main_v383 : Ref sig .tc := ⟨.hbm, 583, rfl⟩
abbrev main_cst_121 : Ref sig .tc := ⟨.hbm, 584, rfl⟩
abbrev main_v384 : Ref sig .tc := ⟨.hbm, 585, rfl⟩
abbrev main_v385 : Ref sig .tc := ⟨.hbm, 586, rfl⟩
abbrev main_v386 : Ref sig .tc := ⟨.hbm, 587, rfl⟩
abbrev main_v387 : Ref sig .tc := ⟨.hbm, 588, rfl⟩
abbrev main_v388 : Ref sig .tc := ⟨.hbm, 589, rfl⟩
abbrev main_v389 : Ref sig .tc := ⟨.hbm, 590, rfl⟩
abbrev main_v390 : Ref sig .tc := ⟨.hbm, 591, rfl⟩
abbrev main_cst_122 : Ref sig .tc := ⟨.hbm, 592, rfl⟩
abbrev main_v391 : Ref sig .tc := ⟨.hbm, 593, rfl⟩
abbrev main_v392 : Ref sig .tc := ⟨.hbm, 594, rfl⟩
abbrev main_v393 : Ref sig .tc := ⟨.hbm, 595, rfl⟩
abbrev main_v394 : Ref sig .tc := ⟨.hbm, 596, rfl⟩
abbrev main_v395 : Ref sig .tc := ⟨.hbm, 597, rfl⟩
abbrev main_v396 : Ref sig .tc := ⟨.hbm, 598, rfl⟩
abbrev main_v397 : Ref sig .tc := ⟨.hbm, 599, rfl⟩
abbrev main_cst_123 : Ref sig .tc := ⟨.hbm, 600, rfl⟩
abbrev main_v398 : Ref sig .tc := ⟨.hbm, 601, rfl⟩
abbrev main_v399 : Ref sig .tc := ⟨.hbm, 602, rfl⟩
abbrev main_v400 : Ref sig .tc := ⟨.hbm, 603, rfl⟩
abbrev main_v401 : Ref sig .tc := ⟨.hbm, 604, rfl⟩
abbrev main_v402 : Ref sig .tc := ⟨.hbm, 605, rfl⟩
abbrev main_v403 : Ref sig .tc := ⟨.hbm, 606, rfl⟩
abbrev main_v404 : Ref sig .tc := ⟨.hbm, 607, rfl⟩
abbrev main_v405 : Ref sig .tc := ⟨.hbm, 608, rfl⟩
abbrev main_v406 : Ref sig .tc := ⟨.hbm, 609, rfl⟩
abbrev main_v407 : Ref sig .tc := ⟨.hbm, 610, rfl⟩
abbrev main_v408 : Ref sig .tc := ⟨.hbm, 611, rfl⟩
abbrev main_cst_124 : Ref sig .tc := ⟨.hbm, 612, rfl⟩
abbrev main_v409 : Ref sig .tc := ⟨.hbm, 613, rfl⟩
abbrev main_v410 : Ref sig .tc := ⟨.hbm, 614, rfl⟩
abbrev main_cst_125 : Ref sig .tc := ⟨.hbm, 615, rfl⟩
abbrev main_v411 : Ref sig .tc := ⟨.hbm, 616, rfl⟩
abbrev main_v412 : Ref sig .tc := ⟨.hbm, 617, rfl⟩
abbrev main_cst_126 : Ref sig .tc := ⟨.hbm, 618, rfl⟩
abbrev main_v413 : Ref sig .tc := ⟨.hbm, 619, rfl⟩
abbrev main_v414 : Ref sig .tc := ⟨.hbm, 620, rfl⟩
abbrev main_cst_127 : Ref sig .tc := ⟨.hbm, 621, rfl⟩
abbrev main_v415 : Ref sig .tc := ⟨.hbm, 622, rfl⟩
abbrev main_v416 : Ref sig .tc := ⟨.hbm, 623, rfl⟩
abbrev main_cst_128 : Ref sig .tc := ⟨.hbm, 624, rfl⟩
abbrev main_v417 : Ref sig .tc := ⟨.hbm, 625, rfl⟩
abbrev main_v418 : Ref sig .tc := ⟨.hbm, 626, rfl⟩
abbrev main_cst_129 : Ref sig .tc := ⟨.hbm, 627, rfl⟩
abbrev main_v419 : Ref sig .tc := ⟨.hbm, 628, rfl⟩
abbrev main_v420 : Ref sig .tc := ⟨.hbm, 629, rfl⟩
abbrev main_v421 : Ref sig .tc := ⟨.hbm, 630, rfl⟩
abbrev main_c_130 : Ref sig .tc := ⟨.hbm, 631, rfl⟩
abbrev main_c_131 : Ref sig .tc := ⟨.hbm, 632, rfl⟩
abbrev main_call15_v0 : Ref sig .tc := ⟨.hbm, 633, rfl⟩
abbrev main_call15_v1 : Ref sig .tc := ⟨.hbm, 634, rfl⟩
abbrev main_call15_v2 : Ref sig .tc := ⟨.hbm, 635, rfl⟩
abbrev main_call15_v3 : Ref sig .tc := ⟨.hbm, 636, rfl⟩
abbrev main_call15_v4 : Ref sig .tc := ⟨.hbm, 637, rfl⟩
abbrev main_v422 : Ref sig .tc := ⟨.hbm, 638, rfl⟩
abbrev main_v423 : Ref sig .tc := ⟨.hbm, 639, rfl⟩
abbrev main_cst_132 : Ref sig .tc := ⟨.hbm, 640, rfl⟩
abbrev main_v424 : Ref sig .tc := ⟨.hbm, 641, rfl⟩
abbrev main_v425 : Ref sig .tc := ⟨.hbm, 642, rfl⟩
abbrev main_c_133 : Ref sig .tc := ⟨.hbm, 643, rfl⟩
abbrev main_c_134 : Ref sig .tc := ⟨.hbm, 644, rfl⟩
abbrev main_call16_v0 : Ref sig .tc := ⟨.hbm, 645, rfl⟩
abbrev main_call16_v1 : Ref sig .tc := ⟨.hbm, 646, rfl⟩
abbrev main_call16_v2 : Ref sig .tc := ⟨.hbm, 647, rfl⟩
abbrev main_call16_v3 : Ref sig .tc := ⟨.hbm, 648, rfl⟩
abbrev main_call16_v4 : Ref sig .tc := ⟨.hbm, 649, rfl⟩
abbrev main_v426 : Ref sig .tc := ⟨.hbm, 650, rfl⟩
abbrev main_v427 : Ref sig .tc := ⟨.hbm, 651, rfl⟩
abbrev main_v428 : Ref sig .tc := ⟨.hbm, 652, rfl⟩
abbrev main_v429 : Ref sig .tc := ⟨.hbm, 653, rfl⟩
abbrev main_c_135 : Ref sig .tc := ⟨.hbm, 654, rfl⟩
abbrev main_c_136 : Ref sig .tc := ⟨.hbm, 655, rfl⟩
abbrev main_call17_v0 : Ref sig .tc := ⟨.hbm, 656, rfl⟩
abbrev main_call17_v1 : Ref sig .tc := ⟨.hbm, 657, rfl⟩
abbrev main_call17_v2 : Ref sig .tc := ⟨.hbm, 658, rfl⟩
abbrev main_call17_v3 : Ref sig .tc := ⟨.hbm, 659, rfl⟩
abbrev main_call17_v4 : Ref sig .tc := ⟨.hbm, 660, rfl⟩
abbrev main_v430 : Ref sig .tc := ⟨.hbm, 661, rfl⟩
abbrev main_v431 : Ref sig .tc := ⟨.hbm, 662, rfl⟩
abbrev main_cst_137 : Ref sig .tc := ⟨.hbm, 663, rfl⟩
abbrev main_v432 : Ref sig .tc := ⟨.hbm, 664, rfl⟩
abbrev main_v433 : Ref sig .tc := ⟨.hbm, 665, rfl⟩
abbrev main_c_138 : Ref sig .tc := ⟨.hbm, 666, rfl⟩
abbrev main_c_139 : Ref sig .tc := ⟨.hbm, 667, rfl⟩
abbrev main_call18_v0 : Ref sig .tc := ⟨.hbm, 668, rfl⟩
abbrev main_call18_v1 : Ref sig .tc := ⟨.hbm, 669, rfl⟩
abbrev main_call18_v2 : Ref sig .tc := ⟨.hbm, 670, rfl⟩
abbrev main_call18_v3 : Ref sig .tc := ⟨.hbm, 671, rfl⟩
abbrev main_call18_v4 : Ref sig .tc := ⟨.hbm, 672, rfl⟩
abbrev main_v434 : Ref sig .tc := ⟨.hbm, 673, rfl⟩
abbrev main_v435 : Ref sig .tc := ⟨.hbm, 674, rfl⟩
abbrev main_v436 : Ref sig .tc := ⟨.hbm, 675, rfl⟩
abbrev main_c_140 : Ref sig .tc := ⟨.hbm, 676, rfl⟩
abbrev main_v437 : Ref sig .tc := ⟨.hbm, 677, rfl⟩
abbrev main_v438 : Ref sig .tc := ⟨.hbm, 678, rfl⟩
abbrev main_v439 : Ref sig .tc := ⟨.hbm, 679, rfl⟩
abbrev main_c_141 : Ref sig .tc := ⟨.hbm, 680, rfl⟩
abbrev main_v440 : Ref sig .tc := ⟨.hbm, 681, rfl⟩
abbrev main_v441 : Ref sig .tc := ⟨.hbm, 682, rfl⟩
abbrev main_c_142 : Ref sig .tc := ⟨.hbm, 683, rfl⟩
abbrev main_v442 : Ref sig .tc := ⟨.hbm, 684, rfl⟩
abbrev main_v443 : Ref sig .tc := ⟨.hbm, 685, rfl⟩
abbrev main_v444 : Ref sig .tc := ⟨.hbm, 686, rfl⟩
abbrev main_v445 : Ref sig .tc := ⟨.hbm, 687, rfl⟩
abbrev main_v446 : Ref sig .tc := ⟨.hbm, 688, rfl⟩
abbrev main_c_143 : Ref sig .tc := ⟨.hbm, 689, rfl⟩
abbrev main_v447 : Ref sig .tc := ⟨.hbm, 690, rfl⟩
abbrev main_v448 : Ref sig .tc := ⟨.hbm, 691, rfl⟩
abbrev main_v449 : Ref sig .tc := ⟨.hbm, 692, rfl⟩
abbrev main_c_144 : Ref sig .tc := ⟨.hbm, 693, rfl⟩
abbrev main_v450 : Ref sig .tc := ⟨.hbm, 694, rfl⟩
abbrev main_v451 : Ref sig .tc := ⟨.hbm, 695, rfl⟩
abbrev main_c_145 : Ref sig .tc := ⟨.hbm, 696, rfl⟩
abbrev main_v452 : Ref sig .tc := ⟨.hbm, 697, rfl⟩
abbrev main_v453 : Ref sig .tc := ⟨.hbm, 698, rfl⟩
abbrev main_v454 : Ref sig .tc := ⟨.hbm, 699, rfl⟩
abbrev main_v455 : Ref sig .tc := ⟨.hbm, 700, rfl⟩
abbrev main_v456 : Ref sig .tc := ⟨.hbm, 701, rfl⟩
abbrev main_c_146 : Ref sig .tc := ⟨.hbm, 702, rfl⟩
abbrev main_v457 : Ref sig .tc := ⟨.hbm, 703, rfl⟩
abbrev main_v458 : Ref sig .tc := ⟨.hbm, 704, rfl⟩
abbrev main_v459 : Ref sig .tc := ⟨.hbm, 705, rfl⟩
abbrev main_c_147 : Ref sig .tc := ⟨.hbm, 706, rfl⟩
abbrev main_v460 : Ref sig .tc := ⟨.hbm, 707, rfl⟩
abbrev main_v461 : Ref sig .tc := ⟨.hbm, 708, rfl⟩
abbrev main_c_148 : Ref sig .tc := ⟨.hbm, 709, rfl⟩
abbrev main_v462 : Ref sig .tc := ⟨.hbm, 710, rfl⟩
abbrev main_v463 : Ref sig .tc := ⟨.hbm, 711, rfl⟩
abbrev main_v464 : Ref sig .tc := ⟨.hbm, 712, rfl⟩
abbrev main_v465 : Ref sig .tc := ⟨.hbm, 713, rfl⟩
abbrev main_v466 : Ref sig .tc := ⟨.hbm, 714, rfl⟩
abbrev main_c_149 : Ref sig .tc := ⟨.hbm, 715, rfl⟩
abbrev main_v467 : Ref sig .tc := ⟨.hbm, 716, rfl⟩
abbrev main_v468 : Ref sig .tc := ⟨.hbm, 717, rfl⟩
abbrev main_v469 : Ref sig .tc := ⟨.hbm, 718, rfl⟩
abbrev main_c_150 : Ref sig .tc := ⟨.hbm, 719, rfl⟩
abbrev main_v470 : Ref sig .tc := ⟨.hbm, 720, rfl⟩
abbrev main_v471 : Ref sig .tc := ⟨.hbm, 721, rfl⟩
abbrev main_c_151 : Ref sig .tc := ⟨.hbm, 722, rfl⟩
abbrev main_v472 : Ref sig .tc := ⟨.hbm, 723, rfl⟩
abbrev main_v473 : Ref sig .tc := ⟨.hbm, 724, rfl⟩
abbrev main_v474 : Ref sig .tc := ⟨.hbm, 725, rfl⟩
abbrev main_v475 : Ref sig .tc := ⟨.hbm, 726, rfl⟩
abbrev main_v476 : Ref sig .tc := ⟨.hbm, 727, rfl⟩
abbrev main_v477 : Ref sig .tc := ⟨.hbm, 728, rfl⟩
abbrev main_v478 : Ref sig .tc := ⟨.hbm, 729, rfl⟩
abbrev main_cst_152 : Ref sig .tc := ⟨.hbm, 730, rfl⟩
abbrev main_v479 : Ref sig .tc := ⟨.hbm, 731, rfl⟩
abbrev main_v480 : Ref sig .tc := ⟨.hbm, 732, rfl⟩
abbrev main_v481 : Ref sig .tc := ⟨.hbm, 733, rfl⟩
abbrev main_v482 : Ref sig .tc := ⟨.hbm, 734, rfl⟩
abbrev main_v483 : Ref sig .tc := ⟨.hbm, 735, rfl⟩
abbrev main_v484 : Ref sig .tc := ⟨.hbm, 736, rfl⟩
abbrev main_v485 : Ref sig .tc := ⟨.hbm, 737, rfl⟩
abbrev main_cst_153 : Ref sig .tc := ⟨.hbm, 738, rfl⟩
abbrev main_v486 : Ref sig .tc := ⟨.hbm, 739, rfl⟩
abbrev main_v487 : Ref sig .tc := ⟨.hbm, 740, rfl⟩
abbrev main_v488 : Ref sig .tc := ⟨.hbm, 741, rfl⟩
abbrev main_v489 : Ref sig .tc := ⟨.hbm, 742, rfl⟩
abbrev main_v490 : Ref sig .tc := ⟨.hbm, 743, rfl⟩
abbrev main_v491 : Ref sig .tc := ⟨.hbm, 744, rfl⟩
abbrev main_v492 : Ref sig .tc := ⟨.hbm, 745, rfl⟩
abbrev main_cst_154 : Ref sig .tc := ⟨.hbm, 746, rfl⟩
abbrev main_v493 : Ref sig .tc := ⟨.hbm, 747, rfl⟩
abbrev main_v494 : Ref sig .tc := ⟨.hbm, 748, rfl⟩
abbrev main_v495 : Ref sig .tc := ⟨.hbm, 749, rfl⟩
abbrev main_v496 : Ref sig .tc := ⟨.hbm, 750, rfl⟩
abbrev main_v497 : Ref sig .tc := ⟨.hbm, 751, rfl⟩
abbrev main_v498 : Ref sig .tc := ⟨.hbm, 752, rfl⟩
abbrev main_v499 : Ref sig .tc := ⟨.hbm, 753, rfl⟩
abbrev main_v500 : Ref sig .tc := ⟨.hbm, 754, rfl⟩
abbrev main_v501 : Ref sig .tc := ⟨.hbm, 755, rfl⟩
abbrev main_cst_155 : Ref sig .tc := ⟨.hbm, 756, rfl⟩
abbrev main_v502 : Ref sig .tc := ⟨.hbm, 757, rfl⟩
abbrev main_v503 : Ref sig .tc := ⟨.hbm, 758, rfl⟩
abbrev main_v504 : Ref sig .tc := ⟨.hbm, 759, rfl⟩
abbrev main_v505 : Ref sig .tc := ⟨.hbm, 760, rfl⟩
abbrev main_cst_156 : Ref sig .tc := ⟨.hbm, 761, rfl⟩
abbrev main_v506 : Ref sig .tc := ⟨.hbm, 762, rfl⟩
abbrev main_v507 : Ref sig .tc := ⟨.hbm, 763, rfl⟩
abbrev main_cst_157 : Ref sig .tc := ⟨.hbm, 764, rfl⟩
abbrev main_c_158 : Ref sig .tc := ⟨.hbm, 765, rfl⟩
abbrev main_call19_v0 : Ref sig .tc := ⟨.hbm, 766, rfl⟩
abbrev main_call19_v1 : Ref sig .tc := ⟨.hbm, 767, rfl⟩
abbrev main_call19_v2 : Ref sig .tc := ⟨.hbm, 768, rfl⟩
abbrev main_call19_v3 : Ref sig .tc := ⟨.hbm, 769, rfl⟩
abbrev main_call19_v4 : Ref sig .tc := ⟨.hbm, 770, rfl⟩
abbrev main_v508 : Ref sig .tc := ⟨.hbm, 771, rfl⟩
abbrev main_v509 : Ref sig .tc := ⟨.hbm, 772, rfl⟩
abbrev main_v510 : Ref sig .tc := ⟨.hbm, 773, rfl⟩
abbrev main_v511 : Ref sig .tc := ⟨.hbm, 774, rfl⟩
abbrev main_c_159 : Ref sig .tc := ⟨.hbm, 775, rfl⟩
abbrev main_v512 : Ref sig .tc := ⟨.hbm, 776, rfl⟩
abbrev main_v513 : Ref sig .tc := ⟨.hbm, 777, rfl⟩
abbrev main_c_160 : Ref sig .tc := ⟨.hbm, 778, rfl⟩
abbrev main_v514 : Ref sig .tc := ⟨.hbm, 779, rfl⟩
abbrev main_v515 : Ref sig .tc := ⟨.hbm, 780, rfl⟩
abbrev main_v516 : Ref sig .tc := ⟨.hbm, 781, rfl⟩
abbrev main_v517 : Ref sig .tc := ⟨.hbm, 782, rfl⟩
abbrev main_v518 : Ref sig .tc := ⟨.hbm, 783, rfl⟩
abbrev main_c_161 : Ref sig .tc := ⟨.hbm, 784, rfl⟩
abbrev main_v519 : Ref sig .tc := ⟨.hbm, 785, rfl⟩
abbrev main_v520 : Ref sig .tc := ⟨.hbm, 786, rfl⟩
abbrev main_c_162 : Ref sig .tc := ⟨.hbm, 787, rfl⟩
abbrev main_v521 : Ref sig .tc := ⟨.hbm, 788, rfl⟩
abbrev main_v522 : Ref sig .tc := ⟨.hbm, 789, rfl⟩
abbrev main_v523 : Ref sig .tc := ⟨.hbm, 790, rfl⟩
abbrev main_v524 : Ref sig .tc := ⟨.hbm, 791, rfl⟩
abbrev main_v525 : Ref sig .tc := ⟨.hbm, 792, rfl⟩
abbrev main_cst_163 : Ref sig .tc := ⟨.hbm, 793, rfl⟩
abbrev main_v526 : Ref sig .tc := ⟨.hbm, 794, rfl⟩
abbrev main_v527 : Ref sig .tc := ⟨.hbm, 795, rfl⟩
abbrev main_v528 : Ref sig .tc := ⟨.hbm, 796, rfl⟩
abbrev main_v529 : Ref sig .tc := ⟨.hbm, 797, rfl⟩
abbrev main_v530 : Ref sig .tc := ⟨.hbm, 798, rfl⟩
abbrev main_v531 : Ref sig .tc := ⟨.hbm, 799, rfl⟩
abbrev main_v532 : Ref sig .tc := ⟨.hbm, 800, rfl⟩
abbrev main_v533 : Ref sig .tc := ⟨.hbm, 801, rfl⟩
abbrev main_v534 : Ref sig .tc := ⟨.hbm, 802, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![31], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32768x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32768x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32768x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32768x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32768x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32768x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  pads_S1000000x4_S1015808x4_0158080_000 : S1000000x4.Pads (![0, 0] : Fin 2 → Nat) ![15808, 0] ![0, 0] S1015808x4
  h_S_ : 0 < S_.numel
  transposes_S16x128x128x128_S128x128x128x16_1_2_3_0 : S16x128x128x128.Transposes [1, 2, 3, 0] S128x128x128x16
  shapeCasts_S128x128x128x16_S2097152x16 : S128x128x128x16.ShapeCasts S2097152x16
  transposes_S16x256x256_S256x256x16_1_2_0 : S16x256x256.Transposes [1, 2, 0] S256x256x16
  shapeCasts_S256x256x16_S65536x16 : S256x256x16.ShapeCasts S65536x16
  transposes_S16x64_S64x16_1_0 : S16x64.Transposes [1, 0] S64x16
  slices_S1015808x4_S1015808x3_0_0 : S1015808x4.Slices ![0, 0] S1015808x3
  slices_S1015808x3_S1015808x1_0_0 : S1015808x3.Slices ![0, 0] S1015808x1
  shapeCasts_S1015808x1_S1015808 : S1015808x1.ShapeCasts S1015808
  bcast_S_S1015808 : S_.BroadcastsInDim S1015808 (![] : Fin 0 → Fin S1015808.rank)
  slices_S1015808x3_S1015808x1_0_1 : S1015808x3.Slices ![0, 1] S1015808x1
  slices_S1015808x3_S1015808x1_0_2 : S1015808x3.Slices ![0, 2] S1015808x1
  bcast_S1015808_S1015808x1_0 : S1015808.BroadcastsInDim S1015808x1 (![0] : Fin 1 → Fin S1015808x1.rank)
  shapeCasts_S1015808_S1015808x1 : S1015808.ShapeCasts S1015808x1
  bcast_S_S1015808x1 : S_.BroadcastsInDim S1015808x1 (![] : Fin 0 → Fin S1015808x1.rank)
  bcast_S1015808x1_S1015808x16_0_1 : S1015808x1.BroadcastsInDim S1015808x16 (![0, 1] : Fin 2 → Fin S1015808x16.rank)
  slices_S1015808x4_S1015808x1_0_1 : S1015808x4.Slices ![0, 1] S1015808x1
  slices_S1015808x4_S1015808x1_0_2 : S1015808x4.Slices ![0, 2] S1015808x1
  slices_S1015808x4_S1015808x1_0_0 : S1015808x4.Slices ![0, 0] S1015808x1
  slices_S1015808x4_S1015808x1_0_3 : S1015808x4.Slices ![0, 3] S1015808x1
  inb_S32768x16_S32768x16_0_0 : ∀ a, (![0, 0] : Fin 2 → Nat) a + S32768x16.size a ≤ S32768x16.size a
  h_S32768x16 : 0 < S32768x16.numel
  shapeCasts_S32768x16_S32768x16 : S32768x16.ShapeCasts S32768x16
  inb_S32768x32_S32768x16_0_0 : ∀ a, (![0, 0] : Fin 2 → Nat) a + S32768x16.size a ≤ S32768x32.size a
  inb_S32768x32_S32768x16_0_16 : ∀ a, (![0, 16] : Fin 2 → Nat) a + S32768x16.size a ≤ S32768x32.size a
  slices_S1015808x32_S1000000x32_0_0 : S1015808x32.Slices ![0, 0] S1000000x32
  gather_S2097152x16_S1015808x1_S1015808x16_1_0_n_n_0_1_116_wf : GatherDims.WF S2097152x16 S1015808x1 S1015808x16 [1] [0] [] [0] [] 1 ![1, 16]
  gather_S65536x16_S1015808x1_S1015808x16_1_0_n_n_0_1_116_wf : GatherDims.WF S65536x16 S1015808x1 S1015808x16 [1] [0] [] [0] [] 1 ![1, 16]
  gather_S64x16_S1015808x1_S1015808x16_1_0_n_n_0_1_116_wf : GatherDims.WF S64x16 S1015808x1 S1015808x16 [1] [0] [] [0] [] 1 ![1, 16]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32768x16.size a ≤ S1015808x16.size a
  hwx0_0 : ∀ i : grid0.Coords, EltTy.bits .f32 = 32 ∨ (Rect.block (s := S1015808x16) S32768x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32768x16.size a ≤ S1015808x16.size a
  hwx0_1 : ∀ i : grid0.Coords, EltTy.bits .f32 = 32 ∨ (Rect.block (s := S1015808x16) S32768x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32768x16.size a ≤ S1015808x16.size a
  hwx0_2 : ∀ i : grid0.Coords, EltTy.bits .f32 = 32 ∨ (Rect.block (s := S1015808x16) S32768x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32768x16.size a ≤ S1015808x16.size a
  hwx0_3 : ∀ i : grid0.Coords, EltTy.bits .f32 = 32 ∨ (Rect.block (s := S1015808x16) S32768x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32768x16.size a ≤ S1015808x16.size a
  hwx0_4 : ∀ i : grid0.Coords, EltTy.bits .f32 = 32 ∨ (Rect.block (s := S1015808x16) S32768x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S32768x32.size a ≤ S1015808x32.size a
  hwx0_5 : ∀ i : grid0.Coords, EltTy.bits .f32 = 32 ∨ (Rect.block (s := S1015808x32) S32768x32.size (cc0_transform_5 i) (hinb0_5 i)).WholeWords (EltTy.packing .f32)

variable [Facts₀]

def gather_S2097152x16_S1015808x1_S1015808x16_1_0_n_n_0_1_116 : GatherDims S2097152x16 S1015808x1 S1015808x16 where
  offsetDims := [1]
  collapsedSliceDims := [0]
  operandBatchingDims := []
  startIndicesBatchingDims := []
  startIndexMap := [0]
  indexVectorDim := 1
  sliceSizes := ![1, 16]
  wf := gather_S2097152x16_S1015808x1_S1015808x16_1_0_n_n_0_1_116_wf
def gather_S65536x16_S1015808x1_S1015808x16_1_0_n_n_0_1_116 : GatherDims S65536x16 S1015808x1 S1015808x16 where
  offsetDims := [1]
  collapsedSliceDims := [0]
  operandBatchingDims := []
  startIndicesBatchingDims := []
  startIndexMap := [0]
  indexVectorDim := 1
  sliceSizes := ![1, 16]
  wf := gather_S65536x16_S1015808x1_S1015808x16_1_0_n_n_0_1_116_wf
def gather_S64x16_S1015808x1_S1015808x16_1_0_n_n_0_1_116 : GatherDims S64x16 S1015808x1 S1015808x16 where
  offsetDims := [1]
  collapsedSliceDims := [0]
  operandBatchingDims := []
  startIndicesBatchingDims := []
  startIndexMap := [0]
  indexVectorDim := 1
  sliceSizes := ![1, 16]
  wf := gather_S64x16_S1015808x1_S1015808x16_1_0_n_n_0_1_116_wf

abbrev win0_0 : Pipeline.Window sig grid0 :=
  Pipeline.Window.ofSpec (Memref.whole main_v214) S32768x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v309) S32768x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v404) S32768x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v499) S32768x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v532) S32768x16.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v533) S32768x32.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S1000000x4 : Shape := ⟨2, ![1000000, 4]⟩
abbrev S16x128x128x128 : Shape := ⟨4, ![16, 128, 128, 128]⟩
abbrev S16x256x256 : Shape := ⟨3, ![16, 256, 256]⟩
abbrev S16x64 : Shape := ⟨2, ![16, 64]⟩
abbrev S2 : Shape := ⟨1, ![2]⟩
abbrev S1000000x3 : Shape := ⟨2, ![1000000, 3]⟩
abbrev S1000000x1 : Shape := ⟨2, ![1000000, 1]⟩
abbrev S1000000 : Shape := ⟨1, ![1000000]⟩
abbrev S_ : Shape := ⟨0, ![]⟩
abbrev S16x1000000 : Shape := ⟨2, ![16, 1000000]⟩
abbrev S1x1000000 : Shape := ⟨2, ![1, 1000000]⟩
abbrev S2x1 : Shape := ⟨2, ![2, 1]⟩
abbrev S1000000x2 : Shape := ⟨2, ![1000000, 2]⟩
abbrev S1000000x16 : Shape := ⟨2, ![1000000, 16]⟩
abbrev S1000000x32 : Shape := ⟨2, ![1000000, 32]⟩

abbrev nBuf : Space → Nat
  | .hbm => 985
  | .vmem => 0
  | .smem => 0
  | _ => 0

abbrev hbmTy0_0 (i : Nat) : BufTy := match i % 128 with
  | 0 => ⟨S1000000x4, .f32⟩
  | 1 => ⟨S16x128x128x128, .f32⟩
  | 2 => ⟨S16x256x256, .f32⟩
  | 3 => ⟨S16x256x256, .f32⟩
  | 4 => ⟨S16x256x256, .f32⟩
  | 5 => ⟨S16x64, .f32⟩
  | 6 => ⟨S2, .i32⟩
  | 7 => ⟨S2, .i32⟩
  | 8 => ⟨S2, .i32⟩
  | 9 => ⟨S1000000x3, .f32⟩
  | 10 => ⟨S1000000x1, .f32⟩
  | 11 => ⟨S1000000, .f32⟩
  | 12 => ⟨S_, .f32⟩
  | 13 => ⟨S1000000, .f32⟩
  | 14 => ⟨S1000000, .f32⟩
  | 15 => ⟨S_, .f32⟩
  | 16 => ⟨S1000000, .f32⟩
  | 17 => ⟨S1000000, .f32⟩
  | 18 => ⟨S_, .f32⟩
  | 19 => ⟨S1000000, .f32⟩
  | 20 => ⟨S1000000, .f32⟩
  | 21 => ⟨S1000000x1, .f32⟩
  | 22 => ⟨S1000000, .f32⟩
  | 23 => ⟨S_, .f32⟩
  | 24 => ⟨S1000000, .f32⟩
  | 25 => ⟨S1000000, .f32⟩
  | 26 => ⟨S_, .f32⟩
  | 27 => ⟨S1000000, .f32⟩
  | 28 => ⟨S1000000, .f32⟩
  | 29 => ⟨S_, .f32⟩
  | 30 => ⟨S1000000, .f32⟩
  | 31 => ⟨S1000000, .f32⟩
  | 32 => ⟨S1000000x1, .f32⟩
  | 33 => ⟨S1000000, .f32⟩
  | 34 => ⟨S_, .f32⟩
  | 35 => ⟨S1000000, .f32⟩
  | 36 => ⟨S1000000, .f32⟩
  | 37 => ⟨S_, .f32⟩
  | 38 => ⟨S1000000, .f32⟩
  | 39 => ⟨S1000000, .f32⟩
  | 40 => ⟨S_, .f32⟩
  | 41 => ⟨S1000000, .f32⟩
  | 42 => ⟨S1000000, .f32⟩
  | 43 => ⟨S1000000, .f32⟩
  | 44 => ⟨S_, .i32⟩
  | 45 => ⟨S_, .i32⟩
  | 46 => ⟨S_, .f32⟩
  | 47 => ⟨S1000000, .f32⟩
  | 48 => ⟨S1000000, .f32⟩
  | 49 => ⟨S_, .f32⟩
  | 50 => ⟨S1000000, .f32⟩
  | 51 => ⟨S1000000, .f32⟩
  | 52 => ⟨S1000000, .i32⟩
  | 53 => ⟨S_, .f32⟩
  | 54 => ⟨S1000000, .f32⟩
  | 55 => ⟨S1000000, .f32⟩
  | 56 => ⟨S_, .i32⟩
  | 57 => ⟨S_, .i32⟩
  | 58 => ⟨S_, .f32⟩
  | 59 => ⟨S1000000, .f32⟩
  | 60 => ⟨S1000000, .f32⟩
  | 61 => ⟨S_, .f32⟩
  | 62 => ⟨S1000000, .f32⟩
  | 63 => ⟨S1000000, .f32⟩
  | 64 => ⟨S1000000, .i32⟩
  | 65 => ⟨S1000000, .f32⟩
  | 66 => ⟨S1000000, .f32⟩
  | 67 => ⟨S_, .i32⟩
  | 68 => ⟨S_, .i32⟩
  | 69 => ⟨S_, .f32⟩
  | 70 => ⟨S1000000, .f32⟩
  | 71 => ⟨S1000000, .f32⟩
  | 72 => ⟨S_, .f32⟩
  | 73 => ⟨S1000000, .f32⟩
  | 74 => ⟨S1000000, .f32⟩
  | 75 => ⟨S1000000, .i32⟩
  | 76 => ⟨S_, .f32⟩
  | 77 => ⟨S1000000, .f32⟩
  | 78 => ⟨S1000000, .f32⟩
  | 79 => ⟨S_, .i32⟩
  | 80 => ⟨S_, .i32⟩
  | 81 => ⟨S_, .f32⟩
  | 82 => ⟨S1000000, .f32⟩
  | 83 => ⟨S1000000, .f32⟩
  | 84 => ⟨S_, .f32⟩
  | 85 => ⟨S1000000, .f32⟩
  | 86 => ⟨S1000000, .f32⟩
  | 87 => ⟨S1000000, .i32⟩
  | 88 => ⟨S1000000, .f32⟩
  | 89 => ⟨S1000000, .f32⟩
  | 90 => ⟨S_, .i32⟩
  | 91 => ⟨S_, .i32⟩
  | 92 => ⟨S_, .f32⟩
  | 93 => ⟨S1000000, .f32⟩
  | 94 => ⟨S1000000, .f32⟩
  | 95 => ⟨S_, .f32⟩
  | 96 => ⟨S1000000, .f32⟩
  | 97 => ⟨S1000000, .f32⟩
  | 98 => ⟨S1000000, .i32⟩
  | 99 => ⟨S_, .f32⟩
  | 100 => ⟨S1000000, .f32⟩
  | 101 => ⟨S1000000, .f32⟩
  | 102 => ⟨S_, .i32⟩
  | 103 => ⟨S_, .i32⟩
  | 104 => ⟨S_, .f32⟩
  | 105 => ⟨S1000000, .f32⟩
  | 106 => ⟨S1000000, .f32⟩
  | 107 => ⟨S_, .f32⟩
  | 108 => ⟨S1000000, .f32⟩
  | 109 => ⟨S1000000, .f32⟩
  | 110 => ⟨S1000000, .i32⟩
  | 111 => ⟨S1000000, .f32⟩
  | 112 => ⟨S_, .f32⟩
  | 113 => ⟨S16x1000000, .f32⟩
  | 114 => ⟨S_, .f32⟩
  | 115 => ⟨S1000000, .f32⟩
  | 116 => ⟨S1000000, .f32⟩
  | 117 => ⟨S_, .f32⟩
  | 118 => ⟨S1000000, .f32⟩
  | 119 => ⟨S1000000, .f32⟩
  | 120 => ⟨S_, .f32⟩
  | 121 => ⟨S1000000, .f32⟩
  | 122 => ⟨S1000000, .f32⟩
  | 123 => ⟨S_, .i32⟩
  | 124 => ⟨S1000000, .i32⟩
  | 125 => ⟨S1000000, .i1⟩
  | 126 => ⟨S_, .i32⟩
  | 127 => ⟨S1000000, .i32⟩
  | _ => ⟨S1000000x4, .f32⟩

abbrev hbmTy0_1 (i : Nat) : BufTy := match i % 128 with
  | 0 => ⟨S1000000, .i32⟩
  | 1 => ⟨S1000000, .i32⟩
  | 2 => ⟨S_, .i32⟩
  | 3 => ⟨S1000000, .i32⟩
  | 4 => ⟨S1000000, .i1⟩
  | 5 => ⟨S_, .i32⟩
  | 6 => ⟨S1000000, .i32⟩
  | 7 => ⟨S1000000, .i32⟩
  | 8 => ⟨S1000000, .i32⟩
  | 9 => ⟨S_, .i32⟩
  | 10 => ⟨S1000000, .i32⟩
  | 11 => ⟨S1000000, .i1⟩
  | 12 => ⟨S_, .i32⟩
  | 13 => ⟨S1000000, .i32⟩
  | 14 => ⟨S1000000, .i32⟩
  | 15 => ⟨S1000000, .i32⟩
  | 16 => ⟨S1000000x1, .i32⟩
  | 17 => ⟨S1000000x1, .i32⟩
  | 18 => ⟨S1000000x1, .i32⟩
  | 19 => ⟨S1000000x3, .i32⟩
  | 20 => ⟨S16x1000000, .f32⟩
  | 21 => ⟨S1000000, .f32⟩
  | 22 => ⟨S1000000, .f32⟩
  | 23 => ⟨S1x1000000, .f32⟩
  | 24 => ⟨S16x1000000, .f32⟩
  | 25 => ⟨S16x1000000, .f32⟩
  | 26 => ⟨S16x1000000, .f32⟩
  | 27 => ⟨S_, .i32⟩
  | 28 => ⟨S1000000, .i32⟩
  | 29 => ⟨S1000000, .i1⟩
  | 30 => ⟨S_, .i32⟩
  | 31 => ⟨S1000000, .i32⟩
  | 32 => ⟨S1000000, .i32⟩
  | 33 => ⟨S1000000, .i32⟩
  | 34 => ⟨S_, .i32⟩
  | 35 => ⟨S1000000, .i32⟩
  | 36 => ⟨S1000000, .i1⟩
  | 37 => ⟨S_, .i32⟩
  | 38 => ⟨S1000000, .i32⟩
  | 39 => ⟨S1000000, .i32⟩
  | 40 => ⟨S1000000, .i32⟩
  | 41 => ⟨S_, .i32⟩
  | 42 => ⟨S1000000, .i32⟩
  | 43 => ⟨S1000000, .i1⟩
  | 44 => ⟨S_, .i32⟩
  | 45 => ⟨S1000000, .i32⟩
  | 46 => ⟨S1000000, .i32⟩
  | 47 => ⟨S1000000, .i32⟩
  | 48 => ⟨S1000000x1, .i32⟩
  | 49 => ⟨S1000000x1, .i32⟩
  | 50 => ⟨S1000000x1, .i32⟩
  | 51 => ⟨S1000000x3, .i32⟩
  | 52 => ⟨S16x1000000, .f32⟩
  | 53 => ⟨S1000000, .f32⟩
  | 54 => ⟨S1000000, .f32⟩
  | 55 => ⟨S1x1000000, .f32⟩
  | 56 => ⟨S16x1000000, .f32⟩
  | 57 => ⟨S16x1000000, .f32⟩
  | 58 => ⟨S16x1000000, .f32⟩
  | 59 => ⟨S_, .f32⟩
  | 60 => ⟨S1000000, .f32⟩
  | 61 => ⟨S1000000, .f32⟩
  | 62 => ⟨S_, .i32⟩
  | 63 => ⟨S1000000, .i32⟩
  | 64 => ⟨S1000000, .i1⟩
  | 65 => ⟨S_, .i32⟩
  | 66 => ⟨S1000000, .i32⟩
  | 67 => ⟨S1000000, .i32⟩
  | 68 => ⟨S1000000, .i32⟩
  | 69 => ⟨S_, .i32⟩
  | 70 => ⟨S1000000, .i32⟩
  | 71 => ⟨S1000000, .i1⟩
  | 72 => ⟨S_, .i32⟩
  | 73 => ⟨S1000000, .i32⟩
  | 74 => ⟨S1000000, .i32⟩
  | 75 => ⟨S1000000, .i32⟩
  | 76 => ⟨S_, .i32⟩
  | 77 => ⟨S1000000, .i32⟩
  | 78 => ⟨S1000000, .i1⟩
  | 79 => ⟨S_, .i32⟩
  | 80 => ⟨S1000000, .i32⟩
  | 81 => ⟨S1000000, .i32⟩
  | 82 => ⟨S1000000, .i32⟩
  | 83 => ⟨S1000000x1, .i32⟩
  | 84 => ⟨S1000000x1, .i32⟩
  | 85 => ⟨S1000000x1, .i32⟩
  | 86 => ⟨S1000000x3, .i32⟩
  | 87 => ⟨S16x1000000, .f32⟩
  | 88 => ⟨S1000000, .f32⟩
  | 89 => ⟨S1000000, .f32⟩
  | 90 => ⟨S1x1000000, .f32⟩
  | 91 => ⟨S16x1000000, .f32⟩
  | 92 => ⟨S16x1000000, .f32⟩
  | 93 => ⟨S16x1000000, .f32⟩
  | 94 => ⟨S_, .i32⟩
  | 95 => ⟨S1000000, .i32⟩
  | 96 => ⟨S1000000, .i1⟩
  | 97 => ⟨S_, .i32⟩
  | 98 => ⟨S1000000, .i32⟩
  | 99 => ⟨S1000000, .i32⟩
  | 100 => ⟨S1000000, .i32⟩
  | 101 => ⟨S_, .i32⟩
  | 102 => ⟨S1000000, .i32⟩
  | 103 => ⟨S1000000, .i1⟩
  | 104 => ⟨S_, .i32⟩
  | 105 => ⟨S1000000, .i32⟩
  | 106 => ⟨S1000000, .i32⟩
  | 107 => ⟨S1000000, .i32⟩
  | 108 => ⟨S_, .i32⟩
  | 109 => ⟨S1000000, .i32⟩
  | 110 => ⟨S1000000, .i1⟩
  | 111 => ⟨S_, .i32⟩
  | 112 => ⟨S1000000, .i32⟩
  | 113 => ⟨S1000000, .i32⟩
  | 114 => ⟨S1000000, .i32⟩
  | 115 => ⟨S1000000x1, .i32⟩
  | 116 => ⟨S1000000x1, .i32⟩
  | 117 => ⟨S1000000x1, .i32⟩
  | 118 => ⟨S1000000x3, .i32⟩
  | 119 => ⟨S16x1000000, .f32⟩
  | 120 => ⟨S1000000, .f32⟩
  | 121 => ⟨S1000000, .f32⟩
  | 122 => ⟨S1x1000000, .f32⟩
  | 123 => ⟨S16x1000000, .f32⟩
  | 124 => ⟨S16x1000000, .f32⟩
  | 125 => ⟨S16x1000000, .f32⟩
  | 126 => ⟨S_, .f32⟩
  | 127 => ⟨S1000000, .f32⟩
  | _ => ⟨S1000000x4, .f32⟩

abbrev hbmTy0_2 (i : Nat) : BufTy := match i % 128 with
  | 0 => ⟨S1000000, .f32⟩
  | 1 => ⟨S_, .f32⟩
  | 2 => ⟨S1000000, .f32⟩
  | 3 => ⟨S1000000, .f32⟩
  | 4 => ⟨S_, .i32⟩
  | 5 => ⟨S1000000, .i32⟩
  | 6 => ⟨S1000000, .i1⟩
  | 7 => ⟨S_, .i32⟩
  | 8 => ⟨S1000000, .i32⟩
  | 9 => ⟨S1000000, .i32⟩
  | 10 => ⟨S1000000, .i32⟩
  | 11 => ⟨S_, .i32⟩
  | 12 => ⟨S1000000, .i32⟩
  | 13 => ⟨S1000000, .i1⟩
  | 14 => ⟨S_, .i32⟩
  | 15 => ⟨S1000000, .i32⟩
  | 16 => ⟨S1000000, .i32⟩
  | 17 => ⟨S1000000, .i32⟩
  | 18 => ⟨S_, .i32⟩
  | 19 => ⟨S1000000, .i32⟩
  | 20 => ⟨S1000000, .i1⟩
  | 21 => ⟨S_, .i32⟩
  | 22 => ⟨S1000000, .i32⟩
  | 23 => ⟨S1000000, .i32⟩
  | 24 => ⟨S1000000, .i32⟩
  | 25 => ⟨S1000000x1, .i32⟩
  | 26 => ⟨S1000000x1, .i32⟩
  | 27 => ⟨S1000000x1, .i32⟩
  | 28 => ⟨S1000000x3, .i32⟩
  | 29 => ⟨S16x1000000, .f32⟩
  | 30 => ⟨S1000000, .f32⟩
  | 31 => ⟨S1000000, .f32⟩
  | 32 => ⟨S1x1000000, .f32⟩
  | 33 => ⟨S16x1000000, .f32⟩
  | 34 => ⟨S16x1000000, .f32⟩
  | 35 => ⟨S16x1000000, .f32⟩
  | 36 => ⟨S_, .i32⟩
  | 37 => ⟨S1000000, .i32⟩
  | 38 => ⟨S1000000, .i1⟩
  | 39 => ⟨S_, .i32⟩
  | 40 => ⟨S1000000, .i32⟩
  | 41 => ⟨S1000000, .i32⟩
  | 42 => ⟨S1000000, .i32⟩
  | 43 => ⟨S_, .i32⟩
  | 44 => ⟨S1000000, .i32⟩
  | 45 => ⟨S1000000, .i1⟩
  | 46 => ⟨S_, .i32⟩
  | 47 => ⟨S1000000, .i32⟩
  | 48 => ⟨S1000000, .i32⟩
  | 49 => ⟨S1000000, .i32⟩
  | 50 => ⟨S_, .i32⟩
  | 51 => ⟨S1000000, .i32⟩
  | 52 => ⟨S1000000, .i1⟩
  | 53 => ⟨S_, .i32⟩
  | 54 => ⟨S1000000, .i32⟩
  | 55 => ⟨S1000000, .i32⟩
  | 56 => ⟨S1000000, .i32⟩
  | 57 => ⟨S1000000x1, .i32⟩
  | 58 => ⟨S1000000x1, .i32⟩
  | 59 => ⟨S1000000x1, .i32⟩
  | 60 => ⟨S1000000x3, .i32⟩
  | 61 => ⟨S16x1000000, .f32⟩
  | 62 => ⟨S1000000, .f32⟩
  | 63 => ⟨S1000000, .f32⟩
  | 64 => ⟨S1x1000000, .f32⟩
  | 65 => ⟨S16x1000000, .f32⟩
  | 66 => ⟨S16x1000000, .f32⟩
  | 67 => ⟨S16x1000000, .f32⟩
  | 68 => ⟨S_, .f32⟩
  | 69 => ⟨S1000000, .f32⟩
  | 70 => ⟨S1000000, .f32⟩
  | 71 => ⟨S_, .i32⟩
  | 72 => ⟨S1000000, .i32⟩
  | 73 => ⟨S1000000, .i1⟩
  | 74 => ⟨S_, .i32⟩
  | 75 => ⟨S1000000, .i32⟩
  | 76 => ⟨S1000000, .i32⟩
  | 77 => ⟨S1000000, .i32⟩
  | 78 => ⟨S_, .i32⟩
  | 79 => ⟨S1000000, .i32⟩
  | 80 => ⟨S1000000, .i1⟩
  | 81 => ⟨S_, .i32⟩
  | 82 => ⟨S1000000, .i32⟩
  | 83 => ⟨S1000000, .i32⟩
  | 84 => ⟨S1000000, .i32⟩
  | 85 => ⟨S_, .i32⟩
  | 86 => ⟨S1000000, .i32⟩
  | 87 => ⟨S1000000, .i1⟩
  | 88 => ⟨S_, .i32⟩
  | 89 => ⟨S1000000, .i32⟩
  | 90 => ⟨S1000000, .i32⟩
  | 91 => ⟨S1000000, .i32⟩
  | 92 => ⟨S1000000x1, .i32⟩
  | 93 => ⟨S1000000x1, .i32⟩
  | 94 => ⟨S1000000x1, .i32⟩
  | 95 => ⟨S1000000x3, .i32⟩
  | 96 => ⟨S16x1000000, .f32⟩
  | 97 => ⟨S1000000, .f32⟩
  | 98 => ⟨S1000000, .f32⟩
  | 99 => ⟨S1x1000000, .f32⟩
  | 100 => ⟨S16x1000000, .f32⟩
  | 101 => ⟨S16x1000000, .f32⟩
  | 102 => ⟨S16x1000000, .f32⟩
  | 103 => ⟨S_, .i32⟩
  | 104 => ⟨S1000000, .i32⟩
  | 105 => ⟨S1000000, .i1⟩
  | 106 => ⟨S_, .i32⟩
  | 107 => ⟨S1000000, .i32⟩
  | 108 => ⟨S1000000, .i32⟩
  | 109 => ⟨S1000000, .i32⟩
  | 110 => ⟨S_, .i32⟩
  | 111 => ⟨S1000000, .i32⟩
  | 112 => ⟨S1000000, .i1⟩
  | 113 => ⟨S_, .i32⟩
  | 114 => ⟨S1000000, .i32⟩
  | 115 => ⟨S1000000, .i32⟩
  | 116 => ⟨S1000000, .i32⟩
  | 117 => ⟨S_, .i32⟩
  | 118 => ⟨S1000000, .i32⟩
  | 119 => ⟨S1000000, .i1⟩
  | 120 => ⟨S_, .i32⟩
  | 121 => ⟨S1000000, .i32⟩
  | 122 => ⟨S1000000, .i32⟩
  | 123 => ⟨S1000000, .i32⟩
  | 124 => ⟨S1000000x1, .i32⟩
  | 125 => ⟨S1000000x1, .i32⟩
  | 126 => ⟨S1000000x1, .i32⟩
  | 127 => ⟨S1000000x3, .i32⟩
  | _ => ⟨S1000000x4, .f32⟩

abbrev hbmTy0_3 (i : Nat) : BufTy := match i % 128 with
  | 0 => ⟨S16x1000000, .f32⟩
  | 1 => ⟨S1000000, .f32⟩
  | 2 => ⟨S1000000, .f32⟩
  | 3 => ⟨S1x1000000, .f32⟩
  | 4 => ⟨S16x1000000, .f32⟩
  | 5 => ⟨S16x1000000, .f32⟩
  | 6 => ⟨S16x1000000, .f32⟩
  | 7 => ⟨S_, .i32⟩
  | 8 => ⟨S2, .i32⟩
  | 9 => ⟨S2, .i1⟩
  | 10 => ⟨S_, .i32⟩
  | 11 => ⟨S2, .i32⟩
  | 12 => ⟨S2, .i32⟩
  | 13 => ⟨S2, .i32⟩
  | 14 => ⟨S2x1, .i32⟩
  | 15 => ⟨S1000000x2, .f32⟩
  | 16 => ⟨S1000000x1, .f32⟩
  | 17 => ⟨S1000000, .f32⟩
  | 18 => ⟨S_, .f32⟩
  | 19 => ⟨S1000000, .f32⟩
  | 20 => ⟨S1000000, .f32⟩
  | 21 => ⟨S_, .f32⟩
  | 22 => ⟨S1000000, .f32⟩
  | 23 => ⟨S1000000, .f32⟩
  | 24 => ⟨S_, .f32⟩
  | 25 => ⟨S1000000, .f32⟩
  | 26 => ⟨S1000000, .f32⟩
  | 27 => ⟨S1000000x1, .f32⟩
  | 28 => ⟨S1000000, .f32⟩
  | 29 => ⟨S_, .f32⟩
  | 30 => ⟨S1000000, .f32⟩
  | 31 => ⟨S1000000, .f32⟩
  | 32 => ⟨S_, .f32⟩
  | 33 => ⟨S1000000, .f32⟩
  | 34 => ⟨S1000000, .f32⟩
  | 35 => ⟨S_, .f32⟩
  | 36 => ⟨S1000000, .f32⟩
  | 37 => ⟨S1000000, .f32⟩
  | 38 => ⟨S1000000, .f32⟩
  | 39 => ⟨S_, .i32⟩
  | 40 => ⟨S_, .i32⟩
  | 41 => ⟨S_, .f32⟩
  | 42 => ⟨S1000000, .f32⟩
  | 43 => ⟨S1000000, .f32⟩
  | 44 => ⟨S_, .f32⟩
  | 45 => ⟨S1000000, .f32⟩
  | 46 => ⟨S1000000, .f32⟩
  | 47 => ⟨S1000000, .i32⟩
  | 48 => ⟨S_, .f32⟩
  | 49 => ⟨S1000000, .f32⟩
  | 50 => ⟨S1000000, .f32⟩
  | 51 => ⟨S_, .i32⟩
  | 52 => ⟨S_, .i32⟩
  | 53 => ⟨S_, .f32⟩
  | 54 => ⟨S1000000, .f32⟩
  | 55 => ⟨S1000000, .f32⟩
  | 56 => ⟨S_, .f32⟩
  | 57 => ⟨S1000000, .f32⟩
  | 58 => ⟨S1000000, .f32⟩
  | 59 => ⟨S1000000, .i32⟩
  | 60 => ⟨S1000000, .f32⟩
  | 61 => ⟨S1000000, .f32⟩
  | 62 => ⟨S_, .i32⟩
  | 63 => ⟨S_, .i32⟩
  | 64 => ⟨S_, .f32⟩
  | 65 => ⟨S1000000, .f32⟩
  | 66 => ⟨S1000000, .f32⟩
  | 67 => ⟨S_, .f32⟩
  | 68 => ⟨S1000000, .f32⟩
  | 69 => ⟨S1000000, .f32⟩
  | 70 => ⟨S1000000, .i32⟩
  | 71 => ⟨S_, .f32⟩
  | 72 => ⟨S1000000, .f32⟩
  | 73 => ⟨S1000000, .f32⟩
  | 74 => ⟨S_, .i32⟩
  | 75 => ⟨S_, .i32⟩
  | 76 => ⟨S_, .f32⟩
  | 77 => ⟨S1000000, .f32⟩
  | 78 => ⟨S1000000, .f32⟩
  | 79 => ⟨S_, .f32⟩
  | 80 => ⟨S1000000, .f32⟩
  | 81 => ⟨S1000000, .f32⟩
  | 82 => ⟨S1000000, .i32⟩
  | 83 => ⟨S1000000, .f32⟩
  | 84 => ⟨S_, .f32⟩
  | 85 => ⟨S16x1000000, .f32⟩
  | 86 => ⟨S_, .f32⟩
  | 87 => ⟨S1000000, .f32⟩
  | 88 => ⟨S1000000, .f32⟩
  | 89 => ⟨S_, .f32⟩
  | 90 => ⟨S1000000, .f32⟩
  | 91 => ⟨S1000000, .f32⟩
  | 92 => ⟨S_, .i32⟩
  | 93 => ⟨S1000000, .i32⟩
  | 94 => ⟨S1000000, .i1⟩
  | 95 => ⟨S_, .i32⟩
  | 96 => ⟨S1000000, .i32⟩
  | 97 => ⟨S1000000, .i32⟩
  | 98 => ⟨S1000000, .i32⟩
  | 99 => ⟨S_, .i32⟩
  | 100 => ⟨S1000000, .i32⟩
  | 101 => ⟨S1000000, .i1⟩
  | 102 => ⟨S_, .i32⟩
  | 103 => ⟨S1000000, .i32⟩
  | 104 => ⟨S1000000, .i32⟩
  | 105 => ⟨S1000000, .i32⟩
  | 106 => ⟨S1000000x1, .i32⟩
  | 107 => ⟨S1000000x1, .i32⟩
  | 108 => ⟨S1000000x2, .i32⟩
  | 109 => ⟨S16x1000000, .f32⟩
  | 110 => ⟨S1000000, .f32⟩
  | 111 => ⟨S1x1000000, .f32⟩
  | 112 => ⟨S16x1000000, .f32⟩
  | 113 => ⟨S16x1000000, .f32⟩
  | 114 => ⟨S16x1000000, .f32⟩
  | 115 => ⟨S_, .i32⟩
  | 116 => ⟨S1000000, .i32⟩
  | 117 => ⟨S1000000, .i1⟩
  | 118 => ⟨S_, .i32⟩
  | 119 => ⟨S1000000, .i32⟩
  | 120 => ⟨S1000000, .i32⟩
  | 121 => ⟨S1000000, .i32⟩
  | 122 => ⟨S_, .i32⟩
  | 123 => ⟨S1000000, .i32⟩
  | 124 => ⟨S1000000, .i1⟩
  | 125 => ⟨S_, .i32⟩
  | 126 => ⟨S1000000, .i32⟩
  | 127 => ⟨S1000000, .i32⟩
  | _ => ⟨S1000000x4, .f32⟩

abbrev hbmTy0_4 (i : Nat) : BufTy := match i % 128 with
  | 0 => ⟨S1000000, .i32⟩
  | 1 => ⟨S1000000x1, .i32⟩
  | 2 => ⟨S1000000x1, .i32⟩
  | 3 => ⟨S1000000x2, .i32⟩
  | 4 => ⟨S16x1000000, .f32⟩
  | 5 => ⟨S1000000, .f32⟩
  | 6 => ⟨S1x1000000, .f32⟩
  | 7 => ⟨S16x1000000, .f32⟩
  | 8 => ⟨S16x1000000, .f32⟩
  | 9 => ⟨S16x1000000, .f32⟩
  | 10 => ⟨S_, .f32⟩
  | 11 => ⟨S1000000, .f32⟩
  | 12 => ⟨S1000000, .f32⟩
  | 13 => ⟨S_, .i32⟩
  | 14 => ⟨S1000000, .i32⟩
  | 15 => ⟨S1000000, .i1⟩
  | 16 => ⟨S_, .i32⟩
  | 17 => ⟨S1000000, .i32⟩
  | 18 => ⟨S1000000, .i32⟩
  | 19 => ⟨S1000000, .i32⟩
  | 20 => ⟨S_, .i32⟩
  | 21 => ⟨S1000000, .i32⟩
  | 22 => ⟨S1000000, .i1⟩
  | 23 => ⟨S_, .i32⟩
  | 24 => ⟨S1000000, .i32⟩
  | 25 => ⟨S1000000, .i32⟩
  | 26 => ⟨S1000000, .i32⟩
  | 27 => ⟨S1000000x1, .i32⟩
  | 28 => ⟨S1000000x1, .i32⟩
  | 29 => ⟨S1000000x2, .i32⟩
  | 30 => ⟨S16x1000000, .f32⟩
  | 31 => ⟨S1000000, .f32⟩
  | 32 => ⟨S1x1000000, .f32⟩
  | 33 => ⟨S16x1000000, .f32⟩
  | 34 => ⟨S16x1000000, .f32⟩
  | 35 => ⟨S16x1000000, .f32⟩
  | 36 => ⟨S_, .i32⟩
  | 37 => ⟨S1000000, .i32⟩
  | 38 => ⟨S1000000, .i1⟩
  | 39 => ⟨S_, .i32⟩
  | 40 => ⟨S1000000, .i32⟩
  | 41 => ⟨S1000000, .i32⟩
  | 42 => ⟨S1000000, .i32⟩
  | 43 => ⟨S_, .i32⟩
  | 44 => ⟨S1000000, .i32⟩
  | 45 => ⟨S1000000, .i1⟩
  | 46 => ⟨S_, .i32⟩
  | 47 => ⟨S1000000, .i32⟩
  | 48 => ⟨S1000000, .i32⟩
  | 49 => ⟨S1000000, .i32⟩
  | 50 => ⟨S1000000x1, .i32⟩
  | 51 => ⟨S1000000x1, .i32⟩
  | 52 => ⟨S1000000x2, .i32⟩
  | 53 => ⟨S16x1000000, .f32⟩
  | 54 => ⟨S1000000, .f32⟩
  | 55 => ⟨S1x1000000, .f32⟩
  | 56 => ⟨S16x1000000, .f32⟩
  | 57 => ⟨S16x1000000, .f32⟩
  | 58 => ⟨S16x1000000, .f32⟩
  | 59 => ⟨S16x1000000, .f32⟩
  | 60 => ⟨S_, .i32⟩
  | 61 => ⟨S2, .i32⟩
  | 62 => ⟨S2, .i1⟩
  | 63 => ⟨S_, .i32⟩
  | 64 => ⟨S2, .i32⟩
  | 65 => ⟨S2, .i32⟩
  | 66 => ⟨S2, .i32⟩
  | 67 => ⟨S2x1, .i32⟩
  | 68 => ⟨S1000000x2, .f32⟩
  | 69 => ⟨S1000000x1, .f32⟩
  | 70 => ⟨S1000000, .f32⟩
  | 71 => ⟨S_, .f32⟩
  | 72 => ⟨S1000000, .f32⟩
  | 73 => ⟨S1000000, .f32⟩
  | 74 => ⟨S_, .f32⟩
  | 75 => ⟨S1000000, .f32⟩
  | 76 => ⟨S1000000, .f32⟩
  | 77 => ⟨S_, .f32⟩
  | 78 => ⟨S1000000, .f32⟩
  | 79 => ⟨S1000000, .f32⟩
  | 80 => ⟨S1000000x1, .f32⟩
  | 81 => ⟨S1000000, .f32⟩
  | 82 => ⟨S_, .f32⟩
  | 83 => ⟨S1000000, .f32⟩
  | 84 => ⟨S1000000, .f32⟩
  | 85 => ⟨S_, .f32⟩
  | 86 => ⟨S1000000, .f32⟩
  | 87 => ⟨S1000000, .f32⟩
  | 88 => ⟨S_, .f32⟩
  | 89 => ⟨S1000000, .f32⟩
  | 90 => ⟨S1000000, .f32⟩
  | 91 => ⟨S1000000, .f32⟩
  | 92 => ⟨S_, .i32⟩
  | 93 => ⟨S_, .i32⟩
  | 94 => ⟨S_, .f32⟩
  | 95 => ⟨S1000000, .f32⟩
  | 96 => ⟨S1000000, .f32⟩
  | 97 => ⟨S_, .f32⟩
  | 98 => ⟨S1000000, .f32⟩
  | 99 => ⟨S1000000, .f32⟩
  | 100 => ⟨S1000000, .i32⟩
  | 101 => ⟨S_, .f32⟩
  | 102 => ⟨S1000000, .f32⟩
  | 103 => ⟨S1000000, .f32⟩
  | 104 => ⟨S_, .i32⟩
  | 105 => ⟨S_, .i32⟩
  | 106 => ⟨S_, .f32⟩
  | 107 => ⟨S1000000, .f32⟩
  | 108 => ⟨S1000000, .f32⟩
  | 109 => ⟨S_, .f32⟩
  | 110 => ⟨S1000000, .f32⟩
  | 111 => ⟨S1000000, .f32⟩
  | 112 => ⟨S1000000, .i32⟩
  | 113 => ⟨S1000000, .f32⟩
  | 114 => ⟨S1000000, .f32⟩
  | 115 => ⟨S_, .i32⟩
  | 116 => ⟨S_, .i32⟩
  | 117 => ⟨S_, .f32⟩
  | 118 => ⟨S1000000, .f32⟩
  | 119 => ⟨S1000000, .f32⟩
  | 120 => ⟨S_, .f32⟩
  | 121 => ⟨S1000000, .f32⟩
  | 122 => ⟨S1000000, .f32⟩
  | 123 => ⟨S1000000, .i32⟩
  | 124 => ⟨S_, .f32⟩
  | 125 => ⟨S1000000, .f32⟩
  | 126 => ⟨S1000000, .f32⟩
  | 127 => ⟨S_, .i32⟩
  | _ => ⟨S1000000x4, .f32⟩

abbrev hbmTy0_5 (i : Nat) : BufTy := match i % 128 with
  | 0 => ⟨S_, .i32⟩
  | 1 => ⟨S_, .f32⟩
  | 2 => ⟨S1000000, .f32⟩
  | 3 => ⟨S1000000, .f32⟩
  | 4 => ⟨S_, .f32⟩
  | 5 => ⟨S1000000, .f32⟩
  | 6 => ⟨S1000000, .f32⟩
  | 7 => ⟨S1000000, .i32⟩
  | 8 => ⟨S1000000, .f32⟩
  | 9 => ⟨S_, .f32⟩
  | 10 => ⟨S16x1000000, .f32⟩
  | 11 => ⟨S_, .f32⟩
  | 12 => ⟨S1000000, .f32⟩
  | 13 => ⟨S1000000, .f32⟩
  | 14 => ⟨S_, .f32⟩
  | 15 => ⟨S1000000, .f32⟩
  | 16 => ⟨S1000000, .f32⟩
  | 17 => ⟨S_, .i32⟩
  | 18 => ⟨S1000000, .i32⟩
  | 19 => ⟨S1000000, .i1⟩
  | 20 => ⟨S_, .i32⟩
  | 21 => ⟨S1000000, .i32⟩
  | 22 => ⟨S1000000, .i32⟩
  | 23 => ⟨S1000000, .i32⟩
  | 24 => ⟨S_, .i32⟩
  | 25 => ⟨S1000000, .i32⟩
  | 26 => ⟨S1000000, .i1⟩
  | 27 => ⟨S_, .i32⟩
  | 28 => ⟨S1000000, .i32⟩
  | 29 => ⟨S1000000, .i32⟩
  | 30 => ⟨S1000000, .i32⟩
  | 31 => ⟨S1000000x1, .i32⟩
  | 32 => ⟨S1000000x1, .i32⟩
  | 33 => ⟨S1000000x2, .i32⟩
  | 34 => ⟨S16x1000000, .f32⟩
  | 35 => ⟨S1000000, .f32⟩
  | 36 => ⟨S1x1000000, .f32⟩
  | 37 => ⟨S16x1000000, .f32⟩
  | 38 => ⟨S16x1000000, .f32⟩
  | 39 => ⟨S16x1000000, .f32⟩
  | 40 => ⟨S_, .i32⟩
  | 41 => ⟨S1000000, .i32⟩
  | 42 => ⟨S1000000, .i1⟩
  | 43 => ⟨S_, .i32⟩
  | 44 => ⟨S1000000, .i32⟩
  | 45 => ⟨S1000000, .i32⟩
  | 46 => ⟨S1000000, .i32⟩
  | 47 => ⟨S_, .i32⟩
  | 48 => ⟨S1000000, .i32⟩
  | 49 => ⟨S1000000, .i1⟩
  | 50 => ⟨S_, .i32⟩
  | 51 => ⟨S1000000, .i32⟩
  | 52 => ⟨S1000000, .i32⟩
  | 53 => ⟨S1000000, .i32⟩
  | 54 => ⟨S1000000x1, .i32⟩
  | 55 => ⟨S1000000x1, .i32⟩
  | 56 => ⟨S1000000x2, .i32⟩
  | 57 => ⟨S16x1000000, .f32⟩
  | 58 => ⟨S1000000, .f32⟩
  | 59 => ⟨S1x1000000, .f32⟩
  | 60 => ⟨S16x1000000, .f32⟩
  | 61 => ⟨S16x1000000, .f32⟩
  | 62 => ⟨S16x1000000, .f32⟩
  | 63 => ⟨S_, .f32⟩
  | 64 => ⟨S1000000, .f32⟩
  | 65 => ⟨S1000000, .f32⟩
  | 66 => ⟨S_, .i32⟩
  | 67 => ⟨S1000000, .i32⟩
  | 68 => ⟨S1000000, .i1⟩
  | 69 => ⟨S_, .i32⟩
  | 70 => ⟨S1000000, .i32⟩
  | 71 => ⟨S1000000, .i32⟩
  | 72 => ⟨S1000000, .i32⟩
  | 73 => ⟨S_, .i32⟩
  | 74 => ⟨S1000000, .i32⟩
  | 75 => ⟨S1000000, .i1⟩
  | 76 => ⟨S_, .i32⟩
  | 77 => ⟨S1000000, .i32⟩
  | 78 => ⟨S1000000, .i32⟩
  | 79 => ⟨S1000000, .i32⟩
  | 80 => ⟨S1000000x1, .i32⟩
  | 81 => ⟨S1000000x1, .i32⟩
  | 82 => ⟨S1000000x2, .i32⟩
  | 83 => ⟨S16x1000000, .f32⟩
  | 84 => ⟨S1000000, .f32⟩
  | 85 => ⟨S1x1000000, .f32⟩
  | 86 => ⟨S16x1000000, .f32⟩
  | 87 => ⟨S16x1000000, .f32⟩
  | 88 => ⟨S16x1000000, .f32⟩
  | 89 => ⟨S_, .i32⟩
  | 90 => ⟨S1000000, .i32⟩
  | 91 => ⟨S1000000, .i1⟩
  | 92 => ⟨S_, .i32⟩
  | 93 => ⟨S1000000, .i32⟩
  | 94 => ⟨S1000000, .i32⟩
  | 95 => ⟨S1000000, .i32⟩
  | 96 => ⟨S_, .i32⟩
  | 97 => ⟨S1000000, .i32⟩
  | 98 => ⟨S1000000, .i1⟩
  | 99 => ⟨S_, .i32⟩
  | 100 => ⟨S1000000, .i32⟩
  | 101 => ⟨S1000000, .i32⟩
  | 102 => ⟨S1000000, .i32⟩
  | 103 => ⟨S1000000x1, .i32⟩
  | 104 => ⟨S1000000x1, .i32⟩
  | 105 => ⟨S1000000x2, .i32⟩
  | 106 => ⟨S16x1000000, .f32⟩
  | 107 => ⟨S1000000, .f32⟩
  | 108 => ⟨S1x1000000, .f32⟩
  | 109 => ⟨S16x1000000, .f32⟩
  | 110 => ⟨S16x1000000, .f32⟩
  | 111 => ⟨S16x1000000, .f32⟩
  | 112 => ⟨S16x1000000, .f32⟩
  | 113 => ⟨S_, .i32⟩
  | 114 => ⟨S2, .i32⟩
  | 115 => ⟨S2, .i1⟩
  | 116 => ⟨S_, .i32⟩
  | 117 => ⟨S2, .i32⟩
  | 118 => ⟨S2, .i32⟩
  | 119 => ⟨S2, .i32⟩
  | 120 => ⟨S2x1, .i32⟩
  | 121 => ⟨S1000000x2, .f32⟩
  | 122 => ⟨S1000000x1, .f32⟩
  | 123 => ⟨S1000000, .f32⟩
  | 124 => ⟨S_, .f32⟩
  | 125 => ⟨S1000000, .f32⟩
  | 126 => ⟨S1000000, .f32⟩
  | 127 => ⟨S_, .f32⟩
  | _ => ⟨S1000000x4, .f32⟩

abbrev hbmTy0_6 (i : Nat) : BufTy := match i % 128 with
  | 0 => ⟨S1000000, .f32⟩
  | 1 => ⟨S1000000, .f32⟩
  | 2 => ⟨S_, .f32⟩
  | 3 => ⟨S1000000, .f32⟩
  | 4 => ⟨S1000000, .f32⟩
  | 5 => ⟨S1000000x1, .f32⟩
  | 6 => ⟨S1000000, .f32⟩
  | 7 => ⟨S_, .f32⟩
  | 8 => ⟨S1000000, .f32⟩
  | 9 => ⟨S1000000, .f32⟩
  | 10 => ⟨S_, .f32⟩
  | 11 => ⟨S1000000, .f32⟩
  | 12 => ⟨S1000000, .f32⟩
  | 13 => ⟨S_, .f32⟩
  | 14 => ⟨S1000000, .f32⟩
  | 15 => ⟨S1000000, .f32⟩
  | 16 => ⟨S1000000, .f32⟩
  | 17 => ⟨S_, .i32⟩
  | 18 => ⟨S_, .i32⟩
  | 19 => ⟨S_, .f32⟩
  | 20 => ⟨S1000000, .f32⟩
  | 21 => ⟨S1000000, .f32⟩
  | 22 => ⟨S_, .f32⟩
  | 23 => ⟨S1000000, .f32⟩
  | 24 => ⟨S1000000, .f32⟩
  | 25 => ⟨S1000000, .i32⟩
  | 26 => ⟨S_, .f32⟩
  | 27 => ⟨S1000000, .f32⟩
  | 28 => ⟨S1000000, .f32⟩
  | 29 => ⟨S_, .i32⟩
  | 30 => ⟨S_, .i32⟩
  | 31 => ⟨S_, .f32⟩
  | 32 => ⟨S1000000, .f32⟩
  | 33 => ⟨S1000000, .f32⟩
  | 34 => ⟨S_, .f32⟩
  | 35 => ⟨S1000000, .f32⟩
  | 36 => ⟨S1000000, .f32⟩
  | 37 => ⟨S1000000, .i32⟩
  | 38 => ⟨S1000000, .f32⟩
  | 39 => ⟨S1000000, .f32⟩
  | 40 => ⟨S_, .i32⟩
  | 41 => ⟨S_, .i32⟩
  | 42 => ⟨S_, .f32⟩
  | 43 => ⟨S1000000, .f32⟩
  | 44 => ⟨S1000000, .f32⟩
  | 45 => ⟨S_, .f32⟩
  | 46 => ⟨S1000000, .f32⟩
  | 47 => ⟨S1000000, .f32⟩
  | 48 => ⟨S1000000, .i32⟩
  | 49 => ⟨S_, .f32⟩
  | 50 => ⟨S1000000, .f32⟩
  | 51 => ⟨S1000000, .f32⟩
  | 52 => ⟨S_, .i32⟩
  | 53 => ⟨S_, .i32⟩
  | 54 => ⟨S_, .f32⟩
  | 55 => ⟨S1000000, .f32⟩
  | 56 => ⟨S1000000, .f32⟩
  | 57 => ⟨S_, .f32⟩
  | 58 => ⟨S1000000, .f32⟩
  | 59 => ⟨S1000000, .f32⟩
  | 60 => ⟨S1000000, .i32⟩
  | 61 => ⟨S1000000, .f32⟩
  | 62 => ⟨S_, .f32⟩
  | 63 => ⟨S16x1000000, .f32⟩
  | 64 => ⟨S_, .f32⟩
  | 65 => ⟨S1000000, .f32⟩
  | 66 => ⟨S1000000, .f32⟩
  | 67 => ⟨S_, .f32⟩
  | 68 => ⟨S1000000, .f32⟩
  | 69 => ⟨S1000000, .f32⟩
  | 70 => ⟨S_, .i32⟩
  | 71 => ⟨S1000000, .i32⟩
  | 72 => ⟨S1000000, .i1⟩
  | 73 => ⟨S_, .i32⟩
  | 74 => ⟨S1000000, .i32⟩
  | 75 => ⟨S1000000, .i32⟩
  | 76 => ⟨S1000000, .i32⟩
  | 77 => ⟨S_, .i32⟩
  | 78 => ⟨S1000000, .i32⟩
  | 79 => ⟨S1000000, .i1⟩
  | 80 => ⟨S_, .i32⟩
  | 81 => ⟨S1000000, .i32⟩
  | 82 => ⟨S1000000, .i32⟩
  | 83 => ⟨S1000000, .i32⟩
  | 84 => ⟨S1000000x1, .i32⟩
  | 85 => ⟨S1000000x1, .i32⟩
  | 86 => ⟨S1000000x2, .i32⟩
  | 87 => ⟨S16x1000000, .f32⟩
  | 88 => ⟨S1000000, .f32⟩
  | 89 => ⟨S1x1000000, .f32⟩
  | 90 => ⟨S16x1000000, .f32⟩
  | 91 => ⟨S16x1000000, .f32⟩
  | 92 => ⟨S16x1000000, .f32⟩
  | 93 => ⟨S_, .i32⟩
  | 94 => ⟨S1000000, .i32⟩
  | 95 => ⟨S1000000, .i1⟩
  | 96 => ⟨S_, .i32⟩
  | 97 => ⟨S1000000, .i32⟩
  | 98 => ⟨S1000000, .i32⟩
  | 99 => ⟨S1000000, .i32⟩
  | 100 => ⟨S_, .i32⟩
  | 101 => ⟨S1000000, .i32⟩
  | 102 => ⟨S1000000, .i1⟩
  | 103 => ⟨S_, .i32⟩
  | 104 => ⟨S1000000, .i32⟩
  | 105 => ⟨S1000000, .i32⟩
  | 106 => ⟨S1000000, .i32⟩
  | 107 => ⟨S1000000x1, .i32⟩
  | 108 => ⟨S1000000x1, .i32⟩
  | 109 => ⟨S1000000x2, .i32⟩
  | 110 => ⟨S16x1000000, .f32⟩
  | 111 => ⟨S1000000, .f32⟩
  | 112 => ⟨S1x1000000, .f32⟩
  | 113 => ⟨S16x1000000, .f32⟩
  | 114 => ⟨S16x1000000, .f32⟩
  | 115 => ⟨S16x1000000, .f32⟩
  | 116 => ⟨S_, .f32⟩
  | 117 => ⟨S1000000, .f32⟩
  | 118 => ⟨S1000000, .f32⟩
  | 119 => ⟨S_, .i32⟩
  | 120 => ⟨S1000000, .i32⟩
  | 121 => ⟨S1000000, .i1⟩
  | 122 => ⟨S_, .i32⟩
  | 123 => ⟨S1000000, .i32⟩
  | 124 => ⟨S1000000, .i32⟩
  | 125 => ⟨S1000000, .i32⟩
  | 126 => ⟨S_, .i32⟩
  | 127 => ⟨S1000000, .i32⟩
  | _ => ⟨S1000000x4, .f32⟩

abbrev hbmTy0_7 (i : Nat) : BufTy := match i % 128 with
  | 0 => ⟨S1000000, .i1⟩
  | 1 => ⟨S_, .i32⟩
  | 2 => ⟨S1000000, .i32⟩
  | 3 => ⟨S1000000, .i32⟩
  | 4 => ⟨S1000000, .i32⟩
  | 5 => ⟨S1000000x1, .i32⟩
  | 6 => ⟨S1000000x1, .i32⟩
  | 7 => ⟨S1000000x2, .i32⟩
  | 8 => ⟨S16x1000000, .f32⟩
  | 9 => ⟨S1000000, .f32⟩
  | 10 => ⟨S1x1000000, .f32⟩
  | 11 => ⟨S16x1000000, .f32⟩
  | 12 => ⟨S16x1000000, .f32⟩
  | 13 => ⟨S16x1000000, .f32⟩
  | 14 => ⟨S_, .i32⟩
  | 15 => ⟨S1000000, .i32⟩
  | 16 => ⟨S1000000, .i1⟩
  | 17 => ⟨S_, .i32⟩
  | 18 => ⟨S1000000, .i32⟩
  | 19 => ⟨S1000000, .i32⟩
  | 20 => ⟨S1000000, .i32⟩
  | 21 => ⟨S_, .i32⟩
  | 22 => ⟨S1000000, .i32⟩
  | 23 => ⟨S1000000, .i1⟩
  | 24 => ⟨S_, .i32⟩
  | 25 => ⟨S1000000, .i32⟩
  | 26 => ⟨S1000000, .i32⟩
  | 27 => ⟨S1000000, .i32⟩
  | 28 => ⟨S1000000x1, .i32⟩
  | 29 => ⟨S1000000x1, .i32⟩
  | 30 => ⟨S1000000x2, .i32⟩
  | 31 => ⟨S16x1000000, .f32⟩
  | 32 => ⟨S1000000, .f32⟩
  | 33 => ⟨S1x1000000, .f32⟩
  | 34 => ⟨S16x1000000, .f32⟩
  | 35 => ⟨S16x1000000, .f32⟩
  | 36 => ⟨S16x1000000, .f32⟩
  | 37 => ⟨S16x1000000, .f32⟩
  | 38 => ⟨S1000000x1, .f32⟩
  | 39 => ⟨S1000000, .f32⟩
  | 40 => ⟨S_, .f32⟩
  | 41 => ⟨S1000000, .f32⟩
  | 42 => ⟨S1000000, .f32⟩
  | 43 => ⟨S1000000, .f32⟩
  | 44 => ⟨S1000000, .i32⟩
  | 45 => ⟨S_, .f32⟩
  | 46 => ⟨S1000000, .f32⟩
  | 47 => ⟨S1000000, .f32⟩
  | 48 => ⟨S_, .f32⟩
  | 49 => ⟨S_, .i32⟩
  | 50 => ⟨S_, .f32⟩
  | 51 => ⟨S1000000, .f32⟩
  | 52 => ⟨S1000000, .f32⟩
  | 53 => ⟨S_, .f32⟩
  | 54 => ⟨S1000000, .f32⟩
  | 55 => ⟨S1000000, .f32⟩
  | 56 => ⟨S1000000, .i32⟩
  | 57 => ⟨S1000000, .f32⟩
  | 58 => ⟨S_, .i32⟩
  | 59 => ⟨S1000000, .i32⟩
  | 60 => ⟨S1000000, .i1⟩
  | 61 => ⟨S_, .i32⟩
  | 62 => ⟨S1000000, .i32⟩
  | 63 => ⟨S1000000, .i32⟩
  | 64 => ⟨S1000000, .i32⟩
  | 65 => ⟨S1000000x1, .i32⟩
  | 66 => ⟨S16x1000000, .f32⟩
  | 67 => ⟨S_, .f32⟩
  | 68 => ⟨S1000000, .f32⟩
  | 69 => ⟨S1000000, .f32⟩
  | 70 => ⟨S1x1000000, .f32⟩
  | 71 => ⟨S16x1000000, .f32⟩
  | 72 => ⟨S16x1000000, .f32⟩
  | 73 => ⟨S_, .i32⟩
  | 74 => ⟨S1000000, .i32⟩
  | 75 => ⟨S1000000, .i1⟩
  | 76 => ⟨S_, .i32⟩
  | 77 => ⟨S1000000, .i32⟩
  | 78 => ⟨S1000000, .i32⟩
  | 79 => ⟨S1000000, .i32⟩
  | 80 => ⟨S1000000x1, .i32⟩
  | 81 => ⟨S16x1000000, .f32⟩
  | 82 => ⟨S1x1000000, .f32⟩
  | 83 => ⟨S16x1000000, .f32⟩
  | 84 => ⟨S16x1000000, .f32⟩
  | 85 => ⟨S16x1000000, .f32⟩
  | 86 => ⟨S1000000x16, .f32⟩
  | 87 => ⟨S1000000x16, .f32⟩
  | 88 => ⟨S1000000x32, .f32⟩
  | _ => ⟨S1000000x4, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S1000000x4, .f32⟩

abbrev bufTy : (tb : Table) → Fin (tcTables nBuf tb) → BufTy
  | .hbm, ⟨i, _⟩ => hbmTy i
  | _, _ => ⟨S1000000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_c_1 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_2 : Ref sig .tc := ⟨.hbm, 15, rfl⟩
abbrev main_v5 : Ref sig .tc := ⟨.hbm, 16, rfl⟩
abbrev main_v6 : Ref sig .tc := ⟨.hbm, 17, rfl⟩
abbrev main_cst_3 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_4 : Ref sig .tc := ⟨.hbm, 23, rfl⟩
abbrev main_v11 : Ref sig .tc := ⟨.hbm, 24, rfl⟩
abbrev main_v12 : Ref sig .tc := ⟨.hbm, 25, rfl⟩
abbrev main_cst_5 : Ref sig .tc := ⟨.hbm, 26, rfl⟩
abbrev main_v13 : Ref sig .tc := ⟨.hbm, 27, rfl⟩
abbrev main_v14 : Ref sig .tc := ⟨.hbm, 28, rfl⟩
abbrev main_cst_6 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_7 : Ref sig .tc := ⟨.hbm, 34, rfl⟩
abbrev main_v19 : Ref sig .tc := ⟨.hbm, 35, rfl⟩
abbrev main_v20 : Ref sig .tc := ⟨.hbm, 36, rfl⟩
abbrev main_cst_8 : Ref sig .tc := ⟨.hbm, 37, rfl⟩
abbrev main_v21 : Ref sig .tc := ⟨.hbm, 38, rfl⟩
abbrev main_v22 : Ref sig .tc := ⟨.hbm, 39, rfl⟩
abbrev main_cst_9 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c_10 : Ref sig .tc := ⟨.hbm, 44, rfl⟩
abbrev main_c_11 : Ref sig .tc := ⟨.hbm, 45, rfl⟩
abbrev main_call0_v0 : Ref sig .tc := ⟨.hbm, 46, rfl⟩
abbrev main_call0_v1 : Ref sig .tc := ⟨.hbm, 47, rfl⟩
abbrev main_call0_v2 : Ref sig .tc := ⟨.hbm, 48, rfl⟩
abbrev main_call0_v3 : Ref sig .tc := ⟨.hbm, 49, rfl⟩
abbrev main_call0_v4 : Ref sig .tc := ⟨.hbm, 50, rfl⟩
abbrev main_v26 : Ref sig .tc := ⟨.hbm, 51, rfl⟩
abbrev main_v27 : Ref sig .tc := ⟨.hbm, 52, rfl⟩
abbrev main_cst_12 : Ref sig .tc := ⟨.hbm, 53, rfl⟩
abbrev main_v28 : Ref sig .tc := ⟨.hbm, 54, rfl⟩
abbrev main_v29 : Ref sig .tc := ⟨.hbm, 55, rfl⟩
abbrev main_c_13 : Ref sig .tc := ⟨.hbm, 56, rfl⟩
abbrev main_c_14 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_call1_v3 : Ref sig .tc := ⟨.hbm, 61, rfl⟩
abbrev main_call1_v4 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_c_15 : Ref sig .tc := ⟨.hbm, 67, rfl⟩
abbrev main_c_16 : Ref sig .tc := ⟨.hbm, 68, rfl⟩
abbrev main_call2_v0 : Ref sig .tc := ⟨.hbm, 69, rfl⟩
abbrev main_call2_v1 : Ref sig .tc := ⟨.hbm, 70, rfl⟩
abbrev main_call2_v2 : Ref sig .tc := ⟨.hbm, 71, rfl⟩
abbrev main_call2_v3 : Ref sig .tc := ⟨.hbm, 72, rfl⟩
abbrev main_call2_v4 : Ref sig .tc := ⟨.hbm, 73, rfl⟩
abbrev main_v34 : Ref sig .tc := ⟨.hbm, 74, rfl⟩
abbrev main_v35 : Ref sig .tc := ⟨.hbm, 75, rfl⟩
abbrev main_cst_17 : Ref sig .tc := ⟨.hbm, 76, rfl⟩
abbrev main_v36 : Ref sig .tc := ⟨.hbm, 77, rfl⟩
abbrev main_v37 : Ref sig .tc := ⟨.hbm, 78, rfl⟩
abbrev main_c_18 : Ref sig .tc := ⟨.hbm, 79, rfl⟩
abbrev main_c_19 : Ref sig .tc := ⟨.hbm, 80, rfl⟩
abbrev main_call3_v0 : Ref sig .tc := ⟨.hbm, 81, rfl⟩
abbrev main_call3_v1 : Ref sig .tc := ⟨.hbm, 82, rfl⟩
abbrev main_call3_v2 : Ref sig .tc := ⟨.hbm, 83, rfl⟩
abbrev main_call3_v3 : Ref sig .tc := ⟨.hbm, 84, rfl⟩
abbrev main_call3_v4 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_c_20 : Ref sig .tc := ⟨.hbm, 90, rfl⟩
abbrev main_c_21 : Ref sig .tc := ⟨.hbm, 91, rfl⟩
abbrev main_call4_v0 : Ref sig .tc := ⟨.hbm, 92, rfl⟩
abbrev main_call4_v1 : Ref sig .tc := ⟨.hbm, 93, rfl⟩
abbrev main_call4_v2 : Ref sig .tc := ⟨.hbm, 94, rfl⟩
abbrev main_call4_v3 : Ref sig .tc := ⟨.hbm, 95, rfl⟩
abbrev main_call4_v4 : Ref sig .tc := ⟨.hbm, 96, rfl⟩
abbrev main_v42 : Ref sig .tc := ⟨.hbm, 97, rfl⟩
abbrev main_v43 : Ref sig .tc := ⟨.hbm, 98, rfl⟩
abbrev main_cst_22 : Ref sig .tc := ⟨.hbm, 99, rfl⟩
abbrev main_v44 : Ref sig .tc := ⟨.hbm, 100, rfl⟩
abbrev main_v45 : Ref sig .tc := ⟨.hbm, 101, rfl⟩
abbrev main_c_23 : Ref sig .tc := ⟨.hbm, 102, rfl⟩
abbrev main_c_24 : Ref sig .tc := ⟨.hbm, 103, rfl⟩
abbrev main_call5_v0 : Ref sig .tc := ⟨.hbm, 104, rfl⟩
abbrev main_call5_v1 : Ref sig .tc := ⟨.hbm, 105, rfl⟩
abbrev main_call5_v2 : Ref sig .tc := ⟨.hbm, 106, rfl⟩
abbrev main_call5_v3 : Ref sig .tc := ⟨.hbm, 107, rfl⟩
abbrev main_call5_v4 : Ref sig .tc := ⟨.hbm, 108, rfl⟩
abbrev main_v46 : Ref sig .tc := ⟨.hbm, 109, rfl⟩
abbrev main_v47 : Ref sig .tc := ⟨.hbm, 110, rfl⟩
abbrev main_v48 : Ref sig .tc := ⟨.hbm, 111, rfl⟩
abbrev main_cst_25 : Ref sig .tc := ⟨.hbm, 112, rfl⟩
abbrev main_v49 : Ref sig .tc := ⟨.hbm, 113, rfl⟩
abbrev main_cst_26 : Ref sig .tc := ⟨.hbm, 114, rfl⟩
abbrev main_v50 : Ref sig .tc := ⟨.hbm, 115, rfl⟩
abbrev main_v51 : Ref sig .tc := ⟨.hbm, 116, rfl⟩
abbrev main_cst_27 : Ref sig .tc := ⟨.hbm, 117, rfl⟩
abbrev main_v52 : Ref sig .tc := ⟨.hbm, 118, rfl⟩
abbrev main_v53 : Ref sig .tc := ⟨.hbm, 119, rfl⟩
abbrev main_cst_28 : Ref sig .tc := ⟨.hbm, 120, rfl⟩
abbrev main_v54 : Ref sig .tc := ⟨.hbm, 121, rfl⟩
abbrev main_v55 : Ref sig .tc := ⟨.hbm, 122, rfl⟩
abbrev main_c_29 : Ref sig .tc := ⟨.hbm, 123, rfl⟩
abbrev main_v56 : Ref sig .tc := ⟨.hbm, 124, rfl⟩
abbrev main_v57 : Ref sig .tc := ⟨.hbm, 125, rfl⟩
abbrev main_c_30 : Ref sig .tc := ⟨.hbm, 126, rfl⟩
abbrev main_v58 : Ref sig .tc := ⟨.hbm, 127, rfl⟩
abbrev main_v59 : Ref sig .tc := ⟨.hbm, 128, rfl⟩
abbrev main_v60 : Ref sig .tc := ⟨.hbm, 129, rfl⟩
abbrev main_c_31 : Ref sig .tc := ⟨.hbm, 130, rfl⟩
abbrev main_v61 : Ref sig .tc := ⟨.hbm, 131, rfl⟩
abbrev main_v62 : Ref sig .tc := ⟨.hbm, 132, rfl⟩
abbrev main_c_32 : Ref sig .tc := ⟨.hbm, 133, rfl⟩
abbrev main_v63 : Ref sig .tc := ⟨.hbm, 134, rfl⟩
abbrev main_v64 : Ref sig .tc := ⟨.hbm, 135, rfl⟩
abbrev main_v65 : Ref sig .tc := ⟨.hbm, 136, rfl⟩
abbrev main_c_33 : Ref sig .tc := ⟨.hbm, 137, rfl⟩
abbrev main_v66 : Ref sig .tc := ⟨.hbm, 138, rfl⟩
abbrev main_v67 : Ref sig .tc := ⟨.hbm, 139, rfl⟩
abbrev main_c_34 : Ref sig .tc := ⟨.hbm, 140, rfl⟩
abbrev main_v68 : Ref sig .tc := ⟨.hbm, 141, rfl⟩
abbrev main_v69 : Ref sig .tc := ⟨.hbm, 142, rfl⟩
abbrev main_v70 : Ref sig .tc := ⟨.hbm, 143, rfl⟩
abbrev main_v71 : Ref sig .tc := ⟨.hbm, 144, rfl⟩
abbrev main_v72 : Ref sig .tc := ⟨.hbm, 145, rfl⟩
abbrev main_v73 : Ref sig .tc := ⟨.hbm, 146, rfl⟩
abbrev main_v74 : Ref sig .tc := ⟨.hbm, 147, rfl⟩
abbrev main_v75 : Ref sig .tc := ⟨.hbm, 148, rfl⟩
abbrev main_v76 : Ref sig .tc := ⟨.hbm, 149, rfl⟩
abbrev main_v77 : Ref sig .tc := ⟨.hbm, 150, rfl⟩
abbrev main_v78 : Ref sig .tc := ⟨.hbm, 151, rfl⟩
abbrev main_v79 : Ref sig .tc := ⟨.hbm, 152, rfl⟩
abbrev main_v80 : Ref sig .tc := ⟨.hbm, 153, rfl⟩
abbrev main_v81 : Ref sig .tc := ⟨.hbm, 154, rfl⟩
abbrev main_c_35 : Ref sig .tc := ⟨.hbm, 155, rfl⟩
abbrev main_v82 : Ref sig .tc := ⟨.hbm, 156, rfl⟩
abbrev main_v83 : Ref sig .tc := ⟨.hbm, 157, rfl⟩
abbrev main_c_36 : Ref sig .tc := ⟨.hbm, 158, rfl⟩
abbrev main_v84 : Ref sig .tc := ⟨.hbm, 159, rfl⟩
abbrev main_v85 : Ref sig .tc := ⟨.hbm, 160, rfl⟩
abbrev main_v86 : Ref sig .tc := ⟨.hbm, 161, rfl⟩
abbrev main_c_37 : Ref sig .tc := ⟨.hbm, 162, rfl⟩
abbrev main_v87 : Ref sig .tc := ⟨.hbm, 163, rfl⟩
abbrev main_v88 : Ref sig .tc := ⟨.hbm, 164, rfl⟩
abbrev main_c_38 : Ref sig .tc := ⟨.hbm, 165, rfl⟩
abbrev main_v89 : Ref sig .tc := ⟨.hbm, 166, rfl⟩
abbrev main_v90 : Ref sig .tc := ⟨.hbm, 167, rfl⟩
abbrev main_v91 : Ref sig .tc := ⟨.hbm, 168, rfl⟩
abbrev main_c_39 : Ref sig .tc := ⟨.hbm, 169, rfl⟩
abbrev main_v92 : Ref sig .tc := ⟨.hbm, 170, rfl⟩
abbrev main_v93 : Ref sig .tc := ⟨.hbm, 171, rfl⟩
abbrev main_c_40 : Ref sig .tc := ⟨.hbm, 172, rfl⟩
abbrev main_v94 : Ref sig .tc := ⟨.hbm, 173, rfl⟩
abbrev main_v95 : Ref sig .tc := ⟨.hbm, 174, rfl⟩
abbrev main_v96 : Ref sig .tc := ⟨.hbm, 175, rfl⟩
abbrev main_v97 : Ref sig .tc := ⟨.hbm, 176, rfl⟩
abbrev main_v98 : Ref sig .tc := ⟨.hbm, 177, rfl⟩
abbrev main_v99 : Ref sig .tc := ⟨.hbm, 178, rfl⟩
abbrev main_v100 : Ref sig .tc := ⟨.hbm, 179, rfl⟩
abbrev main_v101 : Ref sig .tc := ⟨.hbm, 180, rfl⟩
abbrev main_v102 : Ref sig .tc := ⟨.hbm, 181, rfl⟩
abbrev main_v103 : Ref sig .tc := ⟨.hbm, 182, rfl⟩
abbrev main_v104 : Ref sig .tc := ⟨.hbm, 183, rfl⟩
abbrev main_v105 : Ref sig .tc := ⟨.hbm, 184, rfl⟩
abbrev main_v106 : Ref sig .tc := ⟨.hbm, 185, rfl⟩
abbrev main_v107 : Ref sig .tc := ⟨.hbm, 186, rfl⟩
abbrev main_cst_41 : Ref sig .tc := ⟨.hbm, 187, rfl⟩
abbrev main_v108 : Ref sig .tc := ⟨.hbm, 188, rfl⟩
abbrev main_v109 : Ref sig .tc := ⟨.hbm, 189, rfl⟩
abbrev main_c_42 : Ref sig .tc := ⟨.hbm, 190, rfl⟩
abbrev main_v110 : Ref sig .tc := ⟨.hbm, 191, rfl⟩
abbrev main_v111 : Ref sig .tc := ⟨.hbm, 192, rfl⟩
abbrev main_c_43 : Ref sig .tc := ⟨.hbm, 193, rfl⟩
abbrev main_v112 : Ref sig .tc := ⟨.hbm, 194, rfl⟩
abbrev main_v113 : Ref sig .tc := ⟨.hbm, 195, rfl⟩
abbrev main_v114 : Ref sig .tc := ⟨.hbm, 196, rfl⟩
abbrev main_c_44 : Ref sig .tc := ⟨.hbm, 197, rfl⟩
abbrev main_v115 : Ref sig .tc := ⟨.hbm, 198, rfl⟩
abbrev main_v116 : Ref sig .tc := ⟨.hbm, 199, rfl⟩
abbrev main_c_45 : Ref sig .tc := ⟨.hbm, 200, rfl⟩
abbrev main_v117 : Ref sig .tc := ⟨.hbm, 201, rfl⟩
abbrev main_v118 : Ref sig .tc := ⟨.hbm, 202, rfl⟩
abbrev main_v119 : Ref sig .tc := ⟨.hbm, 203, rfl⟩
abbrev main_c_46 : Ref sig .tc := ⟨.hbm, 204, rfl⟩
abbrev main_v120 : Ref sig .tc := ⟨.hbm, 205, rfl⟩
abbrev main_v121 : Ref sig .tc := ⟨.hbm, 206, rfl⟩
abbrev main_c_47 : Ref sig .tc := ⟨.hbm, 207, rfl⟩
abbrev main_v122 : Ref sig .tc := ⟨.hbm, 208, rfl⟩
abbrev main_v123 : Ref sig .tc := ⟨.hbm, 209, rfl⟩
abbrev main_v124 : Ref sig .tc := ⟨.hbm, 210, rfl⟩
abbrev main_v125 : Ref sig .tc := ⟨.hbm, 211, rfl⟩
abbrev main_v126 : Ref sig .tc := ⟨.hbm, 212, rfl⟩
abbrev main_v127 : Ref sig .tc := ⟨.hbm, 213, rfl⟩
abbrev main_v128 : Ref sig .tc := ⟨.hbm, 214, rfl⟩
abbrev main_v129 : Ref sig .tc := ⟨.hbm, 215, rfl⟩
abbrev main_v130 : Ref sig .tc := ⟨.hbm, 216, rfl⟩
abbrev main_v131 : Ref sig .tc := ⟨.hbm, 217, rfl⟩
abbrev main_v132 : Ref sig .tc := ⟨.hbm, 218, rfl⟩
abbrev main_v133 : Ref sig .tc := ⟨.hbm, 219, rfl⟩
abbrev main_v134 : Ref sig .tc := ⟨.hbm, 220, rfl⟩
abbrev main_v135 : Ref sig .tc := ⟨.hbm, 221, rfl⟩
abbrev main_c_48 : Ref sig .tc := ⟨.hbm, 222, rfl⟩
abbrev main_v136 : Ref sig .tc := ⟨.hbm, 223, rfl⟩
abbrev main_v137 : Ref sig .tc := ⟨.hbm, 224, rfl⟩
abbrev main_c_49 : Ref sig .tc := ⟨.hbm, 225, rfl⟩
abbrev main_v138 : Ref sig .tc := ⟨.hbm, 226, rfl⟩
abbrev main_v139 : Ref sig .tc := ⟨.hbm, 227, rfl⟩
abbrev main_v140 : Ref sig .tc := ⟨.hbm, 228, rfl⟩
abbrev main_c_50 : Ref sig .tc := ⟨.hbm, 229, rfl⟩
abbrev main_v141 : Ref sig .tc := ⟨.hbm, 230, rfl⟩
abbrev main_v142 : Ref sig .tc := ⟨.hbm, 231, rfl⟩
abbrev main_c_51 : Ref sig .tc := ⟨.hbm, 232, rfl⟩
abbrev main_v143 : Ref sig .tc := ⟨.hbm, 233, rfl⟩
abbrev main_v144 : Ref sig .tc := ⟨.hbm, 234, rfl⟩
abbrev main_v145 : Ref sig .tc := ⟨.hbm, 235, rfl⟩
abbrev main_c_52 : Ref sig .tc := ⟨.hbm, 236, rfl⟩
abbrev main_v146 : Ref sig .tc := ⟨.hbm, 237, rfl⟩
abbrev main_v147 : Ref sig .tc := ⟨.hbm, 238, rfl⟩
abbrev main_c_53 : Ref sig .tc := ⟨.hbm, 239, rfl⟩
abbrev main_v148 : Ref sig .tc := ⟨.hbm, 240, rfl⟩
abbrev main_v149 : Ref sig .tc := ⟨.hbm, 241, rfl⟩
abbrev main_v150 : Ref sig .tc := ⟨.hbm, 242, rfl⟩
abbrev main_v151 : Ref sig .tc := ⟨.hbm, 243, rfl⟩
abbrev main_v152 : Ref sig .tc := ⟨.hbm, 244, rfl⟩
abbrev main_v153 : Ref sig .tc := ⟨.hbm, 245, rfl⟩
abbrev main_v154 : Ref sig .tc := ⟨.hbm, 246, rfl⟩
abbrev main_v155 : Ref sig .tc := ⟨.hbm, 247, rfl⟩
abbrev main_v156 : Ref sig .tc := ⟨.hbm, 248, rfl⟩
abbrev main_v157 : Ref sig .tc := ⟨.hbm, 249, rfl⟩
abbrev main_v158 : Ref sig .tc := ⟨.hbm, 250, rfl⟩
abbrev main_v159 : Ref sig .tc := ⟨.hbm, 251, rfl⟩
abbrev main_v160 : Ref sig .tc := ⟨.hbm, 252, rfl⟩
abbrev main_v161 : Ref sig .tc := ⟨.hbm, 253, rfl⟩
abbrev main_cst_54 : Ref sig .tc := ⟨.hbm, 254, rfl⟩
abbrev main_v162 : Ref sig .tc := ⟨.hbm, 255, rfl⟩
abbrev main_v163 : Ref sig .tc := ⟨.hbm, 256, rfl⟩
abbrev main_cst_55 : Ref sig .tc := ⟨.hbm, 257, rfl⟩
abbrev main_v164 : Ref sig .tc := ⟨.hbm, 258, rfl⟩
abbrev main_v165 : Ref sig .tc := ⟨.hbm, 259, rfl⟩
abbrev main_c_56 : Ref sig .tc := ⟨.hbm, 260, rfl⟩
abbrev main_v166 : Ref sig .tc := ⟨.hbm, 261, rfl⟩
abbrev main_v167 : Ref sig .tc := ⟨.hbm, 262, rfl⟩
abbrev main_c_57 : Ref sig .tc := ⟨.hbm, 263, rfl⟩
abbrev main_v168 : Ref sig .tc := ⟨.hbm, 264, rfl⟩
abbrev main_v169 : Ref sig .tc := ⟨.hbm, 265, rfl⟩
abbrev main_v170 : Ref sig .tc := ⟨.hbm, 266, rfl⟩
abbrev main_c_58 : Ref sig .tc := ⟨.hbm, 267, rfl⟩
abbrev main_v171 : Ref sig .tc := ⟨.hbm, 268, rfl⟩
abbrev main_v172 : Ref sig .tc := ⟨.hbm, 269, rfl⟩
abbrev main_c_59 : Ref sig .tc := ⟨.hbm, 270, rfl⟩
abbrev main_v173 : Ref sig .tc := ⟨.hbm, 271, rfl⟩
abbrev main_v174 : Ref sig .tc := ⟨.hbm, 272, rfl⟩
abbrev main_v175 : Ref sig .tc := ⟨.hbm, 273, rfl⟩
abbrev main_c_60 : Ref sig .tc := ⟨.hbm, 274, rfl⟩
abbrev main_v176 : Ref sig .tc := ⟨.hbm, 275, rfl⟩
abbrev main_v177 : Ref sig .tc := ⟨.hbm, 276, rfl⟩
abbrev main_c_61 : Ref sig .tc := ⟨.hbm, 277, rfl⟩
abbrev main_v178 : Ref sig .tc := ⟨.hbm, 278, rfl⟩
abbrev main_v179 : Ref sig .tc := ⟨.hbm, 279, rfl⟩
abbrev main_v180 : Ref sig .tc := ⟨.hbm, 280, rfl⟩
abbrev main_v181 : Ref sig .tc := ⟨.hbm, 281, rfl⟩
abbrev main_v182 : Ref sig .tc := ⟨.hbm, 282, rfl⟩
abbrev main_v183 : Ref sig .tc := ⟨.hbm, 283, rfl⟩
abbrev main_v184 : Ref sig .tc := ⟨.hbm, 284, rfl⟩
abbrev main_v185 : Ref sig .tc := ⟨.hbm, 285, rfl⟩
abbrev main_v186 : Ref sig .tc := ⟨.hbm, 286, rfl⟩
abbrev main_v187 : Ref sig .tc := ⟨.hbm, 287, rfl⟩
abbrev main_v188 : Ref sig .tc := ⟨.hbm, 288, rfl⟩
abbrev main_v189 : Ref sig .tc := ⟨.hbm, 289, rfl⟩
abbrev main_v190 : Ref sig .tc := ⟨.hbm, 290, rfl⟩
abbrev main_v191 : Ref sig .tc := ⟨.hbm, 291, rfl⟩
abbrev main_c_62 : Ref sig .tc := ⟨.hbm, 292, rfl⟩
abbrev main_v192 : Ref sig .tc := ⟨.hbm, 293, rfl⟩
abbrev main_v193 : Ref sig .tc := ⟨.hbm, 294, rfl⟩
abbrev main_c_63 : Ref sig .tc := ⟨.hbm, 295, rfl⟩
abbrev main_v194 : Ref sig .tc := ⟨.hbm, 296, rfl⟩
abbrev main_v195 : Ref sig .tc := ⟨.hbm, 297, rfl⟩
abbrev main_v196 : Ref sig .tc := ⟨.hbm, 298, rfl⟩
abbrev main_c_64 : Ref sig .tc := ⟨.hbm, 299, rfl⟩
abbrev main_v197 : Ref sig .tc := ⟨.hbm, 300, rfl⟩
abbrev main_v198 : Ref sig .tc := ⟨.hbm, 301, rfl⟩
abbrev main_c_65 : Ref sig .tc := ⟨.hbm, 302, rfl⟩
abbrev main_v199 : Ref sig .tc := ⟨.hbm, 303, rfl⟩
abbrev main_v200 : Ref sig .tc := ⟨.hbm, 304, rfl⟩
abbrev main_v201 : Ref sig .tc := ⟨.hbm, 305, rfl⟩
abbrev main_c_66 : Ref sig .tc := ⟨.hbm, 306, rfl⟩
abbrev main_v202 : Ref sig .tc := ⟨.hbm, 307, rfl⟩
abbrev main_v203 : Ref sig .tc := ⟨.hbm, 308, rfl⟩
abbrev main_c_67 : Ref sig .tc := ⟨.hbm, 309, rfl⟩
abbrev main_v204 : Ref sig .tc := ⟨.hbm, 310, rfl⟩
abbrev main_v205 : Ref sig .tc := ⟨.hbm, 311, rfl⟩
abbrev main_v206 : Ref sig .tc := ⟨.hbm, 312, rfl⟩
abbrev main_v207 : Ref sig .tc := ⟨.hbm, 313, rfl⟩
abbrev main_v208 : Ref sig .tc := ⟨.hbm, 314, rfl⟩
abbrev main_v209 : Ref sig .tc := ⟨.hbm, 315, rfl⟩
abbrev main_v210 : Ref sig .tc := ⟨.hbm, 316, rfl⟩
abbrev main_v211 : Ref sig .tc := ⟨.hbm, 317, rfl⟩
abbrev main_v212 : Ref sig .tc := ⟨.hbm, 318, rfl⟩
abbrev main_v213 : Ref sig .tc := ⟨.hbm, 319, rfl⟩
abbrev main_v214 : Ref sig .tc := ⟨.hbm, 320, rfl⟩
abbrev main_v215 : Ref sig .tc := ⟨.hbm, 321, rfl⟩
abbrev main_v216 : Ref sig .tc := ⟨.hbm, 322, rfl⟩
abbrev main_v217 : Ref sig .tc := ⟨.hbm, 323, rfl⟩
abbrev main_cst_68 : Ref sig .tc := ⟨.hbm, 324, rfl⟩
abbrev main_v218 : Ref sig .tc := ⟨.hbm, 325, rfl⟩
abbrev main_v219 : Ref sig .tc := ⟨.hbm, 326, rfl⟩
abbrev main_c_69 : Ref sig .tc := ⟨.hbm, 327, rfl⟩
abbrev main_v220 : Ref sig .tc := ⟨.hbm, 328, rfl⟩
abbrev main_v221 : Ref sig .tc := ⟨.hbm, 329, rfl⟩
abbrev main_c_70 : Ref sig .tc := ⟨.hbm, 330, rfl⟩
abbrev main_v222 : Ref sig .tc := ⟨.hbm, 331, rfl⟩
abbrev main_v223 : Ref sig .tc := ⟨.hbm, 332, rfl⟩
abbrev main_v224 : Ref sig .tc := ⟨.hbm, 333, rfl⟩
abbrev main_c_71 : Ref sig .tc := ⟨.hbm, 334, rfl⟩
abbrev main_v225 : Ref sig .tc := ⟨.hbm, 335, rfl⟩
abbrev main_v226 : Ref sig .tc := ⟨.hbm, 336, rfl⟩
abbrev main_c_72 : Ref sig .tc := ⟨.hbm, 337, rfl⟩
abbrev main_v227 : Ref sig .tc := ⟨.hbm, 338, rfl⟩
abbrev main_v228 : Ref sig .tc := ⟨.hbm, 339, rfl⟩
abbrev main_v229 : Ref sig .tc := ⟨.hbm, 340, rfl⟩
abbrev main_c_73 : Ref sig .tc := ⟨.hbm, 341, rfl⟩
abbrev main_v230 : Ref sig .tc := ⟨.hbm, 342, rfl⟩
abbrev main_v231 : Ref sig .tc := ⟨.hbm, 343, rfl⟩
abbrev main_c_74 : Ref sig .tc := ⟨.hbm, 344, rfl⟩
abbrev main_v232 : Ref sig .tc := ⟨.hbm, 345, rfl⟩
abbrev main_v233 : Ref sig .tc := ⟨.hbm, 346, rfl⟩
abbrev main_v234 : Ref sig .tc := ⟨.hbm, 347, rfl⟩
abbrev main_v235 : Ref sig .tc := ⟨.hbm, 348, rfl⟩
abbrev main_v236 : Ref sig .tc := ⟨.hbm, 349, rfl⟩
abbrev main_v237 : Ref sig .tc := ⟨.hbm, 350, rfl⟩
abbrev main_v238 : Ref sig .tc := ⟨.hbm, 351, rfl⟩
abbrev main_v239 : Ref sig .tc := ⟨.hbm, 352, rfl⟩
abbrev main_v240 : Ref sig .tc := ⟨.hbm, 353, rfl⟩
abbrev main_v241 : Ref sig .tc := ⟨.hbm, 354, rfl⟩
abbrev main_v242 : Ref sig .tc := ⟨.hbm, 355, rfl⟩
abbrev main_v243 : Ref sig .tc := ⟨.hbm, 356, rfl⟩
abbrev main_v244 : Ref sig .tc := ⟨.hbm, 357, rfl⟩
abbrev main_v245 : Ref sig .tc := ⟨.hbm, 358, rfl⟩
abbrev main_c_75 : Ref sig .tc := ⟨.hbm, 359, rfl⟩
abbrev main_v246 : Ref sig .tc := ⟨.hbm, 360, rfl⟩
abbrev main_v247 : Ref sig .tc := ⟨.hbm, 361, rfl⟩
abbrev main_c_76 : Ref sig .tc := ⟨.hbm, 362, rfl⟩
abbrev main_v248 : Ref sig .tc := ⟨.hbm, 363, rfl⟩
abbrev main_v249 : Ref sig .tc := ⟨.hbm, 364, rfl⟩
abbrev main_v250 : Ref sig .tc := ⟨.hbm, 365, rfl⟩
abbrev main_c_77 : Ref sig .tc := ⟨.hbm, 366, rfl⟩
abbrev main_v251 : Ref sig .tc := ⟨.hbm, 367, rfl⟩
abbrev main_v252 : Ref sig .tc := ⟨.hbm, 368, rfl⟩
abbrev main_c_78 : Ref sig .tc := ⟨.hbm, 369, rfl⟩
abbrev main_v253 : Ref sig .tc := ⟨.hbm, 370, rfl⟩
abbrev main_v254 : Ref sig .tc := ⟨.hbm, 371, rfl⟩
abbrev main_v255 : Ref sig .tc := ⟨.hbm, 372, rfl⟩
abbrev main_c_79 : Ref sig .tc := ⟨.hbm, 373, rfl⟩
abbrev main_v256 : Ref sig .tc := ⟨.hbm, 374, rfl⟩
abbrev main_v257 : Ref sig .tc := ⟨.hbm, 375, rfl⟩
abbrev main_c_80 : Ref sig .tc := ⟨.hbm, 376, rfl⟩
abbrev main_v258 : Ref sig .tc := ⟨.hbm, 377, rfl⟩
abbrev main_v259 : Ref sig .tc := ⟨.hbm, 378, rfl⟩
abbrev main_v260 : Ref sig .tc := ⟨.hbm, 379, rfl⟩
abbrev main_v261 : Ref sig .tc := ⟨.hbm, 380, rfl⟩
abbrev main_v262 : Ref sig .tc := ⟨.hbm, 381, rfl⟩
abbrev main_v263 : Ref sig .tc := ⟨.hbm, 382, rfl⟩
abbrev main_v264 : Ref sig .tc := ⟨.hbm, 383, rfl⟩
abbrev main_v265 : Ref sig .tc := ⟨.hbm, 384, rfl⟩
abbrev main_v266 : Ref sig .tc := ⟨.hbm, 385, rfl⟩
abbrev main_v267 : Ref sig .tc := ⟨.hbm, 386, rfl⟩
abbrev main_v268 : Ref sig .tc := ⟨.hbm, 387, rfl⟩
abbrev main_v269 : Ref sig .tc := ⟨.hbm, 388, rfl⟩
abbrev main_v270 : Ref sig .tc := ⟨.hbm, 389, rfl⟩
abbrev main_v271 : Ref sig .tc := ⟨.hbm, 390, rfl⟩
abbrev main_c_81 : Ref sig .tc := ⟨.hbm, 391, rfl⟩
abbrev main_v272 : Ref sig .tc := ⟨.hbm, 392, rfl⟩
abbrev main_v273 : Ref sig .tc := ⟨.hbm, 393, rfl⟩
abbrev main_c_82 : Ref sig .tc := ⟨.hbm, 394, rfl⟩
abbrev main_v274 : Ref sig .tc := ⟨.hbm, 395, rfl⟩
abbrev main_v275 : Ref sig .tc := ⟨.hbm, 396, rfl⟩
abbrev main_v276 : Ref sig .tc := ⟨.hbm, 397, rfl⟩
abbrev main_v277 : Ref sig .tc := ⟨.hbm, 398, rfl⟩
abbrev main_v278 : Ref sig .tc := ⟨.hbm, 399, rfl⟩
abbrev main_v279 : Ref sig .tc := ⟨.hbm, 400, rfl⟩
abbrev main_v280 : Ref sig .tc := ⟨.hbm, 401, rfl⟩
abbrev main_cst_83 : Ref sig .tc := ⟨.hbm, 402, rfl⟩
abbrev main_v281 : Ref sig .tc := ⟨.hbm, 403, rfl⟩
abbrev main_v282 : Ref sig .tc := ⟨.hbm, 404, rfl⟩
abbrev main_cst_84 : Ref sig .tc := ⟨.hbm, 405, rfl⟩
abbrev main_v283 : Ref sig .tc := ⟨.hbm, 406, rfl⟩
abbrev main_v284 : Ref sig .tc := ⟨.hbm, 407, rfl⟩
abbrev main_cst_85 : Ref sig .tc := ⟨.hbm, 408, rfl⟩
abbrev main_v285 : Ref sig .tc := ⟨.hbm, 409, rfl⟩
abbrev main_v286 : Ref sig .tc := ⟨.hbm, 410, rfl⟩
abbrev main_v287 : Ref sig .tc := ⟨.hbm, 411, rfl⟩
abbrev main_v288 : Ref sig .tc := ⟨.hbm, 412, rfl⟩
abbrev main_cst_86 : Ref sig .tc := ⟨.hbm, 413, rfl⟩
abbrev main_v289 : Ref sig .tc := ⟨.hbm, 414, rfl⟩
abbrev main_v290 : Ref sig .tc := ⟨.hbm, 415, rfl⟩
abbrev main_cst_87 : Ref sig .tc := ⟨.hbm, 416, rfl⟩
abbrev main_v291 : Ref sig .tc := ⟨.hbm, 417, rfl⟩
abbrev main_v292 : Ref sig .tc := ⟨.hbm, 418, rfl⟩
abbrev main_cst_88 : Ref sig .tc := ⟨.hbm, 419, rfl⟩
abbrev main_v293 : Ref sig .tc := ⟨.hbm, 420, rfl⟩
abbrev main_v294 : Ref sig .tc := ⟨.hbm, 421, rfl⟩
abbrev main_v295 : Ref sig .tc := ⟨.hbm, 422, rfl⟩
abbrev main_c_89 : Ref sig .tc := ⟨.hbm, 423, rfl⟩
abbrev main_c_90 : Ref sig .tc := ⟨.hbm, 424, rfl⟩
abbrev main_call6_v0 : Ref sig .tc := ⟨.hbm, 425, rfl⟩
abbrev main_call6_v1 : Ref sig .tc := ⟨.hbm, 426, rfl⟩
abbrev main_call6_v2 : Ref sig .tc := ⟨.hbm, 427, rfl⟩
abbrev main_call6_v3 : Ref sig .tc := ⟨.hbm, 428, rfl⟩
abbrev main_call6_v4 : Ref sig .tc := ⟨.hbm, 429, rfl⟩
abbrev main_v296 : Ref sig .tc := ⟨.hbm, 430, rfl⟩
abbrev main_v297 : Ref sig .tc := ⟨.hbm, 431, rfl⟩
abbrev main_cst_91 : Ref sig .tc := ⟨.hbm, 432, rfl⟩
abbrev main_v298 : Ref sig .tc := ⟨.hbm, 433, rfl⟩
abbrev main_v299 : Ref sig .tc := ⟨.hbm, 434, rfl⟩
abbrev main_c_92 : Ref sig .tc := ⟨.hbm, 435, rfl⟩
abbrev main_c_93 : Ref sig .tc := ⟨.hbm, 436, rfl⟩
abbrev main_call7_v0 : Ref sig .tc := ⟨.hbm, 437, rfl⟩
abbrev main_call7_v1 : Ref sig .tc := ⟨.hbm, 438, rfl⟩
abbrev main_call7_v2 : Ref sig .tc := ⟨.hbm, 439, rfl⟩
abbrev main_call7_v3 : Ref sig .tc := ⟨.hbm, 440, rfl⟩
abbrev main_call7_v4 : Ref sig .tc := ⟨.hbm, 441, rfl⟩
abbrev main_v300 : Ref sig .tc := ⟨.hbm, 442, rfl⟩
abbrev main_v301 : Ref sig .tc := ⟨.hbm, 443, rfl⟩
abbrev main_v302 : Ref sig .tc := ⟨.hbm, 444, rfl⟩
abbrev main_v303 : Ref sig .tc := ⟨.hbm, 445, rfl⟩
abbrev main_c_94 : Ref sig .tc := ⟨.hbm, 446, rfl⟩
abbrev main_c_95 : Ref sig .tc := ⟨.hbm, 447, rfl⟩
abbrev main_call8_v0 : Ref sig .tc := ⟨.hbm, 448, rfl⟩
abbrev main_call8_v1 : Ref sig .tc := ⟨.hbm, 449, rfl⟩
abbrev main_call8_v2 : Ref sig .tc := ⟨.hbm, 450, rfl⟩
abbrev main_call8_v3 : Ref sig .tc := ⟨.hbm, 451, rfl⟩
abbrev main_call8_v4 : Ref sig .tc := ⟨.hbm, 452, rfl⟩
abbrev main_v304 : Ref sig .tc := ⟨.hbm, 453, rfl⟩
abbrev main_v305 : Ref sig .tc := ⟨.hbm, 454, rfl⟩
abbrev main_cst_96 : Ref sig .tc := ⟨.hbm, 455, rfl⟩
abbrev main_v306 : Ref sig .tc := ⟨.hbm, 456, rfl⟩
abbrev main_v307 : Ref sig .tc := ⟨.hbm, 457, rfl⟩
abbrev main_c_97 : Ref sig .tc := ⟨.hbm, 458, rfl⟩
abbrev main_c_98 : Ref sig .tc := ⟨.hbm, 459, rfl⟩
abbrev main_call9_v0 : Ref sig .tc := ⟨.hbm, 460, rfl⟩
abbrev main_call9_v1 : Ref sig .tc := ⟨.hbm, 461, rfl⟩
abbrev main_call9_v2 : Ref sig .tc := ⟨.hbm, 462, rfl⟩
abbrev main_call9_v3 : Ref sig .tc := ⟨.hbm, 463, rfl⟩
abbrev main_call9_v4 : Ref sig .tc := ⟨.hbm, 464, rfl⟩
abbrev main_v308 : Ref sig .tc := ⟨.hbm, 465, rfl⟩
abbrev main_v309 : Ref sig .tc := ⟨.hbm, 466, rfl⟩
abbrev main_v310 : Ref sig .tc := ⟨.hbm, 467, rfl⟩
abbrev main_cst_99 : Ref sig .tc := ⟨.hbm, 468, rfl⟩
abbrev main_v311 : Ref sig .tc := ⟨.hbm, 469, rfl⟩
abbrev main_cst_100 : Ref sig .tc := ⟨.hbm, 470, rfl⟩
abbrev main_v312 : Ref sig .tc := ⟨.hbm, 471, rfl⟩
abbrev main_v313 : Ref sig .tc := ⟨.hbm, 472, rfl⟩
abbrev main_cst_101 : Ref sig .tc := ⟨.hbm, 473, rfl⟩
abbrev main_v314 : Ref sig .tc := ⟨.hbm, 474, rfl⟩
abbrev main_v315 : Ref sig .tc := ⟨.hbm, 475, rfl⟩
abbrev main_c_102 : Ref sig .tc := ⟨.hbm, 476, rfl⟩
abbrev main_v316 : Ref sig .tc := ⟨.hbm, 477, rfl⟩
abbrev main_v317 : Ref sig .tc := ⟨.hbm, 478, rfl⟩
abbrev main_c_103 : Ref sig .tc := ⟨.hbm, 479, rfl⟩
abbrev main_v318 : Ref sig .tc := ⟨.hbm, 480, rfl⟩
abbrev main_v319 : Ref sig .tc := ⟨.hbm, 481, rfl⟩
abbrev main_v320 : Ref sig .tc := ⟨.hbm, 482, rfl⟩
abbrev main_c_104 : Ref sig .tc := ⟨.hbm, 483, rfl⟩
abbrev main_v321 : Ref sig .tc := ⟨.hbm, 484, rfl⟩
abbrev main_v322 : Ref sig .tc := ⟨.hbm, 485, rfl⟩
abbrev main_c_105 : Ref sig .tc := ⟨.hbm, 486, rfl⟩
abbrev main_v323 : Ref sig .tc := ⟨.hbm, 487, rfl⟩
abbrev main_v324 : Ref sig .tc := ⟨.hbm, 488, rfl⟩
abbrev main_v325 : Ref sig .tc := ⟨.hbm, 489, rfl⟩
abbrev main_v326 : Ref sig .tc := ⟨.hbm, 490, rfl⟩
abbrev main_v327 : Ref sig .tc := ⟨.hbm, 491, rfl⟩
abbrev main_v328 : Ref sig .tc := ⟨.hbm, 492, rfl⟩
abbrev main_v329 : Ref sig .tc := ⟨.hbm, 493, rfl⟩
abbrev main_v330 : Ref sig .tc := ⟨.hbm, 494, rfl⟩
abbrev main_v331 : Ref sig .tc := ⟨.hbm, 495, rfl⟩
abbrev main_v332 : Ref sig .tc := ⟨.hbm, 496, rfl⟩
abbrev main_v333 : Ref sig .tc := ⟨.hbm, 497, rfl⟩
abbrev main_v334 : Ref sig .tc := ⟨.hbm, 498, rfl⟩
abbrev main_c_106 : Ref sig .tc := ⟨.hbm, 499, rfl⟩
abbrev main_v335 : Ref sig .tc := ⟨.hbm, 500, rfl⟩
abbrev main_v336 : Ref sig .tc := ⟨.hbm, 501, rfl⟩
abbrev main_c_107 : Ref sig .tc := ⟨.hbm, 502, rfl⟩
abbrev main_v337 : Ref sig .tc := ⟨.hbm, 503, rfl⟩
abbrev main_v338 : Ref sig .tc := ⟨.hbm, 504, rfl⟩
abbrev main_v339 : Ref sig .tc := ⟨.hbm, 505, rfl⟩
abbrev main_c_108 : Ref sig .tc := ⟨.hbm, 506, rfl⟩
abbrev main_v340 : Ref sig .tc := ⟨.hbm, 507, rfl⟩
abbrev main_v341 : Ref sig .tc := ⟨.hbm, 508, rfl⟩
abbrev main_c_109 : Ref sig .tc := ⟨.hbm, 509, rfl⟩
abbrev main_v342 : Ref sig .tc := ⟨.hbm, 510, rfl⟩
abbrev main_v343 : Ref sig .tc := ⟨.hbm, 511, rfl⟩
abbrev main_v344 : Ref sig .tc := ⟨.hbm, 512, rfl⟩
abbrev main_v345 : Ref sig .tc := ⟨.hbm, 513, rfl⟩
abbrev main_v346 : Ref sig .tc := ⟨.hbm, 514, rfl⟩
abbrev main_v347 : Ref sig .tc := ⟨.hbm, 515, rfl⟩
abbrev main_v348 : Ref sig .tc := ⟨.hbm, 516, rfl⟩
abbrev main_v349 : Ref sig .tc := ⟨.hbm, 517, rfl⟩
abbrev main_v350 : Ref sig .tc := ⟨.hbm, 518, rfl⟩
abbrev main_v351 : Ref sig .tc := ⟨.hbm, 519, rfl⟩
abbrev main_v352 : Ref sig .tc := ⟨.hbm, 520, rfl⟩
abbrev main_v353 : Ref sig .tc := ⟨.hbm, 521, rfl⟩
abbrev main_cst_110 : Ref sig .tc := ⟨.hbm, 522, rfl⟩
abbrev main_v354 : Ref sig .tc := ⟨.hbm, 523, rfl⟩
abbrev main_v355 : Ref sig .tc := ⟨.hbm, 524, rfl⟩
abbrev main_c_111 : Ref sig .tc := ⟨.hbm, 525, rfl⟩
abbrev main_v356 : Ref sig .tc := ⟨.hbm, 526, rfl⟩
abbrev main_v357 : Ref sig .tc := ⟨.hbm, 527, rfl⟩
abbrev main_c_112 : Ref sig .tc := ⟨.hbm, 528, rfl⟩
abbrev main_v358 : Ref sig .tc := ⟨.hbm, 529, rfl⟩
abbrev main_v359 : Ref sig .tc := ⟨.hbm, 530, rfl⟩
abbrev main_v360 : Ref sig .tc := ⟨.hbm, 531, rfl⟩
abbrev main_c_113 : Ref sig .tc := ⟨.hbm, 532, rfl⟩
abbrev main_v361 : Ref sig .tc := ⟨.hbm, 533, rfl⟩
abbrev main_v362 : Ref sig .tc := ⟨.hbm, 534, rfl⟩
abbrev main_c_114 : Ref sig .tc := ⟨.hbm, 535, rfl⟩
abbrev main_v363 : Ref sig .tc := ⟨.hbm, 536, rfl⟩
abbrev main_v364 : Ref sig .tc := ⟨.hbm, 537, rfl⟩
abbrev main_v365 : Ref sig .tc := ⟨.hbm, 538, rfl⟩
abbrev main_v366 : Ref sig .tc := ⟨.hbm, 539, rfl⟩
abbrev main_v367 : Ref sig .tc := ⟨.hbm, 540, rfl⟩
abbrev main_v368 : Ref sig .tc := ⟨.hbm, 541, rfl⟩
abbrev main_v369 : Ref sig .tc := ⟨.hbm, 542, rfl⟩
abbrev main_v370 : Ref sig .tc := ⟨.hbm, 543, rfl⟩
abbrev main_v371 : Ref sig .tc := ⟨.hbm, 544, rfl⟩
abbrev main_v372 : Ref sig .tc := ⟨.hbm, 545, rfl⟩
abbrev main_v373 : Ref sig .tc := ⟨.hbm, 546, rfl⟩
abbrev main_v374 : Ref sig .tc := ⟨.hbm, 547, rfl⟩
abbrev main_c_115 : Ref sig .tc := ⟨.hbm, 548, rfl⟩
abbrev main_v375 : Ref sig .tc := ⟨.hbm, 549, rfl⟩
abbrev main_v376 : Ref sig .tc := ⟨.hbm, 550, rfl⟩
abbrev main_c_116 : Ref sig .tc := ⟨.hbm, 551, rfl⟩
abbrev main_v377 : Ref sig .tc := ⟨.hbm, 552, rfl⟩
abbrev main_v378 : Ref sig .tc := ⟨.hbm, 553, rfl⟩
abbrev main_v379 : Ref sig .tc := ⟨.hbm, 554, rfl⟩
abbrev main_c_117 : Ref sig .tc := ⟨.hbm, 555, rfl⟩
abbrev main_v380 : Ref sig .tc := ⟨.hbm, 556, rfl⟩
abbrev main_v381 : Ref sig .tc := ⟨.hbm, 557, rfl⟩
abbrev main_c_118 : Ref sig .tc := ⟨.hbm, 558, rfl⟩
abbrev main_v382 : Ref sig .tc := ⟨.hbm, 559, rfl⟩
abbrev main_v383 : Ref sig .tc := ⟨.hbm, 560, rfl⟩
abbrev main_v384 : Ref sig .tc := ⟨.hbm, 561, rfl⟩
abbrev main_v385 : Ref sig .tc := ⟨.hbm, 562, rfl⟩
abbrev main_v386 : Ref sig .tc := ⟨.hbm, 563, rfl⟩
abbrev main_v387 : Ref sig .tc := ⟨.hbm, 564, rfl⟩
abbrev main_v388 : Ref sig .tc := ⟨.hbm, 565, rfl⟩
abbrev main_v389 : Ref sig .tc := ⟨.hbm, 566, rfl⟩
abbrev main_v390 : Ref sig .tc := ⟨.hbm, 567, rfl⟩
abbrev main_v391 : Ref sig .tc := ⟨.hbm, 568, rfl⟩
abbrev main_v392 : Ref sig .tc := ⟨.hbm, 569, rfl⟩
abbrev main_v393 : Ref sig .tc := ⟨.hbm, 570, rfl⟩
abbrev main_v394 : Ref sig .tc := ⟨.hbm, 571, rfl⟩
abbrev main_c_119 : Ref sig .tc := ⟨.hbm, 572, rfl⟩
abbrev main_v395 : Ref sig .tc := ⟨.hbm, 573, rfl⟩
abbrev main_v396 : Ref sig .tc := ⟨.hbm, 574, rfl⟩
abbrev main_c_120 : Ref sig .tc := ⟨.hbm, 575, rfl⟩
abbrev main_v397 : Ref sig .tc := ⟨.hbm, 576, rfl⟩
abbrev main_v398 : Ref sig .tc := ⟨.hbm, 577, rfl⟩
abbrev main_v399 : Ref sig .tc := ⟨.hbm, 578, rfl⟩
abbrev main_v400 : Ref sig .tc := ⟨.hbm, 579, rfl⟩
abbrev main_v401 : Ref sig .tc := ⟨.hbm, 580, rfl⟩
abbrev main_v402 : Ref sig .tc := ⟨.hbm, 581, rfl⟩
abbrev main_v403 : Ref sig .tc := ⟨.hbm, 582, rfl⟩
abbrev main_cst_121 : Ref sig .tc := ⟨.hbm, 583, rfl⟩
abbrev main_v404 : Ref sig .tc := ⟨.hbm, 584, rfl⟩
abbrev main_v405 : Ref sig .tc := ⟨.hbm, 585, rfl⟩
abbrev main_cst_122 : Ref sig .tc := ⟨.hbm, 586, rfl⟩
abbrev main_v406 : Ref sig .tc := ⟨.hbm, 587, rfl⟩
abbrev main_v407 : Ref sig .tc := ⟨.hbm, 588, rfl⟩
abbrev main_cst_123 : Ref sig .tc := ⟨.hbm, 589, rfl⟩
abbrev main_v408 : Ref sig .tc := ⟨.hbm, 590, rfl⟩
abbrev main_v409 : Ref sig .tc := ⟨.hbm, 591, rfl⟩
abbrev main_v410 : Ref sig .tc := ⟨.hbm, 592, rfl⟩
abbrev main_v411 : Ref sig .tc := ⟨.hbm, 593, rfl⟩
abbrev main_cst_124 : Ref sig .tc := ⟨.hbm, 594, rfl⟩
abbrev main_v412 : Ref sig .tc := ⟨.hbm, 595, rfl⟩
abbrev main_v413 : Ref sig .tc := ⟨.hbm, 596, rfl⟩
abbrev main_cst_125 : Ref sig .tc := ⟨.hbm, 597, rfl⟩
abbrev main_v414 : Ref sig .tc := ⟨.hbm, 598, rfl⟩
abbrev main_v415 : Ref sig .tc := ⟨.hbm, 599, rfl⟩
abbrev main_cst_126 : Ref sig .tc := ⟨.hbm, 600, rfl⟩
abbrev main_v416 : Ref sig .tc := ⟨.hbm, 601, rfl⟩
abbrev main_v417 : Ref sig .tc := ⟨.hbm, 602, rfl⟩
abbrev main_v418 : Ref sig .tc := ⟨.hbm, 603, rfl⟩
abbrev main_c_127 : Ref sig .tc := ⟨.hbm, 604, rfl⟩
abbrev main_c_128 : Ref sig .tc := ⟨.hbm, 605, rfl⟩
abbrev main_call10_v0 : Ref sig .tc := ⟨.hbm, 606, rfl⟩
abbrev main_call10_v1 : Ref sig .tc := ⟨.hbm, 607, rfl⟩
abbrev main_call10_v2 : Ref sig .tc := ⟨.hbm, 608, rfl⟩
abbrev main_call10_v3 : Ref sig .tc := ⟨.hbm, 609, rfl⟩
abbrev main_call10_v4 : Ref sig .tc := ⟨.hbm, 610, rfl⟩
abbrev main_v419 : Ref sig .tc := ⟨.hbm, 611, rfl⟩
abbrev main_v420 : Ref sig .tc := ⟨.hbm, 612, rfl⟩
abbrev main_cst_129 : Ref sig .tc := ⟨.hbm, 613, rfl⟩
abbrev main_v421 : Ref sig .tc := ⟨.hbm, 614, rfl⟩
abbrev main_v422 : Ref sig .tc := ⟨.hbm, 615, rfl⟩
abbrev main_c_130 : Ref sig .tc := ⟨.hbm, 616, rfl⟩
abbrev main_c_131 : Ref sig .tc := ⟨.hbm, 617, rfl⟩
abbrev main_call11_v0 : Ref sig .tc := ⟨.hbm, 618, rfl⟩
abbrev main_call11_v1 : Ref sig .tc := ⟨.hbm, 619, rfl⟩
abbrev main_call11_v2 : Ref sig .tc := ⟨.hbm, 620, rfl⟩
abbrev main_call11_v3 : Ref sig .tc := ⟨.hbm, 621, rfl⟩
abbrev main_call11_v4 : Ref sig .tc := ⟨.hbm, 622, rfl⟩
abbrev main_v423 : Ref sig .tc := ⟨.hbm, 623, rfl⟩
abbrev main_v424 : Ref sig .tc := ⟨.hbm, 624, rfl⟩
abbrev main_v425 : Ref sig .tc := ⟨.hbm, 625, rfl⟩
abbrev main_v426 : Ref sig .tc := ⟨.hbm, 626, rfl⟩
abbrev main_c_132 : Ref sig .tc := ⟨.hbm, 627, rfl⟩
abbrev main_c_133 : Ref sig .tc := ⟨.hbm, 628, rfl⟩
abbrev main_call12_v0 : Ref sig .tc := ⟨.hbm, 629, rfl⟩
abbrev main_call12_v1 : Ref sig .tc := ⟨.hbm, 630, rfl⟩
abbrev main_call12_v2 : Ref sig .tc := ⟨.hbm, 631, rfl⟩
abbrev main_call12_v3 : Ref sig .tc := ⟨.hbm, 632, rfl⟩
abbrev main_call12_v4 : Ref sig .tc := ⟨.hbm, 633, rfl⟩
abbrev main_v427 : Ref sig .tc := ⟨.hbm, 634, rfl⟩
abbrev main_v428 : Ref sig .tc := ⟨.hbm, 635, rfl⟩
abbrev main_cst_134 : Ref sig .tc := ⟨.hbm, 636, rfl⟩
abbrev main_v429 : Ref sig .tc := ⟨.hbm, 637, rfl⟩
abbrev main_v430 : Ref sig .tc := ⟨.hbm, 638, rfl⟩
abbrev main_c_135 : Ref sig .tc := ⟨.hbm, 639, rfl⟩
abbrev main_c_136 : Ref sig .tc := ⟨.hbm, 640, rfl⟩
abbrev main_call13_v0 : Ref sig .tc := ⟨.hbm, 641, rfl⟩
abbrev main_call13_v1 : Ref sig .tc := ⟨.hbm, 642, rfl⟩
abbrev main_call13_v2 : Ref sig .tc := ⟨.hbm, 643, rfl⟩
abbrev main_call13_v3 : Ref sig .tc := ⟨.hbm, 644, rfl⟩
abbrev main_call13_v4 : Ref sig .tc := ⟨.hbm, 645, rfl⟩
abbrev main_v431 : Ref sig .tc := ⟨.hbm, 646, rfl⟩
abbrev main_v432 : Ref sig .tc := ⟨.hbm, 647, rfl⟩
abbrev main_v433 : Ref sig .tc := ⟨.hbm, 648, rfl⟩
abbrev main_cst_137 : Ref sig .tc := ⟨.hbm, 649, rfl⟩
abbrev main_v434 : Ref sig .tc := ⟨.hbm, 650, rfl⟩
abbrev main_cst_138 : Ref sig .tc := ⟨.hbm, 651, rfl⟩
abbrev main_v435 : Ref sig .tc := ⟨.hbm, 652, rfl⟩
abbrev main_v436 : Ref sig .tc := ⟨.hbm, 653, rfl⟩
abbrev main_cst_139 : Ref sig .tc := ⟨.hbm, 654, rfl⟩
abbrev main_v437 : Ref sig .tc := ⟨.hbm, 655, rfl⟩
abbrev main_v438 : Ref sig .tc := ⟨.hbm, 656, rfl⟩
abbrev main_c_140 : Ref sig .tc := ⟨.hbm, 657, rfl⟩
abbrev main_v439 : Ref sig .tc := ⟨.hbm, 658, rfl⟩
abbrev main_v440 : Ref sig .tc := ⟨.hbm, 659, rfl⟩
abbrev main_c_141 : Ref sig .tc := ⟨.hbm, 660, rfl⟩
abbrev main_v441 : Ref sig .tc := ⟨.hbm, 661, rfl⟩
abbrev main_v442 : Ref sig .tc := ⟨.hbm, 662, rfl⟩
abbrev main_v443 : Ref sig .tc := ⟨.hbm, 663, rfl⟩
abbrev main_c_142 : Ref sig .tc := ⟨.hbm, 664, rfl⟩
abbrev main_v444 : Ref sig .tc := ⟨.hbm, 665, rfl⟩
abbrev main_v445 : Ref sig .tc := ⟨.hbm, 666, rfl⟩
abbrev main_c_143 : Ref sig .tc := ⟨.hbm, 667, rfl⟩
abbrev main_v446 : Ref sig .tc := ⟨.hbm, 668, rfl⟩
abbrev main_v447 : Ref sig .tc := ⟨.hbm, 669, rfl⟩
abbrev main_v448 : Ref sig .tc := ⟨.hbm, 670, rfl⟩
abbrev main_v449 : Ref sig .tc := ⟨.hbm, 671, rfl⟩
abbrev main_v450 : Ref sig .tc := ⟨.hbm, 672, rfl⟩
abbrev main_v451 : Ref sig .tc := ⟨.hbm, 673, rfl⟩
abbrev main_v452 : Ref sig .tc := ⟨.hbm, 674, rfl⟩
abbrev main_v453 : Ref sig .tc := ⟨.hbm, 675, rfl⟩
abbrev main_v454 : Ref sig .tc := ⟨.hbm, 676, rfl⟩
abbrev main_v455 : Ref sig .tc := ⟨.hbm, 677, rfl⟩
abbrev main_v456 : Ref sig .tc := ⟨.hbm, 678, rfl⟩
abbrev main_v457 : Ref sig .tc := ⟨.hbm, 679, rfl⟩
abbrev main_c_144 : Ref sig .tc := ⟨.hbm, 680, rfl⟩
abbrev main_v458 : Ref sig .tc := ⟨.hbm, 681, rfl⟩
abbrev main_v459 : Ref sig .tc := ⟨.hbm, 682, rfl⟩
abbrev main_c_145 : Ref sig .tc := ⟨.hbm, 683, rfl⟩
abbrev main_v460 : Ref sig .tc := ⟨.hbm, 684, rfl⟩
abbrev main_v461 : Ref sig .tc := ⟨.hbm, 685, rfl⟩
abbrev main_v462 : Ref sig .tc := ⟨.hbm, 686, rfl⟩
abbrev main_c_146 : Ref sig .tc := ⟨.hbm, 687, rfl⟩
abbrev main_v463 : Ref sig .tc := ⟨.hbm, 688, rfl⟩
abbrev main_v464 : Ref sig .tc := ⟨.hbm, 689, rfl⟩
abbrev main_c_147 : Ref sig .tc := ⟨.hbm, 690, rfl⟩
abbrev main_v465 : Ref sig .tc := ⟨.hbm, 691, rfl⟩
abbrev main_v466 : Ref sig .tc := ⟨.hbm, 692, rfl⟩
abbrev main_v467 : Ref sig .tc := ⟨.hbm, 693, rfl⟩
abbrev main_v468 : Ref sig .tc := ⟨.hbm, 694, rfl⟩
abbrev main_v469 : Ref sig .tc := ⟨.hbm, 695, rfl⟩
abbrev main_v470 : Ref sig .tc := ⟨.hbm, 696, rfl⟩
abbrev main_v471 : Ref sig .tc := ⟨.hbm, 697, rfl⟩
abbrev main_v472 : Ref sig .tc := ⟨.hbm, 698, rfl⟩
abbrev main_v473 : Ref sig .tc := ⟨.hbm, 699, rfl⟩
abbrev main_v474 : Ref sig .tc := ⟨.hbm, 700, rfl⟩
abbrev main_v475 : Ref sig .tc := ⟨.hbm, 701, rfl⟩
abbrev main_v476 : Ref sig .tc := ⟨.hbm, 702, rfl⟩
abbrev main_cst_148 : Ref sig .tc := ⟨.hbm, 703, rfl⟩
abbrev main_v477 : Ref sig .tc := ⟨.hbm, 704, rfl⟩
abbrev main_v478 : Ref sig .tc := ⟨.hbm, 705, rfl⟩
abbrev main_c_149 : Ref sig .tc := ⟨.hbm, 706, rfl⟩
abbrev main_v479 : Ref sig .tc := ⟨.hbm, 707, rfl⟩
abbrev main_v480 : Ref sig .tc := ⟨.hbm, 708, rfl⟩
abbrev main_c_150 : Ref sig .tc := ⟨.hbm, 709, rfl⟩
abbrev main_v481 : Ref sig .tc := ⟨.hbm, 710, rfl⟩
abbrev main_v482 : Ref sig .tc := ⟨.hbm, 711, rfl⟩
abbrev main_v483 : Ref sig .tc := ⟨.hbm, 712, rfl⟩
abbrev main_c_151 : Ref sig .tc := ⟨.hbm, 713, rfl⟩
abbrev main_v484 : Ref sig .tc := ⟨.hbm, 714, rfl⟩
abbrev main_v485 : Ref sig .tc := ⟨.hbm, 715, rfl⟩
abbrev main_c_152 : Ref sig .tc := ⟨.hbm, 716, rfl⟩
abbrev main_v486 : Ref sig .tc := ⟨.hbm, 717, rfl⟩
abbrev main_v487 : Ref sig .tc := ⟨.hbm, 718, rfl⟩
abbrev main_v488 : Ref sig .tc := ⟨.hbm, 719, rfl⟩
abbrev main_v489 : Ref sig .tc := ⟨.hbm, 720, rfl⟩
abbrev main_v490 : Ref sig .tc := ⟨.hbm, 721, rfl⟩
abbrev main_v491 : Ref sig .tc := ⟨.hbm, 722, rfl⟩
abbrev main_v492 : Ref sig .tc := ⟨.hbm, 723, rfl⟩
abbrev main_v493 : Ref sig .tc := ⟨.hbm, 724, rfl⟩
abbrev main_v494 : Ref sig .tc := ⟨.hbm, 725, rfl⟩
abbrev main_v495 : Ref sig .tc := ⟨.hbm, 726, rfl⟩
abbrev main_v496 : Ref sig .tc := ⟨.hbm, 727, rfl⟩
abbrev main_v497 : Ref sig .tc := ⟨.hbm, 728, rfl⟩
abbrev main_c_153 : Ref sig .tc := ⟨.hbm, 729, rfl⟩
abbrev main_v498 : Ref sig .tc := ⟨.hbm, 730, rfl⟩
abbrev main_v499 : Ref sig .tc := ⟨.hbm, 731, rfl⟩
abbrev main_c_154 : Ref sig .tc := ⟨.hbm, 732, rfl⟩
abbrev main_v500 : Ref sig .tc := ⟨.hbm, 733, rfl⟩
abbrev main_v501 : Ref sig .tc := ⟨.hbm, 734, rfl⟩
abbrev main_v502 : Ref sig .tc := ⟨.hbm, 735, rfl⟩
abbrev main_c_155 : Ref sig .tc := ⟨.hbm, 736, rfl⟩
abbrev main_v503 : Ref sig .tc := ⟨.hbm, 737, rfl⟩
abbrev main_v504 : Ref sig .tc := ⟨.hbm, 738, rfl⟩
abbrev main_c_156 : Ref sig .tc := ⟨.hbm, 739, rfl⟩
abbrev main_v505 : Ref sig .tc := ⟨.hbm, 740, rfl⟩
abbrev main_v506 : Ref sig .tc := ⟨.hbm, 741, rfl⟩
abbrev main_v507 : Ref sig .tc := ⟨.hbm, 742, rfl⟩
abbrev main_v508 : Ref sig .tc := ⟨.hbm, 743, rfl⟩
abbrev main_v509 : Ref sig .tc := ⟨.hbm, 744, rfl⟩
abbrev main_v510 : Ref sig .tc := ⟨.hbm, 745, rfl⟩
abbrev main_v511 : Ref sig .tc := ⟨.hbm, 746, rfl⟩
abbrev main_v512 : Ref sig .tc := ⟨.hbm, 747, rfl⟩
abbrev main_v513 : Ref sig .tc := ⟨.hbm, 748, rfl⟩
abbrev main_v514 : Ref sig .tc := ⟨.hbm, 749, rfl⟩
abbrev main_v515 : Ref sig .tc := ⟨.hbm, 750, rfl⟩
abbrev main_v516 : Ref sig .tc := ⟨.hbm, 751, rfl⟩
abbrev main_v517 : Ref sig .tc := ⟨.hbm, 752, rfl⟩
abbrev main_c_157 : Ref sig .tc := ⟨.hbm, 753, rfl⟩
abbrev main_v518 : Ref sig .tc := ⟨.hbm, 754, rfl⟩
abbrev main_v519 : Ref sig .tc := ⟨.hbm, 755, rfl⟩
abbrev main_c_158 : Ref sig .tc := ⟨.hbm, 756, rfl⟩
abbrev main_v520 : Ref sig .tc := ⟨.hbm, 757, rfl⟩
abbrev main_v521 : Ref sig .tc := ⟨.hbm, 758, rfl⟩
abbrev main_v522 : Ref sig .tc := ⟨.hbm, 759, rfl⟩
abbrev main_v523 : Ref sig .tc := ⟨.hbm, 760, rfl⟩
abbrev main_v524 : Ref sig .tc := ⟨.hbm, 761, rfl⟩
abbrev main_v525 : Ref sig .tc := ⟨.hbm, 762, rfl⟩
abbrev main_v526 : Ref sig .tc := ⟨.hbm, 763, rfl⟩
abbrev main_cst_159 : Ref sig .tc := ⟨.hbm, 764, rfl⟩
abbrev main_v527 : Ref sig .tc := ⟨.hbm, 765, rfl⟩
abbrev main_v528 : Ref sig .tc := ⟨.hbm, 766, rfl⟩
abbrev main_cst_160 : Ref sig .tc := ⟨.hbm, 767, rfl⟩
abbrev main_v529 : Ref sig .tc := ⟨.hbm, 768, rfl⟩
abbrev main_v530 : Ref sig .tc := ⟨.hbm, 769, rfl⟩
abbrev main_cst_161 : Ref sig .tc := ⟨.hbm, 770, rfl⟩
abbrev main_v531 : Ref sig .tc := ⟨.hbm, 771, rfl⟩
abbrev main_v532 : Ref sig .tc := ⟨.hbm, 772, rfl⟩
abbrev main_v533 : Ref sig .tc := ⟨.hbm, 773, rfl⟩
abbrev main_v534 : Ref sig .tc := ⟨.hbm, 774, rfl⟩
abbrev main_cst_162 : Ref sig .tc := ⟨.hbm, 775, rfl⟩
abbrev main_v535 : Ref sig .tc := ⟨.hbm, 776, rfl⟩
abbrev main_v536 : Ref sig .tc := ⟨.hbm, 777, rfl⟩
abbrev main_cst_163 : Ref sig .tc := ⟨.hbm, 778, rfl⟩
abbrev main_v537 : Ref sig .tc := ⟨.hbm, 779, rfl⟩
abbrev main_v538 : Ref sig .tc := ⟨.hbm, 780, rfl⟩
abbrev main_cst_164 : Ref sig .tc := ⟨.hbm, 781, rfl⟩
abbrev main_v539 : Ref sig .tc := ⟨.hbm, 782, rfl⟩
abbrev main_v540 : Ref sig .tc := ⟨.hbm, 783, rfl⟩
abbrev main_v541 : Ref sig .tc := ⟨.hbm, 784, rfl⟩
abbrev main_c_165 : Ref sig .tc := ⟨.hbm, 785, rfl⟩
abbrev main_c_166 : Ref sig .tc := ⟨.hbm, 786, rfl⟩
abbrev main_call14_v0 : Ref sig .tc := ⟨.hbm, 787, rfl⟩
abbrev main_call14_v1 : Ref sig .tc := ⟨.hbm, 788, rfl⟩
abbrev main_call14_v2 : Ref sig .tc := ⟨.hbm, 789, rfl⟩
abbrev main_call14_v3 : Ref sig .tc := ⟨.hbm, 790, rfl⟩
abbrev main_call14_v4 : Ref sig .tc := ⟨.hbm, 791, rfl⟩
abbrev main_v542 : Ref sig .tc := ⟨.hbm, 792, rfl⟩
abbrev main_v543 : Ref sig .tc := ⟨.hbm, 793, rfl⟩
abbrev main_cst_167 : Ref sig .tc := ⟨.hbm, 794, rfl⟩
abbrev main_v544 : Ref sig .tc := ⟨.hbm, 795, rfl⟩
abbrev main_v545 : Ref sig .tc := ⟨.hbm, 796, rfl⟩
abbrev main_c_168 : Ref sig .tc := ⟨.hbm, 797, rfl⟩
abbrev main_c_169 : Ref sig .tc := ⟨.hbm, 798, rfl⟩
abbrev main_call15_v0 : Ref sig .tc := ⟨.hbm, 799, rfl⟩
abbrev main_call15_v1 : Ref sig .tc := ⟨.hbm, 800, rfl⟩
abbrev main_call15_v2 : Ref sig .tc := ⟨.hbm, 801, rfl⟩
abbrev main_call15_v3 : Ref sig .tc := ⟨.hbm, 802, rfl⟩
abbrev main_call15_v4 : Ref sig .tc := ⟨.hbm, 803, rfl⟩
abbrev main_v546 : Ref sig .tc := ⟨.hbm, 804, rfl⟩
abbrev main_v547 : Ref sig .tc := ⟨.hbm, 805, rfl⟩
abbrev main_v548 : Ref sig .tc := ⟨.hbm, 806, rfl⟩
abbrev main_v549 : Ref sig .tc := ⟨.hbm, 807, rfl⟩
abbrev main_c_170 : Ref sig .tc := ⟨.hbm, 808, rfl⟩
abbrev main_c_171 : Ref sig .tc := ⟨.hbm, 809, rfl⟩
abbrev main_call16_v0 : Ref sig .tc := ⟨.hbm, 810, rfl⟩
abbrev main_call16_v1 : Ref sig .tc := ⟨.hbm, 811, rfl⟩
abbrev main_call16_v2 : Ref sig .tc := ⟨.hbm, 812, rfl⟩
abbrev main_call16_v3 : Ref sig .tc := ⟨.hbm, 813, rfl⟩
abbrev main_call16_v4 : Ref sig .tc := ⟨.hbm, 814, rfl⟩
abbrev main_v550 : Ref sig .tc := ⟨.hbm, 815, rfl⟩
abbrev main_v551 : Ref sig .tc := ⟨.hbm, 816, rfl⟩
abbrev main_cst_172 : Ref sig .tc := ⟨.hbm, 817, rfl⟩
abbrev main_v552 : Ref sig .tc := ⟨.hbm, 818, rfl⟩
abbrev main_v553 : Ref sig .tc := ⟨.hbm, 819, rfl⟩
abbrev main_c_173 : Ref sig .tc := ⟨.hbm, 820, rfl⟩
abbrev main_c_174 : Ref sig .tc := ⟨.hbm, 821, rfl⟩
abbrev main_call17_v0 : Ref sig .tc := ⟨.hbm, 822, rfl⟩
abbrev main_call17_v1 : Ref sig .tc := ⟨.hbm, 823, rfl⟩
abbrev main_call17_v2 : Ref sig .tc := ⟨.hbm, 824, rfl⟩
abbrev main_call17_v3 : Ref sig .tc := ⟨.hbm, 825, rfl⟩
abbrev main_call17_v4 : Ref sig .tc := ⟨.hbm, 826, rfl⟩
abbrev main_v554 : Ref sig .tc := ⟨.hbm, 827, rfl⟩
abbrev main_v555 : Ref sig .tc := ⟨.hbm, 828, rfl⟩
abbrev main_v556 : Ref sig .tc := ⟨.hbm, 829, rfl⟩
abbrev main_cst_175 : Ref sig .tc := ⟨.hbm, 830, rfl⟩
abbrev main_v557 : Ref sig .tc := ⟨.hbm, 831, rfl⟩
abbrev main_cst_176 : Ref sig .tc := ⟨.hbm, 832, rfl⟩
abbrev main_v558 : Ref sig .tc := ⟨.hbm, 833, rfl⟩
abbrev main_v559 : Ref sig .tc := ⟨.hbm, 834, rfl⟩
abbrev main_cst_177 : Ref sig .tc := ⟨.hbm, 835, rfl⟩
abbrev main_v560 : Ref sig .tc := ⟨.hbm, 836, rfl⟩
abbrev main_v561 : Ref sig .tc := ⟨.hbm, 837, rfl⟩
abbrev main_c_178 : Ref sig .tc := ⟨.hbm, 838, rfl⟩
abbrev main_v562 : Ref sig .tc := ⟨.hbm, 839, rfl⟩
abbrev main_v563 : Ref sig .tc := ⟨.hbm, 840, rfl⟩
abbrev main_c_179 : Ref sig .tc := ⟨.hbm, 841, rfl⟩
abbrev main_v564 : Ref sig .tc := ⟨.hbm, 842, rfl⟩
abbrev main_v565 : Ref sig .tc := ⟨.hbm, 843, rfl⟩
abbrev main_v566 : Ref sig .tc := ⟨.hbm, 844, rfl⟩
abbrev main_c_180 : Ref sig .tc := ⟨.hbm, 845, rfl⟩
abbrev main_v567 : Ref sig .tc := ⟨.hbm, 846, rfl⟩
abbrev main_v568 : Ref sig .tc := ⟨.hbm, 847, rfl⟩
abbrev main_c_181 : Ref sig .tc := ⟨.hbm, 848, rfl⟩
abbrev main_v569 : Ref sig .tc := ⟨.hbm, 849, rfl⟩
abbrev main_v570 : Ref sig .tc := ⟨.hbm, 850, rfl⟩
abbrev main_v571 : Ref sig .tc := ⟨.hbm, 851, rfl⟩
abbrev main_v572 : Ref sig .tc := ⟨.hbm, 852, rfl⟩
abbrev main_v573 : Ref sig .tc := ⟨.hbm, 853, rfl⟩
abbrev main_v574 : Ref sig .tc := ⟨.hbm, 854, rfl⟩
abbrev main_v575 : Ref sig .tc := ⟨.hbm, 855, rfl⟩
abbrev main_v576 : Ref sig .tc := ⟨.hbm, 856, rfl⟩
abbrev main_v577 : Ref sig .tc := ⟨.hbm, 857, rfl⟩
abbrev main_v578 : Ref sig .tc := ⟨.hbm, 858, rfl⟩
abbrev main_v579 : Ref sig .tc := ⟨.hbm, 859, rfl⟩
abbrev main_v580 : Ref sig .tc := ⟨.hbm, 860, rfl⟩
abbrev main_c_182 : Ref sig .tc := ⟨.hbm, 861, rfl⟩
abbrev main_v581 : Ref sig .tc := ⟨.hbm, 862, rfl⟩
abbrev main_v582 : Ref sig .tc := ⟨.hbm, 863, rfl⟩
abbrev main_c_183 : Ref sig .tc := ⟨.hbm, 864, rfl⟩
abbrev main_v583 : Ref sig .tc := ⟨.hbm, 865, rfl⟩
abbrev main_v584 : Ref sig .tc := ⟨.hbm, 866, rfl⟩
abbrev main_v585 : Ref sig .tc := ⟨.hbm, 867, rfl⟩
abbrev main_c_184 : Ref sig .tc := ⟨.hbm, 868, rfl⟩
abbrev main_v586 : Ref sig .tc := ⟨.hbm, 869, rfl⟩
abbrev main_v587 : Ref sig .tc := ⟨.hbm, 870, rfl⟩
abbrev main_c_185 : Ref sig .tc := ⟨.hbm, 871, rfl⟩
abbrev main_v588 : Ref sig .tc := ⟨.hbm, 872, rfl⟩
abbrev main_v589 : Ref sig .tc := ⟨.hbm, 873, rfl⟩
abbrev main_v590 : Ref sig .tc := ⟨.hbm, 874, rfl⟩
abbrev main_v591 : Ref sig .tc := ⟨.hbm, 875, rfl⟩
abbrev main_v592 : Ref sig .tc := ⟨.hbm, 876, rfl⟩
abbrev main_v593 : Ref sig .tc := ⟨.hbm, 877, rfl⟩
abbrev main_v594 : Ref sig .tc := ⟨.hbm, 878, rfl⟩
abbrev main_v595 : Ref sig .tc := ⟨.hbm, 879, rfl⟩
abbrev main_v596 : Ref sig .tc := ⟨.hbm, 880, rfl⟩
abbrev main_v597 : Ref sig .tc := ⟨.hbm, 881, rfl⟩
abbrev main_v598 : Ref sig .tc := ⟨.hbm, 882, rfl⟩
abbrev main_v599 : Ref sig .tc := ⟨.hbm, 883, rfl⟩
abbrev main_cst_186 : Ref sig .tc := ⟨.hbm, 884, rfl⟩
abbrev main_v600 : Ref sig .tc := ⟨.hbm, 885, rfl⟩
abbrev main_v601 : Ref sig .tc := ⟨.hbm, 886, rfl⟩
abbrev main_c_187 : Ref sig .tc := ⟨.hbm, 887, rfl⟩
abbrev main_v602 : Ref sig .tc := ⟨.hbm, 888, rfl⟩
abbrev main_v603 : Ref sig .tc := ⟨.hbm, 889, rfl⟩
abbrev main_c_188 : Ref sig .tc := ⟨.hbm, 890, rfl⟩
abbrev main_v604 : Ref sig .tc := ⟨.hbm, 891, rfl⟩
abbrev main_v605 : Ref sig .tc := ⟨.hbm, 892, rfl⟩
abbrev main_v606 : Ref sig .tc := ⟨.hbm, 893, rfl⟩
abbrev main_c_189 : Ref sig .tc := ⟨.hbm, 894, rfl⟩
abbrev main_v607 : Ref sig .tc := ⟨.hbm, 895, rfl⟩
abbrev main_v608 : Ref sig .tc := ⟨.hbm, 896, rfl⟩
abbrev main_c_190 : Ref sig .tc := ⟨.hbm, 897, rfl⟩
abbrev main_v609 : Ref sig .tc := ⟨.hbm, 898, rfl⟩
abbrev main_v610 : Ref sig .tc := ⟨.hbm, 899, rfl⟩
abbrev main_v611 : Ref sig .tc := ⟨.hbm, 900, rfl⟩
abbrev main_v612 : Ref sig .tc := ⟨.hbm, 901, rfl⟩
abbrev main_v613 : Ref sig .tc := ⟨.hbm, 902, rfl⟩
abbrev main_v614 : Ref sig .tc := ⟨.hbm, 903, rfl⟩
abbrev main_v615 : Ref sig .tc := ⟨.hbm, 904, rfl⟩
abbrev main_v616 : Ref sig .tc := ⟨.hbm, 905, rfl⟩
abbrev main_v617 : Ref sig .tc := ⟨.hbm, 906, rfl⟩
abbrev main_v618 : Ref sig .tc := ⟨.hbm, 907, rfl⟩
abbrev main_v619 : Ref sig .tc := ⟨.hbm, 908, rfl⟩
abbrev main_v620 : Ref sig .tc := ⟨.hbm, 909, rfl⟩
abbrev main_c_191 : Ref sig .tc := ⟨.hbm, 910, rfl⟩
abbrev main_v621 : Ref sig .tc := ⟨.hbm, 911, rfl⟩
abbrev main_v622 : Ref sig .tc := ⟨.hbm, 912, rfl⟩
abbrev main_c_192 : Ref sig .tc := ⟨.hbm, 913, rfl⟩
abbrev main_v623 : Ref sig .tc := ⟨.hbm, 914, rfl⟩
abbrev main_v624 : Ref sig .tc := ⟨.hbm, 915, rfl⟩
abbrev main_v625 : Ref sig .tc := ⟨.hbm, 916, rfl⟩
abbrev main_c_193 : Ref sig .tc := ⟨.hbm, 917, rfl⟩
abbrev main_v626 : Ref sig .tc := ⟨.hbm, 918, rfl⟩
abbrev main_v627 : Ref sig .tc := ⟨.hbm, 919, rfl⟩
abbrev main_c_194 : Ref sig .tc := ⟨.hbm, 920, rfl⟩
abbrev main_v628 : Ref sig .tc := ⟨.hbm, 921, rfl⟩
abbrev main_v629 : Ref sig .tc := ⟨.hbm, 922, rfl⟩
abbrev main_v630 : Ref sig .tc := ⟨.hbm, 923, rfl⟩
abbrev main_v631 : Ref sig .tc := ⟨.hbm, 924, rfl⟩
abbrev main_v632 : Ref sig .tc := ⟨.hbm, 925, rfl⟩
abbrev main_v633 : Ref sig .tc := ⟨.hbm, 926, rfl⟩
abbrev main_v634 : Ref sig .tc := ⟨.hbm, 927, rfl⟩
abbrev main_v635 : Ref sig .tc := ⟨.hbm, 928, rfl⟩
abbrev main_v636 : Ref sig .tc := ⟨.hbm, 929, rfl⟩
abbrev main_v637 : Ref sig .tc := ⟨.hbm, 930, rfl⟩
abbrev main_v638 : Ref sig .tc := ⟨.hbm, 931, rfl⟩
abbrev main_v639 : Ref sig .tc := ⟨.hbm, 932, rfl⟩
abbrev main_v640 : Ref sig .tc := ⟨.hbm, 933, rfl⟩
abbrev main_v641 : Ref sig .tc := ⟨.hbm, 934, rfl⟩
abbrev main_v642 : Ref sig .tc := ⟨.hbm, 935, rfl⟩
abbrev main_cst_195 : Ref sig .tc := ⟨.hbm, 936, rfl⟩
abbrev main_v643 : Ref sig .tc := ⟨.hbm, 937, rfl⟩
abbrev main_v644 : Ref sig .tc := ⟨.hbm, 938, rfl⟩
abbrev main_v645 : Ref sig .tc := ⟨.hbm, 939, rfl⟩
abbrev main_v646 : Ref sig .tc := ⟨.hbm, 940, rfl⟩
abbrev main_cst_196 : Ref sig .tc := ⟨.hbm, 941, rfl⟩
abbrev main_v647 : Ref sig .tc := ⟨.hbm, 942, rfl⟩
abbrev main_v648 : Ref sig .tc := ⟨.hbm, 943, rfl⟩
abbrev main_cst_197 : Ref sig .tc := ⟨.hbm, 944, rfl⟩
abbrev main_c_198 : Ref sig .tc := ⟨.hbm, 945, rfl⟩
abbrev main_call18_v0 : Ref sig .tc := ⟨.hbm, 946, rfl⟩
abbrev main_call18_v1 : Ref sig .tc := ⟨.hbm, 947, rfl⟩
abbrev main_call18_v2 : Ref sig .tc := ⟨.hbm, 948, rfl⟩
abbrev main_call18_v3 : Ref sig .tc := ⟨.hbm, 949, rfl⟩
abbrev main_call18_v4 : Ref sig .tc := ⟨.hbm, 950, rfl⟩
abbrev main_v649 : Ref sig .tc := ⟨.hbm, 951, rfl⟩
abbrev main_v650 : Ref sig .tc := ⟨.hbm, 952, rfl⟩
abbrev main_v651 : Ref sig .tc := ⟨.hbm, 953, rfl⟩
abbrev main_c_199 : Ref sig .tc := ⟨.hbm, 954, rfl⟩
abbrev main_v652 : Ref sig .tc := ⟨.hbm, 955, rfl⟩
abbrev main_v653 : Ref sig .tc := ⟨.hbm, 956, rfl⟩
abbrev main_c_200 : Ref sig .tc := ⟨.hbm, 957, rfl⟩
abbrev main_v654 : Ref sig .tc := ⟨.hbm, 958, rfl⟩
abbrev main_v655 : Ref sig .tc := ⟨.hbm, 959, rfl⟩
abbrev main_v656 : Ref sig .tc := ⟨.hbm, 960, rfl⟩
abbrev main_v657 : Ref sig .tc := ⟨.hbm, 961, rfl⟩
abbrev main_v658 : Ref sig .tc := ⟨.hbm, 962, rfl⟩
abbrev main_cst_201 : Ref sig .tc := ⟨.hbm, 963, rfl⟩
abbrev main_v659 : Ref sig .tc := ⟨.hbm, 964, rfl⟩
abbrev main_v660 : Ref sig .tc := ⟨.hbm, 965, rfl⟩
abbrev main_v661 : Ref sig .tc := ⟨.hbm, 966, rfl⟩
abbrev main_v662 : Ref sig .tc := ⟨.hbm, 967, rfl⟩
abbrev main_v663 : Ref sig .tc := ⟨.hbm, 968, rfl⟩
abbrev main_c_202 : Ref sig .tc := ⟨.hbm, 969, rfl⟩
abbrev main_v664 : Ref sig .tc := ⟨.hbm, 970, rfl⟩
abbrev main_v665 : Ref sig .tc := ⟨.hbm, 971, rfl⟩
abbrev main_c_203 : Ref sig .tc := ⟨.hbm, 972, rfl⟩
abbrev main_v666 : Ref sig .tc := ⟨.hbm, 973, rfl⟩
abbrev main_v667 : Ref sig .tc := ⟨.hbm, 974, rfl⟩
abbrev main_v668 : Ref sig .tc := ⟨.hbm, 975, rfl⟩
abbrev main_v669 : Ref sig .tc := ⟨.hbm, 976, rfl⟩
abbrev main_v670 : Ref sig .tc := ⟨.hbm, 977, rfl⟩
abbrev main_v671 : Ref sig .tc := ⟨.hbm, 978, rfl⟩
abbrev main_v672 : Ref sig .tc := ⟨.hbm, 979, rfl⟩
abbrev main_v673 : Ref sig .tc := ⟨.hbm, 980, rfl⟩
abbrev main_v674 : Ref sig .tc := ⟨.hbm, 981, rfl⟩
abbrev main_v675 : Ref sig .tc := ⟨.hbm, 982, rfl⟩
abbrev main_v676 : Ref sig .tc := ⟨.hbm, 983, rfl⟩
abbrev main_v677 : Ref sig .tc := ⟨.hbm, 984, rfl⟩

abbrev nD : Nat := 1
abbrev τ : Topo := Topo.v7x

variable {F : FTy → Type} [FloatOps F]

class Facts₀ : Prop where
  slices_S1000000x4_S1000000x3_0_0 : S1000000x4.Slices ![0, 0] S1000000x3
  slices_S1000000x3_S1000000x1_0_0 : S1000000x3.Slices ![0, 0] S1000000x1
  shapeCasts_S1000000x1_S1000000 : S1000000x1.ShapeCasts S1000000
  bcast_S_S1000000 : S_.BroadcastsInDim S1000000 (![] : Fin 0 → Fin S1000000.rank)
  slices_S1000000x3_S1000000x1_0_1 : S1000000x3.Slices ![0, 1] S1000000x1
  slices_S1000000x3_S1000000x1_0_2 : S1000000x3.Slices ![0, 2] S1000000x1
  bcast_S_S16x1000000 : S_.BroadcastsInDim S16x1000000 (![] : Fin 0 → Fin S16x1000000.rank)
  bcast_S1000000_S1000000x1_0 : S1000000.BroadcastsInDim S1000000x1 (![0] : Fin 1 → Fin S1000000x1.rank)
  concatenates_S1000000x1_S1000000x1_S1000000x1_S1000000x3_d1 : Shape.Concatenates [S1000000x1, S1000000x1, S1000000x1] S1000000x3 1
  bcast_S1000000_S1x1000000_1 : S1000000.BroadcastsInDim S1x1000000 (![1] : Fin 1 → Fin S1x1000000.rank)
  bcast_S1x1000000_S16x1000000_0_1 : S1x1000000.BroadcastsInDim S16x1000000 (![0, 1] : Fin 2 → Fin S16x1000000.rank)
  bcast_S_S2 : S_.BroadcastsInDim S2 (![] : Fin 0 → Fin S2.rank)
  bcast_S2_S2x1_0 : S2.BroadcastsInDim S2x1 (![0] : Fin 1 → Fin S2x1.rank)
  slices_S1000000x2_S1000000x1_0_0 : S1000000x2.Slices ![0, 0] S1000000x1
  slices_S1000000x2_S1000000x1_0_1 : S1000000x2.Slices ![0, 1] S1000000x1
  concatenates_S1000000x1_S1000000x1_S1000000x2_d1 : Shape.Concatenates [S1000000x1, S1000000x1] S1000000x2 1
  slices_S1000000x4_S1000000x1_0_3 : S1000000x4.Slices ![0, 3] S1000000x1
  transposes_S16x1000000_S1000000x16_1_0 : S16x1000000.Transposes [1, 0] S1000000x16
  concatenates_S1000000x16_S1000000x16_S1000000x32_d1 : Shape.Concatenates [S1000000x16, S1000000x16] S1000000x32 1
  gather_S16x128x128x128_S1000000x3_S16x1000000_0_123_n_n_123_1_16111_wf : GatherDims.WF S16x128x128x128 S1000000x3 S16x1000000 [0] [1, 2, 3] [] [1, 2, 3] [] 1 ![16, 1, 1, 1]
  gather_S1000000x4_S2x1_S1000000x2_0_1_n_n_1_1_10000001_wf : GatherDims.WF S1000000x4 S2x1 S1000000x2 [0] [1] [] [1] [] 1 ![1000000, 1]
  gather_S16x256x256_S1000000x2_S16x1000000_0_12_n_n_12_1_1611_wf : GatherDims.WF S16x256x256 S1000000x2 S16x1000000 [0] [1, 2] [] [1, 2] [] 1 ![16, 1, 1]
  gather_S16x64_S1000000x1_S16x1000000_0_1_n_n_1_1_161_wf : GatherDims.WF S16x64 S1000000x1 S16x1000000 [0] [1] [] [1] [] 1 ![16, 1]

variable [Facts₀]

def gather_S16x128x128x128_S1000000x3_S16x1000000_0_123_n_n_123_1_16111 : GatherDims S16x128x128x128 S1000000x3 S16x1000000 where
  offsetDims := [0]
  collapsedSliceDims := [1, 2, 3]
  operandBatchingDims := []
  startIndicesBatchingDims := []
  startIndexMap := [1, 2, 3]
  indexVectorDim := 1
  sliceSizes := ![16, 1, 1, 1]
  wf := gather_S16x128x128x128_S1000000x3_S16x1000000_0_123_n_n_123_1_16111_wf
def gather_S1000000x4_S2x1_S1000000x2_0_1_n_n_1_1_10000001 : GatherDims S1000000x4 S2x1 S1000000x2 where
  offsetDims := [0]
  collapsedSliceDims := [1]
  operandBatchingDims := []
  startIndicesBatchingDims := []
  startIndexMap := [1]
  indexVectorDim := 1
  sliceSizes := ![1000000, 1]
  wf := gather_S1000000x4_S2x1_S1000000x2_0_1_n_n_1_1_10000001_wf
def gather_S16x256x256_S1000000x2_S16x1000000_0_12_n_n_12_1_1611 : GatherDims S16x256x256 S1000000x2 S16x1000000 where
  offsetDims := [0]
  collapsedSliceDims := [1, 2]
  operandBatchingDims := []
  startIndicesBatchingDims := []
  startIndexMap := [1, 2]
  indexVectorDim := 1
  sliceSizes := ![16, 1, 1]
  wf := gather_S16x256x256_S1000000x2_S16x1000000_0_12_n_n_12_1_1611_wf
def gather_S16x64_S1000000x1_S16x1000000_0_1_n_n_1_1_161 : GatherDims S16x64 S1000000x1 S16x1000000 where
  offsetDims := [0]
  collapsedSliceDims := [1]
  operandBatchingDims := []
  startIndicesBatchingDims := []
  startIndexMap := [1]
  indexVectorDim := 1
  sliceSizes := ![16, 1]
  wf := gather_S16x64_S1000000x1_S16x1000000_0_1_n_n_1_1_161_wf

class Facts : Prop extends Facts₀ where

variable [Facts]
-- ==== Proof.Spec.lean ====
/-
  The result of the multi-grid lookup as scalar mathematics, one entry at a time, with no program in sight.

  A query row r holds four coordinates X(r,0..3). A coordinate v becomes the pixel position p = ((v + 1)·½)·s
  (s = extent − 1), its floor f = ⌊p⌋, the two neighbours clip(f, 0, s) and clip(f + 1, 0, s) and the weight
  w = p − f. A clipped neighbour is a natural number at most s whatever v is (an infinite v goes to an end), so it is
  stated here as a natural already known to be in range: `cidx`, `cidx_le`, and the word the programs convert it
  to is that natural (`fptosi_clip`).
  The volume's value at channel q is the sum over the eight corners (a, b, c) ∈ {0,1}³ of
  G(q, z_a, y_b, x_c) · ((wz_a · wy_b) · wx_c), started from 0, the corner's weight being w on the upper side and
  1 − w on the lower; a plane's value is the same sum over four corners; the three planes read the coordinate
  pairs (1,2), (0,2), (0,1), first → the column pixel, second → the row pixel; the line reads coordinate 3 at
  p = v·63, its lower neighbour through the UNCLIPPED word of ⌊p⌋ (normalised and clamped as an index is),
  its upper one clipped. Entry (r, c) of the result is ((tri·b0)·b1)·b2 at channel c for c < 16 and the line's
  value at channel c − 16 otherwise.
  For real entries and weights the corner sums are the nested interpolations (`tri_nested`, `bil_nested`):
  distributivity, which the extended reals have only away from the infinities.
-/
import Idealize.ShloMosaic.PureOps.Ideal
import Idealize.ShloMosaic.PureOps.Ideal.Laws
import Idealize.ShloMosaic.Lib.ValueIdx
import Mathlib.Tactic

noncomputable section

namespace Cert.Spec

open Idealize.ShloMosaic Idealize.ShloMosaic.ValueIdx

abbrev SX : Shape := ⟨2, ![1000000, 4]⟩
abbrev SG : Shape := ⟨4, ![16, 128, 128, 128]⟩
abbrev SP : Shape := ⟨3, ![16, 256, 256]⟩
abbrev SL : Shape := ⟨2, ![16, 64]⟩

/-! ## The float words both programs spell (never evaluated where both sides carry the same word) -/

def one : EReal := Ideal.ofBits .f32 0x3F800000#32
def half : EReal := Ideal.ofBits .f32 0x3F000000#32
def zero : EReal := Ideal.ofBits .f32 0x00000000#32
def s127 : EReal := Ideal.ofBits .f32 0x42FE0000#32
def s255 : EReal := Ideal.ofBits .f32 0x437F0000#32
def s63 : EReal := Ideal.ofBits .f32 0x427C0000#32

theorem one_eq : one = ((1 : ℝ) : EReal) := by
  unfold one; simp [Ideal.ofBits, Ideal.ieee, -EReal.coe_mul]; norm_num
theorem zero_eq : zero = ((0 : ℝ) : EReal) := by
  unfold zero; simp [Ideal.ofBits, Ideal.ieee]

/-! ## One coordinate: pixel position, floor, weight, clipped neighbours -/

/-- The floor, the infinities fixed. -/
def fl (p : EReal) : EReal := Ideal.liftRound Int.floor p
/-- Pixel position of a coordinate in [−1, 1] on an axis of extent s + 1. -/
def pix (s v : EReal) : EReal := ((v + one) * half) * s
/-- The interpolation weight p − ⌊p⌋. -/
def wt (p : EReal) : EReal := p - fl p

theorem fl_coe (x : ℝ) : fl (x : EReal) = (((⌊x⌋ : ℤ) : ℝ) : EReal) := rfl

/-- The integer part of v clipped to [0, hi], as a natural number. -/
def cidx (hi : ℕ) (v : EReal) : ℕ :=
  (Ideal.toIntClamped (-((2 ^ 31 : ℕ) : ℤ)) (((2 ^ 31 : ℕ) : ℤ) - 1) (min (((hi : ℤ) : ℝ) : EReal) (max (((0 : ℤ) : ℝ) : EReal) v))).toNat

/-- A value clipped to [0, hi] is a real between 0 and hi. -/
theorem clip_real (hi : ℕ) (v : EReal) :
    ∃ y : ℝ, 0 ≤ y ∧ y ≤ hi ∧ min (((hi : ℤ) : ℝ) : EReal) (max (((0 : ℤ) : ℝ) : EReal) v) = (y : EReal) := by
  induction v using EReal.rec with
  | bot => exact ⟨0, le_refl _, by positivity, by simp⟩
  | top => exact ⟨hi, by positivity, le_refl _, by simp⟩
  | coe x =>
    refine ⟨min (hi : ℝ) (max 0 x), le_min (by positivity) (le_max_left _ _), min_le_left _ _, ?_⟩
    simp only [Int.cast_natCast, Int.cast_zero, EReal.coe_zero]
    rw [← EReal.coe_zero, ← EReal.coe_strictMono.monotone.map_max, ← EReal.coe_strictMono.monotone.map_min]

theorem cidx_le (hi : ℕ) (v : EReal) : cidx hi v ≤ hi := by
  obtain ⟨y, h0, h1, hy⟩ := clip_real hi v
  unfold cidx; rw [hy, Ideal.toIntClamped_coe, if_pos h0]
  have hf : ⌊y⌋ ≤ (hi : ℤ) := by
    have : (⌊y⌋ : ℝ) ≤ y := Int.floor_le y
    exact_mod_cast (this.trans h1)
  have hf0 : 0 ≤ ⌊y⌋ := Int.floor_nonneg.mpr h0
  omega

/-- The word a program converts a clipped value to is that natural (hi below 2³¹). -/
theorem fptosi_clip (hi : ℕ) (hhi : hi < 2 ^ 31) (v : EReal) :
    Ideal.fptosi 32 (min (((hi : ℤ) : ℝ) : EReal) (max (((0 : ℤ) : ℝ) : EReal) v)) = BitVec.ofNat 32 (cidx hi v) := by
  obtain ⟨y, h0, h1, hy⟩ := clip_real hi v
  have hf : ⌊y⌋ ≤ (hi : ℤ) := by
    have : (⌊y⌋ : ℝ) ≤ y := Int.floor_le y
    exact_mod_cast (this.trans h1)
  have hf0 : 0 ≤ ⌊y⌋ := Int.floor_nonneg.mpr h0
  unfold Ideal.fptosi cidx
  rw [hy, Ideal.toIntClamped_coe, if_pos h0]
  have e : max (-(((2 ^ (32 - 1) : ℕ)) : ℤ)) (min ((((2 ^ (32 - 1) : ℕ)) : ℤ) - 1) ⌊y⌋) = ⌊y⌋ := by
    have : (hi : ℤ) < 2 ^ 31 := by exact_mod_cast hhi
    norm_num; omega
  rw [e]
  conv_lhs => rw [← Int.toNat_of_nonneg hf0]
  exact (BitVec.ofInt_natCast 32 _)

/-- The clipped integer part as an index of an axis of extent n. -/
def cfin (n : ℕ) (hn : 0 < n) (v : EReal) : Fin n :=
  ⟨cidx (n - 1) v, by have := cidx_le (n - 1) v; omega⟩

/-- The lower (false) and upper (true) neighbour of pixel position p on an axis of extent n. -/
def nb (n : ℕ) (hn : 0 < n) (p : EReal) (b : Bool) : Fin n :=
  if b then cfin n hn (fl p + one) else cfin n hn (fl p)
/-- The weight of the upper (true) and of the lower (false) neighbour. -/
def wsel (p : EReal) (b : Bool) : EReal := if b then wt p else one - wt p

/-! ## The index of the line's lower neighbour: the unclipped word, normalised and clamped as an index is -/

/-- Index normalisation: a negative word has the extent added. -/
def normw (n w : BitVec 32) : BitVec 32 := if w.slt 0#32 then w + n else w
/-- The row a gather reads for the word w on an axis of extent 64: the word read signed, clamped into [0, 63]. -/
def lrow (w : BitVec 32) : Fin 64 := ⟨min (normw 64#32 w).toInt.toNat 63, by omega⟩

/-! ## The result -/

variable (X : SX.Idx → EReal) (G : SG.Idx → EReal) (P0 P1 P2 : SP.Idx → EReal) (L : SL.Idx → EReal)

/-- One corner of the volume: the entry times its weight, (wz·wy)·wx. -/
def term3 (q : Fin 16) (pz py px : EReal) (a b c : Bool) : EReal :=
  G (ix4 q (nb 128 (by decide) pz a) (nb 128 (by decide) py b) (nb 128 (by decide) px c)) * ((wsel pz a * wsel py b) * wsel px c)

/-- The volume at channel q: the eight corners added to 0, z outermost, x innermost, lower side first. -/
def tri (q : Fin 16) (pz py px : EReal) : EReal :=
  ((((((((zero + term3 G q pz py px false false false) + term3 G q pz py px false false true)
    + term3 G q pz py px false true false) + term3 G q pz py px false true true)
    + term3 G q pz py px true false false) + term3 G q pz py px true false true)
    + term3 G q pz py px true true false) + term3 G q pz py px true true true)

/-- One corner of a plane: the entry times its weight, wy·wx. -/
def term2 (P : SP.Idx → EReal) (q : Fin 16) (py px : EReal) (b c : Bool) : EReal :=
  P (ix3 q (nb 256 (by decide) py b) (nb 256 (by decide) px c)) * (wsel py b * wsel px c)

/-- A plane at channel q: the four corners added to 0, y outer, x inner, lower side first. -/
def bil (P : SP.Idx → EReal) (q : Fin 16) (py px : EReal) : EReal :=
  ((((zero + term2 P q py px false false) + term2 P q py px false true)
    + term2 P q py px true false) + term2 P q py px true true)

/-- The line at channel q and pixel position pn. -/
def lin (q : Fin 16) (pn : EReal) : EReal :=
  L (ix2 q (lrow (Ideal.fptosi 32 (fl pn)))) * (one - wt pn) + L (ix2 q (cfin 64 (by decide) (fl pn + one))) * wt pn

/-- The product of the volume and the three planes at row r, channel q. -/
def spatial (r : Fin 1000000) (q : Fin 16) : EReal :=
  ((tri G q (pix s127 (X (ix2 r 2))) (pix s127 (X (ix2 r 1))) (pix s127 (X (ix2 r 0)))
    * bil P0 q (pix s255 (X (ix2 r 2))) (pix s255 (X (ix2 r 1))))
    * bil P1 q (pix s255 (X (ix2 r 2))) (pix s255 (X (ix2 r 0))))
    * bil P2 q (pix s255 (X (ix2 r 1))) (pix s255 (X (ix2 r 0)))

/-- The line's value at row r, channel q. -/
def param (r : Fin 1000000) (q : Fin 16) : EReal := lin L q (X (ix2 r 3) * s63)

/-- Entry (r, c) of the result. -/
def out (r : Fin 1000000) (c : Fin 32) : EReal :=
  if h : c.val < 16 then spatial X G P0 P1 P2 r ⟨c.val, h⟩ else param X L r ⟨c.val - 16, by omega⟩

/-! ## Real entries: weights are real, and the corner sums are the nested interpolations -/

theorem pix_real (s v : EReal) (hs : ∃ y : ℝ, s = y) (hv : ∃ y : ℝ, v = y) : ∃ y : ℝ, pix s v = y := by
  obtain ⟨a, rfl⟩ := hs; obtain ⟨b, rfl⟩ := hv
  exact ⟨((b + 1) * (1 / 2 : ℝ)) * a, by
    unfold pix half; rw [one_eq]
    have : Ideal.ofBits .f32 0x3F000000#32 = (((1 / 2 : ℝ)) : EReal) := by
      simp [Ideal.ofBits, Ideal.ieee, -EReal.coe_mul]; norm_num
    rw [this]; push_cast; rfl⟩

theorem wt_real (p : EReal) (hp : ∃ y : ℝ, p = y) : ∃ y : ℝ, wt p = y := by
  obtain ⟨a, rfl⟩ := hp
  exact ⟨a - ⌊a⌋, by unfold wt; rw [fl_coe]; push_cast; rfl⟩

/-- Two-level interpolation of real corner values is the corner sum from 0. -/
theorem bil_nested (g00 g01 g10 g11 wy wx : ℝ) :
    ((g00 : EReal) * (one - wx) + g01 * wx) * (one - wy) + ((g10 : EReal) * (one - wx) + g11 * wx) * wy
    = ((((zero + g00 * ((one - wy) * (one - wx))) + g01 * ((one - wy) * wx)) + g10 * (wy * (one - wx))) + g11 * (wy * wx)) := by
  rw [one_eq, zero_eq]
  have h : ∀ a b : ℝ, ((a : EReal) - b) = ((a - b : ℝ) : EReal) := fun a b => (EReal.coe_sub a b).symm
  simp only [h, ← EReal.coe_mul, ← EReal.coe_add]
  congr 1; ring

/-- Three-level interpolation of real corner values is the corner sum from 0. -/
theorem tri_nested (g000 g001 g010 g011 g100 g101 g110 g111 wz wy wx : ℝ) :
    (((g000 : EReal) * (one - wx) + g001 * wx) * (one - wy) + ((g010 : EReal) * (one - wx) + g011 * wx) * wy) * (one - wz)
      + (((g100 : EReal) * (one - wx) + g101 * wx) * (one - wy) + ((g110 : EReal) * (one - wx) + g111 * wx) * wy) * wz
    = ((((((((zero + g000 * (((one - wz) * (one - wy)) * (one - wx))) + g001 * (((one - wz) * (one - wy)) * wx))
        + g010 * (((one - wz) * wy) * (one - wx))) + g011 * (((one - wz) * wy) * wx))
        + g100 * ((wz * (one - wy)) * (one - wx))) + g101 * ((wz * (one - wy)) * wx))
        + g110 * ((wz * wy) * (one - wx))) + g111 * ((wz * wy) * wx)) := by
  rw [one_eq, zero_eq]
  have h : ∀ a b : ℝ, ((a : EReal) - b) = ((a - b : ℝ) : EReal) := fun a b => (EReal.coe_sub a b).symm
  simp only [h, ← EReal.coe_mul, ← EReal.coe_add]
  congr 1; ring

end Cert.Spec

end
-- ==== Proof.Finite.lean ====
/-
  Finite inputs are real.  The precondition says of each of the six argument arrays that every entry's absolute
  value is below +∞ (a conjunction of six "all entries" reductions by `and`); over the extended reals an entry
  whose absolute value max x (−x) is below +∞ is neither infinity, hence a real number.
-/
import proofs.«135735_j20624432955487_2_alg».proof.Proof.Gen.Pre_finite_inputs
import Idealize.ShloMosaic.Lib.ReduceAll
import Idealize.ShloMosaic.Lib.Affine
import Idealize.ShloMosaic.Lib.IdealHost
import Idealize.ShloMosaic.Lib.ValueIdx

noncomputable section

namespace Cert.Finite

open Idealize.ShloMosaic Idealize.ShloMosaic.ValueIdx Cert.Pre_finite_inputs Cert.Pre_finite_inputs.Gen

instance : Subsingleton S_.Idx := ⟨fun a b => funext fun d => d.elim0⟩

/-- An extended real whose absolute value is below +∞ is a real number. -/
theorem real_of_abs_lt (x : EReal)
    (h : Ideal.cmp .olt (max x (-x)) (Ideal.ofBits .f32 0x7F800000#32) = 1#1) : ∃ y : ℝ, x = (y : EReal) := by
  have htop : Ideal.ofBits .f32 0x7F800000#32 = (⊤ : EReal) := by simp [Ideal.ofBits, Ideal.ieee]
  rw [htop] at h
  induction x using EReal.rec with
  | bot => exfalso; revert h; simp [Ideal.cmp]
  | top => exfalso; revert h; simp [Ideal.cmp]
  | coe y => exact ⟨y, rfl⟩

/-- One "all entries are finite" reduction gives every entry real. -/
theorem real_of_all {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi (cmpf .olt (Host.absf a) (broadcastInDim s ![] hb (constant (F := Ideal) S_ .f32 0x7F800000#32)))
          (constantI S_ 1 1#1) hr hu ix0 = 1#1) (i : s.Idx) : ∃ y : ℝ, a i = (y : EReal) := by
  have h := Host.reduce_andi_all _ _ hr hu ix0 e i
  refine real_of_abs_lt (a i) ?_
  have hbc : broadcastInDim s ![] hb (constant (F := Ideal) S_ .f32 0x7F800000#32) i = Ideal.ofBits .f32 0x7F800000#32 :=
    broadcastInDim_scalar_apply hb _ i
  have h' : FloatOps.cmpf (F := Ideal) .olt (FloatOps.hostAbsf (F := Ideal) (a i)) (Ideal.ofBits .f32 0x7F800000#32) = 1#1 := by
    simpa only [cmpf, Host.absf, hbc] using h
  exact h'

/-- The precondition at the ideal instance: all six argument arrays hold real numbers. -/
theorem reals (a0 : FVec Ideal S1000000x4 .f32) (a1 : FVec Ideal S16x128x128x128 .f32) (a2 a3 a4 : FVec Ideal S16x256x256 .f32)
    (a5 : FVec Ideal S16x64 .f32) (h : Cert.Pre_finite_inputs.fn (F := Ideal) a0 a1 a2 a3 a4 a5 = fun _ => 1#1) :
    (∀ i, ∃ y : ℝ, a0 i = (y : EReal)) ∧ (∀ i, ∃ y : ℝ, a1 i = (y : EReal)) ∧ (∀ i, ∃ y : ℝ, a2 i = (y : EReal))
      ∧ (∀ i, ∃ y : ℝ, a3 i = (y : EReal)) ∧ (∀ i, ∃ y : ℝ, a4 i = (y : EReal)) ∧ (∀ i, ∃ y : ℝ, a5 i = (y : EReal)) := by
  have h0 := congrFun h ix0
  dsimp only [fn, fn_part1] at h0
  simp only [andi, IntOp.andi_eq_one] at h0
  obtain ⟨⟨⟨⟨⟨e0, e1⟩, e2⟩, e3⟩, e4⟩, e5⟩ := h0
  exact ⟨real_of_all a0 _ _ _ e0, real_of_all a1 _ _ _ e1, real_of_all a2 _ _ _ e2, real_of_all a3 _ _ _ e3,
    real_of_all a4 _ _ _ e4, real_of_all a5 _ _ _ e5⟩

end Cert.Finite

end
-- ==== Proof.RefCat.lean ====
/-
  The reference's three concatenations as named functions of their operands: the three index columns of a volume
  lookup joined into an index table [n, 3], the two index columns of a plane lookup joined into [n, 2], and the two
  halves of the result joined into [n, 32]. The operation list and the chain of definitions cite them by name, so
  that an operand is an argument of a function rather than an entry of a list of shaped pieces.
-/
import proofs.«135735_j20624432955487_2_alg».proof.Proof.Gen.ReferenceIdeal

noncomputable section

namespace Cert.ReferenceIdeal.RefValue

open Cert.ReferenceIdeal Cert.ReferenceIdeal.Gen Idealize.ShloMosaic

variable {F : FTy → Type} [FloatOps F]

/-- Three columns [n, 1] of words joined along the columns. -/
def cat3 (a b c : (⟨S1000000x1, .i32⟩ : BufTy).Contents (Elt F)) : (⟨S1000000x3, .i32⟩ : BufTy).Contents (Elt F) :=
  concatenate S1000000x3 1 [⟨S1000000x1, a⟩, ⟨S1000000x1, b⟩, ⟨S1000000x1, c⟩] concatenates_S1000000x1_S1000000x1_S1000000x1_S1000000x3_d1

/-- Two columns [n, 1] of words joined along the columns. -/
def cat2 (a b : (⟨S1000000x1, .i32⟩ : BufTy).Contents (Elt F)) : (⟨S1000000x2, .i32⟩ : BufTy).Contents (Elt F) :=
  concatenate S1000000x2 1 [⟨S1000000x1, a⟩, ⟨S1000000x1, b⟩] concatenates_S1000000x1_S1000000x1_S1000000x2_d1

/-- Two blocks [n, 16] joined along the columns. -/
def cat16 (a b : (⟨S1000000x16, .f32⟩ : BufTy).Contents (Elt F)) : (⟨S1000000x32, .f32⟩ : BufTy).Contents (Elt F) :=
  concatenate S1000000x32 1 [⟨S1000000x16, a⟩, ⟨S1000000x16, b⟩] concatenates_S1000000x16_S1000000x16_S1000000x32_d1

end Cert.ReferenceIdeal.RefValue

end
-- ==== Proof.RefOps.lean ====
/- A TABLE read off the printed program, no argument: @main's 979 operations in the 15 printed windows, each outlined call's six operations listed at its site over the call's buffers. -/
import proofs.«135735_j20624432955487_2_alg».proof.Proof.RefCat
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- Window main_part0: operations 1 … 75 of 979. -/
abbrev ops0 : List (HloOp τ sig (Elt F)) :=
  [ nullary main_c (fun i => lit0 (S2.rowMajor i)),
    nullary main_c_0 (fun i => lit1 (S2.rowMajor i)),
    nullary main_c_1 (fun i => lit2 (S2.rowMajor i)),
    unary main_arg0 main_v0 ((extractStridedSlice S1000000x3 ![0, 0] · slices_S1000000x4_S1000000x3_0_0) : (⟨S1000000x4, .f32⟩ : BufTy).Contents (Elt F) → (⟨S1000000x3, .f32⟩ : BufTy).Contents (Elt F)),
    unary main_v0 main_v1 ((extractStridedSlice S1000000x1 ![0, 0] · slices_S1000000x3_S1000000x1_0_0) : (⟨S1000000x3, .f32⟩ : BufTy).Contents (Elt F) → (⟨S1000000x1, .f32⟩ : BufTy).Contents (Elt F)),
    reshape main_v1 main_v2 rfl shapeCasts_S1000000x1_S1000000,
    nullary main_cst (constant S_ .f32 0x3F800000#32),
    unary main_cst main_v3 (broadcastInDim S1000000 ![] bcast_S_S1000000 : (⟨S_, .f32⟩ : BufTy).Contents (Elt F) → (⟨S1000000, .f32⟩ : BufTy).Contents (Elt F)),
    binary main_v2 main_v3 main_v4 (addf : (⟨S1000000, .f32⟩ : BufTy).Contents (Elt F) → (⟨S1000000, .f32⟩ : BufTy).Contents (Elt F) → (⟨S1000000, .f32⟩ : BufTy).Contents (Elt F)),
    nullary main_cst_2 (constant S_ .f32 0x3F000000#32),
    unary main_cst_2 main_v5 (broadcastInDim S1000000 ![] bcast_S_S1000000 : (⟨S_, .f32⟩ : BufTy).Contents (Elt F) → (⟨S1000000, .f32⟩ : BufTy).Contents (Elt F)),
    binary main_v4 main_v5 main_v6 (mulf : (⟨S1000000, .f32⟩ : BufTy).Contents (Elt F) → (⟨S1000000, .f32⟩ : BufTy).Contents (Elt F) → (⟨S1000000, .f32⟩ : BufTy).Contents (Elt F)),
    nullary main_cst_3 (constant S_ .f32 0x42FE0000#32),
    unary main_cst_3 main_v7 (broadcastInDim S1000000 ![] bcast_S_S1000000 : (⟨S_, .f32⟩ : BufTy).Contents (Elt F) → (⟨S1000000, .f32⟩ : BufTy).Contents (Elt F)),
    binary main_v6 main_v7 main_v8 (mulf : (⟨S1000000, .f32⟩ : BufTy).Contents (Elt F) → (⟨S1000000, .f32⟩ : BufTy).Contents (Elt F) → (⟨S1000000, .f32⟩ : BufTy).Contents (Elt F)),
    unary main_v0 main_v9 ((extractStridedSlice S1000000x1 ![0, 1] · slices_S1000000x3_S1000000x1_0_1) : (⟨S1000000x3, .f32⟩ : BufTy).Contents (Elt F) → (⟨S1000000x1, .f32⟩ : BufTy).Contents (Elt F)),
    reshape main_v9 main_v10 rfl shapeCasts_S1000000x1_S1000000,
    nullary main_cst_4 (constant S_ .f32 0x3F800000#32),
    unary main_cst_4 main_v11 (broadcastInDim S1000000 ![] bcast_S_S1000000 : (⟨S_, .f32⟩ : BufTy).Contents (Elt F) → (⟨S1000000, .f32⟩ : BufTy).Contents (Elt F)),
    binary main_v10 main_v11 main_v12 (addf : (⟨S1000000, .f32⟩ : BufTy).Contents (Elt F) → (⟨S1000000, .f32⟩ : BufTy).Contents (Elt F) → (⟨S1000000, .f32⟩ : BufTy).Contents (Elt F)),
    nullary main_cst_5 (constant S_ .f32 0x3F000000#32),
    unary main_cst_5 main_v13 (broadcastInDim S1000000 ![] bcast_S_S1000000 : (⟨S_, .f32⟩ : BufTy).Contents (Elt F) → (⟨S1000000, .f32⟩ : BufTy).Contents (Elt F)),
    binary main_v12 main_v13 main_v14 (mulf : (⟨S1000000, .f32⟩ : BufTy).Contents (Elt F) → (⟨S1000000, .f32⟩ : BufTy).Contents (Elt F) → (⟨S1000000, .f32⟩ : BufTy).Contents (Elt F)),
    nullary main_cst_6 (constant S_ .f32 0x42FE0000#32),
    unary main_cst_6 main_v15 (broadcastInDim S1000000 ![] bcast_S_S1000000 : (⟨S_, .f32⟩ : BufTy).Contents (Elt F) → (⟨S1000000, .f32⟩ : BufTy).Contents (Elt F)),
    binary main_v14 main_v15 main_v16 (mulf : (⟨S1000000, .f32⟩ : BufTy).Contents (Elt F) → (⟨S1000000, .f32⟩ : BufTy).Contents (Elt F) → (⟨S1000000, .f32⟩ : BufTy).Contents (Elt F)),
    unary main_v0 main_v17 ((extractStridedSlice S1000000x1 ![0, 2] · slices_S1000000x3_S1000000x1_0_2) : (⟨S1000000x3, .f32⟩ : BufTy).Contents (Elt F) → (⟨S1000000x1, .f32⟩ : BufTy).Contents (Elt F)),
    reshape main_v17 main_v18 rfl shapeCasts_S1000000x1_S1000000,
    nullary main_cst_7 (constant S_ .f32 0x3F800000#32),
    unary main_cst_7 main_v19 (broadcastInDim S1000000 ![] bcast_S_S1000000 : (⟨S_, .f32⟩ : BufTy).Contents (Elt F) → (⟨S1000000, .f32⟩ : BufTy).Contents (Elt F)),
    binary main_v18 main_v19 main_v20 (addf : (⟨S1000000, .f32⟩ : BufTy).Contents (Elt F) → (⟨S1000000, .f32⟩ : BufTy).Contents (Elt F) → (⟨S1000000, .f32⟩ : BufTy).Contents (Elt F)),
    nullary main_cst_8 (constant S_ .f32 0x3F000000#32),
    unary main_cst_8 main_v21 (broadcastInDim S1000000 ![] bcast_S_S1000000 : (⟨S_, .f32⟩ : BufTy).Contents (Elt F) → (⟨S1000000, .f32⟩ : BufTy).Contents (Elt F)),
    binary main_v20 main_v21 main_v22 (mulf : (⟨S1000000, .f32⟩ : BufTy).Contents (Elt F) → (⟨S1000000, .f32⟩ : BufTy).Contents (Elt F) → (⟨S1000000, .f32⟩ : BufTy).Contents (Elt F)),
    nullary main_cst_9 (constant S_ .f32 0x42FE0000#32),
    unary main_cst_9 main_v23 (broadcastInDim S1000000 ![] bcast_S_S1000000 : (⟨S_, .f32⟩ : BufTy).Contents (Elt F) → (⟨S1000000, .f32⟩ : BufTy).Contents (Elt F)),
    binary main_v22 main_v23 main_v24 (mulf : (⟨S1000000, .f32⟩ : BufTy).Contents (Elt F) → (⟨S1000000, .f32⟩ : BufTy).Contents (Elt F) → (⟨S1000000, .f32⟩ : BufTy).Contents (Elt F)),
    unary main_v8 main_v25 (Host.floor : (⟨S1000000, .f32⟩ : BufTy).Contents (Elt F) → (⟨S1000000, .f32⟩ : BufTy).Contents (Elt F)),
    nullary main_c_10 (constantI S_ 32 0#32),
    nullary main_c_11 (constantI S_ 32 127#32),
    unary main_c_10 main_call0_v0 (sitofp .f32 : (⟨S_, .i32⟩ : BufTy).Contents (Elt F) → (⟨S_, .f32⟩ : BufTy).Contents (Elt F)),
    unary main_call0_v0 main_call0_v1 (broadcastInDim S1000000 ![] bcast_S_S1000000 : (⟨S_, .f32⟩ : BufTy).Contents (Elt F) → (⟨S1000000, .f32⟩ : BufTy).Contents (Elt F)),
    binary main_call0_v1 main_v25 main_call0_v2 (maximumf : (⟨S1000000, .f32⟩ : BufTy).Contents (Elt F) → (⟨S1000000, .f32⟩ : BufTy).Contents (Elt F) → (⟨S1000000, .f32⟩ : BufTy).Contents (Elt F)),
    unary main_c_11 main_call0_v3 (sitofp .f32 : (⟨S_, .i32⟩ : BufTy).Contents (Elt F) → (⟨S_, .f32⟩ : BufTy).Contents (Elt F)),
    unary main_call0_v3 main_call0_v4 (broadcastInDim S1000000 ![] bcast_S_S1000000 : (⟨S_, .f32⟩ : BufTy).Contents (Elt F) → (⟨S1000000, .f32⟩ : BufTy).Contents (Elt F)),
    binary main_call0_v4 main_call0_v2 main_v26 (minimumf : (⟨S1000000, .f32⟩ : BufTy).Contents (Elt F) → (⟨S1000000, .f32⟩ : BufTy).Contents (Elt F) → (⟨S1000000, .f32⟩ : BufTy).Contents (Elt F)),
    unary main_v26 main_v27 (fptosi 32 : (⟨S1000000, .f32⟩ : BufTy).Contents (Elt F) → (⟨S1000000, .i32⟩ : BufTy).Contents (Elt F)),
    nullary main_cst_12 (constant S_ .f32 0x3F800000#32),
    unary main_cst_12 main_v28 (broadcastInDim S1000000 ![] bcast_S_S1000000 : (⟨S_, .f32⟩ : BufTy).Contents (Elt F) → (⟨S1000000, .f32⟩ : BufTy).Contents (Elt F)),
    binary main_v25 main_v28 main_v29 (addf : (⟨S1000000, .f32⟩ : BufTy).Contents (Elt F) → (⟨S1000000, .f32⟩ : BufTy).Contents (Elt F) → (⟨S1000000, .f32⟩ : BufTy).Contents (Elt F)),
    nullary main_c_13 (constantI S_ 32 0#32),
    nullary main_c_14 (constantI S_ 32 127#32),
    unary main_c_13 main_call1_v0 (sitofp .f32 : (⟨S_, .i32⟩ : BufTy).Contents (Elt F) → (⟨S_, .f32⟩ : BufTy).Contents (Elt F)),
    unary main_call1_v0 main_call1_v1 (broadcastInDim S1000000 ![] bcast_S_S1000000 : (⟨S_, .f32⟩ : BufTy).Contents (Elt F) → (⟨S1000000, .f32⟩ : BufTy).Contents (Elt F)),
    binary main_call1_v1 main_v29 main_call1_v2 (maximumf : (⟨S1000000, .f32⟩ : BufTy).Contents (Elt F) → (⟨S1000000, .f32⟩ : BufTy).Contents (Elt F) → (⟨S1000000, .f32⟩ : BufTy).Contents (Elt F)),
    unary main_c_14 main_call1_v3 (sitofp .f32 : (⟨S_, .i32⟩ : BufTy).Contents (Elt F) → (⟨S_, .f32⟩ : BufTy).Contents (Elt F)),
    unary main_call1_v3 main_call1_v4 (broadcastInDim S1000000 ![] bcast_S_S1000000 : (⟨S_, .f32⟩ : BufTy).Contents (Elt F) → (⟨S1000000, .f32⟩ : BufTy).Contents (Elt F)),
    binary main_call1_v4 main_call1_v2 main_v30 (minimumf : (⟨S1000000, .f32⟩ : BufTy).Contents (Elt F) → (⟨S1000000, .f32⟩ : BufTy).Contents (Elt F) → (⟨S1000000, .f32⟩ : BufTy).Contents (Elt F)),
    unary main_v30 main_v31 (fptosi 32 : (⟨S1000000, .f32⟩ : BufTy).Contents (Elt F) → (⟨S1000000, .i32⟩ : BufTy).Contents (Elt F)),
    binary main_v8 main_v25 main_v32 (subf : (⟨S1000000, .f32⟩ : BufTy).Contents (Elt F) → (⟨S1000000, .f32⟩ : BufTy).Contents (Elt F) → (⟨S1000000, .f32⟩ : BufTy).Contents (Elt F)),
    unary main_v16 main_v33 (Host.floor : (⟨S1000000, .f32⟩ : BufTy).Contents (Elt F) → (⟨S1000000, .f32⟩ : BufTy).Contents (Elt F)),
    nullary main_c_15 (constantI S_ 32 0#32),
    nullary main_c_16 (constantI S_ 32 127#32),
    unary main_c_15 main_call2_v0 (sitofp .f32 : (⟨S_, .i32⟩ : BufTy).Contents (Elt F) → (⟨S_, .f32⟩ : BufTy).Contents (Elt F)),
    unary main_call2_v0 main_call2_v1 (broadcastInDim S1000000 ![] bcast_S_S1000000 : (⟨S_, .f32⟩ : BufTy).Contents (Elt F) → (⟨S1000000, .f32⟩ : BufTy).Contents (Elt F)),
    binary main_call2_v1 main_v33 main_call2_v2 (maximumf : (⟨S1000000, .f32⟩ : BufTy).Contents (Elt F) → (⟨S1000000, .f32⟩ : BufTy).Contents (Elt F) → (⟨S1000000, .f32⟩ : BufTy).Contents (Elt F)),
    unary main_c_16 main_call2_v3 (sitofp .f32 : (⟨S_, .i32⟩ : BufTy).Contents (Elt F) → (⟨S_, .f32⟩ : BufTy).Contents (Elt F)),
    unary main_call2_v3 main_call2_v4 (broadcastInDim S1000000 ![] bcast_S_S1000000 : (⟨S_, .f32⟩ : BufTy).Contents (Elt F) → (⟨S1000000, .f32⟩ : BufTy).Contents (Elt F)),
    binary main_call2_v4 main_call2_v2 main_v34 (minimumf : (⟨S1000000, .f32⟩ : BufTy).Contents (Elt F) → (⟨S1000000, .f32⟩ : BufTy).Contents (Elt F) → (⟨S1000000, .f32⟩ : BufTy).Contents (Elt F)),
    unary main_v34 main_v35 (fptosi 32 : (⟨S1000000, .f32⟩ : BufTy).Contents (Elt F) → (⟨S1000000, .i32⟩ : BufTy).Contents (Elt F)),
    nullary main_cst_17 (constant S_ .f32 0x3F800000#32),
    unary main_cst_17 main_v36 (broadcastInDim S1000000 ![] bcast_S_S1000000 : (⟨S_, .f32⟩ : BufTy).Contents (Elt F) → (⟨S1000000, .f32⟩ : BufTy).Contents (Elt F)),
    binary main_v33 main_v36 main_v37 (addf : (⟨S1000000, .f32⟩ : BufTy).Contents (Elt F) → (⟨S1000000, .f32⟩ : BufTy).Contents (Elt F) → (⟨S1000000, .f32⟩ : BufTy).Contents (Elt F)),
    nullary main_c_18 (constantI S_ 32 0#32),
    nullary main_c_19 (constantI S_ 32 127#32) ]

/-- Window main_part1: operations 76 … 150 of 979. -/
abbrev ops1 : List (HloOp τ sig (Elt F)) :=
  [ unary main_c_18 main_call3_v0 (sitofp .f32 : (⟨S_, .i32⟩ : BufTy).Contents (Elt F) → (⟨S_, .f32⟩ : BufTy).Contents (Elt F)),
    unary main_call3_v0 main_call3_v1 (broadcastInDim S1000000 ![] bcast_S_S1000000 : (⟨S_, .f32⟩ : BufTy).Contents (Elt F) → (⟨S1000000, .f32⟩ : BufTy).Contents (Elt F)),
    binary main_call3_v1 main_v37 main_call3_v2 (maximumf : (⟨S1000000, .f32⟩ : BufTy).Contents (Elt F) → (⟨S1000000, .f32⟩ : BufTy).Contents (Elt F) → (⟨S1000000, .f32⟩ : BufTy).Contents (Elt F)),
    unary main_c_19 main_call3_v3 (sitofp .f32 : (⟨S_, .i32⟩ : BufTy).Contents (Elt F) → (⟨S_, .f32⟩ : BufTy).Contents (Elt F)),
    unary main_call3_v3 main_call3_v4 (broadcastInDim S1000000 ![] bcast_S_S1000000 : (⟨S_, .f32⟩ : BufTy).Contents (Elt F) → (⟨S1000000, .f32⟩ : BufTy).Contents (Elt F)),
    binary main_call3_v4 main_call3_v2 main_v38 (minimumf : (⟨S1000000, .f32⟩ : BufTy).Contents (Elt F) → (⟨S1000000, .f32⟩ : BufTy).Contents (Elt F) → (⟨S1000000, .f32⟩ : BufTy).Contents (Elt F)),
    unary main_v38 main_v39 (fptosi 32 : (⟨S1000000, .f32⟩ : BufTy).Contents (Elt F) → (⟨S1000000, .i32⟩ : BufTy).Contents (Elt F)),
    binary main_v16 main_v33 main_v40 (subf : (⟨S1000000, .f32⟩ : BufTy).Contents (Elt F) → (⟨S1000000, .f32⟩ : BufTy).Contents (Elt F) → (⟨S1000000, .f32⟩ : BufTy).Contents (Elt F)),
    unary main_v24 main_v41 (Host.floor : (⟨S1000000, .f32⟩ : BufTy).Contents (Elt F) → (⟨S1000000, .f32⟩ : BufTy).Contents (Elt F)),
    nullary main_c_20 (constantI S_ 32 0#32),
    nullary main_c_21 (constantI S_ 32 127#32),
    unary main_c_20 main_call4_v0 (sitofp .f32 : (⟨S_, .i32⟩ : BufTy).Contents (Elt F) → (⟨S_, .f32⟩ : BufTy).Contents (Elt F)),
    unary main_call4_v0 main_call4_v1 (broadcastInDim S1000000 ![] bcast_S_S1000000 : (⟨S_, .f32⟩ : BufTy).Contents (Elt F) → (⟨S1000000, .f32⟩ : BufTy).Contents (Elt F)),
    binary main_call4_v1 main_v41 main_call4_v2 (maximumf : (⟨S1000000, .f32⟩ : BufTy).Contents (Elt F) → (⟨S1000000, .f32⟩ : BufTy).Contents (Elt F) → (⟨S1000000, .f32⟩ : BufTy).Contents (Elt F)),
    unary main_c_21 main_call4_v3 (sitofp .f32 : (⟨S_, .i32⟩ : BufTy).Contents (Elt F) → (⟨S_, .f32⟩ : BufTy).Contents (Elt F)),
    unary main_call4_v3 main_call4_v4 (broadcastInDim S1000000 ![] bcast_S_S1000000 : (⟨S_, .f32⟩ : BufTy).Contents (Elt F) → (⟨S1000000, .f32⟩ : BufTy).Contents (Elt F)),
    binary main_call4_v4 main_call4_v2 main_v42 (minimumf : (⟨S1000000, .f32⟩ : BufTy).Contents (Elt F) → (⟨S1000000, .f32⟩ : BufTy).Contents (Elt F) → (⟨S1000000, .f32⟩ : BufTy).Contents (Elt F)),
    unary main_v42 main_v43 (fptosi 32 : (⟨S1000000, .f32⟩ : BufTy).Contents (Elt F) → (⟨S1000000, .i32⟩ : BufTy).Contents (Elt F)),
    nullary main_cst_22 (constant S_ .f32 0x3F800000#32),
    unary main_cst_22 main_v44 (broadcastInDim S1000000 ![] bcast_S_S1000000 : (⟨S_, .f32⟩ : BufTy).Contents (Elt F) → (⟨S1000000, .f32⟩ : BufTy).Contents (Elt F)),
    binary main_v41 main_v44 main_v45 (addf : (⟨S1000000, .f32⟩ : BufTy).Contents (Elt F) → (⟨S1000000, .f32⟩ : BufTy).Contents (Elt F) → (⟨S1000000, .f32⟩ : BufTy).Contents (Elt F)),
    nullary main_c_23 (constantI S_ 32 0#32),
    nullary main_c_24 (constantI S_ 32 127#32),
    unary main_c_23 main_call5_v0 (sitofp .f32 : (⟨S_, .i32⟩ : BufTy).Contents (Elt F) → (⟨S_, .f32⟩ : BufTy).Contents (Elt F)),
    unary main_call5_v0 main_call5_v1 (broadcastInDim S1000000 ![] bcast_S_S1000000 : (⟨S_, .f32⟩ : BufTy).Contents (Elt F) → (⟨S1000000, .f32⟩ : BufTy).Contents (Elt F)),
    binary main_call5_v1 main_v45 main_call5_v2 (maximumf : (⟨S1000000, .f32⟩ : BufTy).Contents (Elt F) → (⟨S1000000, .f32⟩ : BufTy).Contents (Elt F) → (⟨S1000000, .f32⟩ : BufTy).Contents (Elt F)),
    unary main_c_24 main_call5_v3 (sitofp .f32 : (⟨S_, .i32⟩ : BufTy).Contents (Elt F) → (⟨S_, .f32⟩ : BufTy).Contents (Elt F)),
    unary main_call5_v3 main_call5_v4 (broadcastInDim S1000000 ![] bcast_S_S1000000 : (⟨S_, .f32⟩ : BufTy).Contents (Elt F) → (⟨S1000000, .f32⟩ : BufTy).Contents (Elt F)),
    binary main_call5_v4 main_call5_v2 main_v46 (minimumf : (⟨S1000000, .f32⟩ : BufTy).Contents (Elt F) → (⟨S1000000, .f32⟩ : BufTy).Contents (Elt F) → (⟨S1000000, .f32⟩ : BufTy).Contents (Elt F)),
    unary main_v46 main_v47 (fptosi 32 : (⟨S1000000, .f32⟩ : BufTy).Contents (Elt F) → (⟨S1000000, .i32⟩ : BufTy).Contents (Elt F)),
    binary main_v24 main_v41 main_v48 (subf : (⟨S1000000, .f32⟩ : BufTy).Contents (Elt F) → (⟨S1000000, .f32⟩ : BufTy).Contents (Elt F) → (⟨S1000000, .f32⟩ : BufTy).Contents (Elt F)),
    nullary main_cst_25 (constant S_ .f32 0x00000000#32),
    unary main_cst_25 main_v49 (broadcastInDim S16x1000000 ![] bcast_S_S16x1000000 : (⟨S_, .f32⟩ : BufTy).Contents (Elt F) → (⟨S16x1000000, .f32⟩ : BufTy).Contents (Elt F)),
    nullary main_cst_26 (constant S_ .f32 0x3F800000#32),
    unary main_cst_26 main_v50 (broadcastInDim S1000000 ![] bcast_S_S1000000 : (⟨S_, .f32⟩ : BufTy).Contents (Elt F) → (⟨S1000000, .f32⟩ : BufTy).Contents (Elt F)),
    binary main_v50 main_v48 main_v51 (subf : (⟨S1000000, .f32⟩ : BufTy).Contents (Elt F) → (⟨S1000000, .f32⟩ : BufTy).Contents (Elt F) → (⟨S1000000, .f32⟩ : BufTy).Contents (Elt F)),
    nullary main_cst_27 (constant S_ .f32 0x3F800000#32),
    unary main_cst_27 main_v52 (broadcastInDim S1000000 ![] bcast_S_S1000000 : (⟨S_, .f32⟩ : BufTy).Contents (Elt F) → (⟨S1000000, .f32⟩ : BufTy).Contents (Elt F)),
    binary main_v52 main_v40 main_v53 (subf : (⟨S1000000, .f32⟩ : BufTy).Contents (Elt F) → (⟨S1000000, .f32⟩ : BufTy).Contents (Elt F) → (⟨S1000000, .f32⟩ : BufTy).Contents (Elt F)),
    nullary main_cst_28 (constant S_ .f32 0x3F800000#32),
    unary main_cst_28 main_v54 (broadcastInDim S1000000 ![] bcast_S_S1000000 : (⟨S_, .f32⟩ : BufTy).Contents (Elt F) → (⟨S1000000, .f32⟩ : BufTy).Contents (Elt F)),
    binary main_v54 main_v32 main_v55 (subf : (⟨S1000000, .f32⟩ : BufTy).Contents (Elt F) → (⟨S1000000, .f32⟩ : BufTy).Contents (Elt F) → (⟨S1000000, .f32⟩ : BufTy).Contents (Elt F)),
    nullary main_c_29 (constantI S_ 32 0#32),
    unary main_c_29 main_v56 (broadcastInDim S1000000 ![] bcast_S_S1000000 : (⟨S_, .i32⟩ : BufTy).Contents (Elt F) → (⟨S1000000, .i32⟩ : BufTy).Contents (Elt F)),
    binary main_v43 main_v56 main_v57 (cmpi .slt : (⟨S1000000, .i32⟩ : BufTy).Contents (Elt F) → (⟨S1000000, .i32⟩ : BufTy).Contents (Elt F) → (⟨S1000000, .i1⟩ : BufTy).Contents (Elt F)),
    nullary main_c_30 (constantI S_ 32 128#32),
    unary main_c_30 main_v58 (broadcastInDim S1000000 ![] bcast_S_S1000000 : (⟨S_, .i32⟩ : BufTy).Contents (Elt F) → (⟨S1000000, .i32⟩ : BufTy).Contents (Elt F)),
    binary main_v43 main_v58 main_v59 (addi : (⟨S1000000, .i32⟩ : BufTy).Contents (Elt F) → (⟨S1000000, .i32⟩ : BufTy).Contents (Elt F) → (⟨S1000000, .i32⟩ : BufTy).Contents (Elt F)),
    ternary main_v57 main_v59 main_v43 main_v60 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    nullary main_c_31 (constantI S_ 32 0#32),
    unary main_c_31 main_v61 (broadcastInDim S1000000 ![] bcast_S_S1000000 : (⟨S_, .i32⟩ : BufTy).Contents (Elt F) → (⟨S1000000, .i32⟩ : BufTy).Contents (Elt F)),
    binary main_v35 main_v61 main_v62 (cmpi .slt : (⟨S1000000, .i32⟩ : BufTy).Contents (Elt F) → (⟨S1000000, .i32⟩ : BufTy).Contents (Elt F) → (⟨S1000000, .i1⟩ : BufTy).Contents (Elt F)),
    nullary main_c_32 (constantI S_ 32 128#32),
    unary main_c_32 main_v63 (broadcastInDim S1000000 ![] bcast_S_S1000000 : (⟨S_, .i32⟩ : BufTy).Contents (Elt F) → (⟨S1000000, .i32⟩ : BufTy).Contents (Elt F)),
    binary main_v35 main_v63 main_v64 (addi : (⟨S1000000, .i32⟩ : BufTy).Contents (Elt F) → (⟨S1000000, .i32⟩ : BufTy).Contents (Elt F) → (⟨S1000000, .i32⟩ : BufTy).Contents (Elt F)),
    ternary main_v62 main_v64 main_v35 main_v65 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    nullary main_c_33 (constantI S_ 32 0#32),
    unary main_c_33 main_v66 (broadcastInDim S1000000 ![] bcast_S_S1000000 : (⟨S_, .i32⟩ : BufTy).Contents (Elt F) → (⟨S1000000, .i32⟩ : BufTy).Contents (Elt F)),
    binary main_v27 main_v66 main_v67 (cmpi .slt : (⟨S1000000, .i32⟩ : BufTy).Contents (Elt F) → (⟨S1000000, .i32⟩ : BufTy).Contents (Elt F) → (⟨S1000000, .i1⟩ : BufTy).Contents (Elt F)),
    nullary main_c_34 (constantI S_ 32 128#32),
    unary main_c_34 main_v68 (broadcastInDim S1000000 ![] bcast_S_S1000000 : (⟨S_, .i32⟩ : BufTy).Contents (Elt F) → (⟨S1000000, .i32⟩ : BufTy).Contents (Elt F)),
    binary main_v27 main_v68 main_v69 (addi : (⟨S1000000, .i32⟩ : BufTy).Contents (Elt F) → (⟨S1000000, .i32⟩ : BufTy).Contents (Elt F) → (⟨S1000000, .i32⟩ : BufTy).Contents (Elt F)),
    ternary main_v67 main_v69 main_v27 main_v70 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v60 main_v71 (broadcastInDim S1000000x1 ![0] bcast_S1000000_S1000000x1_0 : (⟨S1000000, .i32⟩ : BufTy).Contents (Elt F) → (⟨S1000000x1, .i32⟩ : BufTy).Contents (Elt F)),
    unary main_v65 main_v72 (broadcastInDim S1000000x1 ![0] bcast_S1000000_S1000000x1_0 : (⟨S1000000, .i32⟩ : BufTy).Contents (Elt F) → (⟨S1000000x1, .i32⟩ : BufTy).Contents (Elt F)),
    unary main_v70 main_v73 (broadcastInDim S1000000x1 ![0] bcast_S1000000_S1000000x1_0 : (⟨S1000000, .i32⟩ : BufTy).Contents (Elt F) → (⟨S1000000x1, .i32⟩ : BufTy).Contents (Elt F)),
    nary ![main_v71, main_v72, main_v73] main_v74 (fun u => cat3 (F := F) (u 0) (u 1) (u 2)),
    binary main_arg1 main_v74 main_v75 ((fun x i => Host.gather gather_S16x128x128x128_S1000000x3_S16x1000000_0_123_n_n_123_1_16111 x i) : (⟨S16x128x128x128, .f32⟩ : BufTy).Contents (Elt F) → (⟨S1000000x3, .i32⟩ : BufTy).Contents (Elt F) → (⟨S16x1000000, .f32⟩ : BufTy).Contents (Elt F)),
    binary main_v51 main_v53 main_v76 (mulf : (⟨S1000000, .f32⟩ : BufTy).Contents (Elt F) → (⟨S1000000, .f32⟩ : BufTy).Contents (Elt F) → (⟨S1000000, .f32⟩ : BufTy).Contents (Elt F)),
    binary main_v76 main_v55 main_v77 (mulf : (⟨S1000000, .f32⟩ : BufTy).Contents (Elt F) → (⟨S1000000, .f32⟩ : BufTy).Contents (Elt F) → (⟨S1000000, .f32⟩ : BufTy).Contents (Elt F)),
    unary main_v77 main_v78 (broadcastInDim S1x1000000 ![1] bcast_S1000000_S1x1000000_1 : (⟨S1000000, .f32⟩ : BufTy).Contents (Elt F) → (⟨S1x1000000, .f32⟩ : BufTy).Contents (Elt F)),
    unary main_v78 main_v79 (broadcastInDim S16x1000000 ![0, 1] bcast_S1x1000000_S16x1000000_0_1 : (⟨S1x1000000, .f32⟩ : BufTy).Contents (Elt F) → (⟨S16x1000000, .f32⟩ : BufTy).Contents (Elt F)),
    binary main_v75 main_v79 main_v80 (mulf : (⟨S16x1000000, .f32⟩ : BufTy).Contents (Elt F) → (⟨S16x1000000, .f32⟩ : BufTy).Contents (Elt F) → (⟨S16x1000000, .f32⟩ : BufTy).Contents (Elt F)),
    binary main_v49 main_v80 main_v81 (addf : (⟨S16x1000000, .f32⟩ : BufTy).Contents (Elt F) → (⟨S16x1000000, .f32⟩ : BufTy).Contents (Elt F) → (⟨S16x1000000, .f32⟩ : BufTy).Contents (Elt F)),
    nullary main_c_35 (constantI S_ 32 0#32) ]

/-- Window main_part2: operations 151 … 210 of 979. -/
abbrev ops2 : List (HloOp τ sig (Elt F)) :=
  [ unary main_c_35 main_v82 (broadcastInDim S1000000 ![] bcast_S_S1000000 : (⟨S_, .i32⟩ : BufTy).Contents (Elt F) → (⟨S1000000, .i32⟩ : BufTy).Contents (Elt F)),
    binary main_v43 main_v82 main_v83 (cmpi .slt : (⟨S1000000, .i32⟩ : BufTy).Contents (Elt F) → (⟨S1000000, .i32⟩ : BufTy).Contents (Elt F) → (⟨S1000000, .i1⟩ : BufTy).Contents (Elt F)),
    nullary main_c_36 (constantI S_ 32 128#32),
    unary main_c_36 main_v84 (broadcastInDim S1000000 ![] bcast_S_S1000000 : (⟨S_, .i32⟩ : BufTy).Contents (Elt F) → (⟨S1000000, .i32⟩ : BufTy).Contents (Elt F)),
    binary main_v43 main_v84 main_v85 (addi : (⟨S1000000, .i32⟩ : BufTy).Contents (Elt F) → (⟨S1000000, .i32⟩ : BufTy).Contents (Elt F) → (⟨S1000000, .i32⟩ : BufTy).Contents (Elt F)),
    ternary main_v83 main_v85 main_v43 main_v86 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    nullary main_c_37 (constantI S_ 32 0#32),
    unary main_c_37 main_v87 (broadcastInDim S1000000 ![] bcast_S_S1000000 : (⟨S_, .i32⟩ : BufTy).Contents (Elt F) → (⟨S1000000, .i32⟩ : BufTy).Contents (Elt F)),
    binary main_v35 main_v87 main_v88 (cmpi .slt : (⟨S1000000, .i32⟩ : BufTy).Contents (Elt F) → (⟨S1000000, .i32⟩ : BufTy).Contents (Elt F) → (⟨S1000000, .i1⟩ : BufTy).Contents (Elt F)),
    nullary main_c_38 (constantI S_ 32 128#32),
    unary main_c_38 main_v89 (broadcastInDim S1000000 ![] bcast_S_S1000000 : (⟨S_, .i32⟩ : BufTy).Contents (Elt F) → (⟨S1000000, .i32⟩ : BufTy).Contents (Elt F)),
    binary main_v35 main_v89 main_v90 (addi : (⟨S1000000, .i32⟩ : BufTy).Contents (Elt F) → (⟨S1000000, .i32⟩ : BufTy).Contents (Elt F) → (⟨S1000000, .i32⟩ : BufTy).Contents (Elt F)),
    ternary main_v88 main_v90 main_v35 main_v91 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    nullary main_c_39 (constantI S_ 32 0#32),
    unary main_c_39 main_v92 (broadcastInDim S1000000 ![] bcast_S_S1000000 : (⟨S_, .i32⟩ : BufTy).Contents (Elt F) → (⟨S1000000, .i32⟩ : BufTy).Contents (Elt F)),
    binary main_v31 main_v92 main_v93 (cmpi .slt : (⟨S1000000, .i32⟩ : BufTy).Contents (Elt F) → (⟨S1000000, .i32⟩ : BufTy).Contents (Elt F) → (⟨S1000000, .i1⟩ : BufTy).Contents (Elt F)),
    nullary main_c_40 (constantI S_ 32 128#32),
    unary main_c_40 main_v94 (broadcastInDim S1000000 ![] bcast_S_S1000000 : (⟨S_, .i32⟩ : BufTy).Contents (Elt F) → (⟨S1000000, .i32⟩ : BufTy).Contents (Elt F)),
    binary main_v31 main_v94 main_v95 (addi : (⟨S1000000, .i32⟩ : BufTy).Contents (Elt F) → (⟨S1000000, .i32⟩ : BufTy).Contents (Elt F) → (⟨S1000000, .i32⟩ : BufTy).Contents (Elt F)),
    ternary main_v93 main_v95 main_v31 main_v96 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v86 main_v97 (broadcastInDim S1000000x1 ![0] bcast_S1000000_S1000000x1_0 : (⟨S1000000, .i32⟩ : BufTy).Contents (Elt F) → (⟨S1000000x1, .i32⟩ : BufTy).Contents (Elt F)),
    unary main_v91 main_v98 (broadcastInDim S1000000x1 ![0] bcast_S1000000_S1000000x1_0 : (⟨S1000000, .i32⟩ : BufTy).Contents (Elt F) → (⟨S1000000x1, .i32⟩ : BufTy).Contents (Elt F)),
    unary main_v96 main_v99 (broadcastInDim S1000000x1 ![0] bcast_S1000000_S1000000x1_0 : (⟨S1000000, .i32⟩ : BufTy).Contents (Elt F) → (⟨S1000000x1, .i32⟩ : BufTy).Contents (Elt F)),
    nary ![main_v97, main_v98, main_v99] main_v100 (fun u => cat3 (F := F) (u 0) (u 1) (u 2)),
    binary main_arg1 main_v100 main_v101 ((fun x i => Host.gather gather_S16x128x128x128_S1000000x3_S16x1000000_0_123_n_n_123_1_16111 x i) : (⟨S16x128x128x128, .f32⟩ : BufTy).Contents (Elt F) → (⟨S1000000x3, .i32⟩ : BufTy).Contents (Elt F) → (⟨S16x1000000, .f32⟩ : BufTy).Contents (Elt F)),
    binary main_v51 main_v53 main_v102 (mulf : (⟨S1000000, .f32⟩ : BufTy).Contents (Elt F) → (⟨S1000000, .f32⟩ : BufTy).Contents (Elt F) → (⟨S1000000, .f32⟩ : BufTy).Contents (Elt F)),
    binary main_v102 main_v32 main_v103 (mulf : (⟨S1000000, .f32⟩ : BufTy).Contents (Elt F) → (⟨S1000000, .f32⟩ : BufTy).Contents (Elt F) → (⟨S1000000, .f32⟩ : BufTy).Contents (Elt F)),
    unary main_v103 main_v104 (broadcastInDim S1x1000000 ![1] bcast_S1000000_S1x1000000_1 : (⟨S1000000, .f32⟩ : BufTy).Contents (Elt F) → (⟨S1x1000000, .f32⟩ : BufTy).Contents (Elt F)),
    unary main_v104 main_v105 (broadcastInDim S16x1000000 ![0, 1] bcast_S1x1000000_S16x1000000_0_1 : (⟨S1x1000000, .f32⟩ : BufTy).Contents (Elt F) → (⟨S16x1000000, .f32⟩ : BufTy).Contents (Elt F)),
    binary main_v101 main_v105 main_v106 (mulf : (⟨S16x1000000, .f32⟩ : BufTy).Contents (Elt F) → (⟨S16x1000000, .f32⟩ : BufTy).Contents (Elt F) → (⟨S16x1000000, .f32⟩ : BufTy).Contents (Elt F)),
    binary main_v81 main_v106 main_v107 (addf : (⟨S16x1000000, .f32⟩ : BufTy).Contents (Elt F) → (⟨S16x1000000, .f32⟩ : BufTy).Contents (Elt F) → (⟨S16x1000000, .f32⟩ : BufTy).Contents (Elt F)),
    nullary main_cst_41 (constant S_ .f32 0x3F800000#32),
    unary main_cst_41 main_v108 (broadcastInDim S1000000 ![] bcast_S_S1000000 : (⟨S_, .f32⟩ : BufTy).Contents (Elt F) → (⟨S1000000, .f32⟩ : BufTy).Contents (Elt F)),
    binary main_v108 main_v32 main_v109 (subf : (⟨S1000000, .f32⟩ : BufTy).Contents (Elt F) → (⟨S1000000, .f32⟩ : BufTy).Contents (Elt F) → (⟨S1000000, .f32⟩ : BufTy).Contents (Elt F)),
    nullary main_c_42 (constantI S_ 32 0#32),
    unary main_c_42 main_v110 (broadcastInDim S1000000 ![] bcast_S_S1000000 : (⟨S_, .i32⟩ : BufTy).Contents (Elt F) → (⟨S1000000, .i32⟩ : BufTy).Contents (Elt F)),
    binary main_v43 main_v110 main_v111 (cmpi .slt : (⟨S1000000, .i32⟩ : BufTy).Contents (Elt F) → (⟨S1000000, .i32⟩ : BufTy).Contents (Elt F) → (⟨S1000000, .i1⟩ : BufTy).Contents (Elt F)),
    nullary main_c_43 (constantI S_ 32 128#32),
    unary main_c_43 main_v112 (broadcastInDim S1000000 ![] bcast_S_S1000000 : (⟨S_, .i32⟩ : BufTy).Contents (Elt F) → (⟨S1000000, .i32⟩ : BufTy).Contents (Elt F)),
    binary main_v43 main_v112 main_v113 (addi : (⟨S1000000, .i32⟩ : BufTy).Contents (Elt F) → (⟨S1000000, .i32⟩ : BufTy).Contents (Elt F) → (⟨S1000000, .i32⟩ : BufTy).Contents (Elt F)),
    ternary main_v111 main_v113 main_v43 main_v114 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    nullary main_c_44 (constantI S_ 32 0#32),
    unary main_c_44 main_v115 (broadcastInDim S1000000 ![] bcast_S_S1000000 : (⟨S_, .i32⟩ : BufTy).Contents (Elt F) → (⟨S1000000, .i32⟩ : BufTy).Contents (Elt F)),
    binary main_v39 main_v115 main_v116 (cmpi .slt : (⟨S1000000, .i32⟩ : BufTy).Contents (Elt F) → (⟨S1000000, .i32⟩ : BufTy).Contents (Elt F) → (⟨S1000000, .i1⟩ : BufTy).Contents (Elt F)),
    nullary main_c_45 (constantI S_ 32 128#32),
    unary main_c_45 main_v117 (broadcastInDim S1000000 ![] bcast_S_S1000000 : (⟨S_, .i32⟩ : BufTy).Contents (Elt F) → (⟨S1000000, .i32⟩ : BufTy).Contents (Elt F)),
    binary main_v39 main_v117 main_v118 (addi : (⟨S1000000, .i32⟩ : BufTy).Contents (Elt F) → (⟨S1000000, .i32⟩ : BufTy).Contents (Elt F) → (⟨S1000000, .i32⟩ : BufTy).Contents (Elt F)),
    ternary main_v116 main_v118 main_v39 main_v119 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    nullary main_c_46 (constantI S_ 32 0#32),
    unary main_c_46 main_v120 (broadcastInDim S1000000 ![] bcast_S_S1000000 : (⟨S_, .i32⟩ : BufTy).Contents (Elt F) → (⟨S1000000, .i32⟩ : BufTy).Contents (Elt F)),
    binary main_v27 main_v120 main_v121 (cmpi .slt : (⟨S1000000, .i32⟩ : BufTy).Contents (Elt F) → (⟨S1000000, .i32⟩ : BufTy).Contents (Elt F) → (⟨S1000000, .i1⟩ : BufTy).Contents (Elt F)),
    nullary main_c_47 (constantI S_ 32 128#32),
    unary main_c_47 main_v122 (broadcastInDim S1000000 ![] bcast_S_S1000000 : (⟨S_, .i32⟩ : BufTy).Contents (Elt F) → (⟨S1000000, .i32⟩ : BufTy).Contents (Elt F)),
    binary main_v27 main_v122 main_v123 (addi : (⟨S1000000, .i32⟩ : BufTy).Contents (Elt F) → (⟨S1000000, .i32⟩ : BufTy).Contents (Elt F) → (⟨S1000000, .i32⟩ : BufTy).Contents (Elt F)),
    ternary main_v121 main_v123 main_v27 main_v124 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v114 main_v125 (broadcastInDim S1000000x1 ![0] bcast_S1000000_S1000000x1_0 : (⟨S1000000, .i32⟩ : BufTy).Contents (Elt F) → (⟨S1000000x1, .i32⟩ : BufTy).Contents (Elt F)),
    unary main_v119 main_v126 (broadcastInDim S1000000x1 ![0] bcast_S1000000_S1000000x1_0 : (⟨S1000000, .i32⟩ : BufTy).Contents (Elt F) → (⟨S1000000x1, .i32⟩ : BufTy).Contents (Elt F)),
    unary main_v124 main_v127 (broadcastInDim S1000000x1 ![0] bcast_S1000000_S1000000x1_0 : (⟨S1000000, .i32⟩ : BufTy).Contents (Elt F) → (⟨S1000000x1, .i32⟩ : BufTy).Contents (Elt F)),
    nary ![main_v125, main_v126, main_v127] main_v128 (fun u => cat3 (F := F) (u 0) (u 1) (u 2)),
    binary main_arg1 main_v128 main_v129 ((fun x i => Host.gather gather_S16x128x128x128_S1000000x3_S16x1000000_0_123_n_n_123_1_16111 x i) : (⟨S16x128x128x128, .f32⟩ : BufTy).Contents (Elt F) → (⟨S1000000x3, .i32⟩ : BufTy).Contents (Elt F) → (⟨S16x1000000, .f32⟩ : BufTy).Contents (Elt F)) ]

/-- Window main_part3: operations 211 … 270 of 979. -/
abbrev ops3 : List (HloOp τ sig (Elt F)) :=
  [ binary main_v51 main_v40 main_v130 (mulf : (⟨S1000000, .f32⟩ : BufTy).Contents (Elt F) → (⟨S1000000, .f32⟩ : BufTy).Contents (Elt F) → (⟨S1000000, .f32⟩ : BufTy).Contents (Elt F)),
    binary main_v130 main_v109 main_v131 (mulf : (⟨S1000000, .f32⟩ : BufTy).Contents (Elt F) → (⟨S1000000, .f32⟩ : BufTy).Contents (Elt F) → (⟨S1000000, .f32⟩ : BufTy).Contents (Elt F)),
    unary main_v131 main_v132 (broadcastInDim S1x1000000 ![1] bcast_S1000000_S1x1000000_1 : (⟨S1000000, .f32⟩ : BufTy).Contents (Elt F) → (⟨S1x1000000, .f32⟩ : BufTy).Contents (Elt F)),
    unary main_v132 main_v133 (broadcastInDim S16x1000000 ![0, 1] bcast_S1x1000000_S16x1000000_0_1 : (⟨S1x1000000, .f32⟩ : BufTy).Contents (Elt F) → (⟨S16x1000000, .f32⟩ : BufTy).Contents (Elt F)),
    binary main_v129 main_v133 main_v134 (mulf : (⟨S16x1000000, .f32⟩ : BufTy).Contents (Elt F) → (⟨S16x1000000, .f32⟩ : BufTy).Contents (Elt F) → (⟨S16x1000000, .f32⟩ : BufTy).Contents (Elt F)),
    binary main_v107 main_v134 main_v135 (addf : (⟨S16x1000000, .f32⟩ : BufTy).Contents (Elt F) → (⟨S16x1000000, .f32⟩ : BufTy).Contents (Elt F) → (⟨S16x1000000, .f32⟩ : BufTy).Contents (Elt F)),
    nullary main_c_48 (constantI S_ 32 0#32),
    unary main_c_48 main_v136 (broadcastInDim S1000000 ![] bcast_S_S1000000 : (⟨S_, .i32⟩ : BufTy).Contents (Elt F) → (⟨S1000000, .i32⟩ : BufTy).Contents (Elt F)),
    binary main_v43 main_v136 main_v137 (cmpi .slt : (⟨S1000000, .i32⟩ : BufTy).Contents (Elt F) → (⟨S1000000, .i32⟩ : BufTy).Contents (Elt F) → (⟨S1000000, .i1⟩ : BufTy).Contents (Elt F)),
    nullary main_c_49 (constantI S_ 32 128#32),
    unary main_c_49 main_v138 (broadcastInDim S1000000 ![] bcast_S_S1000000 : (⟨S_, .i32⟩ : BufTy).Contents (Elt F) → (⟨S1000000, .i32⟩ : BufTy).Contents (Elt F)),
    binary main_v43 main_v138 main_v139 (addi : (⟨S1000000, .i32⟩ : BufTy).Contents (Elt F) → (⟨S1000000, .i32⟩ : BufTy).Contents (Elt F) → (⟨S1000000, .i32⟩ : BufTy).Contents (Elt F)),
    ternary main_v137 main_v139 main_v43 main_v140 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    nullary main_c_50 (constantI S_ 32 0#32),
    unary main_c_50 main_v141 (broadcastInDim S1000000 ![] bcast_S_S1000000 : (⟨S_, .i32⟩ : BufTy).Contents (Elt F) → (⟨S1000000, .i32⟩ : BufTy).Contents (Elt F)),
    binary main_v39 main_v141 main_v142 (cmpi .slt : (⟨S1000000, .i32⟩ : BufTy).Contents (Elt F) → (⟨S1000000, .i32⟩ : BufTy).Contents (Elt F) → (⟨S1000000, .i1⟩ : BufTy).Contents (Elt F)),
    nullary main_c_51 (constantI S_ 32 128#32),
    unary main_c_51 main_v143 (broadcastInDim S1000000 ![] bcast_S_S1000000 : (⟨S_, .i32⟩ : BufTy).Contents (Elt F) → (⟨S1000000, .i32⟩ : BufTy).Contents (Elt F)),
    binary main_v39 main_v143 main_v144 (addi : (⟨S1000000, .i32⟩ : BufTy).Contents (Elt F) → (⟨S1000000, .i32⟩ : BufTy).Contents (Elt F) → (⟨S1000000, .i32⟩ : BufTy).Contents (Elt F)),
    ternary main_v142 main_v144 main_v39 main_v145 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    nullary main_c_52 (constantI S_ 32 0#32),
    unary main_c_52 main_v146 (broadcastInDim S1000000 ![] bcast_S_S1000000 : (⟨S_, .i32⟩ : BufTy).Contents (Elt F) → (⟨S1000000, .i32⟩ : BufTy).Contents (Elt F)),
    binary main_v31 main_v146 main_v147 (cmpi .slt : (⟨S1000000, .i32⟩ : BufTy).Contents (Elt F) → (⟨S1000000, .i32⟩ : BufTy).Contents (Elt F) → (⟨S1000000, .i1⟩ : BufTy).Contents (Elt F)),
    nullary main_c_53 (constantI S_ 32 128#32),
    unary main_c_53 main_v148 (broadcastInDim S1000000 ![] bcast_S_S1000000 : (⟨S_, .i32⟩ : BufTy).Contents (Elt F) → (⟨S1000000, .i32⟩ : BufTy).Contents (Elt F)),
    binary main_v31 main_v148 main_v149 (addi : (⟨S1000000, .i32⟩ : BufTy).Contents (Elt F) → (⟨S1000000, .i32⟩ : BufTy).Contents (Elt F) → (⟨S1000000, .i32⟩ : BufTy).Contents (Elt F)),
    ternary main_v147 main_v149 main_v31 main_v150 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v140 main_v151 (broadcastInDim S1000000x1 ![0] bcast_S1000000_S1000000x1_0 : (⟨S1000000, .i32⟩ : BufTy).Contents (Elt F) → (⟨S1000000x1, .i32⟩ : BufTy).Contents (Elt F)),
    unary main_v145 main_v152 (broadcastInDim S1000000x1 ![0] bcast_S1000000_S1000000x1_0 : (⟨S1000000, .i32⟩ : BufTy).Contents (Elt F) → (⟨S1000000x1, .i32⟩ : BufTy).Contents (Elt F)),
    unary main_v150 main_v153 (broadcastInDim S1000000x1 ![0] bcast_S1000000_S1000000x1_0 : (⟨S1000000, .i32⟩ : BufTy).Contents (Elt F) → (⟨S1000000x1, .i32⟩ : BufTy).Contents (Elt F)),
    nary ![main_v151, main_v152, main_v153] main_v154 (fun u => cat3 (F := F) (u 0) (u 1) (u 2)),
    binary main_arg1 main_v154 main_v155 ((fun x i => Host.gather gather_S16x128x128x128_S1000000x3_S16x1000000_0_123_n_n_123_1_16111 x i) : (⟨S16x128x128x128, .f32⟩ : BufTy).Contents (Elt F) → (⟨S1000000x3, .i32⟩ : BufTy).Contents (Elt F) → (⟨S16x1000000, .f32⟩ : BufTy).Contents (Elt F)),
    binary main_v51 main_v40 main_v156 (mulf : (⟨S1000000, .f32⟩ : BufTy).Contents (Elt F) → (⟨S1000000, .f32⟩ : BufTy).Contents (Elt F) → (⟨S1000000, .f32⟩ : BufTy).Contents (Elt F)),
    binary main_v156 main_v32 main_v157 (mulf : (⟨S1000000, .f32⟩ : BufTy).Contents (Elt F) → (⟨S1000000, .f32⟩ : BufTy).Contents (Elt F) → (⟨S1000000, .f32⟩ : BufTy).Contents (Elt F)),
    unary main_v157 main_v158 (broadcastInDim S1x1000000 ![1] bcast_S1000000_S1x1000000_1 : (⟨S1000000, .f32⟩ : BufTy).Contents (Elt F) → (⟨S1x1000000, .f32⟩ : BufTy).Contents (Elt F)),
    unary main_v158 main_v159 (broadcastInDim S16x1000000 ![0, 1] bcast_S1x1000000_S16x1000000_0_1 : (⟨S1x1000000, .f32⟩ : BufTy).Contents (Elt F) → (⟨S16x1000000, .f32⟩ : BufTy).Contents (Elt F)),
    binary main_v155 main_v159 main_v160 (mulf : (⟨S16x1000000, .f32⟩ : BufTy).Contents (Elt F) → (⟨S16x1000000, .f32⟩ : BufTy).Contents (Elt F) → (⟨S16x1000000, .f32⟩ : BufTy).Contents (Elt F)),
    binary main_v135 main_v160 main_v161 (addf : (⟨S16x1000000, .f32⟩ : BufTy).Contents (Elt F) → (⟨S16x1000000, .f32⟩ : BufTy).Contents (Elt F) → (⟨S16x1000000, .f32⟩ : BufTy).Contents (Elt F)),
    nullary main_cst_54 (constant S_ .f32 0x3F800000#32),
    unary main_cst_54 main_v162 (broadcastInDim S1000000 ![] bcast_S_S1000000 : (⟨S_, .f32⟩ : BufTy).Contents (Elt F) → (⟨S1000000, .f32⟩ : BufTy).Contents (Elt F)),
    binary main_v162 main_v40 main_v163 (subf : (⟨S1000000, .f32⟩ : BufTy).Contents (Elt F) → (⟨S1000000, .f32⟩ : BufTy).Contents (Elt F) → (⟨S1000000, .f32⟩ : BufTy).Contents (Elt F)),
    nullary main_cst_55 (constant S_ .f32 0x3F800000#32),
    unary main_cst_55 main_v164 (broadcastInDim S1000000 ![] bcast_S_S1000000 : (⟨S_, .f32⟩ : BufTy).Contents (Elt F) → (⟨S1000000, .f32⟩ : BufTy).Contents (Elt F)),
    binary main_v164 main_v32 main_v165 (subf : (⟨S1000000, .f32⟩ : BufTy).Contents (Elt F) → (⟨S1000000, .f32⟩ : BufTy).Contents (Elt F) → (⟨S1000000, .f32⟩ : BufTy).Contents (Elt F)),
    nullary main_c_56 (constantI S_ 32 0#32),
    unary main_c_56 main_v166 (broadcastInDim S1000000 ![] bcast_S_S1000000 : (⟨S_, .i32⟩ : BufTy).Contents (Elt F) → (⟨S1000000, .i32⟩ : BufTy).Contents (Elt F)),
    binary main_v47 main_v166 main_v167 (cmpi .slt : (⟨S1000000, .i32⟩ : BufTy).Contents (Elt F) → (⟨S1000000, .i32⟩ : BufTy).Contents (Elt F) → (⟨S1000000, .i1⟩ : BufTy).Contents (Elt F)),
    nullary main_c_57 (constantI S_ 32 128#32),
    unary main_c_57 main_v168 (broadcastInDim S1000000 ![] bcast_S_S1000000 : (⟨S_, .i32⟩ : BufTy).Contents (Elt F) → (⟨S1000000, .i32⟩ : BufTy).Contents (Elt F)),
    binary main_v47 main_v168 main_v169 (addi : (⟨S1000000, .i32⟩ : BufTy).Contents (Elt F) → (⟨S1000000, .i32⟩ : BufTy).Contents (Elt F) → (⟨S1000000, .i32⟩ : BufTy).Contents (Elt F)),
    ternary main_v167 main_v169 main_v47 main_v170 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    nullary main_c_58 (constantI S_ 32 0#32),
    unary main_c_58 main_v171 (broadcastInDim S1000000 ![] bcast_S_S1000000 : (⟨S_, .i32⟩ : BufTy).Contents (Elt F) → (⟨S1000000, .i32⟩ : BufTy).Contents (Elt F)),
    binary main_v35 main_v171 main_v172 (cmpi .slt : (⟨S1000000, .i32⟩ : BufTy).Contents (Elt F) → (⟨S1000000, .i32⟩ : BufTy).Contents (Elt F) → (⟨S1000000, .i1⟩ : BufTy).Contents (Elt F)),
    nullary main_c_59 (constantI S_ 32 128#32),
    unary main_c_59 main_v173 (broadcastInDim S1000000 ![] bcast_S_S1000000 : (⟨S_, .i32⟩ : BufTy).Contents (Elt F) → (⟨S1000000, .i32⟩ : BufTy).Contents (Elt F)),
    binary main_v35 main_v173 main_v174 (addi : (⟨S1000000, .i32⟩ : BufTy).Contents (Elt F) → (⟨S1000000, .i32⟩ : BufTy).Contents (Elt F) → (⟨S1000000, .i32⟩ : BufTy).Contents (Elt F)),
    ternary main_v172 main_v174 main_v35 main_v175 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    nullary main_c_60 (constantI S_ 32 0#32),
    unary main_c_60 main_v176 (broadcastInDim S1000000 ![] bcast_S_S1000000 : (⟨S_, .i32⟩ : BufTy).Contents (Elt F) → (⟨S1000000, .i32⟩ : BufTy).Contents (Elt F)) ]

/-- Window main_part4: operations 271 … 330 of 979. -/
abbrev ops4 : List (HloOp τ sig (Elt F)) :=
  [ binary main_v27 main_v176 main_v177 (cmpi .slt : (⟨S1000000, .i32⟩ : BufTy).Contents (Elt F) → (⟨S1000000, .i32⟩ : BufTy).Contents (Elt F) → (⟨S1000000, .i1⟩ : BufTy).Contents (Elt F)),
    nullary main_c_61 (constantI S_ 32 128#32),
    unary main_c_61 main_v178 (broadcastInDim S1000000 ![] bcast_S_S1000000 : (⟨S_, .i32⟩ : BufTy).Contents (Elt F) → (⟨S1000000, .i32⟩ : BufTy).Contents (Elt F)),
    binary main_v27 main_v178 main_v179 (addi : (⟨S1000000, .i32⟩ : BufTy).Contents (Elt F) → (⟨S1000000, .i32⟩ : BufTy).Contents (Elt F) → (⟨S1000000, .i32⟩ : BufTy).Contents (Elt F)),
    ternary main_v177 main_v179 main_v27 main_v180 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v170 main_v181 (broadcastInDim S1000000x1 ![0] bcast_S1000000_S1000000x1_0 : (⟨S1000000, .i32⟩ : BufTy).Contents (Elt F) → (⟨S1000000x1, .i32⟩ : BufTy).Contents (Elt F)),
    unary main_v175 main_v182 (broadcastInDim S1000000x1 ![0] bcast_S1000000_S1000000x1_0 : (⟨S1000000, .i32⟩ : BufTy).Contents (Elt F) → (⟨S1000000x1, .i32⟩ : BufTy).Contents (Elt F)),
    unary main_v180 main_v183 (broadcastInDim S1000000x1 ![0] bcast_S1000000_S1000000x1_0 : (⟨S1000000, .i32⟩ : BufTy).Contents (Elt F) → (⟨S1000000x1, .i32⟩ : BufTy).Contents (Elt F)),
    nary ![main_v181, main_v182, main_v183] main_v184 (fun u => cat3 (F := F) (u 0) (u 1) (u 2)),
    binary main_arg1 main_v184 main_v185 ((fun x i => Host.gather gather_S16x128x128x128_S1000000x3_S16x1000000_0_123_n_n_123_1_16111 x i) : (⟨S16x128x128x128, .f32⟩ : BufTy).Contents (Elt F) → (⟨S1000000x3, .i32⟩ : BufTy).Contents (Elt F) → (⟨S16x1000000, .f32⟩ : BufTy).Contents (Elt F)),
    binary main_v48 main_v163 main_v186 (mulf : (⟨S1000000, .f32⟩ : BufTy).Contents (Elt F) → (⟨S1000000, .f32⟩ : BufTy).Contents (Elt F) → (⟨S1000000, .f32⟩ : BufTy).Contents (Elt F)),
    binary main_v186 main_v165 main_v187 (mulf : (⟨S1000000, .f32⟩ : BufTy).Contents (Elt F) → (⟨S1000000, .f32⟩ : BufTy).Contents (Elt F) → (⟨S1000000, .f32⟩ : BufTy).Contents (Elt F)),
    unary main_v187 main_v188 (broadcastInDim S1x1000000 ![1] bcast_S1000000_S1x1000000_1 : (⟨S1000000, .f32⟩ : BufTy).Contents (Elt F) → (⟨S1x1000000, .f32⟩ : BufTy).Contents (Elt F)),
    unary main_v188 main_v189 (broadcastInDim S16x1000000 ![0, 1] bcast_S1x1000000_S16x1000000_0_1 : (⟨S1x1000000, .f32⟩ : BufTy).Contents (Elt F) → (⟨S16x1000000, .f32⟩ : BufTy).Contents (Elt F)),
    binary main_v185 main_v189 main_v190 (mulf : (⟨S16x1000000, .f32⟩ : BufTy).Contents (Elt F) → (⟨S16x1000000, .f32⟩ : BufTy).Contents (Elt F) → (⟨S16x1000000, .f32⟩ : BufTy).Contents (Elt F)),
    binary main_v161 main_v190 main_v191 (addf : (⟨S16x1000000, .f32⟩ : BufTy).Contents (Elt F) → (⟨S16x1000000, .f32⟩ : BufTy).Contents (Elt F) → (⟨S16x1000000, .f32⟩ : BufTy).Contents (Elt F)),
    nullary main_c_62 (constantI S_ 32 0#32),
    unary main_c_62 main_v192 (broadcastInDim S1000000 ![] bcast_S_S1000000 : (⟨S_, .i32⟩ : BufTy).Contents (Elt F) → (⟨S1000000, .i32⟩ : BufTy).Contents (Elt F)),
    binary main_v47 main_v192 main_v193 (cmpi .slt : (⟨S1000000, .i32⟩ : BufTy).Contents (Elt F) → (⟨S1000000, .i32⟩ : BufTy).Contents (Elt F) → (⟨S1000000, .i1⟩ : BufTy).Contents (Elt F)),
    nullary main_c_63 (constantI S_ 32 128#32),
    unary main_c_63 main_v194 (broadcastInDim S1000000 ![] bcast_S_S1000000 : (⟨S_, .i32⟩ : BufTy).Contents (Elt F) → (⟨S1000000, .i32⟩ : BufTy).Contents (Elt F)),
    binary main_v47 main_v194 main_v195 (addi : (⟨S1000000, .i32⟩ : BufTy).Contents (Elt F) → (⟨S1000000, .i32⟩ : BufTy).Contents (Elt F) → (⟨S1000000, .i32⟩ : BufTy).Contents (Elt F)),
    ternary main_v193 main_v195 main_v47 main_v196 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    nullary main_c_64 (constantI S_ 32 0#32),
    unary main_c_64 main_v197 (broadcastInDim S1000000 ![] bcast_S_S1000000 : (⟨S_, .i32⟩ : BufTy).Contents (Elt F) → (⟨S1000000, .i32⟩ : BufTy).Contents (Elt F)),
    binary main_v35 main_v197 main_v198 (cmpi .slt : (⟨S1000000, .i32⟩ : BufTy).Contents (Elt F) → (⟨S1000000, .i32⟩ : BufTy).Contents (Elt F) → (⟨S1000000, .i1⟩ : BufTy).Contents (Elt F)),
    nullary main_c_65 (constantI S_ 32 128#32),
    unary main_c_65 main_v199 (broadcastInDim S1000000 ![] bcast_S_S1000000 : (⟨S_, .i32⟩ : BufTy).Contents (Elt F) → (⟨S1000000, .i32⟩ : BufTy).Contents (Elt F)),
    binary main_v35 main_v199 main_v200 (addi : (⟨S1000000, .i32⟩ : BufTy).Contents (Elt F) → (⟨S1000000, .i32⟩ : BufTy).Contents (Elt F) → (⟨S1000000, .i32⟩ : BufTy).Contents (Elt F)),
    ternary main_v198 main_v200 main_v35 main_v201 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    nullary main_c_66 (constantI S_ 32 0#32),
    unary main_c_66 main_v202 (broadcastInDim S1000000 ![] bcast_S_S1000000 : (⟨S_, .i32⟩ : BufTy).Contents (Elt F) → (⟨S1000000, .i32⟩ : BufTy).Contents (Elt F)),
    binary main_v31 main_v202 main_v203 (cmpi .slt : (⟨S1000000, .i32⟩ : BufTy).Contents (Elt F) → (⟨S1000000, .i32⟩ : BufTy).Contents (Elt F) → (⟨S1000000, .i1⟩ : BufTy).Contents (Elt F)),
    nullary main_c_67 (constantI S_ 32 128#32),
    unary main_c_67 main_v204 (broadcastInDim S1000000 ![] bcast_S_S1000000 : (⟨S_, .i32⟩ : BufTy).Contents (Elt F) → (⟨S1000000, .i32⟩ : BufTy).Contents (Elt F)),
    binary main_v31 main_v204 main_v205 (addi : (⟨S1000000, .i32⟩ : BufTy).Contents (Elt F) → (⟨S1000000, .i32⟩ : BufTy).Contents (Elt F) → (⟨S1000000, .i32⟩ : BufTy).Contents (Elt F)),
    ternary main_v203 main_v205 main_v31 main_v206 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v196 main_v207 (broadcastInDim S1000000x1 ![0] bcast_S1000000_S1000000x1_0 : (⟨S1000000, .i32⟩ : BufTy).Contents (Elt F) → (⟨S1000000x1, .i32⟩ : BufTy).Contents (Elt F)),
    unary main_v201 main_v208 (broadcastInDim S1000000x1 ![0] bcast_S1000000_S1000000x1_0 : (⟨S1000000, .i32⟩ : BufTy).Contents (Elt F) → (⟨S1000000x1, .i32⟩ : BufTy).Contents (Elt F)),
    unary main_v206 main_v209 (broadcastInDim S1000000x1 ![0] bcast_S1000000_S1000000x1_0 : (⟨S1000000, .i32⟩ : BufTy).Contents (Elt F) → (⟨S1000000x1, .i32⟩ : BufTy).Contents (Elt F)),
    nary ![main_v207, main_v208, main_v209] main_v210 (fun u => cat3 (F := F) (u 0) (u 1) (u 2)),
    binary main_arg1 main_v210 main_v211 ((fun x i => Host.gather gather_S16x128x128x128_S1000000x3_S16x1000000_0_123_n_n_123_1_16111 x i) : (⟨S16x128x128x128, .f32⟩ : BufTy).Contents (Elt F) → (⟨S1000000x3, .i32⟩ : BufTy).Contents (Elt F) → (⟨S16x1000000, .f32⟩ : BufTy).Contents (Elt F)),
    binary main_v48 main_v163 main_v212 (mulf : (⟨S1000000, .f32⟩ : BufTy).Contents (Elt F) → (⟨S1000000, .f32⟩ : BufTy).Contents (Elt F) → (⟨S1000000, .f32⟩ : BufTy).Contents (Elt F)),
    binary main_v212 main_v32 main_v213 (mulf : (⟨S1000000, .f32⟩ : BufTy).Contents (Elt F) → (⟨S1000000, .f32⟩ : BufTy).Contents (Elt F) → (⟨S1000000, .f32⟩ : BufTy).Contents (Elt F)),
    unary main_v213 main_v214 (broadcastInDim S1x1000000 ![1] bcast_S1000000_S1x1000000_1 : (⟨S1000000, .f32⟩ : BufTy).Contents (Elt F) → (⟨S1x1000000, .f32⟩ : BufTy).Contents (Elt F)),
    unary main_v214 main_v215 (broadcastInDim S16x1000000 ![0, 1] bcast_S1x1000000_S16x1000000_0_1 : (⟨S1x1000000, .f32⟩ : BufTy).Contents (Elt F) → (⟨S16x1000000, .f32⟩ : BufTy).Contents (Elt F)),
    binary main_v211 main_v215 main_v216 (mulf : (⟨S16x1000000, .f32⟩ : BufTy).Contents (Elt F) → (⟨S16x1000000, .f32⟩ : BufTy).Contents (Elt F) → (⟨S16x1000000, .f32⟩ : BufTy).Contents (Elt F)),
    binary main_v191 main_v216 main_v217 (addf : (⟨S16x1000000, .f32⟩ : BufTy).Contents (Elt F) → (⟨S16x1000000, .f32⟩ : BufTy).Contents (Elt F) → (⟨S16x1000000, .f32⟩ : BufTy).Contents (Elt F)),
    nullary main_cst_68 (constant S_ .f32 0x3F800000#32),
    unary main_cst_68 main_v218 (broadcastInDim S1000000 ![] bcast_S_S1000000 : (⟨S_, .f32⟩ : BufTy).Contents (Elt F) → (⟨S1000000, .f32⟩ : BufTy).Contents (Elt F)),
    binary main_v218 main_v32 main_v219 (subf : (⟨S1000000, .f32⟩ : BufTy).Contents (Elt F) → (⟨S1000000, .f32⟩ : BufTy).Contents (Elt F) → (⟨S1000000, .f32⟩ : BufTy).Contents (Elt F)),
    nullary main_c_69 (constantI S_ 32 0#32),
    unary main_c_69 main_v220 (broadcastInDim S1000000 ![] bcast_S_S1000000 : (⟨S_, .i32⟩ : BufTy).Contents (Elt F) → (⟨S1000000, .i32⟩ : BufTy).Contents (Elt F)),
    binary main_v47 main_v220 main_v221 (cmpi .slt : (⟨S1000000, .i32⟩ : BufTy).Contents (Elt F) → (⟨S1000000, .i32⟩ : BufTy).Contents (Elt F) → (⟨S1000000, .i1⟩ : BufTy).Contents (Elt F)),
    nullary main_c_70 (constantI S_ 32 128#32),
    unary main_c_70 main_v222 (broadcastInDim S1000000 ![] bcast_S_S1000000 : (⟨S_, .i32⟩ : BufTy).Contents (Elt F) → (⟨S1000000, .i32⟩ : BufTy).Contents (Elt F)),
    binary main_v47 main_v222 main_v223 (addi : (⟨S1000000, .i32⟩ : BufTy).Contents (Elt F) → (⟨S1000000, .i32⟩ : BufTy).Contents (Elt F) → (⟨S1000000, .i32⟩ : BufTy).Contents (Elt F)),
    ternary main_v221 main_v223 main_v47 main_v224 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    nullary main_c_71 (constantI S_ 32 0#32),
    unary main_c_71 main_v225 (broadcastInDim S1000000 ![] bcast_S_S1000000 : (⟨S_, .i32⟩ : BufTy).Contents (Elt F) → (⟨S1000000, .i32⟩ : BufTy).Contents (Elt F)) ]

/-- Window main_part5: operations 331 … 390 of 979. -/
abbrev ops5 : List (HloOp τ sig (Elt F)) :=
  [ binary main_v39 main_v225 main_v226 (cmpi .slt : (⟨S1000000, .i32⟩ : BufTy).Contents (Elt F) → (⟨S1000000, .i32⟩ : BufTy).Contents (Elt F) → (⟨S1000000, .i1⟩ : BufTy).Contents (Elt F)),
    nullary main_c_72 (constantI S_ 32 128#32),
    unary main_c_72 main_v227 (broadcastInDim S1000000 ![] bcast_S_S1000000 : (⟨S_, .i32⟩ : BufTy).Contents (Elt F) → (⟨S1000000, .i32⟩ : BufTy).Contents (Elt F)),
    binary main_v39 main_v227 main_v228 (addi : (⟨S1000000, .i32⟩ : BufTy).Contents (Elt F) → (⟨S1000000, .i32⟩ : BufTy).Contents (Elt F) → (⟨S1000000, .i32⟩ : BufTy).Contents (Elt F)),
    ternary main_v226 main_v228 main_v39 main_v229 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    nullary main_c_73 (constantI S_ 32 0#32),
    unary main_c_73 main_v230 (broadcastInDim S1000000 ![] bcast_S_S1000000 : (⟨S_, .i32⟩ : BufTy).Contents (Elt F) → (⟨S1000000, .i32⟩ : BufTy).Contents (Elt F)),
    binary main_v27 main_v230 main_v231 (cmpi .slt : (⟨S1000000, .i32⟩ : BufTy).Contents (Elt F) → (⟨S1000000, .i32⟩ : BufTy).Contents (Elt F) → (⟨S1000000, .i1⟩ : BufTy).Contents (Elt F)),
    nullary main_c_74 (constantI S_ 32 128#32),
    unary main_c_74 main_v232 (broadcastInDim S1000000 ![] bcast_S_S1000000 : (⟨S_, .i32⟩ : BufTy).Contents (Elt F) → (⟨S1000000, .i32⟩ : BufTy).Contents (Elt F)),
    binary main_v27 main_v232 main_v233 (addi : (⟨S1000000, .i32⟩ : BufTy).Contents (Elt F) → (⟨S1000000, .i32⟩ : BufTy).Contents (Elt F) → (⟨S1000000, .i32⟩ : BufTy).Contents (Elt F)),
    ternary main_v231 main_v233 main_v27 main_v234 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v224 main_v235 (broadcastInDim S1000000x1 ![0] bcast_S1000000_S1000000x1_0 : (⟨S1000000, .i32⟩ : BufTy).Contents (Elt F) → (⟨S1000000x1, .i32⟩ : BufTy).Contents (Elt F)),
    unary main_v229 main_v236 (broadcastInDim S1000000x1 ![0] bcast_S1000000_S1000000x1_0 : (⟨S1000000, .i32⟩ : BufTy).Contents (Elt F) → (⟨S1000000x1, .i32⟩ : BufTy).Contents (Elt F)),
    unary main_v234 main_v237 (broadcastInDim S1000000x1 ![0] bcast_S1000000_S1000000x1_0 : (⟨S1000000, .i32⟩ : BufTy).Contents (Elt F) → (⟨S1000000x1, .i32⟩ : BufTy).Contents (Elt F)),
    nary ![main_v235, main_v236, main_v237] main_v238 (fun u => cat3 (F := F) (u 0) (u 1) (u 2)),
    binary main_arg1 main_v238 main_v239 ((fun x i => Host.gather gather_S16x128x128x128_S1000000x3_S16x1000000_0_123_n_n_123_1_16111 x i) : (⟨S16x128x128x128, .f32⟩ : BufTy).Contents (Elt F) → (⟨S1000000x3, .i32⟩ : BufTy).Contents (Elt F) → (⟨S16x1000000, .f32⟩ : BufTy).Contents (Elt F)),
    binary main_v48 main_v40 main_v240 (mulf : (⟨S1000000, .f32⟩ : BufTy).Contents (Elt F) → (⟨S1000000, .f32⟩ : BufTy).Contents (Elt F) → (⟨S1000000, .f32⟩ : BufTy).Contents (Elt F)),
    binary main_v240 main_v219 main_v241 (mulf : (⟨S1000000, .f32⟩ : BufTy).Contents (Elt F) → (⟨S1000000, .f32⟩ : BufTy).Contents (Elt F) → (⟨S1000000, .f32⟩ : BufTy).Contents (Elt F)),
    unary main_v241 main_v242 (broadcastInDim S1x1000000 ![1] bcast_S1000000_S1x1000000_1 : (⟨S1000000, .f32⟩ : BufTy).Contents (Elt F) → (⟨S1x1000000, .f32⟩ : BufTy).Contents (Elt F)),
    unary main_v242 main_v243 (broadcastInDim S16x1000000 ![0, 1] bcast_S1x1000000_S16x1000000_0_1 : (⟨S1x1000000, .f32⟩ : BufTy).Contents (Elt F) → (⟨S16x1000000, .f32⟩ : BufTy).Contents (Elt F)),
    binary main_v239 main_v243 main_v244 (mulf : (⟨S16x1000000, .f32⟩ : BufTy).Contents (Elt F) → (⟨S16x1000000, .f32⟩ : BufTy).Contents (Elt F) → (⟨S16x1000000, .f32⟩ : BufTy).Contents (Elt F)),
    binary main_v217 main_v244 main_v245 (addf : (⟨S16x1000000, .f32⟩ : BufTy).Contents (Elt F) → (⟨S16x1000000, .f32⟩ : BufTy).Contents (Elt F) → (⟨S16x1000000, .f32⟩ : BufTy).Contents (Elt F)),
    nullary main_c_75 (constantI S_ 32 0#32),
    unary main_c_75 main_v246 (broadcastInDim S1000000 ![] bcast_S_S1000000 : (⟨S_, .i32⟩ : BufTy).Contents (Elt F) → (⟨S1000000, .i32⟩ : BufTy).Contents (Elt F)),
    binary main_v47 main_v246 main_v247 (cmpi .slt : (⟨S1000000, .i32⟩ : BufTy).Contents (Elt F) → (⟨S1000000, .i32⟩ : BufTy).Contents (Elt F) → (⟨S1000000, .i1⟩ : BufTy).Contents (Elt F)),
    nullary main_c_76 (constantI S_ 32 128#32),
    unary main_c_76 main_v248 (broadcastInDim S1000000 ![] bcast_S_S1000000 : (⟨S_, .i32⟩ : BufTy).Contents (Elt F) → (⟨S1000000, .i32⟩ : BufTy).Contents (Elt F)),
    binary main_v47 main_v248 main_v249 (addi : (⟨S1000000, .i32⟩ : BufTy).Contents (Elt F) → (⟨S1000000, .i32⟩ : BufTy).Contents (Elt F) → (⟨S1000000, .i32⟩ : BufTy).Contents (Elt F)),
    ternary main_v247 main_v249 main_v47 main_v250 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    nullary main_c_77 (constantI S_ 32 0#32),
    unary main_c_77 main_v251 (broadcastInDim S1000000 ![] bcast_S_S1000000 : (⟨S_, .i32⟩ : BufTy).Contents (Elt F) → (⟨S1000000, .i32⟩ : BufTy).Contents (Elt F)),
    binary main_v39 main_v251 main_v252 (cmpi .slt : (⟨S1000000, .i32⟩ : BufTy).Contents (Elt F) → (⟨S1000000, .i32⟩ : BufTy).Contents (Elt F) → (⟨S1000000, .i1⟩ : BufTy).Contents (Elt F)),
    nullary main_c_78 (constantI S_ 32 128#32),
    unary main_c_78 main_v253 (broadcastInDim S1000000 ![] bcast_S_S1000000 : (⟨S_, .i32⟩ : BufTy).Contents (Elt F) → (⟨S1000000, .i32⟩ : BufTy).Contents (Elt F)),
    binary main_v39 main_v253 main_v254 (addi : (⟨S1000000, .i32⟩ : BufTy).Contents (Elt F) → (⟨S1000000, .i32⟩ : BufTy).Contents (Elt F) → (⟨S1000000, .i32⟩ : BufTy).Contents (Elt F)),
    ternary main_v252 main_v254 main_v39 main_v255 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    nullary main_c_79 (constantI S_ 32 0#32),
    unary main_c_79 main_v256 (broadcastInDim S1000000 ![] bcast_S_S1000000 : (⟨S_, .i32⟩ : BufTy).Contents (Elt F) → (⟨S1000000, .i32⟩ : BufTy).Contents (Elt F)),
    binary main_v31 main_v256 main_v257 (cmpi .slt : (⟨S1000000, .i32⟩ : BufTy).Contents (Elt F) → (⟨S1000000, .i32⟩ : BufTy).Contents (Elt F) → (⟨S1000000, .i1⟩ : BufTy).Contents (Elt F)),
    nullary main_c_80 (constantI S_ 32 128#32),
    unary main_c_80 main_v258 (broadcastInDim S1000000 ![] bcast_S_S1000000 : (⟨S_, .i32⟩ : BufTy).Contents (Elt F) → (⟨S1000000, .i32⟩ : BufTy).Contents (Elt F)),
    binary main_v31 main_v258 main_v259 (addi : (⟨S1000000, .i32⟩ : BufTy).Contents (Elt F) → (⟨S1000000, .i32⟩ : BufTy).Contents (Elt F) → (⟨S1000000, .i32⟩ : BufTy).Contents (Elt F)),
    ternary main_v257 main_v259 main_v31 main_v260 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v250 main_v261 (broadcastInDim S1000000x1 ![0] bcast_S1000000_S1000000x1_0 : (⟨S1000000, .i32⟩ : BufTy).Contents (Elt F) → (⟨S1000000x1, .i32⟩ : BufTy).Contents (Elt F)),
    unary main_v255 main_v262 (broadcastInDim S1000000x1 ![0] bcast_S1000000_S1000000x1_0 : (⟨S1000000, .i32⟩ : BufTy).Contents (Elt F) → (⟨S1000000x1, .i32⟩ : BufTy).Contents (Elt F)),
    unary main_v260 main_v263 (broadcastInDim S1000000x1 ![0] bcast_S1000000_S1000000x1_0 : (⟨S1000000, .i32⟩ : BufTy).Contents (Elt F) → (⟨S1000000x1, .i32⟩ : BufTy).Contents (Elt F)),
    nary ![main_v261, main_v262, main_v263] main_v264 (fun u => cat3 (F := F) (u 0) (u 1) (u 2)),
    binary main_arg1 main_v264 main_v265 ((fun x i => Host.gather gather_S16x128x128x128_S1000000x3_S16x1000000_0_123_n_n_123_1_16111 x i) : (⟨S16x128x128x128, .f32⟩ : BufTy).Contents (Elt F) → (⟨S1000000x3, .i32⟩ : BufTy).Contents (Elt F) → (⟨S16x1000000, .f32⟩ : BufTy).Contents (Elt F)),
    binary main_v48 main_v40 main_v266 (mulf : (⟨S1000000, .f32⟩ : BufTy).Contents (Elt F) → (⟨S1000000, .f32⟩ : BufTy).Contents (Elt F) → (⟨S1000000, .f32⟩ : BufTy).Contents (Elt F)),
    binary main_v266 main_v32 main_v267 (mulf : (⟨S1000000, .f32⟩ : BufTy).Contents (Elt F) → (⟨S1000000, .f32⟩ : BufTy).Contents (Elt F) → (⟨S1000000, .f32⟩ : BufTy).Contents (Elt F)),
    unary main_v267 main_v268 (broadcastInDim S1x1000000 ![1] bcast_S1000000_S1x1000000_1 : (⟨S1000000, .f32⟩ : BufTy).Contents (Elt F) → (⟨S1x1000000, .f32⟩ : BufTy).Contents (Elt F)),
    unary main_v268 main_v269 (broadcastInDim S16x1000000 ![0, 1] bcast_S1x1000000_S16x1000000_0_1 : (⟨S1x1000000, .f32⟩ : BufTy).Contents (Elt F) → (⟨S16x1000000, .f32⟩ : BufTy).Contents (Elt F)),
    binary main_v265 main_v269 main_v270 (mulf : (⟨S16x1000000, .f32⟩ : BufTy).Contents (Elt F) → (⟨S16x1000000, .f32⟩ : BufTy).Contents (Elt F) → (⟨S16x1000000, .f32⟩ : BufTy).Contents (Elt F)),
    binary main_v245 main_v270 main_v271 (addf : (⟨S16x1000000, .f32⟩ : BufTy).Contents (Elt F) → (⟨S16x1000000, .f32⟩ : BufTy).Contents (Elt F) → (⟨S16x1000000, .f32⟩ : BufTy).Contents (Elt F)),
    nullary main_c_81 (constantI S_ 32 0#32),
    unary main_c_81 main_v272 (broadcastInDim S2 ![] bcast_S_S2 : (⟨S_, .i32⟩ : BufTy).Contents (Elt F) → (⟨S2, .i32⟩ : BufTy).Contents (Elt F)),
    binary main_c main_v272 main_v273 (cmpi .slt : (⟨S2, .i32⟩ : BufTy).Contents (Elt F) → (⟨S2, .i32⟩ : BufTy).Contents (Elt F) → (⟨S2, .i1⟩ : BufTy).Contents (Elt F)),
    nullary main_c_82 (constantI S_ 32 4#32),
    unary main_c_82 main_v274 (broadcastInDim S2 ![] bcast_S_S2 : (⟨S_, .i32⟩ : BufTy).Contents (Elt F) → (⟨S2, .i32⟩ : BufTy).Contents (Elt F)) ]

/-- Window main_part6: operations 391 … 470 of 979. -/
abbrev ops6 : List (HloOp τ sig (Elt F)) :=
  [ binary main_c main_v274 main_v275 (addi : (⟨S2, .i32⟩ : BufTy).Contents (Elt F) → (⟨S2, .i32⟩ : BufTy).Contents (Elt F) → (⟨S2, .i32⟩ : BufTy).Contents (Elt F)),
    ternary main_v273 main_v275 main_c main_v276 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    unary main_v276 main_v277 (broadcastInDim S2x1 ![0] bcast_S2_S2x1_0 : (⟨S2, .i32⟩ : BufTy).Contents (Elt F) → (⟨S2x1, .i32⟩ : BufTy).Contents (Elt F)),
    binary main_arg0 main_v277 main_v278 ((fun x i => Host.gather gather_S1000000x4_S2x1_S1000000x2_0_1_n_n_1_1_10000001 x i) : (⟨S1000000x4, .f32⟩ : BufTy).Contents (Elt F) → (⟨S2x1, .i32⟩ : BufTy).Contents (Elt F) → (⟨S1000000x2, .f32⟩ : BufTy).Contents (Elt F)),
    unary main_v278 main_v279 ((extractStridedSlice S1000000x1 ![0, 0] · slices_S1000000x2_S1000000x1_0_0) : (⟨S1000000x2, .f32⟩ : BufTy).Contents (Elt F) → (⟨S1000000x1, .f32⟩ : BufTy).Contents (Elt F)),
    reshape main_v279 main_v280 rfl shapeCasts_S1000000x1_S1000000,
    nullary main_cst_83 (constant S_ .f32 0x3F800000#32),
    unary main_cst_83 main_v281 (broadcastInDim S1000000 ![] bcast_S_S1000000 : (⟨S_, .f32⟩ : BufTy).Contents (Elt F) → (⟨S1000000, .f32⟩ : BufTy).Contents (Elt F)),
    binary main_v280 main_v281 main_v282 (addf : (⟨S1000000, .f32⟩ : BufTy).Contents (Elt F) → (⟨S1000000, .f32⟩ : BufTy).Contents (Elt F) → (⟨S1000000, .f32⟩ : BufTy).Contents (Elt F)),
    nullary main_cst_84 (constant S_ .f32 0x3F000000#32),
    unary main_cst_84 main_v283 (broadcastInDim S1000000 ![] bcast_S_S1000000 : (⟨S_, .f32⟩ : BufTy).Contents (Elt F) → (⟨S1000000, .f32⟩ : BufTy).Contents (Elt F)),
    binary main_v282 main_v283 main_v284 (mulf : (⟨S1000000, .f32⟩ : BufTy).Contents (Elt F) → (⟨S1000000, .f32⟩ : BufTy).Contents (Elt F) → (⟨S1000000, .f32⟩ : BufTy).Contents (Elt F)),
    nullary main_cst_85 (constant S_ .f32 0x437F0000#32),
    unary main_cst_85 main_v285 (broadcastInDim S1000000 ![] bcast_S_S1000000 : (⟨S_, .f32⟩ : BufTy).Contents (Elt F) → (⟨S1000000, .f32⟩ : BufTy).Contents (Elt F)),
    binary main_v284 main_v285 main_v286 (mulf : (⟨S1000000, .f32⟩ : BufTy).Contents (Elt F) → (⟨S1000000, .f32⟩ : BufTy).Contents (Elt F) → (⟨S1000000, .f32⟩ : BufTy).Contents (Elt F)),
    unary main_v278 main_v287 ((extractStridedSlice S1000000x1 ![0, 1] · slices_S1000000x2_S1000000x1_0_1) : (⟨S1000000x2, .f32⟩ : BufTy).Contents (Elt F) → (⟨S1000000x1, .f32⟩ : BufTy).Contents (Elt F)),
    reshape main_v287 main_v288 rfl shapeCasts_S1000000x1_S1000000,
    nullary main_cst_86 (constant S_ .f32 0x3F800000#32),
    unary main_cst_86 main_v289 (broadcastInDim S1000000 ![] bcast_S_S1000000 : (⟨S_, .f32⟩ : BufTy).Contents (Elt F) → (⟨S1000000, .f32⟩ : BufTy).Contents (Elt F)),
    binary main_v288 main_v289 main_v290 (addf : (⟨S1000000, .f32⟩ : BufTy).Contents (Elt F) → (⟨S1000000, .f32⟩ : BufTy).Contents (Elt F) → (⟨S1000000, .f32⟩ : BufTy).Contents (Elt F)),
    nullary main_cst_87 (constant S_ .f32 0x3F000000#32),
    unary main_cst_87 main_v291 (broadcastInDim S1000000 ![] bcast_S_S1000000 : (⟨S_, .f32⟩ : BufTy).Contents (Elt F) → (⟨S1000000, .f32⟩ : BufTy).Contents (Elt F)),
    binary main_v290 main_v291 main_v292 (mulf : (⟨S1000000, .f32⟩ : BufTy).Contents (Elt F) → (⟨S1000000, .f32⟩ : BufTy).Contents (Elt F) → (⟨S1000000, .f32⟩ : BufTy).Contents (Elt F)),
    nullary main_cst_88 (constant S_ .f32 0x437F0000#32),
    unary main_cst_88 main_v293 (broadcastInDim S1000000 ![] bcast_S_S1000000 : (⟨S_, .f32⟩ : BufTy).Contents (Elt F) → (⟨S1000000, .f32⟩ : BufTy).Contents (Elt F)),
    binary main_v292 main_v293 main_v294 (mulf : (⟨S1000000, .f32⟩ : BufTy).Contents (Elt F) → (⟨S1000000, .f32⟩ : BufTy).Contents (Elt F) → (⟨S1000000, .f32⟩ : BufTy).Contents (Elt F)),
    unary main_v286 main_v295 (Host.floor : (⟨S1000000, .f32⟩ : BufTy).Contents (Elt F) → (⟨S1000000, .f32⟩ : BufTy).Contents (Elt F)),
    nullary main_c_89 (constantI S_ 32 0#32),
    nullary main_c_90 (constantI S_ 32 255#32),
    unary main_c_89 main_call6_v0 (sitofp .f32 : (⟨S_, .i32⟩ : BufTy).Contents (Elt F) → (⟨S_, .f32⟩ : BufTy).Contents (Elt F)),
    unary main_call6_v0 main_call6_v1 (broadcastInDim S1000000 ![] bcast_S_S1000000 : (⟨S_, .f32⟩ : BufTy).Contents (Elt F) → (⟨S1000000, .f32⟩ : BufTy).Contents (Elt F)),
    binary main_call6_v1 main_v295 main_call6_v2 (maximumf : (⟨S1000000, .f32⟩ : BufTy).Contents (Elt F) → (⟨S1000000, .f32⟩ : BufTy).Contents (Elt F) → (⟨S1000000, .f32⟩ : BufTy).Contents (Elt F)),
    unary main_c_90 main_call6_v3 (sitofp .f32 : (⟨S_, .i32⟩ : BufTy).Contents (Elt F) → (⟨S_, .f32⟩ : BufTy).Contents (Elt F)),
    unary main_call6_v3 main_call6_v4 (broadcastInDim S1000000 ![] bcast_S_S1000000 : (⟨S_, .f32⟩ : BufTy).Contents (Elt F) → (⟨S1000000, .f32⟩ : BufTy).Contents (Elt F)),
    binary main_call6_v4 main_call6_v2 main_v296 (minimumf : (⟨S1000000, .f32⟩ : BufTy).Contents (Elt F) → (⟨S1000000, .f32⟩ : BufTy).Contents (Elt F) → (⟨S1000000, .f32⟩ : BufTy).Contents (Elt F)),
    unary main_v296 main_v297 (fptosi 32 : (⟨S1000000, .f32⟩ : BufTy).Contents (Elt F) → (⟨S1000000, .i32⟩ : BufTy).Contents (Elt F)),
    nullary main_cst_91 (constant S_ .f32 0x3F800000#32),
    unary main_cst_91 main_v298 (broadcastInDim S1000000 ![] bcast_S_S1000000 : (⟨S_, .f32⟩ : BufTy).Contents (Elt F) → (⟨S1000000, .f32⟩ : BufTy).Contents (Elt F)),
    binary main_v295 main_v298 main_v299 (addf : (⟨S1000000, .f32⟩ : BufTy).Contents (Elt F) → (⟨S1000000, .f32⟩ : BufTy).Contents (Elt F) → (⟨S1000000, .f32⟩ : BufTy).Contents (Elt F)),
    nullary main_c_92 (constantI S_ 32 0#32),
    nullary main_c_93 (constantI S_ 32 255#32),
    unary main_c_92 main_call7_v0 (sitofp .f32 : (⟨S_, .i32⟩ : BufTy).Contents (Elt F) → (⟨S_, .f32⟩ : BufTy).Contents (Elt F)),
    unary main_call7_v0 main_call7_v1 (broadcastInDim S1000000 ![] bcast_S_S1000000 : (⟨S_, .f32⟩ : BufTy).Contents (Elt F) → (⟨S1000000, .f32⟩ : BufTy).Contents (Elt F)),
    binary main_call7_v1 main_v299 main_call7_v2 (maximumf : (⟨S1000000, .f32⟩ : BufTy).Contents (Elt F) → (⟨S1000000, .f32⟩ : BufTy).Contents (Elt F) → (⟨S1000000, .f32⟩ : BufTy).Contents (Elt F)),
    unary main_c_93 main_call7_v3 (sitofp .f32 : (⟨S_, .i32⟩ : BufTy).Contents (Elt F) → (⟨S_, .f32⟩ : BufTy).Contents (Elt F)),
    unary main_call7_v3 main_call7_v4 (broadcastInDim S1000000 ![] bcast_S_S1000000 : (⟨S_, .f32⟩ : BufTy).Contents (Elt F) → (⟨S1000000, .f32⟩ : BufTy).Contents (Elt F)),
    binary main_call7_v4 main_call7_v2 main_v300 (minimumf : (⟨S1000000, .f32⟩ : BufTy).Contents (Elt F) → (⟨S1000000, .f32⟩ : BufTy).Contents (Elt F) → (⟨S1000000, .f32⟩ : BufTy).Contents (Elt F)),
    unary main_v300 main_v301 (fptosi 32 : (⟨S1000000, .f32⟩ : BufTy).Contents (Elt F) → (⟨S1000000, .i32⟩ : BufTy).Contents (Elt F)),
    binary main_v286 main_v295 main_v302 (subf : (⟨S1000000, .f32⟩ : BufTy).Contents (Elt F) → (⟨S1000000, .f32⟩ : BufTy).Contents (Elt F) → (⟨S1000000, .f32⟩ : BufTy).Contents (Elt F)),
    unary main_v294 main_v303 (Host.floor : (⟨S1000000, .f32⟩ : BufTy).Contents (Elt F) → (⟨S1000000, .f32⟩ : BufTy).Contents (Elt F)),
    nullary main_c_94 (constantI S_ 32 0#32),
    nullary main_c_95 (constantI S_ 32 255#32),
    unary main_c_94 main_call8_v0 (sitofp .f32 : (⟨S_, .i32⟩ : BufTy).Contents (Elt F) → (⟨S_, .f32⟩ : BufTy).Contents (Elt F)),
    unary main_call8_v0 main_call8_v1 (broadcastInDim S1000000 ![] bcast_S_S1000000 : (⟨S_, .f32⟩ : BufTy).Contents (Elt F) → (⟨S1000000, .f32⟩ : BufTy).Contents (Elt F)),
    binary main_call8_v1 main_v303 main_call8_v2 (maximumf : (⟨S1000000, .f32⟩ : BufTy).Contents (Elt F) → (⟨S1000000, .f32⟩ : BufTy).Contents (Elt F) → (⟨S1000000, .f32⟩ : BufTy).Contents (Elt F)),
    unary main_c_95 main_call8_v3 (sitofp .f32 : (⟨S_, .i32⟩ : BufTy).Contents (Elt F) → (⟨S_, .f32⟩ : BufTy).Contents (Elt F)),
    unary main_call8_v3 main_call8_v4 (broadcastInDim S1000000 ![] bcast_S_S1000000 : (⟨S_, .f32⟩ : BufTy).Contents (Elt F) → (⟨S1000000, .f32⟩ : BufTy).Contents (Elt F)),
    binary main_call8_v4 main_call8_v2 main_v304 (minimumf : (⟨S1000000, .f32⟩ : BufTy).Contents (Elt F) → (⟨S1000000, .f32⟩ : BufTy).Contents (Elt F) → (⟨S1000000, .f32⟩ : BufTy).Contents (Elt F)),
    unary main_v304 main_v305 (fptosi 32 : (⟨S1000000, .f32⟩ : BufTy).Contents (Elt F) → (⟨S1000000, .i32⟩ : BufTy).Contents (Elt F)),
    nullary main_cst_96 (constant S_ .f32 0x3F800000#32),
    unary main_cst_96 main_v306 (broadcastInDim S1000000 ![] bcast_S_S1000000 : (⟨S_, .f32⟩ : BufTy).Contents (Elt F) → (⟨S1000000, .f32⟩ : BufTy).Contents (Elt F)),
    binary main_v303 main_v306 main_v307 (addf : (⟨S1000000, .f32⟩ : BufTy).Contents (Elt F) → (⟨S1000000, .f32⟩ : BufTy).Contents (Elt F) → (⟨S1000000, .f32⟩ : BufTy).Contents (Elt F)),
    nullary main_c_97 (constantI S_ 32 0#32),
    nullary main_c_98 (constantI S_ 32 255#32),
    unary main_c_97 main_call9_v0 (sitofp .f32 : (⟨S_, .i32⟩ : BufTy).Contents (Elt F) → (⟨S_, .f32⟩ : BufTy).Contents (Elt F)),
    unary main_call9_v0 main_call9_v1 (broadcastInDim S1000000 ![] bcast_S_S1000000 : (⟨S_, .f32⟩ : BufTy).Contents (Elt F) → (⟨S1000000, .f32⟩ : BufTy).Contents (Elt F)),
    binary main_call9_v1 main_v307 main_call9_v2 (maximumf : (⟨S1000000, .f32⟩ : BufTy).Contents (Elt F) → (⟨S1000000, .f32⟩ : BufTy).Contents (Elt F) → (⟨S1000000, .f32⟩ : BufTy).Contents (Elt F)),
    unary main_c_98 main_call9_v3 (sitofp .f32 : (⟨S_, .i32⟩ : BufTy).Contents (Elt F) → (⟨S_, .f32⟩ : BufTy).Contents (Elt F)),
    unary main_call9_v3 main_call9_v4 (broadcastInDim S1000000 ![] bcast_S_S1000000 : (⟨S_, .f32⟩ : BufTy).Contents (Elt F) → (⟨S1000000, .f32⟩ : BufTy).Contents (Elt F)),
    binary main_call9_v4 main_call9_v2 main_v308 (minimumf : (⟨S1000000, .f32⟩ : BufTy).Contents (Elt F) → (⟨S1000000, .f32⟩ : BufTy).Contents (Elt F) → (⟨S1000000, .f32⟩ : BufTy).Contents (Elt F)),
    unary main_v308 main_v309 (fptosi 32 : (⟨S1000000, .f32⟩ : BufTy).Contents (Elt F) → (⟨S1000000, .i32⟩ : BufTy).Contents (Elt F)),
    binary main_v294 main_v303 main_v310 (subf : (⟨S1000000, .f32⟩ : BufTy).Contents (Elt F) → (⟨S1000000, .f32⟩ : BufTy).Contents (Elt F) → (⟨S1000000, .f32⟩ : BufTy).Contents (Elt F)),
    nullary main_cst_99 (constant S_ .f32 0x00000000#32),
    unary main_cst_99 main_v311 (broadcastInDim S16x1000000 ![] bcast_S_S16x1000000 : (⟨S_, .f32⟩ : BufTy).Contents (Elt F) → (⟨S16x1000000, .f32⟩ : BufTy).Contents (Elt F)),
    nullary main_cst_100 (constant S_ .f32 0x3F800000#32),
    unary main_cst_100 main_v312 (broadcastInDim S1000000 ![] bcast_S_S1000000 : (⟨S_, .f32⟩ : BufTy).Contents (Elt F) → (⟨S1000000, .f32⟩ : BufTy).Contents (Elt F)),
    binary main_v312 main_v310 main_v313 (subf : (⟨S1000000, .f32⟩ : BufTy).Contents (Elt F) → (⟨S1000000, .f32⟩ : BufTy).Contents (Elt F) → (⟨S1000000, .f32⟩ : BufTy).Contents (Elt F)),
    nullary main_cst_101 (constant S_ .f32 0x3F800000#32),
    unary main_cst_101 main_v314 (broadcastInDim S1000000 ![] bcast_S_S1000000 : (⟨S_, .f32⟩ : BufTy).Contents (Elt F) → (⟨S1000000, .f32⟩ : BufTy).Contents (Elt F)),
    binary main_v314 main_v302 main_v315 (subf : (⟨S1000000, .f32⟩ : BufTy).Contents (Elt F) → (⟨S1000000, .f32⟩ : BufTy).Contents (Elt F) → (⟨S1000000, .f32⟩ : BufTy).Contents (Elt F)) ]

/-- Window main_part7: operations 471 … 530 of 979. -/
abbrev ops7 : List (HloOp τ sig (Elt F)) :=
  [ nullary main_c_102 (constantI S_ 32 0#32),
    unary main_c_102 main_v316 (broadcastInDim S1000000 ![] bcast_S_S1000000 : (⟨S_, .i32⟩ : BufTy).Contents (Elt F) → (⟨S1000000, .i32⟩ : BufTy).Contents (Elt F)),
    binary main_v305 main_v316 main_v317 (cmpi .slt : (⟨S1000000, .i32⟩ : BufTy).Contents (Elt F) → (⟨S1000000, .i32⟩ : BufTy).Contents (Elt F) → (⟨S1000000, .i1⟩ : BufTy).Contents (Elt F)),
    nullary main_c_103 (constantI S_ 32 256#32),
    unary main_c_103 main_v318 (broadcastInDim S1000000 ![] bcast_S_S1000000 : (⟨S_, .i32⟩ : BufTy).Contents (Elt F) → (⟨S1000000, .i32⟩ : BufTy).Contents (Elt F)),
    binary main_v305 main_v318 main_v319 (addi : (⟨S1000000, .i32⟩ : BufTy).Contents (Elt F) → (⟨S1000000, .i32⟩ : BufTy).Contents (Elt F) → (⟨S1000000, .i32⟩ : BufTy).Contents (Elt F)),
    ternary main_v317 main_v319 main_v305 main_v320 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    nullary main_c_104 (constantI S_ 32 0#32),
    unary main_c_104 main_v321 (broadcastInDim S1000000 ![] bcast_S_S1000000 : (⟨S_, .i32⟩ : BufTy).Contents (Elt F) → (⟨S1000000, .i32⟩ : BufTy).Contents (Elt F)),
    binary main_v297 main_v321 main_v322 (cmpi .slt : (⟨S1000000, .i32⟩ : BufTy).Contents (Elt F) → (⟨S1000000, .i32⟩ : BufTy).Contents (Elt F) → (⟨S1000000, .i1⟩ : BufTy).Contents (Elt F)),
    nullary main_c_105 (constantI S_ 32 256#32),
    unary main_c_105 main_v323 (broadcastInDim S1000000 ![] bcast_S_S1000000 : (⟨S_, .i32⟩ : BufTy).Contents (Elt F) → (⟨S1000000, .i32⟩ : BufTy).Contents (Elt F)),
    binary main_v297 main_v323 main_v324 (addi : (⟨S1000000, .i32⟩ : BufTy).Contents (Elt F) → (⟨S1000000, .i32⟩ : BufTy).Contents (Elt F) → (⟨S1000000, .i32⟩ : BufTy).Contents (Elt F)),
    ternary main_v322 main_v324 main_v297 main_v325 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v320 main_v326 (broadcastInDim S1000000x1 ![0] bcast_S1000000_S1000000x1_0 : (⟨S1000000, .i32⟩ : BufTy).Contents (Elt F) → (⟨S1000000x1, .i32⟩ : BufTy).Contents (Elt F)),
    unary main_v325 main_v327 (broadcastInDim S1000000x1 ![0] bcast_S1000000_S1000000x1_0 : (⟨S1000000, .i32⟩ : BufTy).Contents (Elt F) → (⟨S1000000x1, .i32⟩ : BufTy).Contents (Elt F)),
    binary main_v326 main_v327 main_v328 (cat2 (F := F) : (⟨S1000000x1, .i32⟩ : BufTy).Contents (Elt F) → (⟨S1000000x1, .i32⟩ : BufTy).Contents (Elt F) → (⟨S1000000x2, .i32⟩ : BufTy).Contents (Elt F)),
    binary main_arg2 main_v328 main_v329 ((fun x i => Host.gather gather_S16x256x256_S1000000x2_S16x1000000_0_12_n_n_12_1_1611 x i) : (⟨S16x256x256, .f32⟩ : BufTy).Contents (Elt F) → (⟨S1000000x2, .i32⟩ : BufTy).Contents (Elt F) → (⟨S16x1000000, .f32⟩ : BufTy).Contents (Elt F)),
    binary main_v313 main_v315 main_v330 (mulf : (⟨S1000000, .f32⟩ : BufTy).Contents (Elt F) → (⟨S1000000, .f32⟩ : BufTy).Contents (Elt F) → (⟨S1000000, .f32⟩ : BufTy).Contents (Elt F)),
    unary main_v330 main_v331 (broadcastInDim S1x1000000 ![1] bcast_S1000000_S1x1000000_1 : (⟨S1000000, .f32⟩ : BufTy).Contents (Elt F) → (⟨S1x1000000, .f32⟩ : BufTy).Contents (Elt F)),
    unary main_v331 main_v332 (broadcastInDim S16x1000000 ![0, 1] bcast_S1x1000000_S16x1000000_0_1 : (⟨S1x1000000, .f32⟩ : BufTy).Contents (Elt F) → (⟨S16x1000000, .f32⟩ : BufTy).Contents (Elt F)),
    binary main_v329 main_v332 main_v333 (mulf : (⟨S16x1000000, .f32⟩ : BufTy).Contents (Elt F) → (⟨S16x1000000, .f32⟩ : BufTy).Contents (Elt F) → (⟨S16x1000000, .f32⟩ : BufTy).Contents (Elt F)),
    binary main_v311 main_v333 main_v334 (addf : (⟨S16x1000000, .f32⟩ : BufTy).Contents (Elt F) → (⟨S16x1000000, .f32⟩ : BufTy).Contents (Elt F) → (⟨S16x1000000, .f32⟩ : BufTy).Contents (Elt F)),
    nullary main_c_106 (constantI S_ 32 0#32),
    unary main_c_106 main_v335 (broadcastInDim S1000000 ![] bcast_S_S1000000 : (⟨S_, .i32⟩ : BufTy).Contents (Elt F) → (⟨S1000000, .i32⟩ : BufTy).Contents (Elt F)),
    binary main_v305 main_v335 main_v336 (cmpi .slt : (⟨S1000000, .i32⟩ : BufTy).Contents (Elt F) → (⟨S1000000, .i32⟩ : BufTy).Contents (Elt F) → (⟨S1000000, .i1⟩ : BufTy).Contents (Elt F)),
    nullary main_c_107 (constantI S_ 32 256#32),
    unary main_c_107 main_v337 (broadcastInDim S1000000 ![] bcast_S_S1000000 : (⟨S_, .i32⟩ : BufTy).Contents (Elt F) → (⟨S1000000, .i32⟩ : BufTy).Contents (Elt F)),
    binary main_v305 main_v337 main_v338 (addi : (⟨S1000000, .i32⟩ : BufTy).Contents (Elt F) → (⟨S1000000, .i32⟩ : BufTy).Contents (Elt F) → (⟨S1000000, .i32⟩ : BufTy).Contents (Elt F)),
    ternary main_v336 main_v338 main_v305 main_v339 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    nullary main_c_108 (constantI S_ 32 0#32),
    unary main_c_108 main_v340 (broadcastInDim S1000000 ![] bcast_S_S1000000 : (⟨S_, .i32⟩ : BufTy).Contents (Elt F) → (⟨S1000000, .i32⟩ : BufTy).Contents (Elt F)),
    binary main_v301 main_v340 main_v341 (cmpi .slt : (⟨S1000000, .i32⟩ : BufTy).Contents (Elt F) → (⟨S1000000, .i32⟩ : BufTy).Contents (Elt F) → (⟨S1000000, .i1⟩ : BufTy).Contents (Elt F)),
    nullary main_c_109 (constantI S_ 32 256#32),
    unary main_c_109 main_v342 (broadcastInDim S1000000 ![] bcast_S_S1000000 : (⟨S_, .i32⟩ : BufTy).Contents (Elt F) → (⟨S1000000, .i32⟩ : BufTy).Contents (Elt F)),
    binary main_v301 main_v342 main_v343 (addi : (⟨S1000000, .i32⟩ : BufTy).Contents (Elt F) → (⟨S1000000, .i32⟩ : BufTy).Contents (Elt F) → (⟨S1000000, .i32⟩ : BufTy).Contents (Elt F)),
    ternary main_v341 main_v343 main_v301 main_v344 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v339 main_v345 (broadcastInDim S1000000x1 ![0] bcast_S1000000_S1000000x1_0 : (⟨S1000000, .i32⟩ : BufTy).Contents (Elt F) → (⟨S1000000x1, .i32⟩ : BufTy).Contents (Elt F)),
    unary main_v344 main_v346 (broadcastInDim S1000000x1 ![0] bcast_S1000000_S1000000x1_0 : (⟨S1000000, .i32⟩ : BufTy).Contents (Elt F) → (⟨S1000000x1, .i32⟩ : BufTy).Contents (Elt F)),
    binary main_v345 main_v346 main_v347 (cat2 (F := F) : (⟨S1000000x1, .i32⟩ : BufTy).Contents (Elt F) → (⟨S1000000x1, .i32⟩ : BufTy).Contents (Elt F) → (⟨S1000000x2, .i32⟩ : BufTy).Contents (Elt F)),
    binary main_arg2 main_v347 main_v348 ((fun x i => Host.gather gather_S16x256x256_S1000000x2_S16x1000000_0_12_n_n_12_1_1611 x i) : (⟨S16x256x256, .f32⟩ : BufTy).Contents (Elt F) → (⟨S1000000x2, .i32⟩ : BufTy).Contents (Elt F) → (⟨S16x1000000, .f32⟩ : BufTy).Contents (Elt F)),
    binary main_v313 main_v302 main_v349 (mulf : (⟨S1000000, .f32⟩ : BufTy).Contents (Elt F) → (⟨S1000000, .f32⟩ : BufTy).Contents (Elt F) → (⟨S1000000, .f32⟩ : BufTy).Contents (Elt F)),
    unary main_v349 main_v350 (broadcastInDim S1x1000000 ![1] bcast_S1000000_S1x1000000_1 : (⟨S1000000, .f32⟩ : BufTy).Contents (Elt F) → (⟨S1x1000000, .f32⟩ : BufTy).Contents (Elt F)),
    unary main_v350 main_v351 (broadcastInDim S16x1000000 ![0, 1] bcast_S1x1000000_S16x1000000_0_1 : (⟨S1x1000000, .f32⟩ : BufTy).Contents (Elt F) → (⟨S16x1000000, .f32⟩ : BufTy).Contents (Elt F)),
    binary main_v348 main_v351 main_v352 (mulf : (⟨S16x1000000, .f32⟩ : BufTy).Contents (Elt F) → (⟨S16x1000000, .f32⟩ : BufTy).Contents (Elt F) → (⟨S16x1000000, .f32⟩ : BufTy).Contents (Elt F)),
    binary main_v334 main_v352 main_v353 (addf : (⟨S16x1000000, .f32⟩ : BufTy).Contents (Elt F) → (⟨S16x1000000, .f32⟩ : BufTy).Contents (Elt F) → (⟨S16x1000000, .f32⟩ : BufTy).Contents (Elt F)),
    nullary main_cst_110 (constant S_ .f32 0x3F800000#32),
    unary main_cst_110 main_v354 (broadcastInDim S1000000 ![] bcast_S_S1000000 : (⟨S_, .f32⟩ : BufTy).Contents (Elt F) → (⟨S1000000, .f32⟩ : BufTy).Contents (Elt F)),
    binary main_v354 main_v302 main_v355 (subf : (⟨S1000000, .f32⟩ : BufTy).Contents (Elt F) → (⟨S1000000, .f32⟩ : BufTy).Contents (Elt F) → (⟨S1000000, .f32⟩ : BufTy).Contents (Elt F)),
    nullary main_c_111 (constantI S_ 32 0#32),
    unary main_c_111 main_v356 (broadcastInDim S1000000 ![] bcast_S_S1000000 : (⟨S_, .i32⟩ : BufTy).Contents (Elt F) → (⟨S1000000, .i32⟩ : BufTy).Contents (Elt F)),
    binary main_v309 main_v356 main_v357 (cmpi .slt : (⟨S1000000, .i32⟩ : BufTy).Contents (Elt F) → (⟨S1000000, .i32⟩ : BufTy).Contents (Elt F) → (⟨S1000000, .i1⟩ : BufTy).Contents (Elt F)),
    nullary main_c_112 (constantI S_ 32 256#32),
    unary main_c_112 main_v358 (broadcastInDim S1000000 ![] bcast_S_S1000000 : (⟨S_, .i32⟩ : BufTy).Contents (Elt F) → (⟨S1000000, .i32⟩ : BufTy).Contents (Elt F)),
    binary main_v309 main_v358 main_v359 (addi : (⟨S1000000, .i32⟩ : BufTy).Contents (Elt F) → (⟨S1000000, .i32⟩ : BufTy).Contents (Elt F) → (⟨S1000000, .i32⟩ : BufTy).Contents (Elt F)),
    ternary main_v357 main_v359 main_v309 main_v360 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    nullary main_c_113 (constantI S_ 32 0#32),
    unary main_c_113 main_v361 (broadcastInDim S1000000 ![] bcast_S_S1000000 : (⟨S_, .i32⟩ : BufTy).Contents (Elt F) → (⟨S1000000, .i32⟩ : BufTy).Contents (Elt F)),
    binary main_v297 main_v361 main_v362 (cmpi .slt : (⟨S1000000, .i32⟩ : BufTy).Contents (Elt F) → (⟨S1000000, .i32⟩ : BufTy).Contents (Elt F) → (⟨S1000000, .i1⟩ : BufTy).Contents (Elt F)),
    nullary main_c_114 (constantI S_ 32 256#32) ]

/-- Window main_part8: operations 531 … 590 of 979. -/
abbrev ops8 : List (HloOp τ sig (Elt F)) :=
  [ unary main_c_114 main_v363 (broadcastInDim S1000000 ![] bcast_S_S1000000 : (⟨S_, .i32⟩ : BufTy).Contents (Elt F) → (⟨S1000000, .i32⟩ : BufTy).Contents (Elt F)),
    binary main_v297 main_v363 main_v364 (addi : (⟨S1000000, .i32⟩ : BufTy).Contents (Elt F) → (⟨S1000000, .i32⟩ : BufTy).Contents (Elt F) → (⟨S1000000, .i32⟩ : BufTy).Contents (Elt F)),
    ternary main_v362 main_v364 main_v297 main_v365 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v360 main_v366 (broadcastInDim S1000000x1 ![0] bcast_S1000000_S1000000x1_0 : (⟨S1000000, .i32⟩ : BufTy).Contents (Elt F) → (⟨S1000000x1, .i32⟩ : BufTy).Contents (Elt F)),
    unary main_v365 main_v367 (broadcastInDim S1000000x1 ![0] bcast_S1000000_S1000000x1_0 : (⟨S1000000, .i32⟩ : BufTy).Contents (Elt F) → (⟨S1000000x1, .i32⟩ : BufTy).Contents (Elt F)),
    binary main_v366 main_v367 main_v368 (cat2 (F := F) : (⟨S1000000x1, .i32⟩ : BufTy).Contents (Elt F) → (⟨S1000000x1, .i32⟩ : BufTy).Contents (Elt F) → (⟨S1000000x2, .i32⟩ : BufTy).Contents (Elt F)),
    binary main_arg2 main_v368 main_v369 ((fun x i => Host.gather gather_S16x256x256_S1000000x2_S16x1000000_0_12_n_n_12_1_1611 x i) : (⟨S16x256x256, .f32⟩ : BufTy).Contents (Elt F) → (⟨S1000000x2, .i32⟩ : BufTy).Contents (Elt F) → (⟨S16x1000000, .f32⟩ : BufTy).Contents (Elt F)),
    binary main_v310 main_v355 main_v370 (mulf : (⟨S1000000, .f32⟩ : BufTy).Contents (Elt F) → (⟨S1000000, .f32⟩ : BufTy).Contents (Elt F) → (⟨S1000000, .f32⟩ : BufTy).Contents (Elt F)),
    unary main_v370 main_v371 (broadcastInDim S1x1000000 ![1] bcast_S1000000_S1x1000000_1 : (⟨S1000000, .f32⟩ : BufTy).Contents (Elt F) → (⟨S1x1000000, .f32⟩ : BufTy).Contents (Elt F)),
    unary main_v371 main_v372 (broadcastInDim S16x1000000 ![0, 1] bcast_S1x1000000_S16x1000000_0_1 : (⟨S1x1000000, .f32⟩ : BufTy).Contents (Elt F) → (⟨S16x1000000, .f32⟩ : BufTy).Contents (Elt F)),
    binary main_v369 main_v372 main_v373 (mulf : (⟨S16x1000000, .f32⟩ : BufTy).Contents (Elt F) → (⟨S16x1000000, .f32⟩ : BufTy).Contents (Elt F) → (⟨S16x1000000, .f32⟩ : BufTy).Contents (Elt F)),
    binary main_v353 main_v373 main_v374 (addf : (⟨S16x1000000, .f32⟩ : BufTy).Contents (Elt F) → (⟨S16x1000000, .f32⟩ : BufTy).Contents (Elt F) → (⟨S16x1000000, .f32⟩ : BufTy).Contents (Elt F)),
    nullary main_c_115 (constantI S_ 32 0#32),
    unary main_c_115 main_v375 (broadcastInDim S1000000 ![] bcast_S_S1000000 : (⟨S_, .i32⟩ : BufTy).Contents (Elt F) → (⟨S1000000, .i32⟩ : BufTy).Contents (Elt F)),
    binary main_v309 main_v375 main_v376 (cmpi .slt : (⟨S1000000, .i32⟩ : BufTy).Contents (Elt F) → (⟨S1000000, .i32⟩ : BufTy).Contents (Elt F) → (⟨S1000000, .i1⟩ : BufTy).Contents (Elt F)),
    nullary main_c_116 (constantI S_ 32 256#32),
    unary main_c_116 main_v377 (broadcastInDim S1000000 ![] bcast_S_S1000000 : (⟨S_, .i32⟩ : BufTy).Contents (Elt F) → (⟨S1000000, .i32⟩ : BufTy).Contents (Elt F)),
    binary main_v309 main_v377 main_v378 (addi : (⟨S1000000, .i32⟩ : BufTy).Contents (Elt F) → (⟨S1000000, .i32⟩ : BufTy).Contents (Elt F) → (⟨S1000000, .i32⟩ : BufTy).Contents (Elt F)),
    ternary main_v376 main_v378 main_v309 main_v379 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    nullary main_c_117 (constantI S_ 32 0#32),
    unary main_c_117 main_v380 (broadcastInDim S1000000 ![] bcast_S_S1000000 : (⟨S_, .i32⟩ : BufTy).Contents (Elt F) → (⟨S1000000, .i32⟩ : BufTy).Contents (Elt F)),
    binary main_v301 main_v380 main_v381 (cmpi .slt : (⟨S1000000, .i32⟩ : BufTy).Contents (Elt F) → (⟨S1000000, .i32⟩ : BufTy).Contents (Elt F) → (⟨S1000000, .i1⟩ : BufTy).Contents (Elt F)),
    nullary main_c_118 (constantI S_ 32 256#32),
    unary main_c_118 main_v382 (broadcastInDim S1000000 ![] bcast_S_S1000000 : (⟨S_, .i32⟩ : BufTy).Contents (Elt F) → (⟨S1000000, .i32⟩ : BufTy).Contents (Elt F)),
    binary main_v301 main_v382 main_v383 (addi : (⟨S1000000, .i32⟩ : BufTy).Contents (Elt F) → (⟨S1000000, .i32⟩ : BufTy).Contents (Elt F) → (⟨S1000000, .i32⟩ : BufTy).Contents (Elt F)),
    ternary main_v381 main_v383 main_v301 main_v384 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v379 main_v385 (broadcastInDim S1000000x1 ![0] bcast_S1000000_S1000000x1_0 : (⟨S1000000, .i32⟩ : BufTy).Contents (Elt F) → (⟨S1000000x1, .i32⟩ : BufTy).Contents (Elt F)),
    unary main_v384 main_v386 (broadcastInDim S1000000x1 ![0] bcast_S1000000_S1000000x1_0 : (⟨S1000000, .i32⟩ : BufTy).Contents (Elt F) → (⟨S1000000x1, .i32⟩ : BufTy).Contents (Elt F)),
    binary main_v385 main_v386 main_v387 (cat2 (F := F) : (⟨S1000000x1, .i32⟩ : BufTy).Contents (Elt F) → (⟨S1000000x1, .i32⟩ : BufTy).Contents (Elt F) → (⟨S1000000x2, .i32⟩ : BufTy).Contents (Elt F)),
    binary main_arg2 main_v387 main_v388 ((fun x i => Host.gather gather_S16x256x256_S1000000x2_S16x1000000_0_12_n_n_12_1_1611 x i) : (⟨S16x256x256, .f32⟩ : BufTy).Contents (Elt F) → (⟨S1000000x2, .i32⟩ : BufTy).Contents (Elt F) → (⟨S16x1000000, .f32⟩ : BufTy).Contents (Elt F)),
    binary main_v310 main_v302 main_v389 (mulf : (⟨S1000000, .f32⟩ : BufTy).Contents (Elt F) → (⟨S1000000, .f32⟩ : BufTy).Contents (Elt F) → (⟨S1000000, .f32⟩ : BufTy).Contents (Elt F)),
    unary main_v389 main_v390 (broadcastInDim S1x1000000 ![1] bcast_S1000000_S1x1000000_1 : (⟨S1000000, .f32⟩ : BufTy).Contents (Elt F) → (⟨S1x1000000, .f32⟩ : BufTy).Contents (Elt F)),
    unary main_v390 main_v391 (broadcastInDim S16x1000000 ![0, 1] bcast_S1x1000000_S16x1000000_0_1 : (⟨S1x1000000, .f32⟩ : BufTy).Contents (Elt F) → (⟨S16x1000000, .f32⟩ : BufTy).Contents (Elt F)),
    binary main_v388 main_v391 main_v392 (mulf : (⟨S16x1000000, .f32⟩ : BufTy).Contents (Elt F) → (⟨S16x1000000, .f32⟩ : BufTy).Contents (Elt F) → (⟨S16x1000000, .f32⟩ : BufTy).Contents (Elt F)),
    binary main_v374 main_v392 main_v393 (addf : (⟨S16x1000000, .f32⟩ : BufTy).Contents (Elt F) → (⟨S16x1000000, .f32⟩ : BufTy).Contents (Elt F) → (⟨S16x1000000, .f32⟩ : BufTy).Contents (Elt F)),
    binary main_v271 main_v393 main_v394 (mulf : (⟨S16x1000000, .f32⟩ : BufTy).Contents (Elt F) → (⟨S16x1000000, .f32⟩ : BufTy).Contents (Elt F) → (⟨S16x1000000, .f32⟩ : BufTy).Contents (Elt F)),
    nullary main_c_119 (constantI S_ 32 0#32),
    unary main_c_119 main_v395 (broadcastInDim S2 ![] bcast_S_S2 : (⟨S_, .i32⟩ : BufTy).Contents (Elt F) → (⟨S2, .i32⟩ : BufTy).Contents (Elt F)),
    binary main_c_0 main_v395 main_v396 (cmpi .slt : (⟨S2, .i32⟩ : BufTy).Contents (Elt F) → (⟨S2, .i32⟩ : BufTy).Contents (Elt F) → (⟨S2, .i1⟩ : BufTy).Contents (Elt F)),
    nullary main_c_120 (constantI S_ 32 4#32),
    unary main_c_120 main_v397 (broadcastInDim S2 ![] bcast_S_S2 : (⟨S_, .i32⟩ : BufTy).Contents (Elt F) → (⟨S2, .i32⟩ : BufTy).Contents (Elt F)),
    binary main_c_0 main_v397 main_v398 (addi : (⟨S2, .i32⟩ : BufTy).Contents (Elt F) → (⟨S2, .i32⟩ : BufTy).Contents (Elt F) → (⟨S2, .i32⟩ : BufTy).Contents (Elt F)),
    ternary main_v396 main_v398 main_c_0 main_v399 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    unary main_v399 main_v400 (broadcastInDim S2x1 ![0] bcast_S2_S2x1_0 : (⟨S2, .i32⟩ : BufTy).Contents (Elt F) → (⟨S2x1, .i32⟩ : BufTy).Contents (Elt F)),
    binary main_arg0 main_v400 main_v401 ((fun x i => Host.gather gather_S1000000x4_S2x1_S1000000x2_0_1_n_n_1_1_10000001 x i) : (⟨S1000000x4, .f32⟩ : BufTy).Contents (Elt F) → (⟨S2x1, .i32⟩ : BufTy).Contents (Elt F) → (⟨S1000000x2, .f32⟩ : BufTy).Contents (Elt F)),
    unary main_v401 main_v402 ((extractStridedSlice S1000000x1 ![0, 0] · slices_S1000000x2_S1000000x1_0_0) : (⟨S1000000x2, .f32⟩ : BufTy).Contents (Elt F) → (⟨S1000000x1, .f32⟩ : BufTy).Contents (Elt F)),
    reshape main_v402 main_v403 rfl shapeCasts_S1000000x1_S1000000,
    nullary main_cst_121 (constant S_ .f32 0x3F800000#32),
    unary main_cst_121 main_v404 (broadcastInDim S1000000 ![] bcast_S_S1000000 : (⟨S_, .f32⟩ : BufTy).Contents (Elt F) → (⟨S1000000, .f32⟩ : BufTy).Contents (Elt F)),
    binary main_v403 main_v404 main_v405 (addf : (⟨S1000000, .f32⟩ : BufTy).Contents (Elt F) → (⟨S1000000, .f32⟩ : BufTy).Contents (Elt F) → (⟨S1000000, .f32⟩ : BufTy).Contents (Elt F)),
    nullary main_cst_122 (constant S_ .f32 0x3F000000#32),
    unary main_cst_122 main_v406 (broadcastInDim S1000000 ![] bcast_S_S1000000 : (⟨S_, .f32⟩ : BufTy).Contents (Elt F) → (⟨S1000000, .f32⟩ : BufTy).Contents (Elt F)),
    binary main_v405 main_v406 main_v407 (mulf : (⟨S1000000, .f32⟩ : BufTy).Contents (Elt F) → (⟨S1000000, .f32⟩ : BufTy).Contents (Elt F) → (⟨S1000000, .f32⟩ : BufTy).Contents (Elt F)),
    nullary main_cst_123 (constant S_ .f32 0x437F0000#32),
    unary main_cst_123 main_v408 (broadcastInDim S1000000 ![] bcast_S_S1000000 : (⟨S_, .f32⟩ : BufTy).Contents (Elt F) → (⟨S1000000, .f32⟩ : BufTy).Contents (Elt F)),
    binary main_v407 main_v408 main_v409 (mulf : (⟨S1000000, .f32⟩ : BufTy).Contents (Elt F) → (⟨S1000000, .f32⟩ : BufTy).Contents (Elt F) → (⟨S1000000, .f32⟩ : BufTy).Contents (Elt F)),
    unary main_v401 main_v410 ((extractStridedSlice S1000000x1 ![0, 1] · slices_S1000000x2_S1000000x1_0_1) : (⟨S1000000x2, .f32⟩ : BufTy).Contents (Elt F) → (⟨S1000000x1, .f32⟩ : BufTy).Contents (Elt F)),
    reshape main_v410 main_v411 rfl shapeCasts_S1000000x1_S1000000,
    nullary main_cst_124 (constant S_ .f32 0x3F800000#32),
    unary main_cst_124 main_v412 (broadcastInDim S1000000 ![] bcast_S_S1000000 : (⟨S_, .f32⟩ : BufTy).Contents (Elt F) → (⟨S1000000, .f32⟩ : BufTy).Contents (Elt F)) ]

/-- Window main_part9: operations 591 … 670 of 979. -/
abbrev ops9 : List (HloOp τ sig (Elt F)) :=
  [ binary main_v411 main_v412 main_v413 (addf : (⟨S1000000, .f32⟩ : BufTy).Contents (Elt F) → (⟨S1000000, .f32⟩ : BufTy).Contents (Elt F) → (⟨S1000000, .f32⟩ : BufTy).Contents (Elt F)),
    nullary main_cst_125 (constant S_ .f32 0x3F000000#32),
    unary main_cst_125 main_v414 (broadcastInDim S1000000 ![] bcast_S_S1000000 : (⟨S_, .f32⟩ : BufTy).Contents (Elt F) → (⟨S1000000, .f32⟩ : BufTy).Contents (Elt F)),
    binary main_v413 main_v414 main_v415 (mulf : (⟨S1000000, .f32⟩ : BufTy).Contents (Elt F) → (⟨S1000000, .f32⟩ : BufTy).Contents (Elt F) → (⟨S1000000, .f32⟩ : BufTy).Contents (Elt F)),
    nullary main_cst_126 (constant S_ .f32 0x437F0000#32),
    unary main_cst_126 main_v416 (broadcastInDim S1000000 ![] bcast_S_S1000000 : (⟨S_, .f32⟩ : BufTy).Contents (Elt F) → (⟨S1000000, .f32⟩ : BufTy).Contents (Elt F)),
    binary main_v415 main_v416 main_v417 (mulf : (⟨S1000000, .f32⟩ : BufTy).Contents (Elt F) → (⟨S1000000, .f32⟩ : BufTy).Contents (Elt F) → (⟨S1000000, .f32⟩ : BufTy).Contents (Elt F)),
    unary main_v409 main_v418 (Host.floor : (⟨S1000000, .f32⟩ : BufTy).Contents (Elt F) → (⟨S1000000, .f32⟩ : BufTy).Contents (Elt F)),
    nullary main_c_127 (constantI S_ 32 0#32),
    nullary main_c_128 (constantI S_ 32 255#32),
    unary main_c_127 main_call10_v0 (sitofp .f32 : (⟨S_, .i32⟩ : BufTy).Contents (Elt F) → (⟨S_, .f32⟩ : BufTy).Contents (Elt F)),
    unary main_call10_v0 main_call10_v1 (broadcastInDim S1000000 ![] bcast_S_S1000000 : (⟨S_, .f32⟩ : BufTy).Contents (Elt F) → (⟨S1000000, .f32⟩ : BufTy).Contents (Elt F)),
    binary main_call10_v1 main_v418 main_call10_v2 (maximumf : (⟨S1000000, .f32⟩ : BufTy).Contents (Elt F) → (⟨S1000000, .f32⟩ : BufTy).Contents (Elt F) → (⟨S1000000, .f32⟩ : BufTy).Contents (Elt F)),
    unary main_c_128 main_call10_v3 (sitofp .f32 : (⟨S_, .i32⟩ : BufTy).Contents (Elt F) → (⟨S_, .f32⟩ : BufTy).Contents (Elt F)),
    unary main_call10_v3 main_call10_v4 (broadcastInDim S1000000 ![] bcast_S_S1000000 : (⟨S_, .f32⟩ : BufTy).Contents (Elt F) → (⟨S1000000, .f32⟩ : BufTy).Contents (Elt F)),
    binary main_call10_v4 main_call10_v2 main_v419 (minimumf : (⟨S1000000, .f32⟩ : BufTy).Contents (Elt F) → (⟨S1000000, .f32⟩ : BufTy).Contents (Elt F) → (⟨S1000000, .f32⟩ : BufTy).Contents (Elt F)),
    unary main_v419 main_v420 (fptosi 32 : (⟨S1000000, .f32⟩ : BufTy).Contents (Elt F) → (⟨S1000000, .i32⟩ : BufTy).Contents (Elt F)),
    nullary main_cst_129 (constant S_ .f32 0x3F800000#32),
    unary main_cst_129 main_v421 (broadcastInDim S1000000 ![] bcast_S_S1000000 : (⟨S_, .f32⟩ : BufTy).Contents (Elt F) → (⟨S1000000, .f32⟩ : BufTy).Contents (Elt F)),
    binary main_v418 main_v421 main_v422 (addf : (⟨S1000000, .f32⟩ : BufTy).Contents (Elt F) → (⟨S1000000, .f32⟩ : BufTy).Contents (Elt F) → (⟨S1000000, .f32⟩ : BufTy).Contents (Elt F)),
    nullary main_c_130 (constantI S_ 32 0#32),
    nullary main_c_131 (constantI S_ 32 255#32),
    unary main_c_130 main_call11_v0 (sitofp .f32 : (⟨S_, .i32⟩ : BufTy).Contents (Elt F) → (⟨S_, .f32⟩ : BufTy).Contents (Elt F)),
    unary main_call11_v0 main_call11_v1 (broadcastInDim S1000000 ![] bcast_S_S1000000 : (⟨S_, .f32⟩ : BufTy).Contents (Elt F) → (⟨S1000000, .f32⟩ : BufTy).Contents (Elt F)),
    binary main_call11_v1 main_v422 main_call11_v2 (maximumf : (⟨S1000000, .f32⟩ : BufTy).Contents (Elt F) → (⟨S1000000, .f32⟩ : BufTy).Contents (Elt F) → (⟨S1000000, .f32⟩ : BufTy).Contents (Elt F)),
    unary main_c_131 main_call11_v3 (sitofp .f32 : (⟨S_, .i32⟩ : BufTy).Contents (Elt F) → (⟨S_, .f32⟩ : BufTy).Contents (Elt F)),
    unary main_call11_v3 main_call11_v4 (broadcastInDim S1000000 ![] bcast_S_S1000000 : (⟨S_, .f32⟩ : BufTy).Contents (Elt F) → (⟨S1000000, .f32⟩ : BufTy).Contents (Elt F)),
    binary main_call11_v4 main_call11_v2 main_v423 (minimumf : (⟨S1000000, .f32⟩ : BufTy).Contents (Elt F) → (⟨S1000000, .f32⟩ : BufTy).Contents (Elt F) → (⟨S1000000, .f32⟩ : BufTy).Contents (Elt F)),
    unary main_v423 main_v424 (fptosi 32 : (⟨S1000000, .f32⟩ : BufTy).Contents (Elt F) → (⟨S1000000, .i32⟩ : BufTy).Contents (Elt F)),
    binary main_v409 main_v418 main_v425 (subf : (⟨S1000000, .f32⟩ : BufTy).Contents (Elt F) → (⟨S1000000, .f32⟩ : BufTy).Contents (Elt F) → (⟨S1000000, .f32⟩ : BufTy).Contents (Elt F)),
    unary main_v417 main_v426 (Host.floor : (⟨S1000000, .f32⟩ : BufTy).Contents (Elt F) → (⟨S1000000, .f32⟩ : BufTy).Contents (Elt F)),
    nullary main_c_132 (constantI S_ 32 0#32),
    nullary main_c_133 (constantI S_ 32 255#32),
    unary main_c_132 main_call12_v0 (sitofp .f32 : (⟨S_, .i32⟩ : BufTy).Contents (Elt F) → (⟨S_, .f32⟩ : BufTy).Contents (Elt F)),
    unary main_call12_v0 main_call12_v1 (broadcastInDim S1000000 ![] bcast_S_S1000000 : (⟨S_, .f32⟩ : BufTy).Contents (Elt F) → (⟨S1000000, .f32⟩ : BufTy).Contents (Elt F)),
    binary main_call12_v1 main_v426 main_call12_v2 (maximumf : (⟨S1000000, .f32⟩ : BufTy).Contents (Elt F) → (⟨S1000000, .f32⟩ : BufTy).Contents (Elt F) → (⟨S1000000, .f32⟩ : BufTy).Contents (Elt F)),
    unary main_c_133 main_call12_v3 (sitofp .f32 : (⟨S_, .i32⟩ : BufTy).Contents (Elt F) → (⟨S_, .f32⟩ : BufTy).Contents (Elt F)),
    unary main_call12_v3 main_call12_v4 (broadcastInDim S1000000 ![] bcast_S_S1000000 : (⟨S_, .f32⟩ : BufTy).Contents (Elt F) → (⟨S1000000, .f32⟩ : BufTy).Contents (Elt F)),
    binary main_call12_v4 main_call12_v2 main_v427 (minimumf : (⟨S1000000, .f32⟩ : BufTy).Contents (Elt F) → (⟨S1000000, .f32⟩ : BufTy).Contents (Elt F) → (⟨S1000000, .f32⟩ : BufTy).Contents (Elt F)),
    unary main_v427 main_v428 (fptosi 32 : (⟨S1000000, .f32⟩ : BufTy).Contents (Elt F) → (⟨S1000000, .i32⟩ : BufTy).Contents (Elt F)),
    nullary main_cst_134 (constant S_ .f32 0x3F800000#32),
    unary main_cst_134 main_v429 (broadcastInDim S1000000 ![] bcast_S_S1000000 : (⟨S_, .f32⟩ : BufTy).Contents (Elt F) → (⟨S1000000, .f32⟩ : BufTy).Contents (Elt F)),
    binary main_v426 main_v429 main_v430 (addf : (⟨S1000000, .f32⟩ : BufTy).Contents (Elt F) → (⟨S1000000, .f32⟩ : BufTy).Contents (Elt F) → (⟨S1000000, .f32⟩ : BufTy).Contents (Elt F)),
    nullary main_c_135 (constantI S_ 32 0#32),
    nullary main_c_136 (constantI S_ 32 255#32),
    unary main_c_135 main_call13_v0 (sitofp .f32 : (⟨S_, .i32⟩ : BufTy).Contents (Elt F) → (⟨S_, .f32⟩ : BufTy).Contents (Elt F)),
    unary main_call13_v0 main_call13_v1 (broadcastInDim S1000000 ![] bcast_S_S1000000 : (⟨S_, .f32⟩ : BufTy).Contents (Elt F) → (⟨S1000000, .f32⟩ : BufTy).Contents (Elt F)),
    binary main_call13_v1 main_v430 main_call13_v2 (maximumf : (⟨S1000000, .f32⟩ : BufTy).Contents (Elt F) → (⟨S1000000, .f32⟩ : BufTy).Contents (Elt F) → (⟨S1000000, .f32⟩ : BufTy).Contents (Elt F)),
    unary main_c_136 main_call13_v3 (sitofp .f32 : (⟨S_, .i32⟩ : BufTy).Contents (Elt F) → (⟨S_, .f32⟩ : BufTy).Contents (Elt F)),
    unary main_call13_v3 main_call13_v4 (broadcastInDim S1000000 ![] bcast_S_S1000000 : (⟨S_, .f32⟩ : BufTy).Contents (Elt F) → (⟨S1000000, .f32⟩ : BufTy).Contents (Elt F)),
    binary main_call13_v4 main_call13_v2 main_v431 (minimumf : (⟨S1000000, .f32⟩ : BufTy).Contents (Elt F) → (⟨S1000000, .f32⟩ : BufTy).Contents (Elt F) → (⟨S1000000, .f32⟩ : BufTy).Contents (Elt F)),
    unary main_v431 main_v432 (fptosi 32 : (⟨S1000000, .f32⟩ : BufTy).Contents (Elt F) → (⟨S1000000, .i32⟩ : BufTy).Contents (Elt F)),
    binary main_v417 main_v426 main_v433 (subf : (⟨S1000000, .f32⟩ : BufTy).Contents (Elt F) → (⟨S1000000, .f32⟩ : BufTy).Contents (Elt F) → (⟨S1000000, .f32⟩ : BufTy).Contents (Elt F)),
    nullary main_cst_137 (constant S_ .f32 0x00000000#32),
    unary main_cst_137 main_v434 (broadcastInDim S16x1000000 ![] bcast_S_S16x1000000 : (⟨S_, .f32⟩ : BufTy).Contents (Elt F) → (⟨S16x1000000, .f32⟩ : BufTy).Contents (Elt F)),
    nullary main_cst_138 (constant S_ .f32 0x3F800000#32),
    unary main_cst_138 main_v435 (broadcastInDim S1000000 ![] bcast_S_S1000000 : (⟨S_, .f32⟩ : BufTy).Contents (Elt F) → (⟨S1000000, .f32⟩ : BufTy).Contents (Elt F)),
    binary main_v435 main_v433 main_v436 (subf : (⟨S1000000, .f32⟩ : BufTy).Contents (Elt F) → (⟨S1000000, .f32⟩ : BufTy).Contents (Elt F) → (⟨S1000000, .f32⟩ : BufTy).Contents (Elt F)),
    nullary main_cst_139 (constant S_ .f32 0x3F800000#32),
    unary main_cst_139 main_v437 (broadcastInDim S1000000 ![] bcast_S_S1000000 : (⟨S_, .f32⟩ : BufTy).Contents (Elt F) → (⟨S1000000, .f32⟩ : BufTy).Contents (Elt F)),
    binary main_v437 main_v425 main_v438 (subf : (⟨S1000000, .f32⟩ : BufTy).Contents (Elt F) → (⟨S1000000, .f32⟩ : BufTy).Contents (Elt F) → (⟨S1000000, .f32⟩ : BufTy).Contents (Elt F)),
    nullary main_c_140 (constantI S_ 32 0#32),
    unary main_c_140 main_v439 (broadcastInDim S1000000 ![] bcast_S_S1000000 : (⟨S_, .i32⟩ : BufTy).Contents (Elt F) → (⟨S1000000, .i32⟩ : BufTy).Contents (Elt F)),
    binary main_v428 main_v439 main_v440 (cmpi .slt : (⟨S1000000, .i32⟩ : BufTy).Contents (Elt F) → (⟨S1000000, .i32⟩ : BufTy).Contents (Elt F) → (⟨S1000000, .i1⟩ : BufTy).Contents (Elt F)),
    nullary main_c_141 (constantI S_ 32 256#32),
    unary main_c_141 main_v441 (broadcastInDim S1000000 ![] bcast_S_S1000000 : (⟨S_, .i32⟩ : BufTy).Contents (Elt F) → (⟨S1000000, .i32⟩ : BufTy).Contents (Elt F)),
    binary main_v428 main_v441 main_v442 (addi : (⟨S1000000, .i32⟩ : BufTy).Contents (Elt F) → (⟨S1000000, .i32⟩ : BufTy).Contents (Elt F) → (⟨S1000000, .i32⟩ : BufTy).Contents (Elt F)),
    ternary main_v440 main_v442 main_v428 main_v443 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    nullary main_c_142 (constantI S_ 32 0#32),
    unary main_c_142 main_v444 (broadcastInDim S1000000 ![] bcast_S_S1000000 : (⟨S_, .i32⟩ : BufTy).Contents (Elt F) → (⟨S1000000, .i32⟩ : BufTy).Contents (Elt F)),
    binary main_v420 main_v444 main_v445 (cmpi .slt : (⟨S1000000, .i32⟩ : BufTy).Contents (Elt F) → (⟨S1000000, .i32⟩ : BufTy).Contents (Elt F) → (⟨S1000000, .i1⟩ : BufTy).Contents (Elt F)),
    nullary main_c_143 (constantI S_ 32 256#32),
    unary main_c_143 main_v446 (broadcastInDim S1000000 ![] bcast_S_S1000000 : (⟨S_, .i32⟩ : BufTy).Contents (Elt F) → (⟨S1000000, .i32⟩ : BufTy).Contents (Elt F)),
    binary main_v420 main_v446 main_v447 (addi : (⟨S1000000, .i32⟩ : BufTy).Contents (Elt F) → (⟨S1000000, .i32⟩ : BufTy).Contents (Elt F) → (⟨S1000000, .i32⟩ : BufTy).Contents (Elt F)),
    ternary main_v445 main_v447 main_v420 main_v448 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v443 main_v449 (broadcastInDim S1000000x1 ![0] bcast_S1000000_S1000000x1_0 : (⟨S1000000, .i32⟩ : BufTy).Contents (Elt F) → (⟨S1000000x1, .i32⟩ : BufTy).Contents (Elt F)),
    unary main_v448 main_v450 (broadcastInDim S1000000x1 ![0] bcast_S1000000_S1000000x1_0 : (⟨S1000000, .i32⟩ : BufTy).Contents (Elt F) → (⟨S1000000x1, .i32⟩ : BufTy).Contents (Elt F)),
    binary main_v449 main_v450 main_v451 (cat2 (F := F) : (⟨S1000000x1, .i32⟩ : BufTy).Contents (Elt F) → (⟨S1000000x1, .i32⟩ : BufTy).Contents (Elt F) → (⟨S1000000x2, .i32⟩ : BufTy).Contents (Elt F)),
    binary main_arg3 main_v451 main_v452 ((fun x i => Host.gather gather_S16x256x256_S1000000x2_S16x1000000_0_12_n_n_12_1_1611 x i) : (⟨S16x256x256, .f32⟩ : BufTy).Contents (Elt F) → (⟨S1000000x2, .i32⟩ : BufTy).Contents (Elt F) → (⟨S16x1000000, .f32⟩ : BufTy).Contents (Elt F)),
    binary main_v436 main_v438 main_v453 (mulf : (⟨S1000000, .f32⟩ : BufTy).Contents (Elt F) → (⟨S1000000, .f32⟩ : BufTy).Contents (Elt F) → (⟨S1000000, .f32⟩ : BufTy).Contents (Elt F)) ]

/-- Window main_part10: operations 671 … 730 of 979. -/
abbrev ops10 : List (HloOp τ sig (Elt F)) :=
  [ unary main_v453 main_v454 (broadcastInDim S1x1000000 ![1] bcast_S1000000_S1x1000000_1 : (⟨S1000000, .f32⟩ : BufTy).Contents (Elt F) → (⟨S1x1000000, .f32⟩ : BufTy).Contents (Elt F)),
    unary main_v454 main_v455 (broadcastInDim S16x1000000 ![0, 1] bcast_S1x1000000_S16x1000000_0_1 : (⟨S1x1000000, .f32⟩ : BufTy).Contents (Elt F) → (⟨S16x1000000, .f32⟩ : BufTy).Contents (Elt F)),
    binary main_v452 main_v455 main_v456 (mulf : (⟨S16x1000000, .f32⟩ : BufTy).Contents (Elt F) → (⟨S16x1000000, .f32⟩ : BufTy).Contents (Elt F) → (⟨S16x1000000, .f32⟩ : BufTy).Contents (Elt F)),
    binary main_v434 main_v456 main_v457 (addf : (⟨S16x1000000, .f32⟩ : BufTy).Contents (Elt F) → (⟨S16x1000000, .f32⟩ : BufTy).Contents (Elt F) → (⟨S16x1000000, .f32⟩ : BufTy).Contents (Elt F)),
    nullary main_c_144 (constantI S_ 32 0#32),
    unary main_c_144 main_v458 (broadcastInDim S1000000 ![] bcast_S_S1000000 : (⟨S_, .i32⟩ : BufTy).Contents (Elt F) → (⟨S1000000, .i32⟩ : BufTy).Contents (Elt F)),
    binary main_v428 main_v458 main_v459 (cmpi .slt : (⟨S1000000, .i32⟩ : BufTy).Contents (Elt F) → (⟨S1000000, .i32⟩ : BufTy).Contents (Elt F) → (⟨S1000000, .i1⟩ : BufTy).Contents (Elt F)),
    nullary main_c_145 (constantI S_ 32 256#32),
    unary main_c_145 main_v460 (broadcastInDim S1000000 ![] bcast_S_S1000000 : (⟨S_, .i32⟩ : BufTy).Contents (Elt F) → (⟨S1000000, .i32⟩ : BufTy).Contents (Elt F)),
    binary main_v428 main_v460 main_v461 (addi : (⟨S1000000, .i32⟩ : BufTy).Contents (Elt F) → (⟨S1000000, .i32⟩ : BufTy).Contents (Elt F) → (⟨S1000000, .i32⟩ : BufTy).Contents (Elt F)),
    ternary main_v459 main_v461 main_v428 main_v462 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    nullary main_c_146 (constantI S_ 32 0#32),
    unary main_c_146 main_v463 (broadcastInDim S1000000 ![] bcast_S_S1000000 : (⟨S_, .i32⟩ : BufTy).Contents (Elt F) → (⟨S1000000, .i32⟩ : BufTy).Contents (Elt F)),
    binary main_v424 main_v463 main_v464 (cmpi .slt : (⟨S1000000, .i32⟩ : BufTy).Contents (Elt F) → (⟨S1000000, .i32⟩ : BufTy).Contents (Elt F) → (⟨S1000000, .i1⟩ : BufTy).Contents (Elt F)),
    nullary main_c_147 (constantI S_ 32 256#32),
    unary main_c_147 main_v465 (broadcastInDim S1000000 ![] bcast_S_S1000000 : (⟨S_, .i32⟩ : BufTy).Contents (Elt F) → (⟨S1000000, .i32⟩ : BufTy).Contents (Elt F)),
    binary main_v424 main_v465 main_v466 (addi : (⟨S1000000, .i32⟩ : BufTy).Contents (Elt F) → (⟨S1000000, .i32⟩ : BufTy).Contents (Elt F) → (⟨S1000000, .i32⟩ : BufTy).Contents (Elt F)),
    ternary main_v464 main_v466 main_v424 main_v467 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v462 main_v468 (broadcastInDim S1000000x1 ![0] bcast_S1000000_S1000000x1_0 : (⟨S1000000, .i32⟩ : BufTy).Contents (Elt F) → (⟨S1000000x1, .i32⟩ : BufTy).Contents (Elt F)),
    unary main_v467 main_v469 (broadcastInDim S1000000x1 ![0] bcast_S1000000_S1000000x1_0 : (⟨S1000000, .i32⟩ : BufTy).Contents (Elt F) → (⟨S1000000x1, .i32⟩ : BufTy).Contents (Elt F)),
    binary main_v468 main_v469 main_v470 (cat2 (F := F) : (⟨S1000000x1, .i32⟩ : BufTy).Contents (Elt F) → (⟨S1000000x1, .i32⟩ : BufTy).Contents (Elt F) → (⟨S1000000x2, .i32⟩ : BufTy).Contents (Elt F)),
    binary main_arg3 main_v470 main_v471 ((fun x i => Host.gather gather_S16x256x256_S1000000x2_S16x1000000_0_12_n_n_12_1_1611 x i) : (⟨S16x256x256, .f32⟩ : BufTy).Contents (Elt F) → (⟨S1000000x2, .i32⟩ : BufTy).Contents (Elt F) → (⟨S16x1000000, .f32⟩ : BufTy).Contents (Elt F)),
    binary main_v436 main_v425 main_v472 (mulf : (⟨S1000000, .f32⟩ : BufTy).Contents (Elt F) → (⟨S1000000, .f32⟩ : BufTy).Contents (Elt F) → (⟨S1000000, .f32⟩ : BufTy).Contents (Elt F)),
    unary main_v472 main_v473 (broadcastInDim S1x1000000 ![1] bcast_S1000000_S1x1000000_1 : (⟨S1000000, .f32⟩ : BufTy).Contents (Elt F) → (⟨S1x1000000, .f32⟩ : BufTy).Contents (Elt F)),
    unary main_v473 main_v474 (broadcastInDim S16x1000000 ![0, 1] bcast_S1x1000000_S16x1000000_0_1 : (⟨S1x1000000, .f32⟩ : BufTy).Contents (Elt F) → (⟨S16x1000000, .f32⟩ : BufTy).Contents (Elt F)),
    binary main_v471 main_v474 main_v475 (mulf : (⟨S16x1000000, .f32⟩ : BufTy).Contents (Elt F) → (⟨S16x1000000, .f32⟩ : BufTy).Contents (Elt F) → (⟨S16x1000000, .f32⟩ : BufTy).Contents (Elt F)),
    binary main_v457 main_v475 main_v476 (addf : (⟨S16x1000000, .f32⟩ : BufTy).Contents (Elt F) → (⟨S16x1000000, .f32⟩ : BufTy).Contents (Elt F) → (⟨S16x1000000, .f32⟩ : BufTy).Contents (Elt F)),
    nullary main_cst_148 (constant S_ .f32 0x3F800000#32),
    unary main_cst_148 main_v477 (broadcastInDim S1000000 ![] bcast_S_S1000000 : (⟨S_, .f32⟩ : BufTy).Contents (Elt F) → (⟨S1000000, .f32⟩ : BufTy).Contents (Elt F)),
    binary main_v477 main_v425 main_v478 (subf : (⟨S1000000, .f32⟩ : BufTy).Contents (Elt F) → (⟨S1000000, .f32⟩ : BufTy).Contents (Elt F) → (⟨S1000000, .f32⟩ : BufTy).Contents (Elt F)),
    nullary main_c_149 (constantI S_ 32 0#32),
    unary main_c_149 main_v479 (broadcastInDim S1000000 ![] bcast_S_S1000000 : (⟨S_, .i32⟩ : BufTy).Contents (Elt F) → (⟨S1000000, .i32⟩ : BufTy).Contents (Elt F)),
    binary main_v432 main_v479 main_v480 (cmpi .slt : (⟨S1000000, .i32⟩ : BufTy).Contents (Elt F) → (⟨S1000000, .i32⟩ : BufTy).Contents (Elt F) → (⟨S1000000, .i1⟩ : BufTy).Contents (Elt F)),
    nullary main_c_150 (constantI S_ 32 256#32),
    unary main_c_150 main_v481 (broadcastInDim S1000000 ![] bcast_S_S1000000 : (⟨S_, .i32⟩ : BufTy).Contents (Elt F) → (⟨S1000000, .i32⟩ : BufTy).Contents (Elt F)),
    binary main_v432 main_v481 main_v482 (addi : (⟨S1000000, .i32⟩ : BufTy).Contents (Elt F) → (⟨S1000000, .i32⟩ : BufTy).Contents (Elt F) → (⟨S1000000, .i32⟩ : BufTy).Contents (Elt F)),
    ternary main_v480 main_v482 main_v432 main_v483 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    nullary main_c_151 (constantI S_ 32 0#32),
    unary main_c_151 main_v484 (broadcastInDim S1000000 ![] bcast_S_S1000000 : (⟨S_, .i32⟩ : BufTy).Contents (Elt F) → (⟨S1000000, .i32⟩ : BufTy).Contents (Elt F)),
    binary main_v420 main_v484 main_v485 (cmpi .slt : (⟨S1000000, .i32⟩ : BufTy).Contents (Elt F) → (⟨S1000000, .i32⟩ : BufTy).Contents (Elt F) → (⟨S1000000, .i1⟩ : BufTy).Contents (Elt F)),
    nullary main_c_152 (constantI S_ 32 256#32),
    unary main_c_152 main_v486 (broadcastInDim S1000000 ![] bcast_S_S1000000 : (⟨S_, .i32⟩ : BufTy).Contents (Elt F) → (⟨S1000000, .i32⟩ : BufTy).Contents (Elt F)),
    binary main_v420 main_v486 main_v487 (addi : (⟨S1000000, .i32⟩ : BufTy).Contents (Elt F) → (⟨S1000000, .i32⟩ : BufTy).Contents (Elt F) → (⟨S1000000, .i32⟩ : BufTy).Contents (Elt F)),
    ternary main_v485 main_v487 main_v420 main_v488 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v483 main_v489 (broadcastInDim S1000000x1 ![0] bcast_S1000000_S1000000x1_0 : (⟨S1000000, .i32⟩ : BufTy).Contents (Elt F) → (⟨S1000000x1, .i32⟩ : BufTy).Contents (Elt F)),
    unary main_v488 main_v490 (broadcastInDim S1000000x1 ![0] bcast_S1000000_S1000000x1_0 : (⟨S1000000, .i32⟩ : BufTy).Contents (Elt F) → (⟨S1000000x1, .i32⟩ : BufTy).Contents (Elt F)),
    binary main_v489 main_v490 main_v491 (cat2 (F := F) : (⟨S1000000x1, .i32⟩ : BufTy).Contents (Elt F) → (⟨S1000000x1, .i32⟩ : BufTy).Contents (Elt F) → (⟨S1000000x2, .i32⟩ : BufTy).Contents (Elt F)),
    binary main_arg3 main_v491 main_v492 ((fun x i => Host.gather gather_S16x256x256_S1000000x2_S16x1000000_0_12_n_n_12_1_1611 x i) : (⟨S16x256x256, .f32⟩ : BufTy).Contents (Elt F) → (⟨S1000000x2, .i32⟩ : BufTy).Contents (Elt F) → (⟨S16x1000000, .f32⟩ : BufTy).Contents (Elt F)),
    binary main_v433 main_v478 main_v493 (mulf : (⟨S1000000, .f32⟩ : BufTy).Contents (Elt F) → (⟨S1000000, .f32⟩ : BufTy).Contents (Elt F) → (⟨S1000000, .f32⟩ : BufTy).Contents (Elt F)),
    unary main_v493 main_v494 (broadcastInDim S1x1000000 ![1] bcast_S1000000_S1x1000000_1 : (⟨S1000000, .f32⟩ : BufTy).Contents (Elt F) → (⟨S1x1000000, .f32⟩ : BufTy).Contents (Elt F)),
    unary main_v494 main_v495 (broadcastInDim S16x1000000 ![0, 1] bcast_S1x1000000_S16x1000000_0_1 : (⟨S1x1000000, .f32⟩ : BufTy).Contents (Elt F) → (⟨S16x1000000, .f32⟩ : BufTy).Contents (Elt F)),
    binary main_v492 main_v495 main_v496 (mulf : (⟨S16x1000000, .f32⟩ : BufTy).Contents (Elt F) → (⟨S16x1000000, .f32⟩ : BufTy).Contents (Elt F) → (⟨S16x1000000, .f32⟩ : BufTy).Contents (Elt F)),
    binary main_v476 main_v496 main_v497 (addf : (⟨S16x1000000, .f32⟩ : BufTy).Contents (Elt F) → (⟨S16x1000000, .f32⟩ : BufTy).Contents (Elt F) → (⟨S16x1000000, .f32⟩ : BufTy).Contents (Elt F)),
    nullary main_c_153 (constantI S_ 32 0#32),
    unary main_c_153 main_v498 (broadcastInDim S1000000 ![] bcast_S_S1000000 : (⟨S_, .i32⟩ : BufTy).Contents (Elt F) → (⟨S1000000, .i32⟩ : BufTy).Contents (Elt F)),
    binary main_v432 main_v498 main_v499 (cmpi .slt : (⟨S1000000, .i32⟩ : BufTy).Contents (Elt F) → (⟨S1000000, .i32⟩ : BufTy).Contents (Elt F) → (⟨S1000000, .i1⟩ : BufTy).Contents (Elt F)),
    nullary main_c_154 (constantI S_ 32 256#32),
    unary main_c_154 main_v500 (broadcastInDim S1000000 ![] bcast_S_S1000000 : (⟨S_, .i32⟩ : BufTy).Contents (Elt F) → (⟨S1000000, .i32⟩ : BufTy).Contents (Elt F)),
    binary main_v432 main_v500 main_v501 (addi : (⟨S1000000, .i32⟩ : BufTy).Contents (Elt F) → (⟨S1000000, .i32⟩ : BufTy).Contents (Elt F) → (⟨S1000000, .i32⟩ : BufTy).Contents (Elt F)),
    ternary main_v499 main_v501 main_v432 main_v502 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) ]

/-- Window main_part11: operations 731 … 800 of 979. -/
abbrev ops11 : List (HloOp τ sig (Elt F)) :=
  [ nullary main_c_155 (constantI S_ 32 0#32),
    unary main_c_155 main_v503 (broadcastInDim S1000000 ![] bcast_S_S1000000 : (⟨S_, .i32⟩ : BufTy).Contents (Elt F) → (⟨S1000000, .i32⟩ : BufTy).Contents (Elt F)),
    binary main_v424 main_v503 main_v504 (cmpi .slt : (⟨S1000000, .i32⟩ : BufTy).Contents (Elt F) → (⟨S1000000, .i32⟩ : BufTy).Contents (Elt F) → (⟨S1000000, .i1⟩ : BufTy).Contents (Elt F)),
    nullary main_c_156 (constantI S_ 32 256#32),
    unary main_c_156 main_v505 (broadcastInDim S1000000 ![] bcast_S_S1000000 : (⟨S_, .i32⟩ : BufTy).Contents (Elt F) → (⟨S1000000, .i32⟩ : BufTy).Contents (Elt F)),
    binary main_v424 main_v505 main_v506 (addi : (⟨S1000000, .i32⟩ : BufTy).Contents (Elt F) → (⟨S1000000, .i32⟩ : BufTy).Contents (Elt F) → (⟨S1000000, .i32⟩ : BufTy).Contents (Elt F)),
    ternary main_v504 main_v506 main_v424 main_v507 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v502 main_v508 (broadcastInDim S1000000x1 ![0] bcast_S1000000_S1000000x1_0 : (⟨S1000000, .i32⟩ : BufTy).Contents (Elt F) → (⟨S1000000x1, .i32⟩ : BufTy).Contents (Elt F)),
    unary main_v507 main_v509 (broadcastInDim S1000000x1 ![0] bcast_S1000000_S1000000x1_0 : (⟨S1000000, .i32⟩ : BufTy).Contents (Elt F) → (⟨S1000000x1, .i32⟩ : BufTy).Contents (Elt F)),
    binary main_v508 main_v509 main_v510 (cat2 (F := F) : (⟨S1000000x1, .i32⟩ : BufTy).Contents (Elt F) → (⟨S1000000x1, .i32⟩ : BufTy).Contents (Elt F) → (⟨S1000000x2, .i32⟩ : BufTy).Contents (Elt F)),
    binary main_arg3 main_v510 main_v511 ((fun x i => Host.gather gather_S16x256x256_S1000000x2_S16x1000000_0_12_n_n_12_1_1611 x i) : (⟨S16x256x256, .f32⟩ : BufTy).Contents (Elt F) → (⟨S1000000x2, .i32⟩ : BufTy).Contents (Elt F) → (⟨S16x1000000, .f32⟩ : BufTy).Contents (Elt F)),
    binary main_v433 main_v425 main_v512 (mulf : (⟨S1000000, .f32⟩ : BufTy).Contents (Elt F) → (⟨S1000000, .f32⟩ : BufTy).Contents (Elt F) → (⟨S1000000, .f32⟩ : BufTy).Contents (Elt F)),
    unary main_v512 main_v513 (broadcastInDim S1x1000000 ![1] bcast_S1000000_S1x1000000_1 : (⟨S1000000, .f32⟩ : BufTy).Contents (Elt F) → (⟨S1x1000000, .f32⟩ : BufTy).Contents (Elt F)),
    unary main_v513 main_v514 (broadcastInDim S16x1000000 ![0, 1] bcast_S1x1000000_S16x1000000_0_1 : (⟨S1x1000000, .f32⟩ : BufTy).Contents (Elt F) → (⟨S16x1000000, .f32⟩ : BufTy).Contents (Elt F)),
    binary main_v511 main_v514 main_v515 (mulf : (⟨S16x1000000, .f32⟩ : BufTy).Contents (Elt F) → (⟨S16x1000000, .f32⟩ : BufTy).Contents (Elt F) → (⟨S16x1000000, .f32⟩ : BufTy).Contents (Elt F)),
    binary main_v497 main_v515 main_v516 (addf : (⟨S16x1000000, .f32⟩ : BufTy).Contents (Elt F) → (⟨S16x1000000, .f32⟩ : BufTy).Contents (Elt F) → (⟨S16x1000000, .f32⟩ : BufTy).Contents (Elt F)),
    binary main_v394 main_v516 main_v517 (mulf : (⟨S16x1000000, .f32⟩ : BufTy).Contents (Elt F) → (⟨S16x1000000, .f32⟩ : BufTy).Contents (Elt F) → (⟨S16x1000000, .f32⟩ : BufTy).Contents (Elt F)),
    nullary main_c_157 (constantI S_ 32 0#32),
    unary main_c_157 main_v518 (broadcastInDim S2 ![] bcast_S_S2 : (⟨S_, .i32⟩ : BufTy).Contents (Elt F) → (⟨S2, .i32⟩ : BufTy).Contents (Elt F)),
    binary main_c_1 main_v518 main_v519 (cmpi .slt : (⟨S2, .i32⟩ : BufTy).Contents (Elt F) → (⟨S2, .i32⟩ : BufTy).Contents (Elt F) → (⟨S2, .i1⟩ : BufTy).Contents (Elt F)),
    nullary main_c_158 (constantI S_ 32 4#32),
    unary main_c_158 main_v520 (broadcastInDim S2 ![] bcast_S_S2 : (⟨S_, .i32⟩ : BufTy).Contents (Elt F) → (⟨S2, .i32⟩ : BufTy).Contents (Elt F)),
    binary main_c_1 main_v520 main_v521 (addi : (⟨S2, .i32⟩ : BufTy).Contents (Elt F) → (⟨S2, .i32⟩ : BufTy).Contents (Elt F) → (⟨S2, .i32⟩ : BufTy).Contents (Elt F)),
    ternary main_v519 main_v521 main_c_1 main_v522 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    unary main_v522 main_v523 (broadcastInDim S2x1 ![0] bcast_S2_S2x1_0 : (⟨S2, .i32⟩ : BufTy).Contents (Elt F) → (⟨S2x1, .i32⟩ : BufTy).Contents (Elt F)),
    binary main_arg0 main_v523 main_v524 ((fun x i => Host.gather gather_S1000000x4_S2x1_S1000000x2_0_1_n_n_1_1_10000001 x i) : (⟨S1000000x4, .f32⟩ : BufTy).Contents (Elt F) → (⟨S2x1, .i32⟩ : BufTy).Contents (Elt F) → (⟨S1000000x2, .f32⟩ : BufTy).Contents (Elt F)),
    unary main_v524 main_v525 ((extractStridedSlice S1000000x1 ![0, 0] · slices_S1000000x2_S1000000x1_0_0) : (⟨S1000000x2, .f32⟩ : BufTy).Contents (Elt F) → (⟨S1000000x1, .f32⟩ : BufTy).Contents (Elt F)),
    reshape main_v525 main_v526 rfl shapeCasts_S1000000x1_S1000000,
    nullary main_cst_159 (constant S_ .f32 0x3F800000#32),
    unary main_cst_159 main_v527 (broadcastInDim S1000000 ![] bcast_S_S1000000 : (⟨S_, .f32⟩ : BufTy).Contents (Elt F) → (⟨S1000000, .f32⟩ : BufTy).Contents (Elt F)),
    binary main_v526 main_v527 main_v528 (addf : (⟨S1000000, .f32⟩ : BufTy).Contents (Elt F) → (⟨S1000000, .f32⟩ : BufTy).Contents (Elt F) → (⟨S1000000, .f32⟩ : BufTy).Contents (Elt F)),
    nullary main_cst_160 (constant S_ .f32 0x3F000000#32),
    unary main_cst_160 main_v529 (broadcastInDim S1000000 ![] bcast_S_S1000000 : (⟨S_, .f32⟩ : BufTy).Contents (Elt F) → (⟨S1000000, .f32⟩ : BufTy).Contents (Elt F)),
    binary main_v528 main_v529 main_v530 (mulf : (⟨S1000000, .f32⟩ : BufTy).Contents (Elt F) → (⟨S1000000, .f32⟩ : BufTy).Contents (Elt F) → (⟨S1000000, .f32⟩ : BufTy).Contents (Elt F)),
    nullary main_cst_161 (constant S_ .f32 0x437F0000#32),
    unary main_cst_161 main_v531 (broadcastInDim S1000000 ![] bcast_S_S1000000 : (⟨S_, .f32⟩ : BufTy).Contents (Elt F) → (⟨S1000000, .f32⟩ : BufTy).Contents (Elt F)),
    binary main_v530 main_v531 main_v532 (mulf : (⟨S1000000, .f32⟩ : BufTy).Contents (Elt F) → (⟨S1000000, .f32⟩ : BufTy).Contents (Elt F) → (⟨S1000000, .f32⟩ : BufTy).Contents (Elt F)),
    unary main_v524 main_v533 ((extractStridedSlice S1000000x1 ![0, 1] · slices_S1000000x2_S1000000x1_0_1) : (⟨S1000000x2, .f32⟩ : BufTy).Contents (Elt F) → (⟨S1000000x1, .f32⟩ : BufTy).Contents (Elt F)),
    reshape main_v533 main_v534 rfl shapeCasts_S1000000x1_S1000000,
    nullary main_cst_162 (constant S_ .f32 0x3F800000#32),
    unary main_cst_162 main_v535 (broadcastInDim S1000000 ![] bcast_S_S1000000 : (⟨S_, .f32⟩ : BufTy).Contents (Elt F) → (⟨S1000000, .f32⟩ : BufTy).Contents (Elt F)),
    binary main_v534 main_v535 main_v536 (addf : (⟨S1000000, .f32⟩ : BufTy).Contents (Elt F) → (⟨S1000000, .f32⟩ : BufTy).Contents (Elt F) → (⟨S1000000, .f32⟩ : BufTy).Contents (Elt F)),
    nullary main_cst_163 (constant S_ .f32 0x3F000000#32),
    unary main_cst_163 main_v537 (broadcastInDim S1000000 ![] bcast_S_S1000000 : (⟨S_, .f32⟩ : BufTy).Contents (Elt F) → (⟨S1000000, .f32⟩ : BufTy).Contents (Elt F)),
    binary main_v536 main_v537 main_v538 (mulf : (⟨S1000000, .f32⟩ : BufTy).Contents (Elt F) → (⟨S1000000, .f32⟩ : BufTy).Contents (Elt F) → (⟨S1000000, .f32⟩ : BufTy).Contents (Elt F)),
    nullary main_cst_164 (constant S_ .f32 0x437F0000#32),
    unary main_cst_164 main_v539 (broadcastInDim S1000000 ![] bcast_S_S1000000 : (⟨S_, .f32⟩ : BufTy).Contents (Elt F) → (⟨S1000000, .f32⟩ : BufTy).Contents (Elt F)),
    binary main_v538 main_v539 main_v540 (mulf : (⟨S1000000, .f32⟩ : BufTy).Contents (Elt F) → (⟨S1000000, .f32⟩ : BufTy).Contents (Elt F) → (⟨S1000000, .f32⟩ : BufTy).Contents (Elt F)),
    unary main_v532 main_v541 (Host.floor : (⟨S1000000, .f32⟩ : BufTy).Contents (Elt F) → (⟨S1000000, .f32⟩ : BufTy).Contents (Elt F)),
    nullary main_c_165 (constantI S_ 32 0#32),
    nullary main_c_166 (constantI S_ 32 255#32),
    unary main_c_165 main_call14_v0 (sitofp .f32 : (⟨S_, .i32⟩ : BufTy).Contents (Elt F) → (⟨S_, .f32⟩ : BufTy).Contents (Elt F)),
    unary main_call14_v0 main_call14_v1 (broadcastInDim S1000000 ![] bcast_S_S1000000 : (⟨S_, .f32⟩ : BufTy).Contents (Elt F) → (⟨S1000000, .f32⟩ : BufTy).Contents (Elt F)),
    binary main_call14_v1 main_v541 main_call14_v2 (maximumf : (⟨S1000000, .f32⟩ : BufTy).Contents (Elt F) → (⟨S1000000, .f32⟩ : BufTy).Contents (Elt F) → (⟨S1000000, .f32⟩ : BufTy).Contents (Elt F)),
    unary main_c_166 main_call14_v3 (sitofp .f32 : (⟨S_, .i32⟩ : BufTy).Contents (Elt F) → (⟨S_, .f32⟩ : BufTy).Contents (Elt F)),
    unary main_call14_v3 main_call14_v4 (broadcastInDim S1000000 ![] bcast_S_S1000000 : (⟨S_, .f32⟩ : BufTy).Contents (Elt F) → (⟨S1000000, .f32⟩ : BufTy).Contents (Elt F)),
    binary main_call14_v4 main_call14_v2 main_v542 (minimumf : (⟨S1000000, .f32⟩ : BufTy).Contents (Elt F) → (⟨S1000000, .f32⟩ : BufTy).Contents (Elt F) → (⟨S1000000, .f32⟩ : BufTy).Contents (Elt F)),
    unary main_v542 main_v543 (fptosi 32 : (⟨S1000000, .f32⟩ : BufTy).Contents (Elt F) → (⟨S1000000, .i32⟩ : BufTy).Contents (Elt F)),
    nullary main_cst_167 (constant S_ .f32 0x3F800000#32),
    unary main_cst_167 main_v544 (broadcastInDim S1000000 ![] bcast_S_S1000000 : (⟨S_, .f32⟩ : BufTy).Contents (Elt F) → (⟨S1000000, .f32⟩ : BufTy).Contents (Elt F)),
    binary main_v541 main_v544 main_v545 (addf : (⟨S1000000, .f32⟩ : BufTy).Contents (Elt F) → (⟨S1000000, .f32⟩ : BufTy).Contents (Elt F) → (⟨S1000000, .f32⟩ : BufTy).Contents (Elt F)),
    nullary main_c_168 (constantI S_ 32 0#32),
    nullary main_c_169 (constantI S_ 32 255#32),
    unary main_c_168 main_call15_v0 (sitofp .f32 : (⟨S_, .i32⟩ : BufTy).Contents (Elt F) → (⟨S_, .f32⟩ : BufTy).Contents (Elt F)),
    unary main_call15_v0 main_call15_v1 (broadcastInDim S1000000 ![] bcast_S_S1000000 : (⟨S_, .f32⟩ : BufTy).Contents (Elt F) → (⟨S1000000, .f32⟩ : BufTy).Contents (Elt F)),
    binary main_call15_v1 main_v545 main_call15_v2 (maximumf : (⟨S1000000, .f32⟩ : BufTy).Contents (Elt F) → (⟨S1000000, .f32⟩ : BufTy).Contents (Elt F) → (⟨S1000000, .f32⟩ : BufTy).Contents (Elt F)),
    unary main_c_169 main_call15_v3 (sitofp .f32 : (⟨S_, .i32⟩ : BufTy).Contents (Elt F) → (⟨S_, .f32⟩ : BufTy).Contents (Elt F)),
    unary main_call15_v3 main_call15_v4 (broadcastInDim S1000000 ![] bcast_S_S1000000 : (⟨S_, .f32⟩ : BufTy).Contents (Elt F) → (⟨S1000000, .f32⟩ : BufTy).Contents (Elt F)),
    binary main_call15_v4 main_call15_v2 main_v546 (minimumf : (⟨S1000000, .f32⟩ : BufTy).Contents (Elt F) → (⟨S1000000, .f32⟩ : BufTy).Contents (Elt F) → (⟨S1000000, .f32⟩ : BufTy).Contents (Elt F)),
    unary main_v546 main_v547 (fptosi 32 : (⟨S1000000, .f32⟩ : BufTy).Contents (Elt F) → (⟨S1000000, .i32⟩ : BufTy).Contents (Elt F)) ]

/-- Window main_part12: operations 801 … 870 of 979. -/
abbrev ops12 : List (HloOp τ sig (Elt F)) :=
  [ binary main_v532 main_v541 main_v548 (subf : (⟨S1000000, .f32⟩ : BufTy).Contents (Elt F) → (⟨S1000000, .f32⟩ : BufTy).Contents (Elt F) → (⟨S1000000, .f32⟩ : BufTy).Contents (Elt F)),
    unary main_v540 main_v549 (Host.floor : (⟨S1000000, .f32⟩ : BufTy).Contents (Elt F) → (⟨S1000000, .f32⟩ : BufTy).Contents (Elt F)),
    nullary main_c_170 (constantI S_ 32 0#32),
    nullary main_c_171 (constantI S_ 32 255#32),
    unary main_c_170 main_call16_v0 (sitofp .f32 : (⟨S_, .i32⟩ : BufTy).Contents (Elt F) → (⟨S_, .f32⟩ : BufTy).Contents (Elt F)),
    unary main_call16_v0 main_call16_v1 (broadcastInDim S1000000 ![] bcast_S_S1000000 : (⟨S_, .f32⟩ : BufTy).Contents (Elt F) → (⟨S1000000, .f32⟩ : BufTy).Contents (Elt F)),
    binary main_call16_v1 main_v549 main_call16_v2 (maximumf : (⟨S1000000, .f32⟩ : BufTy).Contents (Elt F) → (⟨S1000000, .f32⟩ : BufTy).Contents (Elt F) → (⟨S1000000, .f32⟩ : BufTy).Contents (Elt F)),
    unary main_c_171 main_call16_v3 (sitofp .f32 : (⟨S_, .i32⟩ : BufTy).Contents (Elt F) → (⟨S_, .f32⟩ : BufTy).Contents (Elt F)),
    unary main_call16_v3 main_call16_v4 (broadcastInDim S1000000 ![] bcast_S_S1000000 : (⟨S_, .f32⟩ : BufTy).Contents (Elt F) → (⟨S1000000, .f32⟩ : BufTy).Contents (Elt F)),
    binary main_call16_v4 main_call16_v2 main_v550 (minimumf : (⟨S1000000, .f32⟩ : BufTy).Contents (Elt F) → (⟨S1000000, .f32⟩ : BufTy).Contents (Elt F) → (⟨S1000000, .f32⟩ : BufTy).Contents (Elt F)),
    unary main_v550 main_v551 (fptosi 32 : (⟨S1000000, .f32⟩ : BufTy).Contents (Elt F) → (⟨S1000000, .i32⟩ : BufTy).Contents (Elt F)),
    nullary main_cst_172 (constant S_ .f32 0x3F800000#32),
    unary main_cst_172 main_v552 (broadcastInDim S1000000 ![] bcast_S_S1000000 : (⟨S_, .f32⟩ : BufTy).Contents (Elt F) → (⟨S1000000, .f32⟩ : BufTy).Contents (Elt F)),
    binary main_v549 main_v552 main_v553 (addf : (⟨S1000000, .f32⟩ : BufTy).Contents (Elt F) → (⟨S1000000, .f32⟩ : BufTy).Contents (Elt F) → (⟨S1000000, .f32⟩ : BufTy).Contents (Elt F)),
    nullary main_c_173 (constantI S_ 32 0#32),
    nullary main_c_174 (constantI S_ 32 255#32),
    unary main_c_173 main_call17_v0 (sitofp .f32 : (⟨S_, .i32⟩ : BufTy).Contents (Elt F) → (⟨S_, .f32⟩ : BufTy).Contents (Elt F)),
    unary main_call17_v0 main_call17_v1 (broadcastInDim S1000000 ![] bcast_S_S1000000 : (⟨S_, .f32⟩ : BufTy).Contents (Elt F) → (⟨S1000000, .f32⟩ : BufTy).Contents (Elt F)),
    binary main_call17_v1 main_v553 main_call17_v2 (maximumf : (⟨S1000000, .f32⟩ : BufTy).Contents (Elt F) → (⟨S1000000, .f32⟩ : BufTy).Contents (Elt F) → (⟨S1000000, .f32⟩ : BufTy).Contents (Elt F)),
    unary main_c_174 main_call17_v3 (sitofp .f32 : (⟨S_, .i32⟩ : BufTy).Contents (Elt F) → (⟨S_, .f32⟩ : BufTy).Contents (Elt F)),
    unary main_call17_v3 main_call17_v4 (broadcastInDim S1000000 ![] bcast_S_S1000000 : (⟨S_, .f32⟩ : BufTy).Contents (Elt F) → (⟨S1000000, .f32⟩ : BufTy).Contents (Elt F)),
    binary main_call17_v4 main_call17_v2 main_v554 (minimumf : (⟨S1000000, .f32⟩ : BufTy).Contents (Elt F) → (⟨S1000000, .f32⟩ : BufTy).Contents (Elt F) → (⟨S1000000, .f32⟩ : BufTy).Contents (Elt F)),
    unary main_v554 main_v555 (fptosi 32 : (⟨S1000000, .f32⟩ : BufTy).Contents (Elt F) → (⟨S1000000, .i32⟩ : BufTy).Contents (Elt F)),
    binary main_v540 main_v549 main_v556 (subf : (⟨S1000000, .f32⟩ : BufTy).Contents (Elt F) → (⟨S1000000, .f32⟩ : BufTy).Contents (Elt F) → (⟨S1000000, .f32⟩ : BufTy).Contents (Elt F)),
    nullary main_cst_175 (constant S_ .f32 0x00000000#32),
    unary main_cst_175 main_v557 (broadcastInDim S16x1000000 ![] bcast_S_S16x1000000 : (⟨S_, .f32⟩ : BufTy).Contents (Elt F) → (⟨S16x1000000, .f32⟩ : BufTy).Contents (Elt F)),
    nullary main_cst_176 (constant S_ .f32 0x3F800000#32),
    unary main_cst_176 main_v558 (broadcastInDim S1000000 ![] bcast_S_S1000000 : (⟨S_, .f32⟩ : BufTy).Contents (Elt F) → (⟨S1000000, .f32⟩ : BufTy).Contents (Elt F)),
    binary main_v558 main_v556 main_v559 (subf : (⟨S1000000, .f32⟩ : BufTy).Contents (Elt F) → (⟨S1000000, .f32⟩ : BufTy).Contents (Elt F) → (⟨S1000000, .f32⟩ : BufTy).Contents (Elt F)),
    nullary main_cst_177 (constant S_ .f32 0x3F800000#32),
    unary main_cst_177 main_v560 (broadcastInDim S1000000 ![] bcast_S_S1000000 : (⟨S_, .f32⟩ : BufTy).Contents (Elt F) → (⟨S1000000, .f32⟩ : BufTy).Contents (Elt F)),
    binary main_v560 main_v548 main_v561 (subf : (⟨S1000000, .f32⟩ : BufTy).Contents (Elt F) → (⟨S1000000, .f32⟩ : BufTy).Contents (Elt F) → (⟨S1000000, .f32⟩ : BufTy).Contents (Elt F)),
    nullary main_c_178 (constantI S_ 32 0#32),
    unary main_c_178 main_v562 (broadcastInDim S1000000 ![] bcast_S_S1000000 : (⟨S_, .i32⟩ : BufTy).Contents (Elt F) → (⟨S1000000, .i32⟩ : BufTy).Contents (Elt F)),
    binary main_v551 main_v562 main_v563 (cmpi .slt : (⟨S1000000, .i32⟩ : BufTy).Contents (Elt F) → (⟨S1000000, .i32⟩ : BufTy).Contents (Elt F) → (⟨S1000000, .i1⟩ : BufTy).Contents (Elt F)),
    nullary main_c_179 (constantI S_ 32 256#32),
    unary main_c_179 main_v564 (broadcastInDim S1000000 ![] bcast_S_S1000000 : (⟨S_, .i32⟩ : BufTy).Contents (Elt F) → (⟨S1000000, .i32⟩ : BufTy).Contents (Elt F)),
    binary main_v551 main_v564 main_v565 (addi : (⟨S1000000, .i32⟩ : BufTy).Contents (Elt F) → (⟨S1000000, .i32⟩ : BufTy).Contents (Elt F) → (⟨S1000000, .i32⟩ : BufTy).Contents (Elt F)),
    ternary main_v563 main_v565 main_v551 main_v566 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    nullary main_c_180 (constantI S_ 32 0#32),
    unary main_c_180 main_v567 (broadcastInDim S1000000 ![] bcast_S_S1000000 : (⟨S_, .i32⟩ : BufTy).Contents (Elt F) → (⟨S1000000, .i32⟩ : BufTy).Contents (Elt F)),
    binary main_v543 main_v567 main_v568 (cmpi .slt : (⟨S1000000, .i32⟩ : BufTy).Contents (Elt F) → (⟨S1000000, .i32⟩ : BufTy).Contents (Elt F) → (⟨S1000000, .i1⟩ : BufTy).Contents (Elt F)),
    nullary main_c_181 (constantI S_ 32 256#32),
    unary main_c_181 main_v569 (broadcastInDim S1000000 ![] bcast_S_S1000000 : (⟨S_, .i32⟩ : BufTy).Contents (Elt F) → (⟨S1000000, .i32⟩ : BufTy).Contents (Elt F)),
    binary main_v543 main_v569 main_v570 (addi : (⟨S1000000, .i32⟩ : BufTy).Contents (Elt F) → (⟨S1000000, .i32⟩ : BufTy).Contents (Elt F) → (⟨S1000000, .i32⟩ : BufTy).Contents (Elt F)),
    ternary main_v568 main_v570 main_v543 main_v571 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v566 main_v572 (broadcastInDim S1000000x1 ![0] bcast_S1000000_S1000000x1_0 : (⟨S1000000, .i32⟩ : BufTy).Contents (Elt F) → (⟨S1000000x1, .i32⟩ : BufTy).Contents (Elt F)),
    unary main_v571 main_v573 (broadcastInDim S1000000x1 ![0] bcast_S1000000_S1000000x1_0 : (⟨S1000000, .i32⟩ : BufTy).Contents (Elt F) → (⟨S1000000x1, .i32⟩ : BufTy).Contents (Elt F)),
    binary main_v572 main_v573 main_v574 (cat2 (F := F) : (⟨S1000000x1, .i32⟩ : BufTy).Contents (Elt F) → (⟨S1000000x1, .i32⟩ : BufTy).Contents (Elt F) → (⟨S1000000x2, .i32⟩ : BufTy).Contents (Elt F)),
    binary main_arg4 main_v574 main_v575 ((fun x i => Host.gather gather_S16x256x256_S1000000x2_S16x1000000_0_12_n_n_12_1_1611 x i) : (⟨S16x256x256, .f32⟩ : BufTy).Contents (Elt F) → (⟨S1000000x2, .i32⟩ : BufTy).Contents (Elt F) → (⟨S16x1000000, .f32⟩ : BufTy).Contents (Elt F)),
    binary main_v559 main_v561 main_v576 (mulf : (⟨S1000000, .f32⟩ : BufTy).Contents (Elt F) → (⟨S1000000, .f32⟩ : BufTy).Contents (Elt F) → (⟨S1000000, .f32⟩ : BufTy).Contents (Elt F)),
    unary main_v576 main_v577 (broadcastInDim S1x1000000 ![1] bcast_S1000000_S1x1000000_1 : (⟨S1000000, .f32⟩ : BufTy).Contents (Elt F) → (⟨S1x1000000, .f32⟩ : BufTy).Contents (Elt F)),
    unary main_v577 main_v578 (broadcastInDim S16x1000000 ![0, 1] bcast_S1x1000000_S16x1000000_0_1 : (⟨S1x1000000, .f32⟩ : BufTy).Contents (Elt F) → (⟨S16x1000000, .f32⟩ : BufTy).Contents (Elt F)),
    binary main_v575 main_v578 main_v579 (mulf : (⟨S16x1000000, .f32⟩ : BufTy).Contents (Elt F) → (⟨S16x1000000, .f32⟩ : BufTy).Contents (Elt F) → (⟨S16x1000000, .f32⟩ : BufTy).Contents (Elt F)),
    binary main_v557 main_v579 main_v580 (addf : (⟨S16x1000000, .f32⟩ : BufTy).Contents (Elt F) → (⟨S16x1000000, .f32⟩ : BufTy).Contents (Elt F) → (⟨S16x1000000, .f32⟩ : BufTy).Contents (Elt F)),
    nullary main_c_182 (constantI S_ 32 0#32),
    unary main_c_182 main_v581 (broadcastInDim S1000000 ![] bcast_S_S1000000 : (⟨S_, .i32⟩ : BufTy).Contents (Elt F) → (⟨S1000000, .i32⟩ : BufTy).Contents (Elt F)),
    binary main_v551 main_v581 main_v582 (cmpi .slt : (⟨S1000000, .i32⟩ : BufTy).Contents (Elt F) → (⟨S1000000, .i32⟩ : BufTy).Contents (Elt F) → (⟨S1000000, .i1⟩ : BufTy).Contents (Elt F)),
    nullary main_c_183 (constantI S_ 32 256#32),
    unary main_c_183 main_v583 (broadcastInDim S1000000 ![] bcast_S_S1000000 : (⟨S_, .i32⟩ : BufTy).Contents (Elt F) → (⟨S1000000, .i32⟩ : BufTy).Contents (Elt F)),
    binary main_v551 main_v583 main_v584 (addi : (⟨S1000000, .i32⟩ : BufTy).Contents (Elt F) → (⟨S1000000, .i32⟩ : BufTy).Contents (Elt F) → (⟨S1000000, .i32⟩ : BufTy).Contents (Elt F)),
    ternary main_v582 main_v584 main_v551 main_v585 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    nullary main_c_184 (constantI S_ 32 0#32),
    unary main_c_184 main_v586 (broadcastInDim S1000000 ![] bcast_S_S1000000 : (⟨S_, .i32⟩ : BufTy).Contents (Elt F) → (⟨S1000000, .i32⟩ : BufTy).Contents (Elt F)),
    binary main_v547 main_v586 main_v587 (cmpi .slt : (⟨S1000000, .i32⟩ : BufTy).Contents (Elt F) → (⟨S1000000, .i32⟩ : BufTy).Contents (Elt F) → (⟨S1000000, .i1⟩ : BufTy).Contents (Elt F)),
    nullary main_c_185 (constantI S_ 32 256#32),
    unary main_c_185 main_v588 (broadcastInDim S1000000 ![] bcast_S_S1000000 : (⟨S_, .i32⟩ : BufTy).Contents (Elt F) → (⟨S1000000, .i32⟩ : BufTy).Contents (Elt F)),
    binary main_v547 main_v588 main_v589 (addi : (⟨S1000000, .i32⟩ : BufTy).Contents (Elt F) → (⟨S1000000, .i32⟩ : BufTy).Contents (Elt F) → (⟨S1000000, .i32⟩ : BufTy).Contents (Elt F)),
    ternary main_v587 main_v589 main_v547 main_v590 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v585 main_v591 (broadcastInDim S1000000x1 ![0] bcast_S1000000_S1000000x1_0 : (⟨S1000000, .i32⟩ : BufTy).Contents (Elt F) → (⟨S1000000x1, .i32⟩ : BufTy).Contents (Elt F)) ]

/-- Window main_part13: operations 871 … 930 of 979. -/
abbrev ops13 : List (HloOp τ sig (Elt F)) :=
  [ unary main_v590 main_v592 (broadcastInDim S1000000x1 ![0] bcast_S1000000_S1000000x1_0 : (⟨S1000000, .i32⟩ : BufTy).Contents (Elt F) → (⟨S1000000x1, .i32⟩ : BufTy).Contents (Elt F)),
    binary main_v591 main_v592 main_v593 (cat2 (F := F) : (⟨S1000000x1, .i32⟩ : BufTy).Contents (Elt F) → (⟨S1000000x1, .i32⟩ : BufTy).Contents (Elt F) → (⟨S1000000x2, .i32⟩ : BufTy).Contents (Elt F)),
    binary main_arg4 main_v593 main_v594 ((fun x i => Host.gather gather_S16x256x256_S1000000x2_S16x1000000_0_12_n_n_12_1_1611 x i) : (⟨S16x256x256, .f32⟩ : BufTy).Contents (Elt F) → (⟨S1000000x2, .i32⟩ : BufTy).Contents (Elt F) → (⟨S16x1000000, .f32⟩ : BufTy).Contents (Elt F)),
    binary main_v559 main_v548 main_v595 (mulf : (⟨S1000000, .f32⟩ : BufTy).Contents (Elt F) → (⟨S1000000, .f32⟩ : BufTy).Contents (Elt F) → (⟨S1000000, .f32⟩ : BufTy).Contents (Elt F)),
    unary main_v595 main_v596 (broadcastInDim S1x1000000 ![1] bcast_S1000000_S1x1000000_1 : (⟨S1000000, .f32⟩ : BufTy).Contents (Elt F) → (⟨S1x1000000, .f32⟩ : BufTy).Contents (Elt F)),
    unary main_v596 main_v597 (broadcastInDim S16x1000000 ![0, 1] bcast_S1x1000000_S16x1000000_0_1 : (⟨S1x1000000, .f32⟩ : BufTy).Contents (Elt F) → (⟨S16x1000000, .f32⟩ : BufTy).Contents (Elt F)),
    binary main_v594 main_v597 main_v598 (mulf : (⟨S16x1000000, .f32⟩ : BufTy).Contents (Elt F) → (⟨S16x1000000, .f32⟩ : BufTy).Contents (Elt F) → (⟨S16x1000000, .f32⟩ : BufTy).Contents (Elt F)),
    binary main_v580 main_v598 main_v599 (addf : (⟨S16x1000000, .f32⟩ : BufTy).Contents (Elt F) → (⟨S16x1000000, .f32⟩ : BufTy).Contents (Elt F) → (⟨S16x1000000, .f32⟩ : BufTy).Contents (Elt F)),
    nullary main_cst_186 (constant S_ .f32 0x3F800000#32),
    unary main_cst_186 main_v600 (broadcastInDim S1000000 ![] bcast_S_S1000000 : (⟨S_, .f32⟩ : BufTy).Contents (Elt F) → (⟨S1000000, .f32⟩ : BufTy).Contents (Elt F)),
    binary main_v600 main_v548 main_v601 (subf : (⟨S1000000, .f32⟩ : BufTy).Contents (Elt F) → (⟨S1000000, .f32⟩ : BufTy).Contents (Elt F) → (⟨S1000000, .f32⟩ : BufTy).Contents (Elt F)),
    nullary main_c_187 (constantI S_ 32 0#32),
    unary main_c_187 main_v602 (broadcastInDim S1000000 ![] bcast_S_S1000000 : (⟨S_, .i32⟩ : BufTy).Contents (Elt F) → (⟨S1000000, .i32⟩ : BufTy).Contents (Elt F)),
    binary main_v555 main_v602 main_v603 (cmpi .slt : (⟨S1000000, .i32⟩ : BufTy).Contents (Elt F) → (⟨S1000000, .i32⟩ : BufTy).Contents (Elt F) → (⟨S1000000, .i1⟩ : BufTy).Contents (Elt F)),
    nullary main_c_188 (constantI S_ 32 256#32),
    unary main_c_188 main_v604 (broadcastInDim S1000000 ![] bcast_S_S1000000 : (⟨S_, .i32⟩ : BufTy).Contents (Elt F) → (⟨S1000000, .i32⟩ : BufTy).Contents (Elt F)),
    binary main_v555 main_v604 main_v605 (addi : (⟨S1000000, .i32⟩ : BufTy).Contents (Elt F) → (⟨S1000000, .i32⟩ : BufTy).Contents (Elt F) → (⟨S1000000, .i32⟩ : BufTy).Contents (Elt F)),
    ternary main_v603 main_v605 main_v555 main_v606 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    nullary main_c_189 (constantI S_ 32 0#32),
    unary main_c_189 main_v607 (broadcastInDim S1000000 ![] bcast_S_S1000000 : (⟨S_, .i32⟩ : BufTy).Contents (Elt F) → (⟨S1000000, .i32⟩ : BufTy).Contents (Elt F)),
    binary main_v543 main_v607 main_v608 (cmpi .slt : (⟨S1000000, .i32⟩ : BufTy).Contents (Elt F) → (⟨S1000000, .i32⟩ : BufTy).Contents (Elt F) → (⟨S1000000, .i1⟩ : BufTy).Contents (Elt F)),
    nullary main_c_190 (constantI S_ 32 256#32),
    unary main_c_190 main_v609 (broadcastInDim S1000000 ![] bcast_S_S1000000 : (⟨S_, .i32⟩ : BufTy).Contents (Elt F) → (⟨S1000000, .i32⟩ : BufTy).Contents (Elt F)),
    binary main_v543 main_v609 main_v610 (addi : (⟨S1000000, .i32⟩ : BufTy).Contents (Elt F) → (⟨S1000000, .i32⟩ : BufTy).Contents (Elt F) → (⟨S1000000, .i32⟩ : BufTy).Contents (Elt F)),
    ternary main_v608 main_v610 main_v543 main_v611 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v606 main_v612 (broadcastInDim S1000000x1 ![0] bcast_S1000000_S1000000x1_0 : (⟨S1000000, .i32⟩ : BufTy).Contents (Elt F) → (⟨S1000000x1, .i32⟩ : BufTy).Contents (Elt F)),
    unary main_v611 main_v613 (broadcastInDim S1000000x1 ![0] bcast_S1000000_S1000000x1_0 : (⟨S1000000, .i32⟩ : BufTy).Contents (Elt F) → (⟨S1000000x1, .i32⟩ : BufTy).Contents (Elt F)),
    binary main_v612 main_v613 main_v614 (cat2 (F := F) : (⟨S1000000x1, .i32⟩ : BufTy).Contents (Elt F) → (⟨S1000000x1, .i32⟩ : BufTy).Contents (Elt F) → (⟨S1000000x2, .i32⟩ : BufTy).Contents (Elt F)),
    binary main_arg4 main_v614 main_v615 ((fun x i => Host.gather gather_S16x256x256_S1000000x2_S16x1000000_0_12_n_n_12_1_1611 x i) : (⟨S16x256x256, .f32⟩ : BufTy).Contents (Elt F) → (⟨S1000000x2, .i32⟩ : BufTy).Contents (Elt F) → (⟨S16x1000000, .f32⟩ : BufTy).Contents (Elt F)),
    binary main_v556 main_v601 main_v616 (mulf : (⟨S1000000, .f32⟩ : BufTy).Contents (Elt F) → (⟨S1000000, .f32⟩ : BufTy).Contents (Elt F) → (⟨S1000000, .f32⟩ : BufTy).Contents (Elt F)),
    unary main_v616 main_v617 (broadcastInDim S1x1000000 ![1] bcast_S1000000_S1x1000000_1 : (⟨S1000000, .f32⟩ : BufTy).Contents (Elt F) → (⟨S1x1000000, .f32⟩ : BufTy).Contents (Elt F)),
    unary main_v617 main_v618 (broadcastInDim S16x1000000 ![0, 1] bcast_S1x1000000_S16x1000000_0_1 : (⟨S1x1000000, .f32⟩ : BufTy).Contents (Elt F) → (⟨S16x1000000, .f32⟩ : BufTy).Contents (Elt F)),
    binary main_v615 main_v618 main_v619 (mulf : (⟨S16x1000000, .f32⟩ : BufTy).Contents (Elt F) → (⟨S16x1000000, .f32⟩ : BufTy).Contents (Elt F) → (⟨S16x1000000, .f32⟩ : BufTy).Contents (Elt F)),
    binary main_v599 main_v619 main_v620 (addf : (⟨S16x1000000, .f32⟩ : BufTy).Contents (Elt F) → (⟨S16x1000000, .f32⟩ : BufTy).Contents (Elt F) → (⟨S16x1000000, .f32⟩ : BufTy).Contents (Elt F)),
    nullary main_c_191 (constantI S_ 32 0#32),
    unary main_c_191 main_v621 (broadcastInDim S1000000 ![] bcast_S_S1000000 : (⟨S_, .i32⟩ : BufTy).Contents (Elt F) → (⟨S1000000, .i32⟩ : BufTy).Contents (Elt F)),
    binary main_v555 main_v621 main_v622 (cmpi .slt : (⟨S1000000, .i32⟩ : BufTy).Contents (Elt F) → (⟨S1000000, .i32⟩ : BufTy).Contents (Elt F) → (⟨S1000000, .i1⟩ : BufTy).Contents (Elt F)),
    nullary main_c_192 (constantI S_ 32 256#32),
    unary main_c_192 main_v623 (broadcastInDim S1000000 ![] bcast_S_S1000000 : (⟨S_, .i32⟩ : BufTy).Contents (Elt F) → (⟨S1000000, .i32⟩ : BufTy).Contents (Elt F)),
    binary main_v555 main_v623 main_v624 (addi : (⟨S1000000, .i32⟩ : BufTy).Contents (Elt F) → (⟨S1000000, .i32⟩ : BufTy).Contents (Elt F) → (⟨S1000000, .i32⟩ : BufTy).Contents (Elt F)),
    ternary main_v622 main_v624 main_v555 main_v625 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    nullary main_c_193 (constantI S_ 32 0#32),
    unary main_c_193 main_v626 (broadcastInDim S1000000 ![] bcast_S_S1000000 : (⟨S_, .i32⟩ : BufTy).Contents (Elt F) → (⟨S1000000, .i32⟩ : BufTy).Contents (Elt F)),
    binary main_v547 main_v626 main_v627 (cmpi .slt : (⟨S1000000, .i32⟩ : BufTy).Contents (Elt F) → (⟨S1000000, .i32⟩ : BufTy).Contents (Elt F) → (⟨S1000000, .i1⟩ : BufTy).Contents (Elt F)),
    nullary main_c_194 (constantI S_ 32 256#32),
    unary main_c_194 main_v628 (broadcastInDim S1000000 ![] bcast_S_S1000000 : (⟨S_, .i32⟩ : BufTy).Contents (Elt F) → (⟨S1000000, .i32⟩ : BufTy).Contents (Elt F)),
    binary main_v547 main_v628 main_v629 (addi : (⟨S1000000, .i32⟩ : BufTy).Contents (Elt F) → (⟨S1000000, .i32⟩ : BufTy).Contents (Elt F) → (⟨S1000000, .i32⟩ : BufTy).Contents (Elt F)),
    ternary main_v627 main_v629 main_v547 main_v630 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v625 main_v631 (broadcastInDim S1000000x1 ![0] bcast_S1000000_S1000000x1_0 : (⟨S1000000, .i32⟩ : BufTy).Contents (Elt F) → (⟨S1000000x1, .i32⟩ : BufTy).Contents (Elt F)),
    unary main_v630 main_v632 (broadcastInDim S1000000x1 ![0] bcast_S1000000_S1000000x1_0 : (⟨S1000000, .i32⟩ : BufTy).Contents (Elt F) → (⟨S1000000x1, .i32⟩ : BufTy).Contents (Elt F)),
    binary main_v631 main_v632 main_v633 (cat2 (F := F) : (⟨S1000000x1, .i32⟩ : BufTy).Contents (Elt F) → (⟨S1000000x1, .i32⟩ : BufTy).Contents (Elt F) → (⟨S1000000x2, .i32⟩ : BufTy).Contents (Elt F)),
    binary main_arg4 main_v633 main_v634 ((fun x i => Host.gather gather_S16x256x256_S1000000x2_S16x1000000_0_12_n_n_12_1_1611 x i) : (⟨S16x256x256, .f32⟩ : BufTy).Contents (Elt F) → (⟨S1000000x2, .i32⟩ : BufTy).Contents (Elt F) → (⟨S16x1000000, .f32⟩ : BufTy).Contents (Elt F)),
    binary main_v556 main_v548 main_v635 (mulf : (⟨S1000000, .f32⟩ : BufTy).Contents (Elt F) → (⟨S1000000, .f32⟩ : BufTy).Contents (Elt F) → (⟨S1000000, .f32⟩ : BufTy).Contents (Elt F)),
    unary main_v635 main_v636 (broadcastInDim S1x1000000 ![1] bcast_S1000000_S1x1000000_1 : (⟨S1000000, .f32⟩ : BufTy).Contents (Elt F) → (⟨S1x1000000, .f32⟩ : BufTy).Contents (Elt F)),
    unary main_v636 main_v637 (broadcastInDim S16x1000000 ![0, 1] bcast_S1x1000000_S16x1000000_0_1 : (⟨S1x1000000, .f32⟩ : BufTy).Contents (Elt F) → (⟨S16x1000000, .f32⟩ : BufTy).Contents (Elt F)),
    binary main_v634 main_v637 main_v638 (mulf : (⟨S16x1000000, .f32⟩ : BufTy).Contents (Elt F) → (⟨S16x1000000, .f32⟩ : BufTy).Contents (Elt F) → (⟨S16x1000000, .f32⟩ : BufTy).Contents (Elt F)),
    binary main_v620 main_v638 main_v639 (addf : (⟨S16x1000000, .f32⟩ : BufTy).Contents (Elt F) → (⟨S16x1000000, .f32⟩ : BufTy).Contents (Elt F) → (⟨S16x1000000, .f32⟩ : BufTy).Contents (Elt F)),
    binary main_v517 main_v639 main_v640 (mulf : (⟨S16x1000000, .f32⟩ : BufTy).Contents (Elt F) → (⟨S16x1000000, .f32⟩ : BufTy).Contents (Elt F) → (⟨S16x1000000, .f32⟩ : BufTy).Contents (Elt F)),
    unary main_arg0 main_v641 ((extractStridedSlice S1000000x1 ![0, 3] · slices_S1000000x4_S1000000x1_0_3) : (⟨S1000000x4, .f32⟩ : BufTy).Contents (Elt F) → (⟨S1000000x1, .f32⟩ : BufTy).Contents (Elt F)),
    reshape main_v641 main_v642 rfl shapeCasts_S1000000x1_S1000000 ]

/-- Window main_part14: operations 931 … 979 of 979. -/
abbrev ops14 : List (HloOp τ sig (Elt F)) :=
  [ nullary main_cst_195 (constant S_ .f32 0x427C0000#32),
    unary main_cst_195 main_v643 (broadcastInDim S1000000 ![] bcast_S_S1000000 : (⟨S_, .f32⟩ : BufTy).Contents (Elt F) → (⟨S1000000, .f32⟩ : BufTy).Contents (Elt F)),
    binary main_v642 main_v643 main_v644 (mulf : (⟨S1000000, .f32⟩ : BufTy).Contents (Elt F) → (⟨S1000000, .f32⟩ : BufTy).Contents (Elt F) → (⟨S1000000, .f32⟩ : BufTy).Contents (Elt F)),
    unary main_v644 main_v645 (Host.floor : (⟨S1000000, .f32⟩ : BufTy).Contents (Elt F) → (⟨S1000000, .f32⟩ : BufTy).Contents (Elt F)),
    unary main_v645 main_v646 (fptosi 32 : (⟨S1000000, .f32⟩ : BufTy).Contents (Elt F) → (⟨S1000000, .i32⟩ : BufTy).Contents (Elt F)),
    nullary main_cst_196 (constant S_ .f32 0x3F800000#32),
    unary main_cst_196 main_v647 (broadcastInDim S1000000 ![] bcast_S_S1000000 : (⟨S_, .f32⟩ : BufTy).Contents (Elt F) → (⟨S1000000, .f32⟩ : BufTy).Contents (Elt F)),
    binary main_v645 main_v647 main_v648 (addf : (⟨S1000000, .f32⟩ : BufTy).Contents (Elt F) → (⟨S1000000, .f32⟩ : BufTy).Contents (Elt F) → (⟨S1000000, .f32⟩ : BufTy).Contents (Elt F)),
    nullary main_cst_197 (constant S_ .f32 0x00000000#32),
    nullary main_c_198 (constantI S_ 32 63#32),
    unary main_cst_197 main_call18_v0 (id : (⟨S_, .f32⟩ : BufTy).Contents (Elt F) → (⟨S_, .f32⟩ : BufTy).Contents (Elt F)),
    unary main_call18_v0 main_call18_v1 (broadcastInDim S1000000 ![] bcast_S_S1000000 : (⟨S_, .f32⟩ : BufTy).Contents (Elt F) → (⟨S1000000, .f32⟩ : BufTy).Contents (Elt F)),
    binary main_call18_v1 main_v648 main_call18_v2 (maximumf : (⟨S1000000, .f32⟩ : BufTy).Contents (Elt F) → (⟨S1000000, .f32⟩ : BufTy).Contents (Elt F) → (⟨S1000000, .f32⟩ : BufTy).Contents (Elt F)),
    unary main_c_198 main_call18_v3 (sitofp .f32 : (⟨S_, .i32⟩ : BufTy).Contents (Elt F) → (⟨S_, .f32⟩ : BufTy).Contents (Elt F)),
    unary main_call18_v3 main_call18_v4 (broadcastInDim S1000000 ![] bcast_S_S1000000 : (⟨S_, .f32⟩ : BufTy).Contents (Elt F) → (⟨S1000000, .f32⟩ : BufTy).Contents (Elt F)),
    binary main_call18_v4 main_call18_v2 main_v649 (minimumf : (⟨S1000000, .f32⟩ : BufTy).Contents (Elt F) → (⟨S1000000, .f32⟩ : BufTy).Contents (Elt F) → (⟨S1000000, .f32⟩ : BufTy).Contents (Elt F)),
    unary main_v649 main_v650 (fptosi 32 : (⟨S1000000, .f32⟩ : BufTy).Contents (Elt F) → (⟨S1000000, .i32⟩ : BufTy).Contents (Elt F)),
    binary main_v644 main_v645 main_v651 (subf : (⟨S1000000, .f32⟩ : BufTy).Contents (Elt F) → (⟨S1000000, .f32⟩ : BufTy).Contents (Elt F) → (⟨S1000000, .f32⟩ : BufTy).Contents (Elt F)),
    nullary main_c_199 (constantI S_ 32 0#32),
    unary main_c_199 main_v652 (broadcastInDim S1000000 ![] bcast_S_S1000000 : (⟨S_, .i32⟩ : BufTy).Contents (Elt F) → (⟨S1000000, .i32⟩ : BufTy).Contents (Elt F)),
    binary main_v646 main_v652 main_v653 (cmpi .slt : (⟨S1000000, .i32⟩ : BufTy).Contents (Elt F) → (⟨S1000000, .i32⟩ : BufTy).Contents (Elt F) → (⟨S1000000, .i1⟩ : BufTy).Contents (Elt F)),
    nullary main_c_200 (constantI S_ 32 64#32),
    unary main_c_200 main_v654 (broadcastInDim S1000000 ![] bcast_S_S1000000 : (⟨S_, .i32⟩ : BufTy).Contents (Elt F) → (⟨S1000000, .i32⟩ : BufTy).Contents (Elt F)),
    binary main_v646 main_v654 main_v655 (addi : (⟨S1000000, .i32⟩ : BufTy).Contents (Elt F) → (⟨S1000000, .i32⟩ : BufTy).Contents (Elt F) → (⟨S1000000, .i32⟩ : BufTy).Contents (Elt F)),
    ternary main_v653 main_v655 main_v646 main_v656 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v656 main_v657 (broadcastInDim S1000000x1 ![0] bcast_S1000000_S1000000x1_0 : (⟨S1000000, .i32⟩ : BufTy).Contents (Elt F) → (⟨S1000000x1, .i32⟩ : BufTy).Contents (Elt F)),
    binary main_arg5 main_v657 main_v658 ((fun x i => Host.gather gather_S16x64_S1000000x1_S16x1000000_0_1_n_n_1_1_161 x i) : (⟨S16x64, .f32⟩ : BufTy).Contents (Elt F) → (⟨S1000000x1, .i32⟩ : BufTy).Contents (Elt F) → (⟨S16x1000000, .f32⟩ : BufTy).Contents (Elt F)),
    nullary main_cst_201 (constant S_ .f32 0x3F800000#32),
    unary main_cst_201 main_v659 (broadcastInDim S1000000 ![] bcast_S_S1000000 : (⟨S_, .f32⟩ : BufTy).Contents (Elt F) → (⟨S1000000, .f32⟩ : BufTy).Contents (Elt F)),
    binary main_v659 main_v651 main_v660 (subf : (⟨S1000000, .f32⟩ : BufTy).Contents (Elt F) → (⟨S1000000, .f32⟩ : BufTy).Contents (Elt F) → (⟨S1000000, .f32⟩ : BufTy).Contents (Elt F)),
    unary main_v660 main_v661 (broadcastInDim S1x1000000 ![1] bcast_S1000000_S1x1000000_1 : (⟨S1000000, .f32⟩ : BufTy).Contents (Elt F) → (⟨S1x1000000, .f32⟩ : BufTy).Contents (Elt F)),
    unary main_v661 main_v662 (broadcastInDim S16x1000000 ![0, 1] bcast_S1x1000000_S16x1000000_0_1 : (⟨S1x1000000, .f32⟩ : BufTy).Contents (Elt F) → (⟨S16x1000000, .f32⟩ : BufTy).Contents (Elt F)),
    binary main_v658 main_v662 main_v663 (mulf : (⟨S16x1000000, .f32⟩ : BufTy).Contents (Elt F) → (⟨S16x1000000, .f32⟩ : BufTy).Contents (Elt F) → (⟨S16x1000000, .f32⟩ : BufTy).Contents (Elt F)),
    nullary main_c_202 (constantI S_ 32 0#32),
    unary main_c_202 main_v664 (broadcastInDim S1000000 ![] bcast_S_S1000000 : (⟨S_, .i32⟩ : BufTy).Contents (Elt F) → (⟨S1000000, .i32⟩ : BufTy).Contents (Elt F)),
    binary main_v650 main_v664 main_v665 (cmpi .slt : (⟨S1000000, .i32⟩ : BufTy).Contents (Elt F) → (⟨S1000000, .i32⟩ : BufTy).Contents (Elt F) → (⟨S1000000, .i1⟩ : BufTy).Contents (Elt F)),
    nullary main_c_203 (constantI S_ 32 64#32),
    unary main_c_203 main_v666 (broadcastInDim S1000000 ![] bcast_S_S1000000 : (⟨S_, .i32⟩ : BufTy).Contents (Elt F) → (⟨S1000000, .i32⟩ : BufTy).Contents (Elt F)),
    binary main_v650 main_v666 main_v667 (addi : (⟨S1000000, .i32⟩ : BufTy).Contents (Elt F) → (⟨S1000000, .i32⟩ : BufTy).Contents (Elt F) → (⟨S1000000, .i32⟩ : BufTy).Contents (Elt F)),
    ternary main_v665 main_v667 main_v650 main_v668 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v668 main_v669 (broadcastInDim S1000000x1 ![0] bcast_S1000000_S1000000x1_0 : (⟨S1000000, .i32⟩ : BufTy).Contents (Elt F) → (⟨S1000000x1, .i32⟩ : BufTy).Contents (Elt F)),
    binary main_arg5 main_v669 main_v670 ((fun x i => Host.gather gather_S16x64_S1000000x1_S16x1000000_0_1_n_n_1_1_161 x i) : (⟨S16x64, .f32⟩ : BufTy).Contents (Elt F) → (⟨S1000000x1, .i32⟩ : BufTy).Contents (Elt F) → (⟨S16x1000000, .f32⟩ : BufTy).Contents (Elt F)),
    unary main_v651 main_v671 (broadcastInDim S1x1000000 ![1] bcast_S1000000_S1x1000000_1 : (⟨S1000000, .f32⟩ : BufTy).Contents (Elt F) → (⟨S1x1000000, .f32⟩ : BufTy).Contents (Elt F)),
    unary main_v671 main_v672 (broadcastInDim S16x1000000 ![0, 1] bcast_S1x1000000_S16x1000000_0_1 : (⟨S1x1000000, .f32⟩ : BufTy).Contents (Elt F) → (⟨S16x1000000, .f32⟩ : BufTy).Contents (Elt F)),
    binary main_v670 main_v672 main_v673 (mulf : (⟨S16x1000000, .f32⟩ : BufTy).Contents (Elt F) → (⟨S16x1000000, .f32⟩ : BufTy).Contents (Elt F) → (⟨S16x1000000, .f32⟩ : BufTy).Contents (Elt F)),
    binary main_v663 main_v673 main_v674 (addf : (⟨S16x1000000, .f32⟩ : BufTy).Contents (Elt F) → (⟨S16x1000000, .f32⟩ : BufTy).Contents (Elt F) → (⟨S16x1000000, .f32⟩ : BufTy).Contents (Elt F)),
    unary main_v640 main_v675 ((transpose S1000000x16 [1, 0] · transposes_S16x1000000_S1000000x16_1_0) : (⟨S16x1000000, .f32⟩ : BufTy).Contents (Elt F) → (⟨S1000000x16, .f32⟩ : BufTy).Contents (Elt F)),
    unary main_v674 main_v676 ((transpose S1000000x16 [1, 0] · transposes_S16x1000000_S1000000x16_1_0) : (⟨S16x1000000, .f32⟩ : BufTy).Contents (Elt F) → (⟨S1000000x16, .f32⟩ : BufTy).Contents (Elt F)),
    binary main_v675 main_v676 main_v677 (cat16 : (⟨S1000000x16, .f32⟩ : BufTy).Contents (Elt F) → (⟨S1000000x16, .f32⟩ : BufTy).Contents (Elt F) → (⟨S1000000x32, .f32⟩ : BufTy).Contents (Elt F)) ]

/-- @main's operations, in order. -/
abbrev ops : List (HloOp τ sig (Elt F)) :=
  ops0 ++ (ops1 ++ (ops2 ++ (ops3 ++ (ops4 ++ (ops5 ++ (ops6 ++ (ops7 ++ (ops8 ++ (ops9 ++ (ops10 ++ (ops11 ++ (ops12 ++ (ops13 ++ (ops14))))))))))))))

end Cert.ReferenceIdeal.RefValue

end
-- ==== Proof.RefMain.lean ====
/-
  The reference's @main is the straight line of its operations.

  Each printed window of @main is, statement for statement, the sequence of the window's operations (an outlined
  clip is its six operations at the call's buffers: unfolding the function is the inlining); @main runs the windows
  in order, so it is the sequence of the concatenated list. Every operation touches TensorCore buffers only and
  determines its result, and the signature has no scoped buffer or semaphore: what the library's run of a straight
  line asks.
-/
import proofs.«135735_j20624432955487_2_alg».proof.Proof.RefOps

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
theorem main_part0_eq (c : Dev nD) : main_part0 (F := F) c = seq ops0 := rfl

set_option maxRecDepth 8192 in
theorem main_part1_eq (c : Dev nD) : main_part1 (F := F) c = seq ops1 := rfl

set_option maxRecDepth 8192 in
theorem main_part2_eq (c : Dev nD) : main_part2 (F := F) c = seq ops2 := rfl

set_option maxRecDepth 8192 in
theorem main_part3_eq (c : Dev nD) : main_part3 (F := F) c = seq ops3 := rfl

set_option maxRecDepth 8192 in
theorem main_part4_eq (c : Dev nD) : main_part4 (F := F) c = seq ops4 := rfl

set_option maxRecDepth 8192 in
theorem main_part5_eq (c : Dev nD) : main_part5 (F := F) c = seq ops5 := rfl

set_option maxRecDepth 8192 in
theorem main_part6_eq (c : Dev nD) : main_part6 (F := F) c = seq ops6 := rfl

set_option maxRecDepth 8192 in
theorem main_part7_eq (c : Dev nD) : main_part7 (F := F) c = seq ops7 := rfl

set_option maxRecDepth 8192 in
theorem main_part8_eq (c : Dev nD) : main_part8 (F := F) c = seq ops8 := rfl

set_option maxRecDepth 8192 in
theorem main_part9_eq (c : Dev nD) : main_part9 (F := F) c = seq ops9 := rfl

set_option maxRecDepth 8192 in
theorem main_part10_eq (c : Dev nD) : main_part10 (F := F) c = seq ops10 := rfl

set_option maxRecDepth 8192 in
theorem main_part11_eq (c : Dev nD) : main_part11 (F := F) c = seq ops11 := rfl

set_option maxRecDepth 8192 in
theorem main_part12_eq (c : Dev nD) : main_part12 (F := F) c = seq ops12 := rfl

set_option maxRecDepth 8192 in
theorem main_part13_eq (c : Dev nD) : main_part13 (F := F) c = seq ops13 := rfl

set_option maxRecDepth 8192 in
theorem main_part14_eq (c : Dev nD) : main_part14 (F := F) c = seq ops14 := rfl

set_option maxRecDepth 8192 in
/-- @main is the windows in order; sequencing is concatenation. -/
theorem main_eq (c : Dev nD) : main (F := F) c = seq ops := by
  simp only [ops, seq_append, ← main_part0_eq c, ← main_part1_eq c, ← main_part2_eq c, ← main_part3_eq c, ← main_part4_eq c, ← main_part5_eq c, ← main_part6_eq c, ← main_part7_eq c, ← main_part8_eq c, ← main_part9_eq c, ← main_part10_eq c, ← main_part11_eq c, ← main_part12_eq c, ← main_part13_eq c, ← main_part14_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops0_sub : (ops0 : List (HloOp τ sig (Elt F))).Forall fun op => op.bufs ⊆ tcRefs τ sig := by
  simp only [List.Forall, nullary_bufs_sub, unary_bufs_sub, binary_bufs_sub, ternary_bufs_sub, reshape_bufs_sub, nary_bufs_sub, and_self]

set_option maxRecDepth 8192 in
theorem ops1_sub : (ops1 : List (HloOp τ sig (Elt F))).Forall fun op => op.bufs ⊆ tcRefs τ sig := by
  simp only [List.Forall, nullary_bufs_sub, unary_bufs_sub, binary_bufs_sub, ternary_bufs_sub, reshape_bufs_sub, nary_bufs_sub, and_self]

set_option maxRecDepth 8192 in
theorem ops2_sub : (ops2 : List (HloOp τ sig (Elt F))).Forall fun op => op.bufs ⊆ tcRefs τ sig := by
  simp only [List.Forall, nullary_bufs_sub, unary_bufs_sub, binary_bufs_sub, ternary_bufs_sub, reshape_bufs_sub, nary_bufs_sub, and_self]

set_option maxRecDepth 8192 in
theorem ops3_sub : (ops3 : List (HloOp τ sig (Elt F))).Forall fun op => op.bufs ⊆ tcRefs τ sig := by
  simp only [List.Forall, nullary_bufs_sub, unary_bufs_sub, binary_bufs_sub, ternary_bufs_sub, reshape_bufs_sub, nary_bufs_sub, and_self]

set_option maxRecDepth 8192 in
theorem ops4_sub : (ops4 : List (HloOp τ sig (Elt F))).Forall fun op => op.bufs ⊆ tcRefs τ sig := by
  simp only [List.Forall, nullary_bufs_sub, unary_bufs_sub, binary_bufs_sub, ternary_bufs_sub, reshape_bufs_sub, nary_bufs_sub, and_self]

set_option maxRecDepth 8192 in
theorem ops5_sub : (ops5 : List (HloOp τ sig (Elt F))).Forall fun op => op.bufs ⊆ tcRefs τ sig := by
  simp only [List.Forall, nullary_bufs_sub, unary_bufs_sub, binary_bufs_sub, ternary_bufs_sub, reshape_bufs_sub, nary_bufs_sub, and_self]

set_option maxRecDepth 8192 in
theorem ops6_sub : (ops6 : List (HloOp τ sig (Elt F))).Forall fun op => op.bufs ⊆ tcRefs τ sig := by
  simp only [List.Forall, nullary_bufs_sub, unary_bufs_sub, binary_bufs_sub, ternary_bufs_sub, reshape_bufs_sub, nary_bufs_sub, and_self]

set_option maxRecDepth 8192 in
theorem ops7_sub : (ops7 : List (HloOp τ sig (Elt F))).Forall fun op => op.bufs ⊆ tcRefs τ sig := by
  simp only [List.Forall, nullary_bufs_sub, unary_bufs_sub, binary_bufs_sub, ternary_bufs_sub, reshape_bufs_sub, nary_bufs_sub, and_self]

set_option maxRecDepth 8192 in
theorem ops8_sub : (ops8 : List (HloOp τ sig (Elt F))).Forall fun op => op.bufs ⊆ tcRefs τ sig := by
  simp only [List.Forall, nullary_bufs_sub, unary_bufs_sub, binary_bufs_sub, ternary_bufs_sub, reshape_bufs_sub, nary_bufs_sub, and_self]

set_option maxRecDepth 8192 in
theorem ops9_sub : (ops9 : List (HloOp τ sig (Elt F))).Forall fun op => op.bufs ⊆ tcRefs τ sig := by
  simp only [List.Forall, nullary_bufs_sub, unary_bufs_sub, binary_bufs_sub, ternary_bufs_sub, reshape_bufs_sub, nary_bufs_sub, and_self]

set_option maxRecDepth 8192 in
theorem ops10_sub : (ops10 : List (HloOp τ sig (Elt F))).Forall fun op => op.bufs ⊆ tcRefs τ sig := by
  simp only [List.Forall, nullary_bufs_sub, unary_bufs_sub, binary_bufs_sub, ternary_bufs_sub, reshape_bufs_sub, nary_bufs_sub, and_self]

set_option maxRecDepth 8192 in
theorem ops11_sub : (ops11 : List (HloOp τ sig (Elt F))).Forall fun op => op.bufs ⊆ tcRefs τ sig := by
  simp only [List.Forall, nullary_bufs_sub, unary_bufs_sub, binary_bufs_sub, ternary_bufs_sub, reshape_bufs_sub, nary_bufs_sub, and_self]

set_option maxRecDepth 8192 in
theorem ops12_sub : (ops12 : List (HloOp τ sig (Elt F))).Forall fun op => op.bufs ⊆ tcRefs τ sig := by
  simp only [List.Forall, nullary_bufs_sub, unary_bufs_sub, binary_bufs_sub, ternary_bufs_sub, reshape_bufs_sub, nary_bufs_sub, and_self]

set_option maxRecDepth 8192 in
theorem ops13_sub : (ops13 : List (HloOp τ sig (Elt F))).Forall fun op => op.bufs ⊆ tcRefs τ sig := by
  simp only [List.Forall, nullary_bufs_sub, unary_bufs_sub, binary_bufs_sub, ternary_bufs_sub, reshape_bufs_sub, nary_bufs_sub, and_self]

set_option maxRecDepth 8192 in
theorem ops14_sub : (ops14 : List (HloOp τ sig (Elt F))).Forall fun op => op.bufs ⊆ tcRefs τ sig := by
  simp only [List.Forall, nullary_bufs_sub, unary_bufs_sub, binary_bufs_sub, ternary_bufs_sub, reshape_bufs_sub, nary_bufs_sub, and_self]

/-- Every operation of @main touches TensorCore buffers only: window by window. -/
theorem ops_sub : (ops : List (HloOp τ sig (Elt F))).Forall fun op => op.bufs ⊆ tcRefs τ sig :=
  List.forall_iff_forall_mem.mpr fun op h => by
    simp only [ops, List.mem_append] at h
    rcases h with h | h | h | h | h | h | h | h | h | h | h | h | h | h | h
    exacts [List.forall_iff_forall_mem.mp ops0_sub op h, List.forall_iff_forall_mem.mp ops1_sub op h, List.forall_iff_forall_mem.mp ops2_sub op h, List.forall_iff_forall_mem.mp ops3_sub op h, List.forall_iff_forall_mem.mp ops4_sub op h, List.forall_iff_forall_mem.mp ops5_sub op h, List.forall_iff_forall_mem.mp ops6_sub op h, List.forall_iff_forall_mem.mp ops7_sub op h, List.forall_iff_forall_mem.mp ops8_sub op h, List.forall_iff_forall_mem.mp ops9_sub op h, List.forall_iff_forall_mem.mp ops10_sub op h, List.forall_iff_forall_mem.mp ops11_sub op h, List.forall_iff_forall_mem.mp ops12_sub op h, List.forall_iff_forall_mem.mp ops13_sub op h, List.forall_iff_forall_mem.mp ops14_sub op h]

set_option maxRecDepth 8192 in
theorem ops0_fresh : ∀ op ∈ (ops0 : List (HloOp τ sig (Elt F))), op.fresh = ∅ := by
  intro _ h; (repeat (cases h with | head => rfl | tail _ h => ?_)); exact nomatch h

set_option maxRecDepth 8192 in
theorem ops1_fresh : ∀ op ∈ (ops1 : List (HloOp τ sig (Elt F))), op.fresh = ∅ := by
  intro _ h; (repeat (cases h with | head => rfl | tail _ h => ?_)); exact nomatch h

set_option maxRecDepth 8192 in
theorem ops2_fresh : ∀ op ∈ (ops2 : List (HloOp τ sig (Elt F))), op.fresh = ∅ := by
  intro _ h; (repeat (cases h with | head => rfl | tail _ h => ?_)); exact nomatch h

set_option maxRecDepth 8192 in
theorem ops3_fresh : ∀ op ∈ (ops3 : List (HloOp τ sig (Elt F))), op.fresh = ∅ := by
  intro _ h; (repeat (cases h with | head => rfl | tail _ h => ?_)); exact nomatch h

set_option maxRecDepth 8192 in
theorem ops4_fresh : ∀ op ∈ (ops4 : List (HloOp τ sig (Elt F))), op.fresh = ∅ := by
  intro _ h; (repeat (cases h with | head => rfl | tail _ h => ?_)); exact nomatch h

set_option maxRecDepth 8192 in
theorem ops5_fresh : ∀ op ∈ (ops5 : List (HloOp τ sig (Elt F))), op.fresh = ∅ := by
  intro _ h; (repeat (cases h with | head => rfl | tail _ h => ?_)); exact nomatch h

set_option maxRecDepth 8192 in
theorem ops6_fresh : ∀ op ∈ (ops6 : List (HloOp τ sig (Elt F))), op.fresh = ∅ := by
  intro _ h; (repeat (cases h with | head => rfl | tail _ h => ?_)); exact nomatch h

set_option maxRecDepth 8192 in
theorem ops7_fresh : ∀ op ∈ (ops7 : List (HloOp τ sig (Elt F))), op.fresh = ∅ := by
  intro _ h; (repeat (cases h with | head => rfl | tail _ h => ?_)); exact nomatch h

set_option maxRecDepth 8192 in
theorem ops8_fresh : ∀ op ∈ (ops8 : List (HloOp τ sig (Elt F))), op.fresh = ∅ := by
  intro _ h; (repeat (cases h with | head => rfl | tail _ h => ?_)); exact nomatch h

set_option maxRecDepth 8192 in
theorem ops9_fresh : ∀ op ∈ (ops9 : List (HloOp τ sig (Elt F))), op.fresh = ∅ := by
  intro _ h; (repeat (cases h with | head => rfl | tail _ h => ?_)); exact nomatch h

set_option maxRecDepth 8192 in
theorem ops10_fresh : ∀ op ∈ (ops10 : List (HloOp τ sig (Elt F))), op.fresh = ∅ := by
  intro _ h; (repeat (cases h with | head => rfl | tail _ h => ?_)); exact nomatch h

set_option maxRecDepth 8192 in
theorem ops11_fresh : ∀ op ∈ (ops11 : List (HloOp τ sig (Elt F))), op.fresh = ∅ := by
  intro _ h; (repeat (cases h with | head => rfl | tail _ h => ?_)); exact nomatch h

set_option maxRecDepth 8192 in
theorem ops12_fresh : ∀ op ∈ (ops12 : List (HloOp τ sig (Elt F))), op.fresh = ∅ := by
  intro _ h; (repeat (cases h with | head => rfl | tail _ h => ?_)); exact nomatch h

set_option maxRecDepth 8192 in
theorem ops13_fresh : ∀ op ∈ (ops13 : List (HloOp τ sig (Elt F))), op.fresh = ∅ := by
  intro _ h; (repeat (cases h with | head => rfl | tail _ h => ?_)); exact nomatch h

set_option maxRecDepth 8192 in
theorem ops14_fresh : ∀ op ∈ (ops14 : List (HloOp τ sig (Elt F))), op.fresh = ∅ := by
  intro _ h; (repeat (cases h with | head => rfl | tail _ h => ?_)); exact nomatch h

/-- Every operation of @main determines its result (none only allocates): window by window. -/
theorem ops_fresh : ∀ op ∈ (ops : List (HloOp τ sig (Elt F))), op.fresh = ∅ := fun op h => by
  simp only [ops, List.mem_append] at h
  rcases h with h | h | h | h | h | h | h | h | h | h | h | h | h | h | h
  exacts [ops0_fresh op h, ops1_fresh op h, ops2_fresh op h, ops3_fresh op h, ops4_fresh op h, ops5_fresh op h, ops6_fresh op h, ops7_fresh op h, ops8_fresh op h, ops9_fresh op h, ops10_fresh op h, ops11_fresh op h, ops12_fresh op h, ops13_fresh op h, ops14_fresh op h]

end Cert.ReferenceIdeal.RefValue

end
-- ==== Proof.RefDefs.lean ====
/- A TABLE read off the printed program, no argument: one definition per SSA value, the printed operation's function applied to its operands' definitions (X G P0 P1 P2 L are @main's six arguments; a definition takes those it depends on). -/
import proofs.«135735_j20624432955487_2_alg».proof.Proof.RefCat

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

def r_main_c : (⟨S2, .i32⟩ : BufTy).Contents (Elt F) :=
  fun i => lit0 (S2.rowMajor i)

def r_main_c_0 : (⟨S2, .i32⟩ : BufTy).Contents (Elt F) :=
  fun i => lit1 (S2.rowMajor i)

def r_main_c_1 : (⟨S2, .i32⟩ : BufTy).Contents (Elt F) :=
  fun i => lit2 (S2.rowMajor i)

def r_main_v0 (X : (⟨S1000000x4, .f32⟩ : BufTy).Contents (Elt F)) : (⟨S1000000x3, .f32⟩ : BufTy).Contents (Elt F) :=
  ((extractStridedSlice S1000000x3 ![0, 0] · slices_S1000000x4_S1000000x3_0_0) : (⟨S1000000x4, .f32⟩ : BufTy).Contents (Elt F) → (⟨S1000000x3, .f32⟩ : BufTy).Contents (Elt F)) X

def r_main_v1 (X : (⟨S1000000x4, .f32⟩ : BufTy).Contents (Elt F)) : (⟨S1000000x1, .f32⟩ : BufTy).Contents (Elt F) :=
  ((extractStridedSlice S1000000x1 ![0, 0] · slices_S1000000x3_S1000000x1_0_0) : (⟨S1000000x3, .f32⟩ : BufTy).Contents (Elt F) → (⟨S1000000x1, .f32⟩ : BufTy).Contents (Elt F)) (r_main_v0 (F := F) X)

def r_main_v2 (X : (⟨S1000000x4, .f32⟩ : BufTy).Contents (Elt F)) : (⟨S1000000, .f32⟩ : BufTy).Contents (Elt F) :=
  shapeCast _ (r_main_v1 (F := F) X) shapeCasts_S1000000x1_S1000000

def r_main_cst : (⟨S_, .f32⟩ : BufTy).Contents (Elt F) :=
  constant S_ .f32 0x3F800000#32

def r_main_v3 : (⟨S1000000, .f32⟩ : BufTy).Contents (Elt F) :=
  (broadcastInDim S1000000 ![] bcast_S_S1000000 : (⟨S_, .f32⟩ : BufTy).Contents (Elt F) → (⟨S1000000, .f32⟩ : BufTy).Contents (Elt F)) (r_main_cst (F := F))

def r_main_v4 (X : (⟨S1000000x4, .f32⟩ : BufTy).Contents (Elt F)) : (⟨S1000000, .f32⟩ : BufTy).Contents (Elt F) :=
  (addf : (⟨S1000000, .f32⟩ : BufTy).Contents (Elt F) → (⟨S1000000, .f32⟩ : BufTy).Contents (Elt F) → (⟨S1000000, .f32⟩ : BufTy).Contents (Elt F)) (r_main_v2 (F := F) X) (r_main_v3 (F := F))

def r_main_cst_2 : (⟨S_, .f32⟩ : BufTy).Contents (Elt F) :=
  constant S_ .f32 0x3F000000#32

def r_main_v5 : (⟨S1000000, .f32⟩ : BufTy).Contents (Elt F) :=
  (broadcastInDim S1000000 ![] bcast_S_S1000000 : (⟨S_, .f32⟩ : BufTy).Contents (Elt F) → (⟨S1000000, .f32⟩ : BufTy).Contents (Elt F)) (r_main_cst_2 (F := F))

def r_main_v6 (X : (⟨S1000000x4, .f32⟩ : BufTy).Contents (Elt F)) : (⟨S1000000, .f32⟩ : BufTy).Contents (Elt F) :=
  (mulf : (⟨S1000000, .f32⟩ : BufTy).Contents (Elt F) → (⟨S1000000, .f32⟩ : BufTy).Contents (Elt F) → (⟨S1000000, .f32⟩ : BufTy).Contents (Elt F)) (r_main_v4 (F := F) X) (r_main_v5 (F := F))

def r_main_cst_3 : (⟨S_, .f32⟩ : BufTy).Contents (Elt F) :=
  constant S_ .f32 0x42FE0000#32

def r_main_v7 : (⟨S1000000, .f32⟩ : BufTy).Contents (Elt F) :=
  (broadcastInDim S1000000 ![] bcast_S_S1000000 : (⟨S_, .f32⟩ : BufTy).Contents (Elt F) → (⟨S1000000, .f32⟩ : BufTy).Contents (Elt F)) (r_main_cst_3 (F := F))

def r_main_v8 (X : (⟨S1000000x4, .f32⟩ : BufTy).Contents (Elt F)) : (⟨S1000000, .f32⟩ : BufTy).Contents (Elt F) :=
  (mulf : (⟨S1000000, .f32⟩ : BufTy).Contents (Elt F) → (⟨S1000000, .f32⟩ : BufTy).Contents (Elt F) → (⟨S1000000, .f32⟩ : BufTy).Contents (Elt F)) (r_main_v6 (F := F) X) (r_main_v7 (F := F))

def r_main_v9 (X : (⟨S1000000x4, .f32⟩ : BufTy).Contents (Elt F)) : (⟨S1000000x1, .f32⟩ : BufTy).Contents (Elt F) :=
  ((extractStridedSlice S1000000x1 ![0, 1] · slices_S1000000x3_S1000000x1_0_1) : (⟨S1000000x3, .f32⟩ : BufTy).Contents (Elt F) → (⟨S1000000x1, .f32⟩ : BufTy).Contents (Elt F)) (r_main_v0 (F := F) X)

def r_main_v10 (X : (⟨S1000000x4, .f32⟩ : BufTy).Contents (Elt F)) : (⟨S1000000, .f32⟩ : BufTy).Contents (Elt F) :=
  shapeCast _ (r_main_v9 (F := F) X) shapeCasts_S1000000x1_S1000000

def r_main_cst_4 : (⟨S_, .f32⟩ : BufTy).Contents (Elt F) :=
  constant S_ .f32 0x3F800000#32

def r_main_v11 : (⟨S1000000, .f32⟩ : BufTy).Contents (Elt F) :=
  (broadcastInDim S1000000 ![] bcast_S_S1000000 : (⟨S_, .f32⟩ : BufTy).Contents (Elt F) → (⟨S1000000, .f32⟩ : BufTy).Contents (Elt F)) (r_main_cst_4 (F := F))

def r_main_v12 (X : (⟨S1000000x4, .f32⟩ : BufTy).Contents (Elt F)) : (⟨S1000000, .f32⟩ : BufTy).Contents (Elt F) :=
  (addf : (⟨S1000000, .f32⟩ : BufTy).Contents (Elt F) → (⟨S1000000, .f32⟩ : BufTy).Contents (Elt F) → (⟨S1000000, .f32⟩ : BufTy).Contents (Elt F)) (r_main_v10 (F := F) X) (r_main_v11 (F := F))

def r_main_cst_5 : (⟨S_, .f32⟩ : BufTy).Contents (Elt F) :=
  constant S_ .f32 0x3F000000#32

def r_main_v13 : (⟨S1000000, .f32⟩ : BufTy).Contents (Elt F) :=
  (broadcastInDim S1000000 ![] bcast_S_S1000000 : (⟨S_, .f32⟩ : BufTy).Contents (Elt F) → (⟨S1000000, .f32⟩ : BufTy).Contents (Elt F)) (r_main_cst_5 (F := F))

def r_main_v14 (X : (⟨S1000000x4, .f32⟩ : BufTy).Contents (Elt F)) : (⟨S1000000, .f32⟩ : BufTy).Contents (Elt F) :=
  (mulf : (⟨S1000000, .f32⟩ : BufTy).Contents (Elt F) → (⟨S1000000, .f32⟩ : BufTy).Contents (Elt F) → (⟨S1000000, .f32⟩ : BufTy).Contents (Elt F)) (r_main_v12 (F := F) X) (r_main_v13 (F := F))

def r_main_cst_6 : (⟨S_, .f32⟩ : BufTy).Contents (Elt F) :=
  constant S_ .f32 0x42FE0000#32

def r_main_v15 : (⟨S1000000, .f32⟩ : BufTy).Contents (Elt F) :=
  (broadcastInDim S1000000 ![] bcast_S_S1000000 : (⟨S_, .f32⟩ : BufTy).Contents (Elt F) → (⟨S1000000, .f32⟩ : BufTy).Contents (Elt F)) (r_main_cst_6 (F := F))

def r_main_v16 (X : (⟨S1000000x4, .f32⟩ : BufTy).Contents (Elt F)) : (⟨S1000000, .f32⟩ : BufTy).Contents (Elt F) :=
  (mulf : (⟨S1000000, .f32⟩ : BufTy).Contents (Elt F) → (⟨S1000000, .f32⟩ : BufTy).Contents (Elt F) → (⟨S1000000, .f32⟩ : BufTy).Contents (Elt F)) (r_main_v14 (F := F) X) (r_main_v15 (F := F))

def r_main_v17 (X : (⟨S1000000x4, .f32⟩ : BufTy).Contents (Elt F)) : (⟨S1000000x1, .f32⟩ : BufTy).Contents (Elt F) :=
  ((extractStridedSlice S1000000x1 ![0, 2] · slices_S1000000x3_S1000000x1_0_2) : (⟨S1000000x3, .f32⟩ : BufTy).Contents (Elt F) → (⟨S1000000x1, .f32⟩ : BufTy).Contents (Elt F)) (r_main_v0 (F := F) X)

def r_main_v18 (X : (⟨S1000000x4, .f32⟩ : BufTy).Contents (Elt F)) : (⟨S1000000, .f32⟩ : BufTy).Contents (Elt F) :=
  shapeCast _ (r_main_v17 (F := F) X) shapeCasts_S1000000x1_S1000000

def r_main_cst_7 : (⟨S_, .f32⟩ : BufTy).Contents (Elt F) :=
  constant S_ .f32 0x3F800000#32

def r_main_v19 : (⟨S1000000, .f32⟩ : BufTy).Contents (Elt F) :=
  (broadcastInDim S1000000 ![] bcast_S_S1000000 : (⟨S_, .f32⟩ : BufTy).Contents (Elt F) → (⟨S1000000, .f32⟩ : BufTy).Contents (Elt F)) (r_main_cst_7 (F := F))

def r_main_v20 (X : (⟨S1000000x4, .f32⟩ : BufTy).Contents (Elt F)) : (⟨S1000000, .f32⟩ : BufTy).Contents (Elt F) :=
  (addf : (⟨S1000000, .f32⟩ : BufTy).Contents (Elt F) → (⟨S1000000, .f32⟩ : BufTy).Contents (Elt F) → (⟨S1000000, .f32⟩ : BufTy).Contents (Elt F)) (r_main_v18 (F := F) X) (r_main_v19 (F := F))

def r_main_cst_8 : (⟨S_, .f32⟩ : BufTy).Contents (Elt F) :=
  constant S_ .f32 0x3F000000#32

def r_main_v21 : (⟨S1000000, .f32⟩ : BufTy).Contents (Elt F) :=
  (broadcastInDim S1000000 ![] bcast_S_S1000000 : (⟨S_, .f32⟩ : BufTy).Contents (Elt F) → (⟨S1000000, .f32⟩ : BufTy).Contents (Elt F)) (r_main_cst_8 (F := F))

def r_main_v22 (X : (⟨S1000000x4, .f32⟩ : BufTy).Contents (Elt F)) : (⟨S1000000, .f32⟩ : BufTy).Contents (Elt F) :=
  (mulf : (⟨S1000000, .f32⟩ : BufTy).Contents (Elt F) → (⟨S1000000, .f32⟩ : BufTy).Contents (Elt F) → (⟨S1000000, .f32⟩ : BufTy).Contents (Elt F)) (r_main_v20 (F := F) X) (r_main_v21 (F := F))

def r_main_cst_9 : (⟨S_, .f32⟩ : BufTy).Contents (Elt F) :=
  constant S_ .f32 0x42FE0000#32

def r_main_v23 : (⟨S1000000, .f32⟩ : BufTy).Contents (Elt F) :=
  (broadcastInDim S1000000 ![] bcast_S_S1000000 : (⟨S_, .f32⟩ : BufTy).Contents (Elt F) → (⟨S1000000, .f32⟩ : BufTy).Contents (Elt F)) (r_main_cst_9 (F := F))

def r_main_v24 (X : (⟨S1000000x4, .f32⟩ : BufTy).Contents (Elt F)) : (⟨S1000000, .f32⟩ : BufTy).Contents (Elt F) :=
  (mulf : (⟨S1000000, .f32⟩ : BufTy).Contents (Elt F) → (⟨S1000000, .f32⟩ : BufTy).Contents (Elt F) → (⟨S1000000, .f32⟩ : BufTy).Contents (Elt F)) (r_main_v22 (F := F) X) (r_main_v23 (F := F))

def r_main_v25 (X : (⟨S1000000x4, .f32⟩ : BufTy).Contents (Elt F)) : (⟨S1000000, .f32⟩ : BufTy).Contents (Elt F) :=
  (Host.floor : (⟨S1000000, .f32⟩ : BufTy).Contents (Elt F) → (⟨S1000000, .f32⟩ : BufTy).Contents (Elt F)) (r_main_v8 (F := F) X)

def r_main_c_10 : (⟨S_, .i32⟩ : BufTy).Contents (Elt F) :=
  constantI S_ 32 0#32

def r_main_c_11 : (⟨S_, .i32⟩ : BufTy).Contents (Elt F) :=
  constantI S_ 32 127#32

def r_main_call0_v0 : (⟨S_, .f32⟩ : BufTy).Contents (Elt F) :=
  (sitofp .f32 : (⟨S_, .i32⟩ : BufTy).Contents (Elt F) → (⟨S_, .f32⟩ : BufTy).Contents (Elt F)) (r_main_c_10 (F := F))

def r_main_call0_v1 : (⟨S1000000, .f32⟩ : BufTy).Contents (Elt F) :=
  (broadcastInDim S1000000 ![] bcast_S_S1000000 : (⟨S_, .f32⟩ : BufTy).Contents (Elt F) → (⟨S1000000, .f32⟩ : BufTy).Contents (Elt F)) (r_main_call0_v0 (F := F))

def r_main_call0_v2 (X : (⟨S1000000x4, .f32⟩ : BufTy).Contents (Elt F)) : (⟨S1000000, .f32⟩ : BufTy).Contents (Elt F) :=
  (maximumf : (⟨S1000000, .f32⟩ : BufTy).Contents (Elt F) → (⟨S1000000, .f32⟩ : BufTy).Contents (Elt F) → (⟨S1000000, .f32⟩ : BufTy).Contents (Elt F)) (r_main_call0_v1 (F := F)) (r_main_v25 (F := F) X)

def r_main_call0_v3 : (⟨S_, .f32⟩ : BufTy).Contents (Elt F) :=
  (sitofp .f32 : (⟨S_, .i32⟩ : BufTy).Contents (Elt F) → (⟨S_, .f32⟩ : BufTy).Contents (Elt F)) (r_main_c_11 (F := F))

def r_main_call0_v4 : (⟨S1000000, .f32⟩ : BufTy).Contents (Elt F) :=
  (broadcastInDim S1000000 ![] bcast_S_S1000000 : (⟨S_, .f32⟩ : BufTy).Contents (Elt F) → (⟨S1000000, .f32⟩ : BufTy).Contents (Elt F)) (r_main_call0_v3 (F := F))

def r_main_v26 (X : (⟨S1000000x4, .f32⟩ : BufTy).Contents (Elt F)) : (⟨S1000000, .f32⟩ : BufTy).Contents (Elt F) :=
  (minimumf : (⟨S1000000, .f32⟩ : BufTy).Contents (Elt F) → (⟨S1000000, .f32⟩ : BufTy).Contents (Elt F) → (⟨S1000000, .f32⟩ : BufTy).Contents (Elt F)) (r_main_call0_v4 (F := F)) (r_main_call0_v2 (F := F) X)

def r_main_v27 (X : (⟨S1000000x4, .f32⟩ : BufTy).Contents (Elt F)) : (⟨S1000000, .i32⟩ : BufTy).Contents (Elt F) :=
  (fptosi 32 : (⟨S1000000, .f32⟩ : BufTy).Contents (Elt F) → (⟨S1000000, .i32⟩ : BufTy).Contents (Elt F)) (r_main_v26 (F := F) X)

def r_main_cst_12 : (⟨S_, .f32⟩ : BufTy).Contents (Elt F) :=
  constant S_ .f32 0x3F800000#32

def r_main_v28 : (⟨S1000000, .f32⟩ : BufTy).Contents (Elt F) :=
  (broadcastInDim S1000000 ![] bcast_S_S1000000 : (⟨S_, .f32⟩ : BufTy).Contents (Elt F) → (⟨S1000000, .f32⟩ : BufTy).Contents (Elt F)) (r_main_cst_12 (F := F))

def r_main_v29 (X : (⟨S1000000x4, .f32⟩ : BufTy).Contents (Elt F)) : (⟨S1000000, .f32⟩ : BufTy).Contents (Elt F) :=
  (addf : (⟨S1000000, .f32⟩ : BufTy).Contents (Elt F) → (⟨S1000000, .f32⟩ : BufTy).Contents (Elt F) → (⟨S1000000, .f32⟩ : BufTy).Contents (Elt F)) (r_main_v25 (F := F) X) (r_main_v28 (F := F))

def r_main_c_13 : (⟨S_, .i32⟩ : BufTy).Contents (Elt F) :=
  constantI S_ 32 0#32

def r_main_c_14 : (⟨S_, .i32⟩ : BufTy).Contents (Elt F) :=
  constantI S_ 32 127#32

def r_main_call1_v0 : (⟨S_, .f32⟩ : BufTy).Contents (Elt F) :=
  (sitofp .f32 : (⟨S_, .i32⟩ : BufTy).Contents (Elt F) → (⟨S_, .f32⟩ : BufTy).Contents (Elt F)) (r_main_c_13 (F := F))

def r_main_call1_v1 : (⟨S1000000, .f32⟩ : BufTy).Contents (Elt F) :=
  (broadcastInDim S1000000 ![] bcast_S_S1000000 : (⟨S_, .f32⟩ : BufTy).Contents (Elt F) → (⟨S1000000, .f32⟩ : BufTy).Contents (Elt F)) (r_main_call1_v0 (F := F))

def r_main_call1_v2 (X : (⟨S1000000x4, .f32⟩ : BufTy).Contents (Elt F)) : (⟨S1000000, .f32⟩ : BufTy).Contents (Elt F) :=
  (maximumf : (⟨S1000000, .f32⟩ : BufTy).Contents (Elt F) → (⟨S1000000, .f32⟩ : BufTy).Contents (Elt F) → (⟨S1000000, .f32⟩ : BufTy).Contents (Elt F)) (r_main_call1_v1 (F := F)) (r_main_v29 (F := F) X)

def r_main_call1_v3 : (⟨S_, .f32⟩ : BufTy).Contents (Elt F) :=
  (sitofp .f32 : (⟨S_, .i32⟩ : BufTy).Contents (Elt F) → (⟨S_, .f32⟩ : BufTy).Contents (Elt F)) (r_main_c_14 (F := F))

def r_main_call1_v4 : (⟨S1000000, .f32⟩ : BufTy).Contents (Elt F) :=
  (broadcastInDim S1000000 ![] bcast_S_S1000000 : (⟨S_, .f32⟩ : BufTy).Contents (Elt F) → (⟨S1000000, .f32⟩ : BufTy).Contents (Elt F)) (r_main_call1_v3 (F := F))

def r_main_v30 (X : (⟨S1000000x4, .f32⟩ : BufTy).Contents (Elt F)) : (⟨S1000000, .f32⟩ : BufTy).Contents (Elt F) :=
  (minimumf : (⟨S1000000, .f32⟩ : BufTy).Contents (Elt F) → (⟨S1000000, .f32⟩ : BufTy).Contents (Elt F) → (⟨S1000000, .f32⟩ : BufTy).Contents (Elt F)) (r_main_call1_v4 (F := F)) (r_main_call1_v2 (F := F) X)

def r_main_v31 (X : (⟨S1000000x4, .f32⟩ : BufTy).Contents (Elt F)) : (⟨S1000000, .i32⟩ : BufTy).Contents (Elt F) :=
  (fptosi 32 : (⟨S1000000, .f32⟩ : BufTy).Contents (Elt F) → (⟨S1000000, .i32⟩ : BufTy).Contents (Elt F)) (r_main_v30 (F := F) X)

def r_main_v32 (X : (⟨S1000000x4, .f32⟩ : BufTy).Contents (Elt F)) : (⟨S1000000, .f32⟩ : BufTy).Contents (Elt F) :=
  (subf : (⟨S1000000, .f32⟩ : BufTy).Contents (Elt F) → (⟨S1000000, .f32⟩ : BufTy).Contents (Elt F) → (⟨S1000000, .f32⟩ : BufTy).Contents (Elt F)) (r_main_v8 (F := F) X) (r_main_v25 (F := F) X)

def r_main_v33 (X : (⟨S1000000x4, .f32⟩ : BufTy).Contents (Elt F)) : (⟨S1000000, .f32⟩ : BufTy).Contents (Elt F) :=
  (Host.floor : (⟨S1000000, .f32⟩ : BufTy).Contents (Elt F) → (⟨S1000000, .f32⟩ : BufTy).Contents (Elt F)) (r_main_v16 (F := F) X)

def r_main_c_15 : (⟨S_, .i32⟩ : BufTy).Contents (Elt F) :=
  constantI S_ 32 0#32

def r_main_c_16 : (⟨S_, .i32⟩ : BufTy).Contents (Elt F) :=
  constantI S_ 32 127#32

def r_main_call2_v0 : (⟨S_, .f32⟩ : BufTy).Contents (Elt F) :=
  (sitofp .f32 : (⟨S_, .i32⟩ : BufTy).Contents (Elt F) → (⟨S_, .f32⟩ : BufTy).Contents (Elt F)) (r_main_c_15 (F := F))

def r_main_call2_v1 : (⟨S1000000, .f32⟩ : BufTy).Contents (Elt F) :=
  (broadcastInDim S1000000 ![] bcast_S_S1000000 : (⟨S_, .f32⟩ : BufTy).Contents (Elt F) → (⟨S1000000, .f32⟩ : BufTy).Contents (Elt F)) (r_main_call2_v0 (F := F))

def r_main_call2_v2 (X : (⟨S1000000x4, .f32⟩ : BufTy).Contents (Elt F)) : (⟨S1000000, .f32⟩ : BufTy).Contents (Elt F) :=
  (maximumf : (⟨S1000000, .f32⟩ : BufTy).Contents (Elt F) → (⟨S1000000, .f32⟩ : BufTy).Contents (Elt F) → (⟨S1000000, .f32⟩ : BufTy).Contents (Elt F)) (r_main_call2_v1 (F := F)) (r_main_v33 (F := F) X)

def r_main_call2_v3 : (⟨S_, .f32⟩ : BufTy).Contents (Elt F) :=
  (sitofp .f32 : (⟨S_, .i32⟩ : BufTy).Contents (Elt F) → (⟨S_, .f32⟩ : BufTy).Contents (Elt F)) (r_main_c_16 (F := F))

def r_main_call2_v4 : (⟨S1000000, .f32⟩ : BufTy).Contents (Elt F) :=
  (broadcastInDim S1000000 ![] bcast_S_S1000000 : (⟨S_, .f32⟩ : BufTy).Contents (Elt F) → (⟨S1000000, .f32⟩ : BufTy).Contents (Elt F)) (r_main_call2_v3 (F := F))

def r_main_v34 (X : (⟨S1000000x4, .f32⟩ : BufTy).Contents (Elt F)) : (⟨S1000000, .f32⟩ : BufTy).Contents (Elt F) :=
  (minimumf : (⟨S1000000, .f32⟩ : BufTy).Contents (Elt F) → (⟨S1000000, .f32⟩ : BufTy).Contents (Elt F) → (⟨S1000000, .f32⟩ : BufTy).Contents (Elt F)) (r_main_call2_v4 (F := F)) (r_main_call2_v2 (F := F) X)

def r_main_v35 (X : (⟨S1000000x4, .f32⟩ : BufTy).Contents (Elt F)) : (⟨S1000000, .i32⟩ : BufTy).Contents (Elt F) :=
  (fptosi 32 : (⟨S1000000, .f32⟩ : BufTy).Contents (Elt F) → (⟨S1000000, .i32⟩ : BufTy).Contents (Elt F)) (r_main_v34 (F := F) X)

def r_main_cst_17 : (⟨S_, .f32⟩ : BufTy).Contents (Elt F) :=
  constant S_ .f32 0x3F800000#32

def r_main_v36 : (⟨S1000000, .f32⟩ : BufTy).Contents (Elt F) :=
  (broadcastInDim S1000000 ![] bcast_S_S1000000 : (⟨S_, .f32⟩ : BufTy).Contents (Elt F) → (⟨S1000000, .f32⟩ : BufTy).Contents (Elt F)) (r_main_cst_17 (F := F))

def r_main_v37 (X : (⟨S1000000x4, .f32⟩ : BufTy).Contents (Elt F)) : (⟨S1000000, .f32⟩ : BufTy).Contents (Elt F) :=
  (addf : (⟨S1000000, .f32⟩ : BufTy).Contents (Elt F) → (⟨S1000000, .f32⟩ : BufTy).Contents (Elt F) → (⟨S1000000, .f32⟩ : BufTy).Contents (Elt F)) (r_main_v33 (F := F) X) (r_main_v36 (F := F))

def r_main_c_18 : (⟨S_, .i32⟩ : BufTy).Contents (Elt F) :=
  constantI S_ 32 0#32

def r_main_c_19 : (⟨S_, .i32⟩ : BufTy).Contents (Elt F) :=
  constantI S_ 32 127#32

def r_main_call3_v0 : (⟨S_, .f32⟩ : BufTy).Contents (Elt F) :=
  (sitofp .f32 : (⟨S_, .i32⟩ : BufTy).Contents (Elt F) → (⟨S_, .f32⟩ : BufTy).Contents (Elt F)) (r_main_c_18 (F := F))

def r_main_call3_v1 : (⟨S1000000, .f32⟩ : BufTy).Contents (Elt F) :=
  (broadcastInDim S1000000 ![] bcast_S_S1000000 : (⟨S_, .f32⟩ : BufTy).Contents (Elt F) → (⟨S1000000, .f32⟩ : BufTy).Contents (Elt F)) (r_main_call3_v0 (F := F))

def r_main_call3_v2 (X : (⟨S1000000x4, .f32⟩ : BufTy).Contents (Elt F)) : (⟨S1000000, .f32⟩ : BufTy).Contents (Elt F) :=
  (maximumf : (⟨S1000000, .f32⟩ : BufTy).Contents (Elt F) → (⟨S1000000, .f32⟩ : BufTy).Contents (Elt F) → (⟨S1000000, .f32⟩ : BufTy).Contents (Elt F)) (r_main_call3_v1 (F := F)) (r_main_v37 (F := F) X)

def r_main_call3_v3 : (⟨S_, .f32⟩ : BufTy).Contents (Elt F) :=
  (sitofp .f32 : (⟨S_, .i32⟩ : BufTy).Contents (Elt F) → (⟨S_, .f32⟩ : BufTy).Contents (Elt F)) (r_main_c_19 (F := F))

def r_main_call3_v4 : (⟨S1000000, .f32⟩ : BufTy).Contents (Elt F) :=
  (broadcastInDim S1000000 ![] bcast_S_S1000000 : (⟨S_, .f32⟩ : BufTy).Contents (Elt F) → (⟨S1000000, .f32⟩ : BufTy).Contents (Elt F)) (r_main_call3_v3 (F := F))

def r_main_v38 (X : (⟨S1000000x4, .f32⟩ : BufTy).Contents (Elt F)) : (⟨S1000000, .f32⟩ : BufTy).Contents (Elt F) :=
  (minimumf : (⟨S1000000, .f32⟩ : BufTy).Contents (Elt F) → (⟨S1000000, .f32⟩ : BufTy).Contents (Elt F) → (⟨S1000000, .f32⟩ : BufTy).Contents (Elt F)) (r_main_call3_v4 (F := F)) (r_main_call3_v2 (F := F) X)

def r_main_v39 (X : (⟨S1000000x4, .f32⟩ : BufTy).Contents (Elt F)) : (⟨S1000000, .i32⟩ : BufTy).Contents (Elt F) :=
  (fptosi 32 : (⟨S1000000, .f32⟩ : BufTy).Contents (Elt F) → (⟨S1000000, .i32⟩ : BufTy).Contents (Elt F)) (r_main_v38 (F := F) X)

def r_main_v40 (X : (⟨S1000000x4, .f32⟩ : BufTy).Contents (Elt F)) : (⟨S1000000, .f32⟩ : BufTy).Contents (Elt F) :=
  (subf : (⟨S1000000, .f32⟩ : BufTy).Contents (Elt F) → (⟨S1000000, .f32⟩ : BufTy).Contents (Elt F) → (⟨S1000000, .f32⟩ : BufTy).Contents (Elt F)) (r_main_v16 (F := F) X) (r_main_v33 (F := F) X)

def r_main_v41 (X : (⟨S1000000x4, .f32⟩ : BufTy).Contents (Elt F)) : (⟨S1000000, .f32⟩ : BufTy).Contents (Elt F) :=
  (Host.floor : (⟨S1000000, .f32⟩ : BufTy).Contents (Elt F) → (⟨S1000000, .f32⟩ : BufTy).Contents (Elt F)) (r_main_v24 (F := F) X)

def r_main_c_20 : (⟨S_, .i32⟩ : BufTy).Contents (Elt F) :=
  constantI S_ 32 0#32

def r_main_c_21 : (⟨S_, .i32⟩ : BufTy).Contents (Elt F) :=
  constantI S_ 32 127#32

def r_main_call4_v0 : (⟨S_, .f32⟩ : BufTy).Contents (Elt F) :=
  (sitofp .f32 : (⟨S_, .i32⟩ : BufTy).Contents (Elt F) → (⟨S_, .f32⟩ : BufTy).Contents (Elt F)) (r_main_c_20 (F := F))

def r_main_call4_v1 : (⟨S1000000, .f32⟩ : BufTy).Contents (Elt F) :=
  (broadcastInDim S1000000 ![] bcast_S_S1000000 : (⟨S_, .f32⟩ : BufTy).Contents (Elt F) → (⟨S1000000, .f32⟩ : BufTy).Contents (Elt F)) (r_main_call4_v0 (F := F))

def r_main_call4_v2 (X : (⟨S1000000x4, .f32⟩ : BufTy).Contents (Elt F)) : (⟨S1000000, .f32⟩ : BufTy).Contents (Elt F) :=
  (maximumf : (⟨S1000000, .f32⟩ : BufTy).Contents (Elt F) → (⟨S1000000, .f32⟩ : BufTy).Contents (Elt F) → (⟨S1000000, .f32⟩ : BufTy).Contents (Elt F)) (r_main_call4_v1 (F := F)) (r_main_v41 (F := F) X)

def r_main_call4_v3 : (⟨S_, .f32⟩ : BufTy).Contents (Elt F) :=
  (sitofp .f32 : (⟨S_, .i32⟩ : BufTy).Contents (Elt F) → (⟨S_, .f32⟩ : BufTy).Contents (Elt F)) (r_main_c_21 (F := F))

def r_main_call4_v4 : (⟨S1000000, .f32⟩ : BufTy).Contents (Elt F) :=
  (broadcastInDim S1000000 ![] bcast_S_S1000000 : (⟨S_, .f32⟩ : BufTy).Contents (Elt F) → (⟨S1000000, .f32⟩ : BufTy).Contents (Elt F)) (r_main_call4_v3 (F := F))

def r_main_v42 (X : (⟨S1000000x4, .f32⟩ : BufTy).Contents (Elt F)) : (⟨S1000000, .f32⟩ : BufTy).Contents (Elt F) :=
  (minimumf : (⟨S1000000, .f32⟩ : BufTy).Contents (Elt F) → (⟨S1000000, .f32⟩ : BufTy).Contents (Elt F) → (⟨S1000000, .f32⟩ : BufTy).Contents (Elt F)) (r_main_call4_v4 (F := F)) (r_main_call4_v2 (F := F) X)

def r_main_v43 (X : (⟨S1000000x4, .f32⟩ : BufTy).Contents (Elt F)) : (⟨S1000000, .i32⟩ : BufTy).Contents (Elt F) :=
  (fptosi 32 : (⟨S1000000, .f32⟩ : BufTy).Contents (Elt F) → (⟨S1000000, .i32⟩ : BufTy).Contents (Elt F)) (r_main_v42 (F := F) X)

def r_main_cst_22 : (⟨S_, .f32⟩ : BufTy).Contents (Elt F) :=
  constant S_ .f32 0x3F800000#32

def r_main_v44 : (⟨S1000000, .f32⟩ : BufTy).Contents (Elt F) :=
  (broadcastInDim S1000000 ![] bcast_S_S1000000 : (⟨S_, .f32⟩ : BufTy).Contents (Elt F) → (⟨S1000000, .f32⟩ : BufTy).Contents (Elt F)) (r_main_cst_22 (F := F))

def r_main_v45 (X : (⟨S1000000x4, .f32⟩ : BufTy).Contents (Elt F)) : (⟨S1000000, .f32⟩ : BufTy).Contents (Elt F) :=
  (addf : (⟨S1000000, .f32⟩ : BufTy).Contents (Elt F) → (⟨S1000000, .f32⟩ : BufTy).Contents (Elt F) → (⟨S1000000, .f32⟩ : BufTy).Contents (Elt F)) (r_main_v41 (F := F) X) (r_main_v44 (F := F))

def r_main_c_23 : (⟨S_, .i32⟩ : BufTy).Contents (Elt F) :=
  constantI S_ 32 0#32

def r_main_c_24 : (⟨S_, .i32⟩ : BufTy).Contents (Elt F) :=
  constantI S_ 32 127#32

def r_main_call5_v0 : (⟨S_, .f32⟩ : BufTy).Contents (Elt F) :=
  (sitofp .f32 : (⟨S_, .i32⟩ : BufTy).Contents (Elt F) → (⟨S_, .f32⟩ : BufTy).Contents (Elt F)) (r_main_c_23 (F := F))

def r_main_call5_v1 : (⟨S1000000, .f32⟩ : BufTy).Contents (Elt F) :=
  (broadcastInDim S1000000 ![] bcast_S_S1000000 : (⟨S_, .f32⟩ : BufTy).Contents (Elt F) → (⟨S1000000, .f32⟩ : BufTy).Contents (Elt F)) (r_main_call5_v0 (F := F))

def r_main_call5_v2 (X : (⟨S1000000x4, .f32⟩ : BufTy).Contents (Elt F)) : (⟨S1000000, .f32⟩ : BufTy).Contents (Elt F) :=
  (maximumf : (⟨S1000000, .f32⟩ : BufTy).Contents (Elt F) → (⟨S1000000, .f32⟩ : BufTy).Contents (Elt F) → (⟨S1000000, .f32⟩ : BufTy).Contents (Elt F)) (r_main_call5_v1 (F := F)) (r_main_v45 (F := F) X)

def r_main_call5_v3 : (⟨S_, .f32⟩ : BufTy).Contents (Elt F) :=
  (sitofp .f32 : (⟨S_, .i32⟩ : BufTy).Contents (Elt F) → (⟨S_, .f32⟩ : BufTy).Contents (Elt F)) (r_main_c_24 (F := F))

def r_main_call5_v4 : (⟨S1000000, .f32⟩ : BufTy).Contents (Elt F) :=
  (broadcastInDim S1000000 ![] bcast_S_S1000000 : (⟨S_, .f32⟩ : BufTy).Contents (Elt F) → (⟨S1000000, .f32⟩ : BufTy).Contents (Elt F)) (r_main_call5_v3 (F := F))

def r_main_v46 (X : (⟨S1000000x4, .f32⟩ : BufTy).Contents (Elt F)) : (⟨S1000000, .f32⟩ : BufTy).Contents (Elt F) :=
  (minimumf : (⟨S1000000, .f32⟩ : BufTy).Contents (Elt F) → (⟨S1000000, .f32⟩ : BufTy).Contents (Elt F) → (⟨S1000000, .f32⟩ : BufTy).Contents (Elt F)) (r_main_call5_v4 (F := F)) (r_main_call5_v2 (F := F) X)

def r_main_v47 (X : (⟨S1000000x4, .f32⟩ : BufTy).Contents (Elt F)) : (⟨S1000000, .i32⟩ : BufTy).Contents (Elt F) :=
  (fptosi 32 : (⟨S1000000, .f32⟩ : BufTy).Contents (Elt F) → (⟨S1000000, .i32⟩ : BufTy).Contents (Elt F)) (r_main_v46 (F := F) X)

def r_main_v48 (X : (⟨S1000000x4, .f32⟩ : BufTy).Contents (Elt F)) : (⟨S1000000, .f32⟩ : BufTy).Contents (Elt F) :=
  (subf : (⟨S1000000, .f32⟩ : BufTy).Contents (Elt F) → (⟨S1000000, .f32⟩ : BufTy).Contents (Elt F) → (⟨S1000000, .f32⟩ : BufTy).Contents (Elt F)) (r_main_v24 (F := F) X) (r_main_v41 (F := F) X)

def r_main_cst_25 : (⟨S_, .f32⟩ : BufTy).Contents (Elt F) :=
  constant S_ .f32 0x00000000#32

def r_main_v49 : (⟨S16x1000000, .f32⟩ : BufTy).Contents (Elt F) :=
  (broadcastInDim S16x1000000 ![] bcast_S_S16x1000000 : (⟨S_, .f32⟩ : BufTy).Contents (Elt F) → (⟨S16x1000000, .f32⟩ : BufTy).Contents (Elt F)) (r_main_cst_25 (F := F))

def r_main_cst_26 : (⟨S_, .f32⟩ : BufTy).Contents (Elt F) :=
  constant S_ .f32 0x3F800000#32

def r_main_v50 : (⟨S1000000, .f32⟩ : BufTy).Contents (Elt F) :=
  (broadcastInDim S1000000 ![] bcast_S_S1000000 : (⟨S_, .f32⟩ : BufTy).Contents (Elt F) → (⟨S1000000, .f32⟩ : BufTy).Contents (Elt F)) (r_main_cst_26 (F := F))

def r_main_v51 (X : (⟨S1000000x4, .f32⟩ : BufTy).Contents (Elt F)) : (⟨S1000000, .f32⟩ : BufTy).Contents (Elt F) :=
  (subf : (⟨S1000000, .f32⟩ : BufTy).Contents (Elt F) → (⟨S1000000, .f32⟩ : BufTy).Contents (Elt F) → (⟨S1000000, .f32⟩ : BufTy).Contents (Elt F)) (r_main_v50 (F := F)) (r_main_v48 (F := F) X)

def r_main_cst_27 : (⟨S_, .f32⟩ : BufTy).Contents (Elt F) :=
  constant S_ .f32 0x3F800000#32

def r_main_v52 : (⟨S1000000, .f32⟩ : BufTy).Contents (Elt F) :=
  (broadcastInDim S1000000 ![] bcast_S_S1000000 : (⟨S_, .f32⟩ : BufTy).Contents (Elt F) → (⟨S1000000, .f32⟩ : BufTy).Contents (Elt F)) (r_main_cst_27 (F := F))

def r_main_v53 (X : (⟨S1000000x4, .f32⟩ : BufTy).Contents (Elt F)) : (⟨S1000000, .f32⟩ : BufTy).Contents (Elt F) :=
  (subf : (⟨S1000000, .f32⟩ : BufTy).Contents (Elt F) → (⟨S1000000, .f32⟩ : BufTy).Contents (Elt F) → (⟨S1000000, .f32⟩ : BufTy).Contents (Elt F)) (r_main_v52 (F := F)) (r_main_v40 (F := F) X)

def r_main_cst_28 : (⟨S_, .f32⟩ : BufTy).Contents (Elt F) :=
  constant S_ .f32 0x3F800000#32

def r_main_v54 : (⟨S1000000, .f32⟩ : BufTy).Contents (Elt F) :=
  (broadcastInDim S1000000 ![] bcast_S_S1000000 : (⟨S_, .f32⟩ : BufTy).Contents (Elt F) → (⟨S1000000, .f32⟩ : BufTy).Contents (Elt F)) (r_main_cst_28 (F := F))

def r_main_v55 (X : (⟨S1000000x4, .f32⟩ : BufTy).Contents (Elt F)) : (⟨S1000000, .f32⟩ : BufTy).Contents (Elt F) :=
  (subf : (⟨S1000000, .f32⟩ : BufTy).Contents (Elt F) → (⟨S1000000, .f32⟩ : BufTy).Contents (Elt F) → (⟨S1000000, .f32⟩ : BufTy).Contents (Elt F)) (r_main_v54 (F := F)) (r_main_v32 (F := F) X)

def r_main_c_29 : (⟨S_, .i32⟩ : BufTy).Contents (Elt F) :=
  constantI S_ 32 0#32

def r_main_v56 : (⟨S1000000, .i32⟩ : BufTy).Contents (Elt F) :=
  (broadcastInDim S1000000 ![] bcast_S_S1000000 : (⟨S_, .i32⟩ : BufTy).Contents (Elt F) → (⟨S1000000, .i32⟩ : BufTy).Contents (Elt F)) (r_main_c_29 (F := F))

def r_main_v57 (X : (⟨S1000000x4, .f32⟩ : BufTy).Contents (Elt F)) : (⟨S1000000, .i1⟩ : BufTy).Contents (Elt F) :=
  (cmpi .slt : (⟨S1000000, .i32⟩ : BufTy).Contents (Elt F) → (⟨S1000000, .i32⟩ : BufTy).Contents (Elt F) → (⟨S1000000, .i1⟩ : BufTy).Contents (Elt F)) (r_main_v43 (F := F) X) (r_main_v56 (F := F))

def r_main_c_30 : (⟨S_, .i32⟩ : BufTy).Contents (Elt F) :=
  constantI S_ 32 128#32

def r_main_v58 : (⟨S1000000, .i32⟩ : BufTy).Contents (Elt F) :=
  (broadcastInDim S1000000 ![] bcast_S_S1000000 : (⟨S_, .i32⟩ : BufTy).Contents (Elt F) → (⟨S1000000, .i32⟩ : BufTy).Contents (Elt F)) (r_main_c_30 (F := F))

def r_main_v59 (X : (⟨S1000000x4, .f32⟩ : BufTy).Contents (Elt F)) : (⟨S1000000, .i32⟩ : BufTy).Contents (Elt F) :=
  (addi : (⟨S1000000, .i32⟩ : BufTy).Contents (Elt F) → (⟨S1000000, .i32⟩ : BufTy).Contents (Elt F) → (⟨S1000000, .i32⟩ : BufTy).Contents (Elt F)) (r_main_v43 (F := F) X) (r_main_v58 (F := F))

def r_main_v60 (X : (⟨S1000000x4, .f32⟩ : BufTy).Contents (Elt F)) : (⟨S1000000, .i32⟩ : BufTy).Contents (Elt F) :=
  (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) (r_main_v57 (F := F) X) (r_main_v59 (F := F) X) (r_main_v43 (F := F) X)

def r_main_c_31 : (⟨S_, .i32⟩ : BufTy).Contents (Elt F) :=
  constantI S_ 32 0#32

def r_main_v61 : (⟨S1000000, .i32⟩ : BufTy).Contents (Elt F) :=
  (broadcastInDim S1000000 ![] bcast_S_S1000000 : (⟨S_, .i32⟩ : BufTy).Contents (Elt F) → (⟨S1000000, .i32⟩ : BufTy).Contents (Elt F)) (r_main_c_31 (F := F))

def r_main_v62 (X : (⟨S1000000x4, .f32⟩ : BufTy).Contents (Elt F)) : (⟨S1000000, .i1⟩ : BufTy).Contents (Elt F) :=
  (cmpi .slt : (⟨S1000000, .i32⟩ : BufTy).Contents (Elt F) → (⟨S1000000, .i32⟩ : BufTy).Contents (Elt F) → (⟨S1000000, .i1⟩ : BufTy).Contents (Elt F)) (r_main_v35 (F := F) X) (r_main_v61 (F := F))

def r_main_c_32 : (⟨S_, .i32⟩ : BufTy).Contents (Elt F) :=
  constantI S_ 32 128#32

def r_main_v63 : (⟨S1000000, .i32⟩ : BufTy).Contents (Elt F) :=
  (broadcastInDim S1000000 ![] bcast_S_S1000000 : (⟨S_, .i32⟩ : BufTy).Contents (Elt F) → (⟨S1000000, .i32⟩ : BufTy).Contents (Elt F)) (r_main_c_32 (F := F))

def r_main_v64 (X : (⟨S1000000x4, .f32⟩ : BufTy).Contents (Elt F)) : (⟨S1000000, .i32⟩ : BufTy).Contents (Elt F) :=
  (addi : (⟨S1000000, .i32⟩ : BufTy).Contents (Elt F) → (⟨S1000000, .i32⟩ : BufTy).Contents (Elt F) → (⟨S1000000, .i32⟩ : BufTy).Contents (Elt F)) (r_main_v35 (F := F) X) (r_main_v63 (F := F))

def r_main_v65 (X : (⟨S1000000x4, .f32⟩ : BufTy).Contents (Elt F)) : (⟨S1000000, .i32⟩ : BufTy).Contents (Elt F) :=
  (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) (r_main_v62 (F := F) X) (r_main_v64 (F := F) X) (r_main_v35 (F := F) X)

def r_main_c_33 : (⟨S_, .i32⟩ : BufTy).Contents (Elt F) :=
  constantI S_ 32 0#32

def r_main_v66 : (⟨S1000000, .i32⟩ : BufTy).Contents (Elt F) :=
  (broadcastInDim S1000000 ![] bcast_S_S1000000 : (⟨S_, .i32⟩ : BufTy).Contents (Elt F) → (⟨S1000000, .i32⟩ : BufTy).Contents (Elt F)) (r_main_c_33 (F := F))

def r_main_v67 (X : (⟨S1000000x4, .f32⟩ : BufTy).Contents (Elt F)) : (⟨S1000000, .i1⟩ : BufTy).Contents (Elt F) :=
  (cmpi .slt : (⟨S1000000, .i32⟩ : BufTy).Contents (Elt F) → (⟨S1000000, .i32⟩ : BufTy).Contents (Elt F) → (⟨S1000000, .i1⟩ : BufTy).Contents (Elt F)) (r_main_v27 (F := F) X) (r_main_v66 (F := F))

def r_main_c_34 : (⟨S_, .i32⟩ : BufTy).Contents (Elt F) :=
  constantI S_ 32 128#32

def r_main_v68 : (⟨S1000000, .i32⟩ : BufTy).Contents (Elt F) :=
  (broadcastInDim S1000000 ![] bcast_S_S1000000 : (⟨S_, .i32⟩ : BufTy).Contents (Elt F) → (⟨S1000000, .i32⟩ : BufTy).Contents (Elt F)) (r_main_c_34 (F := F))

def r_main_v69 (X : (⟨S1000000x4, .f32⟩ : BufTy).Contents (Elt F)) : (⟨S1000000, .i32⟩ : BufTy).Contents (Elt F) :=
  (addi : (⟨S1000000, .i32⟩ : BufTy).Contents (Elt F) → (⟨S1000000, .i32⟩ : BufTy).Contents (Elt F) → (⟨S1000000, .i32⟩ : BufTy).Contents (Elt F)) (r_main_v27 (F := F) X) (r_main_v68 (F := F))

def r_main_v70 (X : (⟨S1000000x4, .f32⟩ : BufTy).Contents (Elt F)) : (⟨S1000000, .i32⟩ : BufTy).Contents (Elt F) :=
  (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) (r_main_v67 (F := F) X) (r_main_v69 (F := F) X) (r_main_v27 (F := F) X)

def r_main_v71 (X : (⟨S1000000x4, .f32⟩ : BufTy).Contents (Elt F)) : (⟨S1000000x1, .i32⟩ : BufTy).Contents (Elt F) :=
  (broadcastInDim S1000000x1 ![0] bcast_S1000000_S1000000x1_0 : (⟨S1000000, .i32⟩ : BufTy).Contents (Elt F) → (⟨S1000000x1, .i32⟩ : BufTy).Contents (Elt F)) (r_main_v60 (F := F) X)

def r_main_v72 (X : (⟨S1000000x4, .f32⟩ : BufTy).Contents (Elt F)) : (⟨S1000000x1, .i32⟩ : BufTy).Contents (Elt F) :=
  (broadcastInDim S1000000x1 ![0] bcast_S1000000_S1000000x1_0 : (⟨S1000000, .i32⟩ : BufTy).Contents (Elt F) → (⟨S1000000x1, .i32⟩ : BufTy).Contents (Elt F)) (r_main_v65 (F := F) X)

def r_main_v73 (X : (⟨S1000000x4, .f32⟩ : BufTy).Contents (Elt F)) : (⟨S1000000x1, .i32⟩ : BufTy).Contents (Elt F) :=
  (broadcastInDim S1000000x1 ![0] bcast_S1000000_S1000000x1_0 : (⟨S1000000, .i32⟩ : BufTy).Contents (Elt F) → (⟨S1000000x1, .i32⟩ : BufTy).Contents (Elt F)) (r_main_v70 (F := F) X)

def r_main_v74 (X : (⟨S1000000x4, .f32⟩ : BufTy).Contents (Elt F)) : (⟨S1000000x3, .i32⟩ : BufTy).Contents (Elt F) :=
  cat3 (F := F) (r_main_v71 (F := F) X) (r_main_v72 (F := F) X) (r_main_v73 (F := F) X)

def r_main_v75 (X : (⟨S1000000x4, .f32⟩ : BufTy).Contents (Elt F)) (G : (⟨S16x128x128x128, .f32⟩ : BufTy).Contents (Elt F)) : (⟨S16x1000000, .f32⟩ : BufTy).Contents (Elt F) :=
  ((fun x i => Host.gather gather_S16x128x128x128_S1000000x3_S16x1000000_0_123_n_n_123_1_16111 x i) : (⟨S16x128x128x128, .f32⟩ : BufTy).Contents (Elt F) → (⟨S1000000x3, .i32⟩ : BufTy).Contents (Elt F) → (⟨S16x1000000, .f32⟩ : BufTy).Contents (Elt F)) G (r_main_v74 (F := F) X)

def r_main_v76 (X : (⟨S1000000x4, .f32⟩ : BufTy).Contents (Elt F)) : (⟨S1000000, .f32⟩ : BufTy).Contents (Elt F) :=
  (mulf : (⟨S1000000, .f32⟩ : BufTy).Contents (Elt F) → (⟨S1000000, .f32⟩ : BufTy).Contents (Elt F) → (⟨S1000000, .f32⟩ : BufTy).Contents (Elt F)) (r_main_v51 (F := F) X) (r_main_v53 (F := F) X)

def r_main_v77 (X : (⟨S1000000x4, .f32⟩ : BufTy).Contents (Elt F)) : (⟨S1000000, .f32⟩ : BufTy).Contents (Elt F) :=
  (mulf : (⟨S1000000, .f32⟩ : BufTy).Contents (Elt F) → (⟨S1000000, .f32⟩ : BufTy).Contents (Elt F) → (⟨S1000000, .f32⟩ : BufTy).Contents (Elt F)) (r_main_v76 (F := F) X) (r_main_v55 (F := F) X)

def r_main_v78 (X : (⟨S1000000x4, .f32⟩ : BufTy).Contents (Elt F)) : (⟨S1x1000000, .f32⟩ : BufTy).Contents (Elt F) :=
  (broadcastInDim S1x1000000 ![1] bcast_S1000000_S1x1000000_1 : (⟨S1000000, .f32⟩ : BufTy).Contents (Elt F) → (⟨S1x1000000, .f32⟩ : BufTy).Contents (Elt F)) (r_main_v77 (F := F) X)

def r_main_v79 (X : (⟨S1000000x4, .f32⟩ : BufTy).Contents (Elt F)) : (⟨S16x1000000, .f32⟩ : BufTy).Contents (Elt F) :=
  (broadcastInDim S16x1000000 ![0, 1] bcast_S1x1000000_S16x1000000_0_1 : (⟨S1x1000000, .f32⟩ : BufTy).Contents (Elt F) → (⟨S16x1000000, .f32⟩ : BufTy).Contents (Elt F)) (r_main_v78 (F := F) X)

def r_main_v80 (X : (⟨S1000000x4, .f32⟩ : BufTy).Contents (Elt F)) (G : (⟨S16x128x128x128, .f32⟩ : BufTy).Contents (Elt F)) : (⟨S16x1000000, .f32⟩ : BufTy).Contents (Elt F) :=
  (mulf : (⟨S16x1000000, .f32⟩ : BufTy).Contents (Elt F) → (⟨S16x1000000, .f32⟩ : BufTy).Contents (Elt F) → (⟨S16x1000000, .f32⟩ : BufTy).Contents (Elt F)) (r_main_v75 (F := F) X G) (r_main_v79 (F := F) X)

def r_main_v81 (X : (⟨S1000000x4, .f32⟩ : BufTy).Contents (Elt F)) (G : (⟨S16x128x128x128, .f32⟩ : BufTy).Contents (Elt F)) : (⟨S16x1000000, .f32⟩ : BufTy).Contents (Elt F) :=
  (addf : (⟨S16x1000000, .f32⟩ : BufTy).Contents (Elt F) → (⟨S16x1000000, .f32⟩ : BufTy).Contents (Elt F) → (⟨S16x1000000, .f32⟩ : BufTy).Contents (Elt F)) (r_main_v49 (F := F)) (r_main_v80 (F := F) X G)

def r_main_c_35 : (⟨S_, .i32⟩ : BufTy).Contents (Elt F) :=
  constantI S_ 32 0#32

def r_main_v82 : (⟨S1000000, .i32⟩ : BufTy).Contents (Elt F) :=
  (broadcastInDim S1000000 ![] bcast_S_S1000000 : (⟨S_, .i32⟩ : BufTy).Contents (Elt F) → (⟨S1000000, .i32⟩ : BufTy).Contents (Elt F)) (r_main_c_35 (F := F))

def r_main_v83 (X : (⟨S1000000x4, .f32⟩ : BufTy).Contents (Elt F)) : (⟨S1000000, .i1⟩ : BufTy).Contents (Elt F) :=
  (cmpi .slt : (⟨S1000000, .i32⟩ : BufTy).Contents (Elt F) → (⟨S1000000, .i32⟩ : BufTy).Contents (Elt F) → (⟨S1000000, .i1⟩ : BufTy).Contents (Elt F)) (r_main_v43 (F := F) X) (r_main_v82 (F := F))

def r_main_c_36 : (⟨S_, .i32⟩ : BufTy).Contents (Elt F) :=
  constantI S_ 32 128#32

def r_main_v84 : (⟨S1000000, .i32⟩ : BufTy).Contents (Elt F) :=
  (broadcastInDim S1000000 ![] bcast_S_S1000000 : (⟨S_, .i32⟩ : BufTy).Contents (Elt F) → (⟨S1000000, .i32⟩ : BufTy).Contents (Elt F)) (r_main_c_36 (F := F))

def r_main_v85 (X : (⟨S1000000x4, .f32⟩ : BufTy).Contents (Elt F)) : (⟨S1000000, .i32⟩ : BufTy).Contents (Elt F) :=
  (addi : (⟨S1000000, .i32⟩ : BufTy).Contents (Elt F) → (⟨S1000000, .i32⟩ : BufTy).Contents (Elt F) → (⟨S1000000, .i32⟩ : BufTy).Contents (Elt F)) (r_main_v43 (F := F) X) (r_main_v84 (F := F))

def r_main_v86 (X : (⟨S1000000x4, .f32⟩ : BufTy).Contents (Elt F)) : (⟨S1000000, .i32⟩ : BufTy).Contents (Elt F) :=
  (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) (r_main_v83 (F := F) X) (r_main_v85 (F := F) X) (r_main_v43 (F := F) X)

def r_main_c_37 : (⟨S_, .i32⟩ : BufTy).Contents (Elt F) :=
  constantI S_ 32 0#32

def r_main_v87 : (⟨S1000000, .i32⟩ : BufTy).Contents (Elt F) :=
  (broadcastInDim S1000000 ![] bcast_S_S1000000 : (⟨S_, .i32⟩ : BufTy).Contents (Elt F) → (⟨S1000000, .i32⟩ : BufTy).Contents (Elt F)) (r_main_c_37 (F := F))

def r_main_v88 (X : (⟨S1000000x4, .f32⟩ : BufTy).Contents (Elt F)) : (⟨S1000000, .i1⟩ : BufTy).Contents (Elt F) :=
  (cmpi .slt : (⟨S1000000, .i32⟩ : BufTy).Contents (Elt F) → (⟨S1000000, .i32⟩ : BufTy).Contents (Elt F) → (⟨S1000000, .i1⟩ : BufTy).Contents (Elt F)) (r_main_v35 (F := F) X) (r_main_v87 (F := F))

def r_main_c_38 : (⟨S_, .i32⟩ : BufTy).Contents (Elt F) :=
  constantI S_ 32 128#32

def r_main_v89 : (⟨S1000000, .i32⟩ : BufTy).Contents (Elt F) :=
  (broadcastInDim S1000000 ![] bcast_S_S1000000 : (⟨S_, .i32⟩ : BufTy).Contents (Elt F) → (⟨S1000000, .i32⟩ : BufTy).Contents (Elt F)) (r_main_c_38 (F := F))

def r_main_v90 (X : (⟨S1000000x4, .f32⟩ : BufTy).Contents (Elt F)) : (⟨S1000000, .i32⟩ : BufTy).Contents (Elt F) :=
  (addi : (⟨S1000000, .i32⟩ : BufTy).Contents (Elt F) → (⟨S1000000, .i32⟩ : BufTy).Contents (Elt F) → (⟨S1000000, .i32⟩ : BufTy).Contents (Elt F)) (r_main_v35 (F := F) X) (r_main_v89 (F := F))

def r_main_v91 (X : (⟨S1000000x4, .f32⟩ : BufTy).Contents (Elt F)) : (⟨S1000000, .i32⟩ : BufTy).Contents (Elt F) :=
  (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) (r_main_v88 (F := F) X) (r_main_v90 (F := F) X) (r_main_v35 (F := F) X)

def r_main_c_39 : (⟨S_, .i32⟩ : BufTy).Contents (Elt F) :=
  constantI S_ 32 0#32

def r_main_v92 : (⟨S1000000, .i32⟩ : BufTy).Contents (Elt F) :=
  (broadcastInDim S1000000 ![] bcast_S_S1000000 : (⟨S_, .i32⟩ : BufTy).Contents (Elt F) → (⟨S1000000, .i32⟩ : BufTy).Contents (Elt F)) (r_main_c_39 (F := F))

def r_main_v93 (X : (⟨S1000000x4, .f32⟩ : BufTy).Contents (Elt F)) : (⟨S1000000, .i1⟩ : BufTy).Contents (Elt F) :=
  (cmpi .slt : (⟨S1000000, .i32⟩ : BufTy).Contents (Elt F) → (⟨S1000000, .i32⟩ : BufTy).Contents (Elt F) → (⟨S1000000, .i1⟩ : BufTy).Contents (Elt F)) (r_main_v31 (F := F) X) (r_main_v92 (F := F))

def r_main_c_40 : (⟨S_, .i32⟩ : BufTy).Contents (Elt F) :=
  constantI S_ 32 128#32

def r_main_v94 : (⟨S1000000, .i32⟩ : BufTy).Contents (Elt F) :=
  (broadcastInDim S1000000 ![] bcast_S_S1000000 : (⟨S_, .i32⟩ : BufTy).Contents (Elt F) → (⟨S1000000, .i32⟩ : BufTy).Contents (Elt F)) (r_main_c_40 (F := F))

def r_main_v95 (X : (⟨S1000000x4, .f32⟩ : BufTy).Contents (Elt F)) : (⟨S1000000, .i32⟩ : BufTy).Contents (Elt F) :=
  (addi : (⟨S1000000, .i32⟩ : BufTy).Contents (Elt F) → (⟨S1000000, .i32⟩ : BufTy).Contents (Elt F) → (⟨S1000000, .i32⟩ : BufTy).Contents (Elt F)) (r_main_v31 (F := F) X) (r_main_v94 (F := F))

def r_main_v96 (X : (⟨S1000000x4, .f32⟩ : BufTy).Contents (Elt F)) : (⟨S1000000, .i32⟩ : BufTy).Contents (Elt F) :=
  (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) (r_main_v93 (F := F) X) (r_main_v95 (F := F) X) (r_main_v31 (F := F) X)

def r_main_v97 (X : (⟨S1000000x4, .f32⟩ : BufTy).Contents (Elt F)) : (⟨S1000000x1, .i32⟩ : BufTy).Contents (Elt F) :=
  (broadcastInDim S1000000x1 ![0] bcast_S1000000_S1000000x1_0 : (⟨S1000000, .i32⟩ : BufTy).Contents (Elt F) → (⟨S1000000x1, .i32⟩ : BufTy).Contents (Elt F)) (r_main_v86 (F := F) X)

def r_main_v98 (X : (⟨S1000000x4, .f32⟩ : BufTy).Contents (Elt F)) : (⟨S1000000x1, .i32⟩ : BufTy).Contents (Elt F) :=
  (broadcastInDim S1000000x1 ![0] bcast_S1000000_S1000000x1_0 : (⟨S1000000, .i32⟩ : BufTy).Contents (Elt F) → (⟨S1000000x1, .i32⟩ : BufTy).Contents (Elt F)) (r_main_v91 (F := F) X)

def r_main_v99 (X : (⟨S1000000x4, .f32⟩ : BufTy).Contents (Elt F)) : (⟨S1000000x1, .i32⟩ : BufTy).Contents (Elt F) :=
  (broadcastInDim S1000000x1 ![0] bcast_S1000000_S1000000x1_0 : (⟨S1000000, .i32⟩ : BufTy).Contents (Elt F) → (⟨S1000000x1, .i32⟩ : BufTy).Contents (Elt F)) (r_main_v96 (F := F) X)

def r_main_v100 (X : (⟨S1000000x4, .f32⟩ : BufTy).Contents (Elt F)) : (⟨S1000000x3, .i32⟩ : BufTy).Contents (Elt F) :=
  cat3 (F := F) (r_main_v97 (F := F) X) (r_main_v98 (F := F) X) (r_main_v99 (F := F) X)

def r_main_v101 (X : (⟨S1000000x4, .f32⟩ : BufTy).Contents (Elt F)) (G : (⟨S16x128x128x128, .f32⟩ : BufTy).Contents (Elt F)) : (⟨S16x1000000, .f32⟩ : BufTy).Contents (Elt F) :=
  ((fun x i => Host.gather gather_S16x128x128x128_S1000000x3_S16x1000000_0_123_n_n_123_1_16111 x i) : (⟨S16x128x128x128, .f32⟩ : BufTy).Contents (Elt F) → (⟨S1000000x3, .i32⟩ : BufTy).Contents (Elt F) → (⟨S16x1000000, .f32⟩ : BufTy).Contents (Elt F)) G (r_main_v100 (F := F) X)

def r_main_v102 (X : (⟨S1000000x4, .f32⟩ : BufTy).Contents (Elt F)) : (⟨S1000000, .f32⟩ : BufTy).Contents (Elt F) :=
  (mulf : (⟨S1000000, .f32⟩ : BufTy).Contents (Elt F) → (⟨S1000000, .f32⟩ : BufTy).Contents (Elt F) → (⟨S1000000, .f32⟩ : BufTy).Contents (Elt F)) (r_main_v51 (F := F) X) (r_main_v53 (F := F) X)

def r_main_v103 (X : (⟨S1000000x4, .f32⟩ : BufTy).Contents (Elt F)) : (⟨S1000000, .f32⟩ : BufTy).Contents (Elt F) :=
  (mulf : (⟨S1000000, .f32⟩ : BufTy).Contents (Elt F) → (⟨S1000000, .f32⟩ : BufTy).Contents (Elt F) → (⟨S1000000, .f32⟩ : BufTy).Contents (Elt F)) (r_main_v102 (F := F) X) (r_main_v32 (F := F) X)

def r_main_v104 (X : (⟨S1000000x4, .f32⟩ : BufTy).Contents (Elt F)) : (⟨S1x1000000, .f32⟩ : BufTy).Contents (Elt F) :=
  (broadcastInDim S1x1000000 ![1] bcast_S1000000_S1x1000000_1 : (⟨S1000000, .f32⟩ : BufTy).Contents (Elt F) → (⟨S1x1000000, .f32⟩ : BufTy).Contents (Elt F)) (r_main_v103 (F := F) X)

def r_main_v105 (X : (⟨S1000000x4, .f32⟩ : BufTy).Contents (Elt F)) : (⟨S16x1000000, .f32⟩ : BufTy).Contents (Elt F) :=
  (broadcastInDim S16x1000000 ![0, 1] bcast_S1x1000000_S16x1000000_0_1 : (⟨S1x1000000, .f32⟩ : BufTy).Contents (Elt F) → (⟨S16x1000000, .f32⟩ : BufTy).Contents (Elt F)) (r_main_v104 (F := F) X)

def r_main_v106 (X : (⟨S1000000x4, .f32⟩ : BufTy).Contents (Elt F)) (G : (⟨S16x128x128x128, .f32⟩ : BufTy).Contents (Elt F)) : (⟨S16x1000000, .f32⟩ : BufTy).Contents (Elt F) :=
  (mulf : (⟨S16x1000000, .f32⟩ : BufTy).Contents (Elt F) → (⟨S16x1000000, .f32⟩ : BufTy).Contents (Elt F) → (⟨S16x1000000, .f32⟩ : BufTy).Contents (Elt F)) (r_main_v101 (F := F) X G) (r_main_v105 (F := F) X)

def r_main_v107 (X : (⟨S1000000x4, .f32⟩ : BufTy).Contents (Elt F)) (G : (⟨S16x128x128x128, .f32⟩ : BufTy).Contents (Elt F)) : (⟨S16x1000000, .f32⟩ : BufTy).Contents (Elt F) :=
  (addf : (⟨S16x1000000, .f32⟩ : BufTy).Contents (Elt F) → (⟨S16x1000000, .f32⟩ : BufTy).Contents (Elt F) → (⟨S16x1000000, .f32⟩ : BufTy).Contents (Elt F)) (r_main_v81 (F := F) X G) (r_main_v106 (F := F) X G)

def r_main_cst_41 : (⟨S_, .f32⟩ : BufTy).Contents (Elt F) :=
  constant S_ .f32 0x3F800000#32

def r_main_v108 : (⟨S1000000, .f32⟩ : BufTy).Contents (Elt F) :=
  (broadcastInDim S1000000 ![] bcast_S_S1000000 : (⟨S_, .f32⟩ : BufTy).Contents (Elt F) → (⟨S1000000, .f32⟩ : BufTy).Contents (Elt F)) (r_main_cst_41 (F := F))

def r_main_v109 (X : (⟨S1000000x4, .f32⟩ : BufTy).Contents (Elt F)) : (⟨S1000000, .f32⟩ : BufTy).Contents (Elt F) :=
  (subf : (⟨S1000000, .f32⟩ : BufTy).Contents (Elt F) → (⟨S1000000, .f32⟩ : BufTy).Contents (Elt F) → (⟨S1000000, .f32⟩ : BufTy).Contents (Elt F)) (r_main_v108 (F := F)) (r_main_v32 (F := F) X)

def r_main_c_42 : (⟨S_, .i32⟩ : BufTy).Contents (Elt F) :=
  constantI S_ 32 0#32

def r_main_v110 : (⟨S1000000, .i32⟩ : BufTy).Contents (Elt F) :=
  (broadcastInDim S1000000 ![] bcast_S_S1000000 : (⟨S_, .i32⟩ : BufTy).Contents (Elt F) → (⟨S1000000, .i32⟩ : BufTy).Contents (Elt F)) (r_main_c_42 (F := F))

def r_main_v111 (X : (⟨S1000000x4, .f32⟩ : BufTy).Contents (Elt F)) : (⟨S1000000, .i1⟩ : BufTy).Contents (Elt F) :=
  (cmpi .slt : (⟨S1000000, .i32⟩ : BufTy).Contents (Elt F) → (⟨S1000000, .i32⟩ : BufTy).Contents (Elt F) → (⟨S1000000, .i1⟩ : BufTy).Contents (Elt F)) (r_main_v43 (F := F) X) (r_main_v110 (F := F))

def r_main_c_43 : (⟨S_, .i32⟩ : BufTy).Contents (Elt F) :=
  constantI S_ 32 128#32

def r_main_v112 : (⟨S1000000, .i32⟩ : BufTy).Contents (Elt F) :=
  (broadcastInDim S1000000 ![] bcast_S_S1000000 : (⟨S_, .i32⟩ : BufTy).Contents (Elt F) → (⟨S1000000, .i32⟩ : BufTy).Contents (Elt F)) (r_main_c_43 (F := F))

def r_main_v113 (X : (⟨S1000000x4, .f32⟩ : BufTy).Contents (Elt F)) : (⟨S1000000, .i32⟩ : BufTy).Contents (Elt F) :=
  (addi : (⟨S1000000, .i32⟩ : BufTy).Contents (Elt F) → (⟨S1000000, .i32⟩ : BufTy).Contents (Elt F) → (⟨S1000000, .i32⟩ : BufTy).Contents (Elt F)) (r_main_v43 (F := F) X) (r_main_v112 (F := F))

def r_main_v114 (X : (⟨S1000000x4, .f32⟩ : BufTy).Contents (Elt F)) : (⟨S1000000, .i32⟩ : BufTy).Contents (Elt F) :=
  (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) (r_main_v111 (F := F) X) (r_main_v113 (F := F) X) (r_main_v43 (F := F) X)

def r_main_c_44 : (⟨S_, .i32⟩ : BufTy).Contents (Elt F) :=
  constantI S_ 32 0#32

def r_main_v115 : (⟨S1000000, .i32⟩ : BufTy).Contents (Elt F) :=
  (broadcastInDim S1000000 ![] bcast_S_S1000000 : (⟨S_, .i32⟩ : BufTy).Contents (Elt F) → (⟨S1000000, .i32⟩ : BufTy).Contents (Elt F)) (r_main_c_44 (F := F))

def r_main_v116 (X : (⟨S1000000x4, .f32⟩ : BufTy).Contents (Elt F)) : (⟨S1000000, .i1⟩ : BufTy).Contents (Elt F) :=
  (cmpi .slt : (⟨S1000000, .i32⟩ : BufTy).Contents (Elt F) → (⟨S1000000, .i32⟩ : BufTy).Contents (Elt F) → (⟨S1000000, .i1⟩ : BufTy).Contents (Elt F)) (r_main_v39 (F := F) X) (r_main_v115 (F := F))

def r_main_c_45 : (⟨S_, .i32⟩ : BufTy).Contents (Elt F) :=
  constantI S_ 32 128#32

def r_main_v117 : (⟨S1000000, .i32⟩ : BufTy).Contents (Elt F) :=
  (broadcastInDim S1000000 ![] bcast_S_S1000000 : (⟨S_, .i32⟩ : BufTy).Contents (Elt F) → (⟨S1000000, .i32⟩ : BufTy).Contents (Elt F)) (r_main_c_45 (F := F))

def r_main_v118 (X : (⟨S1000000x4, .f32⟩ : BufTy).Contents (Elt F)) : (⟨S1000000, .i32⟩ : BufTy).Contents (Elt F) :=
  (addi : (⟨S1000000, .i32⟩ : BufTy).Contents (Elt F) → (⟨S1000000, .i32⟩ : BufTy).Contents (Elt F) → (⟨S1000000, .i32⟩ : BufTy).Contents (Elt F)) (r_main_v39 (F := F) X) (r_main_v117 (F := F))

def r_main_v119 (X : (⟨S1000000x4, .f32⟩ : BufTy).Contents (Elt F)) : (⟨S1000000, .i32⟩ : BufTy).Contents (Elt F) :=
  (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) (r_main_v116 (F := F) X) (r_main_v118 (F := F) X) (r_main_v39 (F := F) X)

def r_main_c_46 : (⟨S_, .i32⟩ : BufTy).Contents (Elt F) :=
  constantI S_ 32 0#32

def r_main_v120 : (⟨S1000000, .i32⟩ : BufTy).Contents (Elt F) :=
  (broadcastInDim S1000000 ![] bcast_S_S1000000 : (⟨S_, .i32⟩ : BufTy).Contents (Elt F) → (⟨S1000000, .i32⟩ : BufTy).Contents (Elt F)) (r_main_c_46 (F := F))

def r_main_v121 (X : (⟨S1000000x4, .f32⟩ : BufTy).Contents (Elt F)) : (⟨S1000000, .i1⟩ : BufTy).Contents (Elt F) :=
  (cmpi .slt : (⟨S1000000, .i32⟩ : BufTy).Contents (Elt F) → (⟨S1000000, .i32⟩ : BufTy).Contents (Elt F) → (⟨S1000000, .i1⟩ : BufTy).Contents (Elt F)) (r_main_v27 (F := F) X) (r_main_v120 (F := F))

def r_main_c_47 : (⟨S_, .i32⟩ : BufTy).Contents (Elt F) :=
  constantI S_ 32 128#32

def r_main_v122 : (⟨S1000000, .i32⟩ : BufTy).Contents (Elt F) :=
  (broadcastInDim S1000000 ![] bcast_S_S1000000 : (⟨S_, .i32⟩ : BufTy).Contents (Elt F) → (⟨S1000000, .i32⟩ : BufTy).Contents (Elt F)) (r_main_c_47 (F := F))

def r_main_v123 (X : (⟨S1000000x4, .f32⟩ : BufTy).Contents (Elt F)) : (⟨S1000000, .i32⟩ : BufTy).Contents (Elt F) :=
  (addi : (⟨S1000000, .i32⟩ : BufTy).Contents (Elt F) → (⟨S1000000, .i32⟩ : BufTy).Contents (Elt F) → (⟨S1000000, .i32⟩ : BufTy).Contents (Elt F)) (r_main_v27 (F := F) X) (r_main_v122 (F := F))

def r_main_v124 (X : (⟨S1000000x4, .f32⟩ : BufTy).Contents (Elt F)) : (⟨S1000000, .i32⟩ : BufTy).Contents (Elt F) :=
  (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) (r_main_v121 (F := F) X) (r_main_v123 (F := F) X) (r_main_v27 (F := F) X)

def r_main_v125 (X : (⟨S1000000x4, .f32⟩ : BufTy).Contents (Elt F)) : (⟨S1000000x1, .i32⟩ : BufTy).Contents (Elt F) :=
  (broadcastInDim S1000000x1 ![0] bcast_S1000000_S1000000x1_0 : (⟨S1000000, .i32⟩ : BufTy).Contents (Elt F) → (⟨S1000000x1, .i32⟩ : BufTy).Contents (Elt F)) (r_main_v114 (F := F) X)

def r_main_v126 (X : (⟨S1000000x4, .f32⟩ : BufTy).Contents (Elt F)) : (⟨S1000000x1, .i32⟩ : BufTy).Contents (Elt F) :=
  (broadcastInDim S1000000x1 ![0] bcast_S1000000_S1000000x1_0 : (⟨S1000000, .i32⟩ : BufTy).Contents (Elt F) → (⟨S1000000x1, .i32⟩ : BufTy).Contents (Elt F)) (r_main_v119 (F := F) X)

def r_main_v127 (X : (⟨S1000000x4, .f32⟩ : BufTy).Contents (Elt F)) : (⟨S1000000x1, .i32⟩ : BufTy).Contents (Elt F) :=
  (broadcastInDim S1000000x1 ![0] bcast_S1000000_S1000000x1_0 : (⟨S1000000, .i32⟩ : BufTy).Contents (Elt F) → (⟨S1000000x1, .i32⟩ : BufTy).Contents (Elt F)) (r_main_v124 (F := F) X)

def r_main_v128 (X : (⟨S1000000x4, .f32⟩ : BufTy).Contents (Elt F)) : (⟨S1000000x3, .i32⟩ : BufTy).Contents (Elt F) :=
  cat3 (F := F) (r_main_v125 (F := F) X) (r_main_v126 (F := F) X) (r_main_v127 (F := F) X)

def r_main_v129 (X : (⟨S1000000x4, .f32⟩ : BufTy).Contents (Elt F)) (G : (⟨S16x128x128x128, .f32⟩ : BufTy).Contents (Elt F)) : (⟨S16x1000000, .f32⟩ : BufTy).Contents (Elt F) :=
  ((fun x i => Host.gather gather_S16x128x128x128_S1000000x3_S16x1000000_0_123_n_n_123_1_16111 x i) : (⟨S16x128x128x128, .f32⟩ : BufTy).Contents (Elt F) → (⟨S1000000x3, .i32⟩ : BufTy).Contents (Elt F) → (⟨S16x1000000, .f32⟩ : BufTy).Contents (Elt F)) G (r_main_v128 (F := F) X)

def r_main_v130 (X : (⟨S1000000x4, .f32⟩ : BufTy).Contents (Elt F)) : (⟨S1000000, .f32⟩ : BufTy).Contents (Elt F) :=
  (mulf : (⟨S1000000, .f32⟩ : BufTy).Contents (Elt F) → (⟨S1000000, .f32⟩ : BufTy).Contents (Elt F) → (⟨S1000000, .f32⟩ : BufTy).Contents (Elt F)) (r_main_v51 (F := F) X) (r_main_v40 (F := F) X)

def r_main_v131 (X : (⟨S1000000x4, .f32⟩ : BufTy).Contents (Elt F)) : (⟨S1000000, .f32⟩ : BufTy).Contents (Elt F) :=
  (mulf : (⟨S1000000, .f32⟩ : BufTy).Contents (Elt F) → (⟨S1000000, .f32⟩ : BufTy).Contents (Elt F) → (⟨S1000000, .f32⟩ : BufTy).Contents (Elt F)) (r_main_v130 (F := F) X) (r_main_v109 (F := F) X)

def r_main_v132 (X : (⟨S1000000x4, .f32⟩ : BufTy).Contents (Elt F)) : (⟨S1x1000000, .f32⟩ : BufTy).Contents (Elt F) :=
  (broadcastInDim S1x1000000 ![1] bcast_S1000000_S1x1000000_1 : (⟨S1000000, .f32⟩ : BufTy).Contents (Elt F) → (⟨S1x1000000, .f32⟩ : BufTy).Contents (Elt F)) (r_main_v131 (F := F) X)

def r_main_v133 (X : (⟨S1000000x4, .f32⟩ : BufTy).Contents (Elt F)) : (⟨S16x1000000, .f32⟩ : BufTy).Contents (Elt F) :=
  (broadcastInDim S16x1000000 ![0, 1] bcast_S1x1000000_S16x1000000_0_1 : (⟨S1x1000000, .f32⟩ : BufTy).Contents (Elt F) → (⟨S16x1000000, .f32⟩ : BufTy).Contents (Elt F)) (r_main_v132 (F := F) X)

def r_main_v134 (X : (⟨S1000000x4, .f32⟩ : BufTy).Contents (Elt F)) (G : (⟨S16x128x128x128, .f32⟩ : BufTy).Contents (Elt F)) : (⟨S16x1000000, .f32⟩ : BufTy).Contents (Elt F) :=
  (mulf : (⟨S16x1000000, .f32⟩ : BufTy).Contents (Elt F) → (⟨S16x1000000, .f32⟩ : BufTy).Contents (Elt F) → (⟨S16x1000000, .f32⟩ : BufTy).Contents (Elt F)) (r_main_v129 (F := F) X G) (r_main_v133 (F := F) X)

def r_main_v135 (X : (⟨S1000000x4, .f32⟩ : BufTy).Contents (Elt F)) (G : (⟨S16x128x128x128, .f32⟩ : BufTy).Contents (Elt F)) : (⟨S16x1000000, .f32⟩ : BufTy).Contents (Elt F) :=
  (addf : (⟨S16x1000000, .f32⟩ : BufTy).Contents (Elt F) → (⟨S16x1000000, .f32⟩ : BufTy).Contents (Elt F) → (⟨S16x1000000, .f32⟩ : BufTy).Contents (Elt F)) (r_main_v107 (F := F) X G) (r_main_v134 (F := F) X G)

def r_main_c_48 : (⟨S_, .i32⟩ : BufTy).Contents (Elt F) :=
  constantI S_ 32 0#32

def r_main_v136 : (⟨S1000000, .i32⟩ : BufTy).Contents (Elt F) :=
  (broadcastInDim S1000000 ![] bcast_S_S1000000 : (⟨S_, .i32⟩ : BufTy).Contents (Elt F) → (⟨S1000000, .i32⟩ : BufTy).Contents (Elt F)) (r_main_c_48 (F := F))

def r_main_v137 (X : (⟨S1000000x4, .f32⟩ : BufTy).Contents (Elt F)) : (⟨S1000000, .i1⟩ : BufTy).Contents (Elt F) :=
  (cmpi .slt : (⟨S1000000, .i32⟩ : BufTy).Contents (Elt F) → (⟨S1000000, .i32⟩ : BufTy).Contents (Elt F) → (⟨S1000000, .i1⟩ : BufTy).Contents (Elt F)) (r_main_v43 (F := F) X) (r_main_v136 (F := F))

def r_main_c_49 : (⟨S_, .i32⟩ : BufTy).Contents (Elt F) :=
  constantI S_ 32 128#32

def r_main_v138 : (⟨S1000000, .i32⟩ : BufTy).Contents (Elt F) :=
  (broadcastInDim S1000000 ![] bcast_S_S1000000 : (⟨S_, .i32⟩ : BufTy).Contents (Elt F) → (⟨S1000000, .i32⟩ : BufTy).Contents (Elt F)) (r_main_c_49 (F := F))

def r_main_v139 (X : (⟨S1000000x4, .f32⟩ : BufTy).Contents (Elt F)) : (⟨S1000000, .i32⟩ : BufTy).Contents (Elt F) :=
  (addi : (⟨S1000000, .i32⟩ : BufTy).Contents (Elt F) → (⟨S1000000, .i32⟩ : BufTy).Contents (Elt F) → (⟨S1000000, .i32⟩ : BufTy).Contents (Elt F)) (r_main_v43 (F := F) X) (r_main_v138 (F := F))

def r_main_v140 (X : (⟨S1000000x4, .f32⟩ : BufTy).Contents (Elt F)) : (⟨S1000000, .i32⟩ : BufTy).Contents (Elt F) :=
  (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) (r_main_v137 (F := F) X) (r_main_v139 (F := F) X) (r_main_v43 (F := F) X)

def r_main_c_50 : (⟨S_, .i32⟩ : BufTy).Contents (Elt F) :=
  constantI S_ 32 0#32

def r_main_v141 : (⟨S1000000, .i32⟩ : BufTy).Contents (Elt F) :=
  (broadcastInDim S1000000 ![] bcast_S_S1000000 : (⟨S_, .i32⟩ : BufTy).Contents (Elt F) → (⟨S1000000, .i32⟩ : BufTy).Contents (Elt F)) (r_main_c_50 (F := F))

def r_main_v142 (X : (⟨S1000000x4, .f32⟩ : BufTy).Contents (Elt F)) : (⟨S1000000, .i1⟩ : BufTy).Contents (Elt F) :=
  (cmpi .slt : (⟨S1000000, .i32⟩ : BufTy).Contents (Elt F) → (⟨S1000000, .i32⟩ : BufTy).Contents (Elt F) → (⟨S1000000, .i1⟩ : BufTy).Contents (Elt F)) (r_main_v39 (F := F) X) (r_main_v141 (F := F))

def r_main_c_51 : (⟨S_, .i32⟩ : BufTy).Contents (Elt F) :=
  constantI S_ 32 128#32

def r_main_v143 : (⟨S1000000, .i32⟩ : BufTy).Contents (Elt F) :=
  (broadcastInDim S1000000 ![] bcast_S_S1000000 : (⟨S_, .i32⟩ : BufTy).Contents (Elt F) → (⟨S1000000, .i32⟩ : BufTy).Contents (Elt F)) (r_main_c_51 (F := F))

def r_main_v144 (X : (⟨S1000000x4, .f32⟩ : BufTy).Contents (Elt F)) : (⟨S1000000, .i32⟩ : BufTy).Contents (Elt F) :=
  (addi : (⟨S1000000, .i32⟩ : BufTy).Contents (Elt F) → (⟨S1000000, .i32⟩ : BufTy).Contents (Elt F) → (⟨S1000000, .i32⟩ : BufTy).Contents (Elt F)) (r_main_v39 (F := F) X) (r_main_v143 (F := F))

def r_main_v145 (X : (⟨S1000000x4, .f32⟩ : BufTy).Contents (Elt F)) : (⟨S1000000, .i32⟩ : BufTy).Contents (Elt F) :=
  (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) (r_main_v142 (F := F) X) (r_main_v144 (F := F) X) (r_main_v39 (F := F) X)

def r_main_c_52 : (⟨S_, .i32⟩ : BufTy).Contents (Elt F) :=
  constantI S_ 32 0#32

def r_main_v146 : (⟨S1000000, .i32⟩ : BufTy).Contents (Elt F) :=
  (broadcastInDim S1000000 ![] bcast_S_S1000000 : (⟨S_, .i32⟩ : BufTy).Contents (Elt F) → (⟨S1000000, .i32⟩ : BufTy).Contents (Elt F)) (r_main_c_52 (F := F))

def r_main_v147 (X : (⟨S1000000x4, .f32⟩ : BufTy).Contents (Elt F)) : (⟨S1000000, .i1⟩ : BufTy).Contents (Elt F) :=
  (cmpi .slt : (⟨S1000000, .i32⟩ : BufTy).Contents (Elt F) → (⟨S1000000, .i32⟩ : BufTy).Contents (Elt F) → (⟨S1000000, .i1⟩ : BufTy).Contents (Elt F)) (r_main_v31 (F := F) X) (r_main_v146 (F := F))

def r_main_c_53 : (⟨S_, .i32⟩ : BufTy).Contents (Elt F) :=
  constantI S_ 32 128#32

def r_main_v148 : (⟨S1000000, .i32⟩ : BufTy).Contents (Elt F) :=
  (broadcastInDim S1000000 ![] bcast_S_S1000000 : (⟨S_, .i32⟩ : BufTy).Contents (Elt F) → (⟨S1000000, .i32⟩ : BufTy).Contents (Elt F)) (r_main_c_53 (F := F))

def r_main_v149 (X : (⟨S1000000x4, .f32⟩ : BufTy).Contents (Elt F)) : (⟨S1000000, .i32⟩ : BufTy).Contents (Elt F) :=
  (addi : (⟨S1000000, .i32⟩ : BufTy).Contents (Elt F) → (⟨S1000000, .i32⟩ : BufTy).Contents (Elt F) → (⟨S1000000, .i32⟩ : BufTy).Contents (Elt F)) (r_main_v31 (F := F) X) (r_main_v148 (F := F))

def r_main_v150 (X : (⟨S1000000x4, .f32⟩ : BufTy).Contents (Elt F)) : (⟨S1000000, .i32⟩ : BufTy).Contents (Elt F) :=
  (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) (r_main_v147 (F := F) X) (r_main_v149 (F := F) X) (r_main_v31 (F := F) X)

def r_main_v151 (X : (⟨S1000000x4, .f32⟩ : BufTy).Contents (Elt F)) : (⟨S1000000x1, .i32⟩ : BufTy).Contents (Elt F) :=
  (broadcastInDim S1000000x1 ![0] bcast_S1000000_S1000000x1_0 : (⟨S1000000, .i32⟩ : BufTy).Contents (Elt F) → (⟨S1000000x1, .i32⟩ : BufTy).Contents (Elt F)) (r_main_v140 (F := F) X)

def r_main_v152 (X : (⟨S1000000x4, .f32⟩ : BufTy).Contents (Elt F)) : (⟨S1000000x1, .i32⟩ : BufTy).Contents (Elt F) :=
  (broadcastInDim S1000000x1 ![0] bcast_S1000000_S1000000x1_0 : (⟨S1000000, .i32⟩ : BufTy).Contents (Elt F) → (⟨S1000000x1, .i32⟩ : BufTy).Contents (Elt F)) (r_main_v145 (F := F) X)

def r_main_v153 (X : (⟨S1000000x4, .f32⟩ : BufTy).Contents (Elt F)) : (⟨S1000000x1, .i32⟩ : BufTy).Contents (Elt F) :=
  (broadcastInDim S1000000x1 ![0] bcast_S1000000_S1000000x1_0 : (⟨S1000000, .i32⟩ : BufTy).Contents (Elt F) → (⟨S1000000x1, .i32⟩ : BufTy).Contents (Elt F)) (r_main_v150 (F := F) X)

def r_main_v154 (X : (⟨S1000000x4, .f32⟩ : BufTy).Contents (Elt F)) : (⟨S1000000x3, .i32⟩ : BufTy).Contents (Elt F) :=
  cat3 (F := F) (r_main_v151 (F := F) X) (r_main_v152 (F := F) X) (r_main_v153 (F := F) X)

def r_main_v155 (X : (⟨S1000000x4, .f32⟩ : BufTy).Contents (Elt F)) (G : (⟨S16x128x128x128, .f32⟩ : BufTy).Contents (Elt F)) : (⟨S16x1000000, .f32⟩ : BufTy).Contents (Elt F) :=
  ((fun x i => Host.gather gather_S16x128x128x128_S1000000x3_S16x1000000_0_123_n_n_123_1_16111 x i) : (⟨S16x128x128x128, .f32⟩ : BufTy).Contents (Elt F) → (⟨S1000000x3, .i32⟩ : BufTy).Contents (Elt F) → (⟨S16x1000000, .f32⟩ : BufTy).Contents (Elt F)) G (r_main_v154 (F := F) X)

def r_main_v156 (X : (⟨S1000000x4, .f32⟩ : BufTy).Contents (Elt F)) : (⟨S1000000, .f32⟩ : BufTy).Contents (Elt F) :=
  (mulf : (⟨S1000000, .f32⟩ : BufTy).Contents (Elt F) → (⟨S1000000, .f32⟩ : BufTy).Contents (Elt F) → (⟨S1000000, .f32⟩ : BufTy).Contents (Elt F)) (r_main_v51 (F := F) X) (r_main_v40 (F := F) X)

def r_main_v157 (X : (⟨S1000000x4, .f32⟩ : BufTy).Contents (Elt F)) : (⟨S1000000, .f32⟩ : BufTy).Contents (Elt F) :=
  (mulf : (⟨S1000000, .f32⟩ : BufTy).Contents (Elt F) → (⟨S1000000, .f32⟩ : BufTy).Contents (Elt F) → (⟨S1000000, .f32⟩ : BufTy).Contents (Elt F)) (r_main_v156 (F := F) X) (r_main_v32 (F := F) X)

def r_main_v158 (X : (⟨S1000000x4, .f32⟩ : BufTy).Contents (Elt F)) : (⟨S1x1000000, .f32⟩ : BufTy).Contents (Elt F) :=
  (broadcastInDim S1x1000000 ![1] bcast_S1000000_S1x1000000_1 : (⟨S1000000, .f32⟩ : BufTy).Contents (Elt F) → (⟨S1x1000000, .f32⟩ : BufTy).Contents (Elt F)) (r_main_v157 (F := F) X)

def r_main_v159 (X : (⟨S1000000x4, .f32⟩ : BufTy).Contents (Elt F)) : (⟨S16x1000000, .f32⟩ : BufTy).Contents (Elt F) :=
  (broadcastInDim S16x1000000 ![0, 1] bcast_S1x1000000_S16x1000000_0_1 : (⟨S1x1000000, .f32⟩ : BufTy).Contents (Elt F) → (⟨S16x1000000, .f32⟩ : BufTy).Contents (Elt F)) (r_main_v158 (F := F) X)

def r_main_v160 (X : (⟨S1000000x4, .f32⟩ : BufTy).Contents (Elt F)) (G : (⟨S16x128x128x128, .f32⟩ : BufTy).Contents (Elt F)) : (⟨S16x1000000, .f32⟩ : BufTy).Contents (Elt F) :=
  (mulf : (⟨S16x1000000, .f32⟩ : BufTy).Contents (Elt F) → (⟨S16x1000000, .f32⟩ : BufTy).Contents (Elt F) → (⟨S16x1000000, .f32⟩ : BufTy).Contents (Elt F)) (r_main_v155 (F := F) X G) (r_main_v159 (F := F) X)

def r_main_v161 (X : (⟨S1000000x4, .f32⟩ : BufTy).Contents (Elt F)) (G : (⟨S16x128x128x128, .f32⟩ : BufTy).Contents (Elt F)) : (⟨S16x1000000, .f32⟩ : BufTy).Contents (Elt F) :=
  (addf : (⟨S16x1000000, .f32⟩ : BufTy).Contents (Elt F) → (⟨S16x1000000, .f32⟩ : BufTy).Contents (Elt F) → (⟨S16x1000000, .f32⟩ : BufTy).Contents (Elt F)) (r_main_v135 (F := F) X G) (r_main_v160 (F := F) X G)

def r_main_cst_54 : (⟨S_, .f32⟩ : BufTy).Contents (Elt F) :=
  constant S_ .f32 0x3F800000#32

def r_main_v162 : (⟨S1000000, .f32⟩ : BufTy).Contents (Elt F) :=
  (broadcastInDim S1000000 ![] bcast_S_S1000000 : (⟨S_, .f32⟩ : BufTy).Contents (Elt F) → (⟨S1000000, .f32⟩ : BufTy).Contents (Elt F)) (r_main_cst_54 (F := F))

def r_main_v163 (X : (⟨S1000000x4, .f32⟩ : BufTy).Contents (Elt F)) : (⟨S1000000, .f32⟩ : BufTy).Contents (Elt F) :=
  (subf : (⟨S1000000, .f32⟩ : BufTy).Contents (Elt F) → (⟨S1000000, .f32⟩ : BufTy).Contents (Elt F) → (⟨S1000000, .f32⟩ : BufTy).Contents (Elt F)) (r_main_v162 (F := F)) (r_main_v40 (F := F) X)

def r_main_cst_55 : (⟨S_, .f32⟩ : BufTy).Contents (Elt F) :=
  constant S_ .f32 0x3F800000#32

def r_main_v164 : (⟨S1000000, .f32⟩ : BufTy).Contents (Elt F) :=
  (broadcastInDim S1000000 ![] bcast_S_S1000000 : (⟨S_, .f32⟩ : BufTy).Contents (Elt F) → (⟨S1000000, .f32⟩ : BufTy).Contents (Elt F)) (r_main_cst_55 (F := F))

def r_main_v165 (X : (⟨S1000000x4, .f32⟩ : BufTy).Contents (Elt F)) : (⟨S1000000, .f32⟩ : BufTy).Contents (Elt F) :=
  (subf : (⟨S1000000, .f32⟩ : BufTy).Contents (Elt F) → (⟨S1000000, .f32⟩ : BufTy).Contents (Elt F) → (⟨S1000000, .f32⟩ : BufTy).Contents (Elt F)) (r_main_v164 (F := F)) (r_main_v32 (F := F) X)

def r_main_c_56 : (⟨S_, .i32⟩ : BufTy).Contents (Elt F) :=
  constantI S_ 32 0#32

def r_main_v166 : (⟨S1000000, .i32⟩ : BufTy).Contents (Elt F) :=
  (broadcastInDim S1000000 ![] bcast_S_S1000000 : (⟨S_, .i32⟩ : BufTy).Contents (Elt F) → (⟨S1000000, .i32⟩ : BufTy).Contents (Elt F)) (r_main_c_56 (F := F))

def r_main_v167 (X : (⟨S1000000x4, .f32⟩ : BufTy).Contents (Elt F)) : (⟨S1000000, .i1⟩ : BufTy).Contents (Elt F) :=
  (cmpi .slt : (⟨S1000000, .i32⟩ : BufTy).Contents (Elt F) → (⟨S1000000, .i32⟩ : BufTy).Contents (Elt F) → (⟨S1000000, .i1⟩ : BufTy).Contents (Elt F)) (r_main_v47 (F := F) X) (r_main_v166 (F := F))

def r_main_c_57 : (⟨S_, .i32⟩ : BufTy).Contents (Elt F) :=
  constantI S_ 32 128#32

def r_main_v168 : (⟨S1000000, .i32⟩ : BufTy).Contents (Elt F) :=
  (broadcastInDim S1000000 ![] bcast_S_S1000000 : (⟨S_, .i32⟩ : BufTy).Contents (Elt F) → (⟨S1000000, .i32⟩ : BufTy).Contents (Elt F)) (r_main_c_57 (F := F))

def r_main_v169 (X : (⟨S1000000x4, .f32⟩ : BufTy).Contents (Elt F)) : (⟨S1000000, .i32⟩ : BufTy).Contents (Elt F) :=
  (addi : (⟨S1000000, .i32⟩ : BufTy).Contents (Elt F) → (⟨S1000000, .i32⟩ : BufTy).Contents (Elt F) → (⟨S1000000, .i32⟩ : BufTy).Contents (Elt F)) (r_main_v47 (F := F) X) (r_main_v168 (F := F))

def r_main_v170 (X : (⟨S1000000x4, .f32⟩ : BufTy).Contents (Elt F)) : (⟨S1000000, .i32⟩ : BufTy).Contents (Elt F) :=
  (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) (r_main_v167 (F := F) X) (r_main_v169 (F := F) X) (r_main_v47 (F := F) X)

def r_main_c_58 : (⟨S_, .i32⟩ : BufTy).Contents (Elt F) :=
  constantI S_ 32 0#32

def r_main_v171 : (⟨S1000000, .i32⟩ : BufTy).Contents (Elt F) :=
  (broadcastInDim S1000000 ![] bcast_S_S1000000 : (⟨S_, .i32⟩ : BufTy).Contents (Elt F) → (⟨S1000000, .i32⟩ : BufTy).Contents (Elt F)) (r_main_c_58 (F := F))

def r_main_v172 (X : (⟨S1000000x4, .f32⟩ : BufTy).Contents (Elt F)) : (⟨S1000000, .i1⟩ : BufTy).Contents (Elt F) :=
  (cmpi .slt : (⟨S1000000, .i32⟩ : BufTy).Contents (Elt F) → (⟨S1000000, .i32⟩ : BufTy).Contents (Elt F) → (⟨S1000000, .i1⟩ : BufTy).Contents (Elt F)) (r_main_v35 (F := F) X) (r_main_v171 (F := F))

def r_main_c_59 : (⟨S_, .i32⟩ : BufTy).Contents (Elt F) :=
  constantI S_ 32 128#32

def r_main_v173 : (⟨S1000000, .i32⟩ : BufTy).Contents (Elt F) :=
  (broadcastInDim S1000000 ![] bcast_S_S1000000 : (⟨S_, .i32⟩ : BufTy).Contents (Elt F) → (⟨S1000000, .i32⟩ : BufTy).Contents (Elt F)) (r_main_c_59 (F := F))

def r_main_v174 (X : (⟨S1000000x4, .f32⟩ : BufTy).Contents (Elt F)) : (⟨S1000000, .i32⟩ : BufTy).Contents (Elt F) :=
  (addi : (⟨S1000000, .i32⟩ : BufTy).Contents (Elt F) → (⟨S1000000, .i32⟩ : BufTy).Contents (Elt F) → (⟨S1000000, .i32⟩ : BufTy).Contents (Elt F)) (r_main_v35 (F := F) X) (r_main_v173 (F := F))

def r_main_v175 (X : (⟨S1000000x4, .f32⟩ : BufTy).Contents (Elt F)) : (⟨S1000000, .i32⟩ : BufTy).Contents (Elt F) :=
  (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) (r_main_v172 (F := F) X) (r_main_v174 (F := F) X) (r_main_v35 (F := F) X)

def r_main_c_60 : (⟨S_, .i32⟩ : BufTy).Contents (Elt F) :=
  constantI S_ 32 0#32

def r_main_v176 : (⟨S1000000, .i32⟩ : BufTy).Contents (Elt F) :=
  (broadcastInDim S1000000 ![] bcast_S_S1000000 : (⟨S_, .i32⟩ : BufTy).Contents (Elt F) → (⟨S1000000, .i32⟩ : BufTy).Contents (Elt F)) (r_main_c_60 (F := F))

def r_main_v177 (X : (⟨S1000000x4, .f32⟩ : BufTy).Contents (Elt F)) : (⟨S1000000, .i1⟩ : BufTy).Contents (Elt F) :=
  (cmpi .slt : (⟨S1000000, .i32⟩ : BufTy).Contents (Elt F) → (⟨S1000000, .i32⟩ : BufTy).Contents (Elt F) → (⟨S1000000, .i1⟩ : BufTy).Contents (Elt F)) (r_main_v27 (F := F) X) (r_main_v176 (F := F))

def r_main_c_61 : (⟨S_, .i32⟩ : BufTy).Contents (Elt F) :=
  constantI S_ 32 128#32

def r_main_v178 : (⟨S1000000, .i32⟩ : BufTy).Contents (Elt F) :=
  (broadcastInDim S1000000 ![] bcast_S_S1000000 : (⟨S_, .i32⟩ : BufTy).Contents (Elt F) → (⟨S1000000, .i32⟩ : BufTy).Contents (Elt F)) (r_main_c_61 (F := F))

def r_main_v179 (X : (⟨S1000000x4, .f32⟩ : BufTy).Contents (Elt F)) : (⟨S1000000, .i32⟩ : BufTy).Contents (Elt F) :=
  (addi : (⟨S1000000, .i32⟩ : BufTy).Contents (Elt F) → (⟨S1000000, .i32⟩ : BufTy).Contents (Elt F) → (⟨S1000000, .i32⟩ : BufTy).Contents (Elt F)) (r_main_v27 (F := F) X) (r_main_v178 (F := F))

def r_main_v180 (X : (⟨S1000000x4, .f32⟩ : BufTy).Contents (Elt F)) : (⟨S1000000, .i32⟩ : BufTy).Contents (Elt F) :=
  (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) (r_main_v177 (F := F) X) (r_main_v179 (F := F) X) (r_main_v27 (F := F) X)

def r_main_v181 (X : (⟨S1000000x4, .f32⟩ : BufTy).Contents (Elt F)) : (⟨S1000000x1, .i32⟩ : BufTy).Contents (Elt F) :=
  (broadcastInDim S1000000x1 ![0] bcast_S1000000_S1000000x1_0 : (⟨S1000000, .i32⟩ : BufTy).Contents (Elt F) → (⟨S1000000x1, .i32⟩ : BufTy).Contents (Elt F)) (r_main_v170 (F := F) X)

def r_main_v182 (X : (⟨S1000000x4, .f32⟩ : BufTy).Contents (Elt F)) : (⟨S1000000x1, .i32⟩ : BufTy).Contents (Elt F) :=
  (broadcastInDim S1000000x1 ![0] bcast_S1000000_S1000000x1_0 : (⟨S1000000, .i32⟩ : BufTy).Contents (Elt F) → (⟨S1000000x1, .i32⟩ : BufTy).Contents (Elt F)) (r_main_v175 (F := F) X)

def r_main_v183 (X : (⟨S1000000x4, .f32⟩ : BufTy).Contents (Elt F)) : (⟨S1000000x1, .i32⟩ : BufTy).Contents (Elt F) :=
  (broadcastInDim S1000000x1 ![0] bcast_S1000000_S1000000x1_0 : (⟨S1000000, .i32⟩ : BufTy).Contents (Elt F) → (⟨S1000000x1, .i32⟩ : BufTy).Contents (Elt F)) (r_main_v180 (F := F) X)

def r_main_v184 (X : (⟨S1000000x4, .f32⟩ : BufTy).Contents (Elt F)) : (⟨S1000000x3, .i32⟩ : BufTy).Contents (Elt F) :=
  cat3 (F := F) (r_main_v181 (F := F) X) (r_main_v182 (F := F) X) (r_main_v183 (F := F) X)

def r_main_v185 (X : (⟨S1000000x4, .f32⟩ : BufTy).Contents (Elt F)) (G : (⟨S16x128x128x128, .f32⟩ : BufTy).Contents (Elt F)) : (⟨S16x1000000, .f32⟩ : BufTy).Contents (Elt F) :=
  ((fun x i => Host.gather gather_S16x128x128x128_S1000000x3_S16x1000000_0_123_n_n_123_1_16111 x i) : (⟨S16x128x128x128, .f32⟩ : BufTy).Contents (Elt F) → (⟨S1000000x3, .i32⟩ : BufTy).Contents (Elt F) → (⟨S16x1000000, .f32⟩ : BufTy).Contents (Elt F)) G (r_main_v184 (F := F) X)

def r_main_v186 (X : (⟨S1000000x4, .f32⟩ : BufTy).Contents (Elt F)) : (⟨S1000000, .f32⟩ : BufTy).Contents (Elt F) :=
  (mulf : (⟨S1000000, .f32⟩ : BufTy).Contents (Elt F) → (⟨S1000000, .f32⟩ : BufTy).Contents (Elt F) → (⟨S1000000, .f32⟩ : BufTy).Contents (Elt F)) (r_main_v48 (F := F) X) (r_main_v163 (F := F) X)

def r_main_v187 (X : (⟨S1000000x4, .f32⟩ : BufTy).Contents (Elt F)) : (⟨S1000000, .f32⟩ : BufTy).Contents (Elt F) :=
  (mulf : (⟨S1000000, .f32⟩ : BufTy).Contents (Elt F) → (⟨S1000000, .f32⟩ : BufTy).Contents (Elt F) → (⟨S1000000, .f32⟩ : BufTy).Contents (Elt F)) (r_main_v186 (F := F) X) (r_main_v165 (F := F) X)

def r_main_v188 (X : (⟨S1000000x4, .f32⟩ : BufTy).Contents (Elt F)) : (⟨S1x1000000, .f32⟩ : BufTy).Contents (Elt F) :=
  (broadcastInDim S1x1000000 ![1] bcast_S1000000_S1x1000000_1 : (⟨S1000000, .f32⟩ : BufTy).Contents (Elt F) → (⟨S1x1000000, .f32⟩ : BufTy).Contents (Elt F)) (r_main_v187 (F := F) X)

def r_main_v189 (X : (⟨S1000000x4, .f32⟩ : BufTy).Contents (Elt F)) : (⟨S16x1000000, .f32⟩ : BufTy).Contents (Elt F) :=
  (broadcastInDim S16x1000000 ![0, 1] bcast_S1x1000000_S16x1000000_0_1 : (⟨S1x1000000, .f32⟩ : BufTy).Contents (Elt F) → (⟨S16x1000000, .f32⟩ : BufTy).Contents (Elt F)) (r_main_v188 (F := F) X)

def r_main_v190 (X : (⟨S1000000x4, .f32⟩ : BufTy).Contents (Elt F)) (G : (⟨S16x128x128x128, .f32⟩ : BufTy).Contents (Elt F)) : (⟨S16x1000000, .f32⟩ : BufTy).Contents (Elt F) :=
  (mulf : (⟨S16x1000000, .f32⟩ : BufTy).Contents (Elt F) → (⟨S16x1000000, .f32⟩ : BufTy).Contents (Elt F) → (⟨S16x1000000, .f32⟩ : BufTy).Contents (Elt F)) (r_main_v185 (F := F) X G) (r_main_v189 (F := F) X)

def r_main_v191 (X : (⟨S1000000x4, .f32⟩ : BufTy).Contents (Elt F)) (G : (⟨S16x128x128x128, .f32⟩ : BufTy).Contents (Elt F)) : (⟨S16x1000000, .f32⟩ : BufTy).Contents (Elt F) :=
  (addf : (⟨S16x1000000, .f32⟩ : BufTy).Contents (Elt F) → (⟨S16x1000000, .f32⟩ : BufTy).Contents (Elt F) → (⟨S16x1000000, .f32⟩ : BufTy).Contents (Elt F)) (r_main_v161 (F := F) X G) (r_main_v190 (F := F) X G)

def r_main_c_62 : (⟨S_, .i32⟩ : BufTy).Contents (Elt F) :=
  constantI S_ 32 0#32

def r_main_v192 : (⟨S1000000, .i32⟩ : BufTy).Contents (Elt F) :=
  (broadcastInDim S1000000 ![] bcast_S_S1000000 : (⟨S_, .i32⟩ : BufTy).Contents (Elt F) → (⟨S1000000, .i32⟩ : BufTy).Contents (Elt F)) (r_main_c_62 (F := F))

def r_main_v193 (X : (⟨S1000000x4, .f32⟩ : BufTy).Contents (Elt F)) : (⟨S1000000, .i1⟩ : BufTy).Contents (Elt F) :=
  (cmpi .slt : (⟨S1000000, .i32⟩ : BufTy).Contents (Elt F) → (⟨S1000000, .i32⟩ : BufTy).Contents (Elt F) → (⟨S1000000, .i1⟩ : BufTy).Contents (Elt F)) (r_main_v47 (F := F) X) (r_main_v192 (F := F))

def r_main_c_63 : (⟨S_, .i32⟩ : BufTy).Contents (Elt F) :=
  constantI S_ 32 128#32

def r_main_v194 : (⟨S1000000, .i32⟩ : BufTy).Contents (Elt F) :=
  (broadcastInDim S1000000 ![] bcast_S_S1000000 : (⟨S_, .i32⟩ : BufTy).Contents (Elt F) → (⟨S1000000, .i32⟩ : BufTy).Contents (Elt F)) (r_main_c_63 (F := F))

def r_main_v195 (X : (⟨S1000000x4, .f32⟩ : BufTy).Contents (Elt F)) : (⟨S1000000, .i32⟩ : BufTy).Contents (Elt F) :=
  (addi : (⟨S1000000, .i32⟩ : BufTy).Contents (Elt F) → (⟨S1000000, .i32⟩ : BufTy).Contents (Elt F) → (⟨S1000000, .i32⟩ : BufTy).Contents (Elt F)) (r_main_v47 (F := F) X) (r_main_v194 (F := F))

def r_main_v196 (X : (⟨S1000000x4, .f32⟩ : BufTy).Contents (Elt F)) : (⟨S1000000, .i32⟩ : BufTy).Contents (Elt F) :=
  (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) (r_main_v193 (F := F) X) (r_main_v195 (F := F) X) (r_main_v47 (F := F) X)

def r_main_c_64 : (⟨S_, .i32⟩ : BufTy).Contents (Elt F) :=
  constantI S_ 32 0#32

def r_main_v197 : (⟨S1000000, .i32⟩ : BufTy).Contents (Elt F) :=
  (broadcastInDim S1000000 ![] bcast_S_S1000000 : (⟨S_, .i32⟩ : BufTy).Contents (Elt F) → (⟨S1000000, .i32⟩ : BufTy).Contents (Elt F)) (r_main_c_64 (F := F))

def r_main_v198 (X : (⟨S1000000x4, .f32⟩ : BufTy).Contents (Elt F)) : (⟨S1000000, .i1⟩ : BufTy).Contents (Elt F) :=
  (cmpi .slt : (⟨S1000000, .i32⟩ : BufTy).Contents (Elt F) → (⟨S1000000, .i32⟩ : BufTy).Contents (Elt F) → (⟨S1000000, .i1⟩ : BufTy).Contents (Elt F)) (r_main_v35 (F := F) X) (r_main_v197 (F := F))

def r_main_c_65 : (⟨S_, .i32⟩ : BufTy).Contents (Elt F) :=
  constantI S_ 32 128#32

def r_main_v199 : (⟨S1000000, .i32⟩ : BufTy).Contents (Elt F) :=
  (broadcastInDim S1000000 ![] bcast_S_S1000000 : (⟨S_, .i32⟩ : BufTy).Contents (Elt F) → (⟨S1000000, .i32⟩ : BufTy).Contents (Elt F)) (r_main_c_65 (F := F))

def r_main_v200 (X : (⟨S1000000x4, .f32⟩ : BufTy).Contents (Elt F)) : (⟨S1000000, .i32⟩ : BufTy).Contents (Elt F) :=
  (addi : (⟨S1000000, .i32⟩ : BufTy).Contents (Elt F) → (⟨S1000000, .i32⟩ : BufTy).Contents (Elt F) → (⟨S1000000, .i32⟩ : BufTy).Contents (Elt F)) (r_main_v35 (F := F) X) (r_main_v199 (F := F))

def r_main_v201 (X : (⟨S1000000x4, .f32⟩ : BufTy).Contents (Elt F)) : (⟨S1000000, .i32⟩ : BufTy).Contents (Elt F) :=
  (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) (r_main_v198 (F := F) X) (r_main_v200 (F := F) X) (r_main_v35 (F := F) X)

def r_main_c_66 : (⟨S_, .i32⟩ : BufTy).Contents (Elt F) :=
  constantI S_ 32 0#32

def r_main_v202 : (⟨S1000000, .i32⟩ : BufTy).Contents (Elt F) :=
  (broadcastInDim S1000000 ![] bcast_S_S1000000 : (⟨S_, .i32⟩ : BufTy).Contents (Elt F) → (⟨S1000000, .i32⟩ : BufTy).Contents (Elt F)) (r_main_c_66 (F := F))

def r_main_v203 (X : (⟨S1000000x4, .f32⟩ : BufTy).Contents (Elt F)) : (⟨S1000000, .i1⟩ : BufTy).Contents (Elt F) :=
  (cmpi .slt : (⟨S1000000, .i32⟩ : BufTy).Contents (Elt F) → (⟨S1000000, .i32⟩ : BufTy).Contents (Elt F) → (⟨S1000000, .i1⟩ : BufTy).Contents (Elt F)) (r_main_v31 (F := F) X) (r_main_v202 (F := F))

def r_main_c_67 : (⟨S_, .i32⟩ : BufTy).Contents (Elt F) :=
  constantI S_ 32 128#32

def r_main_v204 : (⟨S1000000, .i32⟩ : BufTy).Contents (Elt F) :=
  (broadcastInDim S1000000 ![] bcast_S_S1000000 : (⟨S_, .i32⟩ : BufTy).Contents (Elt F) → (⟨S1000000, .i32⟩ : BufTy).Contents (Elt F)) (r_main_c_67 (F := F))

def r_main_v205 (X : (⟨S1000000x4, .f32⟩ : BufTy).Contents (Elt F)) : (⟨S1000000, .i32⟩ : BufTy).Contents (Elt F) :=
  (addi : (⟨S1000000, .i32⟩ : BufTy).Contents (Elt F) → (⟨S1000000, .i32⟩ : BufTy).Contents (Elt F) → (⟨S1000000, .i32⟩ : BufTy).Contents (Elt F)) (r_main_v31 (F := F) X) (r_main_v204 (F := F))

def r_main_v206 (X : (⟨S1000000x4, .f32⟩ : BufTy).Contents (Elt F)) : (⟨S1000000, .i32⟩ : BufTy).Contents (Elt F) :=
  (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) (r_main_v203 (F := F) X) (r_main_v205 (F := F) X) (r_main_v31 (F := F) X)

def r_main_v207 (X : (⟨S1000000x4, .f32⟩ : BufTy).Contents (Elt F)) : (⟨S1000000x1, .i32⟩ : BufTy).Contents (Elt F) :=
  (broadcastInDim S1000000x1 ![0] bcast_S1000000_S1000000x1_0 : (⟨S1000000, .i32⟩ : BufTy).Contents (Elt F) → (⟨S1000000x1, .i32⟩ : BufTy).Contents (Elt F)) (r_main_v196 (F := F) X)

def r_main_v208 (X : (⟨S1000000x4, .f32⟩ : BufTy).Contents (Elt F)) : (⟨S1000000x1, .i32⟩ : BufTy).Contents (Elt F) :=
  (broadcastInDim S1000000x1 ![0] bcast_S1000000_S1000000x1_0 : (⟨S1000000, .i32⟩ : BufTy).Contents (Elt F) → (⟨S1000000x1, .i32⟩ : BufTy).Contents (Elt F)) (r_main_v201 (F := F) X)

def r_main_v209 (X : (⟨S1000000x4, .f32⟩ : BufTy).Contents (Elt F)) : (⟨S1000000x1, .i32⟩ : BufTy).Contents (Elt F) :=
  (broadcastInDim S1000000x1 ![0] bcast_S1000000_S1000000x1_0 : (⟨S1000000, .i32⟩ : BufTy).Contents (Elt F) → (⟨S1000000x1, .i32⟩ : BufTy).Contents (Elt F)) (r_main_v206 (F := F) X)

def r_main_v210 (X : (⟨S1000000x4, .f32⟩ : BufTy).Contents (Elt F)) : (⟨S1000000x3, .i32⟩ : BufTy).Contents (Elt F) :=
  cat3 (F := F) (r_main_v207 (F := F) X) (r_main_v208 (F := F) X) (r_main_v209 (F := F) X)

def r_main_v211 (X : (⟨S1000000x4, .f32⟩ : BufTy).Contents (Elt F)) (G : (⟨S16x128x128x128, .f32⟩ : BufTy).Contents (Elt F)) : (⟨S16x1000000, .f32⟩ : BufTy).Contents (Elt F) :=
  ((fun x i => Host.gather gather_S16x128x128x128_S1000000x3_S16x1000000_0_123_n_n_123_1_16111 x i) : (⟨S16x128x128x128, .f32⟩ : BufTy).Contents (Elt F) → (⟨S1000000x3, .i32⟩ : BufTy).Contents (Elt F) → (⟨S16x1000000, .f32⟩ : BufTy).Contents (Elt F)) G (r_main_v210 (F := F) X)

def r_main_v212 (X : (⟨S1000000x4, .f32⟩ : BufTy).Contents (Elt F)) : (⟨S1000000, .f32⟩ : BufTy).Contents (Elt F) :=
  (mulf : (⟨S1000000, .f32⟩ : BufTy).Contents (Elt F) → (⟨S1000000, .f32⟩ : BufTy).Contents (Elt F) → (⟨S1000000, .f32⟩ : BufTy).Contents (Elt F)) (r_main_v48 (F := F) X) (r_main_v163 (F := F) X)

def r_main_v213 (X : (⟨S1000000x4, .f32⟩ : BufTy).Contents (Elt F)) : (⟨S1000000, .f32⟩ : BufTy).Contents (Elt F) :=
  (mulf : (⟨S1000000, .f32⟩ : BufTy).Contents (Elt F) → (⟨S1000000, .f32⟩ : BufTy).Contents (Elt F) → (⟨S1000000, .f32⟩ : BufTy).Contents (Elt F)) (r_main_v212 (F := F) X) (r_main_v32 (F := F) X)

def r_main_v214 (X : (⟨S1000000x4, .f32⟩ : BufTy).Contents (Elt F)) : (⟨S1x1000000, .f32⟩ : BufTy).Contents (Elt F) :=
  (broadcastInDim S1x1000000 ![1] bcast_S1000000_S1x1000000_1 : (⟨S1000000, .f32⟩ : BufTy).Contents (Elt F) → (⟨S1x1000000, .f32⟩ : BufTy).Contents (Elt F)) (r_main_v213 (F := F) X)

def r_main_v215 (X : (⟨S1000000x4, .f32⟩ : BufTy).Contents (Elt F)) : (⟨S16x1000000, .f32⟩ : BufTy).Contents (Elt F) :=
  (broadcastInDim S16x1000000 ![0, 1] bcast_S1x1000000_S16x1000000_0_1 : (⟨S1x1000000, .f32⟩ : BufTy).Contents (Elt F) → (⟨S16x1000000, .f32⟩ : BufTy).Contents (Elt F)) (r_main_v214 (F := F) X)

def r_main_v216 (X : (⟨S1000000x4, .f32⟩ : BufTy).Contents (Elt F)) (G : (⟨S16x128x128x128, .f32⟩ : BufTy).Contents (Elt F)) : (⟨S16x1000000, .f32⟩ : BufTy).Contents (Elt F) :=
  (mulf : (⟨S16x1000000, .f32⟩ : BufTy).Contents (Elt F) → (⟨S16x1000000, .f32⟩ : BufTy).Contents (Elt F) → (⟨S16x1000000, .f32⟩ : BufTy).Contents (Elt F)) (r_main_v211 (F := F) X G) (r_main_v215 (F := F) X)

def r_main_v217 (X : (⟨S1000000x4, .f32⟩ : BufTy).Contents (Elt F)) (G : (⟨S16x128x128x128, .f32⟩ : BufTy).Contents (Elt F)) : (⟨S16x1000000, .f32⟩ : BufTy).Contents (Elt F) :=
  (addf : (⟨S16x1000000, .f32⟩ : BufTy).Contents (Elt F) → (⟨S16x1000000, .f32⟩ : BufTy).Contents (Elt F) → (⟨S16x1000000, .f32⟩ : BufTy).Contents (Elt F)) (r_main_v191 (F := F) X G) (r_main_v216 (F := F) X G)

def r_main_cst_68 : (⟨S_, .f32⟩ : BufTy).Contents (Elt F) :=
  constant S_ .f32 0x3F800000#32

def r_main_v218 : (⟨S1000000, .f32⟩ : BufTy).Contents (Elt F) :=
  (broadcastInDim S1000000 ![] bcast_S_S1000000 : (⟨S_, .f32⟩ : BufTy).Contents (Elt F) → (⟨S1000000, .f32⟩ : BufTy).Contents (Elt F)) (r_main_cst_68 (F := F))

def r_main_v219 (X : (⟨S1000000x4, .f32⟩ : BufTy).Contents (Elt F)) : (⟨S1000000, .f32⟩ : BufTy).Contents (Elt F) :=
  (subf : (⟨S1000000, .f32⟩ : BufTy).Contents (Elt F) → (⟨S1000000, .f32⟩ : BufTy).Contents (Elt F) → (⟨S1000000, .f32⟩ : BufTy).Contents (Elt F)) (r_main_v218 (F := F)) (r_main_v32 (F := F) X)

def r_main_c_69 : (⟨S_, .i32⟩ : BufTy).Contents (Elt F) :=
  constantI S_ 32 0#32

def r_main_v220 : (⟨S1000000, .i32⟩ : BufTy).Contents (Elt F) :=
  (broadcastInDim S1000000 ![] bcast_S_S1000000 : (⟨S_, .i32⟩ : BufTy).Contents (Elt F) → (⟨S1000000, .i32⟩ : BufTy).Contents (Elt F)) (r_main_c_69 (F := F))

def r_main_v221 (X : (⟨S1000000x4, .f32⟩ : BufTy).Contents (Elt F)) : (⟨S1000000, .i1⟩ : BufTy).Contents (Elt F) :=
  (cmpi .slt : (⟨S1000000, .i32⟩ : BufTy).Contents (Elt F) → (⟨S1000000, .i32⟩ : BufTy).Contents (Elt F) → (⟨S1000000, .i1⟩ : BufTy).Contents (Elt F)) (r_main_v47 (F := F) X) (r_main_v220 (F := F))

def r_main_c_70 : (⟨S_, .i32⟩ : BufTy).Contents (Elt F) :=
  constantI S_ 32 128#32

def r_main_v222 : (⟨S1000000, .i32⟩ : BufTy).Contents (Elt F) :=
  (broadcastInDim S1000000 ![] bcast_S_S1000000 : (⟨S_, .i32⟩ : BufTy).Contents (Elt F) → (⟨S1000000, .i32⟩ : BufTy).Contents (Elt F)) (r_main_c_70 (F := F))

def r_main_v223 (X : (⟨S1000000x4, .f32⟩ : BufTy).Contents (Elt F)) : (⟨S1000000, .i32⟩ : BufTy).Contents (Elt F) :=
  (addi : (⟨S1000000, .i32⟩ : BufTy).Contents (Elt F) → (⟨S1000000, .i32⟩ : BufTy).Contents (Elt F) → (⟨S1000000, .i32⟩ : BufTy).Contents (Elt F)) (r_main_v47 (F := F) X) (r_main_v222 (F := F))

def r_main_v224 (X : (⟨S1000000x4, .f32⟩ : BufTy).Contents (Elt F)) : (⟨S1000000, .i32⟩ : BufTy).Contents (Elt F) :=
  (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) (r_main_v221 (F := F) X) (r_main_v223 (F := F) X) (r_main_v47 (F := F) X)

def r_main_c_71 : (⟨S_, .i32⟩ : BufTy).Contents (Elt F) :=
  constantI S_ 32 0#32

def r_main_v225 : (⟨S1000000, .i32⟩ : BufTy).Contents (Elt F) :=
  (broadcastInDim S1000000 ![] bcast_S_S1000000 : (⟨S_, .i32⟩ : BufTy).Contents (Elt F) → (⟨S1000000, .i32⟩ : BufTy).Contents (Elt F)) (r_main_c_71 (F := F))

def r_main_v226 (X : (⟨S1000000x4, .f32⟩ : BufTy).Contents (Elt F)) : (⟨S1000000, .i1⟩ : BufTy).Contents (Elt F) :=
  (cmpi .slt : (⟨S1000000, .i32⟩ : BufTy).Contents (Elt F) → (⟨S1000000, .i32⟩ : BufTy).Contents (Elt F) → (⟨S1000000, .i1⟩ : BufTy).Contents (Elt F)) (r_main_v39 (F := F) X) (r_main_v225 (F := F))

def r_main_c_72 : (⟨S_, .i32⟩ : BufTy).Contents (Elt F) :=
  constantI S_ 32 128#32

def r_main_v227 : (⟨S1000000, .i32⟩ : BufTy).Contents (Elt F) :=
  (broadcastInDim S1000000 ![] bcast_S_S1000000 : (⟨S_, .i32⟩ : BufTy).Contents (Elt F) → (⟨S1000000, .i32⟩ : BufTy).Contents (Elt F)) (r_main_c_72 (F := F))

def r_main_v228 (X : (⟨S1000000x4, .f32⟩ : BufTy).Contents (Elt F)) : (⟨S1000000, .i32⟩ : BufTy).Contents (Elt F) :=
  (addi : (⟨S1000000, .i32⟩ : BufTy).Contents (Elt F) → (⟨S1000000, .i32⟩ : BufTy).Contents (Elt F) → (⟨S1000000, .i32⟩ : BufTy).Contents (Elt F)) (r_main_v39 (F := F) X) (r_main_v227 (F := F))

def r_main_v229 (X : (⟨S1000000x4, .f32⟩ : BufTy).Contents (Elt F)) : (⟨S1000000, .i32⟩ : BufTy).Contents (Elt F) :=
  (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) (r_main_v226 (F := F) X) (r_main_v228 (F := F) X) (r_main_v39 (F := F) X)

def r_main_c_73 : (⟨S_, .i32⟩ : BufTy).Contents (Elt F) :=
  constantI S_ 32 0#32

def r_main_v230 : (⟨S1000000, .i32⟩ : BufTy).Contents (Elt F) :=
  (broadcastInDim S1000000 ![] bcast_S_S1000000 : (⟨S_, .i32⟩ : BufTy).Contents (Elt F) → (⟨S1000000, .i32⟩ : BufTy).Contents (Elt F)) (r_main_c_73 (F := F))

def r_main_v231 (X : (⟨S1000000x4, .f32⟩ : BufTy).Contents (Elt F)) : (⟨S1000000, .i1⟩ : BufTy).Contents (Elt F) :=
  (cmpi .slt : (⟨S1000000, .i32⟩ : BufTy).Contents (Elt F) → (⟨S1000000, .i32⟩ : BufTy).Contents (Elt F) → (⟨S1000000, .i1⟩ : BufTy).Contents (Elt F)) (r_main_v27 (F := F) X) (r_main_v230 (F := F))

def r_main_c_74 : (⟨S_, .i32⟩ : BufTy).Contents (Elt F) :=
  constantI S_ 32 128#32

def r_main_v232 : (⟨S1000000, .i32⟩ : BufTy).Contents (Elt F) :=
  (broadcastInDim S1000000 ![] bcast_S_S1000000 : (⟨S_, .i32⟩ : BufTy).Contents (Elt F) → (⟨S1000000, .i32⟩ : BufTy).Contents (Elt F)) (r_main_c_74 (F := F))

def r_main_v233 (X : (⟨S1000000x4, .f32⟩ : BufTy).Contents (Elt F)) : (⟨S1000000, .i32⟩ : BufTy).Contents (Elt F) :=
  (addi : (⟨S1000000, .i32⟩ : BufTy).Contents (Elt F) → (⟨S1000000, .i32⟩ : BufTy).Contents (Elt F) → (⟨S1000000, .i32⟩ : BufTy).Contents (Elt F)) (r_main_v27 (F := F) X) (r_main_v232 (F := F))

def r_main_v234 (X : (⟨S1000000x4, .f32⟩ : BufTy).Contents (Elt F)) : (⟨S1000000, .i32⟩ : BufTy).Contents (Elt F) :=
  (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) (r_main_v231 (F := F) X) (r_main_v233 (F := F) X) (r_main_v27 (F := F) X)

def r_main_v235 (X : (⟨S1000000x4, .f32⟩ : BufTy).Contents (Elt F)) : (⟨S1000000x1, .i32⟩ : BufTy).Contents (Elt F) :=
  (broadcastInDim S1000000x1 ![0] bcast_S1000000_S1000000x1_0 : (⟨S1000000, .i32⟩ : BufTy).Contents (Elt F) → (⟨S1000000x1, .i32⟩ : BufTy).Contents (Elt F)) (r_main_v224 (F := F) X)

def r_main_v236 (X : (⟨S1000000x4, .f32⟩ : BufTy).Contents (Elt F)) : (⟨S1000000x1, .i32⟩ : BufTy).Contents (Elt F) :=
  (broadcastInDim S1000000x1 ![0] bcast_S1000000_S1000000x1_0 : (⟨S1000000, .i32⟩ : BufTy).Contents (Elt F) → (⟨S1000000x1, .i32⟩ : BufTy).Contents (Elt F)) (r_main_v229 (F := F) X)

def r_main_v237 (X : (⟨S1000000x4, .f32⟩ : BufTy).Contents (Elt F)) : (⟨S1000000x1, .i32⟩ : BufTy).Contents (Elt F) :=
  (broadcastInDim S1000000x1 ![0] bcast_S1000000_S1000000x1_0 : (⟨S1000000, .i32⟩ : BufTy).Contents (Elt F) → (⟨S1000000x1, .i32⟩ : BufTy).Contents (Elt F)) (r_main_v234 (F := F) X)

def r_main_v238 (X : (⟨S1000000x4, .f32⟩ : BufTy).Contents (Elt F)) : (⟨S1000000x3, .i32⟩ : BufTy).Contents (Elt F) :=
  cat3 (F := F) (r_main_v235 (F := F) X) (r_main_v236 (F := F) X) (r_main_v237 (F := F) X)

def r_main_v239 (X : (⟨S1000000x4, .f32⟩ : BufTy).Contents (Elt F)) (G : (⟨S16x128x128x128, .f32⟩ : BufTy).Contents (Elt F)) : (⟨S16x1000000, .f32⟩ : BufTy).Contents (Elt F) :=
  ((fun x i => Host.gather gather_S16x128x128x128_S1000000x3_S16x1000000_0_123_n_n_123_1_16111 x i) : (⟨S16x128x128x128, .f32⟩ : BufTy).Contents (Elt F) → (⟨S1000000x3, .i32⟩ : BufTy).Contents (Elt F) → (⟨S16x1000000, .f32⟩ : BufTy).Contents (Elt F)) G (r_main_v238 (F := F) X)

def r_main_v240 (X : (⟨S1000000x4, .f32⟩ : BufTy).Contents (Elt F)) : (⟨S1000000, .f32⟩ : BufTy).Contents (Elt F) :=
  (mulf : (⟨S1000000, .f32⟩ : BufTy).Contents (Elt F) → (⟨S1000000, .f32⟩ : BufTy).Contents (Elt F) → (⟨S1000000, .f32⟩ : BufTy).Contents (Elt F)) (r_main_v48 (F := F) X) (r_main_v40 (F := F) X)

def r_main_v241 (X : (⟨S1000000x4, .f32⟩ : BufTy).Contents (Elt F)) : (⟨S1000000, .f32⟩ : BufTy).Contents (Elt F) :=
  (mulf : (⟨S1000000, .f32⟩ : BufTy).Contents (Elt F) → (⟨S1000000, .f32⟩ : BufTy).Contents (Elt F) → (⟨S1000000, .f32⟩ : BufTy).Contents (Elt F)) (r_main_v240 (F := F) X) (r_main_v219 (F := F) X)

def r_main_v242 (X : (⟨S1000000x4, .f32⟩ : BufTy).Contents (Elt F)) : (⟨S1x1000000, .f32⟩ : BufTy).Contents (Elt F) :=
  (broadcastInDim S1x1000000 ![1] bcast_S1000000_S1x1000000_1 : (⟨S1000000, .f32⟩ : BufTy).Contents (Elt F) → (⟨S1x1000000, .f32⟩ : BufTy).Contents (Elt F)) (r_main_v241 (F := F) X)

def r_main_v243 (X : (⟨S1000000x4, .f32⟩ : BufTy).Contents (Elt F)) : (⟨S16x1000000, .f32⟩ : BufTy).Contents (Elt F) :=
  (broadcastInDim S16x1000000 ![0, 1] bcast_S1x1000000_S16x1000000_0_1 : (⟨S1x1000000, .f32⟩ : BufTy).Contents (Elt F) → (⟨S16x1000000, .f32⟩ : BufTy).Contents (Elt F)) (r_main_v242 (F := F) X)

def r_main_v244 (X : (⟨S1000000x4, .f32⟩ : BufTy).Contents (Elt F)) (G : (⟨S16x128x128x128, .f32⟩ : BufTy).Contents (Elt F)) : (⟨S16x1000000, .f32⟩ : BufTy).Contents (Elt F) :=
  (mulf : (⟨S16x1000000, .f32⟩ : BufTy).Contents (Elt F) → (⟨S16x1000000, .f32⟩ : BufTy).Contents (Elt F) → (⟨S16x1000000, .f32⟩ : BufTy).Contents (Elt F)) (r_main_v239 (F := F) X G) (r_main_v243 (F := F) X)

def r_main_v245 (X : (⟨S1000000x4, .f32⟩ : BufTy).Contents (Elt F)) (G : (⟨S16x128x128x128, .f32⟩ : BufTy).Contents (Elt F)) : (⟨S16x1000000, .f32⟩ : BufTy).Contents (Elt F) :=
  (addf : (⟨S16x1000000, .f32⟩ : BufTy).Contents (Elt F) → (⟨S16x1000000, .f32⟩ : BufTy).Contents (Elt F) → (⟨S16x1000000, .f32⟩ : BufTy).Contents (Elt F)) (r_main_v217 (F := F) X G) (r_main_v244 (F := F) X G)

def r_main_c_75 : (⟨S_, .i32⟩ : BufTy).Contents (Elt F) :=
  constantI S_ 32 0#32

def r_main_v246 : (⟨S1000000, .i32⟩ : BufTy).Contents (Elt F) :=
  (broadcastInDim S1000000 ![] bcast_S_S1000000 : (⟨S_, .i32⟩ : BufTy).Contents (Elt F) → (⟨S1000000, .i32⟩ : BufTy).Contents (Elt F)) (r_main_c_75 (F := F))

def r_main_v247 (X : (⟨S1000000x4, .f32⟩ : BufTy).Contents (Elt F)) : (⟨S1000000, .i1⟩ : BufTy).Contents (Elt F) :=
  (cmpi .slt : (⟨S1000000, .i32⟩ : BufTy).Contents (Elt F) → (⟨S1000000, .i32⟩ : BufTy).Contents (Elt F) → (⟨S1000000, .i1⟩ : BufTy).Contents (Elt F)) (r_main_v47 (F := F) X) (r_main_v246 (F := F))

def r_main_c_76 : (⟨S_, .i32⟩ : BufTy).Contents (Elt F) :=
  constantI S_ 32 128#32

def r_main_v248 : (⟨S1000000, .i32⟩ : BufTy).Contents (Elt F) :=
  (broadcastInDim S1000000 ![] bcast_S_S1000000 : (⟨S_, .i32⟩ : BufTy).Contents (Elt F) → (⟨S1000000, .i32⟩ : BufTy).Contents (Elt F)) (r_main_c_76 (F := F))

def r_main_v249 (X : (⟨S1000000x4, .f32⟩ : BufTy).Contents (Elt F)) : (⟨S1000000, .i32⟩ : BufTy).Contents (Elt F) :=
  (addi : (⟨S1000000, .i32⟩ : BufTy).Contents (Elt F) → (⟨S1000000, .i32⟩ : BufTy).Contents (Elt F) → (⟨S1000000, .i32⟩ : BufTy).Contents (Elt F)) (r_main_v47 (F := F) X) (r_main_v248 (F := F))

def r_main_v250 (X : (⟨S1000000x4, .f32⟩ : BufTy).Contents (Elt F)) : (⟨S1000000, .i32⟩ : BufTy).Contents (Elt F) :=
  (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) (r_main_v247 (F := F) X) (r_main_v249 (F := F) X) (r_main_v47 (F := F) X)

def r_main_c_77 : (⟨S_, .i32⟩ : BufTy).Contents (Elt F) :=
  constantI S_ 32 0#32

def r_main_v251 : (⟨S1000000, .i32⟩ : BufTy).Contents (Elt F) :=
  (broadcastInDim S1000000 ![] bcast_S_S1000000 : (⟨S_, .i32⟩ : BufTy).Contents (Elt F) → (⟨S1000000, .i32⟩ : BufTy).Contents (Elt F)) (r_main_c_77 (F := F))

def r_main_v252 (X : (⟨S1000000x4, .f32⟩ : BufTy).Contents (Elt F)) : (⟨S1000000, .i1⟩ : BufTy).Contents (Elt F) :=
  (cmpi .slt : (⟨S1000000, .i32⟩ : BufTy).Contents (Elt F) → (⟨S1000000, .i32⟩ : BufTy).Contents (Elt F) → (⟨S1000000, .i1⟩ : BufTy).Contents (Elt F)) (r_main_v39 (F := F) X) (r_main_v251 (F := F))

def r_main_c_78 : (⟨S_, .i32⟩ : BufTy).Contents (Elt F) :=
  constantI S_ 32 128#32

def r_main_v253 : (⟨S1000000, .i32⟩ : BufTy).Contents (Elt F) :=
  (broadcastInDim S1000000 ![] bcast_S_S1000000 : (⟨S_, .i32⟩ : BufTy).Contents (Elt F) → (⟨S1000000, .i32⟩ : BufTy).Contents (Elt F)) (r_main_c_78 (F := F))

def r_main_v254 (X : (⟨S1000000x4, .f32⟩ : BufTy).Contents (Elt F)) : (⟨S1000000, .i32⟩ : BufTy).Contents (Elt F) :=
  (addi : (⟨S1000000, .i32⟩ : BufTy).Contents (Elt F) → (⟨S1000000, .i32⟩ : BufTy).Contents (Elt F) → (⟨S1000000, .i32⟩ : BufTy).Contents (Elt F)) (r_main_v39 (F := F) X) (r_main_v253 (F := F))

def r_main_v255 (X : (⟨S1000000x4, .f32⟩ : BufTy).Contents (Elt F)) : (⟨S1000000, .i32⟩ : BufTy).Contents (Elt F) :=
  (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) (r_main_v252 (F := F) X) (r_main_v254 (F := F) X) (r_main_v39 (F := F) X)

def r_main_c_79 : (⟨S_, .i32⟩ : BufTy).Contents (Elt F) :=
  constantI S_ 32 0#32

def r_main_v256 : (⟨S1000000, .i32⟩ : BufTy).Contents (Elt F) :=
  (broadcastInDim S1000000 ![] bcast_S_S1000000 : (⟨S_, .i32⟩ : BufTy).Contents (Elt F) → (⟨S1000000, .i32⟩ : BufTy).Contents (Elt F)) (r_main_c_79 (F := F))

def r_main_v257 (X : (⟨S1000000x4, .f32⟩ : BufTy).Contents (Elt F)) : (⟨S1000000, .i1⟩ : BufTy).Contents (Elt F) :=
  (cmpi .slt : (⟨S1000000, .i32⟩ : BufTy).Contents (Elt F) → (⟨S1000000, .i32⟩ : BufTy).Contents (Elt F) → (⟨S1000000, .i1⟩ : BufTy).Contents (Elt F)) (r_main_v31 (F := F) X) (r_main_v256 (F := F))

def r_main_c_80 : (⟨S_, .i32⟩ : BufTy).Contents (Elt F) :=
  constantI S_ 32 128#32

def r_main_v258 : (⟨S1000000, .i32⟩ : BufTy).Contents (Elt F) :=
  (broadcastInDim S1000000 ![] bcast_S_S1000000 : (⟨S_, .i32⟩ : BufTy).Contents (Elt F) → (⟨S1000000, .i32⟩ : BufTy).Contents (Elt F)) (r_main_c_80 (F := F))

def r_main_v259 (X : (⟨S1000000x4, .f32⟩ : BufTy).Contents (Elt F)) : (⟨S1000000, .i32⟩ : BufTy).Contents (Elt F) :=
  (addi : (⟨S1000000, .i32⟩ : BufTy).Contents (Elt F) → (⟨S1000000, .i32⟩ : BufTy).Contents (Elt F) → (⟨S1000000, .i32⟩ : BufTy).Contents (Elt F)) (r_main_v31 (F := F) X) (r_main_v258 (F := F))

def r_main_v260 (X : (⟨S1000000x4, .f32⟩ : BufTy).Contents (Elt F)) : (⟨S1000000, .i32⟩ : BufTy).Contents (Elt F) :=
  (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) (r_main_v257 (F := F) X) (r_main_v259 (F := F) X) (r_main_v31 (F := F) X)

def r_main_v261 (X : (⟨S1000000x4, .f32⟩ : BufTy).Contents (Elt F)) : (⟨S1000000x1, .i32⟩ : BufTy).Contents (Elt F) :=
  (broadcastInDim S1000000x1 ![0] bcast_S1000000_S1000000x1_0 : (⟨S1000000, .i32⟩ : BufTy).Contents (Elt F) → (⟨S1000000x1, .i32⟩ : BufTy).Contents (Elt F)) (r_main_v250 (F := F) X)

def r_main_v262 (X : (⟨S1000000x4, .f32⟩ : BufTy).Contents (Elt F)) : (⟨S1000000x1, .i32⟩ : BufTy).Contents (Elt F) :=
  (broadcastInDim S1000000x1 ![0] bcast_S1000000_S1000000x1_0 : (⟨S1000000, .i32⟩ : BufTy).Contents (Elt F) → (⟨S1000000x1, .i32⟩ : BufTy).Contents (Elt F)) (r_main_v255 (F := F) X)

def r_main_v263 (X : (⟨S1000000x4, .f32⟩ : BufTy).Contents (Elt F)) : (⟨S1000000x1, .i32⟩ : BufTy).Contents (Elt F) :=
  (broadcastInDim S1000000x1 ![0] bcast_S1000000_S1000000x1_0 : (⟨S1000000, .i32⟩ : BufTy).Contents (Elt F) → (⟨S1000000x1, .i32⟩ : BufTy).Contents (Elt F)) (r_main_v260 (F := F) X)

def r_main_v264 (X : (⟨S1000000x4, .f32⟩ : BufTy).Contents (Elt F)) : (⟨S1000000x3, .i32⟩ : BufTy).Contents (Elt F) :=
  cat3 (F := F) (r_main_v261 (F := F) X) (r_main_v262 (F := F) X) (r_main_v263 (F := F) X)

def r_main_v265 (X : (⟨S1000000x4, .f32⟩ : BufTy).Contents (Elt F)) (G : (⟨S16x128x128x128, .f32⟩ : BufTy).Contents (Elt F)) : (⟨S16x1000000, .f32⟩ : BufTy).Contents (Elt F) :=
  ((fun x i => Host.gather gather_S16x128x128x128_S1000000x3_S16x1000000_0_123_n_n_123_1_16111 x i) : (⟨S16x128x128x128, .f32⟩ : BufTy).Contents (Elt F) → (⟨S1000000x3, .i32⟩ : BufTy).Contents (Elt F) → (⟨S16x1000000, .f32⟩ : BufTy).Contents (Elt F)) G (r_main_v264 (F := F) X)

def r_main_v266 (X : (⟨S1000000x4, .f32⟩ : BufTy).Contents (Elt F)) : (⟨S1000000, .f32⟩ : BufTy).Contents (Elt F) :=
  (mulf : (⟨S1000000, .f32⟩ : BufTy).Contents (Elt F) → (⟨S1000000, .f32⟩ : BufTy).Contents (Elt F) → (⟨S1000000, .f32⟩ : BufTy).Contents (Elt F)) (r_main_v48 (F := F) X) (r_main_v40 (F := F) X)

def r_main_v267 (X : (⟨S1000000x4, .f32⟩ : BufTy).Contents (Elt F)) : (⟨S1000000, .f32⟩ : BufTy).Contents (Elt F) :=
  (mulf : (⟨S1000000, .f32⟩ : BufTy).Contents (Elt F) → (⟨S1000000, .f32⟩ : BufTy).Contents (Elt F) → (⟨S1000000, .f32⟩ : BufTy).Contents (Elt F)) (r_main_v266 (F := F) X) (r_main_v32 (F := F) X)

def r_main_v268 (X : (⟨S1000000x4, .f32⟩ : BufTy).Contents (Elt F)) : (⟨S1x1000000, .f32⟩ : BufTy).Contents (Elt F) :=
  (broadcastInDim S1x1000000 ![1] bcast_S1000000_S1x1000000_1 : (⟨S1000000, .f32⟩ : BufTy).Contents (Elt F) → (⟨S1x1000000, .f32⟩ : BufTy).Contents (Elt F)) (r_main_v267 (F := F) X)

def r_main_v269 (X : (⟨S1000000x4, .f32⟩ : BufTy).Contents (Elt F)) : (⟨S16x1000000, .f32⟩ : BufTy).Contents (Elt F) :=
  (broadcastInDim S16x1000000 ![0, 1] bcast_S1x1000000_S16x1000000_0_1 : (⟨S1x1000000, .f32⟩ : BufTy).Contents (Elt F) → (⟨S16x1000000, .f32⟩ : BufTy).Contents (Elt F)) (r_main_v268 (F := F) X)

def r_main_v270 (X : (⟨S1000000x4, .f32⟩ : BufTy).Contents (Elt F)) (G : (⟨S16x128x128x128, .f32⟩ : BufTy).Contents (Elt F)) : (⟨S16x1000000, .f32⟩ : BufTy).Contents (Elt F) :=
  (mulf : (⟨S16x1000000, .f32⟩ : BufTy).Contents (Elt F) → (⟨S16x1000000, .f32⟩ : BufTy).Contents (Elt F) → (⟨S16x1000000, .f32⟩ : BufTy).Contents (Elt F)) (r_main_v265 (F := F) X G) (r_main_v269 (F := F) X)

def r_main_v271 (X : (⟨S1000000x4, .f32⟩ : BufTy).Contents (Elt F)) (G : (⟨S16x128x128x128, .f32⟩ : BufTy).Contents (Elt F)) : (⟨S16x1000000, .f32⟩ : BufTy).Contents (Elt F) :=
  (addf : (⟨S16x1000000, .f32⟩ : BufTy).Contents (Elt F) → (⟨S16x1000000, .f32⟩ : BufTy).Contents (Elt F) → (⟨S16x1000000, .f32⟩ : BufTy).Contents (Elt F)) (r_main_v245 (F := F) X G) (r_main_v270 (F := F) X G)

def r_main_c_81 : (⟨S_, .i32⟩ : BufTy).Contents (Elt F) :=
  constantI S_ 32 0#32

def r_main_v272 : (⟨S2, .i32⟩ : BufTy).Contents (Elt F) :=
  (broadcastInDim S2 ![] bcast_S_S2 : (⟨S_, .i32⟩ : BufTy).Contents (Elt F) → (⟨S2, .i32⟩ : BufTy).Contents (Elt F)) (r_main_c_81 (F := F))

def r_main_v273 : (⟨S2, .i1⟩ : BufTy).Contents (Elt F) :=
  (cmpi .slt : (⟨S2, .i32⟩ : BufTy).Contents (Elt F) → (⟨S2, .i32⟩ : BufTy).Contents (Elt F) → (⟨S2, .i1⟩ : BufTy).Contents (Elt F)) (r_main_c (F := F)) (r_main_v272 (F := F))

def r_main_c_82 : (⟨S_, .i32⟩ : BufTy).Contents (Elt F) :=
  constantI S_ 32 4#32

def r_main_v274 : (⟨S2, .i32⟩ : BufTy).Contents (Elt F) :=
  (broadcastInDim S2 ![] bcast_S_S2 : (⟨S_, .i32⟩ : BufTy).Contents (Elt F) → (⟨S2, .i32⟩ : BufTy).Contents (Elt F)) (r_main_c_82 (F := F))

def r_main_v275 : (⟨S2, .i32⟩ : BufTy).Contents (Elt F) :=
  (addi : (⟨S2, .i32⟩ : BufTy).Contents (Elt F) → (⟨S2, .i32⟩ : BufTy).Contents (Elt F) → (⟨S2, .i32⟩ : BufTy).Contents (Elt F)) (r_main_c (F := F)) (r_main_v274 (F := F))

def r_main_v276 : (⟨S2, .i32⟩ : BufTy).Contents (Elt F) :=
  (select : (⟨S2, .i1⟩ : BufTy).Contents (Elt F) → (⟨S2, .i32⟩ : BufTy).Contents (Elt F) → (⟨S2, .i32⟩ : BufTy).Contents (Elt F) → (⟨S2, .i32⟩ : BufTy).Contents (Elt F)) (r_main_v273 (F := F)) (r_main_v275 (F := F)) (r_main_c (F := F))

def r_main_v277 : (⟨S2x1, .i32⟩ : BufTy).Contents (Elt F) :=
  (broadcastInDim S2x1 ![0] bcast_S2_S2x1_0 : (⟨S2, .i32⟩ : BufTy).Contents (Elt F) → (⟨S2x1, .i32⟩ : BufTy).Contents (Elt F)) (r_main_v276 (F := F))

def r_main_v278 (X : (⟨S1000000x4, .f32⟩ : BufTy).Contents (Elt F)) : (⟨S1000000x2, .f32⟩ : BufTy).Contents (Elt F) :=
  ((fun x i => Host.gather gather_S1000000x4_S2x1_S1000000x2_0_1_n_n_1_1_10000001 x i) : (⟨S1000000x4, .f32⟩ : BufTy).Contents (Elt F) → (⟨S2x1, .i32⟩ : BufTy).Contents (Elt F) → (⟨S1000000x2, .f32⟩ : BufTy).Contents (Elt F)) X (r_main_v277 (F := F))

def r_main_v279 (X : (⟨S1000000x4, .f32⟩ : BufTy).Contents (Elt F)) : (⟨S1000000x1, .f32⟩ : BufTy).Contents (Elt F) :=
  ((extractStridedSlice S1000000x1 ![0, 0] · slices_S1000000x2_S1000000x1_0_0) : (⟨S1000000x2, .f32⟩ : BufTy).Contents (Elt F) → (⟨S1000000x1, .f32⟩ : BufTy).Contents (Elt F)) (r_main_v278 (F := F) X)

def r_main_v280 (X : (⟨S1000000x4, .f32⟩ : BufTy).Contents (Elt F)) : (⟨S1000000, .f32⟩ : BufTy).Contents (Elt F) :=
  shapeCast _ (r_main_v279 (F := F) X) shapeCasts_S1000000x1_S1000000

def r_main_cst_83 : (⟨S_, .f32⟩ : BufTy).Contents (Elt F) :=
  constant S_ .f32 0x3F800000#32

def r_main_v281 : (⟨S1000000, .f32⟩ : BufTy).Contents (Elt F) :=
  (broadcastInDim S1000000 ![] bcast_S_S1000000 : (⟨S_, .f32⟩ : BufTy).Contents (Elt F) → (⟨S1000000, .f32⟩ : BufTy).Contents (Elt F)) (r_main_cst_83 (F := F))

def r_main_v282 (X : (⟨S1000000x4, .f32⟩ : BufTy).Contents (Elt F)) : (⟨S1000000, .f32⟩ : BufTy).Contents (Elt F) :=
  (addf : (⟨S1000000, .f32⟩ : BufTy).Contents (Elt F) → (⟨S1000000, .f32⟩ : BufTy).Contents (Elt F) → (⟨S1000000, .f32⟩ : BufTy).Contents (Elt F)) (r_main_v280 (F := F) X) (r_main_v281 (F := F))

def r_main_cst_84 : (⟨S_, .f32⟩ : BufTy).Contents (Elt F) :=
  constant S_ .f32 0x3F000000#32

def r_main_v283 : (⟨S1000000, .f32⟩ : BufTy).Contents (Elt F) :=
  (broadcastInDim S1000000 ![] bcast_S_S1000000 : (⟨S_, .f32⟩ : BufTy).Contents (Elt F) → (⟨S1000000, .f32⟩ : BufTy).Contents (Elt F)) (r_main_cst_84 (F := F))

def r_main_v284 (X : (⟨S1000000x4, .f32⟩ : BufTy).Contents (Elt F)) : (⟨S1000000, .f32⟩ : BufTy).Contents (Elt F) :=
  (mulf : (⟨S1000000, .f32⟩ : BufTy).Contents (Elt F) → (⟨S1000000, .f32⟩ : BufTy).Contents (Elt F) → (⟨S1000000, .f32⟩ : BufTy).Contents (Elt F)) (r_main_v282 (F := F) X) (r_main_v283 (F := F))

def r_main_cst_85 : (⟨S_, .f32⟩ : BufTy).Contents (Elt F) :=
  constant S_ .f32 0x437F0000#32

def r_main_v285 : (⟨S1000000, .f32⟩ : BufTy).Contents (Elt F) :=
  (broadcastInDim S1000000 ![] bcast_S_S1000000 : (⟨S_, .f32⟩ : BufTy).Contents (Elt F) → (⟨S1000000, .f32⟩ : BufTy).Contents (Elt F)) (r_main_cst_85 (F := F))

def r_main_v286 (X : (⟨S1000000x4, .f32⟩ : BufTy).Contents (Elt F)) : (⟨S1000000, .f32⟩ : BufTy).Contents (Elt F) :=
  (mulf : (⟨S1000000, .f32⟩ : BufTy).Contents (Elt F) → (⟨S1000000, .f32⟩ : BufTy).Contents (Elt F) → (⟨S1000000, .f32⟩ : BufTy).Contents (Elt F)) (r_main_v284 (F := F) X) (r_main_v285 (F := F))

def r_main_v287 (X : (⟨S1000000x4, .f32⟩ : BufTy).Contents (Elt F)) : (⟨S1000000x1, .f32⟩ : BufTy).Contents (Elt F) :=
  ((extractStridedSlice S1000000x1 ![0, 1] · slices_S1000000x2_S1000000x1_0_1) : (⟨S1000000x2, .f32⟩ : BufTy).Contents (Elt F) → (⟨S1000000x1, .f32⟩ : BufTy).Contents (Elt F)) (r_main_v278 (F := F) X)

def r_main_v288 (X : (⟨S1000000x4, .f32⟩ : BufTy).Contents (Elt F)) : (⟨S1000000, .f32⟩ : BufTy).Contents (Elt F) :=
  shapeCast _ (r_main_v287 (F := F) X) shapeCasts_S1000000x1_S1000000

def r_main_cst_86 : (⟨S_, .f32⟩ : BufTy).Contents (Elt F) :=
  constant S_ .f32 0x3F800000#32

def r_main_v289 : (⟨S1000000, .f32⟩ : BufTy).Contents (Elt F) :=
  (broadcastInDim S1000000 ![] bcast_S_S1000000 : (⟨S_, .f32⟩ : BufTy).Contents (Elt F) → (⟨S1000000, .f32⟩ : BufTy).Contents (Elt F)) (r_main_cst_86 (F := F))

def r_main_v290 (X : (⟨S1000000x4, .f32⟩ : BufTy).Contents (Elt F)) : (⟨S1000000, .f32⟩ : BufTy).Contents (Elt F) :=
  (addf : (⟨S1000000, .f32⟩ : BufTy).Contents (Elt F) → (⟨S1000000, .f32⟩ : BufTy).Contents (Elt F) → (⟨S1000000, .f32⟩ : BufTy).Contents (Elt F)) (r_main_v288 (F := F) X) (r_main_v289 (F := F))

def r_main_cst_87 : (⟨S_, .f32⟩ : BufTy).Contents (Elt F) :=
  constant S_ .f32 0x3F000000#32

def r_main_v291 : (⟨S1000000, .f32⟩ : BufTy).Contents (Elt F) :=
  (broadcastInDim S1000000 ![] bcast_S_S1000000 : (⟨S_, .f32⟩ : BufTy).Contents (Elt F) → (⟨S1000000, .f32⟩ : BufTy).Contents (Elt F)) (r_main_cst_87 (F := F))

def r_main_v292 (X : (⟨S1000000x4, .f32⟩ : BufTy).Contents (Elt F)) : (⟨S1000000, .f32⟩ : BufTy).Contents (Elt F) :=
  (mulf : (⟨S1000000, .f32⟩ : BufTy).Contents (Elt F) → (⟨S1000000, .f32⟩ : BufTy).Contents (Elt F) → (⟨S1000000, .f32⟩ : BufTy).Contents (Elt F)) (r_main_v290 (F := F) X) (r_main_v291 (F := F))

def r_main_cst_88 : (⟨S_, .f32⟩ : BufTy).Contents (Elt F) :=
  constant S_ .f32 0x437F0000#32

def r_main_v293 : (⟨S1000000, .f32⟩ : BufTy).Contents (Elt F) :=
  (broadcastInDim S1000000 ![] bcast_S_S1000000 : (⟨S_, .f32⟩ : BufTy).Contents (Elt F) → (⟨S1000000, .f32⟩ : BufTy).Contents (Elt F)) (r_main_cst_88 (F := F))

def r_main_v294 (X : (⟨S1000000x4, .f32⟩ : BufTy).Contents (Elt F)) : (⟨S1000000, .f32⟩ : BufTy).Contents (Elt F) :=
  (mulf : (⟨S1000000, .f32⟩ : BufTy).Contents (Elt F) → (⟨S1000000, .f32⟩ : BufTy).Contents (Elt F) → (⟨S1000000, .f32⟩ : BufTy).Contents (Elt F)) (r_main_v292 (F := F) X) (r_main_v293 (F := F))

def r_main_v295 (X : (⟨S1000000x4, .f32⟩ : BufTy).Contents (Elt F)) : (⟨S1000000, .f32⟩ : BufTy).Contents (Elt F) :=
  (Host.floor : (⟨S1000000, .f32⟩ : BufTy).Contents (Elt F) → (⟨S1000000, .f32⟩ : BufTy).Contents (Elt F)) (r_main_v286 (F := F) X)

def r_main_c_89 : (⟨S_, .i32⟩ : BufTy).Contents (Elt F) :=
  constantI S_ 32 0#32

def r_main_c_90 : (⟨S_, .i32⟩ : BufTy).Contents (Elt F) :=
  constantI S_ 32 255#32

def r_main_call6_v0 : (⟨S_, .f32⟩ : BufTy).Contents (Elt F) :=
  (sitofp .f32 : (⟨S_, .i32⟩ : BufTy).Contents (Elt F) → (⟨S_, .f32⟩ : BufTy).Contents (Elt F)) (r_main_c_89 (F := F))

def r_main_call6_v1 : (⟨S1000000, .f32⟩ : BufTy).Contents (Elt F) :=
  (broadcastInDim S1000000 ![] bcast_S_S1000000 : (⟨S_, .f32⟩ : BufTy).Contents (Elt F) → (⟨S1000000, .f32⟩ : BufTy).Contents (Elt F)) (r_main_call6_v0 (F := F))

def r_main_call6_v2 (X : (⟨S1000000x4, .f32⟩ : BufTy).Contents (Elt F)) : (⟨S1000000, .f32⟩ : BufTy).Contents (Elt F) :=
  (maximumf : (⟨S1000000, .f32⟩ : BufTy).Contents (Elt F) → (⟨S1000000, .f32⟩ : BufTy).Contents (Elt F) → (⟨S1000000, .f32⟩ : BufTy).Contents (Elt F)) (r_main_call6_v1 (F := F)) (r_main_v295 (F := F) X)

def r_main_call6_v3 : (⟨S_, .f32⟩ : BufTy).Contents (Elt F) :=
  (sitofp .f32 : (⟨S_, .i32⟩ : BufTy).Contents (Elt F) → (⟨S_, .f32⟩ : BufTy).Contents (Elt F)) (r_main_c_90 (F := F))

def r_main_call6_v4 : (⟨S1000000, .f32⟩ : BufTy).Contents (Elt F) :=
  (broadcastInDim S1000000 ![] bcast_S_S1000000 : (⟨S_, .f32⟩ : BufTy).Contents (Elt F) → (⟨S1000000, .f32⟩ : BufTy).Contents (Elt F)) (r_main_call6_v3 (F := F))

def r_main_v296 (X : (⟨S1000000x4, .f32⟩ : BufTy).Contents (Elt F)) : (⟨S1000000, .f32⟩ : BufTy).Contents (Elt F) :=
  (minimumf : (⟨S1000000, .f32⟩ : BufTy).Contents (Elt F) → (⟨S1000000, .f32⟩ : BufTy).Contents (Elt F) → (⟨S1000000, .f32⟩ : BufTy).Contents (Elt F)) (r_main_call6_v4 (F := F)) (r_main_call6_v2 (F := F) X)

def r_main_v297 (X : (⟨S1000000x4, .f32⟩ : BufTy).Contents (Elt F)) : (⟨S1000000, .i32⟩ : BufTy).Contents (Elt F) :=
  (fptosi 32 : (⟨S1000000, .f32⟩ : BufTy).Contents (Elt F) → (⟨S1000000, .i32⟩ : BufTy).Contents (Elt F)) (r_main_v296 (F := F) X)

def r_main_cst_91 : (⟨S_, .f32⟩ : BufTy).Contents (Elt F) :=
  constant S_ .f32 0x3F800000#32

def r_main_v298 : (⟨S1000000, .f32⟩ : BufTy).Contents (Elt F) :=
  (broadcastInDim S1000000 ![] bcast_S_S1000000 : (⟨S_, .f32⟩ : BufTy).Contents (Elt F) → (⟨S1000000, .f32⟩ : BufTy).Contents (Elt F)) (r_main_cst_91 (F := F))

def r_main_v299 (X : (⟨S1000000x4, .f32⟩ : BufTy).Contents (Elt F)) : (⟨S1000000, .f32⟩ : BufTy).Contents (Elt F) :=
  (addf : (⟨S1000000, .f32⟩ : BufTy).Contents (Elt F) → (⟨S1000000, .f32⟩ : BufTy).Contents (Elt F) → (⟨S1000000, .f32⟩ : BufTy).Contents (Elt F)) (r_main_v295 (F := F) X) (r_main_v298 (F := F))

def r_main_c_92 : (⟨S_, .i32⟩ : BufTy).Contents (Elt F) :=
  constantI S_ 32 0#32

def r_main_c_93 : (⟨S_, .i32⟩ : BufTy).Contents (Elt F) :=
  constantI S_ 32 255#32

def r_main_call7_v0 : (⟨S_, .f32⟩ : BufTy).Contents (Elt F) :=
  (sitofp .f32 : (⟨S_, .i32⟩ : BufTy).Contents (Elt F) → (⟨S_, .f32⟩ : BufTy).Contents (Elt F)) (r_main_c_92 (F := F))

def r_main_call7_v1 : (⟨S1000000, .f32⟩ : BufTy).Contents (Elt F) :=
  (broadcastInDim S1000000 ![] bcast_S_S1000000 : (⟨S_, .f32⟩ : BufTy).Contents (Elt F) → (⟨S1000000, .f32⟩ : BufTy).Contents (Elt F)) (r_main_call7_v0 (F := F))

def r_main_call7_v2 (X : (⟨S1000000x4, .f32⟩ : BufTy).Contents (Elt F)) : (⟨S1000000, .f32⟩ : BufTy).Contents (Elt F) :=
  (maximumf : (⟨S1000000, .f32⟩ : BufTy).Contents (Elt F) → (⟨S1000000, .f32⟩ : BufTy).Contents (Elt F) → (⟨S1000000, .f32⟩ : BufTy).Contents (Elt F)) (r_main_call7_v1 (F := F)) (r_main_v299 (F := F) X)

def r_main_call7_v3 : (⟨S_, .f32⟩ : BufTy).Contents (Elt F) :=
  (sitofp .f32 : (⟨S_, .i32⟩ : BufTy).Contents (Elt F) → (⟨S_, .f32⟩ : BufTy).Contents (Elt F)) (r_main_c_93 (F := F))

def r_main_call7_v4 : (⟨S1000000, .f32⟩ : BufTy).Contents (Elt F) :=
  (broadcastInDim S1000000 ![] bcast_S_S1000000 : (⟨S_, .f32⟩ : BufTy).Contents (Elt F) → (⟨S1000000, .f32⟩ : BufTy).Contents (Elt F)) (r_main_call7_v3 (F := F))

def r_main_v300 (X : (⟨S1000000x4, .f32⟩ : BufTy).Contents (Elt F)) : (⟨S1000000, .f32⟩ : BufTy).Contents (Elt F) :=
  (minimumf : (⟨S1000000, .f32⟩ : BufTy).Contents (Elt F) → (⟨S1000000, .f32⟩ : BufTy).Contents (Elt F) → (⟨S1000000, .f32⟩ : BufTy).Contents (Elt F)) (r_main_call7_v4 (F := F)) (r_main_call7_v2 (F := F) X)

def r_main_v301 (X : (⟨S1000000x4, .f32⟩ : BufTy).Contents (Elt F)) : (⟨S1000000, .i32⟩ : BufTy).Contents (Elt F) :=
  (fptosi 32 : (⟨S1000000, .f32⟩ : BufTy).Contents (Elt F) → (⟨S1000000, .i32⟩ : BufTy).Contents (Elt F)) (r_main_v300 (F := F) X)

def r_main_v302 (X : (⟨S1000000x4, .f32⟩ : BufTy).Contents (Elt F)) : (⟨S1000000, .f32⟩ : BufTy).Contents (Elt F) :=
  (subf : (⟨S1000000, .f32⟩ : BufTy).Contents (Elt F) → (⟨S1000000, .f32⟩ : BufTy).Contents (Elt F) → (⟨S1000000, .f32⟩ : BufTy).Contents (Elt F)) (r_main_v286 (F := F) X) (r_main_v295 (F := F) X)

def r_main_v303 (X : (⟨S1000000x4, .f32⟩ : BufTy).Contents (Elt F)) : (⟨S1000000, .f32⟩ : BufTy).Contents (Elt F) :=
  (Host.floor : (⟨S1000000, .f32⟩ : BufTy).Contents (Elt F) → (⟨S1000000, .f32⟩ : BufTy).Contents (Elt F)) (r_main_v294 (F := F) X)

def r_main_c_94 : (⟨S_, .i32⟩ : BufTy).Contents (Elt F) :=
  constantI S_ 32 0#32

def r_main_c_95 : (⟨S_, .i32⟩ : BufTy).Contents (Elt F) :=
  constantI S_ 32 255#32

def r_main_call8_v0 : (⟨S_, .f32⟩ : BufTy).Contents (Elt F) :=
  (sitofp .f32 : (⟨S_, .i32⟩ : BufTy).Contents (Elt F) → (⟨S_, .f32⟩ : BufTy).Contents (Elt F)) (r_main_c_94 (F := F))

def r_main_call8_v1 : (⟨S1000000, .f32⟩ : BufTy).Contents (Elt F) :=
  (broadcastInDim S1000000 ![] bcast_S_S1000000 : (⟨S_, .f32⟩ : BufTy).Contents (Elt F) → (⟨S1000000, .f32⟩ : BufTy).Contents (Elt F)) (r_main_call8_v0 (F := F))

def r_main_call8_v2 (X : (⟨S1000000x4, .f32⟩ : BufTy).Contents (Elt F)) : (⟨S1000000, .f32⟩ : BufTy).Contents (Elt F) :=
  (maximumf : (⟨S1000000, .f32⟩ : BufTy).Contents (Elt F) → (⟨S1000000, .f32⟩ : BufTy).Contents (Elt F) → (⟨S1000000, .f32⟩ : BufTy).Contents (Elt F)) (r_main_call8_v1 (F := F)) (r_main_v303 (F := F) X)

def r_main_call8_v3 : (⟨S_, .f32⟩ : BufTy).Contents (Elt F) :=
  (sitofp .f32 : (⟨S_, .i32⟩ : BufTy).Contents (Elt F) → (⟨S_, .f32⟩ : BufTy).Contents (Elt F)) (r_main_c_95 (F := F))

def r_main_call8_v4 : (⟨S1000000, .f32⟩ : BufTy).Contents (Elt F) :=
  (broadcastInDim S1000000 ![] bcast_S_S1000000 : (⟨S_, .f32⟩ : BufTy).Contents (Elt F) → (⟨S1000000, .f32⟩ : BufTy).Contents (Elt F)) (r_main_call8_v3 (F := F))

def r_main_v304 (X : (⟨S1000000x4, .f32⟩ : BufTy).Contents (Elt F)) : (⟨S1000000, .f32⟩ : BufTy).Contents (Elt F) :=
  (minimumf : (⟨S1000000, .f32⟩ : BufTy).Contents (Elt F) → (⟨S1000000, .f32⟩ : BufTy).Contents (Elt F) → (⟨S1000000, .f32⟩ : BufTy).Contents (Elt F)) (r_main_call8_v4 (F := F)) (r_main_call8_v2 (F := F) X)

def r_main_v305 (X : (⟨S1000000x4, .f32⟩ : BufTy).Contents (Elt F)) : (⟨S1000000, .i32⟩ : BufTy).Contents (Elt F) :=
  (fptosi 32 : (⟨S1000000, .f32⟩ : BufTy).Contents (Elt F) → (⟨S1000000, .i32⟩ : BufTy).Contents (Elt F)) (r_main_v304 (F := F) X)

def r_main_cst_96 : (⟨S_, .f32⟩ : BufTy).Contents (Elt F) :=
  constant S_ .f32 0x3F800000#32

def r_main_v306 : (⟨S1000000, .f32⟩ : BufTy).Contents (Elt F) :=
  (broadcastInDim S1000000 ![] bcast_S_S1000000 : (⟨S_, .f32⟩ : BufTy).Contents (Elt F) → (⟨S1000000, .f32⟩ : BufTy).Contents (Elt F)) (r_main_cst_96 (F := F))

def r_main_v307 (X : (⟨S1000000x4, .f32⟩ : BufTy).Contents (Elt F)) : (⟨S1000000, .f32⟩ : BufTy).Contents (Elt F) :=
  (addf : (⟨S1000000, .f32⟩ : BufTy).Contents (Elt F) → (⟨S1000000, .f32⟩ : BufTy).Contents (Elt F) → (⟨S1000000, .f32⟩ : BufTy).Contents (Elt F)) (r_main_v303 (F := F) X) (r_main_v306 (F := F))

def r_main_c_97 : (⟨S_, .i32⟩ : BufTy).Contents (Elt F) :=
  constantI S_ 32 0#32

def r_main_c_98 : (⟨S_, .i32⟩ : BufTy).Contents (Elt F) :=
  constantI S_ 32 255#32

def r_main_call9_v0 : (⟨S_, .f32⟩ : BufTy).Contents (Elt F) :=
  (sitofp .f32 : (⟨S_, .i32⟩ : BufTy).Contents (Elt F) → (⟨S_, .f32⟩ : BufTy).Contents (Elt F)) (r_main_c_97 (F := F))

def r_main_call9_v1 : (⟨S1000000, .f32⟩ : BufTy).Contents (Elt F) :=
  (broadcastInDim S1000000 ![] bcast_S_S1000000 : (⟨S_, .f32⟩ : BufTy).Contents (Elt F) → (⟨S1000000, .f32⟩ : BufTy).Contents (Elt F)) (r_main_call9_v0 (F := F))

def r_main_call9_v2 (X : (⟨S1000000x4, .f32⟩ : BufTy).Contents (Elt F)) : (⟨S1000000, .f32⟩ : BufTy).Contents (Elt F) :=
  (maximumf : (⟨S1000000, .f32⟩ : BufTy).Contents (Elt F) → (⟨S1000000, .f32⟩ : BufTy).Contents (Elt F) → (⟨S1000000, .f32⟩ : BufTy).Contents (Elt F)) (r_main_call9_v1 (F := F)) (r_main_v307 (F := F) X)

def r_main_call9_v3 : (⟨S_, .f32⟩ : BufTy).Contents (Elt F) :=
  (sitofp .f32 : (⟨S_, .i32⟩ : BufTy).Contents (Elt F) → (⟨S_, .f32⟩ : BufTy).Contents (Elt F)) (r_main_c_98 (F := F))

def r_main_call9_v4 : (⟨S1000000, .f32⟩ : BufTy).Contents (Elt F) :=
  (broadcastInDim S1000000 ![] bcast_S_S1000000 : (⟨S_, .f32⟩ : BufTy).Contents (Elt F) → (⟨S1000000, .f32⟩ : BufTy).Contents (Elt F)) (r_main_call9_v3 (F := F))

def r_main_v308 (X : (⟨S1000000x4, .f32⟩ : BufTy).Contents (Elt F)) : (⟨S1000000, .f32⟩ : BufTy).Contents (Elt F) :=
  (minimumf : (⟨S1000000, .f32⟩ : BufTy).Contents (Elt F) → (⟨S1000000, .f32⟩ : BufTy).Contents (Elt F) → (⟨S1000000, .f32⟩ : BufTy).Contents (Elt F)) (r_main_call9_v4 (F := F)) (r_main_call9_v2 (F := F) X)

def r_main_v309 (X : (⟨S1000000x4, .f32⟩ : BufTy).Contents (Elt F)) : (⟨S1000000, .i32⟩ : BufTy).Contents (Elt F) :=
  (fptosi 32 : (⟨S1000000, .f32⟩ : BufTy).Contents (Elt F) → (⟨S1000000, .i32⟩ : BufTy).Contents (Elt F)) (r_main_v308 (F := F) X)

def r_main_v310 (X : (⟨S1000000x4, .f32⟩ : BufTy).Contents (Elt F)) : (⟨S1000000, .f32⟩ : BufTy).Contents (Elt F) :=
  (subf : (⟨S1000000, .f32⟩ : BufTy).Contents (Elt F) → (⟨S1000000, .f32⟩ : BufTy).Contents (Elt F) → (⟨S1000000, .f32⟩ : BufTy).Contents (Elt F)) (r_main_v294 (F := F) X) (r_main_v303 (F := F) X)

def r_main_cst_99 : (⟨S_, .f32⟩ : BufTy).Contents (Elt F) :=
  constant S_ .f32 0x00000000#32

def r_main_v311 : (⟨S16x1000000, .f32⟩ : BufTy).Contents (Elt F) :=
  (broadcastInDim S16x1000000 ![] bcast_S_S16x1000000 : (⟨S_, .f32⟩ : BufTy).Contents (Elt F) → (⟨S16x1000000, .f32⟩ : BufTy).Contents (Elt F)) (r_main_cst_99 (F := F))

def r_main_cst_100 : (⟨S_, .f32⟩ : BufTy).Contents (Elt F) :=
  constant S_ .f32 0x3F800000#32

def r_main_v312 : (⟨S1000000, .f32⟩ : BufTy).Contents (Elt F) :=
  (broadcastInDim S1000000 ![] bcast_S_S1000000 : (⟨S_, .f32⟩ : BufTy).Contents (Elt F) → (⟨S1000000, .f32⟩ : BufTy).Contents (Elt F)) (r_main_cst_100 (F := F))

def r_main_v313 (X : (⟨S1000000x4, .f32⟩ : BufTy).Contents (Elt F)) : (⟨S1000000, .f32⟩ : BufTy).Contents (Elt F) :=
  (subf : (⟨S1000000, .f32⟩ : BufTy).Contents (Elt F) → (⟨S1000000, .f32⟩ : BufTy).Contents (Elt F) → (⟨S1000000, .f32⟩ : BufTy).Contents (Elt F)) (r_main_v312 (F := F)) (r_main_v310 (F := F) X)

def r_main_cst_101 : (⟨S_, .f32⟩ : BufTy).Contents (Elt F) :=
  constant S_ .f32 0x3F800000#32

def r_main_v314 : (⟨S1000000, .f32⟩ : BufTy).Contents (Elt F) :=
  (broadcastInDim S1000000 ![] bcast_S_S1000000 : (⟨S_, .f32⟩ : BufTy).Contents (Elt F) → (⟨S1000000, .f32⟩ : BufTy).Contents (Elt F)) (r_main_cst_101 (F := F))

def r_main_v315 (X : (⟨S1000000x4, .f32⟩ : BufTy).Contents (Elt F)) : (⟨S1000000, .f32⟩ : BufTy).Contents (Elt F) :=
  (subf : (⟨S1000000, .f32⟩ : BufTy).Contents (Elt F) → (⟨S1000000, .f32⟩ : BufTy).Contents (Elt F) → (⟨S1000000, .f32⟩ : BufTy).Contents (Elt F)) (r_main_v314 (F := F)) (r_main_v302 (F := F) X)

def r_main_c_102 : (⟨S_, .i32⟩ : BufTy).Contents (Elt F) :=
  constantI S_ 32 0#32

def r_main_v316 : (⟨S1000000, .i32⟩ : BufTy).Contents (Elt F) :=
  (broadcastInDim S1000000 ![] bcast_S_S1000000 : (⟨S_, .i32⟩ : BufTy).Contents (Elt F) → (⟨S1000000, .i32⟩ : BufTy).Contents (Elt F)) (r_main_c_102 (F := F))

def r_main_v317 (X : (⟨S1000000x4, .f32⟩ : BufTy).Contents (Elt F)) : (⟨S1000000, .i1⟩ : BufTy).Contents (Elt F) :=
  (cmpi .slt : (⟨S1000000, .i32⟩ : BufTy).Contents (Elt F) → (⟨S1000000, .i32⟩ : BufTy).Contents (Elt F) → (⟨S1000000, .i1⟩ : BufTy).Contents (Elt F)) (r_main_v305 (F := F) X) (r_main_v316 (F := F))

def r_main_c_103 : (⟨S_, .i32⟩ : BufTy).Contents (Elt F) :=
  constantI S_ 32 256#32

def r_main_v318 : (⟨S1000000, .i32⟩ : BufTy).Contents (Elt F) :=
  (broadcastInDim S1000000 ![] bcast_S_S1000000 : (⟨S_, .i32⟩ : BufTy).Contents (Elt F) → (⟨S1000000, .i32⟩ : BufTy).Contents (Elt F)) (r_main_c_103 (F := F))

def r_main_v319 (X : (⟨S1000000x4, .f32⟩ : BufTy).Contents (Elt F)) : (⟨S1000000, .i32⟩ : BufTy).Contents (Elt F) :=
  (addi : (⟨S1000000, .i32⟩ : BufTy).Contents (Elt F) → (⟨S1000000, .i32⟩ : BufTy).Contents (Elt F) → (⟨S1000000, .i32⟩ : BufTy).Contents (Elt F)) (r_main_v305 (F := F) X) (r_main_v318 (F := F))

def r_main_v320 (X : (⟨S1000000x4, .f32⟩ : BufTy).Contents (Elt F)) : (⟨S1000000, .i32⟩ : BufTy).Contents (Elt F) :=
  (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) (r_main_v317 (F := F) X) (r_main_v319 (F := F) X) (r_main_v305 (F := F) X)

def r_main_c_104 : (⟨S_, .i32⟩ : BufTy).Contents (Elt F) :=
  constantI S_ 32 0#32

def r_main_v321 : (⟨S1000000, .i32⟩ : BufTy).Contents (Elt F) :=
  (broadcastInDim S1000000 ![] bcast_S_S1000000 : (⟨S_, .i32⟩ : BufTy).Contents (Elt F) → (⟨S1000000, .i32⟩ : BufTy).Contents (Elt F)) (r_main_c_104 (F := F))

def r_main_v322 (X : (⟨S1000000x4, .f32⟩ : BufTy).Contents (Elt F)) : (⟨S1000000, .i1⟩ : BufTy).Contents (Elt F) :=
  (cmpi .slt : (⟨S1000000, .i32⟩ : BufTy).Contents (Elt F) → (⟨S1000000, .i32⟩ : BufTy).Contents (Elt F) → (⟨S1000000, .i1⟩ : BufTy).Contents (Elt F)) (r_main_v297 (F := F) X) (r_main_v321 (F := F))

def r_main_c_105 : (⟨S_, .i32⟩ : BufTy).Contents (Elt F) :=
  constantI S_ 32 256#32

def r_main_v323 : (⟨S1000000, .i32⟩ : BufTy).Contents (Elt F) :=
  (broadcastInDim S1000000 ![] bcast_S_S1000000 : (⟨S_, .i32⟩ : BufTy).Contents (Elt F) → (⟨S1000000, .i32⟩ : BufTy).Contents (Elt F)) (r_main_c_105 (F := F))

def r_main_v324 (X : (⟨S1000000x4, .f32⟩ : BufTy).Contents (Elt F)) : (⟨S1000000, .i32⟩ : BufTy).Contents (Elt F) :=
  (addi : (⟨S1000000, .i32⟩ : BufTy).Contents (Elt F) → (⟨S1000000, .i32⟩ : BufTy).Contents (Elt F) → (⟨S1000000, .i32⟩ : BufTy).Contents (Elt F)) (r_main_v297 (F := F) X) (r_main_v323 (F := F))

def r_main_v325 (X : (⟨S1000000x4, .f32⟩ : BufTy).Contents (Elt F)) : (⟨S1000000, .i32⟩ : BufTy).Contents (Elt F) :=
  (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) (r_main_v322 (F := F) X) (r_main_v324 (F := F) X) (r_main_v297 (F := F) X)

def r_main_v326 (X : (⟨S1000000x4, .f32⟩ : BufTy).Contents (Elt F)) : (⟨S1000000x1, .i32⟩ : BufTy).Contents (Elt F) :=
  (broadcastInDim S1000000x1 ![0] bcast_S1000000_S1000000x1_0 : (⟨S1000000, .i32⟩ : BufTy).Contents (Elt F) → (⟨S1000000x1, .i32⟩ : BufTy).Contents (Elt F)) (r_main_v320 (F := F) X)

def r_main_v327 (X : (⟨S1000000x4, .f32⟩ : BufTy).Contents (Elt F)) : (⟨S1000000x1, .i32⟩ : BufTy).Contents (Elt F) :=
  (broadcastInDim S1000000x1 ![0] bcast_S1000000_S1000000x1_0 : (⟨S1000000, .i32⟩ : BufTy).Contents (Elt F) → (⟨S1000000x1, .i32⟩ : BufTy).Contents (Elt F)) (r_main_v325 (F := F) X)

def r_main_v328 (X : (⟨S1000000x4, .f32⟩ : BufTy).Contents (Elt F)) : (⟨S1000000x2, .i32⟩ : BufTy).Contents (Elt F) :=
  (cat2 (F := F) : (⟨S1000000x1, .i32⟩ : BufTy).Contents (Elt F) → (⟨S1000000x1, .i32⟩ : BufTy).Contents (Elt F) → (⟨S1000000x2, .i32⟩ : BufTy).Contents (Elt F)) (r_main_v326 (F := F) X) (r_main_v327 (F := F) X)

def r_main_v329 (X : (⟨S1000000x4, .f32⟩ : BufTy).Contents (Elt F)) (P0 : (⟨S16x256x256, .f32⟩ : BufTy).Contents (Elt F)) : (⟨S16x1000000, .f32⟩ : BufTy).Contents (Elt F) :=
  ((fun x i => Host.gather gather_S16x256x256_S1000000x2_S16x1000000_0_12_n_n_12_1_1611 x i) : (⟨S16x256x256, .f32⟩ : BufTy).Contents (Elt F) → (⟨S1000000x2, .i32⟩ : BufTy).Contents (Elt F) → (⟨S16x1000000, .f32⟩ : BufTy).Contents (Elt F)) P0 (r_main_v328 (F := F) X)

def r_main_v330 (X : (⟨S1000000x4, .f32⟩ : BufTy).Contents (Elt F)) : (⟨S1000000, .f32⟩ : BufTy).Contents (Elt F) :=
  (mulf : (⟨S1000000, .f32⟩ : BufTy).Contents (Elt F) → (⟨S1000000, .f32⟩ : BufTy).Contents (Elt F) → (⟨S1000000, .f32⟩ : BufTy).Contents (Elt F)) (r_main_v313 (F := F) X) (r_main_v315 (F := F) X)

def r_main_v331 (X : (⟨S1000000x4, .f32⟩ : BufTy).Contents (Elt F)) : (⟨S1x1000000, .f32⟩ : BufTy).Contents (Elt F) :=
  (broadcastInDim S1x1000000 ![1] bcast_S1000000_S1x1000000_1 : (⟨S1000000, .f32⟩ : BufTy).Contents (Elt F) → (⟨S1x1000000, .f32⟩ : BufTy).Contents (Elt F)) (r_main_v330 (F := F) X)

def r_main_v332 (X : (⟨S1000000x4, .f32⟩ : BufTy).Contents (Elt F)) : (⟨S16x1000000, .f32⟩ : BufTy).Contents (Elt F) :=
  (broadcastInDim S16x1000000 ![0, 1] bcast_S1x1000000_S16x1000000_0_1 : (⟨S1x1000000, .f32⟩ : BufTy).Contents (Elt F) → (⟨S16x1000000, .f32⟩ : BufTy).Contents (Elt F)) (r_main_v331 (F := F) X)

def r_main_v333 (X : (⟨S1000000x4, .f32⟩ : BufTy).Contents (Elt F)) (P0 : (⟨S16x256x256, .f32⟩ : BufTy).Contents (Elt F)) : (⟨S16x1000000, .f32⟩ : BufTy).Contents (Elt F) :=
  (mulf : (⟨S16x1000000, .f32⟩ : BufTy).Contents (Elt F) → (⟨S16x1000000, .f32⟩ : BufTy).Contents (Elt F) → (⟨S16x1000000, .f32⟩ : BufTy).Contents (Elt F)) (r_main_v329 (F := F) X P0) (r_main_v332 (F := F) X)

def r_main_v334 (X : (⟨S1000000x4, .f32⟩ : BufTy).Contents (Elt F)) (P0 : (⟨S16x256x256, .f32⟩ : BufTy).Contents (Elt F)) : (⟨S16x1000000, .f32⟩ : BufTy).Contents (Elt F) :=
  (addf : (⟨S16x1000000, .f32⟩ : BufTy).Contents (Elt F) → (⟨S16x1000000, .f32⟩ : BufTy).Contents (Elt F) → (⟨S16x1000000, .f32⟩ : BufTy).Contents (Elt F)) (r_main_v311 (F := F)) (r_main_v333 (F := F) X P0)

def r_main_c_106 : (⟨S_, .i32⟩ : BufTy).Contents (Elt F) :=
  constantI S_ 32 0#32

def r_main_v335 : (⟨S1000000, .i32⟩ : BufTy).Contents (Elt F) :=
  (broadcastInDim S1000000 ![] bcast_S_S1000000 : (⟨S_, .i32⟩ : BufTy).Contents (Elt F) → (⟨S1000000, .i32⟩ : BufTy).Contents (Elt F)) (r_main_c_106 (F := F))

def r_main_v336 (X : (⟨S1000000x4, .f32⟩ : BufTy).Contents (Elt F)) : (⟨S1000000, .i1⟩ : BufTy).Contents (Elt F) :=
  (cmpi .slt : (⟨S1000000, .i32⟩ : BufTy).Contents (Elt F) → (⟨S1000000, .i32⟩ : BufTy).Contents (Elt F) → (⟨S1000000, .i1⟩ : BufTy).Contents (Elt F)) (r_main_v305 (F := F) X) (r_main_v335 (F := F))

def r_main_c_107 : (⟨S_, .i32⟩ : BufTy).Contents (Elt F) :=
  constantI S_ 32 256#32

def r_main_v337 : (⟨S1000000, .i32⟩ : BufTy).Contents (Elt F) :=
  (broadcastInDim S1000000 ![] bcast_S_S1000000 : (⟨S_, .i32⟩ : BufTy).Contents (Elt F) → (⟨S1000000, .i32⟩ : BufTy).Contents (Elt F)) (r_main_c_107 (F := F))

def r_main_v338 (X : (⟨S1000000x4, .f32⟩ : BufTy).Contents (Elt F)) : (⟨S1000000, .i32⟩ : BufTy).Contents (Elt F) :=
  (addi : (⟨S1000000, .i32⟩ : BufTy).Contents (Elt F) → (⟨S1000000, .i32⟩ : BufTy).Contents (Elt F) → (⟨S1000000, .i32⟩ : BufTy).Contents (Elt F)) (r_main_v305 (F := F) X) (r_main_v337 (F := F))

def r_main_v339 (X : (⟨S1000000x4, .f32⟩ : BufTy).Contents (Elt F)) : (⟨S1000000, .i32⟩ : BufTy).Contents (Elt F) :=
  (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) (r_main_v336 (F := F) X) (r_main_v338 (F := F) X) (r_main_v305 (F := F) X)

def r_main_c_108 : (⟨S_, .i32⟩ : BufTy).Contents (Elt F) :=
  constantI S_ 32 0#32

def r_main_v340 : (⟨S1000000, .i32⟩ : BufTy).Contents (Elt F) :=
  (broadcastInDim S1000000 ![] bcast_S_S1000000 : (⟨S_, .i32⟩ : BufTy).Contents (Elt F) → (⟨S1000000, .i32⟩ : BufTy).Contents (Elt F)) (r_main_c_108 (F := F))

def r_main_v341 (X : (⟨S1000000x4, .f32⟩ : BufTy).Contents (Elt F)) : (⟨S1000000, .i1⟩ : BufTy).Contents (Elt F) :=
  (cmpi .slt : (⟨S1000000, .i32⟩ : BufTy).Contents (Elt F) → (⟨S1000000, .i32⟩ : BufTy).Contents (Elt F) → (⟨S1000000, .i1⟩ : BufTy).Contents (Elt F)) (r_main_v301 (F := F) X) (r_main_v340 (F := F))

def r_main_c_109 : (⟨S_, .i32⟩ : BufTy).Contents (Elt F) :=
  constantI S_ 32 256#32

def r_main_v342 : (⟨S1000000, .i32⟩ : BufTy).Contents (Elt F) :=
  (broadcastInDim S1000000 ![] bcast_S_S1000000 : (⟨S_, .i32⟩ : BufTy).Contents (Elt F) → (⟨S1000000, .i32⟩ : BufTy).Contents (Elt F)) (r_main_c_109 (F := F))

def r_main_v343 (X : (⟨S1000000x4, .f32⟩ : BufTy).Contents (Elt F)) : (⟨S1000000, .i32⟩ : BufTy).Contents (Elt F) :=
  (addi : (⟨S1000000, .i32⟩ : BufTy).Contents (Elt F) → (⟨S1000000, .i32⟩ : BufTy).Contents (Elt F) → (⟨S1000000, .i32⟩ : BufTy).Contents (Elt F)) (r_main_v301 (F := F) X) (r_main_v342 (F := F))

def r_main_v344 (X : (⟨S1000000x4, .f32⟩ : BufTy).Contents (Elt F)) : (⟨S1000000, .i32⟩ : BufTy).Contents (Elt F) :=
  (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) (r_main_v341 (F := F) X) (r_main_v343 (F := F) X) (r_main_v301 (F := F) X)

def r_main_v345 (X : (⟨S1000000x4, .f32⟩ : BufTy).Contents (Elt F)) : (⟨S1000000x1, .i32⟩ : BufTy).Contents (Elt F) :=
  (broadcastInDim S1000000x1 ![0] bcast_S1000000_S1000000x1_0 : (⟨S1000000, .i32⟩ : BufTy).Contents (Elt F) → (⟨S1000000x1, .i32⟩ : BufTy).Contents (Elt F)) (r_main_v339 (F := F) X)

def r_main_v346 (X : (⟨S1000000x4, .f32⟩ : BufTy).Contents (Elt F)) : (⟨S1000000x1, .i32⟩ : BufTy).Contents (Elt F) :=
  (broadcastInDim S1000000x1 ![0] bcast_S1000000_S1000000x1_0 : (⟨S1000000, .i32⟩ : BufTy).Contents (Elt F) → (⟨S1000000x1, .i32⟩ : BufTy).Contents (Elt F)) (r_main_v344 (F := F) X)

def r_main_v347 (X : (⟨S1000000x4, .f32⟩ : BufTy).Contents (Elt F)) : (⟨S1000000x2, .i32⟩ : BufTy).Contents (Elt F) :=
  (cat2 (F := F) : (⟨S1000000x1, .i32⟩ : BufTy).Contents (Elt F) → (⟨S1000000x1, .i32⟩ : BufTy).Contents (Elt F) → (⟨S1000000x2, .i32⟩ : BufTy).Contents (Elt F)) (r_main_v345 (F := F) X) (r_main_v346 (F := F) X)

def r_main_v348 (X : (⟨S1000000x4, .f32⟩ : BufTy).Contents (Elt F)) (P0 : (⟨S16x256x256, .f32⟩ : BufTy).Contents (Elt F)) : (⟨S16x1000000, .f32⟩ : BufTy).Contents (Elt F) :=
  ((fun x i => Host.gather gather_S16x256x256_S1000000x2_S16x1000000_0_12_n_n_12_1_1611 x i) : (⟨S16x256x256, .f32⟩ : BufTy).Contents (Elt F) → (⟨S1000000x2, .i32⟩ : BufTy).Contents (Elt F) → (⟨S16x1000000, .f32⟩ : BufTy).Contents (Elt F)) P0 (r_main_v347 (F := F) X)

def r_main_v349 (X : (⟨S1000000x4, .f32⟩ : BufTy).Contents (Elt F)) : (⟨S1000000, .f32⟩ : BufTy).Contents (Elt F) :=
  (mulf : (⟨S1000000, .f32⟩ : BufTy).Contents (Elt F) → (⟨S1000000, .f32⟩ : BufTy).Contents (Elt F) → (⟨S1000000, .f32⟩ : BufTy).Contents (Elt F)) (r_main_v313 (F := F) X) (r_main_v302 (F := F) X)

def r_main_v350 (X : (⟨S1000000x4, .f32⟩ : BufTy).Contents (Elt F)) : (⟨S1x1000000, .f32⟩ : BufTy).Contents (Elt F) :=
  (broadcastInDim S1x1000000 ![1] bcast_S1000000_S1x1000000_1 : (⟨S1000000, .f32⟩ : BufTy).Contents (Elt F) → (⟨S1x1000000, .f32⟩ : BufTy).Contents (Elt F)) (r_main_v349 (F := F) X)

def r_main_v351 (X : (⟨S1000000x4, .f32⟩ : BufTy).Contents (Elt F)) : (⟨S16x1000000, .f32⟩ : BufTy).Contents (Elt F) :=
  (broadcastInDim S16x1000000 ![0, 1] bcast_S1x1000000_S16x1000000_0_1 : (⟨S1x1000000, .f32⟩ : BufTy).Contents (Elt F) → (⟨S16x1000000, .f32⟩ : BufTy).Contents (Elt F)) (r_main_v350 (F := F) X)

def r_main_v352 (X : (⟨S1000000x4, .f32⟩ : BufTy).Contents (Elt F)) (P0 : (⟨S16x256x256, .f32⟩ : BufTy).Contents (Elt F)) : (⟨S16x1000000, .f32⟩ : BufTy).Contents (Elt F) :=
  (mulf : (⟨S16x1000000, .f32⟩ : BufTy).Contents (Elt F) → (⟨S16x1000000, .f32⟩ : BufTy).Contents (Elt F) → (⟨S16x1000000, .f32⟩ : BufTy).Contents (Elt F)) (r_main_v348 (F := F) X P0) (r_main_v351 (F := F) X)

def r_main_v353 (X : (⟨S1000000x4, .f32⟩ : BufTy).Contents (Elt F)) (P0 : (⟨S16x256x256, .f32⟩ : BufTy).Contents (Elt F)) : (⟨S16x1000000, .f32⟩ : BufTy).Contents (Elt F) :=
  (addf : (⟨S16x1000000, .f32⟩ : BufTy).Contents (Elt F) → (⟨S16x1000000, .f32⟩ : BufTy).Contents (Elt F) → (⟨S16x1000000, .f32⟩ : BufTy).Contents (Elt F)) (r_main_v334 (F := F) X P0) (r_main_v352 (F := F) X P0)

def r_main_cst_110 : (⟨S_, .f32⟩ : BufTy).Contents (Elt F) :=
  constant S_ .f32 0x3F800000#32

def r_main_v354 : (⟨S1000000, .f32⟩ : BufTy).Contents (Elt F) :=
  (broadcastInDim S1000000 ![] bcast_S_S1000000 : (⟨S_, .f32⟩ : BufTy).Contents (Elt F) → (⟨S1000000, .f32⟩ : BufTy).Contents (Elt F)) (r_main_cst_110 (F := F))

def r_main_v355 (X : (⟨S1000000x4, .f32⟩ : BufTy).Contents (Elt F)) : (⟨S1000000, .f32⟩ : BufTy).Contents (Elt F) :=
  (subf : (⟨S1000000, .f32⟩ : BufTy).Contents (Elt F) → (⟨S1000000, .f32⟩ : BufTy).Contents (Elt F) → (⟨S1000000, .f32⟩ : BufTy).Contents (Elt F)) (r_main_v354 (F := F)) (r_main_v302 (F := F) X)

def r_main_c_111 : (⟨S_, .i32⟩ : BufTy).Contents (Elt F) :=
  constantI S_ 32 0#32

def r_main_v356 : (⟨S1000000, .i32⟩ : BufTy).Contents (Elt F) :=
  (broadcastInDim S1000000 ![] bcast_S_S1000000 : (⟨S_, .i32⟩ : BufTy).Contents (Elt F) → (⟨S1000000, .i32⟩ : BufTy).Contents (Elt F)) (r_main_c_111 (F := F))

def r_main_v357 (X : (⟨S1000000x4, .f32⟩ : BufTy).Contents (Elt F)) : (⟨S1000000, .i1⟩ : BufTy).Contents (Elt F) :=
  (cmpi .slt : (⟨S1000000, .i32⟩ : BufTy).Contents (Elt F) → (⟨S1000000, .i32⟩ : BufTy).Contents (Elt F) → (⟨S1000000, .i1⟩ : BufTy).Contents (Elt F)) (r_main_v309 (F := F) X) (r_main_v356 (F := F))

def r_main_c_112 : (⟨S_, .i32⟩ : BufTy).Contents (Elt F) :=
  constantI S_ 32 256#32

def r_main_v358 : (⟨S1000000, .i32⟩ : BufTy).Contents (Elt F) :=
  (broadcastInDim S1000000 ![] bcast_S_S1000000 : (⟨S_, .i32⟩ : BufTy).Contents (Elt F) → (⟨S1000000, .i32⟩ : BufTy).Contents (Elt F)) (r_main_c_112 (F := F))

def r_main_v359 (X : (⟨S1000000x4, .f32⟩ : BufTy).Contents (Elt F)) : (⟨S1000000, .i32⟩ : BufTy).Contents (Elt F) :=
  (addi : (⟨S1000000, .i32⟩ : BufTy).Contents (Elt F) → (⟨S1000000, .i32⟩ : BufTy).Contents (Elt F) → (⟨S1000000, .i32⟩ : BufTy).Contents (Elt F)) (r_main_v309 (F := F) X) (r_main_v358 (F := F))

def r_main_v360 (X : (⟨S1000000x4, .f32⟩ : BufTy).Contents (Elt F)) : (⟨S1000000, .i32⟩ : BufTy).Contents (Elt F) :=
  (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) (r_main_v357 (F := F) X) (r_main_v359 (F := F) X) (r_main_v309 (F := F) X)

def r_main_c_113 : (⟨S_, .i32⟩ : BufTy).Contents (Elt F) :=
  constantI S_ 32 0#32

def r_main_v361 : (⟨S1000000, .i32⟩ : BufTy).Contents (Elt F) :=
  (broadcastInDim S1000000 ![] bcast_S_S1000000 : (⟨S_, .i32⟩ : BufTy).Contents (Elt F) → (⟨S1000000, .i32⟩ : BufTy).Contents (Elt F)) (r_main_c_113 (F := F))

def r_main_v362 (X : (⟨S1000000x4, .f32⟩ : BufTy).Contents (Elt F)) : (⟨S1000000, .i1⟩ : BufTy).Contents (Elt F) :=
  (cmpi .slt : (⟨S1000000, .i32⟩ : BufTy).Contents (Elt F) → (⟨S1000000, .i32⟩ : BufTy).Contents (Elt F) → (⟨S1000000, .i1⟩ : BufTy).Contents (Elt F)) (r_main_v297 (F := F) X) (r_main_v361 (F := F))

def r_main_c_114 : (⟨S_, .i32⟩ : BufTy).Contents (Elt F) :=
  constantI S_ 32 256#32

def r_main_v363 : (⟨S1000000, .i32⟩ : BufTy).Contents (Elt F) :=
  (broadcastInDim S1000000 ![] bcast_S_S1000000 : (⟨S_, .i32⟩ : BufTy).Contents (Elt F) → (⟨S1000000, .i32⟩ : BufTy).Contents (Elt F)) (r_main_c_114 (F := F))

def r_main_v364 (X : (⟨S1000000x4, .f32⟩ : BufTy).Contents (Elt F)) : (⟨S1000000, .i32⟩ : BufTy).Contents (Elt F) :=
  (addi : (⟨S1000000, .i32⟩ : BufTy).Contents (Elt F) → (⟨S1000000, .i32⟩ : BufTy).Contents (Elt F) → (⟨S1000000, .i32⟩ : BufTy).Contents (Elt F)) (r_main_v297 (F := F) X) (r_main_v363 (F := F))

def r_main_v365 (X : (⟨S1000000x4, .f32⟩ : BufTy).Contents (Elt F)) : (⟨S1000000, .i32⟩ : BufTy).Contents (Elt F) :=
  (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) (r_main_v362 (F := F) X) (r_main_v364 (F := F) X) (r_main_v297 (F := F) X)

def r_main_v366 (X : (⟨S1000000x4, .f32⟩ : BufTy).Contents (Elt F)) : (⟨S1000000x1, .i32⟩ : BufTy).Contents (Elt F) :=
  (broadcastInDim S1000000x1 ![0] bcast_S1000000_S1000000x1_0 : (⟨S1000000, .i32⟩ : BufTy).Contents (Elt F) → (⟨S1000000x1, .i32⟩ : BufTy).Contents (Elt F)) (r_main_v360 (F := F) X)

def r_main_v367 (X : (⟨S1000000x4, .f32⟩ : BufTy).Contents (Elt F)) : (⟨S1000000x1, .i32⟩ : BufTy).Contents (Elt F) :=
  (broadcastInDim S1000000x1 ![0] bcast_S1000000_S1000000x1_0 : (⟨S1000000, .i32⟩ : BufTy).Contents (Elt F) → (⟨S1000000x1, .i32⟩ : BufTy).Contents (Elt F)) (r_main_v365 (F := F) X)

def r_main_v368 (X : (⟨S1000000x4, .f32⟩ : BufTy).Contents (Elt F)) : (⟨S1000000x2, .i32⟩ : BufTy).Contents (Elt F) :=
  (cat2 (F := F) : (⟨S1000000x1, .i32⟩ : BufTy).Contents (Elt F) → (⟨S1000000x1, .i32⟩ : BufTy).Contents (Elt F) → (⟨S1000000x2, .i32⟩ : BufTy).Contents (Elt F)) (r_main_v366 (F := F) X) (r_main_v367 (F := F) X)

def r_main_v369 (X : (⟨S1000000x4, .f32⟩ : BufTy).Contents (Elt F)) (P0 : (⟨S16x256x256, .f32⟩ : BufTy).Contents (Elt F)) : (⟨S16x1000000, .f32⟩ : BufTy).Contents (Elt F) :=
  ((fun x i => Host.gather gather_S16x256x256_S1000000x2_S16x1000000_0_12_n_n_12_1_1611 x i) : (⟨S16x256x256, .f32⟩ : BufTy).Contents (Elt F) → (⟨S1000000x2, .i32⟩ : BufTy).Contents (Elt F) → (⟨S16x1000000, .f32⟩ : BufTy).Contents (Elt F)) P0 (r_main_v368 (F := F) X)

def r_main_v370 (X : (⟨S1000000x4, .f32⟩ : BufTy).Contents (Elt F)) : (⟨S1000000, .f32⟩ : BufTy).Contents (Elt F) :=
  (mulf : (⟨S1000000, .f32⟩ : BufTy).Contents (Elt F) → (⟨S1000000, .f32⟩ : BufTy).Contents (Elt F) → (⟨S1000000, .f32⟩ : BufTy).Contents (Elt F)) (r_main_v310 (F := F) X) (r_main_v355 (F := F) X)

def r_main_v371 (X : (⟨S1000000x4, .f32⟩ : BufTy).Contents (Elt F)) : (⟨S1x1000000, .f32⟩ : BufTy).Contents (Elt F) :=
  (broadcastInDim S1x1000000 ![1] bcast_S1000000_S1x1000000_1 : (⟨S1000000, .f32⟩ : BufTy).Contents (Elt F) → (⟨S1x1000000, .f32⟩ : BufTy).Contents (Elt F)) (r_main_v370 (F := F) X)

def r_main_v372 (X : (⟨S1000000x4, .f32⟩ : BufTy).Contents (Elt F)) : (⟨S16x1000000, .f32⟩ : BufTy).Contents (Elt F) :=
  (broadcastInDim S16x1000000 ![0, 1] bcast_S1x1000000_S16x1000000_0_1 : (⟨S1x1000000, .f32⟩ : BufTy).Contents (Elt F) → (⟨S16x1000000, .f32⟩ : BufTy).Contents (Elt F)) (r_main_v371 (F := F) X)

def r_main_v373 (X : (⟨S1000000x4, .f32⟩ : BufTy).Contents (Elt F)) (P0 : (⟨S16x256x256, .f32⟩ : BufTy).Contents (Elt F)) : (⟨S16x1000000, .f32⟩ : BufTy).Contents (Elt F) :=
  (mulf : (⟨S16x1000000, .f32⟩ : BufTy).Contents (Elt F) → (⟨S16x1000000, .f32⟩ : BufTy).Contents (Elt F) → (⟨S16x1000000, .f32⟩ : BufTy).Contents (Elt F)) (r_main_v369 (F := F) X P0) (r_main_v372 (F := F) X)

def r_main_v374 (X : (⟨S1000000x4, .f32⟩ : BufTy).Contents (Elt F)) (P0 : (⟨S16x256x256, .f32⟩ : BufTy).Contents (Elt F)) : (⟨S16x1000000, .f32⟩ : BufTy).Contents (Elt F) :=
  (addf : (⟨S16x1000000, .f32⟩ : BufTy).Contents (Elt F) → (⟨S16x1000000, .f32⟩ : BufTy).Contents (Elt F) → (⟨S16x1000000, .f32⟩ : BufTy).Contents (Elt F)) (r_main_v353 (F := F) X P0) (r_main_v373 (F := F) X P0)

def r_main_c_115 : (⟨S_, .i32⟩ : BufTy).Contents (Elt F) :=
  constantI S_ 32 0#32

def r_main_v375 : (⟨S1000000, .i32⟩ : BufTy).Contents (Elt F) :=
  (broadcastInDim S1000000 ![] bcast_S_S1000000 : (⟨S_, .i32⟩ : BufTy).Contents (Elt F) → (⟨S1000000, .i32⟩ : BufTy).Contents (Elt F)) (r_main_c_115 (F := F))

def r_main_v376 (X : (⟨S1000000x4, .f32⟩ : BufTy).Contents (Elt F)) : (⟨S1000000, .i1⟩ : BufTy).Contents (Elt F) :=
  (cmpi .slt : (⟨S1000000, .i32⟩ : BufTy).Contents (Elt F) → (⟨S1000000, .i32⟩ : BufTy).Contents (Elt F) → (⟨S1000000, .i1⟩ : BufTy).Contents (Elt F)) (r_main_v309 (F := F) X) (r_main_v375 (F := F))

def r_main_c_116 : (⟨S_, .i32⟩ : BufTy).Contents (Elt F) :=
  constantI S_ 32 256#32

def r_main_v377 : (⟨S1000000, .i32⟩ : BufTy).Contents (Elt F) :=
  (broadcastInDim S1000000 ![] bcast_S_S1000000 : (⟨S_, .i32⟩ : BufTy).Contents (Elt F) → (⟨S1000000, .i32⟩ : BufTy).Contents (Elt F)) (r_main_c_116 (F := F))

def r_main_v378 (X : (⟨S1000000x4, .f32⟩ : BufTy).Contents (Elt F)) : (⟨S1000000, .i32⟩ : BufTy).Contents (Elt F) :=
  (addi : (⟨S1000000, .i32⟩ : BufTy).Contents (Elt F) → (⟨S1000000, .i32⟩ : BufTy).Contents (Elt F) → (⟨S1000000, .i32⟩ : BufTy).Contents (Elt F)) (r_main_v309 (F := F) X) (r_main_v377 (F := F))

def r_main_v379 (X : (⟨S1000000x4, .f32⟩ : BufTy).Contents (Elt F)) : (⟨S1000000, .i32⟩ : BufTy).Contents (Elt F) :=
  (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) (r_main_v376 (F := F) X) (r_main_v378 (F := F) X) (r_main_v309 (F := F) X)

def r_main_c_117 : (⟨S_, .i32⟩ : BufTy).Contents (Elt F) :=
  constantI S_ 32 0#32

def r_main_v380 : (⟨S1000000, .i32⟩ : BufTy).Contents (Elt F) :=
  (broadcastInDim S1000000 ![] bcast_S_S1000000 : (⟨S_, .i32⟩ : BufTy).Contents (Elt F) → (⟨S1000000, .i32⟩ : BufTy).Contents (Elt F)) (r_main_c_117 (F := F))

def r_main_v381 (X : (⟨S1000000x4, .f32⟩ : BufTy).Contents (Elt F)) : (⟨S1000000, .i1⟩ : BufTy).Contents (Elt F) :=
  (cmpi .slt : (⟨S1000000, .i32⟩ : BufTy).Contents (Elt F) → (⟨S1000000, .i32⟩ : BufTy).Contents (Elt F) → (⟨S1000000, .i1⟩ : BufTy).Contents (Elt F)) (r_main_v301 (F := F) X) (r_main_v380 (F := F))

def r_main_c_118 : (⟨S_, .i32⟩ : BufTy).Contents (Elt F) :=
  constantI S_ 32 256#32

def r_main_v382 : (⟨S1000000, .i32⟩ : BufTy).Contents (Elt F) :=
  (broadcastInDim S1000000 ![] bcast_S_S1000000 : (⟨S_, .i32⟩ : BufTy).Contents (Elt F) → (⟨S1000000, .i32⟩ : BufTy).Contents (Elt F)) (r_main_c_118 (F := F))

def r_main_v383 (X : (⟨S1000000x4, .f32⟩ : BufTy).Contents (Elt F)) : (⟨S1000000, .i32⟩ : BufTy).Contents (Elt F) :=
  (addi : (⟨S1000000, .i32⟩ : BufTy).Contents (Elt F) → (⟨S1000000, .i32⟩ : BufTy).Contents (Elt F) → (⟨S1000000, .i32⟩ : BufTy).Contents (Elt F)) (r_main_v301 (F := F) X) (r_main_v382 (F := F))

def r_main_v384 (X : (⟨S1000000x4, .f32⟩ : BufTy).Contents (Elt F)) : (⟨S1000000, .i32⟩ : BufTy).Contents (Elt F) :=
  (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) (r_main_v381 (F := F) X) (r_main_v383 (F := F) X) (r_main_v301 (F := F) X)

def r_main_v385 (X : (⟨S1000000x4, .f32⟩ : BufTy).Contents (Elt F)) : (⟨S1000000x1, .i32⟩ : BufTy).Contents (Elt F) :=
  (broadcastInDim S1000000x1 ![0] bcast_S1000000_S1000000x1_0 : (⟨S1000000, .i32⟩ : BufTy).Contents (Elt F) → (⟨S1000000x1, .i32⟩ : BufTy).Contents (Elt F)) (r_main_v379 (F := F) X)

def r_main_v386 (X : (⟨S1000000x4, .f32⟩ : BufTy).Contents (Elt F)) : (⟨S1000000x1, .i32⟩ : BufTy).Contents (Elt F) :=
  (broadcastInDim S1000000x1 ![0] bcast_S1000000_S1000000x1_0 : (⟨S1000000, .i32⟩ : BufTy).Contents (Elt F) → (⟨S1000000x1, .i32⟩ : BufTy).Contents (Elt F)) (r_main_v384 (F := F) X)

def r_main_v387 (X : (⟨S1000000x4, .f32⟩ : BufTy).Contents (Elt F)) : (⟨S1000000x2, .i32⟩ : BufTy).Contents (Elt F) :=
  (cat2 (F := F) : (⟨S1000000x1, .i32⟩ : BufTy).Contents (Elt F) → (⟨S1000000x1, .i32⟩ : BufTy).Contents (Elt F) → (⟨S1000000x2, .i32⟩ : BufTy).Contents (Elt F)) (r_main_v385 (F := F) X) (r_main_v386 (F := F) X)

def r_main_v388 (X : (⟨S1000000x4, .f32⟩ : BufTy).Contents (Elt F)) (P0 : (⟨S16x256x256, .f32⟩ : BufTy).Contents (Elt F)) : (⟨S16x1000000, .f32⟩ : BufTy).Contents (Elt F) :=
  ((fun x i => Host.gather gather_S16x256x256_S1000000x2_S16x1000000_0_12_n_n_12_1_1611 x i) : (⟨S16x256x256, .f32⟩ : BufTy).Contents (Elt F) → (⟨S1000000x2, .i32⟩ : BufTy).Contents (Elt F) → (⟨S16x1000000, .f32⟩ : BufTy).Contents (Elt F)) P0 (r_main_v387 (F := F) X)

def r_main_v389 (X : (⟨S1000000x4, .f32⟩ : BufTy).Contents (Elt F)) : (⟨S1000000, .f32⟩ : BufTy).Contents (Elt F) :=
  (mulf : (⟨S1000000, .f32⟩ : BufTy).Contents (Elt F) → (⟨S1000000, .f32⟩ : BufTy).Contents (Elt F) → (⟨S1000000, .f32⟩ : BufTy).Contents (Elt F)) (r_main_v310 (F := F) X) (r_main_v302 (F := F) X)

def r_main_v390 (X : (⟨S1000000x4, .f32⟩ : BufTy).Contents (Elt F)) : (⟨S1x1000000, .f32⟩ : BufTy).Contents (Elt F) :=
  (broadcastInDim S1x1000000 ![1] bcast_S1000000_S1x1000000_1 : (⟨S1000000, .f32⟩ : BufTy).Contents (Elt F) → (⟨S1x1000000, .f32⟩ : BufTy).Contents (Elt F)) (r_main_v389 (F := F) X)

def r_main_v391 (X : (⟨S1000000x4, .f32⟩ : BufTy).Contents (Elt F)) : (⟨S16x1000000, .f32⟩ : BufTy).Contents (Elt F) :=
  (broadcastInDim S16x1000000 ![0, 1] bcast_S1x1000000_S16x1000000_0_1 : (⟨S1x1000000, .f32⟩ : BufTy).Contents (Elt F) → (⟨S16x1000000, .f32⟩ : BufTy).Contents (Elt F)) (r_main_v390 (F := F) X)

def r_main_v392 (X : (⟨S1000000x4, .f32⟩ : BufTy).Contents (Elt F)) (P0 : (⟨S16x256x256, .f32⟩ : BufTy).Contents (Elt F)) : (⟨S16x1000000, .f32⟩ : BufTy).Contents (Elt F) :=
  (mulf : (⟨S16x1000000, .f32⟩ : BufTy).Contents (Elt F) → (⟨S16x1000000, .f32⟩ : BufTy).Contents (Elt F) → (⟨S16x1000000, .f32⟩ : BufTy).Contents (Elt F)) (r_main_v388 (F := F) X P0) (r_main_v391 (F := F) X)

def r_main_v393 (X : (⟨S1000000x4, .f32⟩ : BufTy).Contents (Elt F)) (P0 : (⟨S16x256x256, .f32⟩ : BufTy).Contents (Elt F)) : (⟨S16x1000000, .f32⟩ : BufTy).Contents (Elt F) :=
  (addf : (⟨S16x1000000, .f32⟩ : BufTy).Contents (Elt F) → (⟨S16x1000000, .f32⟩ : BufTy).Contents (Elt F) → (⟨S16x1000000, .f32⟩ : BufTy).Contents (Elt F)) (r_main_v374 (F := F) X P0) (r_main_v392 (F := F) X P0)

def r_main_v394 (X : (⟨S1000000x4, .f32⟩ : BufTy).Contents (Elt F)) (G : (⟨S16x128x128x128, .f32⟩ : BufTy).Contents (Elt F)) (P0 : (⟨S16x256x256, .f32⟩ : BufTy).Contents (Elt F)) : (⟨S16x1000000, .f32⟩ : BufTy).Contents (Elt F) :=
  (mulf : (⟨S16x1000000, .f32⟩ : BufTy).Contents (Elt F) → (⟨S16x1000000, .f32⟩ : BufTy).Contents (Elt F) → (⟨S16x1000000, .f32⟩ : BufTy).Contents (Elt F)) (r_main_v271 (F := F) X G) (r_main_v393 (F := F) X P0)

def r_main_c_119 : (⟨S_, .i32⟩ : BufTy).Contents (Elt F) :=
  constantI S_ 32 0#32

def r_main_v395 : (⟨S2, .i32⟩ : BufTy).Contents (Elt F) :=
  (broadcastInDim S2 ![] bcast_S_S2 : (⟨S_, .i32⟩ : BufTy).Contents (Elt F) → (⟨S2, .i32⟩ : BufTy).Contents (Elt F)) (r_main_c_119 (F := F))

def r_main_v396 : (⟨S2, .i1⟩ : BufTy).Contents (Elt F) :=
  (cmpi .slt : (⟨S2, .i32⟩ : BufTy).Contents (Elt F) → (⟨S2, .i32⟩ : BufTy).Contents (Elt F) → (⟨S2, .i1⟩ : BufTy).Contents (Elt F)) (r_main_c_0 (F := F)) (r_main_v395 (F := F))

def r_main_c_120 : (⟨S_, .i32⟩ : BufTy).Contents (Elt F) :=
  constantI S_ 32 4#32

def r_main_v397 : (⟨S2, .i32⟩ : BufTy).Contents (Elt F) :=
  (broadcastInDim S2 ![] bcast_S_S2 : (⟨S_, .i32⟩ : BufTy).Contents (Elt F) → (⟨S2, .i32⟩ : BufTy).Contents (Elt F)) (r_main_c_120 (F := F))

def r_main_v398 : (⟨S2, .i32⟩ : BufTy).Contents (Elt F) :=
  (addi : (⟨S2, .i32⟩ : BufTy).Contents (Elt F) → (⟨S2, .i32⟩ : BufTy).Contents (Elt F) → (⟨S2, .i32⟩ : BufTy).Contents (Elt F)) (r_main_c_0 (F := F)) (r_main_v397 (F := F))

def r_main_v399 : (⟨S2, .i32⟩ : BufTy).Contents (Elt F) :=
  (select : (⟨S2, .i1⟩ : BufTy).Contents (Elt F) → (⟨S2, .i32⟩ : BufTy).Contents (Elt F) → (⟨S2, .i32⟩ : BufTy).Contents (Elt F) → (⟨S2, .i32⟩ : BufTy).Contents (Elt F)) (r_main_v396 (F := F)) (r_main_v398 (F := F)) (r_main_c_0 (F := F))

def r_main_v400 : (⟨S2x1, .i32⟩ : BufTy).Contents (Elt F) :=
  (broadcastInDim S2x1 ![0] bcast_S2_S2x1_0 : (⟨S2, .i32⟩ : BufTy).Contents (Elt F) → (⟨S2x1, .i32⟩ : BufTy).Contents (Elt F)) (r_main_v399 (F := F))

def r_main_v401 (X : (⟨S1000000x4, .f32⟩ : BufTy).Contents (Elt F)) : (⟨S1000000x2, .f32⟩ : BufTy).Contents (Elt F) :=
  ((fun x i => Host.gather gather_S1000000x4_S2x1_S1000000x2_0_1_n_n_1_1_10000001 x i) : (⟨S1000000x4, .f32⟩ : BufTy).Contents (Elt F) → (⟨S2x1, .i32⟩ : BufTy).Contents (Elt F) → (⟨S1000000x2, .f32⟩ : BufTy).Contents (Elt F)) X (r_main_v400 (F := F))

def r_main_v402 (X : (⟨S1000000x4, .f32⟩ : BufTy).Contents (Elt F)) : (⟨S1000000x1, .f32⟩ : BufTy).Contents (Elt F) :=
  ((extractStridedSlice S1000000x1 ![0, 0] · slices_S1000000x2_S1000000x1_0_0) : (⟨S1000000x2, .f32⟩ : BufTy).Contents (Elt F) → (⟨S1000000x1, .f32⟩ : BufTy).Contents (Elt F)) (r_main_v401 (F := F) X)

def r_main_v403 (X : (⟨S1000000x4, .f32⟩ : BufTy).Contents (Elt F)) : (⟨S1000000, .f32⟩ : BufTy).Contents (Elt F) :=
  shapeCast _ (r_main_v402 (F := F) X) shapeCasts_S1000000x1_S1000000

def r_main_cst_121 : (⟨S_, .f32⟩ : BufTy).Contents (Elt F) :=
  constant S_ .f32 0x3F800000#32

def r_main_v404 : (⟨S1000000, .f32⟩ : BufTy).Contents (Elt F) :=
  (broadcastInDim S1000000 ![] bcast_S_S1000000 : (⟨S_, .f32⟩ : BufTy).Contents (Elt F) → (⟨S1000000, .f32⟩ : BufTy).Contents (Elt F)) (r_main_cst_121 (F := F))

def r_main_v405 (X : (⟨S1000000x4, .f32⟩ : BufTy).Contents (Elt F)) : (⟨S1000000, .f32⟩ : BufTy).Contents (Elt F) :=
  (addf : (⟨S1000000, .f32⟩ : BufTy).Contents (Elt F) → (⟨S1000000, .f32⟩ : BufTy).Contents (Elt F) → (⟨S1000000, .f32⟩ : BufTy).Contents (Elt F)) (r_main_v403 (F := F) X) (r_main_v404 (F := F))

def r_main_cst_122 : (⟨S_, .f32⟩ : BufTy).Contents (Elt F) :=
  constant S_ .f32 0x3F000000#32

def r_main_v406 : (⟨S1000000, .f32⟩ : BufTy).Contents (Elt F) :=
  (broadcastInDim S1000000 ![] bcast_S_S1000000 : (⟨S_, .f32⟩ : BufTy).Contents (Elt F) → (⟨S1000000, .f32⟩ : BufTy).Contents (Elt F)) (r_main_cst_122 (F := F))

def r_main_v407 (X : (⟨S1000000x4, .f32⟩ : BufTy).Contents (Elt F)) : (⟨S1000000, .f32⟩ : BufTy).Contents (Elt F) :=
  (mulf : (⟨S1000000, .f32⟩ : BufTy).Contents (Elt F) → (⟨S1000000, .f32⟩ : BufTy).Contents (Elt F) → (⟨S1000000, .f32⟩ : BufTy).Contents (Elt F)) (r_main_v405 (F := F) X) (r_main_v406 (F := F))

def r_main_cst_123 : (⟨S_, .f32⟩ : BufTy).Contents (Elt F) :=
  constant S_ .f32 0x437F0000#32

def r_main_v408 : (⟨S1000000, .f32⟩ : BufTy).Contents (Elt F) :=
  (broadcastInDim S1000000 ![] bcast_S_S1000000 : (⟨S_, .f32⟩ : BufTy).Contents (Elt F) → (⟨S1000000, .f32⟩ : BufTy).Contents (Elt F)) (r_main_cst_123 (F := F))

def r_main_v409 (X : (⟨S1000000x4, .f32⟩ : BufTy).Contents (Elt F)) : (⟨S1000000, .f32⟩ : BufTy).Contents (Elt F) :=
  (mulf : (⟨S1000000, .f32⟩ : BufTy).Contents (Elt F) → (⟨S1000000, .f32⟩ : BufTy).Contents (Elt F) → (⟨S1000000, .f32⟩ : BufTy).Contents (Elt F)) (r_main_v407 (F := F) X) (r_main_v408 (F := F))

def r_main_v410 (X : (⟨S1000000x4, .f32⟩ : BufTy).Contents (Elt F)) : (⟨S1000000x1, .f32⟩ : BufTy).Contents (Elt F) :=
  ((extractStridedSlice S1000000x1 ![0, 1] · slices_S1000000x2_S1000000x1_0_1) : (⟨S1000000x2, .f32⟩ : BufTy).Contents (Elt F) → (⟨S1000000x1, .f32⟩ : BufTy).Contents (Elt F)) (r_main_v401 (F := F) X)

def r_main_v411 (X : (⟨S1000000x4, .f32⟩ : BufTy).Contents (Elt F)) : (⟨S1000000, .f32⟩ : BufTy).Contents (Elt F) :=
  shapeCast _ (r_main_v410 (F := F) X) shapeCasts_S1000000x1_S1000000

def r_main_cst_124 : (⟨S_, .f32⟩ : BufTy).Contents (Elt F) :=
  constant S_ .f32 0x3F800000#32

def r_main_v412 : (⟨S1000000, .f32⟩ : BufTy).Contents (Elt F) :=
  (broadcastInDim S1000000 ![] bcast_S_S1000000 : (⟨S_, .f32⟩ : BufTy).Contents (Elt F) → (⟨S1000000, .f32⟩ : BufTy).Contents (Elt F)) (r_main_cst_124 (F := F))

def r_main_v413 (X : (⟨S1000000x4, .f32⟩ : BufTy).Contents (Elt F)) : (⟨S1000000, .f32⟩ : BufTy).Contents (Elt F) :=
  (addf : (⟨S1000000, .f32⟩ : BufTy).Contents (Elt F) → (⟨S1000000, .f32⟩ : BufTy).Contents (Elt F) → (⟨S1000000, .f32⟩ : BufTy).Contents (Elt F)) (r_main_v411 (F := F) X) (r_main_v412 (F := F))

def r_main_cst_125 : (⟨S_, .f32⟩ : BufTy).Contents (Elt F) :=
  constant S_ .f32 0x3F000000#32

def r_main_v414 : (⟨S1000000, .f32⟩ : BufTy).Contents (Elt F) :=
  (broadcastInDim S1000000 ![] bcast_S_S1000000 : (⟨S_, .f32⟩ : BufTy).Contents (Elt F) → (⟨S1000000, .f32⟩ : BufTy).Contents (Elt F)) (r_main_cst_125 (F := F))

def r_main_v415 (X : (⟨S1000000x4, .f32⟩ : BufTy).Contents (Elt F)) : (⟨S1000000, .f32⟩ : BufTy).Contents (Elt F) :=
  (mulf : (⟨S1000000, .f32⟩ : BufTy).Contents (Elt F) → (⟨S1000000, .f32⟩ : BufTy).Contents (Elt F) → (⟨S1000000, .f32⟩ : BufTy).Contents (Elt F)) (r_main_v413 (F := F) X) (r_main_v414 (F := F))

def r_main_cst_126 : (⟨S_, .f32⟩ : BufTy).Contents (Elt F) :=
  constant S_ .f32 0x437F0000#32

def r_main_v416 : (⟨S1000000, .f32⟩ : BufTy).Contents (Elt F) :=
  (broadcastInDim S1000000 ![] bcast_S_S1000000 : (⟨S_, .f32⟩ : BufTy).Contents (Elt F) → (⟨S1000000, .f32⟩ : BufTy).Contents (Elt F)) (r_main_cst_126 (F := F))

def r_main_v417 (X : (⟨S1000000x4, .f32⟩ : BufTy).Contents (Elt F)) : (⟨S1000000, .f32⟩ : BufTy).Contents (Elt F) :=
  (mulf : (⟨S1000000, .f32⟩ : BufTy).Contents (Elt F) → (⟨S1000000, .f32⟩ : BufTy).Contents (Elt F) → (⟨S1000000, .f32⟩ : BufTy).Contents (Elt F)) (r_main_v415 (F := F) X) (r_main_v416 (F := F))

def r_main_v418 (X : (⟨S1000000x4, .f32⟩ : BufTy).Contents (Elt F)) : (⟨S1000000, .f32⟩ : BufTy).Contents (Elt F) :=
  (Host.floor : (⟨S1000000, .f32⟩ : BufTy).Contents (Elt F) → (⟨S1000000, .f32⟩ : BufTy).Contents (Elt F)) (r_main_v409 (F := F) X)

def r_main_c_127 : (⟨S_, .i32⟩ : BufTy).Contents (Elt F) :=
  constantI S_ 32 0#32

def r_main_c_128 : (⟨S_, .i32⟩ : BufTy).Contents (Elt F) :=
  constantI S_ 32 255#32

def r_main_call10_v0 : (⟨S_, .f32⟩ : BufTy).Contents (Elt F) :=
  (sitofp .f32 : (⟨S_, .i32⟩ : BufTy).Contents (Elt F) → (⟨S_, .f32⟩ : BufTy).Contents (Elt F)) (r_main_c_127 (F := F))

def r_main_call10_v1 : (⟨S1000000, .f32⟩ : BufTy).Contents (Elt F) :=
  (broadcastInDim S1000000 ![] bcast_S_S1000000 : (⟨S_, .f32⟩ : BufTy).Contents (Elt F) → (⟨S1000000, .f32⟩ : BufTy).Contents (Elt F)) (r_main_call10_v0 (F := F))

def r_main_call10_v2 (X : (⟨S1000000x4, .f32⟩ : BufTy).Contents (Elt F)) : (⟨S1000000, .f32⟩ : BufTy).Contents (Elt F) :=
  (maximumf : (⟨S1000000, .f32⟩ : BufTy).Contents (Elt F) → (⟨S1000000, .f32⟩ : BufTy).Contents (Elt F) → (⟨S1000000, .f32⟩ : BufTy).Contents (Elt F)) (r_main_call10_v1 (F := F)) (r_main_v418 (F := F) X)

def r_main_call10_v3 : (⟨S_, .f32⟩ : BufTy).Contents (Elt F) :=
  (sitofp .f32 : (⟨S_, .i32⟩ : BufTy).Contents (Elt F) → (⟨S_, .f32⟩ : BufTy).Contents (Elt F)) (r_main_c_128 (F := F))

def r_main_call10_v4 : (⟨S1000000, .f32⟩ : BufTy).Contents (Elt F) :=
  (broadcastInDim S1000000 ![] bcast_S_S1000000 : (⟨S_, .f32⟩ : BufTy).Contents (Elt F) → (⟨S1000000, .f32⟩ : BufTy).Contents (Elt F)) (r_main_call10_v3 (F := F))

def r_main_v419 (X : (⟨S1000000x4, .f32⟩ : BufTy).Contents (Elt F)) : (⟨S1000000, .f32⟩ : BufTy).Contents (Elt F) :=
  (minimumf : (⟨S1000000, .f32⟩ : BufTy).Contents (Elt F) → (⟨S1000000, .f32⟩ : BufTy).Contents (Elt F) → (⟨S1000000, .f32⟩ : BufTy).Contents (Elt F)) (r_main_call10_v4 (F := F)) (r_main_call10_v2 (F := F) X)

def r_main_v420 (X : (⟨S1000000x4, .f32⟩ : BufTy).Contents (Elt F)) : (⟨S1000000, .i32⟩ : BufTy).Contents (Elt F) :=
  (fptosi 32 : (⟨S1000000, .f32⟩ : BufTy).Contents (Elt F) → (⟨S1000000, .i32⟩ : BufTy).Contents (Elt F)) (r_main_v419 (F := F) X)

def r_main_cst_129 : (⟨S_, .f32⟩ : BufTy).Contents (Elt F) :=
  constant S_ .f32 0x3F800000#32

def r_main_v421 : (⟨S1000000, .f32⟩ : BufTy).Contents (Elt F) :=
  (broadcastInDim S1000000 ![] bcast_S_S1000000 : (⟨S_, .f32⟩ : BufTy).Contents (Elt F) → (⟨S1000000, .f32⟩ : BufTy).Contents (Elt F)) (r_main_cst_129 (F := F))

def r_main_v422 (X : (⟨S1000000x4, .f32⟩ : BufTy).Contents (Elt F)) : (⟨S1000000, .f32⟩ : BufTy).Contents (Elt F) :=
  (addf : (⟨S1000000, .f32⟩ : BufTy).Contents (Elt F) → (⟨S1000000, .f32⟩ : BufTy).Contents (Elt F) → (⟨S1000000, .f32⟩ : BufTy).Contents (Elt F)) (r_main_v418 (F := F) X) (r_main_v421 (F := F))

def r_main_c_130 : (⟨S_, .i32⟩ : BufTy).Contents (Elt F) :=
  constantI S_ 32 0#32

def r_main_c_131 : (⟨S_, .i32⟩ : BufTy).Contents (Elt F) :=
  constantI S_ 32 255#32

def r_main_call11_v0 : (⟨S_, .f32⟩ : BufTy).Contents (Elt F) :=
  (sitofp .f32 : (⟨S_, .i32⟩ : BufTy).Contents (Elt F) → (⟨S_, .f32⟩ : BufTy).Contents (Elt F)) (r_main_c_130 (F := F))

def r_main_call11_v1 : (⟨S1000000, .f32⟩ : BufTy).Contents (Elt F) :=
  (broadcastInDim S1000000 ![] bcast_S_S1000000 : (⟨S_, .f32⟩ : BufTy).Contents (Elt F) → (⟨S1000000, .f32⟩ : BufTy).Contents (Elt F)) (r_main_call11_v0 (F := F))

def r_main_call11_v2 (X : (⟨S1000000x4, .f32⟩ : BufTy).Contents (Elt F)) : (⟨S1000000, .f32⟩ : BufTy).Contents (Elt F) :=
  (maximumf : (⟨S1000000, .f32⟩ : BufTy).Contents (Elt F) → (⟨S1000000, .f32⟩ : BufTy).Contents (Elt F) → (⟨S1000000, .f32⟩ : BufTy).Contents (Elt F)) (r_main_call11_v1 (F := F)) (r_main_v422 (F := F) X)

def r_main_call11_v3 : (⟨S_, .f32⟩ : BufTy).Contents (Elt F) :=
  (sitofp .f32 : (⟨S_, .i32⟩ : BufTy).Contents (Elt F) → (⟨S_, .f32⟩ : BufTy).Contents (Elt F)) (r_main_c_131 (F := F))

def r_main_call11_v4 : (⟨S1000000, .f32⟩ : BufTy).Contents (Elt F) :=
  (broadcastInDim S1000000 ![] bcast_S_S1000000 : (⟨S_, .f32⟩ : BufTy).Contents (Elt F) → (⟨S1000000, .f32⟩ : BufTy).Contents (Elt F)) (r_main_call11_v3 (F := F))

def r_main_v423 (X : (⟨S1000000x4, .f32⟩ : BufTy).Contents (Elt F)) : (⟨S1000000, .f32⟩ : BufTy).Contents (Elt F) :=
  (minimumf : (⟨S1000000, .f32⟩ : BufTy).Contents (Elt F) → (⟨S1000000, .f32⟩ : BufTy).Contents (Elt F) → (⟨S1000000, .f32⟩ : BufTy).Contents (Elt F)) (r_main_call11_v4 (F := F)) (r_main_call11_v2 (F := F) X)

def r_main_v424 (X : (⟨S1000000x4, .f32⟩ : BufTy).Contents (Elt F)) : (⟨S1000000, .i32⟩ : BufTy).Contents (Elt F) :=
  (fptosi 32 : (⟨S1000000, .f32⟩ : BufTy).Contents (Elt F) → (⟨S1000000, .i32⟩ : BufTy).Contents (Elt F)) (r_main_v423 (F := F) X)

def r_main_v425 (X : (⟨S1000000x4, .f32⟩ : BufTy).Contents (Elt F)) : (⟨S1000000, .f32⟩ : BufTy).Contents (Elt F) :=
  (subf : (⟨S1000000, .f32⟩ : BufTy).Contents (Elt F) → (⟨S1000000, .f32⟩ : BufTy).Contents (Elt F) → (⟨S1000000, .f32⟩ : BufTy).Contents (Elt F)) (r_main_v409 (F := F) X) (r_main_v418 (F := F) X)

def r_main_v426 (X : (⟨S1000000x4, .f32⟩ : BufTy).Contents (Elt F)) : (⟨S1000000, .f32⟩ : BufTy).Contents (Elt F) :=
  (Host.floor : (⟨S1000000, .f32⟩ : BufTy).Contents (Elt F) → (⟨S1000000, .f32⟩ : BufTy).Contents (Elt F)) (r_main_v417 (F := F) X)

def r_main_c_132 : (⟨S_, .i32⟩ : BufTy).Contents (Elt F) :=
  constantI S_ 32 0#32

def r_main_c_133 : (⟨S_, .i32⟩ : BufTy).Contents (Elt F) :=
  constantI S_ 32 255#32

def r_main_call12_v0 : (⟨S_, .f32⟩ : BufTy).Contents (Elt F) :=
  (sitofp .f32 : (⟨S_, .i32⟩ : BufTy).Contents (Elt F) → (⟨S_, .f32⟩ : BufTy).Contents (Elt F)) (r_main_c_132 (F := F))

def r_main_call12_v1 : (⟨S1000000, .f32⟩ : BufTy).Contents (Elt F) :=
  (broadcastInDim S1000000 ![] bcast_S_S1000000 : (⟨S_, .f32⟩ : BufTy).Contents (Elt F) → (⟨S1000000, .f32⟩ : BufTy).Contents (Elt F)) (r_main_call12_v0 (F := F))

def r_main_call12_v2 (X : (⟨S1000000x4, .f32⟩ : BufTy).Contents (Elt F)) : (⟨S1000000, .f32⟩ : BufTy).Contents (Elt F) :=
  (maximumf : (⟨S1000000, .f32⟩ : BufTy).Contents (Elt F) → (⟨S1000000, .f32⟩ : BufTy).Contents (Elt F) → (⟨S1000000, .f32⟩ : BufTy).Contents (Elt F)) (r_main_call12_v1 (F := F)) (r_main_v426 (F := F) X)

def r_main_call12_v3 : (⟨S_, .f32⟩ : BufTy).Contents (Elt F) :=
  (sitofp .f32 : (⟨S_, .i32⟩ : BufTy).Contents (Elt F) → (⟨S_, .f32⟩ : BufTy).Contents (Elt F)) (r_main_c_133 (F := F))

def r_main_call12_v4 : (⟨S1000000, .f32⟩ : BufTy).Contents (Elt F) :=
  (broadcastInDim S1000000 ![] bcast_S_S1000000 : (⟨S_, .f32⟩ : BufTy).Contents (Elt F) → (⟨S1000000, .f32⟩ : BufTy).Contents (Elt F)) (r_main_call12_v3 (F := F))

def r_main_v427 (X : (⟨S1000000x4, .f32⟩ : BufTy).Contents (Elt F)) : (⟨S1000000, .f32⟩ : BufTy).Contents (Elt F) :=
  (minimumf : (⟨S1000000, .f32⟩ : BufTy).Contents (Elt F) → (⟨S1000000, .f32⟩ : BufTy).Contents (Elt F) → (⟨S1000000, .f32⟩ : BufTy).Contents (Elt F)) (r_main_call12_v4 (F := F)) (r_main_call12_v2 (F := F) X)

def r_main_v428 (X : (⟨S1000000x4, .f32⟩ : BufTy).Contents (Elt F)) : (⟨S1000000, .i32⟩ : BufTy).Contents (Elt F) :=
  (fptosi 32 : (⟨S1000000, .f32⟩ : BufTy).Contents (Elt F) → (⟨S1000000, .i32⟩ : BufTy).Contents (Elt F)) (r_main_v427 (F := F) X)

def r_main_cst_134 : (⟨S_, .f32⟩ : BufTy).Contents (Elt F) :=
  constant S_ .f32 0x3F800000#32

def r_main_v429 : (⟨S1000000, .f32⟩ : BufTy).Contents (Elt F) :=
  (broadcastInDim S1000000 ![] bcast_S_S1000000 : (⟨S_, .f32⟩ : BufTy).Contents (Elt F) → (⟨S1000000, .f32⟩ : BufTy).Contents (Elt F)) (r_main_cst_134 (F := F))

def r_main_v430 (X : (⟨S1000000x4, .f32⟩ : BufTy).Contents (Elt F)) : (⟨S1000000, .f32⟩ : BufTy).Contents (Elt F) :=
  (addf : (⟨S1000000, .f32⟩ : BufTy).Contents (Elt F) → (⟨S1000000, .f32⟩ : BufTy).Contents (Elt F) → (⟨S1000000, .f32⟩ : BufTy).Contents (Elt F)) (r_main_v426 (F := F) X) (r_main_v429 (F := F))

def r_main_c_135 : (⟨S_, .i32⟩ : BufTy).Contents (Elt F) :=
  constantI S_ 32 0#32

def r_main_c_136 : (⟨S_, .i32⟩ : BufTy).Contents (Elt F) :=
  constantI S_ 32 255#32

def r_main_call13_v0 : (⟨S_, .f32⟩ : BufTy).Contents (Elt F) :=
  (sitofp .f32 : (⟨S_, .i32⟩ : BufTy).Contents (Elt F) → (⟨S_, .f32⟩ : BufTy).Contents (Elt F)) (r_main_c_135 (F := F))

def r_main_call13_v1 : (⟨S1000000, .f32⟩ : BufTy).Contents (Elt F) :=
  (broadcastInDim S1000000 ![] bcast_S_S1000000 : (⟨S_, .f32⟩ : BufTy).Contents (Elt F) → (⟨S1000000, .f32⟩ : BufTy).Contents (Elt F)) (r_main_call13_v0 (F := F))

def r_main_call13_v2 (X : (⟨S1000000x4, .f32⟩ : BufTy).Contents (Elt F)) : (⟨S1000000, .f32⟩ : BufTy).Contents (Elt F) :=
  (maximumf : (⟨S1000000, .f32⟩ : BufTy).Contents (Elt F) → (⟨S1000000, .f32⟩ : BufTy).Contents (Elt F) → (⟨S1000000, .f32⟩ : BufTy).Contents (Elt F)) (r_main_call13_v1 (F := F)) (r_main_v430 (F := F) X)

def r_main_call13_v3 : (⟨S_, .f32⟩ : BufTy).Contents (Elt F) :=
  (sitofp .f32 : (⟨S_, .i32⟩ : BufTy).Contents (Elt F) → (⟨S_, .f32⟩ : BufTy).Contents (Elt F)) (r_main_c_136 (F := F))

def r_main_call13_v4 : (⟨S1000000, .f32⟩ : BufTy).Contents (Elt F) :=
  (broadcastInDim S1000000 ![] bcast_S_S1000000 : (⟨S_, .f32⟩ : BufTy).Contents (Elt F) → (⟨S1000000, .f32⟩ : BufTy).Contents (Elt F)) (r_main_call13_v3 (F := F))

def r_main_v431 (X : (⟨S1000000x4, .f32⟩ : BufTy).Contents (Elt F)) : (⟨S1000000, .f32⟩ : BufTy).Contents (Elt F) :=
  (minimumf : (⟨S1000000, .f32⟩ : BufTy).Contents (Elt F) → (⟨S1000000, .f32⟩ : BufTy).Contents (Elt F) → (⟨S1000000, .f32⟩ : BufTy).Contents (Elt F)) (r_main_call13_v4 (F := F)) (r_main_call13_v2 (F := F) X)

def r_main_v432 (X : (⟨S1000000x4, .f32⟩ : BufTy).Contents (Elt F)) : (⟨S1000000, .i32⟩ : BufTy).Contents (Elt F) :=
  (fptosi 32 : (⟨S1000000, .f32⟩ : BufTy).Contents (Elt F) → (⟨S1000000, .i32⟩ : BufTy).Contents (Elt F)) (r_main_v431 (F := F) X)

def r_main_v433 (X : (⟨S1000000x4, .f32⟩ : BufTy).Contents (Elt F)) : (⟨S1000000, .f32⟩ : BufTy).Contents (Elt F) :=
  (subf : (⟨S1000000, .f32⟩ : BufTy).Contents (Elt F) → (⟨S1000000, .f32⟩ : BufTy).Contents (Elt F) → (⟨S1000000, .f32⟩ : BufTy).Contents (Elt F)) (r_main_v417 (F := F) X) (r_main_v426 (F := F) X)

def r_main_cst_137 : (⟨S_, .f32⟩ : BufTy).Contents (Elt F) :=
  constant S_ .f32 0x00000000#32

def r_main_v434 : (⟨S16x1000000, .f32⟩ : BufTy).Contents (Elt F) :=
  (broadcastInDim S16x1000000 ![] bcast_S_S16x1000000 : (⟨S_, .f32⟩ : BufTy).Contents (Elt F) → (⟨S16x1000000, .f32⟩ : BufTy).Contents (Elt F)) (r_main_cst_137 (F := F))

def r_main_cst_138 : (⟨S_, .f32⟩ : BufTy).Contents (Elt F) :=
  constant S_ .f32 0x3F800000#32

def r_main_v435 : (⟨S1000000, .f32⟩ : BufTy).Contents (Elt F) :=
  (broadcastInDim S1000000 ![] bcast_S_S1000000 : (⟨S_, .f32⟩ : BufTy).Contents (Elt F) → (⟨S1000000, .f32⟩ : BufTy).Contents (Elt F)) (r_main_cst_138 (F := F))

def r_main_v436 (X : (⟨S1000000x4, .f32⟩ : BufTy).Contents (Elt F)) : (⟨S1000000, .f32⟩ : BufTy).Contents (Elt F) :=
  (subf : (⟨S1000000, .f32⟩ : BufTy).Contents (Elt F) → (⟨S1000000, .f32⟩ : BufTy).Contents (Elt F) → (⟨S1000000, .f32⟩ : BufTy).Contents (Elt F)) (r_main_v435 (F := F)) (r_main_v433 (F := F) X)

def r_main_cst_139 : (⟨S_, .f32⟩ : BufTy).Contents (Elt F) :=
  constant S_ .f32 0x3F800000#32

def r_main_v437 : (⟨S1000000, .f32⟩ : BufTy).Contents (Elt F) :=
  (broadcastInDim S1000000 ![] bcast_S_S1000000 : (⟨S_, .f32⟩ : BufTy).Contents (Elt F) → (⟨S1000000, .f32⟩ : BufTy).Contents (Elt F)) (r_main_cst_139 (F := F))

def r_main_v438 (X : (⟨S1000000x4, .f32⟩ : BufTy).Contents (Elt F)) : (⟨S1000000, .f32⟩ : BufTy).Contents (Elt F) :=
  (subf : (⟨S1000000, .f32⟩ : BufTy).Contents (Elt F) → (⟨S1000000, .f32⟩ : BufTy).Contents (Elt F) → (⟨S1000000, .f32⟩ : BufTy).Contents (Elt F)) (r_main_v437 (F := F)) (r_main_v425 (F := F) X)

def r_main_c_140 : (⟨S_, .i32⟩ : BufTy).Contents (Elt F) :=
  constantI S_ 32 0#32

def r_main_v439 : (⟨S1000000, .i32⟩ : BufTy).Contents (Elt F) :=
  (broadcastInDim S1000000 ![] bcast_S_S1000000 : (⟨S_, .i32⟩ : BufTy).Contents (Elt F) → (⟨S1000000, .i32⟩ : BufTy).Contents (Elt F)) (r_main_c_140 (F := F))

def r_main_v440 (X : (⟨S1000000x4, .f32⟩ : BufTy).Contents (Elt F)) : (⟨S1000000, .i1⟩ : BufTy).Contents (Elt F) :=
  (cmpi .slt : (⟨S1000000, .i32⟩ : BufTy).Contents (Elt F) → (⟨S1000000, .i32⟩ : BufTy).Contents (Elt F) → (⟨S1000000, .i1⟩ : BufTy).Contents (Elt F)) (r_main_v428 (F := F) X) (r_main_v439 (F := F))

def r_main_c_141 : (⟨S_, .i32⟩ : BufTy).Contents (Elt F) :=
  constantI S_ 32 256#32

def r_main_v441 : (⟨S1000000, .i32⟩ : BufTy).Contents (Elt F) :=
  (broadcastInDim S1000000 ![] bcast_S_S1000000 : (⟨S_, .i32⟩ : BufTy).Contents (Elt F) → (⟨S1000000, .i32⟩ : BufTy).Contents (Elt F)) (r_main_c_141 (F := F))

def r_main_v442 (X : (⟨S1000000x4, .f32⟩ : BufTy).Contents (Elt F)) : (⟨S1000000, .i32⟩ : BufTy).Contents (Elt F) :=
  (addi : (⟨S1000000, .i32⟩ : BufTy).Contents (Elt F) → (⟨S1000000, .i32⟩ : BufTy).Contents (Elt F) → (⟨S1000000, .i32⟩ : BufTy).Contents (Elt F)) (r_main_v428 (F := F) X) (r_main_v441 (F := F))

def r_main_v443 (X : (⟨S1000000x4, .f32⟩ : BufTy).Contents (Elt F)) : (⟨S1000000, .i32⟩ : BufTy).Contents (Elt F) :=
  (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) (r_main_v440 (F := F) X) (r_main_v442 (F := F) X) (r_main_v428 (F := F) X)

def r_main_c_142 : (⟨S_, .i32⟩ : BufTy).Contents (Elt F) :=
  constantI S_ 32 0#32

def r_main_v444 : (⟨S1000000, .i32⟩ : BufTy).Contents (Elt F) :=
  (broadcastInDim S1000000 ![] bcast_S_S1000000 : (⟨S_, .i32⟩ : BufTy).Contents (Elt F) → (⟨S1000000, .i32⟩ : BufTy).Contents (Elt F)) (r_main_c_142 (F := F))

def r_main_v445 (X : (⟨S1000000x4, .f32⟩ : BufTy).Contents (Elt F)) : (⟨S1000000, .i1⟩ : BufTy).Contents (Elt F) :=
  (cmpi .slt : (⟨S1000000, .i32⟩ : BufTy).Contents (Elt F) → (⟨S1000000, .i32⟩ : BufTy).Contents (Elt F) → (⟨S1000000, .i1⟩ : BufTy).Contents (Elt F)) (r_main_v420 (F := F) X) (r_main_v444 (F := F))

def r_main_c_143 : (⟨S_, .i32⟩ : BufTy).Contents (Elt F) :=
  constantI S_ 32 256#32

def r_main_v446 : (⟨S1000000, .i32⟩ : BufTy).Contents (Elt F) :=
  (broadcastInDim S1000000 ![] bcast_S_S1000000 : (⟨S_, .i32⟩ : BufTy).Contents (Elt F) → (⟨S1000000, .i32⟩ : BufTy).Contents (Elt F)) (r_main_c_143 (F := F))

def r_main_v447 (X : (⟨S1000000x4, .f32⟩ : BufTy).Contents (Elt F)) : (⟨S1000000, .i32⟩ : BufTy).Contents (Elt F) :=
  (addi : (⟨S1000000, .i32⟩ : BufTy).Contents (Elt F) → (⟨S1000000, .i32⟩ : BufTy).Contents (Elt F) → (⟨S1000000, .i32⟩ : BufTy).Contents (Elt F)) (r_main_v420 (F := F) X) (r_main_v446 (F := F))

def r_main_v448 (X : (⟨S1000000x4, .f32⟩ : BufTy).Contents (Elt F)) : (⟨S1000000, .i32⟩ : BufTy).Contents (Elt F) :=
  (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) (r_main_v445 (F := F) X) (r_main_v447 (F := F) X) (r_main_v420 (F := F) X)

def r_main_v449 (X : (⟨S1000000x4, .f32⟩ : BufTy).Contents (Elt F)) : (⟨S1000000x1, .i32⟩ : BufTy).Contents (Elt F) :=
  (broadcastInDim S1000000x1 ![0] bcast_S1000000_S1000000x1_0 : (⟨S1000000, .i32⟩ : BufTy).Contents (Elt F) → (⟨S1000000x1, .i32⟩ : BufTy).Contents (Elt F)) (r_main_v443 (F := F) X)

def r_main_v450 (X : (⟨S1000000x4, .f32⟩ : BufTy).Contents (Elt F)) : (⟨S1000000x1, .i32⟩ : BufTy).Contents (Elt F) :=
  (broadcastInDim S1000000x1 ![0] bcast_S1000000_S1000000x1_0 : (⟨S1000000, .i32⟩ : BufTy).Contents (Elt F) → (⟨S1000000x1, .i32⟩ : BufTy).Contents (Elt F)) (r_main_v448 (F := F) X)

def r_main_v451 (X : (⟨S1000000x4, .f32⟩ : BufTy).Contents (Elt F)) : (⟨S1000000x2, .i32⟩ : BufTy).Contents (Elt F) :=
  (cat2 (F := F) : (⟨S1000000x1, .i32⟩ : BufTy).Contents (Elt F) → (⟨S1000000x1, .i32⟩ : BufTy).Contents (Elt F) → (⟨S1000000x2, .i32⟩ : BufTy).Contents (Elt F)) (r_main_v449 (F := F) X) (r_main_v450 (F := F) X)

def r_main_v452 (X : (⟨S1000000x4, .f32⟩ : BufTy).Contents (Elt F)) (P1 : (⟨S16x256x256, .f32⟩ : BufTy).Contents (Elt F)) : (⟨S16x1000000, .f32⟩ : BufTy).Contents (Elt F) :=
  ((fun x i => Host.gather gather_S16x256x256_S1000000x2_S16x1000000_0_12_n_n_12_1_1611 x i) : (⟨S16x256x256, .f32⟩ : BufTy).Contents (Elt F) → (⟨S1000000x2, .i32⟩ : BufTy).Contents (Elt F) → (⟨S16x1000000, .f32⟩ : BufTy).Contents (Elt F)) P1 (r_main_v451 (F := F) X)

def r_main_v453 (X : (⟨S1000000x4, .f32⟩ : BufTy).Contents (Elt F)) : (⟨S1000000, .f32⟩ : BufTy).Contents (Elt F) :=
  (mulf : (⟨S1000000, .f32⟩ : BufTy).Contents (Elt F) → (⟨S1000000, .f32⟩ : BufTy).Contents (Elt F) → (⟨S1000000, .f32⟩ : BufTy).Contents (Elt F)) (r_main_v436 (F := F) X) (r_main_v438 (F := F) X)

def r_main_v454 (X : (⟨S1000000x4, .f32⟩ : BufTy).Contents (Elt F)) : (⟨S1x1000000, .f32⟩ : BufTy).Contents (Elt F) :=
  (broadcastInDim S1x1000000 ![1] bcast_S1000000_S1x1000000_1 : (⟨S1000000, .f32⟩ : BufTy).Contents (Elt F) → (⟨S1x1000000, .f32⟩ : BufTy).Contents (Elt F)) (r_main_v453 (F := F) X)

def r_main_v455 (X : (⟨S1000000x4, .f32⟩ : BufTy).Contents (Elt F)) : (⟨S16x1000000, .f32⟩ : BufTy).Contents (Elt F) :=
  (broadcastInDim S16x1000000 ![0, 1] bcast_S1x1000000_S16x1000000_0_1 : (⟨S1x1000000, .f32⟩ : BufTy).Contents (Elt F) → (⟨S16x1000000, .f32⟩ : BufTy).Contents (Elt F)) (r_main_v454 (F := F) X)

def r_main_v456 (X : (⟨S1000000x4, .f32⟩ : BufTy).Contents (Elt F)) (P1 : (⟨S16x256x256, .f32⟩ : BufTy).Contents (Elt F)) : (⟨S16x1000000, .f32⟩ : BufTy).Contents (Elt F) :=
  (mulf : (⟨S16x1000000, .f32⟩ : BufTy).Contents (Elt F) → (⟨S16x1000000, .f32⟩ : BufTy).Contents (Elt F) → (⟨S16x1000000, .f32⟩ : BufTy).Contents (Elt F)) (r_main_v452 (F := F) X P1) (r_main_v455 (F := F) X)

def r_main_v457 (X : (⟨S1000000x4, .f32⟩ : BufTy).Contents (Elt F)) (P1 : (⟨S16x256x256, .f32⟩ : BufTy).Contents (Elt F)) : (⟨S16x1000000, .f32⟩ : BufTy).Contents (Elt F) :=
  (addf : (⟨S16x1000000, .f32⟩ : BufTy).Contents (Elt F) → (⟨S16x1000000, .f32⟩ : BufTy).Contents (Elt F) → (⟨S16x1000000, .f32⟩ : BufTy).Contents (Elt F)) (r_main_v434 (F := F)) (r_main_v456 (F := F) X P1)

def r_main_c_144 : (⟨S_, .i32⟩ : BufTy).Contents (Elt F) :=
  constantI S_ 32 0#32

def r_main_v458 : (⟨S1000000, .i32⟩ : BufTy).Contents (Elt F) :=
  (broadcastInDim S1000000 ![] bcast_S_S1000000 : (⟨S_, .i32⟩ : BufTy).Contents (Elt F) → (⟨S1000000, .i32⟩ : BufTy).Contents (Elt F)) (r_main_c_144 (F := F))

def r_main_v459 (X : (⟨S1000000x4, .f32⟩ : BufTy).Contents (Elt F)) : (⟨S1000000, .i1⟩ : BufTy).Contents (Elt F) :=
  (cmpi .slt : (⟨S1000000, .i32⟩ : BufTy).Contents (Elt F) → (⟨S1000000, .i32⟩ : BufTy).Contents (Elt F) → (⟨S1000000, .i1⟩ : BufTy).Contents (Elt F)) (r_main_v428 (F := F) X) (r_main_v458 (F := F))

def r_main_c_145 : (⟨S_, .i32⟩ : BufTy).Contents (Elt F) :=
  constantI S_ 32 256#32

def r_main_v460 : (⟨S1000000, .i32⟩ : BufTy).Contents (Elt F) :=
  (broadcastInDim S1000000 ![] bcast_S_S1000000 : (⟨S_, .i32⟩ : BufTy).Contents (Elt F) → (⟨S1000000, .i32⟩ : BufTy).Contents (Elt F)) (r_main_c_145 (F := F))

def r_main_v461 (X : (⟨S1000000x4, .f32⟩ : BufTy).Contents (Elt F)) : (⟨S1000000, .i32⟩ : BufTy).Contents (Elt F) :=
  (addi : (⟨S1000000, .i32⟩ : BufTy).Contents (Elt F) → (⟨S1000000, .i32⟩ : BufTy).Contents (Elt F) → (⟨S1000000, .i32⟩ : BufTy).Contents (Elt F)) (r_main_v428 (F := F) X) (r_main_v460 (F := F))

def r_main_v462 (X : (⟨S1000000x4, .f32⟩ : BufTy).Contents (Elt F)) : (⟨S1000000, .i32⟩ : BufTy).Contents (Elt F) :=
  (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) (r_main_v459 (F := F) X) (r_main_v461 (F := F) X) (r_main_v428 (F := F) X)

def r_main_c_146 : (⟨S_, .i32⟩ : BufTy).Contents (Elt F) :=
  constantI S_ 32 0#32

def r_main_v463 : (⟨S1000000, .i32⟩ : BufTy).Contents (Elt F) :=
  (broadcastInDim S1000000 ![] bcast_S_S1000000 : (⟨S_, .i32⟩ : BufTy).Contents (Elt F) → (⟨S1000000, .i32⟩ : BufTy).Contents (Elt F)) (r_main_c_146 (F := F))

def r_main_v464 (X : (⟨S1000000x4, .f32⟩ : BufTy).Contents (Elt F)) : (⟨S1000000, .i1⟩ : BufTy).Contents (Elt F) :=
  (cmpi .slt : (⟨S1000000, .i32⟩ : BufTy).Contents (Elt F) → (⟨S1000000, .i32⟩ : BufTy).Contents (Elt F) → (⟨S1000000, .i1⟩ : BufTy).Contents (Elt F)) (r_main_v424 (F := F) X) (r_main_v463 (F := F))

def r_main_c_147 : (⟨S_, .i32⟩ : BufTy).Contents (Elt F) :=
  constantI S_ 32 256#32

def r_main_v465 : (⟨S1000000, .i32⟩ : BufTy).Contents (Elt F) :=
  (broadcastInDim S1000000 ![] bcast_S_S1000000 : (⟨S_, .i32⟩ : BufTy).Contents (Elt F) → (⟨S1000000, .i32⟩ : BufTy).Contents (Elt F)) (r_main_c_147 (F := F))

def r_main_v466 (X : (⟨S1000000x4, .f32⟩ : BufTy).Contents (Elt F)) : (⟨S1000000, .i32⟩ : BufTy).Contents (Elt F) :=
  (addi : (⟨S1000000, .i32⟩ : BufTy).Contents (Elt F) → (⟨S1000000, .i32⟩ : BufTy).Contents (Elt F) → (⟨S1000000, .i32⟩ : BufTy).Contents (Elt F)) (r_main_v424 (F := F) X) (r_main_v465 (F := F))

def r_main_v467 (X : (⟨S1000000x4, .f32⟩ : BufTy).Contents (Elt F)) : (⟨S1000000, .i32⟩ : BufTy).Contents (Elt F) :=
  (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) (r_main_v464 (F := F) X) (r_main_v466 (F := F) X) (r_main_v424 (F := F) X)

def r_main_v468 (X : (⟨S1000000x4, .f32⟩ : BufTy).Contents (Elt F)) : (⟨S1000000x1, .i32⟩ : BufTy).Contents (Elt F) :=
  (broadcastInDim S1000000x1 ![0] bcast_S1000000_S1000000x1_0 : (⟨S1000000, .i32⟩ : BufTy).Contents (Elt F) → (⟨S1000000x1, .i32⟩ : BufTy).Contents (Elt F)) (r_main_v462 (F := F) X)

def r_main_v469 (X : (⟨S1000000x4, .f32⟩ : BufTy).Contents (Elt F)) : (⟨S1000000x1, .i32⟩ : BufTy).Contents (Elt F) :=
  (broadcastInDim S1000000x1 ![0] bcast_S1000000_S1000000x1_0 : (⟨S1000000, .i32⟩ : BufTy).Contents (Elt F) → (⟨S1000000x1, .i32⟩ : BufTy).Contents (Elt F)) (r_main_v467 (F := F) X)

def r_main_v470 (X : (⟨S1000000x4, .f32⟩ : BufTy).Contents (Elt F)) : (⟨S1000000x2, .i32⟩ : BufTy).Contents (Elt F) :=
  (cat2 (F := F) : (⟨S1000000x1, .i32⟩ : BufTy).Contents (Elt F) → (⟨S1000000x1, .i32⟩ : BufTy).Contents (Elt F) → (⟨S1000000x2, .i32⟩ : BufTy).Contents (Elt F)) (r_main_v468 (F := F) X) (r_main_v469 (F := F) X)

def r_main_v471 (X : (⟨S1000000x4, .f32⟩ : BufTy).Contents (Elt F)) (P1 : (⟨S16x256x256, .f32⟩ : BufTy).Contents (Elt F)) : (⟨S16x1000000, .f32⟩ : BufTy).Contents (Elt F) :=
  ((fun x i => Host.gather gather_S16x256x256_S1000000x2_S16x1000000_0_12_n_n_12_1_1611 x i) : (⟨S16x256x256, .f32⟩ : BufTy).Contents (Elt F) → (⟨S1000000x2, .i32⟩ : BufTy).Contents (Elt F) → (⟨S16x1000000, .f32⟩ : BufTy).Contents (Elt F)) P1 (r_main_v470 (F := F) X)

def r_main_v472 (X : (⟨S1000000x4, .f32⟩ : BufTy).Contents (Elt F)) : (⟨S1000000, .f32⟩ : BufTy).Contents (Elt F) :=
  (mulf : (⟨S1000000, .f32⟩ : BufTy).Contents (Elt F) → (⟨S1000000, .f32⟩ : BufTy).Contents (Elt F) → (⟨S1000000, .f32⟩ : BufTy).Contents (Elt F)) (r_main_v436 (F := F) X) (r_main_v425 (F := F) X)

def r_main_v473 (X : (⟨S1000000x4, .f32⟩ : BufTy).Contents (Elt F)) : (⟨S1x1000000, .f32⟩ : BufTy).Contents (Elt F) :=
  (broadcastInDim S1x1000000 ![1] bcast_S1000000_S1x1000000_1 : (⟨S1000000, .f32⟩ : BufTy).Contents (Elt F) → (⟨S1x1000000, .f32⟩ : BufTy).Contents (Elt F)) (r_main_v472 (F := F) X)

def r_main_v474 (X : (⟨S1000000x4, .f32⟩ : BufTy).Contents (Elt F)) : (⟨S16x1000000, .f32⟩ : BufTy).Contents (Elt F) :=
  (broadcastInDim S16x1000000 ![0, 1] bcast_S1x1000000_S16x1000000_0_1 : (⟨S1x1000000, .f32⟩ : BufTy).Contents (Elt F) → (⟨S16x1000000, .f32⟩ : BufTy).Contents (Elt F)) (r_main_v473 (F := F) X)

def r_main_v475 (X : (⟨S1000000x4, .f32⟩ : BufTy).Contents (Elt F)) (P1 : (⟨S16x256x256, .f32⟩ : BufTy).Contents (Elt F)) : (⟨S16x1000000, .f32⟩ : BufTy).Contents (Elt F) :=
  (mulf : (⟨S16x1000000, .f32⟩ : BufTy).Contents (Elt F) → (⟨S16x1000000, .f32⟩ : BufTy).Contents (Elt F) → (⟨S16x1000000, .f32⟩ : BufTy).Contents (Elt F)) (r_main_v471 (F := F) X P1) (r_main_v474 (F := F) X)

def r_main_v476 (X : (⟨S1000000x4, .f32⟩ : BufTy).Contents (Elt F)) (P1 : (⟨S16x256x256, .f32⟩ : BufTy).Contents (Elt F)) : (⟨S16x1000000, .f32⟩ : BufTy).Contents (Elt F) :=
  (addf : (⟨S16x1000000, .f32⟩ : BufTy).Contents (Elt F) → (⟨S16x1000000, .f32⟩ : BufTy).Contents (Elt F) → (⟨S16x1000000, .f32⟩ : BufTy).Contents (Elt F)) (r_main_v457 (F := F) X P1) (r_main_v475 (F := F) X P1)

def r_main_cst_148 : (⟨S_, .f32⟩ : BufTy).Contents (Elt F) :=
  constant S_ .f32 0x3F800000#32

def r_main_v477 : (⟨S1000000, .f32⟩ : BufTy).Contents (Elt F) :=
  (broadcastInDim S1000000 ![] bcast_S_S1000000 : (⟨S_, .f32⟩ : BufTy).Contents (Elt F) → (⟨S1000000, .f32⟩ : BufTy).Contents (Elt F)) (r_main_cst_148 (F := F))

def r_main_v478 (X : (⟨S1000000x4, .f32⟩ : BufTy).Contents (Elt F)) : (⟨S1000000, .f32⟩ : BufTy).Contents (Elt F) :=
  (subf : (⟨S1000000, .f32⟩ : BufTy).Contents (Elt F) → (⟨S1000000, .f32⟩ : BufTy).Contents (Elt F) → (⟨S1000000, .f32⟩ : BufTy).Contents (Elt F)) (r_main_v477 (F := F)) (r_main_v425 (F := F) X)

def r_main_c_149 : (⟨S_, .i32⟩ : BufTy).Contents (Elt F) :=
  constantI S_ 32 0#32

def r_main_v479 : (⟨S1000000, .i32⟩ : BufTy).Contents (Elt F) :=
  (broadcastInDim S1000000 ![] bcast_S_S1000000 : (⟨S_, .i32⟩ : BufTy).Contents (Elt F) → (⟨S1000000, .i32⟩ : BufTy).Contents (Elt F)) (r_main_c_149 (F := F))

def r_main_v480 (X : (⟨S1000000x4, .f32⟩ : BufTy).Contents (Elt F)) : (⟨S1000000, .i1⟩ : BufTy).Contents (Elt F) :=
  (cmpi .slt : (⟨S1000000, .i32⟩ : BufTy).Contents (Elt F) → (⟨S1000000, .i32⟩ : BufTy).Contents (Elt F) → (⟨S1000000, .i1⟩ : BufTy).Contents (Elt F)) (r_main_v432 (F := F) X) (r_main_v479 (F := F))

def r_main_c_150 : (⟨S_, .i32⟩ : BufTy).Contents (Elt F) :=
  constantI S_ 32 256#32

def r_main_v481 : (⟨S1000000, .i32⟩ : BufTy).Contents (Elt F) :=
  (broadcastInDim S1000000 ![] bcast_S_S1000000 : (⟨S_, .i32⟩ : BufTy).Contents (Elt F) → (⟨S1000000, .i32⟩ : BufTy).Contents (Elt F)) (r_main_c_150 (F := F))

def r_main_v482 (X : (⟨S1000000x4, .f32⟩ : BufTy).Contents (Elt F)) : (⟨S1000000, .i32⟩ : BufTy).Contents (Elt F) :=
  (addi : (⟨S1000000, .i32⟩ : BufTy).Contents (Elt F) → (⟨S1000000, .i32⟩ : BufTy).Contents (Elt F) → (⟨S1000000, .i32⟩ : BufTy).Contents (Elt F)) (r_main_v432 (F := F) X) (r_main_v481 (F := F))

def r_main_v483 (X : (⟨S1000000x4, .f32⟩ : BufTy).Contents (Elt F)) : (⟨S1000000, .i32⟩ : BufTy).Contents (Elt F) :=
  (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) (r_main_v480 (F := F) X) (r_main_v482 (F := F) X) (r_main_v432 (F := F) X)

def r_main_c_151 : (⟨S_, .i32⟩ : BufTy).Contents (Elt F) :=
  constantI S_ 32 0#32

def r_main_v484 : (⟨S1000000, .i32⟩ : BufTy).Contents (Elt F) :=
  (broadcastInDim S1000000 ![] bcast_S_S1000000 : (⟨S_, .i32⟩ : BufTy).Contents (Elt F) → (⟨S1000000, .i32⟩ : BufTy).Contents (Elt F)) (r_main_c_151 (F := F))

def r_main_v485 (X : (⟨S1000000x4, .f32⟩ : BufTy).Contents (Elt F)) : (⟨S1000000, .i1⟩ : BufTy).Contents (Elt F) :=
  (cmpi .slt : (⟨S1000000, .i32⟩ : BufTy).Contents (Elt F) → (⟨S1000000, .i32⟩ : BufTy).Contents (Elt F) → (⟨S1000000, .i1⟩ : BufTy).Contents (Elt F)) (r_main_v420 (F := F) X) (r_main_v484 (F := F))

def r_main_c_152 : (⟨S_, .i32⟩ : BufTy).Contents (Elt F) :=
  constantI S_ 32 256#32

def r_main_v486 : (⟨S1000000, .i32⟩ : BufTy).Contents (Elt F) :=
  (broadcastInDim S1000000 ![] bcast_S_S1000000 : (⟨S_, .i32⟩ : BufTy).Contents (Elt F) → (⟨S1000000, .i32⟩ : BufTy).Contents (Elt F)) (r_main_c_152 (F := F))

def r_main_v487 (X : (⟨S1000000x4, .f32⟩ : BufTy).Contents (Elt F)) : (⟨S1000000, .i32⟩ : BufTy).Contents (Elt F) :=
  (addi : (⟨S1000000, .i32⟩ : BufTy).Contents (Elt F) → (⟨S1000000, .i32⟩ : BufTy).Contents (Elt F) → (⟨S1000000, .i32⟩ : BufTy).Contents (Elt F)) (r_main_v420 (F := F) X) (r_main_v486 (F := F))

def r_main_v488 (X : (⟨S1000000x4, .f32⟩ : BufTy).Contents (Elt F)) : (⟨S1000000, .i32⟩ : BufTy).Contents (Elt F) :=
  (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) (r_main_v485 (F := F) X) (r_main_v487 (F := F) X) (r_main_v420 (F := F) X)

def r_main_v489 (X : (⟨S1000000x4, .f32⟩ : BufTy).Contents (Elt F)) : (⟨S1000000x1, .i32⟩ : BufTy).Contents (Elt F) :=
  (broadcastInDim S1000000x1 ![0] bcast_S1000000_S1000000x1_0 : (⟨S1000000, .i32⟩ : BufTy).Contents (Elt F) → (⟨S1000000x1, .i32⟩ : BufTy).Contents (Elt F)) (r_main_v483 (F := F) X)

def r_main_v490 (X : (⟨S1000000x4, .f32⟩ : BufTy).Contents (Elt F)) : (⟨S1000000x1, .i32⟩ : BufTy).Contents (Elt F) :=
  (broadcastInDim S1000000x1 ![0] bcast_S1000000_S1000000x1_0 : (⟨S1000000, .i32⟩ : BufTy).Contents (Elt F) → (⟨S1000000x1, .i32⟩ : BufTy).Contents (Elt F)) (r_main_v488 (F := F) X)

def r_main_v491 (X : (⟨S1000000x4, .f32⟩ : BufTy).Contents (Elt F)) : (⟨S1000000x2, .i32⟩ : BufTy).Contents (Elt F) :=
  (cat2 (F := F) : (⟨S1000000x1, .i32⟩ : BufTy).Contents (Elt F) → (⟨S1000000x1, .i32⟩ : BufTy).Contents (Elt F) → (⟨S1000000x2, .i32⟩ : BufTy).Contents (Elt F)) (r_main_v489 (F := F) X) (r_main_v490 (F := F) X)

def r_main_v492 (X : (⟨S1000000x4, .f32⟩ : BufTy).Contents (Elt F)) (P1 : (⟨S16x256x256, .f32⟩ : BufTy).Contents (Elt F)) : (⟨S16x1000000, .f32⟩ : BufTy).Contents (Elt F) :=
  ((fun x i => Host.gather gather_S16x256x256_S1000000x2_S16x1000000_0_12_n_n_12_1_1611 x i) : (⟨S16x256x256, .f32⟩ : BufTy).Contents (Elt F) → (⟨S1000000x2, .i32⟩ : BufTy).Contents (Elt F) → (⟨S16x1000000, .f32⟩ : BufTy).Contents (Elt F)) P1 (r_main_v491 (F := F) X)

def r_main_v493 (X : (⟨S1000000x4, .f32⟩ : BufTy).Contents (Elt F)) : (⟨S1000000, .f32⟩ : BufTy).Contents (Elt F) :=
  (mulf : (⟨S1000000, .f32⟩ : BufTy).Contents (Elt F) → (⟨S1000000, .f32⟩ : BufTy).Contents (Elt F) → (⟨S1000000, .f32⟩ : BufTy).Contents (Elt F)) (r_main_v433 (F := F) X) (r_main_v478 (F := F) X)

def r_main_v494 (X : (⟨S1000000x4, .f32⟩ : BufTy).Contents (Elt F)) : (⟨S1x1000000, .f32⟩ : BufTy).Contents (Elt F) :=
  (broadcastInDim S1x1000000 ![1] bcast_S1000000_S1x1000000_1 : (⟨S1000000, .f32⟩ : BufTy).Contents (Elt F) → (⟨S1x1000000, .f32⟩ : BufTy).Contents (Elt F)) (r_main_v493 (F := F) X)

def r_main_v495 (X : (⟨S1000000x4, .f32⟩ : BufTy).Contents (Elt F)) : (⟨S16x1000000, .f32⟩ : BufTy).Contents (Elt F) :=
  (broadcastInDim S16x1000000 ![0, 1] bcast_S1x1000000_S16x1000000_0_1 : (⟨S1x1000000, .f32⟩ : BufTy).Contents (Elt F) → (⟨S16x1000000, .f32⟩ : BufTy).Contents (Elt F)) (r_main_v494 (F := F) X)

def r_main_v496 (X : (⟨S1000000x4, .f32⟩ : BufTy).Contents (Elt F)) (P1 : (⟨S16x256x256, .f32⟩ : BufTy).Contents (Elt F)) : (⟨S16x1000000, .f32⟩ : BufTy).Contents (Elt F) :=
  (mulf : (⟨S16x1000000, .f32⟩ : BufTy).Contents (Elt F) → (⟨S16x1000000, .f32⟩ : BufTy).Contents (Elt F) → (⟨S16x1000000, .f32⟩ : BufTy).Contents (Elt F)) (r_main_v492 (F := F) X P1) (r_main_v495 (F := F) X)

def r_main_v497 (X : (⟨S1000000x4, .f32⟩ : BufTy).Contents (Elt F)) (P1 : (⟨S16x256x256, .f32⟩ : BufTy).Contents (Elt F)) : (⟨S16x1000000, .f32⟩ : BufTy).Contents (Elt F) :=
  (addf : (⟨S16x1000000, .f32⟩ : BufTy).Contents (Elt F) → (⟨S16x1000000, .f32⟩ : BufTy).Contents (Elt F) → (⟨S16x1000000, .f32⟩ : BufTy).Contents (Elt F)) (r_main_v476 (F := F) X P1) (r_main_v496 (F := F) X P1)

def r_main_c_153 : (⟨S_, .i32⟩ : BufTy).Contents (Elt F) :=
  constantI S_ 32 0#32

def r_main_v498 : (⟨S1000000, .i32⟩ : BufTy).Contents (Elt F) :=
  (broadcastInDim S1000000 ![] bcast_S_S1000000 : (⟨S_, .i32⟩ : BufTy).Contents (Elt F) → (⟨S1000000, .i32⟩ : BufTy).Contents (Elt F)) (r_main_c_153 (F := F))

def r_main_v499 (X : (⟨S1000000x4, .f32⟩ : BufTy).Contents (Elt F)) : (⟨S1000000, .i1⟩ : BufTy).Contents (Elt F) :=
  (cmpi .slt : (⟨S1000000, .i32⟩ : BufTy).Contents (Elt F) → (⟨S1000000, .i32⟩ : BufTy).Contents (Elt F) → (⟨S1000000, .i1⟩ : BufTy).Contents (Elt F)) (r_main_v432 (F := F) X) (r_main_v498 (F := F))

def r_main_c_154 : (⟨S_, .i32⟩ : BufTy).Contents (Elt F) :=
  constantI S_ 32 256#32

def r_main_v500 : (⟨S1000000, .i32⟩ : BufTy).Contents (Elt F) :=
  (broadcastInDim S1000000 ![] bcast_S_S1000000 : (⟨S_, .i32⟩ : BufTy).Contents (Elt F) → (⟨S1000000, .i32⟩ : BufTy).Contents (Elt F)) (r_main_c_154 (F := F))

def r_main_v501 (X : (⟨S1000000x4, .f32⟩ : BufTy).Contents (Elt F)) : (⟨S1000000, .i32⟩ : BufTy).Contents (Elt F) :=
  (addi : (⟨S1000000, .i32⟩ : BufTy).Contents (Elt F) → (⟨S1000000, .i32⟩ : BufTy).Contents (Elt F) → (⟨S1000000, .i32⟩ : BufTy).Contents (Elt F)) (r_main_v432 (F := F) X) (r_main_v500 (F := F))

def r_main_v502 (X : (⟨S1000000x4, .f32⟩ : BufTy).Contents (Elt F)) : (⟨S1000000, .i32⟩ : BufTy).Contents (Elt F) :=
  (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) (r_main_v499 (F := F) X) (r_main_v501 (F := F) X) (r_main_v432 (F := F) X)

def r_main_c_155 : (⟨S_, .i32⟩ : BufTy).Contents (Elt F) :=
  constantI S_ 32 0#32

def r_main_v503 : (⟨S1000000, .i32⟩ : BufTy).Contents (Elt F) :=
  (broadcastInDim S1000000 ![] bcast_S_S1000000 : (⟨S_, .i32⟩ : BufTy).Contents (Elt F) → (⟨S1000000, .i32⟩ : BufTy).Contents (Elt F)) (r_main_c_155 (F := F))

def r_main_v504 (X : (⟨S1000000x4, .f32⟩ : BufTy).Contents (Elt F)) : (⟨S1000000, .i1⟩ : BufTy).Contents (Elt F) :=
  (cmpi .slt : (⟨S1000000, .i32⟩ : BufTy).Contents (Elt F) → (⟨S1000000, .i32⟩ : BufTy).Contents (Elt F) → (⟨S1000000, .i1⟩ : BufTy).Contents (Elt F)) (r_main_v424 (F := F) X) (r_main_v503 (F := F))

def r_main_c_156 : (⟨S_, .i32⟩ : BufTy).Contents (Elt F) :=
  constantI S_ 32 256#32

def r_main_v505 : (⟨S1000000, .i32⟩ : BufTy).Contents (Elt F) :=
  (broadcastInDim S1000000 ![] bcast_S_S1000000 : (⟨S_, .i32⟩ : BufTy).Contents (Elt F) → (⟨S1000000, .i32⟩ : BufTy).Contents (Elt F)) (r_main_c_156 (F := F))

def r_main_v506 (X : (⟨S1000000x4, .f32⟩ : BufTy).Contents (Elt F)) : (⟨S1000000, .i32⟩ : BufTy).Contents (Elt F) :=
  (addi : (⟨S1000000, .i32⟩ : BufTy).Contents (Elt F) → (⟨S1000000, .i32⟩ : BufTy).Contents (Elt F) → (⟨S1000000, .i32⟩ : BufTy).Contents (Elt F)) (r_main_v424 (F := F) X) (r_main_v505 (F := F))

def r_main_v507 (X : (⟨S1000000x4, .f32⟩ : BufTy).Contents (Elt F)) : (⟨S1000000, .i32⟩ : BufTy).Contents (Elt F) :=
  (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) (r_main_v504 (F := F) X) (r_main_v506 (F := F) X) (r_main_v424 (F := F) X)

def r_main_v508 (X : (⟨S1000000x4, .f32⟩ : BufTy).Contents (Elt F)) : (⟨S1000000x1, .i32⟩ : BufTy).Contents (Elt F) :=
  (broadcastInDim S1000000x1 ![0] bcast_S1000000_S1000000x1_0 : (⟨S1000000, .i32⟩ : BufTy).Contents (Elt F) → (⟨S1000000x1, .i32⟩ : BufTy).Contents (Elt F)) (r_main_v502 (F := F) X)

def r_main_v509 (X : (⟨S1000000x4, .f32⟩ : BufTy).Contents (Elt F)) : (⟨S1000000x1, .i32⟩ : BufTy).Contents (Elt F) :=
  (broadcastInDim S1000000x1 ![0] bcast_S1000000_S1000000x1_0 : (⟨S1000000, .i32⟩ : BufTy).Contents (Elt F) → (⟨S1000000x1, .i32⟩ : BufTy).Contents (Elt F)) (r_main_v507 (F := F) X)

def r_main_v510 (X : (⟨S1000000x4, .f32⟩ : BufTy).Contents (Elt F)) : (⟨S1000000x2, .i32⟩ : BufTy).Contents (Elt F) :=
  (cat2 (F := F) : (⟨S1000000x1, .i32⟩ : BufTy).Contents (Elt F) → (⟨S1000000x1, .i32⟩ : BufTy).Contents (Elt F) → (⟨S1000000x2, .i32⟩ : BufTy).Contents (Elt F)) (r_main_v508 (F := F) X) (r_main_v509 (F := F) X)

def r_main_v511 (X : (⟨S1000000x4, .f32⟩ : BufTy).Contents (Elt F)) (P1 : (⟨S16x256x256, .f32⟩ : BufTy).Contents (Elt F)) : (⟨S16x1000000, .f32⟩ : BufTy).Contents (Elt F) :=
  ((fun x i => Host.gather gather_S16x256x256_S1000000x2_S16x1000000_0_12_n_n_12_1_1611 x i) : (⟨S16x256x256, .f32⟩ : BufTy).Contents (Elt F) → (⟨S1000000x2, .i32⟩ : BufTy).Contents (Elt F) → (⟨S16x1000000, .f32⟩ : BufTy).Contents (Elt F)) P1 (r_main_v510 (F := F) X)

def r_main_v512 (X : (⟨S1000000x4, .f32⟩ : BufTy).Contents (Elt F)) : (⟨S1000000, .f32⟩ : BufTy).Contents (Elt F) :=
  (mulf : (⟨S1000000, .f32⟩ : BufTy).Contents (Elt F) → (⟨S1000000, .f32⟩ : BufTy).Contents (Elt F) → (⟨S1000000, .f32⟩ : BufTy).Contents (Elt F)) (r_main_v433 (F := F) X) (r_main_v425 (F := F) X)

def r_main_v513 (X : (⟨S1000000x4, .f32⟩ : BufTy).Contents (Elt F)) : (⟨S1x1000000, .f32⟩ : BufTy).Contents (Elt F) :=
  (broadcastInDim S1x1000000 ![1] bcast_S1000000_S1x1000000_1 : (⟨S1000000, .f32⟩ : BufTy).Contents (Elt F) → (⟨S1x1000000, .f32⟩ : BufTy).Contents (Elt F)) (r_main_v512 (F := F) X)

def r_main_v514 (X : (⟨S1000000x4, .f32⟩ : BufTy).Contents (Elt F)) : (⟨S16x1000000, .f32⟩ : BufTy).Contents (Elt F) :=
  (broadcastInDim S16x1000000 ![0, 1] bcast_S1x1000000_S16x1000000_0_1 : (⟨S1x1000000, .f32⟩ : BufTy).Contents (Elt F) → (⟨S16x1000000, .f32⟩ : BufTy).Contents (Elt F)) (r_main_v513 (F := F) X)

def r_main_v515 (X : (⟨S1000000x4, .f32⟩ : BufTy).Contents (Elt F)) (P1 : (⟨S16x256x256, .f32⟩ : BufTy).Contents (Elt F)) : (⟨S16x1000000, .f32⟩ : BufTy).Contents (Elt F) :=
  (mulf : (⟨S16x1000000, .f32⟩ : BufTy).Contents (Elt F) → (⟨S16x1000000, .f32⟩ : BufTy).Contents (Elt F) → (⟨S16x1000000, .f32⟩ : BufTy).Contents (Elt F)) (r_main_v511 (F := F) X P1) (r_main_v514 (F := F) X)

def r_main_v516 (X : (⟨S1000000x4, .f32⟩ : BufTy).Contents (Elt F)) (P1 : (⟨S16x256x256, .f32⟩ : BufTy).Contents (Elt F)) : (⟨S16x1000000, .f32⟩ : BufTy).Contents (Elt F) :=
  (addf : (⟨S16x1000000, .f32⟩ : BufTy).Contents (Elt F) → (⟨S16x1000000, .f32⟩ : BufTy).Contents (Elt F) → (⟨S16x1000000, .f32⟩ : BufTy).Contents (Elt F)) (r_main_v497 (F := F) X P1) (r_main_v515 (F := F) X P1)

def r_main_v517 (X : (⟨S1000000x4, .f32⟩ : BufTy).Contents (Elt F)) (G : (⟨S16x128x128x128, .f32⟩ : BufTy).Contents (Elt F)) (P0 : (⟨S16x256x256, .f32⟩ : BufTy).Contents (Elt F)) (P1 : (⟨S16x256x256, .f32⟩ : BufTy).Contents (Elt F)) : (⟨S16x1000000, .f32⟩ : BufTy).Contents (Elt F) :=
  (mulf : (⟨S16x1000000, .f32⟩ : BufTy).Contents (Elt F) → (⟨S16x1000000, .f32⟩ : BufTy).Contents (Elt F) → (⟨S16x1000000, .f32⟩ : BufTy).Contents (Elt F)) (r_main_v394 (F := F) X G P0) (r_main_v516 (F := F) X P1)

def r_main_c_157 : (⟨S_, .i32⟩ : BufTy).Contents (Elt F) :=
  constantI S_ 32 0#32

def r_main_v518 : (⟨S2, .i32⟩ : BufTy).Contents (Elt F) :=
  (broadcastInDim S2 ![] bcast_S_S2 : (⟨S_, .i32⟩ : BufTy).Contents (Elt F) → (⟨S2, .i32⟩ : BufTy).Contents (Elt F)) (r_main_c_157 (F := F))

def r_main_v519 : (⟨S2, .i1⟩ : BufTy).Contents (Elt F) :=
  (cmpi .slt : (⟨S2, .i32⟩ : BufTy).Contents (Elt F) → (⟨S2, .i32⟩ : BufTy).Contents (Elt F) → (⟨S2, .i1⟩ : BufTy).Contents (Elt F)) (r_main_c_1 (F := F)) (r_main_v518 (F := F))

def r_main_c_158 : (⟨S_, .i32⟩ : BufTy).Contents (Elt F) :=
  constantI S_ 32 4#32

def r_main_v520 : (⟨S2, .i32⟩ : BufTy).Contents (Elt F) :=
  (broadcastInDim S2 ![] bcast_S_S2 : (⟨S_, .i32⟩ : BufTy).Contents (Elt F) → (⟨S2, .i32⟩ : BufTy).Contents (Elt F)) (r_main_c_158 (F := F))

def r_main_v521 : (⟨S2, .i32⟩ : BufTy).Contents (Elt F) :=
  (addi : (⟨S2, .i32⟩ : BufTy).Contents (Elt F) → (⟨S2, .i32⟩ : BufTy).Contents (Elt F) → (⟨S2, .i32⟩ : BufTy).Contents (Elt F)) (r_main_c_1 (F := F)) (r_main_v520 (F := F))

def r_main_v522 : (⟨S2, .i32⟩ : BufTy).Contents (Elt F) :=
  (select : (⟨S2, .i1⟩ : BufTy).Contents (Elt F) → (⟨S2, .i32⟩ : BufTy).Contents (Elt F) → (⟨S2, .i32⟩ : BufTy).Contents (Elt F) → (⟨S2, .i32⟩ : BufTy).Contents (Elt F)) (r_main_v519 (F := F)) (r_main_v521 (F := F)) (r_main_c_1 (F := F))

def r_main_v523 : (⟨S2x1, .i32⟩ : BufTy).Contents (Elt F) :=
  (broadcastInDim S2x1 ![0] bcast_S2_S2x1_0 : (⟨S2, .i32⟩ : BufTy).Contents (Elt F) → (⟨S2x1, .i32⟩ : BufTy).Contents (Elt F)) (r_main_v522 (F := F))

def r_main_v524 (X : (⟨S1000000x4, .f32⟩ : BufTy).Contents (Elt F)) : (⟨S1000000x2, .f32⟩ : BufTy).Contents (Elt F) :=
  ((fun x i => Host.gather gather_S1000000x4_S2x1_S1000000x2_0_1_n_n_1_1_10000001 x i) : (⟨S1000000x4, .f32⟩ : BufTy).Contents (Elt F) → (⟨S2x1, .i32⟩ : BufTy).Contents (Elt F) → (⟨S1000000x2, .f32⟩ : BufTy).Contents (Elt F)) X (r_main_v523 (F := F))

def r_main_v525 (X : (⟨S1000000x4, .f32⟩ : BufTy).Contents (Elt F)) : (⟨S1000000x1, .f32⟩ : BufTy).Contents (Elt F) :=
  ((extractStridedSlice S1000000x1 ![0, 0] · slices_S1000000x2_S1000000x1_0_0) : (⟨S1000000x2, .f32⟩ : BufTy).Contents (Elt F) → (⟨S1000000x1, .f32⟩ : BufTy).Contents (Elt F)) (r_main_v524 (F := F) X)

def r_main_v526 (X : (⟨S1000000x4, .f32⟩ : BufTy).Contents (Elt F)) : (⟨S1000000, .f32⟩ : BufTy).Contents (Elt F) :=
  shapeCast _ (r_main_v525 (F := F) X) shapeCasts_S1000000x1_S1000000

def r_main_cst_159 : (⟨S_, .f32⟩ : BufTy).Contents (Elt F) :=
  constant S_ .f32 0x3F800000#32

def r_main_v527 : (⟨S1000000, .f32⟩ : BufTy).Contents (Elt F) :=
  (broadcastInDim S1000000 ![] bcast_S_S1000000 : (⟨S_, .f32⟩ : BufTy).Contents (Elt F) → (⟨S1000000, .f32⟩ : BufTy).Contents (Elt F)) (r_main_cst_159 (F := F))

def r_main_v528 (X : (⟨S1000000x4, .f32⟩ : BufTy).Contents (Elt F)) : (⟨S1000000, .f32⟩ : BufTy).Contents (Elt F) :=
  (addf : (⟨S1000000, .f32⟩ : BufTy).Contents (Elt F) → (⟨S1000000, .f32⟩ : BufTy).Contents (Elt F) → (⟨S1000000, .f32⟩ : BufTy).Contents (Elt F)) (r_main_v526 (F := F) X) (r_main_v527 (F := F))

def r_main_cst_160 : (⟨S_, .f32⟩ : BufTy).Contents (Elt F) :=
  constant S_ .f32 0x3F000000#32

def r_main_v529 : (⟨S1000000, .f32⟩ : BufTy).Contents (Elt F) :=
  (broadcastInDim S1000000 ![] bcast_S_S1000000 : (⟨S_, .f32⟩ : BufTy).Contents (Elt F) → (⟨S1000000, .f32⟩ : BufTy).Contents (Elt F)) (r_main_cst_160 (F := F))

def r_main_v530 (X : (⟨S1000000x4, .f32⟩ : BufTy).Contents (Elt F)) : (⟨S1000000, .f32⟩ : BufTy).Contents (Elt F) :=
  (mulf : (⟨S1000000, .f32⟩ : BufTy).Contents (Elt F) → (⟨S1000000, .f32⟩ : BufTy).Contents (Elt F) → (⟨S1000000, .f32⟩ : BufTy).Contents (Elt F)) (r_main_v528 (F := F) X) (r_main_v529 (F := F))

def r_main_cst_161 : (⟨S_, .f32⟩ : BufTy).Contents (Elt F) :=
  constant S_ .f32 0x437F0000#32

def r_main_v531 : (⟨S1000000, .f32⟩ : BufTy).Contents (Elt F) :=
  (broadcastInDim S1000000 ![] bcast_S_S1000000 : (⟨S_, .f32⟩ : BufTy).Contents (Elt F) → (⟨S1000000, .f32⟩ : BufTy).Contents (Elt F)) (r_main_cst_161 (F := F))

def r_main_v532 (X : (⟨S1000000x4, .f32⟩ : BufTy).Contents (Elt F)) : (⟨S1000000, .f32⟩ : BufTy).Contents (Elt F) :=
  (mulf : (⟨S1000000, .f32⟩ : BufTy).Contents (Elt F) → (⟨S1000000, .f32⟩ : BufTy).Contents (Elt F) → (⟨S1000000, .f32⟩ : BufTy).Contents (Elt F)) (r_main_v530 (F := F) X) (r_main_v531 (F := F))

def r_main_v533 (X : (⟨S1000000x4, .f32⟩ : BufTy).Contents (Elt F)) : (⟨S1000000x1, .f32⟩ : BufTy).Contents (Elt F) :=
  ((extractStridedSlice S1000000x1 ![0, 1] · slices_S1000000x2_S1000000x1_0_1) : (⟨S1000000x2, .f32⟩ : BufTy).Contents (Elt F) → (⟨S1000000x1, .f32⟩ : BufTy).Contents (Elt F)) (r_main_v524 (F := F) X)

def r_main_v534 (X : (⟨S1000000x4, .f32⟩ : BufTy).Contents (Elt F)) : (⟨S1000000, .f32⟩ : BufTy).Contents (Elt F) :=
  shapeCast _ (r_main_v533 (F := F) X) shapeCasts_S1000000x1_S1000000

def r_main_cst_162 : (⟨S_, .f32⟩ : BufTy).Contents (Elt F) :=
  constant S_ .f32 0x3F800000#32

def r_main_v535 : (⟨S1000000, .f32⟩ : BufTy).Contents (Elt F) :=
  (broadcastInDim S1000000 ![] bcast_S_S1000000 : (⟨S_, .f32⟩ : BufTy).Contents (Elt F) → (⟨S1000000, .f32⟩ : BufTy).Contents (Elt F)) (r_main_cst_162 (F := F))

def r_main_v536 (X : (⟨S1000000x4, .f32⟩ : BufTy).Contents (Elt F)) : (⟨S1000000, .f32⟩ : BufTy).Contents (Elt F) :=
  (addf : (⟨S1000000, .f32⟩ : BufTy).Contents (Elt F) → (⟨S1000000, .f32⟩ : BufTy).Contents (Elt F) → (⟨S1000000, .f32⟩ : BufTy).Contents (Elt F)) (r_main_v534 (F := F) X) (r_main_v535 (F := F))

def r_main_cst_163 : (⟨S_, .f32⟩ : BufTy).Contents (Elt F) :=
  constant S_ .f32 0x3F000000#32

def r_main_v537 : (⟨S1000000, .f32⟩ : BufTy).Contents (Elt F) :=
  (broadcastInDim S1000000 ![] bcast_S_S1000000 : (⟨S_, .f32⟩ : BufTy).Contents (Elt F) → (⟨S1000000, .f32⟩ : BufTy).Contents (Elt F)) (r_main_cst_163 (F := F))

def r_main_v538 (X : (⟨S1000000x4, .f32⟩ : BufTy).Contents (Elt F)) : (⟨S1000000, .f32⟩ : BufTy).Contents (Elt F) :=
  (mulf : (⟨S1000000, .f32⟩ : BufTy).Contents (Elt F) → (⟨S1000000, .f32⟩ : BufTy).Contents (Elt F) → (⟨S1000000, .f32⟩ : BufTy).Contents (Elt F)) (r_main_v536 (F := F) X) (r_main_v537 (F := F))

def r_main_cst_164 : (⟨S_, .f32⟩ : BufTy).Contents (Elt F) :=
  constant S_ .f32 0x437F0000#32

def r_main_v539 : (⟨S1000000, .f32⟩ : BufTy).Contents (Elt F) :=
  (broadcastInDim S1000000 ![] bcast_S_S1000000 : (⟨S_, .f32⟩ : BufTy).Contents (Elt F) → (⟨S1000000, .f32⟩ : BufTy).Contents (Elt F)) (r_main_cst_164 (F := F))

def r_main_v540 (X : (⟨S1000000x4, .f32⟩ : BufTy).Contents (Elt F)) : (⟨S1000000, .f32⟩ : BufTy).Contents (Elt F) :=
  (mulf : (⟨S1000000, .f32⟩ : BufTy).Contents (Elt F) → (⟨S1000000, .f32⟩ : BufTy).Contents (Elt F) → (⟨S1000000, .f32⟩ : BufTy).Contents (Elt F)) (r_main_v538 (F := F) X) (r_main_v539 (F := F))

def r_main_v541 (X : (⟨S1000000x4, .f32⟩ : BufTy).Contents (Elt F)) : (⟨S1000000, .f32⟩ : BufTy).Contents (Elt F) :=
  (Host.floor : (⟨S1000000, .f32⟩ : BufTy).Contents (Elt F) → (⟨S1000000, .f32⟩ : BufTy).Contents (Elt F)) (r_main_v532 (F := F) X)

def r_main_c_165 : (⟨S_, .i32⟩ : BufTy).Contents (Elt F) :=
  constantI S_ 32 0#32

def r_main_c_166 : (⟨S_, .i32⟩ : BufTy).Contents (Elt F) :=
  constantI S_ 32 255#32

def r_main_call14_v0 : (⟨S_, .f32⟩ : BufTy).Contents (Elt F) :=
  (sitofp .f32 : (⟨S_, .i32⟩ : BufTy).Contents (Elt F) → (⟨S_, .f32⟩ : BufTy).Contents (Elt F)) (r_main_c_165 (F := F))

def r_main_call14_v1 : (⟨S1000000, .f32⟩ : BufTy).Contents (Elt F) :=
  (broadcastInDim S1000000 ![] bcast_S_S1000000 : (⟨S_, .f32⟩ : BufTy).Contents (Elt F) → (⟨S1000000, .f32⟩ : BufTy).Contents (Elt F)) (r_main_call14_v0 (F := F))

def r_main_call14_v2 (X : (⟨S1000000x4, .f32⟩ : BufTy).Contents (Elt F)) : (⟨S1000000, .f32⟩ : BufTy).Contents (Elt F) :=
  (maximumf : (⟨S1000000, .f32⟩ : BufTy).Contents (Elt F) → (⟨S1000000, .f32⟩ : BufTy).Contents (Elt F) → (⟨S1000000, .f32⟩ : BufTy).Contents (Elt F)) (r_main_call14_v1 (F := F)) (r_main_v541 (F := F) X)

def r_main_call14_v3 : (⟨S_, .f32⟩ : BufTy).Contents (Elt F) :=
  (sitofp .f32 : (⟨S_, .i32⟩ : BufTy).Contents (Elt F) → (⟨S_, .f32⟩ : BufTy).Contents (Elt F)) (r_main_c_166 (F := F))

def r_main_call14_v4 : (⟨S1000000, .f32⟩ : BufTy).Contents (Elt F) :=
  (broadcastInDim S1000000 ![] bcast_S_S1000000 : (⟨S_, .f32⟩ : BufTy).Contents (Elt F) → (⟨S1000000, .f32⟩ : BufTy).Contents (Elt F)) (r_main_call14_v3 (F := F))

def r_main_v542 (X : (⟨S1000000x4, .f32⟩ : BufTy).Contents (Elt F)) : (⟨S1000000, .f32⟩ : BufTy).Contents (Elt F) :=
  (minimumf : (⟨S1000000, .f32⟩ : BufTy).Contents (Elt F) → (⟨S1000000, .f32⟩ : BufTy).Contents (Elt F) → (⟨S1000000, .f32⟩ : BufTy).Contents (Elt F)) (r_main_call14_v4 (F := F)) (r_main_call14_v2 (F := F) X)

def r_main_v543 (X : (⟨S1000000x4, .f32⟩ : BufTy).Contents (Elt F)) : (⟨S1000000, .i32⟩ : BufTy).Contents (Elt F) :=
  (fptosi 32 : (⟨S1000000, .f32⟩ : BufTy).Contents (Elt F) → (⟨S1000000, .i32⟩ : BufTy).Contents (Elt F)) (r_main_v542 (F := F) X)

def r_main_cst_167 : (⟨S_, .f32⟩ : BufTy).Contents (Elt F) :=
  constant S_ .f32 0x3F800000#32

def r_main_v544 : (⟨S1000000, .f32⟩ : BufTy).Contents (Elt F) :=
  (broadcastInDim S1000000 ![] bcast_S_S1000000 : (⟨S_, .f32⟩ : BufTy).Contents (Elt F) → (⟨S1000000, .f32⟩ : BufTy).Contents (Elt F)) (r_main_cst_167 (F := F))

def r_main_v545 (X : (⟨S1000000x4, .f32⟩ : BufTy).Contents (Elt F)) : (⟨S1000000, .f32⟩ : BufTy).Contents (Elt F) :=
  (addf : (⟨S1000000, .f32⟩ : BufTy).Contents (Elt F) → (⟨S1000000, .f32⟩ : BufTy).Contents (Elt F) → (⟨S1000000, .f32⟩ : BufTy).Contents (Elt F)) (r_main_v541 (F := F) X) (r_main_v544 (F := F))

def r_main_c_168 : (⟨S_, .i32⟩ : BufTy).Contents (Elt F) :=
  constantI S_ 32 0#32

def r_main_c_169 : (⟨S_, .i32⟩ : BufTy).Contents (Elt F) :=
  constantI S_ 32 255#32

def r_main_call15_v0 : (⟨S_, .f32⟩ : BufTy).Contents (Elt F) :=
  (sitofp .f32 : (⟨S_, .i32⟩ : BufTy).Contents (Elt F) → (⟨S_, .f32⟩ : BufTy).Contents (Elt F)) (r_main_c_168 (F := F))

def r_main_call15_v1 : (⟨S1000000, .f32⟩ : BufTy).Contents (Elt F) :=
  (broadcastInDim S1000000 ![] bcast_S_S1000000 : (⟨S_, .f32⟩ : BufTy).Contents (Elt F) → (⟨S1000000, .f32⟩ : BufTy).Contents (Elt F)) (r_main_call15_v0 (F := F))

def r_main_call15_v2 (X : (⟨S1000000x4, .f32⟩ : BufTy).Contents (Elt F)) : (⟨S1000000, .f32⟩ : BufTy).Contents (Elt F) :=
  (maximumf : (⟨S1000000, .f32⟩ : BufTy).Contents (Elt F) → (⟨S1000000, .f32⟩ : BufTy).Contents (Elt F) → (⟨S1000000, .f32⟩ : BufTy).Contents (Elt F)) (r_main_call15_v1 (F := F)) (r_main_v545 (F := F) X)

def r_main_call15_v3 : (⟨S_, .f32⟩ : BufTy).Contents (Elt F) :=
  (sitofp .f32 : (⟨S_, .i32⟩ : BufTy).Contents (Elt F) → (⟨S_, .f32⟩ : BufTy).Contents (Elt F)) (r_main_c_169 (F := F))

def r_main_call15_v4 : (⟨S1000000, .f32⟩ : BufTy).Contents (Elt F) :=
  (broadcastInDim S1000000 ![] bcast_S_S1000000 : (⟨S_, .f32⟩ : BufTy).Contents (Elt F) → (⟨S1000000, .f32⟩ : BufTy).Contents (Elt F)) (r_main_call15_v3 (F := F))

def r_main_v546 (X : (⟨S1000000x4, .f32⟩ : BufTy).Contents (Elt F)) : (⟨S1000000, .f32⟩ : BufTy).Contents (Elt F) :=
  (minimumf : (⟨S1000000, .f32⟩ : BufTy).Contents (Elt F) → (⟨S1000000, .f32⟩ : BufTy).Contents (Elt F) → (⟨S1000000, .f32⟩ : BufTy).Contents (Elt F)) (r_main_call15_v4 (F := F)) (r_main_call15_v2 (F := F) X)

def r_main_v547 (X : (⟨S1000000x4, .f32⟩ : BufTy).Contents (Elt F)) : (⟨S1000000, .i32⟩ : BufTy).Contents (Elt F) :=
  (fptosi 32 : (⟨S1000000, .f32⟩ : BufTy).Contents (Elt F) → (⟨S1000000, .i32⟩ : BufTy).Contents (Elt F)) (r_main_v546 (F := F) X)

def r_main_v548 (X : (⟨S1000000x4, .f32⟩ : BufTy).Contents (Elt F)) : (⟨S1000000, .f32⟩ : BufTy).Contents (Elt F) :=
  (subf : (⟨S1000000, .f32⟩ : BufTy).Contents (Elt F) → (⟨S1000000, .f32⟩ : BufTy).Contents (Elt F) → (⟨S1000000, .f32⟩ : BufTy).Contents (Elt F)) (r_main_v532 (F := F) X) (r_main_v541 (F := F) X)

def r_main_v549 (X : (⟨S1000000x4, .f32⟩ : BufTy).Contents (Elt F)) : (⟨S1000000, .f32⟩ : BufTy).Contents (Elt F) :=
  (Host.floor : (⟨S1000000, .f32⟩ : BufTy).Contents (Elt F) → (⟨S1000000, .f32⟩ : BufTy).Contents (Elt F)) (r_main_v540 (F := F) X)

def r_main_c_170 : (⟨S_, .i32⟩ : BufTy).Contents (Elt F) :=
  constantI S_ 32 0#32

def r_main_c_171 : (⟨S_, .i32⟩ : BufTy).Contents (Elt F) :=
  constantI S_ 32 255#32

def r_main_call16_v0 : (⟨S_, .f32⟩ : BufTy).Contents (Elt F) :=
  (sitofp .f32 : (⟨S_, .i32⟩ : BufTy).Contents (Elt F) → (⟨S_, .f32⟩ : BufTy).Contents (Elt F)) (r_main_c_170 (F := F))

def r_main_call16_v1 : (⟨S1000000, .f32⟩ : BufTy).Contents (Elt F) :=
  (broadcastInDim S1000000 ![] bcast_S_S1000000 : (⟨S_, .f32⟩ : BufTy).Contents (Elt F) → (⟨S1000000, .f32⟩ : BufTy).Contents (Elt F)) (r_main_call16_v0 (F := F))

def r_main_call16_v2 (X : (⟨S1000000x4, .f32⟩ : BufTy).Contents (Elt F)) : (⟨S1000000, .f32⟩ : BufTy).Contents (Elt F) :=
  (maximumf : (⟨S1000000, .f32⟩ : BufTy).Contents (Elt F) → (⟨S1000000, .f32⟩ : BufTy).Contents (Elt F) → (⟨S1000000, .f32⟩ : BufTy).Contents (Elt F)) (r_main_call16_v1 (F := F)) (r_main_v549 (F := F) X)

def r_main_call16_v3 : (⟨S_, .f32⟩ : BufTy).Contents (Elt F) :=
  (sitofp .f32 : (⟨S_, .i32⟩ : BufTy).Contents (Elt F) → (⟨S_, .f32⟩ : BufTy).Contents (Elt F)) (r_main_c_171 (F := F))

def r_main_call16_v4 : (⟨S1000000, .f32⟩ : BufTy).Contents (Elt F) :=
  (broadcastInDim S1000000 ![] bcast_S_S1000000 : (⟨S_, .f32⟩ : BufTy).Contents (Elt F) → (⟨S1000000, .f32⟩ : BufTy).Contents (Elt F)) (r_main_call16_v3 (F := F))

def r_main_v550 (X : (⟨S1000000x4, .f32⟩ : BufTy).Contents (Elt F)) : (⟨S1000000, .f32⟩ : BufTy).Contents (Elt F) :=
  (minimumf : (⟨S1000000, .f32⟩ : BufTy).Contents (Elt F) → (⟨S1000000, .f32⟩ : BufTy).Contents (Elt F) → (⟨S1000000, .f32⟩ : BufTy).Contents (Elt F)) (r_main_call16_v4 (F := F)) (r_main_call16_v2 (F := F) X)

def r_main_v551 (X : (⟨S1000000x4, .f32⟩ : BufTy).Contents (Elt F)) : (⟨S1000000, .i32⟩ : BufTy).Contents (Elt F) :=
  (fptosi 32 : (⟨S1000000, .f32⟩ : BufTy).Contents (Elt F) → (⟨S1000000, .i32⟩ : BufTy).Contents (Elt F)) (r_main_v550 (F := F) X)

def r_main_cst_172 : (⟨S_, .f32⟩ : BufTy).Contents (Elt F) :=
  constant S_ .f32 0x3F800000#32

def r_main_v552 : (⟨S1000000, .f32⟩ : BufTy).Contents (Elt F) :=
  (broadcastInDim S1000000 ![] bcast_S_S1000000 : (⟨S_, .f32⟩ : BufTy).Contents (Elt F) → (⟨S1000000, .f32⟩ : BufTy).Contents (Elt F)) (r_main_cst_172 (F := F))

def r_main_v553 (X : (⟨S1000000x4, .f32⟩ : BufTy).Contents (Elt F)) : (⟨S1000000, .f32⟩ : BufTy).Contents (Elt F) :=
  (addf : (⟨S1000000, .f32⟩ : BufTy).Contents (Elt F) → (⟨S1000000, .f32⟩ : BufTy).Contents (Elt F) → (⟨S1000000, .f32⟩ : BufTy).Contents (Elt F)) (r_main_v549 (F := F) X) (r_main_v552 (F := F))

def r_main_c_173 : (⟨S_, .i32⟩ : BufTy).Contents (Elt F) :=
  constantI S_ 32 0#32

def r_main_c_174 : (⟨S_, .i32⟩ : BufTy).Contents (Elt F) :=
  constantI S_ 32 255#32

def r_main_call17_v0 : (⟨S_, .f32⟩ : BufTy).Contents (Elt F) :=
  (sitofp .f32 : (⟨S_, .i32⟩ : BufTy).Contents (Elt F) → (⟨S_, .f32⟩ : BufTy).Contents (Elt F)) (r_main_c_173 (F := F))

def r_main_call17_v1 : (⟨S1000000, .f32⟩ : BufTy).Contents (Elt F) :=
  (broadcastInDim S1000000 ![] bcast_S_S1000000 : (⟨S_, .f32⟩ : BufTy).Contents (Elt F) → (⟨S1000000, .f32⟩ : BufTy).Contents (Elt F)) (r_main_call17_v0 (F := F))

def r_main_call17_v2 (X : (⟨S1000000x4, .f32⟩ : BufTy).Contents (Elt F)) : (⟨S1000000, .f32⟩ : BufTy).Contents (Elt F) :=
  (maximumf : (⟨S1000000, .f32⟩ : BufTy).Contents (Elt F) → (⟨S1000000, .f32⟩ : BufTy).Contents (Elt F) → (⟨S1000000, .f32⟩ : BufTy).Contents (Elt F)) (r_main_call17_v1 (F := F)) (r_main_v553 (F := F) X)

def r_main_call17_v3 : (⟨S_, .f32⟩ : BufTy).Contents (Elt F) :=
  (sitofp .f32 : (⟨S_, .i32⟩ : BufTy).Contents (Elt F) → (⟨S_, .f32⟩ : BufTy).Contents (Elt F)) (r_main_c_174 (F := F))

def r_main_call17_v4 : (⟨S1000000, .f32⟩ : BufTy).Contents (Elt F) :=
  (broadcastInDim S1000000 ![] bcast_S_S1000000 : (⟨S_, .f32⟩ : BufTy).Contents (Elt F) → (⟨S1000000, .f32⟩ : BufTy).Contents (Elt F)) (r_main_call17_v3 (F := F))

def r_main_v554 (X : (⟨S1000000x4, .f32⟩ : BufTy).Contents (Elt F)) : (⟨S1000000, .f32⟩ : BufTy).Contents (Elt F) :=
  (minimumf : (⟨S1000000, .f32⟩ : BufTy).Contents (Elt F) → (⟨S1000000, .f32⟩ : BufTy).Contents (Elt F) → (⟨S1000000, .f32⟩ : BufTy).Contents (Elt F)) (r_main_call17_v4 (F := F)) (r_main_call17_v2 (F := F) X)

def r_main_v555 (X : (⟨S1000000x4, .f32⟩ : BufTy).Contents (Elt F)) : (⟨S1000000, .i32⟩ : BufTy).Contents (Elt F) :=
  (fptosi 32 : (⟨S1000000, .f32⟩ : BufTy).Contents (Elt F) → (⟨S1000000, .i32⟩ : BufTy).Contents (Elt F)) (r_main_v554 (F := F) X)

def r_main_v556 (X : (⟨S1000000x4, .f32⟩ : BufTy).Contents (Elt F)) : (⟨S1000000, .f32⟩ : BufTy).Contents (Elt F) :=
  (subf : (⟨S1000000, .f32⟩ : BufTy).Contents (Elt F) → (⟨S1000000, .f32⟩ : BufTy).Contents (Elt F) → (⟨S1000000, .f32⟩ : BufTy).Contents (Elt F)) (r_main_v540 (F := F) X) (r_main_v549 (F := F) X)

def r_main_cst_175 : (⟨S_, .f32⟩ : BufTy).Contents (Elt F) :=
  constant S_ .f32 0x00000000#32

def r_main_v557 : (⟨S16x1000000, .f32⟩ : BufTy).Contents (Elt F) :=
  (broadcastInDim S16x1000000 ![] bcast_S_S16x1000000 : (⟨S_, .f32⟩ : BufTy).Contents (Elt F) → (⟨S16x1000000, .f32⟩ : BufTy).Contents (Elt F)) (r_main_cst_175 (F := F))

def r_main_cst_176 : (⟨S_, .f32⟩ : BufTy).Contents (Elt F) :=
  constant S_ .f32 0x3F800000#32

def r_main_v558 : (⟨S1000000, .f32⟩ : BufTy).Contents (Elt F) :=
  (broadcastInDim S1000000 ![] bcast_S_S1000000 : (⟨S_, .f32⟩ : BufTy).Contents (Elt F) → (⟨S1000000, .f32⟩ : BufTy).Contents (Elt F)) (r_main_cst_176 (F := F))

def r_main_v559 (X : (⟨S1000000x4, .f32⟩ : BufTy).Contents (Elt F)) : (⟨S1000000, .f32⟩ : BufTy).Contents (Elt F) :=
  (subf : (⟨S1000000, .f32⟩ : BufTy).Contents (Elt F) → (⟨S1000000, .f32⟩ : BufTy).Contents (Elt F) → (⟨S1000000, .f32⟩ : BufTy).Contents (Elt F)) (r_main_v558 (F := F)) (r_main_v556 (F := F) X)

def r_main_cst_177 : (⟨S_, .f32⟩ : BufTy).Contents (Elt F) :=
  constant S_ .f32 0x3F800000#32

def r_main_v560 : (⟨S1000000, .f32⟩ : BufTy).Contents (Elt F) :=
  (broadcastInDim S1000000 ![] bcast_S_S1000000 : (⟨S_, .f32⟩ : BufTy).Contents (Elt F) → (⟨S1000000, .f32⟩ : BufTy).Contents (Elt F)) (r_main_cst_177 (F := F))

def r_main_v561 (X : (⟨S1000000x4, .f32⟩ : BufTy).Contents (Elt F)) : (⟨S1000000, .f32⟩ : BufTy).Contents (Elt F) :=
  (subf : (⟨S1000000, .f32⟩ : BufTy).Contents (Elt F) → (⟨S1000000, .f32⟩ : BufTy).Contents (Elt F) → (⟨S1000000, .f32⟩ : BufTy).Contents (Elt F)) (r_main_v560 (F := F)) (r_main_v548 (F := F) X)

def r_main_c_178 : (⟨S_, .i32⟩ : BufTy).Contents (Elt F) :=
  constantI S_ 32 0#32

def r_main_v562 : (⟨S1000000, .i32⟩ : BufTy).Contents (Elt F) :=
  (broadcastInDim S1000000 ![] bcast_S_S1000000 : (⟨S_, .i32⟩ : BufTy).Contents (Elt F) → (⟨S1000000, .i32⟩ : BufTy).Contents (Elt F)) (r_main_c_178 (F := F))

def r_main_v563 (X : (⟨S1000000x4, .f32⟩ : BufTy).Contents (Elt F)) : (⟨S1000000, .i1⟩ : BufTy).Contents (Elt F) :=
  (cmpi .slt : (⟨S1000000, .i32⟩ : BufTy).Contents (Elt F) → (⟨S1000000, .i32⟩ : BufTy).Contents (Elt F) → (⟨S1000000, .i1⟩ : BufTy).Contents (Elt F)) (r_main_v551 (F := F) X) (r_main_v562 (F := F))

def r_main_c_179 : (⟨S_, .i32⟩ : BufTy).Contents (Elt F) :=
  constantI S_ 32 256#32

def r_main_v564 : (⟨S1000000, .i32⟩ : BufTy).Contents (Elt F) :=
  (broadcastInDim S1000000 ![] bcast_S_S1000000 : (⟨S_, .i32⟩ : BufTy).Contents (Elt F) → (⟨S1000000, .i32⟩ : BufTy).Contents (Elt F)) (r_main_c_179 (F := F))

def r_main_v565 (X : (⟨S1000000x4, .f32⟩ : BufTy).Contents (Elt F)) : (⟨S1000000, .i32⟩ : BufTy).Contents (Elt F) :=
  (addi : (⟨S1000000, .i32⟩ : BufTy).Contents (Elt F) → (⟨S1000000, .i32⟩ : BufTy).Contents (Elt F) → (⟨S1000000, .i32⟩ : BufTy).Contents (Elt F)) (r_main_v551 (F := F) X) (r_main_v564 (F := F))

def r_main_v566 (X : (⟨S1000000x4, .f32⟩ : BufTy).Contents (Elt F)) : (⟨S1000000, .i32⟩ : BufTy).Contents (Elt F) :=
  (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) (r_main_v563 (F := F) X) (r_main_v565 (F := F) X) (r_main_v551 (F := F) X)

def r_main_c_180 : (⟨S_, .i32⟩ : BufTy).Contents (Elt F) :=
  constantI S_ 32 0#32

def r_main_v567 : (⟨S1000000, .i32⟩ : BufTy).Contents (Elt F) :=
  (broadcastInDim S1000000 ![] bcast_S_S1000000 : (⟨S_, .i32⟩ : BufTy).Contents (Elt F) → (⟨S1000000, .i32⟩ : BufTy).Contents (Elt F)) (r_main_c_180 (F := F))

def r_main_v568 (X : (⟨S1000000x4, .f32⟩ : BufTy).Contents (Elt F)) : (⟨S1000000, .i1⟩ : BufTy).Contents (Elt F) :=
  (cmpi .slt : (⟨S1000000, .i32⟩ : BufTy).Contents (Elt F) → (⟨S1000000, .i32⟩ : BufTy).Contents (Elt F) → (⟨S1000000, .i1⟩ : BufTy).Contents (Elt F)) (r_main_v543 (F := F) X) (r_main_v567 (F := F))

def r_main_c_181 : (⟨S_, .i32⟩ : BufTy).Contents (Elt F) :=
  constantI S_ 32 256#32

def r_main_v569 : (⟨S1000000, .i32⟩ : BufTy).Contents (Elt F) :=
  (broadcastInDim S1000000 ![] bcast_S_S1000000 : (⟨S_, .i32⟩ : BufTy).Contents (Elt F) → (⟨S1000000, .i32⟩ : BufTy).Contents (Elt F)) (r_main_c_181 (F := F))

def r_main_v570 (X : (⟨S1000000x4, .f32⟩ : BufTy).Contents (Elt F)) : (⟨S1000000, .i32⟩ : BufTy).Contents (Elt F) :=
  (addi : (⟨S1000000, .i32⟩ : BufTy).Contents (Elt F) → (⟨S1000000, .i32⟩ : BufTy).Contents (Elt F) → (⟨S1000000, .i32⟩ : BufTy).Contents (Elt F)) (r_main_v543 (F := F) X) (r_main_v569 (F := F))

def r_main_v571 (X : (⟨S1000000x4, .f32⟩ : BufTy).Contents (Elt F)) : (⟨S1000000, .i32⟩ : BufTy).Contents (Elt F) :=
  (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) (r_main_v568 (F := F) X) (r_main_v570 (F := F) X) (r_main_v543 (F := F) X)

def r_main_v572 (X : (⟨S1000000x4, .f32⟩ : BufTy).Contents (Elt F)) : (⟨S1000000x1, .i32⟩ : BufTy).Contents (Elt F) :=
  (broadcastInDim S1000000x1 ![0] bcast_S1000000_S1000000x1_0 : (⟨S1000000, .i32⟩ : BufTy).Contents (Elt F) → (⟨S1000000x1, .i32⟩ : BufTy).Contents (Elt F)) (r_main_v566 (F := F) X)

def r_main_v573 (X : (⟨S1000000x4, .f32⟩ : BufTy).Contents (Elt F)) : (⟨S1000000x1, .i32⟩ : BufTy).Contents (Elt F) :=
  (broadcastInDim S1000000x1 ![0] bcast_S1000000_S1000000x1_0 : (⟨S1000000, .i32⟩ : BufTy).Contents (Elt F) → (⟨S1000000x1, .i32⟩ : BufTy).Contents (Elt F)) (r_main_v571 (F := F) X)

def r_main_v574 (X : (⟨S1000000x4, .f32⟩ : BufTy).Contents (Elt F)) : (⟨S1000000x2, .i32⟩ : BufTy).Contents (Elt F) :=
  (cat2 (F := F) : (⟨S1000000x1, .i32⟩ : BufTy).Contents (Elt F) → (⟨S1000000x1, .i32⟩ : BufTy).Contents (Elt F) → (⟨S1000000x2, .i32⟩ : BufTy).Contents (Elt F)) (r_main_v572 (F := F) X) (r_main_v573 (F := F) X)

def r_main_v575 (X : (⟨S1000000x4, .f32⟩ : BufTy).Contents (Elt F)) (P2 : (⟨S16x256x256, .f32⟩ : BufTy).Contents (Elt F)) : (⟨S16x1000000, .f32⟩ : BufTy).Contents (Elt F) :=
  ((fun x i => Host.gather gather_S16x256x256_S1000000x2_S16x1000000_0_12_n_n_12_1_1611 x i) : (⟨S16x256x256, .f32⟩ : BufTy).Contents (Elt F) → (⟨S1000000x2, .i32⟩ : BufTy).Contents (Elt F) → (⟨S16x1000000, .f32⟩ : BufTy).Contents (Elt F)) P2 (r_main_v574 (F := F) X)

def r_main_v576 (X : (⟨S1000000x4, .f32⟩ : BufTy).Contents (Elt F)) : (⟨S1000000, .f32⟩ : BufTy).Contents (Elt F) :=
  (mulf : (⟨S1000000, .f32⟩ : BufTy).Contents (Elt F) → (⟨S1000000, .f32⟩ : BufTy).Contents (Elt F) → (⟨S1000000, .f32⟩ : BufTy).Contents (Elt F)) (r_main_v559 (F := F) X) (r_main_v561 (F := F) X)

def r_main_v577 (X : (⟨S1000000x4, .f32⟩ : BufTy).Contents (Elt F)) : (⟨S1x1000000, .f32⟩ : BufTy).Contents (Elt F) :=
  (broadcastInDim S1x1000000 ![1] bcast_S1000000_S1x1000000_1 : (⟨S1000000, .f32⟩ : BufTy).Contents (Elt F) → (⟨S1x1000000, .f32⟩ : BufTy).Contents (Elt F)) (r_main_v576 (F := F) X)

def r_main_v578 (X : (⟨S1000000x4, .f32⟩ : BufTy).Contents (Elt F)) : (⟨S16x1000000, .f32⟩ : BufTy).Contents (Elt F) :=
  (broadcastInDim S16x1000000 ![0, 1] bcast_S1x1000000_S16x1000000_0_1 : (⟨S1x1000000, .f32⟩ : BufTy).Contents (Elt F) → (⟨S16x1000000, .f32⟩ : BufTy).Contents (Elt F)) (r_main_v577 (F := F) X)

def r_main_v579 (X : (⟨S1000000x4, .f32⟩ : BufTy).Contents (Elt F)) (P2 : (⟨S16x256x256, .f32⟩ : BufTy).Contents (Elt F)) : (⟨S16x1000000, .f32⟩ : BufTy).Contents (Elt F) :=
  (mulf : (⟨S16x1000000, .f32⟩ : BufTy).Contents (Elt F) → (⟨S16x1000000, .f32⟩ : BufTy).Contents (Elt F) → (⟨S16x1000000, .f32⟩ : BufTy).Contents (Elt F)) (r_main_v575 (F := F) X P2) (r_main_v578 (F := F) X)

def r_main_v580 (X : (⟨S1000000x4, .f32⟩ : BufTy).Contents (Elt F)) (P2 : (⟨S16x256x256, .f32⟩ : BufTy).Contents (Elt F)) : (⟨S16x1000000, .f32⟩ : BufTy).Contents (Elt F) :=
  (addf : (⟨S16x1000000, .f32⟩ : BufTy).Contents (Elt F) → (⟨S16x1000000, .f32⟩ : BufTy).Contents (Elt F) → (⟨S16x1000000, .f32⟩ : BufTy).Contents (Elt F)) (r_main_v557 (F := F)) (r_main_v579 (F := F) X P2)

def r_main_c_182 : (⟨S_, .i32⟩ : BufTy).Contents (Elt F) :=
  constantI S_ 32 0#32

def r_main_v581 : (⟨S1000000, .i32⟩ : BufTy).Contents (Elt F) :=
  (broadcastInDim S1000000 ![] bcast_S_S1000000 : (⟨S_, .i32⟩ : BufTy).Contents (Elt F) → (⟨S1000000, .i32⟩ : BufTy).Contents (Elt F)) (r_main_c_182 (F := F))

def r_main_v582 (X : (⟨S1000000x4, .f32⟩ : BufTy).Contents (Elt F)) : (⟨S1000000, .i1⟩ : BufTy).Contents (Elt F) :=
  (cmpi .slt : (⟨S1000000, .i32⟩ : BufTy).Contents (Elt F) → (⟨S1000000, .i32⟩ : BufTy).Contents (Elt F) → (⟨S1000000, .i1⟩ : BufTy).Contents (Elt F)) (r_main_v551 (F := F) X) (r_main_v581 (F := F))

def r_main_c_183 : (⟨S_, .i32⟩ : BufTy).Contents (Elt F) :=
  constantI S_ 32 256#32

def r_main_v583 : (⟨S1000000, .i32⟩ : BufTy).Contents (Elt F) :=
  (broadcastInDim S1000000 ![] bcast_S_S1000000 : (⟨S_, .i32⟩ : BufTy).Contents (Elt F) → (⟨S1000000, .i32⟩ : BufTy).Contents (Elt F)) (r_main_c_183 (F := F))

def r_main_v584 (X : (⟨S1000000x4, .f32⟩ : BufTy).Contents (Elt F)) : (⟨S1000000, .i32⟩ : BufTy).Contents (Elt F) :=
  (addi : (⟨S1000000, .i32⟩ : BufTy).Contents (Elt F) → (⟨S1000000, .i32⟩ : BufTy).Contents (Elt F) → (⟨S1000000, .i32⟩ : BufTy).Contents (Elt F)) (r_main_v551 (F := F) X) (r_main_v583 (F := F))

def r_main_v585 (X : (⟨S1000000x4, .f32⟩ : BufTy).Contents (Elt F)) : (⟨S1000000, .i32⟩ : BufTy).Contents (Elt F) :=
  (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) (r_main_v582 (F := F) X) (r_main_v584 (F := F) X) (r_main_v551 (F := F) X)

def r_main_c_184 : (⟨S_, .i32⟩ : BufTy).Contents (Elt F) :=
  constantI S_ 32 0#32

def r_main_v586 : (⟨S1000000, .i32⟩ : BufTy).Contents (Elt F) :=
  (broadcastInDim S1000000 ![] bcast_S_S1000000 : (⟨S_, .i32⟩ : BufTy).Contents (Elt F) → (⟨S1000000, .i32⟩ : BufTy).Contents (Elt F)) (r_main_c_184 (F := F))

def r_main_v587 (X : (⟨S1000000x4, .f32⟩ : BufTy).Contents (Elt F)) : (⟨S1000000, .i1⟩ : BufTy).Contents (Elt F) :=
  (cmpi .slt : (⟨S1000000, .i32⟩ : BufTy).Contents (Elt F) → (⟨S1000000, .i32⟩ : BufTy).Contents (Elt F) → (⟨S1000000, .i1⟩ : BufTy).Contents (Elt F)) (r_main_v547 (F := F) X) (r_main_v586 (F := F))

def r_main_c_185 : (⟨S_, .i32⟩ : BufTy).Contents (Elt F) :=
  constantI S_ 32 256#32

def r_main_v588 : (⟨S1000000, .i32⟩ : BufTy).Contents (Elt F) :=
  (broadcastInDim S1000000 ![] bcast_S_S1000000 : (⟨S_, .i32⟩ : BufTy).Contents (Elt F) → (⟨S1000000, .i32⟩ : BufTy).Contents (Elt F)) (r_main_c_185 (F := F))

def r_main_v589 (X : (⟨S1000000x4, .f32⟩ : BufTy).Contents (Elt F)) : (⟨S1000000, .i32⟩ : BufTy).Contents (Elt F) :=
  (addi : (⟨S1000000, .i32⟩ : BufTy).Contents (Elt F) → (⟨S1000000, .i32⟩ : BufTy).Contents (Elt F) → (⟨S1000000, .i32⟩ : BufTy).Contents (Elt F)) (r_main_v547 (F := F) X) (r_main_v588 (F := F))

def r_main_v590 (X : (⟨S1000000x4, .f32⟩ : BufTy).Contents (Elt F)) : (⟨S1000000, .i32⟩ : BufTy).Contents (Elt F) :=
  (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) (r_main_v587 (F := F) X) (r_main_v589 (F := F) X) (r_main_v547 (F := F) X)

def r_main_v591 (X : (⟨S1000000x4, .f32⟩ : BufTy).Contents (Elt F)) : (⟨S1000000x1, .i32⟩ : BufTy).Contents (Elt F) :=
  (broadcastInDim S1000000x1 ![0] bcast_S1000000_S1000000x1_0 : (⟨S1000000, .i32⟩ : BufTy).Contents (Elt F) → (⟨S1000000x1, .i32⟩ : BufTy).Contents (Elt F)) (r_main_v585 (F := F) X)

def r_main_v592 (X : (⟨S1000000x4, .f32⟩ : BufTy).Contents (Elt F)) : (⟨S1000000x1, .i32⟩ : BufTy).Contents (Elt F) :=
  (broadcastInDim S1000000x1 ![0] bcast_S1000000_S1000000x1_0 : (⟨S1000000, .i32⟩ : BufTy).Contents (Elt F) → (⟨S1000000x1, .i32⟩ : BufTy).Contents (Elt F)) (r_main_v590 (F := F) X)

def r_main_v593 (X : (⟨S1000000x4, .f32⟩ : BufTy).Contents (Elt F)) : (⟨S1000000x2, .i32⟩ : BufTy).Contents (Elt F) :=
  (cat2 (F := F) : (⟨S1000000x1, .i32⟩ : BufTy).Contents (Elt F) → (⟨S1000000x1, .i32⟩ : BufTy).Contents (Elt F) → (⟨S1000000x2, .i32⟩ : BufTy).Contents (Elt F)) (r_main_v591 (F := F) X) (r_main_v592 (F := F) X)

def r_main_v594 (X : (⟨S1000000x4, .f32⟩ : BufTy).Contents (Elt F)) (P2 : (⟨S16x256x256, .f32⟩ : BufTy).Contents (Elt F)) : (⟨S16x1000000, .f32⟩ : BufTy).Contents (Elt F) :=
  ((fun x i => Host.gather gather_S16x256x256_S1000000x2_S16x1000000_0_12_n_n_12_1_1611 x i) : (⟨S16x256x256, .f32⟩ : BufTy).Contents (Elt F) → (⟨S1000000x2, .i32⟩ : BufTy).Contents (Elt F) → (⟨S16x1000000, .f32⟩ : BufTy).Contents (Elt F)) P2 (r_main_v593 (F := F) X)

def r_main_v595 (X : (⟨S1000000x4, .f32⟩ : BufTy).Contents (Elt F)) : (⟨S1000000, .f32⟩ : BufTy).Contents (Elt F) :=
  (mulf : (⟨S1000000, .f32⟩ : BufTy).Contents (Elt F) → (⟨S1000000, .f32⟩ : BufTy).Contents (Elt F) → (⟨S1000000, .f32⟩ : BufTy).Contents (Elt F)) (r_main_v559 (F := F) X) (r_main_v548 (F := F) X)

def r_main_v596 (X : (⟨S1000000x4, .f32⟩ : BufTy).Contents (Elt F)) : (⟨S1x1000000, .f32⟩ : BufTy).Contents (Elt F) :=
  (broadcastInDim S1x1000000 ![1] bcast_S1000000_S1x1000000_1 : (⟨S1000000, .f32⟩ : BufTy).Contents (Elt F) → (⟨S1x1000000, .f32⟩ : BufTy).Contents (Elt F)) (r_main_v595 (F := F) X)

def r_main_v597 (X : (⟨S1000000x4, .f32⟩ : BufTy).Contents (Elt F)) : (⟨S16x1000000, .f32⟩ : BufTy).Contents (Elt F) :=
  (broadcastInDim S16x1000000 ![0, 1] bcast_S1x1000000_S16x1000000_0_1 : (⟨S1x1000000, .f32⟩ : BufTy).Contents (Elt F) → (⟨S16x1000000, .f32⟩ : BufTy).Contents (Elt F)) (r_main_v596 (F := F) X)

def r_main_v598 (X : (⟨S1000000x4, .f32⟩ : BufTy).Contents (Elt F)) (P2 : (⟨S16x256x256, .f32⟩ : BufTy).Contents (Elt F)) : (⟨S16x1000000, .f32⟩ : BufTy).Contents (Elt F) :=
  (mulf : (⟨S16x1000000, .f32⟩ : BufTy).Contents (Elt F) → (⟨S16x1000000, .f32⟩ : BufTy).Contents (Elt F) → (⟨S16x1000000, .f32⟩ : BufTy).Contents (Elt F)) (r_main_v594 (F := F) X P2) (r_main_v597 (F := F) X)

def r_main_v599 (X : (⟨S1000000x4, .f32⟩ : BufTy).Contents (Elt F)) (P2 : (⟨S16x256x256, .f32⟩ : BufTy).Contents (Elt F)) : (⟨S16x1000000, .f32⟩ : BufTy).Contents (Elt F) :=
  (addf : (⟨S16x1000000, .f32⟩ : BufTy).Contents (Elt F) → (⟨S16x1000000, .f32⟩ : BufTy).Contents (Elt F) → (⟨S16x1000000, .f32⟩ : BufTy).Contents (Elt F)) (r_main_v580 (F := F) X P2) (r_main_v598 (F := F) X P2)

def r_main_cst_186 : (⟨S_, .f32⟩ : BufTy).Contents (Elt F) :=
  constant S_ .f32 0x3F800000#32

def r_main_v600 : (⟨S1000000, .f32⟩ : BufTy).Contents (Elt F) :=
  (broadcastInDim S1000000 ![] bcast_S_S1000000 : (⟨S_, .f32⟩ : BufTy).Contents (Elt F) → (⟨S1000000, .f32⟩ : BufTy).Contents (Elt F)) (r_main_cst_186 (F := F))

def r_main_v601 (X : (⟨S1000000x4, .f32⟩ : BufTy).Contents (Elt F)) : (⟨S1000000, .f32⟩ : BufTy).Contents (Elt F) :=
  (subf : (⟨S1000000, .f32⟩ : BufTy).Contents (Elt F) → (⟨S1000000, .f32⟩ : BufTy).Contents (Elt F) → (⟨S1000000, .f32⟩ : BufTy).Contents (Elt F)) (r_main_v600 (F := F)) (r_main_v548 (F := F) X)

def r_main_c_187 : (⟨S_, .i32⟩ : BufTy).Contents (Elt F) :=
  constantI S_ 32 0#32

def r_main_v602 : (⟨S1000000, .i32⟩ : BufTy).Contents (Elt F) :=
  (broadcastInDim S1000000 ![] bcast_S_S1000000 : (⟨S_, .i32⟩ : BufTy).Contents (Elt F) → (⟨S1000000, .i32⟩ : BufTy).Contents (Elt F)) (r_main_c_187 (F := F))

def r_main_v603 (X : (⟨S1000000x4, .f32⟩ : BufTy).Contents (Elt F)) : (⟨S1000000, .i1⟩ : BufTy).Contents (Elt F) :=
  (cmpi .slt : (⟨S1000000, .i32⟩ : BufTy).Contents (Elt F) → (⟨S1000000, .i32⟩ : BufTy).Contents (Elt F) → (⟨S1000000, .i1⟩ : BufTy).Contents (Elt F)) (r_main_v555 (F := F) X) (r_main_v602 (F := F))

def r_main_c_188 : (⟨S_, .i32⟩ : BufTy).Contents (Elt F) :=
  constantI S_ 32 256#32

def r_main_v604 : (⟨S1000000, .i32⟩ : BufTy).Contents (Elt F) :=
  (broadcastInDim S1000000 ![] bcast_S_S1000000 : (⟨S_, .i32⟩ : BufTy).Contents (Elt F) → (⟨S1000000, .i32⟩ : BufTy).Contents (Elt F)) (r_main_c_188 (F := F))

def r_main_v605 (X : (⟨S1000000x4, .f32⟩ : BufTy).Contents (Elt F)) : (⟨S1000000, .i32⟩ : BufTy).Contents (Elt F) :=
  (addi : (⟨S1000000, .i32⟩ : BufTy).Contents (Elt F) → (⟨S1000000, .i32⟩ : BufTy).Contents (Elt F) → (⟨S1000000, .i32⟩ : BufTy).Contents (Elt F)) (r_main_v555 (F := F) X) (r_main_v604 (F := F))

def r_main_v606 (X : (⟨S1000000x4, .f32⟩ : BufTy).Contents (Elt F)) : (⟨S1000000, .i32⟩ : BufTy).Contents (Elt F) :=
  (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) (r_main_v603 (F := F) X) (r_main_v605 (F := F) X) (r_main_v555 (F := F) X)

def r_main_c_189 : (⟨S_, .i32⟩ : BufTy).Contents (Elt F) :=
  constantI S_ 32 0#32

def r_main_v607 : (⟨S1000000, .i32⟩ : BufTy).Contents (Elt F) :=
  (broadcastInDim S1000000 ![] bcast_S_S1000000 : (⟨S_, .i32⟩ : BufTy).Contents (Elt F) → (⟨S1000000, .i32⟩ : BufTy).Contents (Elt F)) (r_main_c_189 (F := F))

def r_main_v608 (X : (⟨S1000000x4, .f32⟩ : BufTy).Contents (Elt F)) : (⟨S1000000, .i1⟩ : BufTy).Contents (Elt F) :=
  (cmpi .slt : (⟨S1000000, .i32⟩ : BufTy).Contents (Elt F) → (⟨S1000000, .i32⟩ : BufTy).Contents (Elt F) → (⟨S1000000, .i1⟩ : BufTy).Contents (Elt F)) (r_main_v543 (F := F) X) (r_main_v607 (F := F))

def r_main_c_190 : (⟨S_, .i32⟩ : BufTy).Contents (Elt F) :=
  constantI S_ 32 256#32

def r_main_v609 : (⟨S1000000, .i32⟩ : BufTy).Contents (Elt F) :=
  (broadcastInDim S1000000 ![] bcast_S_S1000000 : (⟨S_, .i32⟩ : BufTy).Contents (Elt F) → (⟨S1000000, .i32⟩ : BufTy).Contents (Elt F)) (r_main_c_190 (F := F))

def r_main_v610 (X : (⟨S1000000x4, .f32⟩ : BufTy).Contents (Elt F)) : (⟨S1000000, .i32⟩ : BufTy).Contents (Elt F) :=
  (addi : (⟨S1000000, .i32⟩ : BufTy).Contents (Elt F) → (⟨S1000000, .i32⟩ : BufTy).Contents (Elt F) → (⟨S1000000, .i32⟩ : BufTy).Contents (Elt F)) (r_main_v543 (F := F) X) (r_main_v609 (F := F))

def r_main_v611 (X : (⟨S1000000x4, .f32⟩ : BufTy).Contents (Elt F)) : (⟨S1000000, .i32⟩ : BufTy).Contents (Elt F) :=
  (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) (r_main_v608 (F := F) X) (r_main_v610 (F := F) X) (r_main_v543 (F := F) X)

def r_main_v612 (X : (⟨S1000000x4, .f32⟩ : BufTy).Contents (Elt F)) : (⟨S1000000x1, .i32⟩ : BufTy).Contents (Elt F) :=
  (broadcastInDim S1000000x1 ![0] bcast_S1000000_S1000000x1_0 : (⟨S1000000, .i32⟩ : BufTy).Contents (Elt F) → (⟨S1000000x1, .i32⟩ : BufTy).Contents (Elt F)) (r_main_v606 (F := F) X)

def r_main_v613 (X : (⟨S1000000x4, .f32⟩ : BufTy).Contents (Elt F)) : (⟨S1000000x1, .i32⟩ : BufTy).Contents (Elt F) :=
  (broadcastInDim S1000000x1 ![0] bcast_S1000000_S1000000x1_0 : (⟨S1000000, .i32⟩ : BufTy).Contents (Elt F) → (⟨S1000000x1, .i32⟩ : BufTy).Contents (Elt F)) (r_main_v611 (F := F) X)

def r_main_v614 (X : (⟨S1000000x4, .f32⟩ : BufTy).Contents (Elt F)) : (⟨S1000000x2, .i32⟩ : BufTy).Contents (Elt F) :=
  (cat2 (F := F) : (⟨S1000000x1, .i32⟩ : BufTy).Contents (Elt F) → (⟨S1000000x1, .i32⟩ : BufTy).Contents (Elt F) → (⟨S1000000x2, .i32⟩ : BufTy).Contents (Elt F)) (r_main_v612 (F := F) X) (r_main_v613 (F := F) X)

def r_main_v615 (X : (⟨S1000000x4, .f32⟩ : BufTy).Contents (Elt F)) (P2 : (⟨S16x256x256, .f32⟩ : BufTy).Contents (Elt F)) : (⟨S16x1000000, .f32⟩ : BufTy).Contents (Elt F) :=
  ((fun x i => Host.gather gather_S16x256x256_S1000000x2_S16x1000000_0_12_n_n_12_1_1611 x i) : (⟨S16x256x256, .f32⟩ : BufTy).Contents (Elt F) → (⟨S1000000x2, .i32⟩ : BufTy).Contents (Elt F) → (⟨S16x1000000, .f32⟩ : BufTy).Contents (Elt F)) P2 (r_main_v614 (F := F) X)

def r_main_v616 (X : (⟨S1000000x4, .f32⟩ : BufTy).Contents (Elt F)) : (⟨S1000000, .f32⟩ : BufTy).Contents (Elt F) :=
  (mulf : (⟨S1000000, .f32⟩ : BufTy).Contents (Elt F) → (⟨S1000000, .f32⟩ : BufTy).Contents (Elt F) → (⟨S1000000, .f32⟩ : BufTy).Contents (Elt F)) (r_main_v556 (F := F) X) (r_main_v601 (F := F) X)

def r_main_v617 (X : (⟨S1000000x4, .f32⟩ : BufTy).Contents (Elt F)) : (⟨S1x1000000, .f32⟩ : BufTy).Contents (Elt F) :=
  (broadcastInDim S1x1000000 ![1] bcast_S1000000_S1x1000000_1 : (⟨S1000000, .f32⟩ : BufTy).Contents (Elt F) → (⟨S1x1000000, .f32⟩ : BufTy).Contents (Elt F)) (r_main_v616 (F := F) X)

def r_main_v618 (X : (⟨S1000000x4, .f32⟩ : BufTy).Contents (Elt F)) : (⟨S16x1000000, .f32⟩ : BufTy).Contents (Elt F) :=
  (broadcastInDim S16x1000000 ![0, 1] bcast_S1x1000000_S16x1000000_0_1 : (⟨S1x1000000, .f32⟩ : BufTy).Contents (Elt F) → (⟨S16x1000000, .f32⟩ : BufTy).Contents (Elt F)) (r_main_v617 (F := F) X)

def r_main_v619 (X : (⟨S1000000x4, .f32⟩ : BufTy).Contents (Elt F)) (P2 : (⟨S16x256x256, .f32⟩ : BufTy).Contents (Elt F)) : (⟨S16x1000000, .f32⟩ : BufTy).Contents (Elt F) :=
  (mulf : (⟨S16x1000000, .f32⟩ : BufTy).Contents (Elt F) → (⟨S16x1000000, .f32⟩ : BufTy).Contents (Elt F) → (⟨S16x1000000, .f32⟩ : BufTy).Contents (Elt F)) (r_main_v615 (F := F) X P2) (r_main_v618 (F := F) X)

def r_main_v620 (X : (⟨S1000000x4, .f32⟩ : BufTy).Contents (Elt F)) (P2 : (⟨S16x256x256, .f32⟩ : BufTy).Contents (Elt F)) : (⟨S16x1000000, .f32⟩ : BufTy).Contents (Elt F) :=
  (addf : (⟨S16x1000000, .f32⟩ : BufTy).Contents (Elt F) → (⟨S16x1000000, .f32⟩ : BufTy).Contents (Elt F) → (⟨S16x1000000, .f32⟩ : BufTy).Contents (Elt F)) (r_main_v599 (F := F) X P2) (r_main_v619 (F := F) X P2)

def r_main_c_191 : (⟨S_, .i32⟩ : BufTy).Contents (Elt F) :=
  constantI S_ 32 0#32

def r_main_v621 : (⟨S1000000, .i32⟩ : BufTy).Contents (Elt F) :=
  (broadcastInDim S1000000 ![] bcast_S_S1000000 : (⟨S_, .i32⟩ : BufTy).Contents (Elt F) → (⟨S1000000, .i32⟩ : BufTy).Contents (Elt F)) (r_main_c_191 (F := F))

def r_main_v622 (X : (⟨S1000000x4, .f32⟩ : BufTy).Contents (Elt F)) : (⟨S1000000, .i1⟩ : BufTy).Contents (Elt F) :=
  (cmpi .slt : (⟨S1000000, .i32⟩ : BufTy).Contents (Elt F) → (⟨S1000000, .i32⟩ : BufTy).Contents (Elt F) → (⟨S1000000, .i1⟩ : BufTy).Contents (Elt F)) (r_main_v555 (F := F) X) (r_main_v621 (F := F))

def r_main_c_192 : (⟨S_, .i32⟩ : BufTy).Contents (Elt F) :=
  constantI S_ 32 256#32

def r_main_v623 : (⟨S1000000, .i32⟩ : BufTy).Contents (Elt F) :=
  (broadcastInDim S1000000 ![] bcast_S_S1000000 : (⟨S_, .i32⟩ : BufTy).Contents (Elt F) → (⟨S1000000, .i32⟩ : BufTy).Contents (Elt F)) (r_main_c_192 (F := F))

def r_main_v624 (X : (⟨S1000000x4, .f32⟩ : BufTy).Contents (Elt F)) : (⟨S1000000, .i32⟩ : BufTy).Contents (Elt F) :=
  (addi : (⟨S1000000, .i32⟩ : BufTy).Contents (Elt F) → (⟨S1000000, .i32⟩ : BufTy).Contents (Elt F) → (⟨S1000000, .i32⟩ : BufTy).Contents (Elt F)) (r_main_v555 (F := F) X) (r_main_v623 (F := F))

def r_main_v625 (X : (⟨S1000000x4, .f32⟩ : BufTy).Contents (Elt F)) : (⟨S1000000, .i32⟩ : BufTy).Contents (Elt F) :=
  (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) (r_main_v622 (F := F) X) (r_main_v624 (F := F) X) (r_main_v555 (F := F) X)

def r_main_c_193 : (⟨S_, .i32⟩ : BufTy).Contents (Elt F) :=
  constantI S_ 32 0#32

def r_main_v626 : (⟨S1000000, .i32⟩ : BufTy).Contents (Elt F) :=
  (broadcastInDim S1000000 ![] bcast_S_S1000000 : (⟨S_, .i32⟩ : BufTy).Contents (Elt F) → (⟨S1000000, .i32⟩ : BufTy).Contents (Elt F)) (r_main_c_193 (F := F))

def r_main_v627 (X : (⟨S1000000x4, .f32⟩ : BufTy).Contents (Elt F)) : (⟨S1000000, .i1⟩ : BufTy).Contents (Elt F) :=
  (cmpi .slt : (⟨S1000000, .i32⟩ : BufTy).Contents (Elt F) → (⟨S1000000, .i32⟩ : BufTy).Contents (Elt F) → (⟨S1000000, .i1⟩ : BufTy).Contents (Elt F)) (r_main_v547 (F := F) X) (r_main_v626 (F := F))

def r_main_c_194 : (⟨S_, .i32⟩ : BufTy).Contents (Elt F) :=
  constantI S_ 32 256#32

def r_main_v628 : (⟨S1000000, .i32⟩ : BufTy).Contents (Elt F) :=
  (broadcastInDim S1000000 ![] bcast_S_S1000000 : (⟨S_, .i32⟩ : BufTy).Contents (Elt F) → (⟨S1000000, .i32⟩ : BufTy).Contents (Elt F)) (r_main_c_194 (F := F))

def r_main_v629 (X : (⟨S1000000x4, .f32⟩ : BufTy).Contents (Elt F)) : (⟨S1000000, .i32⟩ : BufTy).Contents (Elt F) :=
  (addi : (⟨S1000000, .i32⟩ : BufTy).Contents (Elt F) → (⟨S1000000, .i32⟩ : BufTy).Contents (Elt F) → (⟨S1000000, .i32⟩ : BufTy).Contents (Elt F)) (r_main_v547 (F := F) X) (r_main_v628 (F := F))

def r_main_v630 (X : (⟨S1000000x4, .f32⟩ : BufTy).Contents (Elt F)) : (⟨S1000000, .i32⟩ : BufTy).Contents (Elt F) :=
  (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) (r_main_v627 (F := F) X) (r_main_v629 (F := F) X) (r_main_v547 (F := F) X)

def r_main_v631 (X : (⟨S1000000x4, .f32⟩ : BufTy).Contents (Elt F)) : (⟨S1000000x1, .i32⟩ : BufTy).Contents (Elt F) :=
  (broadcastInDim S1000000x1 ![0] bcast_S1000000_S1000000x1_0 : (⟨S1000000, .i32⟩ : BufTy).Contents (Elt F) → (⟨S1000000x1, .i32⟩ : BufTy).Contents (Elt F)) (r_main_v625 (F := F) X)

def r_main_v632 (X : (⟨S1000000x4, .f32⟩ : BufTy).Contents (Elt F)) : (⟨S1000000x1, .i32⟩ : BufTy).Contents (Elt F) :=
  (broadcastInDim S1000000x1 ![0] bcast_S1000000_S1000000x1_0 : (⟨S1000000, .i32⟩ : BufTy).Contents (Elt F) → (⟨S1000000x1, .i32⟩ : BufTy).Contents (Elt F)) (r_main_v630 (F := F) X)

def r_main_v633 (X : (⟨S1000000x4, .f32⟩ : BufTy).Contents (Elt F)) : (⟨S1000000x2, .i32⟩ : BufTy).Contents (Elt F) :=
  (cat2 (F := F) : (⟨S1000000x1, .i32⟩ : BufTy).Contents (Elt F) → (⟨S1000000x1, .i32⟩ : BufTy).Contents (Elt F) → (⟨S1000000x2, .i32⟩ : BufTy).Contents (Elt F)) (r_main_v631 (F := F) X) (r_main_v632 (F := F) X)

def r_main_v634 (X : (⟨S1000000x4, .f32⟩ : BufTy).Contents (Elt F)) (P2 : (⟨S16x256x256, .f32⟩ : BufTy).Contents (Elt F)) : (⟨S16x1000000, .f32⟩ : BufTy).Contents (Elt F) :=
  ((fun x i => Host.gather gather_S16x256x256_S1000000x2_S16x1000000_0_12_n_n_12_1_1611 x i) : (⟨S16x256x256, .f32⟩ : BufTy).Contents (Elt F) → (⟨S1000000x2, .i32⟩ : BufTy).Contents (Elt F) → (⟨S16x1000000, .f32⟩ : BufTy).Contents (Elt F)) P2 (r_main_v633 (F := F) X)

def r_main_v635 (X : (⟨S1000000x4, .f32⟩ : BufTy).Contents (Elt F)) : (⟨S1000000, .f32⟩ : BufTy).Contents (Elt F) :=
  (mulf : (⟨S1000000, .f32⟩ : BufTy).Contents (Elt F) → (⟨S1000000, .f32⟩ : BufTy).Contents (Elt F) → (⟨S1000000, .f32⟩ : BufTy).Contents (Elt F)) (r_main_v556 (F := F) X) (r_main_v548 (F := F) X)

def r_main_v636 (X : (⟨S1000000x4, .f32⟩ : BufTy).Contents (Elt F)) : (⟨S1x1000000, .f32⟩ : BufTy).Contents (Elt F) :=
  (broadcastInDim S1x1000000 ![1] bcast_S1000000_S1x1000000_1 : (⟨S1000000, .f32⟩ : BufTy).Contents (Elt F) → (⟨S1x1000000, .f32⟩ : BufTy).Contents (Elt F)) (r_main_v635 (F := F) X)

def r_main_v637 (X : (⟨S1000000x4, .f32⟩ : BufTy).Contents (Elt F)) : (⟨S16x1000000, .f32⟩ : BufTy).Contents (Elt F) :=
  (broadcastInDim S16x1000000 ![0, 1] bcast_S1x1000000_S16x1000000_0_1 : (⟨S1x1000000, .f32⟩ : BufTy).Contents (Elt F) → (⟨S16x1000000, .f32⟩ : BufTy).Contents (Elt F)) (r_main_v636 (F := F) X)

def r_main_v638 (X : (⟨S1000000x4, .f32⟩ : BufTy).Contents (Elt F)) (P2 : (⟨S16x256x256, .f32⟩ : BufTy).Contents (Elt F)) : (⟨S16x1000000, .f32⟩ : BufTy).Contents (Elt F) :=
  (mulf : (⟨S16x1000000, .f32⟩ : BufTy).Contents (Elt F) → (⟨S16x1000000, .f32⟩ : BufTy).Contents (Elt F) → (⟨S16x1000000, .f32⟩ : BufTy).Contents (Elt F)) (r_main_v634 (F := F) X P2) (r_main_v637 (F := F) X)

def r_main_v639 (X : (⟨S1000000x4, .f32⟩ : BufTy).Contents (Elt F)) (P2 : (⟨S16x256x256, .f32⟩ : BufTy).Contents (Elt F)) : (⟨S16x1000000, .f32⟩ : BufTy).Contents (Elt F) :=
  (addf : (⟨S16x1000000, .f32⟩ : BufTy).Contents (Elt F) → (⟨S16x1000000, .f32⟩ : BufTy).Contents (Elt F) → (⟨S16x1000000, .f32⟩ : BufTy).Contents (Elt F)) (r_main_v620 (F := F) X P2) (r_main_v638 (F := F) X P2)

def r_main_v640 (X : (⟨S1000000x4, .f32⟩ : BufTy).Contents (Elt F)) (G : (⟨S16x128x128x128, .f32⟩ : BufTy).Contents (Elt F)) (P0 : (⟨S16x256x256, .f32⟩ : BufTy).Contents (Elt F)) (P1 : (⟨S16x256x256, .f32⟩ : BufTy).Contents (Elt F)) (P2 : (⟨S16x256x256, .f32⟩ : BufTy).Contents (Elt F)) : (⟨S16x1000000, .f32⟩ : BufTy).Contents (Elt F) :=
  (mulf : (⟨S16x1000000, .f32⟩ : BufTy).Contents (Elt F) → (⟨S16x1000000, .f32⟩ : BufTy).Contents (Elt F) → (⟨S16x1000000, .f32⟩ : BufTy).Contents (Elt F)) (r_main_v517 (F := F) X G P0 P1) (r_main_v639 (F := F) X P2)

def r_main_v641 (X : (⟨S1000000x4, .f32⟩ : BufTy).Contents (Elt F)) : (⟨S1000000x1, .f32⟩ : BufTy).Contents (Elt F) :=
  ((extractStridedSlice S1000000x1 ![0, 3] · slices_S1000000x4_S1000000x1_0_3) : (⟨S1000000x4, .f32⟩ : BufTy).Contents (Elt F) → (⟨S1000000x1, .f32⟩ : BufTy).Contents (Elt F)) X

def r_main_v642 (X : (⟨S1000000x4, .f32⟩ : BufTy).Contents (Elt F)) : (⟨S1000000, .f32⟩ : BufTy).Contents (Elt F) :=
  shapeCast _ (r_main_v641 (F := F) X) shapeCasts_S1000000x1_S1000000

def r_main_cst_195 : (⟨S_, .f32⟩ : BufTy).Contents (Elt F) :=
  constant S_ .f32 0x427C0000#32

def r_main_v643 : (⟨S1000000, .f32⟩ : BufTy).Contents (Elt F) :=
  (broadcastInDim S1000000 ![] bcast_S_S1000000 : (⟨S_, .f32⟩ : BufTy).Contents (Elt F) → (⟨S1000000, .f32⟩ : BufTy).Contents (Elt F)) (r_main_cst_195 (F := F))

def r_main_v644 (X : (⟨S1000000x4, .f32⟩ : BufTy).Contents (Elt F)) : (⟨S1000000, .f32⟩ : BufTy).Contents (Elt F) :=
  (mulf : (⟨S1000000, .f32⟩ : BufTy).Contents (Elt F) → (⟨S1000000, .f32⟩ : BufTy).Contents (Elt F) → (⟨S1000000, .f32⟩ : BufTy).Contents (Elt F)) (r_main_v642 (F := F) X) (r_main_v643 (F := F))

def r_main_v645 (X : (⟨S1000000x4, .f32⟩ : BufTy).Contents (Elt F)) : (⟨S1000000, .f32⟩ : BufTy).Contents (Elt F) :=
  (Host.floor : (⟨S1000000, .f32⟩ : BufTy).Contents (Elt F) → (⟨S1000000, .f32⟩ : BufTy).Contents (Elt F)) (r_main_v644 (F := F) X)

def r_main_v646 (X : (⟨S1000000x4, .f32⟩ : BufTy).Contents (Elt F)) : (⟨S1000000, .i32⟩ : BufTy).Contents (Elt F) :=
  (fptosi 32 : (⟨S1000000, .f32⟩ : BufTy).Contents (Elt F) → (⟨S1000000, .i32⟩ : BufTy).Contents (Elt F)) (r_main_v645 (F := F) X)

def r_main_cst_196 : (⟨S_, .f32⟩ : BufTy).Contents (Elt F) :=
  constant S_ .f32 0x3F800000#32

def r_main_v647 : (⟨S1000000, .f32⟩ : BufTy).Contents (Elt F) :=
  (broadcastInDim S1000000 ![] bcast_S_S1000000 : (⟨S_, .f32⟩ : BufTy).Contents (Elt F) → (⟨S1000000, .f32⟩ : BufTy).Contents (Elt F)) (r_main_cst_196 (F := F))

def r_main_v648 (X : (⟨S1000000x4, .f32⟩ : BufTy).Contents (Elt F)) : (⟨S1000000, .f32⟩ : BufTy).Contents (Elt F) :=
  (addf : (⟨S1000000, .f32⟩ : BufTy).Contents (Elt F) → (⟨S1000000, .f32⟩ : BufTy).Contents (Elt F) → (⟨S1000000, .f32⟩ : BufTy).Contents (Elt F)) (r_main_v645 (F := F) X) (r_main_v647 (F := F))

def r_main_cst_197 : (⟨S_, .f32⟩ : BufTy).Contents (Elt F) :=
  constant S_ .f32 0x00000000#32

def r_main_c_198 : (⟨S_, .i32⟩ : BufTy).Contents (Elt F) :=
  constantI S_ 32 63#32

def r_main_call18_v0 : (⟨S_, .f32⟩ : BufTy).Contents (Elt F) :=
  (id : (⟨S_, .f32⟩ : BufTy).Contents (Elt F) → (⟨S_, .f32⟩ : BufTy).Contents (Elt F)) (r_main_cst_197 (F := F))

def r_main_call18_v1 : (⟨S1000000, .f32⟩ : BufTy).Contents (Elt F) :=
  (broadcastInDim S1000000 ![] bcast_S_S1000000 : (⟨S_, .f32⟩ : BufTy).Contents (Elt F) → (⟨S1000000, .f32⟩ : BufTy).Contents (Elt F)) (r_main_call18_v0 (F := F))

def r_main_call18_v2 (X : (⟨S1000000x4, .f32⟩ : BufTy).Contents (Elt F)) : (⟨S1000000, .f32⟩ : BufTy).Contents (Elt F) :=
  (maximumf : (⟨S1000000, .f32⟩ : BufTy).Contents (Elt F) → (⟨S1000000, .f32⟩ : BufTy).Contents (Elt F) → (⟨S1000000, .f32⟩ : BufTy).Contents (Elt F)) (r_main_call18_v1 (F := F)) (r_main_v648 (F := F) X)

def r_main_call18_v3 : (⟨S_, .f32⟩ : BufTy).Contents (Elt F) :=
  (sitofp .f32 : (⟨S_, .i32⟩ : BufTy).Contents (Elt F) → (⟨S_, .f32⟩ : BufTy).Contents (Elt F)) (r_main_c_198 (F := F))

def r_main_call18_v4 : (⟨S1000000, .f32⟩ : BufTy).Contents (Elt F) :=
  (broadcastInDim S1000000 ![] bcast_S_S1000000 : (⟨S_, .f32⟩ : BufTy).Contents (Elt F) → (⟨S1000000, .f32⟩ : BufTy).Contents (Elt F)) (r_main_call18_v3 (F := F))

def r_main_v649 (X : (⟨S1000000x4, .f32⟩ : BufTy).Contents (Elt F)) : (⟨S1000000, .f32⟩ : BufTy).Contents (Elt F) :=
  (minimumf : (⟨S1000000, .f32⟩ : BufTy).Contents (Elt F) → (⟨S1000000, .f32⟩ : BufTy).Contents (Elt F) → (⟨S1000000, .f32⟩ : BufTy).Contents (Elt F)) (r_main_call18_v4 (F := F)) (r_main_call18_v2 (F := F) X)

def r_main_v650 (X : (⟨S1000000x4, .f32⟩ : BufTy).Contents (Elt F)) : (⟨S1000000, .i32⟩ : BufTy).Contents (Elt F) :=
  (fptosi 32 : (⟨S1000000, .f32⟩ : BufTy).Contents (Elt F) → (⟨S1000000, .i32⟩ : BufTy).Contents (Elt F)) (r_main_v649 (F := F) X)

def r_main_v651 (X : (⟨S1000000x4, .f32⟩ : BufTy).Contents (Elt F)) : (⟨S1000000, .f32⟩ : BufTy).Contents (Elt F) :=
  (subf : (⟨S1000000, .f32⟩ : BufTy).Contents (Elt F) → (⟨S1000000, .f32⟩ : BufTy).Contents (Elt F) → (⟨S1000000, .f32⟩ : BufTy).Contents (Elt F)) (r_main_v644 (F := F) X) (r_main_v645 (F := F) X)

def r_main_c_199 : (⟨S_, .i32⟩ : BufTy).Contents (Elt F) :=
  constantI S_ 32 0#32

def r_main_v652 : (⟨S1000000, .i32⟩ : BufTy).Contents (Elt F) :=
  (broadcastInDim S1000000 ![] bcast_S_S1000000 : (⟨S_, .i32⟩ : BufTy).Contents (Elt F) → (⟨S1000000, .i32⟩ : BufTy).Contents (Elt F)) (r_main_c_199 (F := F))

def r_main_v653 (X : (⟨S1000000x4, .f32⟩ : BufTy).Contents (Elt F)) : (⟨S1000000, .i1⟩ : BufTy).Contents (Elt F) :=
  (cmpi .slt : (⟨S1000000, .i32⟩ : BufTy).Contents (Elt F) → (⟨S1000000, .i32⟩ : BufTy).Contents (Elt F) → (⟨S1000000, .i1⟩ : BufTy).Contents (Elt F)) (r_main_v646 (F := F) X) (r_main_v652 (F := F))

def r_main_c_200 : (⟨S_, .i32⟩ : BufTy).Contents (Elt F) :=
  constantI S_ 32 64#32

def r_main_v654 : (⟨S1000000, .i32⟩ : BufTy).Contents (Elt F) :=
  (broadcastInDim S1000000 ![] bcast_S_S1000000 : (⟨S_, .i32⟩ : BufTy).Contents (Elt F) → (⟨S1000000, .i32⟩ : BufTy).Contents (Elt F)) (r_main_c_200 (F := F))

def r_main_v655 (X : (⟨S1000000x4, .f32⟩ : BufTy).Contents (Elt F)) : (⟨S1000000, .i32⟩ : BufTy).Contents (Elt F) :=
  (addi : (⟨S1000000, .i32⟩ : BufTy).Contents (Elt F) → (⟨S1000000, .i32⟩ : BufTy).Contents (Elt F) → (⟨S1000000, .i32⟩ : BufTy).Contents (Elt F)) (r_main_v646 (F := F) X) (r_main_v654 (F := F))

def r_main_v656 (X : (⟨S1000000x4, .f32⟩ : BufTy).Contents (Elt F)) : (⟨S1000000, .i32⟩ : BufTy).Contents (Elt F) :=
  (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) (r_main_v653 (F := F) X) (r_main_v655 (F := F) X) (r_main_v646 (F := F) X)

def r_main_v657 (X : (⟨S1000000x4, .f32⟩ : BufTy).Contents (Elt F)) : (⟨S1000000x1, .i32⟩ : BufTy).Contents (Elt F) :=
  (broadcastInDim S1000000x1 ![0] bcast_S1000000_S1000000x1_0 : (⟨S1000000, .i32⟩ : BufTy).Contents (Elt F) → (⟨S1000000x1, .i32⟩ : BufTy).Contents (Elt F)) (r_main_v656 (F := F) X)

def r_main_v658 (X : (⟨S1000000x4, .f32⟩ : BufTy).Contents (Elt F)) (L : (⟨S16x64, .f32⟩ : BufTy).Contents (Elt F)) : (⟨S16x1000000, .f32⟩ : BufTy).Contents (Elt F) :=
  ((fun x i => Host.gather gather_S16x64_S1000000x1_S16x1000000_0_1_n_n_1_1_161 x i) : (⟨S16x64, .f32⟩ : BufTy).Contents (Elt F) → (⟨S1000000x1, .i32⟩ : BufTy).Contents (Elt F) → (⟨S16x1000000, .f32⟩ : BufTy).Contents (Elt F)) L (r_main_v657 (F := F) X)

def r_main_cst_201 : (⟨S_, .f32⟩ : BufTy).Contents (Elt F) :=
  constant S_ .f32 0x3F800000#32

def r_main_v659 : (⟨S1000000, .f32⟩ : BufTy).Contents (Elt F) :=
  (broadcastInDim S1000000 ![] bcast_S_S1000000 : (⟨S_, .f32⟩ : BufTy).Contents (Elt F) → (⟨S1000000, .f32⟩ : BufTy).Contents (Elt F)) (r_main_cst_201 (F := F))

def r_main_v660 (X : (⟨S1000000x4, .f32⟩ : BufTy).Contents (Elt F)) : (⟨S1000000, .f32⟩ : BufTy).Contents (Elt F) :=
  (subf : (⟨S1000000, .f32⟩ : BufTy).Contents (Elt F) → (⟨S1000000, .f32⟩ : BufTy).Contents (Elt F) → (⟨S1000000, .f32⟩ : BufTy).Contents (Elt F)) (r_main_v659 (F := F)) (r_main_v651 (F := F) X)

def r_main_v661 (X : (⟨S1000000x4, .f32⟩ : BufTy).Contents (Elt F)) : (⟨S1x1000000, .f32⟩ : BufTy).Contents (Elt F) :=
  (broadcastInDim S1x1000000 ![1] bcast_S1000000_S1x1000000_1 : (⟨S1000000, .f32⟩ : BufTy).Contents (Elt F) → (⟨S1x1000000, .f32⟩ : BufTy).Contents (Elt F)) (r_main_v660 (F := F) X)

def r_main_v662 (X : (⟨S1000000x4, .f32⟩ : BufTy).Contents (Elt F)) : (⟨S16x1000000, .f32⟩ : BufTy).Contents (Elt F) :=
  (broadcastInDim S16x1000000 ![0, 1] bcast_S1x1000000_S16x1000000_0_1 : (⟨S1x1000000, .f32⟩ : BufTy).Contents (Elt F) → (⟨S16x1000000, .f32⟩ : BufTy).Contents (Elt F)) (r_main_v661 (F := F) X)

def r_main_v663 (X : (⟨S1000000x4, .f32⟩ : BufTy).Contents (Elt F)) (L : (⟨S16x64, .f32⟩ : BufTy).Contents (Elt F)) : (⟨S16x1000000, .f32⟩ : BufTy).Contents (Elt F) :=
  (mulf : (⟨S16x1000000, .f32⟩ : BufTy).Contents (Elt F) → (⟨S16x1000000, .f32⟩ : BufTy).Contents (Elt F) → (⟨S16x1000000, .f32⟩ : BufTy).Contents (Elt F)) (r_main_v658 (F := F) X L) (r_main_v662 (F := F) X)

def r_main_c_202 : (⟨S_, .i32⟩ : BufTy).Contents (Elt F) :=
  constantI S_ 32 0#32

def r_main_v664 : (⟨S1000000, .i32⟩ : BufTy).Contents (Elt F) :=
  (broadcastInDim S1000000 ![] bcast_S_S1000000 : (⟨S_, .i32⟩ : BufTy).Contents (Elt F) → (⟨S1000000, .i32⟩ : BufTy).Contents (Elt F)) (r_main_c_202 (F := F))

def r_main_v665 (X : (⟨S1000000x4, .f32⟩ : BufTy).Contents (Elt F)) : (⟨S1000000, .i1⟩ : BufTy).Contents (Elt F) :=
  (cmpi .slt : (⟨S1000000, .i32⟩ : BufTy).Contents (Elt F) → (⟨S1000000, .i32⟩ : BufTy).Contents (Elt F) → (⟨S1000000, .i1⟩ : BufTy).Contents (Elt F)) (r_main_v650 (F := F) X) (r_main_v664 (F := F))

def r_main_c_203 : (⟨S_, .i32⟩ : BufTy).Contents (Elt F) :=
  constantI S_ 32 64#32

def r_main_v666 : (⟨S1000000, .i32⟩ : BufTy).Contents (Elt F) :=
  (broadcastInDim S1000000 ![] bcast_S_S1000000 : (⟨S_, .i32⟩ : BufTy).Contents (Elt F) → (⟨S1000000, .i32⟩ : BufTy).Contents (Elt F)) (r_main_c_203 (F := F))

def r_main_v667 (X : (⟨S1000000x4, .f32⟩ : BufTy).Contents (Elt F)) : (⟨S1000000, .i32⟩ : BufTy).Contents (Elt F) :=
  (addi : (⟨S1000000, .i32⟩ : BufTy).Contents (Elt F) → (⟨S1000000, .i32⟩ : BufTy).Contents (Elt F) → (⟨S1000000, .i32⟩ : BufTy).Contents (Elt F)) (r_main_v650 (F := F) X) (r_main_v666 (F := F))

def r_main_v668 (X : (⟨S1000000x4, .f32⟩ : BufTy).Contents (Elt F)) : (⟨S1000000, .i32⟩ : BufTy).Contents (Elt F) :=
  (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) (r_main_v665 (F := F) X) (r_main_v667 (F := F) X) (r_main_v650 (F := F) X)

def r_main_v669 (X : (⟨S1000000x4, .f32⟩ : BufTy).Contents (Elt F)) : (⟨S1000000x1, .i32⟩ : BufTy).Contents (Elt F) :=
  (broadcastInDim S1000000x1 ![0] bcast_S1000000_S1000000x1_0 : (⟨S1000000, .i32⟩ : BufTy).Contents (Elt F) → (⟨S1000000x1, .i32⟩ : BufTy).Contents (Elt F)) (r_main_v668 (F := F) X)

def r_main_v670 (X : (⟨S1000000x4, .f32⟩ : BufTy).Contents (Elt F)) (L : (⟨S16x64, .f32⟩ : BufTy).Contents (Elt F)) : (⟨S16x1000000, .f32⟩ : BufTy).Contents (Elt F) :=
  ((fun x i => Host.gather gather_S16x64_S1000000x1_S16x1000000_0_1_n_n_1_1_161 x i) : (⟨S16x64, .f32⟩ : BufTy).Contents (Elt F) → (⟨S1000000x1, .i32⟩ : BufTy).Contents (Elt F) → (⟨S16x1000000, .f32⟩ : BufTy).Contents (Elt F)) L (r_main_v669 (F := F) X)

def r_main_v671 (X : (⟨S1000000x4, .f32⟩ : BufTy).Contents (Elt F)) : (⟨S1x1000000, .f32⟩ : BufTy).Contents (Elt F) :=
  (broadcastInDim S1x1000000 ![1] bcast_S1000000_S1x1000000_1 : (⟨S1000000, .f32⟩ : BufTy).Contents (Elt F) → (⟨S1x1000000, .f32⟩ : BufTy).Contents (Elt F)) (r_main_v651 (F := F) X)

def r_main_v672 (X : (⟨S1000000x4, .f32⟩ : BufTy).Contents (Elt F)) : (⟨S16x1000000, .f32⟩ : BufTy).Contents (Elt F) :=
  (broadcastInDim S16x1000000 ![0, 1] bcast_S1x1000000_S16x1000000_0_1 : (⟨S1x1000000, .f32⟩ : BufTy).Contents (Elt F) → (⟨S16x1000000, .f32⟩ : BufTy).Contents (Elt F)) (r_main_v671 (F := F) X)

def r_main_v673 (X : (⟨S1000000x4, .f32⟩ : BufTy).Contents (Elt F)) (L : (⟨S16x64, .f32⟩ : BufTy).Contents (Elt F)) : (⟨S16x1000000, .f32⟩ : BufTy).Contents (Elt F) :=
  (mulf : (⟨S16x1000000, .f32⟩ : BufTy).Contents (Elt F) → (⟨S16x1000000, .f32⟩ : BufTy).Contents (Elt F) → (⟨S16x1000000, .f32⟩ : BufTy).Contents (Elt F)) (r_main_v670 (F := F) X L) (r_main_v672 (F := F) X)

def r_main_v674 (X : (⟨S1000000x4, .f32⟩ : BufTy).Contents (Elt F)) (L : (⟨S16x64, .f32⟩ : BufTy).Contents (Elt F)) : (⟨S16x1000000, .f32⟩ : BufTy).Contents (Elt F) :=
  (addf : (⟨S16x1000000, .f32⟩ : BufTy).Contents (Elt F) → (⟨S16x1000000, .f32⟩ : BufTy).Contents (Elt F) → (⟨S16x1000000, .f32⟩ : BufTy).Contents (Elt F)) (r_main_v663 (F := F) X L) (r_main_v673 (F := F) X L)

def r_main_v675 (X : (⟨S1000000x4, .f32⟩ : BufTy).Contents (Elt F)) (G : (⟨S16x128x128x128, .f32⟩ : BufTy).Contents (Elt F)) (P0 : (⟨S16x256x256, .f32⟩ : BufTy).Contents (Elt F)) (P1 : (⟨S16x256x256, .f32⟩ : BufTy).Contents (Elt F)) (P2 : (⟨S16x256x256, .f32⟩ : BufTy).Contents (Elt F)) : (⟨S1000000x16, .f32⟩ : BufTy).Contents (Elt F) :=
  ((transpose S1000000x16 [1, 0] · transposes_S16x1000000_S1000000x16_1_0) : (⟨S16x1000000, .f32⟩ : BufTy).Contents (Elt F) → (⟨S1000000x16, .f32⟩ : BufTy).Contents (Elt F)) (r_main_v640 (F := F) X G P0 P1 P2)

def r_main_v676 (X : (⟨S1000000x4, .f32⟩ : BufTy).Contents (Elt F)) (L : (⟨S16x64, .f32⟩ : BufTy).Contents (Elt F)) : (⟨S1000000x16, .f32⟩ : BufTy).Contents (Elt F) :=
  ((transpose S1000000x16 [1, 0] · transposes_S16x1000000_S1000000x16_1_0) : (⟨S16x1000000, .f32⟩ : BufTy).Contents (Elt F) → (⟨S1000000x16, .f32⟩ : BufTy).Contents (Elt F)) (r_main_v674 (F := F) X L)

def r_main_v677 (X : (⟨S1000000x4, .f32⟩ : BufTy).Contents (Elt F)) (G : (⟨S16x128x128x128, .f32⟩ : BufTy).Contents (Elt F)) (P0 : (⟨S16x256x256, .f32⟩ : BufTy).Contents (Elt F)) (P1 : (⟨S16x256x256, .f32⟩ : BufTy).Contents (Elt F)) (P2 : (⟨S16x256x256, .f32⟩ : BufTy).Contents (Elt F)) (L : (⟨S16x64, .f32⟩ : BufTy).Contents (Elt F)) : (⟨S1000000x32, .f32⟩ : BufTy).Contents (Elt F) :=
  (cat16 : (⟨S1000000x16, .f32⟩ : BufTy).Contents (Elt F) → (⟨S1000000x16, .f32⟩ : BufTy).Contents (Elt F) → (⟨S1000000x32, .f32⟩ : BufTy).Contents (Elt F)) (r_main_v675 (F := F) X G P0 P1 P2) (r_main_v676 (F := F) X L)

end Cert.ReferenceIdeal.RefValue

end
-- ==== Proof.RefTables.lean ====
/- A TABLE read off the printed program, no argument: for each window boundary K, the statement HoldsK W X G P0 P1 P2 L that every buffer written before the boundary and read after it (and each argument, and the result once written) holds its definition in the contents W. -/
import proofs.«135735_j20624432955487_2_alg».proof.Proof.RefDefs
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- What the 6 live buffers hold before the first window. -/
def Holds0 (W : Valuation τ sig (Elt F)) (X : (⟨S1000000x4, .f32⟩ : BufTy).Contents (Elt F)) (G : (⟨S16x128x128x128, .f32⟩ : BufTy).Contents (Elt F)) (P0 : (⟨S16x256x256, .f32⟩ : BufTy).Contents (Elt F)) (P1 : (⟨S16x256x256, .f32⟩ : BufTy).Contents (Elt F)) (P2 : (⟨S16x256x256, .f32⟩ : BufTy).Contents (Elt F)) (L : (⟨S16x64, .f32⟩ : BufTy).Contents (Elt F)) : Prop :=
  W (no_index (Proc.devRef .tc main_arg0)) = X ∧
  W (no_index (Proc.devRef .tc main_arg1)) = G ∧
  W (no_index (Proc.devRef .tc main_arg2)) = P0 ∧
  W (no_index (Proc.devRef .tc main_arg3)) = P1 ∧
  W (no_index (Proc.devRef .tc main_arg4)) = P2 ∧
  W (no_index (Proc.devRef .tc main_arg5)) = L

/-- What the 19 live buffers hold after window main_part0. -/
def Holds1 (W : Valuation τ sig (Elt F)) (X : (⟨S1000000x4, .f32⟩ : BufTy).Contents (Elt F)) (G : (⟨S16x128x128x128, .f32⟩ : BufTy).Contents (Elt F)) (P0 : (⟨S16x256x256, .f32⟩ : BufTy).Contents (Elt F)) (P1 : (⟨S16x256x256, .f32⟩ : BufTy).Contents (Elt F)) (P2 : (⟨S16x256x256, .f32⟩ : BufTy).Contents (Elt F)) (L : (⟨S16x64, .f32⟩ : BufTy).Contents (Elt F)) : Prop :=
  W (no_index (Proc.devRef .tc main_arg0)) = X ∧
  W (no_index (Proc.devRef .tc main_arg1)) = G ∧
  W (no_index (Proc.devRef .tc main_arg2)) = P0 ∧
  W (no_index (Proc.devRef .tc main_arg3)) = P1 ∧
  W (no_index (Proc.devRef .tc main_arg4)) = P2 ∧
  W (no_index (Proc.devRef .tc main_arg5)) = L ∧
  W (no_index (Proc.devRef .tc main_c)) = r_main_c (F := F) ∧
  W (no_index (Proc.devRef .tc main_c_0)) = r_main_c_0 (F := F) ∧
  W (no_index (Proc.devRef .tc main_c_1)) = r_main_c_1 (F := F) ∧
  W (no_index (Proc.devRef .tc main_v16)) = r_main_v16 (F := F) X ∧
  W (no_index (Proc.devRef .tc main_v24)) = r_main_v24 (F := F) X ∧
  W (no_index (Proc.devRef .tc main_v27)) = r_main_v27 (F := F) X ∧
  W (no_index (Proc.devRef .tc main_v31)) = r_main_v31 (F := F) X ∧
  W (no_index (Proc.devRef .tc main_v32)) = r_main_v32 (F := F) X ∧
  W (no_index (Proc.devRef .tc main_v33)) = r_main_v33 (F := F) X ∧
  W (no_index (Proc.devRef .tc main_v35)) = r_main_v35 (F := F) X ∧
  W (no_index (Proc.devRef .tc main_v37)) = r_main_v37 (F := F) X ∧
  W (no_index (Proc.devRef .tc main_c_18)) = r_main_c_18 (F := F) ∧
  W (no_index (Proc.devRef .tc main_c_19)) = r_main_c_19 (F := F)

/-- What the 22 live buffers hold after window main_part1. -/
def Holds2 (W : Valuation τ sig (Elt F)) (X : (⟨S1000000x4, .f32⟩ : BufTy).Contents (Elt F)) (G : (⟨S16x128x128x128, .f32⟩ : BufTy).Contents (Elt F)) (P0 : (⟨S16x256x256, .f32⟩ : BufTy).Contents (Elt F)) (P1 : (⟨S16x256x256, .f32⟩ : BufTy).Contents (Elt F)) (P2 : (⟨S16x256x256, .f32⟩ : BufTy).Contents (Elt F)) (L : (⟨S16x64, .f32⟩ : BufTy).Contents (Elt F)) : Prop :=
  W (no_index (Proc.devRef .tc main_arg0)) = X ∧
  W (no_index (Proc.devRef .tc main_arg1)) = G ∧
  W (no_index (Proc.devRef .tc main_arg2)) = P0 ∧
  W (no_index (Proc.devRef .tc main_arg3)) = P1 ∧
  W (no_index (Proc.devRef .tc main_arg4)) = P2 ∧
  W (no_index (Proc.devRef .tc main_arg5)) = L ∧
  W (no_index (Proc.devRef .tc main_c)) = r_main_c (F := F) ∧
  W (no_index (Proc.devRef .tc main_c_0)) = r_main_c_0 (F := F) ∧
  W (no_index (Proc.devRef .tc main_c_1)) = r_main_c_1 (F := F) ∧
  W (no_index (Proc.devRef .tc main_v27)) = r_main_v27 (F := F) X ∧
  W (no_index (Proc.devRef .tc main_v31)) = r_main_v31 (F := F) X ∧
  W (no_index (Proc.devRef .tc main_v32)) = r_main_v32 (F := F) X ∧
  W (no_index (Proc.devRef .tc main_v35)) = r_main_v35 (F := F) X ∧
  W (no_index (Proc.devRef .tc main_v39)) = r_main_v39 (F := F) X ∧
  W (no_index (Proc.devRef .tc main_v40)) = r_main_v40 (F := F) X ∧
  W (no_index (Proc.devRef .tc main_v43)) = r_main_v43 (F := F) X ∧
  W (no_index (Proc.devRef .tc main_v47)) = r_main_v47 (F := F) X ∧
  W (no_index (Proc.devRef .tc main_v48)) = r_main_v48 (F := F) X ∧
  W (no_index (Proc.devRef .tc main_v51)) = r_main_v51 (F := F) X ∧
  W (no_index (Proc.devRef .tc main_v53)) = r_main_v53 (F := F) X ∧
  W (no_index (Proc.devRef .tc main_v81)) = r_main_v81 (F := F) X G ∧
  W (no_index (Proc.devRef .tc main_c_35)) = r_main_c_35 (F := F)

/-- What the 22 live buffers hold after window main_part2. -/
def Holds3 (W : Valuation τ sig (Elt F)) (X : (⟨S1000000x4, .f32⟩ : BufTy).Contents (Elt F)) (G : (⟨S16x128x128x128, .f32⟩ : BufTy).Contents (Elt F)) (P0 : (⟨S16x256x256, .f32⟩ : BufTy).Contents (Elt F)) (P1 : (⟨S16x256x256, .f32⟩ : BufTy).Contents (Elt F)) (P2 : (⟨S16x256x256, .f32⟩ : BufTy).Contents (Elt F)) (L : (⟨S16x64, .f32⟩ : BufTy).Contents (Elt F)) : Prop :=
  W (no_index (Proc.devRef .tc main_arg0)) = X ∧
  W (no_index (Proc.devRef .tc main_arg1)) = G ∧
  W (no_index (Proc.devRef .tc main_arg2)) = P0 ∧
  W (no_index (Proc.devRef .tc main_arg3)) = P1 ∧
  W (no_index (Proc.devRef .tc main_arg4)) = P2 ∧
  W (no_index (Proc.devRef .tc main_arg5)) = L ∧
  W (no_index (Proc.devRef .tc main_c)) = r_main_c (F := F) ∧
  W (no_index (Proc.devRef .tc main_c_0)) = r_main_c_0 (F := F) ∧
  W (no_index (Proc.devRef .tc main_c_1)) = r_main_c_1 (F := F) ∧
  W (no_index (Proc.devRef .tc main_v27)) = r_main_v27 (F := F) X ∧
  W (no_index (Proc.devRef .tc main_v31)) = r_main_v31 (F := F) X ∧
  W (no_index (Proc.devRef .tc main_v32)) = r_main_v32 (F := F) X ∧
  W (no_index (Proc.devRef .tc main_v35)) = r_main_v35 (F := F) X ∧
  W (no_index (Proc.devRef .tc main_v39)) = r_main_v39 (F := F) X ∧
  W (no_index (Proc.devRef .tc main_v40)) = r_main_v40 (F := F) X ∧
  W (no_index (Proc.devRef .tc main_v43)) = r_main_v43 (F := F) X ∧
  W (no_index (Proc.devRef .tc main_v47)) = r_main_v47 (F := F) X ∧
  W (no_index (Proc.devRef .tc main_v48)) = r_main_v48 (F := F) X ∧
  W (no_index (Proc.devRef .tc main_v51)) = r_main_v51 (F := F) X ∧
  W (no_index (Proc.devRef .tc main_v107)) = r_main_v107 (F := F) X G ∧
  W (no_index (Proc.devRef .tc main_v109)) = r_main_v109 (F := F) X ∧
  W (no_index (Proc.devRef .tc main_v129)) = r_main_v129 (F := F) X G

/-- What the 23 live buffers hold after window main_part3. -/
def Holds4 (W : Valuation τ sig (Elt F)) (X : (⟨S1000000x4, .f32⟩ : BufTy).Contents (Elt F)) (G : (⟨S16x128x128x128, .f32⟩ : BufTy).Contents (Elt F)) (P0 : (⟨S16x256x256, .f32⟩ : BufTy).Contents (Elt F)) (P1 : (⟨S16x256x256, .f32⟩ : BufTy).Contents (Elt F)) (P2 : (⟨S16x256x256, .f32⟩ : BufTy).Contents (Elt F)) (L : (⟨S16x64, .f32⟩ : BufTy).Contents (Elt F)) : Prop :=
  W (no_index (Proc.devRef .tc main_arg0)) = X ∧
  W (no_index (Proc.devRef .tc main_arg1)) = G ∧
  W (no_index (Proc.devRef .tc main_arg2)) = P0 ∧
  W (no_index (Proc.devRef .tc main_arg3)) = P1 ∧
  W (no_index (Proc.devRef .tc main_arg4)) = P2 ∧
  W (no_index (Proc.devRef .tc main_arg5)) = L ∧
  W (no_index (Proc.devRef .tc main_c)) = r_main_c (F := F) ∧
  W (no_index (Proc.devRef .tc main_c_0)) = r_main_c_0 (F := F) ∧
  W (no_index (Proc.devRef .tc main_c_1)) = r_main_c_1 (F := F) ∧
  W (no_index (Proc.devRef .tc main_v27)) = r_main_v27 (F := F) X ∧
  W (no_index (Proc.devRef .tc main_v31)) = r_main_v31 (F := F) X ∧
  W (no_index (Proc.devRef .tc main_v32)) = r_main_v32 (F := F) X ∧
  W (no_index (Proc.devRef .tc main_v35)) = r_main_v35 (F := F) X ∧
  W (no_index (Proc.devRef .tc main_v39)) = r_main_v39 (F := F) X ∧
  W (no_index (Proc.devRef .tc main_v40)) = r_main_v40 (F := F) X ∧
  W (no_index (Proc.devRef .tc main_v47)) = r_main_v47 (F := F) X ∧
  W (no_index (Proc.devRef .tc main_v48)) = r_main_v48 (F := F) X ∧
  W (no_index (Proc.devRef .tc main_v161)) = r_main_v161 (F := F) X G ∧
  W (no_index (Proc.devRef .tc main_v163)) = r_main_v163 (F := F) X ∧
  W (no_index (Proc.devRef .tc main_v165)) = r_main_v165 (F := F) X ∧
  W (no_index (Proc.devRef .tc main_v170)) = r_main_v170 (F := F) X ∧
  W (no_index (Proc.devRef .tc main_v175)) = r_main_v175 (F := F) X ∧
  W (no_index (Proc.devRef .tc main_v176)) = r_main_v176 (F := F)

/-- What the 20 live buffers hold after window main_part4. -/
def Holds5 (W : Valuation τ sig (Elt F)) (X : (⟨S1000000x4, .f32⟩ : BufTy).Contents (Elt F)) (G : (⟨S16x128x128x128, .f32⟩ : BufTy).Contents (Elt F)) (P0 : (⟨S16x256x256, .f32⟩ : BufTy).Contents (Elt F)) (P1 : (⟨S16x256x256, .f32⟩ : BufTy).Contents (Elt F)) (P2 : (⟨S16x256x256, .f32⟩ : BufTy).Contents (Elt F)) (L : (⟨S16x64, .f32⟩ : BufTy).Contents (Elt F)) : Prop :=
  W (no_index (Proc.devRef .tc main_arg0)) = X ∧
  W (no_index (Proc.devRef .tc main_arg1)) = G ∧
  W (no_index (Proc.devRef .tc main_arg2)) = P0 ∧
  W (no_index (Proc.devRef .tc main_arg3)) = P1 ∧
  W (no_index (Proc.devRef .tc main_arg4)) = P2 ∧
  W (no_index (Proc.devRef .tc main_arg5)) = L ∧
  W (no_index (Proc.devRef .tc main_c)) = r_main_c (F := F) ∧
  W (no_index (Proc.devRef .tc main_c_0)) = r_main_c_0 (F := F) ∧
  W (no_index (Proc.devRef .tc main_c_1)) = r_main_c_1 (F := F) ∧
  W (no_index (Proc.devRef .tc main_v27)) = r_main_v27 (F := F) X ∧
  W (no_index (Proc.devRef .tc main_v31)) = r_main_v31 (F := F) X ∧
  W (no_index (Proc.devRef .tc main_v32)) = r_main_v32 (F := F) X ∧
  W (no_index (Proc.devRef .tc main_v39)) = r_main_v39 (F := F) X ∧
  W (no_index (Proc.devRef .tc main_v40)) = r_main_v40 (F := F) X ∧
  W (no_index (Proc.devRef .tc main_v47)) = r_main_v47 (F := F) X ∧
  W (no_index (Proc.devRef .tc main_v48)) = r_main_v48 (F := F) X ∧
  W (no_index (Proc.devRef .tc main_v217)) = r_main_v217 (F := F) X G ∧
  W (no_index (Proc.devRef .tc main_v219)) = r_main_v219 (F := F) X ∧
  W (no_index (Proc.devRef .tc main_v224)) = r_main_v224 (F := F) X ∧
  W (no_index (Proc.devRef .tc main_v225)) = r_main_v225 (F := F)

/-- What the 12 live buffers hold after window main_part5. -/
def Holds6 (W : Valuation τ sig (Elt F)) (X : (⟨S1000000x4, .f32⟩ : BufTy).Contents (Elt F)) (G : (⟨S16x128x128x128, .f32⟩ : BufTy).Contents (Elt F)) (P0 : (⟨S16x256x256, .f32⟩ : BufTy).Contents (Elt F)) (P1 : (⟨S16x256x256, .f32⟩ : BufTy).Contents (Elt F)) (P2 : (⟨S16x256x256, .f32⟩ : BufTy).Contents (Elt F)) (L : (⟨S16x64, .f32⟩ : BufTy).Contents (Elt F)) : Prop :=
  W (no_index (Proc.devRef .tc main_arg0)) = X ∧
  W (no_index (Proc.devRef .tc main_arg1)) = G ∧
  W (no_index (Proc.devRef .tc main_arg2)) = P0 ∧
  W (no_index (Proc.devRef .tc main_arg3)) = P1 ∧
  W (no_index (Proc.devRef .tc main_arg4)) = P2 ∧
  W (no_index (Proc.devRef .tc main_arg5)) = L ∧
  W (no_index (Proc.devRef .tc main_c)) = r_main_c (F := F) ∧
  W (no_index (Proc.devRef .tc main_c_0)) = r_main_c_0 (F := F) ∧
  W (no_index (Proc.devRef .tc main_c_1)) = r_main_c_1 (F := F) ∧
  W (no_index (Proc.devRef .tc main_v271)) = r_main_v271 (F := F) X G ∧
  W (no_index (Proc.devRef .tc main_v273)) = r_main_v273 (F := F) ∧
  W (no_index (Proc.devRef .tc main_v274)) = r_main_v274 (F := F)

/-- What the 18 live buffers hold after window main_part6. -/
def Holds7 (W : Valuation τ sig (Elt F)) (X : (⟨S1000000x4, .f32⟩ : BufTy).Contents (Elt F)) (G : (⟨S16x128x128x128, .f32⟩ : BufTy).Contents (Elt F)) (P0 : (⟨S16x256x256, .f32⟩ : BufTy).Contents (Elt F)) (P1 : (⟨S16x256x256, .f32⟩ : BufTy).Contents (Elt F)) (P2 : (⟨S16x256x256, .f32⟩ : BufTy).Contents (Elt F)) (L : (⟨S16x64, .f32⟩ : BufTy).Contents (Elt F)) : Prop :=
  W (no_index (Proc.devRef .tc main_arg0)) = X ∧
  W (no_index (Proc.devRef .tc main_arg1)) = G ∧
  W (no_index (Proc.devRef .tc main_arg2)) = P0 ∧
  W (no_index (Proc.devRef .tc main_arg3)) = P1 ∧
  W (no_index (Proc.devRef .tc main_arg4)) = P2 ∧
  W (no_index (Proc.devRef .tc main_arg5)) = L ∧
  W (no_index (Proc.devRef .tc main_c_0)) = r_main_c_0 (F := F) ∧
  W (no_index (Proc.devRef .tc main_c_1)) = r_main_c_1 (F := F) ∧
  W (no_index (Proc.devRef .tc main_v271)) = r_main_v271 (F := F) X G ∧
  W (no_index (Proc.devRef .tc main_v297)) = r_main_v297 (F := F) X ∧
  W (no_index (Proc.devRef .tc main_v301)) = r_main_v301 (F := F) X ∧
  W (no_index (Proc.devRef .tc main_v302)) = r_main_v302 (F := F) X ∧
  W (no_index (Proc.devRef .tc main_v305)) = r_main_v305 (F := F) X ∧
  W (no_index (Proc.devRef .tc main_v309)) = r_main_v309 (F := F) X ∧
  W (no_index (Proc.devRef .tc main_v310)) = r_main_v310 (F := F) X ∧
  W (no_index (Proc.devRef .tc main_v311)) = r_main_v311 (F := F) ∧
  W (no_index (Proc.devRef .tc main_v313)) = r_main_v313 (F := F) X ∧
  W (no_index (Proc.devRef .tc main_v315)) = r_main_v315 (F := F) X

/-- What the 19 live buffers hold after window main_part7. -/
def Holds8 (W : Valuation τ sig (Elt F)) (X : (⟨S1000000x4, .f32⟩ : BufTy).Contents (Elt F)) (G : (⟨S16x128x128x128, .f32⟩ : BufTy).Contents (Elt F)) (P0 : (⟨S16x256x256, .f32⟩ : BufTy).Contents (Elt F)) (P1 : (⟨S16x256x256, .f32⟩ : BufTy).Contents (Elt F)) (P2 : (⟨S16x256x256, .f32⟩ : BufTy).Contents (Elt F)) (L : (⟨S16x64, .f32⟩ : BufTy).Contents (Elt F)) : Prop :=
  W (no_index (Proc.devRef .tc main_arg0)) = X ∧
  W (no_index (Proc.devRef .tc main_arg1)) = G ∧
  W (no_index (Proc.devRef .tc main_arg2)) = P0 ∧
  W (no_index (Proc.devRef .tc main_arg3)) = P1 ∧
  W (no_index (Proc.devRef .tc main_arg4)) = P2 ∧
  W (no_index (Proc.devRef .tc main_arg5)) = L ∧
  W (no_index (Proc.devRef .tc main_c_0)) = r_main_c_0 (F := F) ∧
  W (no_index (Proc.devRef .tc main_c_1)) = r_main_c_1 (F := F) ∧
  W (no_index (Proc.devRef .tc main_v271)) = r_main_v271 (F := F) X G ∧
  W (no_index (Proc.devRef .tc main_v297)) = r_main_v297 (F := F) X ∧
  W (no_index (Proc.devRef .tc main_v301)) = r_main_v301 (F := F) X ∧
  W (no_index (Proc.devRef .tc main_v302)) = r_main_v302 (F := F) X ∧
  W (no_index (Proc.devRef .tc main_v309)) = r_main_v309 (F := F) X ∧
  W (no_index (Proc.devRef .tc main_v310)) = r_main_v310 (F := F) X ∧
  W (no_index (Proc.devRef .tc main_v353)) = r_main_v353 (F := F) X P0 ∧
  W (no_index (Proc.devRef .tc main_v355)) = r_main_v355 (F := F) X ∧
  W (no_index (Proc.devRef .tc main_v360)) = r_main_v360 (F := F) X ∧
  W (no_index (Proc.devRef .tc main_v362)) = r_main_v362 (F := F) X ∧
  W (no_index (Proc.devRef .tc main_c_114)) = r_main_c_114 (F := F)

/-- What the 11 live buffers hold after window main_part8. -/
def Holds9 (W : Valuation τ sig (Elt F)) (X : (⟨S1000000x4, .f32⟩ : BufTy).Contents (Elt F)) (G : (⟨S16x128x128x128, .f32⟩ : BufTy).Contents (Elt F)) (P0 : (⟨S16x256x256, .f32⟩ : BufTy).Contents (Elt F)) (P1 : (⟨S16x256x256, .f32⟩ : BufTy).Contents (Elt F)) (P2 : (⟨S16x256x256, .f32⟩ : BufTy).Contents (Elt F)) (L : (⟨S16x64, .f32⟩ : BufTy).Contents (Elt F)) : Prop :=
  W (no_index (Proc.devRef .tc main_arg0)) = X ∧
  W (no_index (Proc.devRef .tc main_arg1)) = G ∧
  W (no_index (Proc.devRef .tc main_arg2)) = P0 ∧
  W (no_index (Proc.devRef .tc main_arg3)) = P1 ∧
  W (no_index (Proc.devRef .tc main_arg4)) = P2 ∧
  W (no_index (Proc.devRef .tc main_arg5)) = L ∧
  W (no_index (Proc.devRef .tc main_c_1)) = r_main_c_1 (F := F) ∧
  W (no_index (Proc.devRef .tc main_v394)) = r_main_v394 (F := F) X G P0 ∧
  W (no_index (Proc.devRef .tc main_v409)) = r_main_v409 (F := F) X ∧
  W (no_index (Proc.devRef .tc main_v411)) = r_main_v411 (F := F) X ∧
  W (no_index (Proc.devRef .tc main_v412)) = r_main_v412 (F := F)

/-- What the 18 live buffers hold after window main_part9. -/
def Holds10 (W : Valuation τ sig (Elt F)) (X : (⟨S1000000x4, .f32⟩ : BufTy).Contents (Elt F)) (G : (⟨S16x128x128x128, .f32⟩ : BufTy).Contents (Elt F)) (P0 : (⟨S16x256x256, .f32⟩ : BufTy).Contents (Elt F)) (P1 : (⟨S16x256x256, .f32⟩ : BufTy).Contents (Elt F)) (P2 : (⟨S16x256x256, .f32⟩ : BufTy).Contents (Elt F)) (L : (⟨S16x64, .f32⟩ : BufTy).Contents (Elt F)) : Prop :=
  W (no_index (Proc.devRef .tc main_arg0)) = X ∧
  W (no_index (Proc.devRef .tc main_arg1)) = G ∧
  W (no_index (Proc.devRef .tc main_arg2)) = P0 ∧
  W (no_index (Proc.devRef .tc main_arg3)) = P1 ∧
  W (no_index (Proc.devRef .tc main_arg4)) = P2 ∧
  W (no_index (Proc.devRef .tc main_arg5)) = L ∧
  W (no_index (Proc.devRef .tc main_c_1)) = r_main_c_1 (F := F) ∧
  W (no_index (Proc.devRef .tc main_v394)) = r_main_v394 (F := F) X G P0 ∧
  W (no_index (Proc.devRef .tc main_v420)) = r_main_v420 (F := F) X ∧
  W (no_index (Proc.devRef .tc main_v424)) = r_main_v424 (F := F) X ∧
  W (no_index (Proc.devRef .tc main_v425)) = r_main_v425 (F := F) X ∧
  W (no_index (Proc.devRef .tc main_v428)) = r_main_v428 (F := F) X ∧
  W (no_index (Proc.devRef .tc main_v432)) = r_main_v432 (F := F) X ∧
  W (no_index (Proc.devRef .tc main_v433)) = r_main_v433 (F := F) X ∧
  W (no_index (Proc.devRef .tc main_v434)) = r_main_v434 (F := F) ∧
  W (no_index (Proc.devRef .tc main_v436)) = r_main_v436 (F := F) X ∧
  W (no_index (Proc.devRef .tc main_v452)) = r_main_v452 (F := F) X P1 ∧
  W (no_index (Proc.devRef .tc main_v453)) = r_main_v453 (F := F) X

/-- What the 13 live buffers hold after window main_part10. -/
def Holds11 (W : Valuation τ sig (Elt F)) (X : (⟨S1000000x4, .f32⟩ : BufTy).Contents (Elt F)) (G : (⟨S16x128x128x128, .f32⟩ : BufTy).Contents (Elt F)) (P0 : (⟨S16x256x256, .f32⟩ : BufTy).Contents (Elt F)) (P1 : (⟨S16x256x256, .f32⟩ : BufTy).Contents (Elt F)) (P2 : (⟨S16x256x256, .f32⟩ : BufTy).Contents (Elt F)) (L : (⟨S16x64, .f32⟩ : BufTy).Contents (Elt F)) : Prop :=
  W (no_index (Proc.devRef .tc main_arg0)) = X ∧
  W (no_index (Proc.devRef .tc main_arg1)) = G ∧
  W (no_index (Proc.devRef .tc main_arg2)) = P0 ∧
  W (no_index (Proc.devRef .tc main_arg3)) = P1 ∧
  W (no_index (Proc.devRef .tc main_arg4)) = P2 ∧
  W (no_index (Proc.devRef .tc main_arg5)) = L ∧
  W (no_index (Proc.devRef .tc main_c_1)) = r_main_c_1 (F := F) ∧
  W (no_index (Proc.devRef .tc main_v394)) = r_main_v394 (F := F) X G P0 ∧
  W (no_index (Proc.devRef .tc main_v424)) = r_main_v424 (F := F) X ∧
  W (no_index (Proc.devRef .tc main_v425)) = r_main_v425 (F := F) X ∧
  W (no_index (Proc.devRef .tc main_v433)) = r_main_v433 (F := F) X ∧
  W (no_index (Proc.devRef .tc main_v497)) = r_main_v497 (F := F) X P1 ∧
  W (no_index (Proc.devRef .tc main_v502)) = r_main_v502 (F := F) X

/-- What the 12 live buffers hold after window main_part11. -/
def Holds12 (W : Valuation τ sig (Elt F)) (X : (⟨S1000000x4, .f32⟩ : BufTy).Contents (Elt F)) (G : (⟨S16x128x128x128, .f32⟩ : BufTy).Contents (Elt F)) (P0 : (⟨S16x256x256, .f32⟩ : BufTy).Contents (Elt F)) (P1 : (⟨S16x256x256, .f32⟩ : BufTy).Contents (Elt F)) (P2 : (⟨S16x256x256, .f32⟩ : BufTy).Contents (Elt F)) (L : (⟨S16x64, .f32⟩ : BufTy).Contents (Elt F)) : Prop :=
  W (no_index (Proc.devRef .tc main_arg0)) = X ∧
  W (no_index (Proc.devRef .tc main_arg1)) = G ∧
  W (no_index (Proc.devRef .tc main_arg2)) = P0 ∧
  W (no_index (Proc.devRef .tc main_arg3)) = P1 ∧
  W (no_index (Proc.devRef .tc main_arg4)) = P2 ∧
  W (no_index (Proc.devRef .tc main_arg5)) = L ∧
  W (no_index (Proc.devRef .tc main_v517)) = r_main_v517 (F := F) X G P0 P1 ∧
  W (no_index (Proc.devRef .tc main_v532)) = r_main_v532 (F := F) X ∧
  W (no_index (Proc.devRef .tc main_v540)) = r_main_v540 (F := F) X ∧
  W (no_index (Proc.devRef .tc main_v541)) = r_main_v541 (F := F) X ∧
  W (no_index (Proc.devRef .tc main_v543)) = r_main_v543 (F := F) X ∧
  W (no_index (Proc.devRef .tc main_v547)) = r_main_v547 (F := F) X

/-- What the 16 live buffers hold after window main_part12. -/
def Holds13 (W : Valuation τ sig (Elt F)) (X : (⟨S1000000x4, .f32⟩ : BufTy).Contents (Elt F)) (G : (⟨S16x128x128x128, .f32⟩ : BufTy).Contents (Elt F)) (P0 : (⟨S16x256x256, .f32⟩ : BufTy).Contents (Elt F)) (P1 : (⟨S16x256x256, .f32⟩ : BufTy).Contents (Elt F)) (P2 : (⟨S16x256x256, .f32⟩ : BufTy).Contents (Elt F)) (L : (⟨S16x64, .f32⟩ : BufTy).Contents (Elt F)) : Prop :=
  W (no_index (Proc.devRef .tc main_arg0)) = X ∧
  W (no_index (Proc.devRef .tc main_arg1)) = G ∧
  W (no_index (Proc.devRef .tc main_arg2)) = P0 ∧
  W (no_index (Proc.devRef .tc main_arg3)) = P1 ∧
  W (no_index (Proc.devRef .tc main_arg4)) = P2 ∧
  W (no_index (Proc.devRef .tc main_arg5)) = L ∧
  W (no_index (Proc.devRef .tc main_v517)) = r_main_v517 (F := F) X G P0 P1 ∧
  W (no_index (Proc.devRef .tc main_v543)) = r_main_v543 (F := F) X ∧
  W (no_index (Proc.devRef .tc main_v547)) = r_main_v547 (F := F) X ∧
  W (no_index (Proc.devRef .tc main_v548)) = r_main_v548 (F := F) X ∧
  W (no_index (Proc.devRef .tc main_v555)) = r_main_v555 (F := F) X ∧
  W (no_index (Proc.devRef .tc main_v556)) = r_main_v556 (F := F) X ∧
  W (no_index (Proc.devRef .tc main_v559)) = r_main_v559 (F := F) X ∧
  W (no_index (Proc.devRef .tc main_v580)) = r_main_v580 (F := F) X P2 ∧
  W (no_index (Proc.devRef .tc main_v590)) = r_main_v590 (F := F) X ∧
  W (no_index (Proc.devRef .tc main_v591)) = r_main_v591 (F := F) X

/-- What the 8 live buffers hold after window main_part13. -/
def Holds14 (W : Valuation τ sig (Elt F)) (X : (⟨S1000000x4, .f32⟩ : BufTy).Contents (Elt F)) (G : (⟨S16x128x128x128, .f32⟩ : BufTy).Contents (Elt F)) (P0 : (⟨S16x256x256, .f32⟩ : BufTy).Contents (Elt F)) (P1 : (⟨S16x256x256, .f32⟩ : BufTy).Contents (Elt F)) (P2 : (⟨S16x256x256, .f32⟩ : BufTy).Contents (Elt F)) (L : (⟨S16x64, .f32⟩ : BufTy).Contents (Elt F)) : Prop :=
  W (no_index (Proc.devRef .tc main_arg0)) = X ∧
  W (no_index (Proc.devRef .tc main_arg1)) = G ∧
  W (no_index (Proc.devRef .tc main_arg2)) = P0 ∧
  W (no_index (Proc.devRef .tc main_arg3)) = P1 ∧
  W (no_index (Proc.devRef .tc main_arg4)) = P2 ∧
  W (no_index (Proc.devRef .tc main_arg5)) = L ∧
  W (no_index (Proc.devRef .tc main_v640)) = r_main_v640 (F := F) X G P0 P1 P2 ∧
  W (no_index (Proc.devRef .tc main_v642)) = r_main_v642 (F := F) X

/-- What the 7 live buffers hold after window main_part14. -/
def Holds15 (W : Valuation τ sig (Elt F)) (X : (⟨S1000000x4, .f32⟩ : BufTy).Contents (Elt F)) (G : (⟨S16x128x128x128, .f32⟩ : BufTy).Contents (Elt F)) (P0 : (⟨S16x256x256, .f32⟩ : BufTy).Contents (Elt F)) (P1 : (⟨S16x256x256, .f32⟩ : BufTy).Contents (Elt F)) (P2 : (⟨S16x256x256, .f32⟩ : BufTy).Contents (Elt F)) (L : (⟨S16x64, .f32⟩ : BufTy).Contents (Elt F)) : Prop :=
  W (no_index (Proc.devRef .tc main_arg0)) = X ∧
  W (no_index (Proc.devRef .tc main_arg1)) = G ∧
  W (no_index (Proc.devRef .tc main_arg2)) = P0 ∧
  W (no_index (Proc.devRef .tc main_arg3)) = P1 ∧
  W (no_index (Proc.devRef .tc main_arg4)) = P2 ∧
  W (no_index (Proc.devRef .tc main_arg5)) = L ∧
  W (no_index (Proc.devRef .tc main_v677)) = r_main_v677 (F := F) X G P0 P1 P2 L

end Cert.ReferenceIdeal.RefValue

end
-- ==== Proof.RefStepTac.lean ====
/-
  The reference's windows, one at a time: if the buffers live before a window hold their definitions, the buffers
  live after it hold theirs. The window's fold is evaluated at every live buffer in one pass (an operation's result at
  its own buffer is its function of the operands' contents, at any other buffer what was there), the contents read
  from before the window are replaced by their definitions, and each entry is then its definition unfolded.
-/
import proofs.«135735_j20624432955487_2_alg».proof.Proof.RefOps
import proofs.«135735_j20624432955487_2_alg».proof.Proof.RefTables

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- One window: the incoming table as hypotheses, the window's fold evaluated at every live buffer, the buffers read
    from before the window replaced by their definitions, each entry compared with its definition. -/
macro "window_step" : tactic => `(tactic| (
  simp only [and_imp]
  intros
  after_results_simp
  try dsimp only [Matrix.cons_val]
  try after_results_simp
  try simp only [*]
  repeat' (first | rfl | trivial | refine And.intro ?_ ?_)))

end Cert.ReferenceIdeal.RefValue

end
-- ==== Proof.RefStepsA.lean ====
/-
  The reference's windows, one at a time: if the buffers live before a window hold their definitions, the buffers
  live after it hold theirs. The window's fold is evaluated at every live buffer in one pass (an operation's result at
  its own buffer is its function of the operands' contents, at any other buffer what was there), the contents read
  from before the window are replaced by their definitions, and each entry is then its definition unfolded.
-/
import proofs.«135735_j20624432955487_2_alg».proof.Proof.RefStepTac

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
theorem step0 (W : Valuation τ sig (Elt F)) (X : (⟨S1000000x4, .f32⟩ : BufTy).Contents (Elt F)) (G : (⟨S16x128x128x128, .f32⟩ : BufTy).Contents (Elt F))
    (P0 P1 P2 : (⟨S16x256x256, .f32⟩ : BufTy).Contents (Elt F)) (L : (⟨S16x64, .f32⟩ : BufTy).Contents (Elt F)) :
    Holds0 W X G P0 P1 P2 L → Holds1 (after ops0 W) X G P0 P1 P2 L := by
  unfold Holds0 Holds1
  window_step

set_option maxRecDepth 8192 in
set_option maxHeartbeats 4000000 in
theorem step1 (W : Valuation τ sig (Elt F)) (X : (⟨S1000000x4, .f32⟩ : BufTy).Contents (Elt F)) (G : (⟨S16x128x128x128, .f32⟩ : BufTy).Contents (Elt F))
    (P0 P1 P2 : (⟨S16x256x256, .f32⟩ : BufTy).Contents (Elt F)) (L : (⟨S16x64, .f32⟩ : BufTy).Contents (Elt F)) :
    Holds1 W X G P0 P1 P2 L → Holds2 (after ops1 W) X G P0 P1 P2 L := by
  unfold Holds1 Holds2
  window_step

set_option maxRecDepth 8192 in
set_option maxHeartbeats 4000000 in
theorem step2 (W : Valuation τ sig (Elt F)) (X : (⟨S1000000x4, .f32⟩ : BufTy).Contents (Elt F)) (G : (⟨S16x128x128x128, .f32⟩ : BufTy).Contents (Elt F))
    (P0 P1 P2 : (⟨S16x256x256, .f32⟩ : BufTy).Contents (Elt F)) (L : (⟨S16x64, .f32⟩ : BufTy).Contents (Elt F)) :
    Holds2 W X G P0 P1 P2 L → Holds3 (after ops2 W) X G P0 P1 P2 L := by
  unfold Holds2 Holds3
  window_step

set_option maxRecDepth 8192 in
set_option maxHeartbeats 4000000 in
theorem step3 (W : Valuation τ sig (Elt F)) (X : (⟨S1000000x4, .f32⟩ : BufTy).Contents (Elt F)) (G : (⟨S16x128x128x128, .f32⟩ : BufTy).Contents (Elt F))
    (P0 P1 P2 : (⟨S16x256x256, .f32⟩ : BufTy).Contents (Elt F)) (L : (⟨S16x64, .f32⟩ : BufTy).Contents (Elt F)) :
    Holds3 W X G P0 P1 P2 L → Holds4 (after ops3 W) X G P0 P1 P2 L := by
  unfold Holds3 Holds4
  window_step

set_option maxRecDepth 8192 in
set_option maxHeartbeats 4000000 in
theorem step4 (W : Valuation τ sig (Elt F)) (X : (⟨S1000000x4, .f32⟩ : BufTy).Contents (Elt F)) (G : (⟨S16x128x128x128, .f32⟩ : BufTy).Contents (Elt F))
    (P0 P1 P2 : (⟨S16x256x256, .f32⟩ : BufTy).Contents (Elt F)) (L : (⟨S16x64, .f32⟩ : BufTy).Contents (Elt F)) :
    Holds4 W X G P0 P1 P2 L → Holds5 (after ops4 W) X G P0 P1 P2 L := by
  unfold Holds4 Holds5
  window_step

end Cert.ReferenceIdeal.RefValue

end
-- ==== Proof.RefStepsB.lean ====
/-
  The reference's windows, one at a time: if the buffers live before a window hold their definitions, the buffers
  live after it hold theirs. The window's fold is evaluated at every live buffer in one pass (an operation's result at
  its own buffer is its function of the operands' contents, at any other buffer what was there), the contents read
  from before the window are replaced by their definitions, and each entry is then its definition unfolded.
-/
import proofs.«135735_j20624432955487_2_alg».proof.Proof.RefStepTac

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
theorem step5 (W : Valuation τ sig (Elt F)) (X : (⟨S1000000x4, .f32⟩ : BufTy).Contents (Elt F)) (G : (⟨S16x128x128x128, .f32⟩ : BufTy).Contents (Elt F))
    (P0 P1 P2 : (⟨S16x256x256, .f32⟩ : BufTy).Contents (Elt F)) (L : (⟨S16x64, .f32⟩ : BufTy).Contents (Elt F)) :
    Holds5 W X G P0 P1 P2 L → Holds6 (after ops5 W) X G P0 P1 P2 L := by
  unfold Holds5 Holds6
  window_step

set_option maxRecDepth 8192 in
set_option maxHeartbeats 4000000 in
theorem step6 (W : Valuation τ sig (Elt F)) (X : (⟨S1000000x4, .f32⟩ : BufTy).Contents (Elt F)) (G : (⟨S16x128x128x128, .f32⟩ : BufTy).Contents (Elt F))
    (P0 P1 P2 : (⟨S16x256x256, .f32⟩ : BufTy).Contents (Elt F)) (L : (⟨S16x64, .f32⟩ : BufTy).Contents (Elt F)) :
    Holds6 W X G P0 P1 P2 L → Holds7 (after ops6 W) X G P0 P1 P2 L := by
  unfold Holds6 Holds7
  window_step

set_option maxRecDepth 8192 in
set_option maxHeartbeats 4000000 in
theorem step7 (W : Valuation τ sig (Elt F)) (X : (⟨S1000000x4, .f32⟩ : BufTy).Contents (Elt F)) (G : (⟨S16x128x128x128, .f32⟩ : BufTy).Contents (Elt F))
    (P0 P1 P2 : (⟨S16x256x256, .f32⟩ : BufTy).Contents (Elt F)) (L : (⟨S16x64, .f32⟩ : BufTy).Contents (Elt F)) :
    Holds7 W X G P0 P1 P2 L → Holds8 (after ops7 W) X G P0 P1 P2 L := by
  unfold Holds7 Holds8
  window_step

set_option maxRecDepth 8192 in
set_option maxHeartbeats 4000000 in
theorem step8 (W : Valuation τ sig (Elt F)) (X : (⟨S1000000x4, .f32⟩ : BufTy).Contents (Elt F)) (G : (⟨S16x128x128x128, .f32⟩ : BufTy).Contents (Elt F))
    (P0 P1 P2 : (⟨S16x256x256, .f32⟩ : BufTy).Contents (Elt F)) (L : (⟨S16x64, .f32⟩ : BufTy).Contents (Elt F)) :
    Holds8 W X G P0 P1 P2 L → Holds9 (after ops8 W) X G P0 P1 P2 L := by
  unfold Holds8 Holds9
  window_step

set_option maxRecDepth 8192 in
set_option maxHeartbeats 4000000 in
theorem step9 (W : Valuation τ sig (Elt F)) (X : (⟨S1000000x4, .f32⟩ : BufTy).Contents (Elt F)) (G : (⟨S16x128x128x128, .f32⟩ : BufTy).Contents (Elt F))
    (P0 P1 P2 : (⟨S16x256x256, .f32⟩ : BufTy).Contents (Elt F)) (L : (⟨S16x64, .f32⟩ : BufTy).Contents (Elt F)) :
    Holds9 W X G P0 P1 P2 L → Holds10 (after ops9 W) X G P0 P1 P2 L := by
  unfold Holds9 Holds10
  window_step

end Cert.ReferenceIdeal.RefValue

end
-- ==== Proof.RefStepsC.lean ====
/-
  The reference's windows, one at a time: if the buffers live before a window hold their definitions, the buffers
  live after it hold theirs. The window's fold is evaluated at every live buffer in one pass (an operation's result at
  its own buffer is its function of the operands' contents, at any other buffer what was there), the contents read
  from before the window are replaced by their definitions, and each entry is then its definition unfolded.
-/
import proofs.«135735_j20624432955487_2_alg».proof.Proof.RefStepTac

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
theorem step10 (W : Valuation τ sig (Elt F)) (X : (⟨S1000000x4, .f32⟩ : BufTy).Contents (Elt F)) (G : (⟨S16x128x128x128, .f32⟩ : BufTy).Contents (Elt F))
    (P0 P1 P2 : (⟨S16x256x256, .f32⟩ : BufTy).Contents (Elt F)) (L : (⟨S16x64, .f32⟩ : BufTy).Contents (Elt F)) :
    Holds10 W X G P0 P1 P2 L → Holds11 (after ops10 W) X G P0 P1 P2 L := by
  unfold Holds10 Holds11
  window_step

set_option maxRecDepth 8192 in
set_option maxHeartbeats 4000000 in
theorem step11 (W : Valuation τ sig (Elt F)) (X : (⟨S1000000x4, .f32⟩ : BufTy).Contents (Elt F)) (G : (⟨S16x128x128x128, .f32⟩ : BufTy).Contents (Elt F))
    (P0 P1 P2 : (⟨S16x256x256, .f32⟩ : BufTy).Contents (Elt F)) (L : (⟨S16x64, .f32⟩ : BufTy).Contents (Elt F)) :
    Holds11 W X G P0 P1 P2 L → Holds12 (after ops11 W) X G P0 P1 P2 L := by
  unfold Holds11 Holds12
  window_step

set_option maxRecDepth 8192 in
set_option maxHeartbeats 4000000 in
theorem step12 (W : Valuation τ sig (Elt F)) (X : (⟨S1000000x4, .f32⟩ : BufTy).Contents (Elt F)) (G : (⟨S16x128x128x128, .f32⟩ : BufTy).Contents (Elt F))
    (P0 P1 P2 : (⟨S16x256x256, .f32⟩ : BufTy).Contents (Elt F)) (L : (⟨S16x64, .f32⟩ : BufTy).Contents (Elt F)) :
    Holds12 W X G P0 P1 P2 L → Holds13 (after ops12 W) X G P0 P1 P2 L := by
  unfold Holds12 Holds13
  window_step

set_option maxRecDepth 8192 in
set_option maxHeartbeats 4000000 in
theorem step13 (W : Valuation τ sig (Elt F)) (X : (⟨S1000000x4, .f32⟩ : BufTy).Contents (Elt F)) (G : (⟨S16x128x128x128, .f32⟩ : BufTy).Contents (Elt F))
    (P0 P1 P2 : (⟨S16x256x256, .f32⟩ : BufTy).Contents (Elt F)) (L : (⟨S16x64, .f32⟩ : BufTy).Contents (Elt F)) :
    Holds13 W X G P0 P1 P2 L → Holds14 (after ops13 W) X G P0 P1 P2 L := by
  unfold Holds13 Holds14
  window_step

set_option maxRecDepth 8192 in
set_option maxHeartbeats 4000000 in
theorem step14 (W : Valuation τ sig (Elt F)) (X : (⟨S1000000x4, .f32⟩ : BufTy).Contents (Elt F)) (G : (⟨S16x128x128x128, .f32⟩ : BufTy).Contents (Elt F))
    (P0 P1 P2 : (⟨S16x256x256, .f32⟩ : BufTy).Contents (Elt F)) (L : (⟨S16x64, .f32⟩ : BufTy).Contents (Elt F)) :
    Holds14 W X G P0 P1 P2 L → Holds15 (after ops14 W) X G P0 P1 P2 L := by
  unfold Holds14 Holds15
  window_step

end Cert.ReferenceIdeal.RefValue

end
-- ==== Proof.RefRun.lean ====
/-
  The reference's run.

  The windows' steps composed: from any contents of the device's buffers, after @main's operations the result
  buffer holds its definition of the six arguments' contents (the last of the chain of definitions, one per SSA
  value) and the arguments are unchanged. The library's run of a straight line of operations then gives: every weakly
  fair execution of the reference terminates with the result buffer at `out` of the launch contents of the arguments,
  the arguments kept.
-/
import proofs.«135735_j20624432955487_2_alg».proof.Proof.RefMain
import proofs.«135735_j20624432955487_2_alg».proof.Proof.RefStepsA
import proofs.«135735_j20624432955487_2_alg».proof.Proof.RefStepsB
import proofs.«135735_j20624432955487_2_alg».proof.Proof.RefStepsC
import Idealize.ShloMosaic.PureOps.Ideal
import Idealize.ShloMosaic.Lib.Pipeline.Frame

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- After all of @main's operations every argument holds what it held and the result holds its definition. -/
theorem holds_after (V0 : Valuation τ sig (Elt F)) :
    Holds15 (after ops V0) (V0 (Proc.devRef .tc main_arg0)) (V0 (Proc.devRef .tc main_arg1)) (V0 (Proc.devRef .tc main_arg2))
      (V0 (Proc.devRef .tc main_arg3)) (V0 (Proc.devRef .tc main_arg4)) (V0 (Proc.devRef .tc main_arg5)) := by
  have h0 : Holds0 V0 (V0 (Proc.devRef .tc main_arg0)) (V0 (Proc.devRef .tc main_arg1)) (V0 (Proc.devRef .tc main_arg2))
      (V0 (Proc.devRef .tc main_arg3)) (V0 (Proc.devRef .tc main_arg4)) (V0 (Proc.devRef .tc main_arg5)) :=
    ⟨rfl, rfl, rfl, rfl, rfl, rfl⟩
  simp only [ops, after_append]
  exact step14 _ _ _ _ _ _ _ (step13 _ _ _ _ _ _ _ (step12 _ _ _ _ _ _ _ (step11 _ _ _ _ _ _ _ (step10 _ _ _ _ _ _ _ (step9 _ _ _ _ _ _ _ (step8 _ _ _ _ _ _ _ (step7 _ _ _ _ _ _ _ (step6 _ _ _ _ _ _ _ (step5 _ _ _ _ _ _ _ (step4 _ _ _ _ _ _ _ (step3 _ _ _ _ _ _ _ (step2 _ _ _ _ _ _ _ (step1 _ _ _ _ _ _ _ (step0 _ _ _ _ _ _ _ (h0)))))))))))))))

/-- The reference's result as a function of its six arguments: the definition of the last SSA value. -/
def out (X : (⟨S1000000x4, .f32⟩ : BufTy).Contents (Elt Ideal)) (G : (⟨S16x128x128x128, .f32⟩ : BufTy).Contents (Elt Ideal))
    (P0 P1 P2 : (⟨S16x256x256, .f32⟩ : BufTy).Contents (Elt Ideal)) (L : (⟨S16x64, .f32⟩ : BufTy).Contents (Elt Ideal)) :
    (⟨S1000000x32, .f32⟩ : BufTy).Contents (Elt Ideal) :=
  r_main_v677 (F := Ideal) X G P0 P1 P2 L

/-- On every device, from any memory with zero counters: every weakly fair execution of the reference terminates with
    the result buffer at `out` of the arguments' launch contents and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v677) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => by
      have H := holds_after (F := Ideal) (launchContents m c)
      unfold Holds15 at H
      exact ⟨(h c main_v677).trans H.2.2.2.2.2.2, (h c main_arg0).trans H.1, (h c main_arg1).trans H.2.1,
        (h c main_arg2).trans H.2.2.1, (h c main_arg3).trans H.2.2.2.1, (h c main_arg4).trans H.2.2.2.2.1,
        (h c main_arg5).trans H.2.2.2.2.2.1⟩)
    (run_seq scopedRefs_eq scopedSems_eq defs main (fun _ => ops) main_eq (fun _ => ops_sub) m ρ (fun _ => ops_fresh))

end Cert.ReferenceIdeal.RefValue

end
-- ==== Proof.RefShape.lean ====
/-
  The shapes of the reference computation, as functions of arrays. The reference repeats a few patterns with fresh
  names: a pixel position p = ((v + 1)·½)·s of a coordinate column; its clipped lower and upper neighbours as 32-bit
  words and its weight p − ⌊p⌋; the normalisation every gather index goes through (a negative word has the extent
  added); an index table of three (two, one) such word columns; a gather that picks, per channel, the entry the
  table's row names; a weight over the 16 channels; and one corner — the gathered entries times the corner's weight,
  added onto what was accumulated. Each pattern is written here ONCE, in exactly the printed operations, so that a
  value of the program is such a definition applied to earlier values by unfolding alone.
-/
import proofs.«135735_j20624432955487_2_alg».proof.Proof.RefCat
import Idealize.ShloMosaic.PureOps.Ideal

noncomputable section
namespace Cert.ReferenceIdeal.RefValue
open Cert.ReferenceIdeal Cert.ReferenceIdeal.Gen Idealize.ShloMosaic

variable {F : FTy → Type} [FloatOps F]

/-- A 32-bit word in every row. -/
def bI (b : BitVec 32) : IVec S1000000 32 := broadcastInDim S1000000 ![] bcast_S_S1000000 (constantI S_ 32 b)
/-- A float word in every row. -/
def bF (b : BitVec 32) : FVec F S1000000 .f32 := broadcastInDim S1000000 ![] bcast_S_S1000000 (constant S_ .f32 b)
/-- An integer word converted to a float, in every row. -/
def bFI (b : BitVec 32) : FVec F S1000000 .f32 :=
  broadcastInDim S1000000 ![] bcast_S_S1000000 (sitofp .f32 (constantI S_ 32 b) : FVec F S_ .f32)

/-- Column o of the coordinates, as a vector of rows. -/
def colOf (V : FVec F S1000000x4 .f32) (o : Nat) (h : S1000000x4.Slices ![0, o] S1000000x1) : FVec F S1000000 .f32 :=
  shapeCast S1000000 (extractStridedSlice S1000000x1 ![0, o] V h) shapeCasts_S1000000x1_S1000000
/-- Column o of the first three columns of the coordinates, as a vector of rows. -/
def colOf3 (V : FVec F S1000000x4 .f32) (o : Nat) (h : S1000000x3.Slices ![0, o] S1000000x1) : FVec F S1000000 .f32 :=
  shapeCast S1000000 (extractStridedSlice S1000000x1 ![0, o] (extractStridedSlice S1000000x3 ![0, 0] V slices_S1000000x4_S1000000x3_0_0) h)
    shapeCasts_S1000000x1_S1000000
/-- Column o of a two-column array, as a vector of rows. -/
def colOf2 (V : FVec F S1000000x2 .f32) (o : Nat) (h : S1000000x2.Slices ![0, o] S1000000x1) : FVec F S1000000 .f32 :=
  shapeCast S1000000 (extractStridedSlice S1000000x1 ![0, o] V h) shapeCasts_S1000000x1_S1000000

/-- The two coordinate columns a plane reads, picked by a two-entry table of column numbers (normalised as an index is). -/
def pairOf (X : FVec F S1000000x4 .f32) (lit : Fin 2 → BitVec 32) : FVec F S1000000x2 .f32 :=
  Host.gather gather_S1000000x4_S2x1_S1000000x2_0_1_n_n_1_1_10000001 X
    (broadcastInDim S2x1 ![0] bcast_S2_S2x1_0
      (select (cmpi .slt (fun i => lit (S2.rowMajor i) : IVec S2 32) (broadcastInDim S2 ![] bcast_S_S2 (constantI S_ 32 0#32)))
        (addi (fun i => lit (S2.rowMajor i) : IVec S2 32) (broadcastInDim S2 ![] bcast_S_S2 (constantI S_ 32 4#32)))
        (fun i => lit (S2.rowMajor i) : IVec S2 32)))

/-- The pixel position ((v + 1)·½)·s of every row. -/
def pixOf (v : FVec F S1000000 .f32) (s : BitVec 32) : FVec F S1000000 .f32 :=
  mulf (mulf (addf v (bF 0x3F800000#32)) (bF 0x3F000000#32)) (bF s)
/-- A value clipped to [0, hi], the bounds integer words converted to floats. -/
def clipOf (hi : BitVec 32) (v : FVec F S1000000 .f32) : FVec F S1000000 .f32 :=
  minimumf (bFI hi) (maximumf (bFI 0#32) v)
/-- The lower neighbour's word: the floor, clipped, converted. -/
def loOf (hi : BitVec 32) (p : FVec F S1000000 .f32) : IVec S1000000 32 := fptosi 32 (clipOf hi (Host.floor p))
/-- The upper neighbour's word: the floor plus one, clipped, converted. -/
def upOf (hi : BitVec 32) (p : FVec F S1000000 .f32) : IVec S1000000 32 :=
  fptosi 32 (clipOf hi (addf (Host.floor p) (bF 0x3F800000#32)))
/-- The weight p − ⌊p⌋. -/
def wtOf (p : FVec F S1000000 .f32) : FVec F S1000000 .f32 := subf p (Host.floor p)
/-- One minus a weight. -/
def omw (w : FVec F S1000000 .f32) : FVec F S1000000 .f32 := subf (bF 0x3F800000#32) w
/-- The line's upper neighbour: the floor plus one clipped to [0, 63], the lower bound a float word. -/
def upLineOf (p : FVec F S1000000 .f32) : IVec S1000000 32 :=
  fptosi 32 (minimumf (bFI 63#32)
    (maximumf (broadcastInDim S1000000 ![] bcast_S_S1000000 (id (constant S_ .f32 0x00000000#32 : FVec F S_ .f32)))
      (addf (Host.floor p) (bF 0x3F800000#32))))

/-- The normalisation of a gather index: a negative word has the extent added. -/
def normIdx (ext : BitVec 32) (w : IVec S1000000 32) : IVec S1000000 32 :=
  select (cmpi .slt w (bI 0#32)) (addi w (bI ext)) w
/-- A vector of words as a one-column table. -/
def rowsOf (w : IVec S1000000 32) : IVec S1000000x1 32 := broadcastInDim S1000000x1 ![0] bcast_S1000000_S1000000x1_0 w

/-- The volume's entries at the rows' (z, y, x) words, per channel. -/
def gatG (G : FVec F S16x128x128x128 .f32) (iz iy ix : IVec S1000000 32) : FVec F S16x1000000 .f32 :=
  Host.gather gather_S16x128x128x128_S1000000x3_S16x1000000_0_123_n_n_123_1_16111 G
    (cat3 (F := F) (rowsOf (normIdx 128#32 iz)) (rowsOf (normIdx 128#32 iy)) (rowsOf (normIdx 128#32 ix)))
/-- A plane's entries at the rows' (y, x) words, per channel. -/
def gatP (P : FVec F S16x256x256 .f32) (iy ix : IVec S1000000 32) : FVec F S16x1000000 .f32 :=
  Host.gather gather_S16x256x256_S1000000x2_S16x1000000_0_12_n_n_12_1_1611 P
    (cat2 (F := F) (rowsOf (normIdx 256#32 iy)) (rowsOf (normIdx 256#32 ix)))
/-- The line's entries at the rows' words, per channel. -/
def gatL (L : FVec F S16x64 .f32) (i : IVec S1000000 32) : FVec F S16x1000000 .f32 :=
  Host.gather gather_S16x64_S1000000x1_S16x1000000_0_1_n_n_1_1_161 L (rowsOf (normIdx 64#32 i))

/-- A weight per row over the 16 channels. -/
def w16 (w : FVec F S1000000 .f32) : FVec F S16x1000000 .f32 :=
  broadcastInDim S16x1000000 ![0, 1] bcast_S1x1000000_S16x1000000_0_1 (broadcastInDim S1x1000000 ![1] bcast_S1000000_S1x1000000_1 w)
/-- Zero in every channel and row. -/
def zero16 : FVec F S16x1000000 .f32 := broadcastInDim S16x1000000 ![] bcast_S_S16x1000000 (constant S_ .f32 0x00000000#32)

/-- One corner of the volume added onto an accumulator: entries times (uz·uy)·ux. -/
def accG (G : FVec F S16x128x128x128 .f32) (acc : FVec F S16x1000000 .f32) (iz iy ix : IVec S1000000 32)
    (uz uy ux : FVec F S1000000 .f32) : FVec F S16x1000000 .f32 :=
  addf acc (mulf (gatG G iz iy ix) (w16 (mulf (mulf uz uy) ux)))
/-- One corner of a plane added onto an accumulator: entries times uy·ux. -/
def accP (P : FVec F S16x256x256 .f32) (acc : FVec F S16x1000000 .f32) (iy ix : IVec S1000000 32)
    (uy ux : FVec F S1000000 .f32) : FVec F S16x1000000 .f32 :=
  addf acc (mulf (gatP P iy ix) (w16 (mulf uy ux)))

/-- The volume: the eight corners added to zero, z outermost, x innermost, lower side first. -/
def triOf (G : FVec F S16x128x128x128 .f32) (z0 z1 y0 y1 x0 x1 : IVec S1000000 32) (wz wy wx : FVec F S1000000 .f32) :
    FVec F S16x1000000 .f32 :=
  accG G (accG G (accG G (accG G (accG G (accG G (accG G (accG G zero16
    z0 y0 x0 (omw wz) (omw wy) (omw wx)) z0 y0 x1 (omw wz) (omw wy) wx) z0 y1 x0 (omw wz) wy (omw wx)) z0 y1 x1 (omw wz) wy wx)
    z1 y0 x0 wz (omw wy) (omw wx)) z1 y0 x1 wz (omw wy) wx) z1 y1 x0 wz wy (omw wx)) z1 y1 x1 wz wy wx

/-- A plane: the four corners added to zero, y outer, x inner, lower side first. -/
def bilOf (P : FVec F S16x256x256 .f32) (y0 y1 x0 x1 : IVec S1000000 32) (wy wx : FVec F S1000000 .f32) :
    FVec F S16x1000000 .f32 :=
  accP P (accP P (accP P (accP P zero16 y0 x0 (omw wy) (omw wx)) y0 x1 (omw wy) wx) y1 x0 wy (omw wx)) y1 x1 wy wx

/-- The line: the lower entry times 1 − w plus the upper entry times w. -/
def linOf (L : FVec F S16x64 .f32) (i0 i1 : IVec S1000000 32) (w : FVec F S1000000 .f32) : FVec F S16x1000000 .f32 :=
  addf (mulf (gatL L i0) (w16 (omw w))) (mulf (gatL L i1) (w16 w))

/-- The result: channels 0 … 15 the product of the volume and the planes, channels 16 … 31 the line, rows first. -/
def outOf (tri b0 b1 b2 lin : FVec F S16x1000000 .f32) : FVec F S1000000x32 .f32 :=
  cat16 (F := F) (transpose S1000000x16 [1, 0] (mulf (mulf (mulf tri b0) b1) b2) transposes_S16x1000000_S1000000x16_1_0)
    (transpose S1000000x16 [1, 0] lin transposes_S16x1000000_S1000000x16_1_0)

end Cert.ReferenceIdeal.RefValue
end
-- ==== Proof.RefInst.lean ====
/-
  The reference's values as the shapes of RefShape applied to earlier values: each equation holds by unfolding the
  table's definitions (the printed operations are exactly the shape's). The volume reads coordinate columns 0, 1, 2
  (through the first three columns) for its x, y, z pixels; each plane reads the two columns its two-entry table
  names, the first for its x pixel and the second for its y pixel; the line reads column 3.
-/
import proofs.«135735_j20624432955487_2_alg».proof.Proof.RefDefs
import proofs.«135735_j20624432955487_2_alg».proof.Proof.RefShape

set_option maxRecDepth 16384

noncomputable section
namespace Cert.ReferenceIdeal.RefValue
open Cert.ReferenceIdeal Cert.ReferenceIdeal.Gen Idealize.ShloMosaic

variable {F : FTy → Type} [FloatOps F]
variable (X : (⟨S1000000x4, .f32⟩ : BufTy).Contents (Elt F)) (G : (⟨S16x128x128x128, .f32⟩ : BufTy).Contents (Elt F))
  (P0 P1 P2 : (⟨S16x256x256, .f32⟩ : BufTy).Contents (Elt F)) (L : (⟨S16x64, .f32⟩ : BufTy).Contents (Elt F))

/-! ## The volume's three coordinates -/

theorem e_v2 : r_main_v2 (F := F) X = colOf3 X 0 slices_S1000000x3_S1000000x1_0_0 := rfl
theorem e_v10 : r_main_v10 (F := F) X = colOf3 X 1 slices_S1000000x3_S1000000x1_0_1 := rfl
theorem e_v18 : r_main_v18 (F := F) X = colOf3 X 2 slices_S1000000x3_S1000000x1_0_2 := rfl
theorem e_v8 : r_main_v8 (F := F) X = pixOf (r_main_v2 (F := F) X) 0x42FE0000#32 := rfl
theorem e_v27 : r_main_v27 (F := F) X = loOf 127#32 (r_main_v8 (F := F) X) := rfl
theorem e_v31 : r_main_v31 (F := F) X = upOf 127#32 (r_main_v8 (F := F) X) := rfl
theorem e_v32 : r_main_v32 (F := F) X = wtOf (r_main_v8 (F := F) X) := rfl
theorem e_v16 : r_main_v16 (F := F) X = pixOf (r_main_v10 (F := F) X) 0x42FE0000#32 := rfl
theorem e_v35 : r_main_v35 (F := F) X = loOf 127#32 (r_main_v16 (F := F) X) := rfl
theorem e_v39 : r_main_v39 (F := F) X = upOf 127#32 (r_main_v16 (F := F) X) := rfl
theorem e_v40 : r_main_v40 (F := F) X = wtOf (r_main_v16 (F := F) X) := rfl
theorem e_v24 : r_main_v24 (F := F) X = pixOf (r_main_v18 (F := F) X) 0x42FE0000#32 := rfl
theorem e_v43 : r_main_v43 (F := F) X = loOf 127#32 (r_main_v24 (F := F) X) := rfl
theorem e_v47 : r_main_v47 (F := F) X = upOf 127#32 (r_main_v24 (F := F) X) := rfl
theorem e_v48 : r_main_v48 (F := F) X = wtOf (r_main_v24 (F := F) X) := rfl

/-! ## The first plane's two coordinates (table [1, 2]) -/

theorem e_v278 : r_main_v278 (F := F) X = pairOf X lit0 := rfl
theorem e_v280 : r_main_v280 (F := F) X = colOf2 (r_main_v278 (F := F) X) 0 slices_S1000000x2_S1000000x1_0_0 := rfl
theorem e_v288 : r_main_v288 (F := F) X = colOf2 (r_main_v278 (F := F) X) 1 slices_S1000000x2_S1000000x1_0_1 := rfl
theorem e_v286 : r_main_v286 (F := F) X = pixOf (r_main_v280 (F := F) X) 0x437F0000#32 := rfl
theorem e_v297 : r_main_v297 (F := F) X = loOf 255#32 (r_main_v286 (F := F) X) := rfl
theorem e_v301 : r_main_v301 (F := F) X = upOf 255#32 (r_main_v286 (F := F) X) := rfl
theorem e_v302 : r_main_v302 (F := F) X = wtOf (r_main_v286 (F := F) X) := rfl
theorem e_v294 : r_main_v294 (F := F) X = pixOf (r_main_v288 (F := F) X) 0x437F0000#32 := rfl
theorem e_v305 : r_main_v305 (F := F) X = loOf 255#32 (r_main_v294 (F := F) X) := rfl
theorem e_v309 : r_main_v309 (F := F) X = upOf 255#32 (r_main_v294 (F := F) X) := rfl
theorem e_v310 : r_main_v310 (F := F) X = wtOf (r_main_v294 (F := F) X) := rfl

/-! ## The second plane's two coordinates (table [0, 2]) -/

theorem e_v401 : r_main_v401 (F := F) X = pairOf X lit1 := rfl
theorem e_v403 : r_main_v403 (F := F) X = colOf2 (r_main_v401 (F := F) X) 0 slices_S1000000x2_S1000000x1_0_0 := rfl
theorem e_v411 : r_main_v411 (F := F) X = colOf2 (r_main_v401 (F := F) X) 1 slices_S1000000x2_S1000000x1_0_1 := rfl
theorem e_v409 : r_main_v409 (F := F) X = pixOf (r_main_v403 (F := F) X) 0x437F0000#32 := rfl
theorem e_v420 : r_main_v420 (F := F) X = loOf 255#32 (r_main_v409 (F := F) X) := rfl
theorem e_v424 : r_main_v424 (F := F) X = upOf 255#32 (r_main_v409 (F := F) X) := rfl
theorem e_v425 : r_main_v425 (F := F) X = wtOf (r_main_v409 (F := F) X) := rfl
theorem e_v417 : r_main_v417 (F := F) X = pixOf (r_main_v411 (F := F) X) 0x437F0000#32 := rfl
theorem e_v428 : r_main_v428 (F := F) X = loOf 255#32 (r_main_v417 (F := F) X) := rfl
theorem e_v432 : r_main_v432 (F := F) X = upOf 255#32 (r_main_v417 (F := F) X) := rfl
theorem e_v433 : r_main_v433 (F := F) X = wtOf (r_main_v417 (F := F) X) := rfl

/-! ## The third plane's two coordinates (table [0, 1]) -/

theorem e_v524 : r_main_v524 (F := F) X = pairOf X lit2 := rfl
theorem e_v526 : r_main_v526 (F := F) X = colOf2 (r_main_v524 (F := F) X) 0 slices_S1000000x2_S1000000x1_0_0 := rfl
theorem e_v534 : r_main_v534 (F := F) X = colOf2 (r_main_v524 (F := F) X) 1 slices_S1000000x2_S1000000x1_0_1 := rfl
theorem e_v532 : r_main_v532 (F := F) X = pixOf (r_main_v526 (F := F) X) 0x437F0000#32 := rfl
theorem e_v543 : r_main_v543 (F := F) X = loOf 255#32 (r_main_v532 (F := F) X) := rfl
theorem e_v547 : r_main_v547 (F := F) X = upOf 255#32 (r_main_v532 (F := F) X) := rfl
theorem e_v548 : r_main_v548 (F := F) X = wtOf (r_main_v532 (F := F) X) := rfl
theorem e_v540 : r_main_v540 (F := F) X = pixOf (r_main_v534 (F := F) X) 0x437F0000#32 := rfl
theorem e_v551 : r_main_v551 (F := F) X = loOf 255#32 (r_main_v540 (F := F) X) := rfl
theorem e_v555 : r_main_v555 (F := F) X = upOf 255#32 (r_main_v540 (F := F) X) := rfl
theorem e_v556 : r_main_v556 (F := F) X = wtOf (r_main_v540 (F := F) X) := rfl

/-! ## The line's position, neighbours and weight -/

theorem e_v642 : r_main_v642 (F := F) X = colOf X 3 slices_S1000000x4_S1000000x1_0_3 := rfl
theorem e_v644 : r_main_v644 (F := F) X = mulf (r_main_v642 (F := F) X) (bF 0x427C0000#32) := rfl
theorem e_v646 : r_main_v646 (F := F) X = fptosi 32 (Host.floor (r_main_v644 (F := F) X)) := rfl
theorem e_v650 : r_main_v650 (F := F) X = upLineOf (r_main_v644 (F := F) X) := rfl
theorem e_v651 : r_main_v651 (F := F) X = wtOf (r_main_v644 (F := F) X) := rfl

/-! ## The five interpolated arrays and the result -/

theorem e_v271 : r_main_v271 (F := F) X G = triOf G (r_main_v43 (F := F) X) (r_main_v47 (F := F) X) (r_main_v35 (F := F) X) (r_main_v39 (F := F) X)
    (r_main_v27 (F := F) X) (r_main_v31 (F := F) X) (r_main_v48 (F := F) X) (r_main_v40 (F := F) X) (r_main_v32 (F := F) X) := rfl
theorem e_v393 : r_main_v393 (F := F) X P0 = bilOf P0 (r_main_v305 (F := F) X) (r_main_v309 (F := F) X) (r_main_v297 (F := F) X) (r_main_v301 (F := F) X)
    (r_main_v310 (F := F) X) (r_main_v302 (F := F) X) := rfl
theorem e_v516 : r_main_v516 (F := F) X P1 = bilOf P1 (r_main_v428 (F := F) X) (r_main_v432 (F := F) X) (r_main_v420 (F := F) X) (r_main_v424 (F := F) X)
    (r_main_v433 (F := F) X) (r_main_v425 (F := F) X) := rfl
theorem e_v639 : r_main_v639 (F := F) X P2 = bilOf P2 (r_main_v551 (F := F) X) (r_main_v555 (F := F) X) (r_main_v543 (F := F) X) (r_main_v547 (F := F) X)
    (r_main_v556 (F := F) X) (r_main_v548 (F := F) X) := rfl
theorem e_v674 : r_main_v674 (F := F) X L = linOf L (r_main_v646 (F := F) X) (r_main_v650 (F := F) X) (r_main_v651 (F := F) X) := rfl
theorem e_v677 : r_main_v677 (F := F) X G P0 P1 P2 L = outOf (r_main_v271 (F := F) X G) (r_main_v393 (F := F) X P0) (r_main_v516 (F := F) X P1)
    (r_main_v639 (F := F) X P2) (r_main_v674 (F := F) X L) := rfl

end Cert.ReferenceIdeal.RefValue
end
-- ==== Proof.SpecWords.lean ====
/-
  The clipped neighbours in the spelling the programs use.  A program clips with the bounds as 32-bit integer
  constants converted to floats — min (float of the upper word) (max (float of the lower word) v) — and converts
  the result back to a word; the line's upper neighbour has the float word of 0 as its lower bound instead.
  Each of these words is the natural `cidx` of the specification, which is at most the upper bound.
-/
import proofs.«135735_j20624432955487_2_alg».proof.Proof.Spec

noncomputable section

namespace Cert.Spec

open Idealize.ShloMosaic

/-- Clipping between integer words lo = 0 and hi, then converting: the word of `cidx hi v`. -/
theorem fptosi_clip_words (hiw : BitVec 32) (hi : ℕ) (hhi : hi < 2 ^ 31) (h : hiw.toInt = (hi : ℤ)) (v : EReal) :
    Ideal.fptosi 32 (min (((hiw.toInt : ℤ) : ℝ) : EReal) (max ((((0#32 : BitVec 32).toInt : ℤ) : ℝ) : EReal) v))
      = BitVec.ofNat 32 (cidx hi v) := by
  rw [h, show (0#32 : BitVec 32).toInt = ((0 : ℤ)) from rfl]
  exact fptosi_clip hi hhi v

theorem fptosi_clip127 (v : EReal) :
    Ideal.fptosi 32 (min ((((127#32 : BitVec 32).toInt : ℤ) : ℝ) : EReal) (max ((((0#32 : BitVec 32).toInt : ℤ) : ℝ) : EReal) v))
      = BitVec.ofNat 32 (cidx 127 v) := fptosi_clip_words _ 127 (by norm_num) (by decide) v

theorem fptosi_clip255 (v : EReal) :
    Ideal.fptosi 32 (min ((((255#32 : BitVec 32).toInt : ℤ) : ℝ) : EReal) (max ((((0#32 : BitVec 32).toInt : ℤ) : ℝ) : EReal) v))
      = BitVec.ofNat 32 (cidx 255 v) := fptosi_clip_words _ 255 (by norm_num) (by decide) v

/-- The line's upper neighbour: lower bound the float word of 0, upper bound the integer word 63. -/
theorem fptosi_clip63 (v : EReal) :
    Ideal.fptosi 32 (min ((((63#32 : BitVec 32).toInt : ℤ) : ℝ) : EReal) (max zero v))
      = BitVec.ofNat 32 (cidx 63 v) := by
  rw [zero_eq, show (63#32 : BitVec 32).toInt = ((63 : ℕ) : ℤ) from by decide]
  have : ((0 : ℝ) : EReal) = ((((0 : ℤ)) : ℝ) : EReal) := by norm_num
  rw [this]
  exact fptosi_clip 63 (by norm_num) v

/-- The neighbours of the specification, unfolded. -/
theorem nb_false (n : ℕ) (hn : 0 < n) (p : EReal) : nb n hn p false = cfin n hn (fl p) := rfl
theorem nb_true (n : ℕ) (hn : 0 < n) (p : EReal) : nb n hn p true = cfin n hn (fl p + one) := rfl
theorem wsel_false (p : EReal) : wsel p false = one - wt p := rfl
theorem wsel_true (p : EReal) : wsel p true = wt p := rfl
theorem cfin_val (n : ℕ) (hn : 0 < n) (v : EReal) : (cfin n hn v).val = cidx (n - 1) v := rfl

/-- A clipped index is below 2³¹ on the axes of this problem. -/
theorem cidx_lt_two31 (hi : ℕ) (hhi : hi < 2 ^ 31) (v : EReal) : cidx hi v < 2 ^ 31 :=
  lt_of_le_of_lt (cidx_le hi v) hhi

end Cert.Spec

end
-- ==== Proof.LibMultiGather.lean ====
/-
  A gather that picks, for every row r of an index table [n, k], ONE entry per channel of an operand whose first
  axis is the channel and whose other k axes are indexed by the table's row: result (q, r) is the operand at
  (q, i₁, …, i_k), each i_j the table's word (r, j − 1) read signed and clamped into its axis.  The dimension numbers
  are those of `a[:, t₁, …, t_k]` with k index vectors of one length: offset axis 0, the other operand axes
  collapsed and indexed in order, the index vector along the table's second axis, slices of one entry.
  Stated for k = 1, 2, 3 and any extents, any entry type and word width.  A program's own record of these dimension
  numbers is `dims1` / `dims2` / `dims3` at its extents, by definition.
-/
import Idealize.ShloMosaic.Lib.ValueIdx

noncomputable section

namespace Idealize.ShloMosaic.MultiGather

open Idealize.ShloMosaic Idealize.ShloMosaic.ValueIdx

variable {α : Type}

private theorem mem123 (a : Fin 4) : a ∈ ([1, 2, 3] : List (Fin 4)) ↔ a.val ≠ 0 := by revert a; decide
private theorem mem12 (a : Fin 3) : a ∈ ([1, 2] : List (Fin 3)) ↔ a.val ≠ 0 := by revert a; decide
private theorem mem1 (a : Fin 2) : a ∈ ([1] : List (Fin 2)) ↔ a.val ≠ 0 := by revert a; decide

/-- The dimension numbers for an operand [C, A, B, D] and an index table [n, 3]. -/
abbrev dims3 (C A B D n : ℕ)
    (wf : GatherDims.WF (⟨4, ![C, A, B, D]⟩ : Shape) ⟨2, ![n, 3]⟩ ⟨2, ![C, n]⟩ [0] [1, 2, 3] [] [1, 2, 3] [] 1 ![C, 1, 1, 1]) :
    GatherDims (⟨4, ![C, A, B, D]⟩ : Shape) ⟨2, ![n, 3]⟩ ⟨2, ![C, n]⟩ where
  offsetDims := [0]
  collapsedSliceDims := [1, 2, 3]
  operandBatchingDims := []
  startIndicesBatchingDims := []
  startIndexMap := [1, 2, 3]
  indexVectorDim := 1
  sliceSizes := ![C, 1, 1, 1]
  wf := wf

/-- Entry (q, r) of the gather from a rank-4 operand: the operand at channel q and the three clamped words of row r. -/
theorem gather3_apply {C A B D n w : ℕ} (hA : 0 < A) (hB : 0 < B) (hD : 0 < D)
    (wf : GatherDims.WF (⟨4, ![C, A, B, D]⟩ : Shape) ⟨2, ![n, 3]⟩ ⟨2, ![C, n]⟩ [0] [1, 2, 3] [] [1, 2, 3] [] 1 ![C, 1, 1, 1])
    (x : (⟨4, ![C, A, B, D]⟩ : Shape).Idx → α) (idx : IVec ⟨2, ![n, 3]⟩ w) (q : Fin C) (r : Fin n) :
    Host.gather (dims3 C A B D n wf) x idx (ix2 q r) =
      x (ix4 q ⟨min (idx (ix2 r (0 : Fin 3))).toInt.toNat (A - 1), by omega⟩
              ⟨min (idx (ix2 r (1 : Fin 3))).toInt.toNat (B - 1), by omega⟩
              ⟨min (idx (ix2 r (2 : Fin 3))).toInt.toNat (D - 1), by omega⟩) := by
  unfold Host.gather
  congr 1
  funext a
  refine Fin.ext ?_
  show (dims3 C A B D n wf).start (ix2 q r) idx a + (dims3 C A B D n wf).batchCoord (ix2 q r) a
      + (dims3 C A B D n wf).offCoord (ix2 q r) a = _
  rw [GatherDims.batchCoord_eq_zero _ _ _ List.not_mem_nil]
  match a with
  | ⟨0, h0⟩ =>
    have hs : (dims3 C A B D n wf).start (ix2 q r) idx ⟨0, h0⟩ = 0 := by
      unfold GatherDims.start; rw [dif_neg (fun h => (mem123 _).mp h rfl)]
    have ho : (dims3 C A B D n wf).offCoord (ix2 q r) ⟨0, h0⟩ = q.val := by
      unfold GatherDims.offCoord
      rw [dif_pos ((GatherDims.mem_sKept _ _).mpr ⟨fun h => (mem123 _).mp h rfl, List.not_mem_nil⟩)]; rfl
    rw [hs, ho]; simp
  | ⟨1, h1⟩ =>
    have hm : (⟨1, h1⟩ : Fin 4) ∈ (dims3 C A B D n wf).startIndexMap := (mem123 _).mpr (Nat.succ_ne_zero _)
    rw [GatherDims.offCoord_eq_zero _ _ _ (fun h => ((GatherDims.mem_sKept _ _).mp h).1 hm)]
    unfold GatherDims.start
    rw [dif_pos hm]
    have hsi : (dims3 C A B D n wf).siIdx (ix2 q r) ⟨List.idxOf (⟨1, h1⟩ : Fin 4) (dims3 C A B D n wf).startIndexMap,
        List.idxOf_lt_length_iff.2 hm⟩ = ix2 r (0 : Fin 3) := by
      funext b; refine Fin.ext ?_
      match b with
      | ⟨0, _⟩ => rfl
      | ⟨1, _⟩ => rfl
    rw [hsi]; rfl
  | ⟨2, h2⟩ =>
    have hm : (⟨2, h2⟩ : Fin 4) ∈ (dims3 C A B D n wf).startIndexMap := (mem123 _).mpr (Nat.succ_ne_zero _)
    rw [GatherDims.offCoord_eq_zero _ _ _ (fun h => ((GatherDims.mem_sKept _ _).mp h).1 hm)]
    unfold GatherDims.start
    rw [dif_pos hm]
    have hsi : (dims3 C A B D n wf).siIdx (ix2 q r) ⟨List.idxOf (⟨2, h2⟩ : Fin 4) (dims3 C A B D n wf).startIndexMap,
        List.idxOf_lt_length_iff.2 hm⟩ = ix2 r (1 : Fin 3) := by
      funext b; refine Fin.ext ?_
      match b with
      | ⟨0, _⟩ => rfl
      | ⟨1, _⟩ => rfl
    rw [hsi]; rfl
  | ⟨3, h3⟩ =>
    have hm : (⟨3, h3⟩ : Fin 4) ∈ (dims3 C A B D n wf).startIndexMap := (mem123 _).mpr (Nat.succ_ne_zero _)
    rw [GatherDims.offCoord_eq_zero _ _ _ (fun h => ((GatherDims.mem_sKept _ _).mp h).1 hm)]
    unfold GatherDims.start
    rw [dif_pos hm]
    have hsi : (dims3 C A B D n wf).siIdx (ix2 q r) ⟨List.idxOf (⟨3, h3⟩ : Fin 4) (dims3 C A B D n wf).startIndexMap,
        List.idxOf_lt_length_iff.2 hm⟩ = ix2 r (2 : Fin 3) := by
      funext b; refine Fin.ext ?_
      match b with
      | ⟨0, _⟩ => rfl
      | ⟨1, _⟩ => rfl
    rw [hsi]; rfl

/-- The dimension numbers for an operand [C, A, B] and an index table [n, 2]. -/
abbrev dims2 (C A B n : ℕ)
    (wf : GatherDims.WF (⟨3, ![C, A, B]⟩ : Shape) ⟨2, ![n, 2]⟩ ⟨2, ![C, n]⟩ [0] [1, 2] [] [1, 2] [] 1 ![C, 1, 1]) :
    GatherDims (⟨3, ![C, A, B]⟩ : Shape) ⟨2, ![n, 2]⟩ ⟨2, ![C, n]⟩ where
  offsetDims := [0]
  collapsedSliceDims := [1, 2]
  operandBatchingDims := []
  startIndicesBatchingDims := []
  startIndexMap := [1, 2]
  indexVectorDim := 1
  sliceSizes := ![C, 1, 1]
  wf := wf

/-- Entry (q, r) of the gather from a rank-3 operand: the operand at channel q and the two clamped words of row r. -/
theorem gather2_apply {C A B n w : ℕ} (hA : 0 < A) (hB : 0 < B)
    (wf : GatherDims.WF (⟨3, ![C, A, B]⟩ : Shape) ⟨2, ![n, 2]⟩ ⟨2, ![C, n]⟩ [0] [1, 2] [] [1, 2] [] 1 ![C, 1, 1])
    (x : (⟨3, ![C, A, B]⟩ : Shape).Idx → α) (idx : IVec ⟨2, ![n, 2]⟩ w) (q : Fin C) (r : Fin n) :
    Host.gather (dims2 C A B n wf) x idx (ix2 q r) =
      x (ix3 q ⟨min (idx (ix2 r (0 : Fin 2))).toInt.toNat (A - 1), by omega⟩
              ⟨min (idx (ix2 r (1 : Fin 2))).toInt.toNat (B - 1), by omega⟩) := by
  unfold Host.gather
  congr 1
  funext a
  refine Fin.ext ?_
  show (dims2 C A B n wf).start (ix2 q r) idx a + (dims2 C A B n wf).batchCoord (ix2 q r) a
      + (dims2 C A B n wf).offCoord (ix2 q r) a = _
  rw [GatherDims.batchCoord_eq_zero _ _ _ List.not_mem_nil]
  match a with
  | ⟨0, h0⟩ =>
    have hs : (dims2 C A B n wf).start (ix2 q r) idx ⟨0, h0⟩ = 0 := by
      unfold GatherDims.start; rw [dif_neg (fun h => (mem12 _).mp h rfl)]
    have ho : (dims2 C A B n wf).offCoord (ix2 q r) ⟨0, h0⟩ = q.val := by
      unfold GatherDims.offCoord
      rw [dif_pos ((GatherDims.mem_sKept _ _).mpr ⟨fun h => (mem12 _).mp h rfl, List.not_mem_nil⟩)]; rfl
    rw [hs, ho]; simp
  | ⟨1, h1⟩ =>
    have hm : (⟨1, h1⟩ : Fin 3) ∈ (dims2 C A B n wf).startIndexMap := (mem12 _).mpr (Nat.succ_ne_zero _)
    rw [GatherDims.offCoord_eq_zero _ _ _ (fun h => ((GatherDims.mem_sKept _ _).mp h).1 hm)]
    unfold GatherDims.start
    rw [dif_pos hm]
    have hsi : (dims2 C A B n wf).siIdx (ix2 q r) ⟨List.idxOf (⟨1, h1⟩ : Fin 3) (dims2 C A B n wf).startIndexMap,
        List.idxOf_lt_length_iff.2 hm⟩ = ix2 r (0 : Fin 2) := by
      funext b; refine Fin.ext ?_
      match b with
      | ⟨0, _⟩ => rfl
      | ⟨1, _⟩ => rfl
    rw [hsi]; rfl
  | ⟨2, h2⟩ =>
    have hm : (⟨2, h2⟩ : Fin 3) ∈ (dims2 C A B n wf).startIndexMap := (mem12 _).mpr (Nat.succ_ne_zero _)
    rw [GatherDims.offCoord_eq_zero _ _ _ (fun h => ((GatherDims.mem_sKept _ _).mp h).1 hm)]
    unfold GatherDims.start
    rw [dif_pos hm]
    have hsi : (dims2 C A B n wf).siIdx (ix2 q r) ⟨List.idxOf (⟨2, h2⟩ : Fin 3) (dims2 C A B n wf).startIndexMap,
        List.idxOf_lt_length_iff.2 hm⟩ = ix2 r (1 : Fin 2) := by
      funext b; refine Fin.ext ?_
      match b with
      | ⟨0, _⟩ => rfl
      | ⟨1, _⟩ => rfl
    rw [hsi]; rfl

/-- The dimension numbers for an operand [C, A] and an index table [n, 1]. -/
abbrev dims1 (C A n : ℕ)
    (wf : GatherDims.WF (⟨2, ![C, A]⟩ : Shape) ⟨2, ![n, 1]⟩ ⟨2, ![C, n]⟩ [0] [1] [] [1] [] 1 ![C, 1]) :
    GatherDims (⟨2, ![C, A]⟩ : Shape) ⟨2, ![n, 1]⟩ ⟨2, ![C, n]⟩ where
  offsetDims := [0]
  collapsedSliceDims := [1]
  operandBatchingDims := []
  startIndicesBatchingDims := []
  startIndexMap := [1]
  indexVectorDim := 1
  sliceSizes := ![C, 1]
  wf := wf

/-- Entry (q, r) of the gather from a rank-2 operand: the operand at channel q and the clamped word of row r. -/
theorem gather1_apply {C A n w : ℕ} (hA : 0 < A)
    (wf : GatherDims.WF (⟨2, ![C, A]⟩ : Shape) ⟨2, ![n, 1]⟩ ⟨2, ![C, n]⟩ [0] [1] [] [1] [] 1 ![C, 1])
    (x : (⟨2, ![C, A]⟩ : Shape).Idx → α) (idx : IVec ⟨2, ![n, 1]⟩ w) (q : Fin C) (r : Fin n) :
    Host.gather (dims1 C A n wf) x idx (ix2 q r) =
      x (ix2 q ⟨min (idx (ix2 r (0 : Fin 1))).toInt.toNat (A - 1), by omega⟩) := by
  unfold Host.gather
  congr 1
  funext a
  refine Fin.ext ?_
  show (dims1 C A n wf).start (ix2 q r) idx a + (dims1 C A n wf).batchCoord (ix2 q r) a
      + (dims1 C A n wf).offCoord (ix2 q r) a = _
  rw [GatherDims.batchCoord_eq_zero _ _ _ List.not_mem_nil]
  match a with
  | ⟨0, h0⟩ =>
    have hs : (dims1 C A n wf).start (ix2 q r) idx ⟨0, h0⟩ = 0 := by
      unfold GatherDims.start; rw [dif_neg (fun h => (mem1 _).mp h rfl)]
    have ho : (dims1 C A n wf).offCoord (ix2 q r) ⟨0, h0⟩ = q.val := by
      unfold GatherDims.offCoord
      rw [dif_pos ((GatherDims.mem_sKept _ _).mpr ⟨fun h => (mem1 _).mp h rfl, List.not_mem_nil⟩)]; rfl
    rw [hs, ho]; simp
  | ⟨1, h1⟩ =>
    have hm : (⟨1, h1⟩ : Fin 2) ∈ (dims1 C A n wf).startIndexMap := (mem1 _).mpr (Nat.succ_ne_zero _)
    rw [GatherDims.offCoord_eq_zero _ _ _ (fun h => ((GatherDims.mem_sKept _ _).mp h).1 hm)]
    unfold GatherDims.start
    rw [dif_pos hm]
    have hsi : (dims1 C A n wf).siIdx (ix2 q r) ⟨List.idxOf (⟨1, h1⟩ : Fin 2) (dims1 C A n wf).startIndexMap,
        List.idxOf_lt_length_iff.2 hm⟩ = ix2 r (0 : Fin 1) := by
      funext b; refine Fin.ext ?_
      match b with
      | ⟨0, _⟩ => rfl
      | ⟨1, _⟩ => rfl
    rw [hsi]; rfl

end Idealize.ShloMosaic.MultiGather

end
-- ==== Proof.LibConcatCols.lean ====
/-
  GENERAL lemmas on matrices joined along their columns, read at an index, and on a sum over such a joined axis. Nothing
  here mentions a program; the extents are arbitrary.

  * concat2_cols_apply: an [R, a] matrix followed along the columns by an [R, b] matrix, read at (p, k): the first at
    (p, k) when k < a, the second at (p, k - a) otherwise.
  * concat3_cols_apply: the same for three matrices [R, a], [R, b], [R, c].
  * concat3_cols_fst / _snd / _thd: the same three matrices read at a column inside the first, the second and the third piece,
    the column given with its offset into the piece (no case split).
  * sum_257: a sum over 257 indices as the first 128, the next 128 and the last.
  * sum_split3: a sum over a + b + 1 indices is the sum over the first a, plus the sum over the next b, plus the last term, in
    any additive commutative monoid (so no finiteness is needed on extended reals).
-/
import Idealize.ShloMosaic.Lib.Pipeline.Value
import Idealize.ShloMosaic.Lib.ValueIdx
import Mathlib.Algebra.BigOperators.Fin

noncomputable section

namespace Cert.LibConcatCols

open Idealize.ShloMosaic Idealize.ShloMosaic.ValueIdx
open scoped BigOperators

variable {α : Type}

/-- Two matrices joined along the columns, read at (p, k). -/
theorem concat2_cols_apply {R a b n : ℕ} (x : (⟨2, ![R, a]⟩ : Shape).Idx → α) (y : (⟨2, ![R, b]⟩ : Shape).Idx → α)
    (h : Shape.Concatenates [⟨2, ![R, a]⟩, ⟨2, ![R, b]⟩] ⟨2, ![R, n]⟩ 1) (hn : n = a + b) (p : Fin R) (k : Fin n) :
    concatenate ⟨2, ![R, n]⟩ 1 [⟨⟨2, ![R, a]⟩, x⟩, ⟨⟨2, ![R, b]⟩, y⟩] h (ix2 p k)
      = if hk : k.val < a then x (ix2 p ⟨k.val, hk⟩) else y (ix2 p ⟨k.val - a, by have := k.isLt; omega⟩) := by
  split
  · next hk =>
    exact concatenate_pair_apply_left 1 x y h (ix2 p k) rfl (ix2 p ⟨k.val, hk⟩) (fun b => by
      match b with
      | ⟨0, _⟩ => rfl
      | ⟨1, _⟩ => rfl)
  · next hk =>
    exact concatenate_pair_apply_right 1 x y h (ix2 p k) rfl rfl (ix2 p ⟨k.val - a, by have := k.isLt; omega⟩) (fun b hb => by
      match b with
      | ⟨0, _⟩ => rfl
      | ⟨1, _⟩ => exact absurd rfl hb) (by show k.val - a + a = k.val; omega)

/-- Three matrices joined along the columns, read at (p, k). -/
theorem concat3_cols_apply {R a b c n : ℕ} (x : (⟨2, ![R, a]⟩ : Shape).Idx → α) (y : (⟨2, ![R, b]⟩ : Shape).Idx → α)
    (z : (⟨2, ![R, c]⟩ : Shape).Idx → α)
    (h : Shape.Concatenates [⟨2, ![R, a]⟩, ⟨2, ![R, b]⟩, ⟨2, ![R, c]⟩] ⟨2, ![R, n]⟩ 1) (hn : n = a + b + c) (p : Fin R) (k : Fin n) :
    concatenate ⟨2, ![R, n]⟩ 1 [⟨⟨2, ![R, a]⟩, x⟩, ⟨⟨2, ![R, b]⟩, y⟩, ⟨⟨2, ![R, c]⟩, z⟩] h (ix2 p k)
      = if h1 : k.val < a then x (ix2 p ⟨k.val, h1⟩)
        else if h2 : k.val < a + b then y (ix2 p ⟨k.val - a, by omega⟩)
        else z (ix2 p ⟨k.val - a - b, by have := k.isLt; omega⟩) := by
  split
  · next h1 =>
    exact concatenate_apply_piece (t := ⟨2, ![R, n]⟩) 1 [⟨⟨2, ![R, a]⟩, x⟩, ⟨⟨2, ![R, b]⟩, y⟩, ⟨⟨2, ![R, c]⟩, z⟩] h (ix2 p k) 0 (by simp) ⟨2, ![R, a]⟩ x rfl rfl 0 rfl (ix2 p ⟨k.val, h1⟩) (fun q hq => by
      match q with
      | ⟨0, _⟩ => rfl
      | ⟨1, _⟩ => exact absurd rfl hq) (by show 0 + k.val = k.val; omega)
  · next h1 =>
    split
    · next h2 =>
      exact concatenate_apply_piece (t := ⟨2, ![R, n]⟩) 1 [⟨⟨2, ![R, a]⟩, x⟩, ⟨⟨2, ![R, b]⟩, y⟩, ⟨⟨2, ![R, c]⟩, z⟩] h (ix2 p k) 1 (by simp) ⟨2, ![R, b]⟩ y rfl rfl a rfl (ix2 p ⟨k.val - a, by omega⟩) (fun q hq => by
        match q with
        | ⟨0, _⟩ => rfl
        | ⟨1, _⟩ => exact absurd rfl hq) (by show a + (k.val - a) = k.val; omega)
    · next h2 =>
      exact concatenate_apply_piece (t := ⟨2, ![R, n]⟩) 1 [⟨⟨2, ![R, a]⟩, x⟩, ⟨⟨2, ![R, b]⟩, y⟩, ⟨⟨2, ![R, c]⟩, z⟩] h (ix2 p k) 2 (by simp) ⟨2, ![R, c]⟩ z rfl rfl (a + b) rfl
        (ix2 p ⟨k.val - a - b, by have := k.isLt; omega⟩) (fun q hq => by
        match q with
        | ⟨0, _⟩ => rfl
        | ⟨1, _⟩ => exact absurd rfl hq) (by show a + b + (k.val - a - b) = k.val; omega)

/-- Three matrices joined along the columns, read at a column k inside the first: k = i. -/
theorem concat3_cols_fst {R a b c n : ℕ} (x : (⟨2, ![R, a]⟩ : Shape).Idx → α) (y : (⟨2, ![R, b]⟩ : Shape).Idx → α)
    (z : (⟨2, ![R, c]⟩ : Shape).Idx → α)
    (h : Shape.Concatenates [⟨2, ![R, a]⟩, ⟨2, ![R, b]⟩, ⟨2, ![R, c]⟩] ⟨2, ![R, n]⟩ 1) (p : Fin R) (k : Fin n) (i : Fin a)
    (hk : k.val = i.val) :
    concatenate ⟨2, ![R, n]⟩ 1 [⟨⟨2, ![R, a]⟩, x⟩, ⟨⟨2, ![R, b]⟩, y⟩, ⟨⟨2, ![R, c]⟩, z⟩] h (ix2 p k) = x (ix2 p i) :=
  concatenate_apply_piece (t := ⟨2, ![R, n]⟩) 1 [⟨⟨2, ![R, a]⟩, x⟩, ⟨⟨2, ![R, b]⟩, y⟩, ⟨⟨2, ![R, c]⟩, z⟩] h _ 0 (by simp) ⟨2, ![R, a]⟩ x rfl rfl 0 rfl
    (ix2 p i) (fun q hq => by
      match q with
      | ⟨0, _⟩ => rfl
      | ⟨1, _⟩ => exact absurd rfl hq) (by show 0 + i.val = k.val; omega)

/-- Three matrices joined along the columns, read at a column k inside the second: k = a + i. -/
theorem concat3_cols_snd {R a b c n : ℕ} (x : (⟨2, ![R, a]⟩ : Shape).Idx → α) (y : (⟨2, ![R, b]⟩ : Shape).Idx → α)
    (z : (⟨2, ![R, c]⟩ : Shape).Idx → α)
    (h : Shape.Concatenates [⟨2, ![R, a]⟩, ⟨2, ![R, b]⟩, ⟨2, ![R, c]⟩] ⟨2, ![R, n]⟩ 1) (p : Fin R) (k : Fin n) (i : Fin b)
    (hk : k.val = a + i.val) :
    concatenate ⟨2, ![R, n]⟩ 1 [⟨⟨2, ![R, a]⟩, x⟩, ⟨⟨2, ![R, b]⟩, y⟩, ⟨⟨2, ![R, c]⟩, z⟩] h (ix2 p k) = y (ix2 p i) :=
  concatenate_apply_piece (t := ⟨2, ![R, n]⟩) 1 [⟨⟨2, ![R, a]⟩, x⟩, ⟨⟨2, ![R, b]⟩, y⟩, ⟨⟨2, ![R, c]⟩, z⟩] h _ 1 (by simp) ⟨2, ![R, b]⟩ y rfl rfl a rfl
    (ix2 p i) (fun q hq => by
      match q with
      | ⟨0, _⟩ => rfl
      | ⟨1, _⟩ => exact absurd rfl hq) (by show a + i.val = k.val; omega)

/-- Three matrices joined along the columns, read at a column k inside the third: k = a + b + i. -/
theorem concat3_cols_thd {R a b c n : ℕ} (x : (⟨2, ![R, a]⟩ : Shape).Idx → α) (y : (⟨2, ![R, b]⟩ : Shape).Idx → α)
    (z : (⟨2, ![R, c]⟩ : Shape).Idx → α)
    (h : Shape.Concatenates [⟨2, ![R, a]⟩, ⟨2, ![R, b]⟩, ⟨2, ![R, c]⟩] ⟨2, ![R, n]⟩ 1) (p : Fin R) (k : Fin n) (i : Fin c)
    (hk : k.val = a + b + i.val) :
    concatenate ⟨2, ![R, n]⟩ 1 [⟨⟨2, ![R, a]⟩, x⟩, ⟨⟨2, ![R, b]⟩, y⟩, ⟨⟨2, ![R, c]⟩, z⟩] h (ix2 p k) = z (ix2 p i) :=
  concatenate_apply_piece (t := ⟨2, ![R, n]⟩) 1 [⟨⟨2, ![R, a]⟩, x⟩, ⟨⟨2, ![R, b]⟩, y⟩, ⟨⟨2, ![R, c]⟩, z⟩] h _ 2 (by simp) ⟨2, ![R, c]⟩ z rfl rfl (a + b) rfl
    (ix2 p i) (fun q hq => by
      match q with
      | ⟨0, _⟩ => rfl
      | ⟨1, _⟩ => exact absurd rfl hq) (by show a + b + i.val = k.val; omega)

/-- A sum over 257 = 128 + 128 + 1 indices: the first 128, the next 128, the last one. -/
theorem sum_257 {M : Type*} [AddCommMonoid M] (f : Fin 257 → M) :
    ∑ k, f k = (∑ k : Fin 128, f ⟨k.val, by omega⟩) + (∑ k : Fin 128, f ⟨128 + k.val, by omega⟩) + f ⟨256, by omega⟩ := by
  show ∑ k : Fin (128 + 128 + 1), f k = _
  rw [Fin.sum_univ_castSucc, Fin.sum_univ_add]
  rfl

/-- A sum over a + b + 1 indices: the first a, the next b, the last one. -/
theorem sum_split3 {M : Type*} [AddCommMonoid M] (a b : ℕ) (f : Fin (a + b + 1) → M) :
    ∑ k, f k = (∑ k : Fin a, f ⟨k.val, by omega⟩) + (∑ k : Fin b, f ⟨a + k.val, by omega⟩) + f ⟨a + b, by omega⟩ := by
  rw [Fin.sum_univ_castSucc, Fin.sum_univ_add]
  rfl

end Cert.LibConcatCols

end
-- ==== Proof.LibColCast.lean ====
/-
  GENERAL LEMMA: a one-column matrix [a, 1] cast to a vector [a] reads, at i, the column's entry of row i — the host
  reshape that drops a trailing unit axis. Any extent, any entry type; nothing here mentions a program.
-/
import Idealize.ShloMosaic.Lib.Pipeline.Value
import Idealize.ShloMosaic.Lib.ValueLayout
import Idealize.ShloMosaic.Lib.ValueIdx

namespace Cert.LibColCast

open Idealize.ShloMosaic Idealize.ShloMosaic.ValueIdx

variable {α : Type}

/-- Row-major, entry (i, 0) of an [a, 1] matrix and entry i of an [a] vector sit at the same position i. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Cert.LibColCast
-- ==== Proof.LibFlatIndex.lean ====
/-
  Flat row numbers as 32-bit words.  The word of a natural number is a ring map (modulo 2³²), so the word
  arithmetic z·(H·W) + y·W + x on the words of z, y, x is the word of the natural z·(H·W) + y·W + x, with no
  condition; and a natural below 2³¹ read back signed from its word is itself, so it is not negative (the
  "add the extent to a negative index" step leaves it) and a clamp to [0, M − 1] leaves it when it is below M.
-/
import Idealize.ShloMosaic.PureOps.Ideal
import Idealize.ShloMosaic.Lib.Affine

namespace Idealize.ShloMosaic.FlatIndex

open Idealize.ShloMosaic

/-- y·W + x on words. -/
theorem flat2 (y x W : ℕ) :
    IntOp.addi (IntOp.muli (BitVec.ofNat 32 y) (BitVec.ofNat 32 W)) (BitVec.ofNat 32 x) = BitVec.ofNat 32 (y * W + x) := by
  simp only [IntOp.addi, IntOp.muli, BitVec.ofNat_add, BitVec.ofNat_mul]

/-- (z·HW + y·W) + x on words. -/
theorem flat3 (z y x HW W : ℕ) :
    IntOp.addi (IntOp.addi (IntOp.muli (BitVec.ofNat 32 z) (BitVec.ofNat 32 HW)) (IntOp.muli (BitVec.ofNat 32 y) (BitVec.ofNat 32 W)))
      (BitVec.ofNat 32 x) = BitVec.ofNat 32 (z * HW + y * W + x) := by
  simp only [IntOp.addi, IntOp.muli, BitVec.ofNat_add, BitVec.ofNat_mul]

/-- A natural below 2³¹, read signed from its word, is itself. -/
theorem toInt_ofNat (N : ℕ) (h : N < 2 ^ 31) : (BitVec.ofNat 32 N).toInt = (N : ℤ) := by
  have hn : (BitVec.ofNat 32 N).toNat = N := by
    rw [BitVec.toNat_ofNat]; exact Nat.mod_eq_of_lt (by omega)
  rw [BitVec.toInt_eq_toNat_cond, hn, if_pos (by omega)]

theorem toNat_toInt_ofNat (N : ℕ) (h : N < 2 ^ 31) : (BitVec.ofNat 32 N).toInt.toNat = N := by
  rw [toInt_ofNat N h]; exact Int.toNat_natCast N

/-- Such a word is not negative. -/
theorem not_slt_zero (N : ℕ) (h : N < 2 ^ 31) : (BitVec.ofNat 32 N).slt 0#32 = false := by
  unfold BitVec.slt
  rw [toInt_ofNat N h]; simp

/-- The comparison a program makes before normalising an index answers "not negative". -/
theorem cmpi_slt_zero (N : ℕ) (h : N < 2 ^ 31) : IntOp.cmpi .slt (BitVec.ofNat 32 N) 0#32 = 0#1 := by
  simp only [IntOp.cmpi, not_slt_zero N h]; rfl

/-- A row number below M survives the clamp to [0, M − 1]. -/
theorem clamp_id (N M : ℕ) (h : N < 2 ^ 31) (hM : N < M) : min (BitVec.ofNat 32 N).toInt.toNat (M - 1) = N := by
  rw [toNat_toInt_ofNat N h]; omega

end Idealize.ShloMosaic.FlatIndex
-- ==== Proof.RefRead.lean ====
/-
  The reference's patterns read at one row (and one channel), at the exact-real reading. A pixel position is the
  specification's `pix`; the clipped neighbours' words are the words of the naturals `cidx`, which the index
  normalisation leaves alone and a gather's clamp keeps; a gather then reads the argument array at the channel and
  the rows' naturals; a weight over the channels reads the row's weight.
-/
import proofs.«135735_j20624432955487_2_alg».proof.Proof.RefShape
import proofs.«135735_j20624432955487_2_alg».proof.Proof.SpecWords
import proofs.«135735_j20624432955487_2_alg».proof.Proof.LibMultiGather
import proofs.«135735_j20624432955487_2_alg».proof.Proof.LibConcatCols
import proofs.«135735_j20624432955487_2_alg».proof.Proof.LibColCast
import proofs.«135735_j20624432955487_2_alg».proof.Proof.LibFlatIndex
import Idealize.ShloMosaic.Lib.ValueIdx
import Idealize.ShloMosaic.Lib.ValueLayout
import Idealize.ShloMosaic.Lib.Pipeline.Value

set_option maxRecDepth 16384

noncomputable section
namespace Cert.ReferenceIdeal.RefValue
open Cert.ReferenceIdeal Cert.ReferenceIdeal.Gen Idealize.ShloMosaic Idealize.ShloMosaic.ValueIdx

/-! ## Words and constants in every row -/

theorem bI_apply (b : BitVec 32) (i : S1000000.Idx) : bI b i = b := rfl
theorem bF_apply (b : BitVec 32) (i : S1000000.Idx) : bF (F := Ideal) b i = Ideal.ofBits .f32 b := rfl
theorem bFI_apply (b : BitVec 32) (i : S1000000.Idx) : bFI (F := Ideal) b i = (((b.toInt : ℤ) : ℝ) : EReal) := rfl

/-! ## One coordinate -/

theorem pixOf_apply (v : FVec Ideal S1000000 .f32) (s : BitVec 32) (i : S1000000.Idx) :
    pixOf v s i = Spec.pix (Ideal.ofBits .f32 s) (v i) := rfl

theorem wtOf_apply (p : FVec Ideal S1000000 .f32) (i : S1000000.Idx) : wtOf p i = Spec.wt (p i) := rfl

theorem omw_apply (w : FVec Ideal S1000000 .f32) (i : S1000000.Idx) : omw w i = Spec.one - w i := rfl

theorem loOf_apply (hiw : BitVec 32) (hi : ℕ) (hhi : hi < 2 ^ 31) (h : hiw.toInt = (hi : ℤ))
    (p : FVec Ideal S1000000 .f32) (i : S1000000.Idx) :
    loOf hiw p i = BitVec.ofNat 32 (Spec.cidx hi (Spec.fl (p i))) :=
  Spec.fptosi_clip_words hiw hi hhi h (Spec.fl (p i))

theorem upOf_apply (hiw : BitVec 32) (hi : ℕ) (hhi : hi < 2 ^ 31) (h : hiw.toInt = (hi : ℤ))
    (p : FVec Ideal S1000000 .f32) (i : S1000000.Idx) :
    upOf hiw p i = BitVec.ofNat 32 (Spec.cidx hi (Spec.fl (p i) + Spec.one)) :=
  Spec.fptosi_clip_words hiw hi hhi h (Spec.fl (p i) + Spec.one)

theorem upLineOf_apply (p : FVec Ideal S1000000 .f32) (i : S1000000.Idx) :
    upLineOf p i = BitVec.ofNat 32 (Spec.cidx 63 (Spec.fl (p i) + Spec.one)) :=
  Spec.fptosi_clip63 (Spec.fl (p i) + Spec.one)

/-- One coordinate of one row: its pixel position, the words of its two clipped neighbours and its weight. -/
theorem coord_facts (hiw : BitVec 32) (hi : ℕ) (hhi : hi < 2 ^ 31) (h : hiw.toInt = (hi : ℤ)) (s : BitVec 32)
    (v : FVec Ideal S1000000 .f32) (j : S1000000.Idx) (x : EReal) (hv : v j = x) :
    pixOf v s j = Spec.pix (Ideal.ofBits .f32 s) x
    ∧ loOf hiw (pixOf v s) j = BitVec.ofNat 32 (Spec.cidx hi (Spec.fl (Spec.pix (Ideal.ofBits .f32 s) x)))
    ∧ upOf hiw (pixOf v s) j = BitVec.ofNat 32 (Spec.cidx hi (Spec.fl (Spec.pix (Ideal.ofBits .f32 s) x) + Spec.one))
    ∧ wtOf (pixOf v s) j = Spec.wt (Spec.pix (Ideal.ofBits .f32 s) x) := by
  have hp : pixOf v s j = Spec.pix (Ideal.ofBits .f32 s) x := by rw [pixOf_apply, hv]
  refine ⟨hp, ?_, ?_, ?_⟩
  · rw [loOf_apply hiw hi hhi h, hp]
  · rw [upOf_apply hiw hi hhi h, hp]
  · rw [wtOf_apply, hp]

/-! ## The index normalisation and the index tables -/

theorem normIdx_apply (ext : BitVec 32) (w : IVec S1000000 32) (i : S1000000.Idx) (N : ℕ) (hN : N < 2 ^ 31)
    (hw : w i = BitVec.ofNat 32 N) : normIdx ext w i = BitVec.ofNat 32 N := by
  show Scalar.select (IntOp.cmpi .slt (w i) 0#32) (IntOp.addi (w i) ext) (w i) = _
  rw [hw, FlatIndex.cmpi_slt_zero N hN, select_zero]

/-- The index normalisation on one word, as the specification spells it. -/
theorem select_slt_normw (n w : BitVec 32) :
    Scalar.select (IntOp.cmpi .slt w 0#32) (IntOp.addi w n) w = Spec.normw n w := by
  unfold Spec.normw Scalar.select IntOp.cmpi IntOp.addi
  cases h : w.slt 0#32 <;> simp [h]

theorem rowsOf_apply (w : IVec S1000000 32) (i : Fin 1000000) : rowsOf w (ix2 i (0 : Fin 1)) = w (ix1 i) := by
  unfold rowsOf
  refine broadcastInDim_apply _ _ w _ (ix1 i) fun a => ?_
  match a with
  | ⟨0, _⟩ => show i.val = if (1000000 : ℕ) = 1 then 0 else i.val; rw [if_neg (by decide)]

/-- A word that is the word of a natural inside the axis, clamped as a gather clamps it, is the natural. -/
theorem clampVal (A N : ℕ) (b : BitVec 32) (hb : b = BitVec.ofNat 32 N) (hN : N < A) (hN31 : N < 2 ^ 31) :
    min b.toInt.toNat (A - 1) = N := by
  subst hb; exact FlatIndex.clamp_id N A hN31 hN

/-! ## The gathers -/

theorem gatG_apply (G : FVec Ideal S16x128x128x128 .f32) (iz iy ix : IVec S1000000 32) (q : Fin 16) (r : Fin 1000000)
    (z y x : ℕ) (hz : z < 128) (hy : y < 128) (hx : x < 128)
    (ez : iz (ix1 r) = BitVec.ofNat 32 z) (ey : iy (ix1 r) = BitVec.ofNat 32 y) (ex : ix (ix1 r) = BitVec.ofNat 32 x) :
    gatG G iz iy ix (ix2 q r) = G (ix4 q (⟨z, hz⟩ : Fin 128) (⟨y, hy⟩ : Fin 128) (⟨x, hx⟩ : Fin 128)) := by
  have t0 : cat3 (F := Ideal) (rowsOf (normIdx 128#32 iz)) (rowsOf (normIdx 128#32 iy)) (rowsOf (normIdx 128#32 ix)) (ix2 r (0 : Fin 3))
      = BitVec.ofNat 32 z := by
    unfold cat3
    rw [LibConcatCols.concat3_cols_fst (a := 1) (b := 1) (c := 1) (n := 3) _ _ _ _ r (0 : Fin 3) (0 : Fin 1) (by decide), rowsOf_apply, normIdx_apply _ iz (ix1 r) z (by omega) ez]
  have t1 : cat3 (F := Ideal) (rowsOf (normIdx 128#32 iz)) (rowsOf (normIdx 128#32 iy)) (rowsOf (normIdx 128#32 ix)) (ix2 r (1 : Fin 3))
      = BitVec.ofNat 32 y := by
    unfold cat3
    rw [LibConcatCols.concat3_cols_snd (a := 1) (b := 1) (c := 1) (n := 3) _ _ _ _ r (1 : Fin 3) (0 : Fin 1) (by decide), rowsOf_apply, normIdx_apply _ iy (ix1 r) y (by omega) ey]
  have t2 : cat3 (F := Ideal) (rowsOf (normIdx 128#32 iz)) (rowsOf (normIdx 128#32 iy)) (rowsOf (normIdx 128#32 ix)) (ix2 r (2 : Fin 3))
      = BitVec.ofNat 32 x := by
    unfold cat3
    rw [LibConcatCols.concat3_cols_thd (a := 1) (b := 1) (c := 1) (n := 3) _ _ _ _ r (2 : Fin 3) (0 : Fin 1) (by decide), rowsOf_apply, normIdx_apply _ ix (ix1 r) x (by omega) ex]
  unfold gatG
  have e : gather_S16x128x128x128_S1000000x3_S16x1000000_0_123_n_n_123_1_16111
      = MultiGather.dims3 16 128 128 128 1000000 gather_S16x128x128x128_S1000000x3_S16x1000000_0_123_n_n_123_1_16111_wf := rfl
  rw [e, MultiGather.gather3_apply (by decide) (by decide) (by decide)]
  refine congrArg G ?_
  funext a
  match a with
  | ⟨0, _⟩ => rfl
  | ⟨1, _⟩ => exact Fin.ext (clampVal 128 z _ t0 hz (by omega))
  | ⟨2, _⟩ => exact Fin.ext (clampVal 128 y _ t1 hy (by omega))
  | ⟨3, _⟩ => exact Fin.ext (clampVal 128 x _ t2 hx (by omega))

theorem gatP_apply (P : FVec Ideal S16x256x256 .f32) (iy ix : IVec S1000000 32) (q : Fin 16) (r : Fin 1000000)
    (y x : ℕ) (hy : y < 256) (hx : x < 256)
    (ey : iy (ix1 r) = BitVec.ofNat 32 y) (ex : ix (ix1 r) = BitVec.ofNat 32 x) :
    gatP P iy ix (ix2 q r) = P (ix3 q (⟨y, hy⟩ : Fin 256) (⟨x, hx⟩ : Fin 256)) := by
  have t0 : cat2 (F := Ideal) (rowsOf (normIdx 256#32 iy)) (rowsOf (normIdx 256#32 ix)) (ix2 r (0 : Fin 2)) = BitVec.ofNat 32 y := by
    unfold cat2
    rw [LibConcatCols.concat2_cols_apply (a := 1) (b := 1) (n := 2) _ _ _ rfl r (0 : Fin 2), dif_pos (by decide)]
    exact (rowsOf_apply _ r).trans (normIdx_apply _ iy (ix1 r) y (by omega) ey)
  have t1 : cat2 (F := Ideal) (rowsOf (normIdx 256#32 iy)) (rowsOf (normIdx 256#32 ix)) (ix2 r (1 : Fin 2)) = BitVec.ofNat 32 x := by
    unfold cat2
    rw [LibConcatCols.concat2_cols_apply (a := 1) (b := 1) (n := 2) _ _ _ rfl r (1 : Fin 2), dif_neg (by decide)]
    exact (rowsOf_apply _ r).trans (normIdx_apply _ ix (ix1 r) x (by omega) ex)
  unfold gatP
  have e : gather_S16x256x256_S1000000x2_S16x1000000_0_12_n_n_12_1_1611
      = MultiGather.dims2 16 256 256 1000000 gather_S16x256x256_S1000000x2_S16x1000000_0_12_n_n_12_1_1611_wf := rfl
  rw [e, MultiGather.gather2_apply (by decide) (by decide)]
  refine congrArg P ?_
  funext a
  match a with
  | ⟨0, _⟩ => rfl
  | ⟨1, _⟩ => exact Fin.ext (clampVal 256 y _ t0 hy (by omega))
  | ⟨2, _⟩ => exact Fin.ext (clampVal 256 x _ t1 hx (by omega))

/-- The line's entry by an arbitrary word: the row the specification names for that word. -/
theorem gatL_word (L : FVec Ideal S16x64 .f32) (w : IVec S1000000 32) (q : Fin 16) (r : Fin 1000000) :
    gatL L w (ix2 q r) = L (ix2 q (Spec.lrow (w (ix1 r)))) := by
  have t : rowsOf (normIdx 64#32 w) (ix2 r (0 : Fin 1)) = Spec.normw 64#32 (w (ix1 r)) :=
    (rowsOf_apply _ r).trans (select_slt_normw 64#32 (w (ix1 r)))
  unfold gatL
  have e : gather_S16x64_S1000000x1_S16x1000000_0_1_n_n_1_1_161
      = MultiGather.dims1 16 64 1000000 gather_S16x64_S1000000x1_S16x1000000_0_1_n_n_1_1_161_wf := rfl
  rw [e, MultiGather.gather1_apply (by decide)]
  refine congrArg L ?_
  funext a
  match a with
  | ⟨0, _⟩ => rfl
  | ⟨1, _⟩ => exact Fin.ext (congrArg (fun b : BitVec 32 => min b.toInt.toNat (64 - 1)) t)

/-- The line's entry by the word of a natural below 64. -/
theorem gatL_nat (L : FVec Ideal S16x64 .f32) (w : IVec S1000000 32) (q : Fin 16) (r : Fin 1000000)
    (N : ℕ) (hN : N < 64) (hw : w (ix1 r) = BitVec.ofNat 32 N) :
    gatL L w (ix2 q r) = L (ix2 q (⟨N, hN⟩ : Fin 64)) := by
  have t : rowsOf (normIdx 64#32 w) (ix2 r (0 : Fin 1)) = BitVec.ofNat 32 N :=
    (rowsOf_apply _ r).trans (normIdx_apply _ w (ix1 r) N (by omega) hw)
  unfold gatL
  have e : gather_S16x64_S1000000x1_S16x1000000_0_1_n_n_1_1_161
      = MultiGather.dims1 16 64 1000000 gather_S16x64_S1000000x1_S16x1000000_0_1_n_n_1_1_161_wf := rfl
  rw [e, MultiGather.gather1_apply (by decide)]
  refine congrArg L ?_
  funext a
  match a with
  | ⟨0, _⟩ => rfl
  | ⟨1, _⟩ => exact Fin.ext (clampVal 64 N _ t hN (by omega))

/-! ## Weights over the channels, and the zero accumulator -/

theorem w16_apply (w : FVec Ideal S1000000 .f32) (q : Fin 16) (r : Fin 1000000) : w16 w (ix2 q r) = w (ix1 r) := by
  unfold w16
  rw [broadcastInDim_apply _ _ _ (ix2 q r) (ix2 (0 : Fin 1) r) fun a => by
    match a with
    | ⟨0, _⟩ => show (0 : ℕ) = if (1 : ℕ) = 1 then 0 else q.val; rw [if_pos rfl]
    | ⟨1, _⟩ => show r.val = if (1000000 : ℕ) = 1 then 0 else r.val; rw [if_neg (by decide)]]
  refine broadcastInDim_apply _ _ w _ (ix1 r) fun a => ?_
  match a with
  | ⟨0, _⟩ => show r.val = if (1000000 : ℕ) = 1 then 0 else r.val; rw [if_neg (by decide)]

theorem zero16_apply (j : S16x1000000.Idx) : zero16 (F := Ideal) j = Spec.zero := rfl

/-! ## The coordinate columns -/

theorem colOf_apply (V : FVec Ideal S1000000x4 .f32) (o : ℕ) (h : S1000000x4.Slices ![0, o] S1000000x1) (ho : o < 4)
    (i : Fin 1000000) : colOf V o h (ix1 i) = V (ix2 i (⟨o, ho⟩ : Fin 4)) := by
  unfold colOf
  rw [LibColCast.shapeCast_a1_a_apply]
  exact slice2_axis1_apply o V h i (0 : Fin 1) ⟨o, ho⟩ (by simp)

theorem colOf3_apply (V : FVec Ideal S1000000x4 .f32) (o : ℕ) (h : S1000000x3.Slices ![0, o] S1000000x1) (ho : o < 3)
    (i : Fin 1000000) : colOf3 V o h (ix1 i) = V (ix2 i (⟨o, by omega⟩ : Fin 4)) := by
  unfold colOf3
  rw [LibColCast.shapeCast_a1_a_apply, slice2_axis1_apply o _ h i (0 : Fin 1) (⟨o, ho⟩ : Fin 3) (by simp)]
  exact slice2_axis1_apply 0 V slices_S1000000x4_S1000000x3_0_0 i (⟨o, ho⟩ : Fin 3) (⟨o, by omega⟩ : Fin 4) (by simp)

theorem colOf2_apply (V : FVec Ideal S1000000x2 .f32) (o : ℕ) (h : S1000000x2.Slices ![0, o] S1000000x1) (ho : o < 2)
    (i : Fin 1000000) : colOf2 V o h (ix1 i) = V (ix2 i (⟨o, ho⟩ : Fin 2)) := by
  unfold colOf2
  rw [LibColCast.shapeCast_a1_a_apply]
  exact slice2_axis1_apply o V h i (0 : Fin 1) ⟨o, ho⟩ (by simp)

/-- The pair of coordinate columns a plane reads: entry j of the pair is the coordinate column the table names. -/
theorem pairOf_apply (X : FVec Ideal S1000000x4 .f32) (lit : Fin 2 → BitVec 32) (r : Fin 1000000) (j : Fin 2) (col : ℕ)
    (hcol : col < 4) (hl : lit (S2.rowMajor (ix1 j)) = BitVec.ofNat 32 col) :
    pairOf X lit (ix2 r j) = X (ix2 r (⟨col, hcol⟩ : Fin 4)) := by
  have t : (broadcastInDim S2x1 ![0] bcast_S2_S2x1_0
      (select (cmpi .slt (fun i => lit (S2.rowMajor i) : IVec S2 32) (broadcastInDim S2 ![] bcast_S_S2 (constantI S_ 32 0#32)))
        (addi (fun i => lit (S2.rowMajor i) : IVec S2 32) (broadcastInDim S2 ![] bcast_S_S2 (constantI S_ 32 4#32)))
        (fun i => lit (S2.rowMajor i) : IVec S2 32)) : IVec S2x1 32) (ix2 j (0 : Fin 1)) = BitVec.ofNat 32 col := by
    rw [broadcastInDim_apply _ _ _ (ix2 j (0 : Fin 1)) (ix1 j) fun a => by
      match a with
      | ⟨0, _⟩ => show j.val = if (2 : ℕ) = 1 then 0 else j.val; rw [if_neg (by decide)]]
    show Scalar.select (IntOp.cmpi .slt (lit (S2.rowMajor (ix1 j))) 0#32) (IntOp.addi (lit (S2.rowMajor (ix1 j))) 4#32) (lit (S2.rowMajor (ix1 j))) = _
    rw [hl, FlatIndex.cmpi_slt_zero col (by omega), select_zero]
  unfold pairOf
  have e : gather_S1000000x4_S2x1_S1000000x2_0_1_n_n_1_1_10000001
      = MultiGather.dims1 1000000 4 2 gather_S1000000x4_S2x1_S1000000x2_0_1_n_n_1_1_10000001_wf := rfl
  rw [e, MultiGather.gather1_apply (by decide)]
  refine congrArg X ?_
  funext a
  match a with
  | ⟨0, _⟩ => rfl
  | ⟨1, _⟩ => exact Fin.ext (clampVal 4 col _ t hcol (by omega))

end Cert.ReferenceIdeal.RefValue
end
-- ==== Proof.RefStruct.lean ====
/-
  The reference's structures read at one channel and row. With the neighbours' words the words of the specification's
  clipped naturals and the weights the specification's, every corner's gathered entry is the argument array at the
  corner, and the accumulated sum is the specification's corner sum, term by term in the same order.
-/
import proofs.«135735_j20624432955487_2_alg».proof.Proof.RefRead

set_option maxRecDepth 16384

noncomputable section
namespace Cert.ReferenceIdeal.RefValue
open Cert.ReferenceIdeal Cert.ReferenceIdeal.Gen Idealize.ShloMosaic Idealize.ShloMosaic.ValueIdx

/-! ## The volume -/

theorem corner3 (G : Spec.SG.Idx → EReal) (iz iy ix : IVec S1000000 32) (q : Fin 16) (r : Fin 1000000) (vz vy vx : EReal)
    (hz : iz (ix1 r) = BitVec.ofNat 32 (Spec.cidx 127 vz)) (hy : iy (ix1 r) = BitVec.ofNat 32 (Spec.cidx 127 vy))
    (hx : ix (ix1 r) = BitVec.ofNat 32 (Spec.cidx 127 vx)) :
    gatG (F := Ideal) G iz iy ix (ix2 q r)
      = G (ix4 q (Spec.cfin 128 (by decide) vz) (Spec.cfin 128 (by decide) vy) (Spec.cfin 128 (by decide) vx)) := by
  have bz := Spec.cidx_le 127 vz
  have by' := Spec.cidx_le 127 vy
  have bx := Spec.cidx_le 127 vx
  exact gatG_apply G iz iy ix q r (Spec.cidx 127 vz) (Spec.cidx 127 vy) (Spec.cidx 127 vx) (by omega) (by omega) (by omega) hz hy hx

theorem accG_apply (G : FVec Ideal S16x128x128x128 .f32) (acc : FVec Ideal S16x1000000 .f32) (iz iy ix : IVec S1000000 32)
    (uz uy ux : FVec Ideal S1000000 .f32) (q : Fin 16) (r : Fin 1000000) :
    accG G acc iz iy ix uz uy ux (ix2 q r)
      = acc (ix2 q r) + gatG G iz iy ix (ix2 q r) * ((uz (ix1 r) * uy (ix1 r)) * ux (ix1 r)) := by
  show acc (ix2 q r) + gatG G iz iy ix (ix2 q r) * w16 (mulf (mulf uz uy) ux) (ix2 q r) = _
  rw [w16_apply]; rfl

theorem triOf_apply (G : Spec.SG.Idx → EReal)
    (z0 z1 y0 y1 x0 x1 : IVec S1000000 32) (wz wy wx : FVec Ideal S1000000 .f32) (q : Fin 16) (r : Fin 1000000) (pz py px : EReal)
    (hz0 : z0 (ix1 r) = BitVec.ofNat 32 (Spec.cidx 127 (Spec.fl pz))) (hz1 : z1 (ix1 r) = BitVec.ofNat 32 (Spec.cidx 127 (Spec.fl pz + Spec.one)))
    (hy0 : y0 (ix1 r) = BitVec.ofNat 32 (Spec.cidx 127 (Spec.fl py))) (hy1 : y1 (ix1 r) = BitVec.ofNat 32 (Spec.cidx 127 (Spec.fl py + Spec.one)))
    (hx0 : x0 (ix1 r) = BitVec.ofNat 32 (Spec.cidx 127 (Spec.fl px))) (hx1 : x1 (ix1 r) = BitVec.ofNat 32 (Spec.cidx 127 (Spec.fl px + Spec.one)))
    (hwz : wz (ix1 r) = Spec.wt pz) (hwy : wy (ix1 r) = Spec.wt py) (hwx : wx (ix1 r) = Spec.wt px) :
    triOf G z0 z1 y0 y1 x0 x1 wz wy wx (ix2 q r) = Spec.tri G q pz py px := by
  unfold triOf
  simp only [accG_apply, omw_apply, zero16_apply, hwz, hwy, hwx]
  rw [corner3 G z0 y0 x0 q r _ _ _ hz0 hy0 hx0, corner3 G z0 y0 x1 q r _ _ _ hz0 hy0 hx1,
    corner3 G z0 y1 x0 q r _ _ _ hz0 hy1 hx0, corner3 G z0 y1 x1 q r _ _ _ hz0 hy1 hx1,
    corner3 G z1 y0 x0 q r _ _ _ hz1 hy0 hx0, corner3 G z1 y0 x1 q r _ _ _ hz1 hy0 hx1,
    corner3 G z1 y1 x0 q r _ _ _ hz1 hy1 hx0, corner3 G z1 y1 x1 q r _ _ _ hz1 hy1 hx1]
  rfl

/-! ## A plane -/

theorem corner2 (P : Spec.SP.Idx → EReal) (iy ix : IVec S1000000 32) (q : Fin 16) (r : Fin 1000000) (vy vx : EReal)
    (hy : iy (ix1 r) = BitVec.ofNat 32 (Spec.cidx 255 vy)) (hx : ix (ix1 r) = BitVec.ofNat 32 (Spec.cidx 255 vx)) :
    gatP (F := Ideal) P iy ix (ix2 q r) = P (ix3 q (Spec.cfin 256 (by decide) vy) (Spec.cfin 256 (by decide) vx)) := by
  have by' := Spec.cidx_le 255 vy
  have bx := Spec.cidx_le 255 vx
  exact gatP_apply P iy ix q r (Spec.cidx 255 vy) (Spec.cidx 255 vx) (by omega) (by omega) hy hx

theorem accP_apply (P : FVec Ideal S16x256x256 .f32) (acc : FVec Ideal S16x1000000 .f32) (iy ix : IVec S1000000 32)
    (uy ux : FVec Ideal S1000000 .f32) (q : Fin 16) (r : Fin 1000000) :
    accP P acc iy ix uy ux (ix2 q r) = acc (ix2 q r) + gatP P iy ix (ix2 q r) * (uy (ix1 r) * ux (ix1 r)) := by
  show acc (ix2 q r) + gatP P iy ix (ix2 q r) * w16 (mulf uy ux) (ix2 q r) = _
  rw [w16_apply]; rfl

theorem bilOf_apply (P : Spec.SP.Idx → EReal)
    (y0 y1 x0 x1 : IVec S1000000 32) (wy wx : FVec Ideal S1000000 .f32) (q : Fin 16) (r : Fin 1000000) (py px : EReal)
    (hy0 : y0 (ix1 r) = BitVec.ofNat 32 (Spec.cidx 255 (Spec.fl py))) (hy1 : y1 (ix1 r) = BitVec.ofNat 32 (Spec.cidx 255 (Spec.fl py + Spec.one)))
    (hx0 : x0 (ix1 r) = BitVec.ofNat 32 (Spec.cidx 255 (Spec.fl px))) (hx1 : x1 (ix1 r) = BitVec.ofNat 32 (Spec.cidx 255 (Spec.fl px + Spec.one)))
    (hwy : wy (ix1 r) = Spec.wt py) (hwx : wx (ix1 r) = Spec.wt px) :
    bilOf P y0 y1 x0 x1 wy wx (ix2 q r) = Spec.bil P q py px := by
  unfold bilOf
  simp only [accP_apply, omw_apply, zero16_apply, hwy, hwx]
  rw [corner2 P y0 x0 q r _ _ hy0 hx0, corner2 P y0 x1 q r _ _ hy0 hx1,
    corner2 P y1 x0 q r _ _ hy1 hx0, corner2 P y1 x1 q r _ _ hy1 hx1]
  rfl

/-! ## The line -/

theorem linOf_apply (L : Spec.SL.Idx → EReal) (i0 i1 : IVec S1000000 32) (w : FVec Ideal S1000000 .f32)
    (q : Fin 16) (r : Fin 1000000) (pn : EReal)
    (h0 : i0 (ix1 r) = Ideal.fptosi 32 (Spec.fl pn)) (h1 : i1 (ix1 r) = BitVec.ofNat 32 (Spec.cidx 63 (Spec.fl pn + Spec.one)))
    (hw : w (ix1 r) = Spec.wt pn) :
    linOf L i0 i1 w (ix2 q r) = Spec.lin L q pn := by
  have b1 := Spec.cidx_le 63 (Spec.fl pn + Spec.one)
  show gatL (F := Ideal) L i0 (ix2 q r) * w16 (omw w) (ix2 q r) + gatL (F := Ideal) L i1 (ix2 q r) * w16 w (ix2 q r) = _
  rw [w16_apply, w16_apply, omw_apply, hw, gatL_word L i0 q r, h0,
    gatL_nat L i1 q r _ (by omega : Spec.cidx 63 (Spec.fl pn + Spec.one) < 64) h1]
  rfl

/-! ## The result -/

theorem outOf_apply (tri b0 b1 b2 lin : FVec Ideal S16x1000000 .f32) (r : Fin 1000000) (c : Fin 32) :
    outOf tri b0 b1 b2 lin (ix2 r c)
      = if h : c.val < 16 then
          ((tri (ix2 (⟨c.val, h⟩ : Fin 16) r) * b0 (ix2 (⟨c.val, h⟩ : Fin 16) r)) * b1 (ix2 (⟨c.val, h⟩ : Fin 16) r)) * b2 (ix2 (⟨c.val, h⟩ : Fin 16) r)
        else lin (ix2 (⟨c.val - 16, by have := c.isLt; omega⟩ : Fin 16) r) := by
  unfold outOf cat16
  rw [LibConcatCols.concat2_cols_apply (a := 16) (b := 16) (n := 32) _ _ _ rfl r c]
  split
  · next h => rw [transpose_ix2_apply]; rfl
  · next h => rw [transpose_ix2_apply]

end Cert.ReferenceIdeal.RefValue
end
-- ==== Proof.RefPoint.lean ====
/-
  The reference's result at one entry is the specification's. Each pixel position, neighbour word and weight of row r
  is the specification's; a plane's two coordinate columns are the ones its two-entry table names; the volume's, the
  planes' and the line's values at (q, r) are therefore the specification's `tri`, `bil` and `lin`, and the result
  multiplies the first four and joins the line after channel 15.
-/
import proofs.«135735_j20624432955487_2_alg».proof.Proof.RefInst
import proofs.«135735_j20624432955487_2_alg».proof.Proof.RefStruct

set_option maxRecDepth 16384

noncomputable section
namespace Cert.ReferenceIdeal.RefValue
open Cert.ReferenceIdeal Cert.ReferenceIdeal.Gen Idealize.ShloMosaic Idealize.ShloMosaic.ValueIdx

section Row
variable (X : Spec.SX.Idx → EReal) (r : Fin 1000000)

/-! ## The planes' coordinate pairs -/

theorem pair0_fst : colOf2 (pairOf (F := Ideal) X lit0) 0 slices_S1000000x2_S1000000x1_0_0 (ix1 r) = X (ix2 r 1) := by
  rw [colOf2_apply _ 0 _ (by decide) r]; exact pairOf_apply X lit0 r _ 1 (by decide) rfl
theorem pair0_snd : colOf2 (pairOf (F := Ideal) X lit0) 1 slices_S1000000x2_S1000000x1_0_1 (ix1 r) = X (ix2 r 2) := by
  rw [colOf2_apply _ 1 _ (by decide) r]; exact pairOf_apply X lit0 r _ 2 (by decide) rfl
theorem pair1_fst : colOf2 (pairOf (F := Ideal) X lit1) 0 slices_S1000000x2_S1000000x1_0_0 (ix1 r) = X (ix2 r 0) := by
  rw [colOf2_apply _ 0 _ (by decide) r]; exact pairOf_apply X lit1 r _ 0 (by decide) rfl
theorem pair1_snd : colOf2 (pairOf (F := Ideal) X lit1) 1 slices_S1000000x2_S1000000x1_0_1 (ix1 r) = X (ix2 r 2) := by
  rw [colOf2_apply _ 1 _ (by decide) r]; exact pairOf_apply X lit1 r _ 2 (by decide) rfl
theorem pair2_fst : colOf2 (pairOf (F := Ideal) X lit2) 0 slices_S1000000x2_S1000000x1_0_0 (ix1 r) = X (ix2 r 0) := by
  rw [colOf2_apply _ 0 _ (by decide) r]; exact pairOf_apply X lit2 r _ 0 (by decide) rfl
theorem pair2_snd : colOf2 (pairOf (F := Ideal) X lit2) 1 slices_S1000000x2_S1000000x1_0_1 (ix1 r) = X (ix2 r 1) := by
  rw [colOf2_apply _ 1 _ (by decide) r]; exact pairOf_apply X lit2 r _ 1 (by decide) rfl

/-! ## The five interpolated arrays at row r -/

theorem tri_read (G : Spec.SG.Idx → EReal) (q : Fin 16) :
    r_main_v271 (F := Ideal) X G (ix2 q r) = Spec.tri G q (Spec.pix Spec.s127 (X (ix2 r 2))) (Spec.pix Spec.s127 (X (ix2 r 1))) (Spec.pix Spec.s127 (X (ix2 r 0))) := by
  have fx := coord_facts 127#32 127 (by norm_num) (by decide) 0x42FE0000#32 _ (ix1 r) _ (colOf3_apply X 0 slices_S1000000x3_S1000000x1_0_0 (by decide) r)
  have fy := coord_facts 127#32 127 (by norm_num) (by decide) 0x42FE0000#32 _ (ix1 r) _ (colOf3_apply X 1 slices_S1000000x3_S1000000x1_0_1 (by decide) r)
  have fz := coord_facts 127#32 127 (by norm_num) (by decide) 0x42FE0000#32 _ (ix1 r) _ (colOf3_apply X 2 slices_S1000000x3_S1000000x1_0_2 (by decide) r)
  rw [e_v271]
  exact triOf_apply G _ _ _ _ _ _ _ _ _ q r (Spec.pix Spec.s127 (X (ix2 r 2))) (Spec.pix Spec.s127 (X (ix2 r 1))) (Spec.pix Spec.s127 (X (ix2 r 0)))
    (by rw [e_v43, e_v24, e_v18]; exact fz.2.1) (by rw [e_v47, e_v24, e_v18]; exact fz.2.2.1)
    (by rw [e_v35, e_v16, e_v10]; exact fy.2.1) (by rw [e_v39, e_v16, e_v10]; exact fy.2.2.1)
    (by rw [e_v27, e_v8, e_v2]; exact fx.2.1) (by rw [e_v31, e_v8, e_v2]; exact fx.2.2.1)
    (by rw [e_v48, e_v24, e_v18]; exact fz.2.2.2) (by rw [e_v40, e_v16, e_v10]; exact fy.2.2.2)
    (by rw [e_v32, e_v8, e_v2]; exact fx.2.2.2)

theorem bil0_read (P : Spec.SP.Idx → EReal) (q : Fin 16) :
    r_main_v393 (F := Ideal) X P (ix2 q r) = Spec.bil P q (Spec.pix Spec.s255 (X (ix2 r 2))) (Spec.pix Spec.s255 (X (ix2 r 1))) := by
  have fx := coord_facts 255#32 255 (by norm_num) (by decide) 0x437F0000#32 _ (ix1 r) _ (pair0_fst X r)
  have fy := coord_facts 255#32 255 (by norm_num) (by decide) 0x437F0000#32 _ (ix1 r) _ (pair0_snd X r)
  rw [e_v393]
  exact bilOf_apply P _ _ _ _ _ _ q r (Spec.pix Spec.s255 (X (ix2 r 2))) (Spec.pix Spec.s255 (X (ix2 r 1)))
    (by rw [e_v305, e_v294, e_v288, e_v278]; exact fy.2.1) (by rw [e_v309, e_v294, e_v288, e_v278]; exact fy.2.2.1)
    (by rw [e_v297, e_v286, e_v280, e_v278]; exact fx.2.1) (by rw [e_v301, e_v286, e_v280, e_v278]; exact fx.2.2.1)
    (by rw [e_v310, e_v294, e_v288, e_v278]; exact fy.2.2.2) (by rw [e_v302, e_v286, e_v280, e_v278]; exact fx.2.2.2)

theorem bil1_read (P : Spec.SP.Idx → EReal) (q : Fin 16) :
    r_main_v516 (F := Ideal) X P (ix2 q r) = Spec.bil P q (Spec.pix Spec.s255 (X (ix2 r 2))) (Spec.pix Spec.s255 (X (ix2 r 0))) := by
  have fx := coord_facts 255#32 255 (by norm_num) (by decide) 0x437F0000#32 _ (ix1 r) _ (pair1_fst X r)
  have fy := coord_facts 255#32 255 (by norm_num) (by decide) 0x437F0000#32 _ (ix1 r) _ (pair1_snd X r)
  rw [e_v516]
  exact bilOf_apply P _ _ _ _ _ _ q r (Spec.pix Spec.s255 (X (ix2 r 2))) (Spec.pix Spec.s255 (X (ix2 r 0)))
    (by rw [e_v428, e_v417, e_v411, e_v401]; exact fy.2.1) (by rw [e_v432, e_v417, e_v411, e_v401]; exact fy.2.2.1)
    (by rw [e_v420, e_v409, e_v403, e_v401]; exact fx.2.1) (by rw [e_v424, e_v409, e_v403, e_v401]; exact fx.2.2.1)
    (by rw [e_v433, e_v417, e_v411, e_v401]; exact fy.2.2.2) (by rw [e_v425, e_v409, e_v403, e_v401]; exact fx.2.2.2)

theorem bil2_read (P : Spec.SP.Idx → EReal) (q : Fin 16) :
    r_main_v639 (F := Ideal) X P (ix2 q r) = Spec.bil P q (Spec.pix Spec.s255 (X (ix2 r 1))) (Spec.pix Spec.s255 (X (ix2 r 0))) := by
  have fx := coord_facts 255#32 255 (by norm_num) (by decide) 0x437F0000#32 _ (ix1 r) _ (pair2_fst X r)
  have fy := coord_facts 255#32 255 (by norm_num) (by decide) 0x437F0000#32 _ (ix1 r) _ (pair2_snd X r)
  rw [e_v639]
  exact bilOf_apply P _ _ _ _ _ _ q r (Spec.pix Spec.s255 (X (ix2 r 1))) (Spec.pix Spec.s255 (X (ix2 r 0)))
    (by rw [e_v551, e_v540, e_v534, e_v524]; exact fy.2.1) (by rw [e_v555, e_v540, e_v534, e_v524]; exact fy.2.2.1)
    (by rw [e_v543, e_v532, e_v526, e_v524]; exact fx.2.1) (by rw [e_v547, e_v532, e_v526, e_v524]; exact fx.2.2.1)
    (by rw [e_v556, e_v540, e_v534, e_v524]; exact fy.2.2.2) (by rw [e_v548, e_v532, e_v526, e_v524]; exact fx.2.2.2)

theorem lin_read (L : Spec.SL.Idx → EReal) (q : Fin 16) :
    r_main_v674 (F := Ideal) X L (ix2 q r) = Spec.lin L q (X (ix2 r 3) * Spec.s63) := by
  have c3 : r_main_v642 (F := Ideal) X (ix1 r) = X (ix2 r 3) := by
    rw [e_v642]; exact colOf_apply X 3 slices_S1000000x4_S1000000x1_0_3 (by decide) r
  have pn : r_main_v644 (F := Ideal) X (ix1 r) = X (ix2 r 3) * Spec.s63 := by
    rw [e_v644]
    show r_main_v642 (F := Ideal) X (ix1 r) * Ideal.ofBits .f32 0x427C0000#32 = _
    rw [c3]; rfl
  rw [e_v674]
  exact linOf_apply L _ _ _ q r (X (ix2 r 3) * Spec.s63)
    (by rw [e_v646]; show Ideal.fptosi 32 (Spec.fl (r_main_v644 (F := Ideal) X (ix1 r))) = _; rw [pn])
    (by rw [e_v650, upLineOf_apply, pn])
    (by rw [e_v651, wtOf_apply, pn])

end Row

/-- THE REFERENCE'S VALUE AT ONE ENTRY is the specification's. -/
theorem ref_apply (X : Spec.SX.Idx → EReal) (G : Spec.SG.Idx → EReal) (P0 P1 P2 : Spec.SP.Idx → EReal) (L : Spec.SL.Idx → EReal)
    (r : Fin 1000000) (c : Fin 32) :
    r_main_v677 (F := Ideal) X G P0 P1 P2 L (ix2 r c) = Spec.out X G P0 P1 P2 L r c := by
  rw [e_v677, outOf_apply]
  unfold Spec.out
  by_cases hc : c.val < 16
  · rw [dif_pos hc, dif_pos hc, tri_read X r G, bil0_read X r P0, bil1_read X r P1, bil2_read X r P2]
    rfl
  · rw [dif_neg hc, dif_neg hc, lin_read X r L]
    rfl

end Cert.ReferenceIdeal.RefValue
end
-- ==== Proof.RefAt.lean ====
/-
  The reference's result at one entry is the specification's: the result is the last value of the chain of
  definitions, read at (r, c) in RefPoint. (The reference adds the corners in the specification's own arrangement, so
  no law of arithmetic is used and the finiteness hypotheses are not needed; they are kept so that both sides state
  the same sentence.)
-/
import proofs.«135735_j20624432955487_2_alg».proof.Proof.RefRun
import proofs.«135735_j20624432955487_2_alg».proof.Proof.RefPoint

noncomputable section
namespace Cert.ReferenceIdeal.RefValue
open Idealize.ShloMosaic

theorem out_apply (X : Cert.Spec.SX.Idx → EReal) (G : Cert.Spec.SG.Idx → EReal) (P0 P1 P2 : Cert.Spec.SP.Idx → EReal)
    (L : Cert.Spec.SL.Idx → EReal)
    (hX : ∀ i, ∃ x : ℝ, X i = (x : EReal)) (hG : ∀ i, ∃ x : ℝ, G i = (x : EReal)) (hP0 : ∀ i, ∃ x : ℝ, P0 i = (x : EReal))
    (hP1 : ∀ i, ∃ x : ℝ, P1 i = (x : EReal)) (hP2 : ∀ i, ∃ x : ℝ, P2 i = (x : EReal)) (hL : ∀ i, ∃ x : ℝ, L i = (x : EReal))
    (r : Fin 1000000) (c : Fin 32) :
    out X G P0 P1 P2 L (ValueIdx.ix2 r c) = Cert.Spec.out X G P0 P1 P2 L r c :=
  ref_apply X G P0 P1 P2 L r c

end Cert.ReferenceIdeal.RefValue
end
-- ==== Proof.KerBlocks.lean ====
/-
  From the blocks to the whole output array. The region has 31 grid points; at point t every input window holds rows
  t·32768 … t·32768 + 32767 of its array (16 columns) and the body writes the matching 32768 rows of the output
  (32 columns): columns 0 … 15 the product ((a0·a1)·a2)·a3 of the first four inputs, columns 16 … 31 the fifth input.
  So the output array after the run is ONE function of the five input arrays (`combine`), the blocks tiling its rows.
-/
import proofs.«135735_j20624432955487_2_alg».proof.Proof.KernelIdealFrameP
import Idealize.ShloMosaic.Lib.Pipeline.Value
import Idealize.ShloMosaic.Lib.ValueIdx

set_option maxRecDepth 16384

noncomputable section
namespace Cert.KernelIdeal.KerValue
open Cert.KernelIdeal Cert.KernelIdeal.Gen Cert.KernelIdeal.GenP
open Idealize.ShloMosaic Idealize.ShloMosaic.TcCoe Idealize.SL.Sem Idealize.ShloMosaic.ValueIdx
open Idealize.ShloMosaic.Pipeline (Dat)

variable {F : FTy → Type} [FloatOps F]

/-- The product of four arrays at one index, grouped as the body multiplies. -/
def prod4 {S : Shape} (A0 A1 A2 A3 : S.Idx → F .f32) (j : S.Idx) : F .f32 :=
  FloatOps.mulf (FloatOps.mulf (FloatOps.mulf (A0 j) (A1 j)) (A2 j)) (A3 j)

/-- n rows of 32 columns out of five arrays of n rows of 16 columns: entry (r, q) is the product of the first four at
    (r, q) for q < 16, and the fifth at (r, q − 16) otherwise. -/
def combine {n : Nat} (A0 A1 A2 A3 A4 : (⟨2, ![n, 16]⟩ : Shape).Idx → F .f32) : (⟨2, ![n, 32]⟩ : Shape).Idx → F .f32 :=
  fun i => if h : (i 1).val < 16 then prod4 A0 A1 A2 A3 (ix2 ⟨(i 0).val, idx2_lt0 i⟩ ⟨(i 1).val, h⟩)
    else A4 (ix2 ⟨(i 0).val, idx2_lt0 i⟩ ⟨(i 1).val - 16, by have := idx2_lt1 i; omega⟩)

theorem combine_lo {n : Nat} (A0 A1 A2 A3 A4 : (⟨2, ![n, 16]⟩ : Shape).Idx → F .f32) (i : (⟨2, ![n, 32]⟩ : Shape).Idx)
    (r : Fin n) (q : Fin 16) (h0 : (i 0).val = r.val) (h1 : (i 1).val = q.val) :
    combine A0 A1 A2 A3 A4 i = prod4 A0 A1 A2 A3 (ix2 r q) := by
  unfold combine
  have hq : (i 1).val < 16 := by have := q.isLt; omega
  rw [dif_pos hq]
  refine congrArg (prod4 A0 A1 A2 A3) ?_
  funext a
  match a with
  | ⟨0, _⟩ => exact Fin.ext h0
  | ⟨1, _⟩ => exact Fin.ext h1

theorem combine_hi {n : Nat} (A0 A1 A2 A3 A4 : (⟨2, ![n, 16]⟩ : Shape).Idx → F .f32) (i : (⟨2, ![n, 32]⟩ : Shape).Idx)
    (r : Fin n) (q : Fin 16) (h0 : (i 0).val = r.val) (h1 : (i 1).val = 16 + q.val) :
    combine A0 A1 A2 A3 A4 i = A4 (ix2 r q) := by
  unfold combine
  have hq : ¬ (i 1).val < 16 := by omega
  rw [dif_neg hq]
  refine congrArg A4 ?_
  funext a
  match a with
  | ⟨0, _⟩ => exact Fin.ext h0
  | ⟨1, _⟩ => exact Fin.ext (by show (i 1).val - 16 = q.val; omega)

theorem hz : (![0, 0] : Fin 2 → Nat) = fun _ => 0 := funext fun a => by fin_cases a <;> rfl

/-- What the body leaves in the output's staging buffer, from the five input blocks: `combine` of them. -/
theorem out0_5_eq (x0 x1 x2 x3 x4 : Vec F S32768x16 .f32) :
    out0_5 x0 x1 x2 x3 x4 = (combine x0 x1 x2 x3 x4 : S32768x32.Idx → F .f32) := by
  funext y
  unfold out0_5
  refine View.canon_apply_of_pieces (combine x0 x1 x2 x3 x4 : S32768x32.Idx → F .f32) _ ?_ y (cover0_5 _ _ y)
  intro p hp x
  simp only [List.mem_cons, List.mem_nil_iff, or_false] at hp
  rcases hp with rfl | rfl
  · -- the second store: columns 16 … 31 take the fifth input
    show k0_pay2 (View.ld x4 r0_0) x = combine x0 x1 x2 x3 x4 (r0_2.emb x)
    have e : k0_pay2 (View.ld x4 r0_0) = x4 := by
      unfold k0_pay2; simp only [View.ld_unit_zero (S := S32768x16) hz, shapeCast_self]
    rw [e, combine_hi x0 x1 x2 x3 x4 (r0_2.emb x) (x 0) (x 1)
      (by simp only [Rect.emb_apply, Rect.off_unit, Rect.stride_unit, Nat.one_mul]; first | rfl | exact Nat.zero_add _)
      (by simp only [Rect.emb_apply, Rect.off_unit, Rect.stride_unit, Nat.one_mul]; first | rfl | exact Nat.zero_add _)]
    exact congrArg x4 (eq_ix2 x)
  · -- the first store: columns 0 … 15 take the product
    show k0_pay1 (View.ld x0 r0_0) (View.ld x1 r0_0) (View.ld x2 r0_0) (View.ld x3 r0_0) x = combine x0 x1 x2 x3 x4 (r0_1.emb x)
    have e : k0_pay1 (View.ld x0 r0_0) (View.ld x1 r0_0) (View.ld x2 r0_0) (View.ld x3 r0_0) = mulf (mulf (mulf x0 x1) x2) x3 := by
      unfold k0_pay1; simp only [View.ld_unit_zero (S := S32768x16) hz, shapeCast_self]
    rw [e, combine_lo x0 x1 x2 x3 x4 (r0_1.emb x) (x 0) (x 1)
      (by simp only [Rect.emb_apply, Rect.off_unit, Rect.stride_unit, Nat.one_mul]; first | rfl | exact Nat.zero_add _)
      (by simp only [Rect.emb_apply, Rect.off_unit, Rect.stride_unit, Nat.one_mul]; first | rfl | exact Nat.zero_add _)]
    exact congrArg (prod4 x0 x1 x2 x3) (eq_ix2 x)

/-- The printed index maps, decided over the grid: every window's block at point t is block (t, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 ∧ True :=
  (by decide +kernel : ∀ t : Fin grid0.N, _)

/-- Input window 0's block at point t is rows t·32768 … t·32768 + 32767 of its array. -/
theorem read_in0 (A : S1015808x16.Idx → F .f32) (t : Fin cfg0.N) (y : S32768x16.Idx) (k : S1015808x16.Idx)
    (hk0 : (k 0).val = t.val * 32768 + (y 0).val) (hk1 : (k 1).val = (y 1).val) :
    (((cfg0.win 0).blk t).view.read (Elt F) A : Vec F S32768x16 .f32) y = A k := by
  have e0 : win0_0.index t (0 : Fin 2) = t.val := (idx_facts t).1
  have e1 : win0_0.index t (1 : Fin 2) = 0 := (idx_facts t).2.1
  rw [View.read_apply]
  refine congrArg A ?_
  funext a; apply Fin.ext
  match a with
  | ⟨0, _⟩ => show win0_0.index t (0 : Fin 2) * 32768 + 1 * (y 0).val = (k 0).val; omega
  | ⟨1, _⟩ => show win0_0.index t (1 : Fin 2) * 16 + 1 * (y 1).val = (k 1).val; omega

/-- Input window 1's block at point t is rows t·32768 … t·32768 + 32767 of its array. -/
theorem read_in1 (A : S1015808x16.Idx → F .f32) (t : Fin cfg0.N) (y : S32768x16.Idx) (k : S1015808x16.Idx)
    (hk0 : (k 0).val = t.val * 32768 + (y 0).val) (hk1 : (k 1).val = (y 1).val) :
    (((cfg0.win 1).blk t).view.read (Elt F) A : Vec F S32768x16 .f32) y = A k := by
  have e0 : win0_1.index t (0 : Fin 2) = t.val := (idx_facts t).2.2.1
  have e1 : win0_1.index t (1 : Fin 2) = 0 := (idx_facts t).2.2.2.1
  rw [View.read_apply]
  refine congrArg A ?_
  funext a; apply Fin.ext
  match a with
  | ⟨0, _⟩ => show win0_1.index t (0 : Fin 2) * 32768 + 1 * (y 0).val = (k 0).val; omega
  | ⟨1, _⟩ => show win0_1.index t (1 : Fin 2) * 16 + 1 * (y 1).val = (k 1).val; omega

/-- Input window 2's block at point t is rows t·32768 … t·32768 + 32767 of its array. -/
theorem read_in2 (A : S1015808x16.Idx → F .f32) (t : Fin cfg0.N) (y : S32768x16.Idx) (k : S1015808x16.Idx)
    (hk0 : (k 0).val = t.val * 32768 + (y 0).val) (hk1 : (k 1).val = (y 1).val) :
    (((cfg0.win 2).blk t).view.read (Elt F) A : Vec F S32768x16 .f32) y = A k := by
  have e0 : win0_2.index t (0 : Fin 2) = t.val := (idx_facts t).2.2.2.2.1
  have e1 : win0_2.index t (1 : Fin 2) = 0 := (idx_facts t).2.2.2.2.2.1
  rw [View.read_apply]
  refine congrArg A ?_
  funext a; apply Fin.ext
  match a with
  | ⟨0, _⟩ => show win0_2.index t (0 : Fin 2) * 32768 + 1 * (y 0).val = (k 0).val; omega
  | ⟨1, _⟩ => show win0_2.index t (1 : Fin 2) * 16 + 1 * (y 1).val = (k 1).val; omega

/-- Input window 3's block at point t is rows t·32768 … t·32768 + 32767 of its array. -/
theorem read_in3 (A : S1015808x16.Idx → F .f32) (t : Fin cfg0.N) (y : S32768x16.Idx) (k : S1015808x16.Idx)
    (hk0 : (k 0).val = t.val * 32768 + (y 0).val) (hk1 : (k 1).val = (y 1).val) :
    (((cfg0.win 3).blk t).view.read (Elt F) A : Vec F S32768x16 .f32) y = A k := by
  have e0 : win0_3.index t (0 : Fin 2) = t.val := (idx_facts t).2.2.2.2.2.2.1
  have e1 : win0_3.index t (1 : Fin 2) = 0 := (idx_facts t).2.2.2.2.2.2.2.1
  rw [View.read_apply]
  refine congrArg A ?_
  funext a; apply Fin.ext
  match a with
  | ⟨0, _⟩ => show win0_3.index t (0 : Fin 2) * 32768 + 1 * (y 0).val = (k 0).val; omega
  | ⟨1, _⟩ => show win0_3.index t (1 : Fin 2) * 16 + 1 * (y 1).val = (k 1).val; omega

/-- Input window 4's block at point t is rows t·32768 … t·32768 + 32767 of its array. -/
theorem read_in4 (A : S1015808x16.Idx → F .f32) (t : Fin cfg0.N) (y : S32768x16.Idx) (k : S1015808x16.Idx)
    (hk0 : (k 0).val = t.val * 32768 + (y 0).val) (hk1 : (k 1).val = (y 1).val) :
    (((cfg0.win 4).blk t).view.read (Elt F) A : Vec F S32768x16 .f32) y = A k := by
  have e0 : win0_4.index t (0 : Fin 2) = t.val := (idx_facts t).2.2.2.2.2.2.2.2.1
  have e1 : win0_4.index t (1 : Fin 2) = 0 := (idx_facts t).2.2.2.2.2.2.2.2.2.1
  rw [View.read_apply]
  refine congrArg A ?_
  funext a; apply Fin.ext
  match a with
  | ⟨0, _⟩ => show win0_4.index t (0 : Fin 2) * 32768 + 1 * (y 0).val = (k 0).val; omega
  | ⟨1, _⟩ => show win0_4.index t (1 : Fin 2) * 16 + 1 * (y 1).val = (k 1).val; omega

end Cert.KernelIdeal.KerValue
end
-- ==== Proof.KerArray.lean ====
/-
  The output array after the run, and the program's result. Point t writes back rows t·32768 … t·32768 + 32767 of
  `combine` of the five input arrays as the region finds them; the 31 blocks tile the 1,015,808 rows, so the array ends
  holding `combine` of them. The one host operation after the region keeps rows 0 … 999,999.
-/
import proofs.«135735_j20624432955487_2_alg».proof.Proof.KerBlocks

set_option maxRecDepth 16384

noncomputable section
namespace Cert.KernelIdeal.KerValue
open Cert.KernelIdeal Cert.KernelIdeal.Gen Cert.KernelIdeal.GenP
open Idealize.ShloMosaic Idealize.ShloMosaic.TcCoe Idealize.SL.Sem Idealize.ShloMosaic.ValueIdx
open Idealize.ShloMosaic.Pipeline (Dat)

variable {F : FTy → Type} [FloatOps F]

/-- Block t of `combine` of five arrays is `combine` of their blocks at t. -/
theorem block_combine (A0 A1 A2 A3 A4 : S1015808x16.Idx → F .f32) (t : Fin cfg0.N) :
    (cfg0.win 5).cut (grid0.coords t)
        (out0_5 (((cfg0.win 0).blk t).view.read (Elt F) A0) (((cfg0.win 1).blk t).view.read (Elt F) A1)
          (((cfg0.win 2).blk t).view.read (Elt F) A2) (((cfg0.win 3).blk t).view.read (Elt F) A3)
          (((cfg0.win 4).blk t).view.read (Elt F) A4))
      = ((cfg0.win 5).blk t).view.read (Elt F) (combine A0 A1 A2 A3 A4 : S1015808x32.Idx → F .f32) := by
  rw [out0_5_eq]
  have e0 : win0_5.index t (0 : Fin 2) = t.val := (idx_facts t).2.2.2.2.2.2.2.2.2.2.1
  have e1 : win0_5.index t (1 : Fin 2) = 0 := (idx_facts t).2.2.2.2.2.2.2.2.2.2.2.1
  funext j
  show (combine (((cfg0.win 0).blk t).view.read (Elt F) A0 : Vec F S32768x16 .f32) (((cfg0.win 1).blk t).view.read (Elt F) A1 : Vec F S32768x16 .f32)
      (((cfg0.win 2).blk t).view.read (Elt F) A2 : Vec F S32768x16 .f32) (((cfg0.win 3).blk t).view.read (Elt F) A3 : Vec F S32768x16 .f32)
      (((cfg0.win 4).blk t).view.read (Elt F) A4 : Vec F S32768x16 .f32) : S32768x32.Idx → F .f32) j
    = (combine A0 A1 A2 A3 A4 : S1015808x32.Idx → F .f32) (((cfg0.win 5).blk t).view.emb j)
  have hj0 : (j 0).val < 32768 := (j 0).isLt
  have hj1 : (j 1).val < 32 := (j 1).isLt
  have hN : cfg0.N = 31 := N_0
  have ht : t.val < 31 := hN ▸ t.isLt
  have k0 : ((((cfg0.win 5).blk t).view.emb j) 0).val = t.val * 32768 + (j 0).val := by
    show win0_5.index t (0 : Fin 2) * 32768 + 1 * (j 0).val = _; omega
  have k1 : ((((cfg0.win 5).blk t).view.emb j) 1).val = (j 1).val := by
    show win0_5.index t (1 : Fin 2) * 32 + 1 * (j 1).val = _; omega
  by_cases hq : (j 1).val < 16
  · rw [combine_lo _ _ _ _ _ j (j 0) ⟨(j 1).val, hq⟩ rfl rfl,
      combine_lo A0 A1 A2 A3 A4 _ ⟨t.val * 32768 + (j 0).val, by omega⟩ ⟨(j 1).val, hq⟩ k0 k1]
    unfold prod4
    rw [read_in0 A0 t _ (ix2 ⟨t.val * 32768 + (j 0).val, by omega⟩ ⟨(j 1).val, hq⟩) rfl rfl,
      read_in1 A1 t _ (ix2 ⟨t.val * 32768 + (j 0).val, by omega⟩ ⟨(j 1).val, hq⟩) rfl rfl,
      read_in2 A2 t _ (ix2 ⟨t.val * 32768 + (j 0).val, by omega⟩ ⟨(j 1).val, hq⟩) rfl rfl,
      read_in3 A3 t _ (ix2 ⟨t.val * 32768 + (j 0).val, by omega⟩ ⟨(j 1).val, hq⟩) rfl rfl]
  · rw [combine_hi _ _ _ _ _ j (j 0) ⟨(j 1).val - 16, by omega⟩ rfl (by show (j 1).val = 16 + ((j 1).val - 16); omega),
      combine_hi A0 A1 A2 A3 A4 _ ⟨t.val * 32768 + (j 0).val, by omega⟩ ⟨(j 1).val - 16, by omega⟩ k0
        (by rw [k1]; show (j 1).val = 16 + ((j 1).val - 16); omega)]
    exact read_in4 A4 t _ (ix2 ⟨t.val * 32768 + (j 0).val, by omega⟩ ⟨(j 1).val - 16, by omega⟩) rfl rfl

variable (m : (ℓ : Loc nD τ sig) → Buf (Elt F) ℓ)

/-- The output array as `combine` of the five input arrays as the region finds them. -/
abbrev arrOut (c : Dev nD) : S1015808x32.Idx → F .f32 :=
  combine (GenP.V m c (Pipeline.arrRef spec0 0) : S1015808x16.Idx → F .f32) (GenP.V m c (Pipeline.arrRef spec0 1) : S1015808x16.Idx → F .f32)
    (GenP.V m c (Pipeline.arrRef spec0 2) : S1015808x16.Idx → F .f32) (GenP.V m c (Pipeline.arrRef spec0 3) : S1015808x16.Idx → F .f32)
    (GenP.V m c (Pipeline.arrRef spec0 4) : S1015808x16.Idx → F .f32)

/-- What point t writes back is block t of that array. -/
theorem flushed_eq (c : Dev nD) (t : Fin cfg0.N) :
    (dats m 0 c).flushed 5 t = ((cfg0.win 5).blk t).view.read (Elt F) (arrOut m c) := by
  show (cfg0.win 5).cut (grid0.coords t) ((dats m 0 c).after 5 t) = _
  rw [after0_5]
  exact block_combine _ _ _ _ _ t

/-- An index of the array is in point t's block iff each coordinate is in the block's range on its axis. -/
theorem mem_blk (t : Fin cfg0.N) (i : S1015808x32.Idx) :
    i ∈ ((cfg0.win 5).blk t).view.set ↔ ∀ a : Fin 2, win0_5.index t a * S32768x32.size a ≤ (i a).val ∧ (i a).val < win0_5.index t a * S32768x32.size a + S32768x32.size a := by
  show i ∈ ((View.whole main_v533).slice (win0_5.rect t)).set ↔ _
  rw [View.set_slice_whole, Rect.mem_set_unit]
  exact Iff.rfl

/-- Every row is in the block of the point row / 32768. -/
theorem cover (i : S1015808x32.Idx) : ∃ t : Fin cfg0.N, (cfg0.win 5).flush t = true ∧ i ∈ ((cfg0.win 5).blk t).view.set := by
  have hi0 : (i 0).val < 1015808 := (i 0).isLt
  have hi1 : (i 1).val < 32 := (i 1).isLt
  have hN : cfg0.N = 31 := N_0
  have hlt : (i 0).val / 32768 < cfg0.N := by rw [hN]; omega
  have e0 : win0_5.index ⟨(i 0).val / 32768, hlt⟩ (0 : Fin 2) = (i 0).val / 32768 := (idx_facts ⟨(i 0).val / 32768, hlt⟩).2.2.2.2.2.2.2.2.2.2.1
  have e1 : win0_5.index ⟨(i 0).val / 32768, hlt⟩ (1 : Fin 2) = 0 := (idx_facts ⟨(i 0).val / 32768, hlt⟩).2.2.2.2.2.2.2.2.2.2.2.1
  refine ⟨⟨(i 0).val / 32768, hlt⟩, flush0_5 _, ?_⟩
  rw [mem_blk]
  intro a
  match a with
  | ⟨0, _⟩ =>
    show win0_5.index ⟨(i 0).val / 32768, hlt⟩ (0 : Fin 2) * 32768 ≤ (i 0).val ∧ (i 0).val < win0_5.index ⟨(i 0).val / 32768, hlt⟩ (0 : Fin 2) * 32768 + 32768
    rw [e0]; omega
  | ⟨1, _⟩ =>
    show win0_5.index ⟨(i 0).val / 32768, hlt⟩ (1 : Fin 2) * 32 ≤ (i 1).val ∧ (i 1).val < win0_5.index ⟨(i 0).val / 32768, hlt⟩ (1 : Fin 2) * 32 + 32
    rw [e1]; omega

/-- The output array after the run. -/
theorem final (c : Dev nD) : (dats m 0 c).arrAt 5 cfg0.N = arrOut m c :=
  (dats m 0 c).arrAt_eq_of_cover 5 (arrOut m c) (fun t _ => flushed_eq m c t) cover

/-- The host operation after the region: rows 0 … 999,999 of the output array. -/
def tailSlice (A : (⟨S1015808x32, .f32⟩ : BufTy).Contents (Elt F)) : (⟨S1000000x32, .f32⟩ : BufTy).Contents (Elt F) :=
  extractStridedSlice S1000000x32 ![0, 0] A slices_S1015808x32_S1000000x32_0_0

/-- The program's result buffer after the lines that follow the region. -/
theorem tail_eq (c : Dev nD) :
    Pipeline.afterTail₀ cfgs (dats m) 0 (V0 m) [hostOps1] c main_v534 = tailSlice (arrOut m c) := by
  unfold Pipeline.afterTail₀
  show StableHlo.after hostOps1 _ (Proc.devRef .tc main_v534) = _
  after_results
  refine congrArg (tailSlice (F := F)) ?_
  exact (Pipeline.withArrays_arr spec0 launch0.win.arr_inj c (V0 m c) (fun w => (dats m 0 c).arrAt w cfg0.N) 5).trans (final m c)

end Cert.KernelIdeal.KerValue
end
-- ==== Proof.KerArgs.lean ====
/-
  The six argument arrays of the program as one record, read off the launch memory of a core.
-/
import proofs.«135735_j20624432955487_2_alg».proof.Proof.KerTab0

noncomputable section
namespace Cert.KernelIdeal.KerValue
open Cert.KernelIdeal Idealize.ShloMosaic Idealize.ShloMosaic.TcCoe Idealize.SL.Sem

variable {F : FTy → Type}

/-- The argument arrays as launched on core c. -/
def argsOf (m : (ℓ : Loc nD τ sig) → Buf (Elt F) ℓ) (c : Dev nD) : Args F :=
  ⟨m ((c.tc : Thread nD τ).loc main_arg0), m ((c.tc : Thread nD τ).loc main_arg1), m ((c.tc : Thread nD τ).loc main_arg2),
   m ((c.tc : Thread nD τ).loc main_arg3), m ((c.tc : Thread nD τ).loc main_arg4), m ((c.tc : Thread nD τ).loc main_arg5)⟩

end Cert.KernelIdeal.KerValue
end
-- ==== Proof.KerWin0.lean ====
/-
  What the region finds in the array of the volume's interpolated value (window 0 of the region): the fold of every host operation before the
  region over the launch memory, read at that array's buffer, is the table's definition of it applied to the
  argument arrays. Each operation's result is read at its own buffer and skipped at every other one; the
  definitions then unfold to the same term.
-/
import proofs.«135735_j20624432955487_2_alg».proof.Proof.KernelIdealFrameP
import proofs.«135735_j20624432955487_2_alg».proof.Proof.KerTab1
import proofs.«135735_j20624432955487_2_alg».proof.Proof.KerArgs
import Idealize.ShloMosaic.Lib.StableHlo.Run

set_option maxRecDepth 16384

noncomputable section
namespace Cert.KernelIdeal.KerValue
open Cert.KernelIdeal Cert.KernelIdeal.Gen Cert.KernelIdeal.GenP
open Idealize.ShloMosaic Idealize.ShloMosaic.TcCoe Idealize.ShloMosaic.StableHlo Idealize.SL.Sem

variable {F : FTy → Type} [FloatOps F]
variable (m : (ℓ : Loc nD τ sig) → Buf (Elt F) ℓ)

set_option maxHeartbeats 32000000 in
theorem V_main_v214 (c : Dev nD) : GenP.V m c main_v214 = k_v214 (argsOf m c) := by
  dsimp only [GenP.V, GenP.V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, List.flatten_cons, List.flatten_nil, List.append_nil, List.cons_append, List.nil_append]
  after_results_simp
  rfl

end Cert.KernelIdeal.KerValue
end
-- ==== Proof.KerWin1.lean ====
/-
  What the region finds in the array of the first plane's interpolated value (window 1 of the region): the fold of every host operation before the
  region over the launch memory, read at that array's buffer, is the table's definition of it applied to the
  argument arrays. Each operation's result is read at its own buffer and skipped at every other one; the
  definitions then unfold to the same term.
-/
import proofs.«135735_j20624432955487_2_alg».proof.Proof.KernelIdealFrameP
import proofs.«135735_j20624432955487_2_alg».proof.Proof.KerTab2
import proofs.«135735_j20624432955487_2_alg».proof.Proof.KerArgs
import Idealize.ShloMosaic.Lib.StableHlo.Run

set_option maxRecDepth 16384

noncomputable section
namespace Cert.KernelIdeal.KerValue
open Cert.KernelIdeal Cert.KernelIdeal.Gen Cert.KernelIdeal.GenP
open Idealize.ShloMosaic Idealize.ShloMosaic.TcCoe Idealize.ShloMosaic.StableHlo Idealize.SL.Sem

variable {F : FTy → Type} [FloatOps F]
variable (m : (ℓ : Loc nD τ sig) → Buf (Elt F) ℓ)

set_option maxHeartbeats 32000000 in
theorem V_main_v309 (c : Dev nD) : GenP.V m c main_v309 = k_v309 (argsOf m c) := by
  dsimp only [GenP.V, GenP.V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, List.flatten_cons, List.flatten_nil, List.append_nil, List.cons_append, List.nil_append]
  after_results_simp
  rfl

end Cert.KernelIdeal.KerValue
end
-- ==== Proof.KerWin2.lean ====
/-
  What the region finds in the array of the second plane's interpolated value (window 2 of the region): the fold of every host operation before the
  region over the launch memory, read at that array's buffer, is the table's definition of it applied to the
  argument arrays. Each operation's result is read at its own buffer and skipped at every other one; the
  definitions then unfold to the same term.
-/
import proofs.«135735_j20624432955487_2_alg».proof.Proof.KernelIdealFrameP
import proofs.«135735_j20624432955487_2_alg».proof.Proof.KerTab3
import proofs.«135735_j20624432955487_2_alg».proof.Proof.KerArgs
import Idealize.ShloMosaic.Lib.StableHlo.Run

set_option maxRecDepth 16384

noncomputable section
namespace Cert.KernelIdeal.KerValue
open Cert.KernelIdeal Cert.KernelIdeal.Gen Cert.KernelIdeal.GenP
open Idealize.ShloMosaic Idealize.ShloMosaic.TcCoe Idealize.ShloMosaic.StableHlo Idealize.SL.Sem

variable {F : FTy → Type} [FloatOps F]
variable (m : (ℓ : Loc nD τ sig) → Buf (Elt F) ℓ)

set_option maxHeartbeats 32000000 in
theorem V_main_v404 (c : Dev nD) : GenP.V m c main_v404 = k_v404 (argsOf m c) := by
  dsimp only [GenP.V, GenP.V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, List.flatten_cons, List.flatten_nil, List.append_nil, List.cons_append, List.nil_append]
  after_results_simp
  rfl

end Cert.KernelIdeal.KerValue
end
-- ==== Proof.KerWin3.lean ====
/-
  What the region finds in the array of the third plane's interpolated value (window 3 of the region): the fold of every host operation before the
  region over the launch memory, read at that array's buffer, is the table's definition of it applied to the
  argument arrays. Each operation's result is read at its own buffer and skipped at every other one; the
  definitions then unfold to the same term.
-/
import proofs.«135735_j20624432955487_2_alg».proof.Proof.KernelIdealFrameP
import proofs.«135735_j20624432955487_2_alg».proof.Proof.KerTab4
import proofs.«135735_j20624432955487_2_alg».proof.Proof.KerArgs
import Idealize.ShloMosaic.Lib.StableHlo.Run

set_option maxRecDepth 16384

noncomputable section
namespace Cert.KernelIdeal.KerValue
open Cert.KernelIdeal Cert.KernelIdeal.Gen Cert.KernelIdeal.GenP
open Idealize.ShloMosaic Idealize.ShloMosaic.TcCoe Idealize.ShloMosaic.StableHlo Idealize.SL.Sem

variable {F : FTy → Type} [FloatOps F]
variable (m : (ℓ : Loc nD τ sig) → Buf (Elt F) ℓ)

set_option maxHeartbeats 32000000 in
theorem V_main_v499 (c : Dev nD) : GenP.V m c main_v499 = k_v499 (argsOf m c) := by
  dsimp only [GenP.V, GenP.V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, List.flatten_cons, List.flatten_nil, List.append_nil, List.cons_append, List.nil_append]
  after_results_simp
  rfl

end Cert.KernelIdeal.KerValue
end
-- ==== Proof.KerWin4.lean ====
/-
  What the region finds in the array of the line's interpolated value (window 4 of the region): the fold of every host operation before the
  region over the launch memory, read at that array's buffer, is the table's definition of it applied to the
  argument arrays. Each operation's result is read at its own buffer and skipped at every other one; the
  definitions then unfold to the same term.
-/
import proofs.«135735_j20624432955487_2_alg».proof.Proof.KernelIdealFrameP
import proofs.«135735_j20624432955487_2_alg».proof.Proof.KerTab4
import proofs.«135735_j20624432955487_2_alg».proof.Proof.KerArgs
import Idealize.ShloMosaic.Lib.StableHlo.Run

set_option maxRecDepth 16384

noncomputable section
namespace Cert.KernelIdeal.KerValue
open Cert.KernelIdeal Cert.KernelIdeal.Gen Cert.KernelIdeal.GenP
open Idealize.ShloMosaic Idealize.ShloMosaic.TcCoe Idealize.ShloMosaic.StableHlo Idealize.SL.Sem

variable {F : FTy → Type} [FloatOps F]
variable (m : (ℓ : Loc nD τ sig) → Buf (Elt F) ℓ)

set_option maxHeartbeats 32000000 in
theorem V_main_v532 (c : Dev nD) : GenP.V m c main_v532 = k_v532 (argsOf m c) := by
  dsimp only [GenP.V, GenP.V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, List.flatten_cons, List.flatten_nil, List.append_nil, List.cons_append, List.nil_append]
  after_results_simp
  rfl

end Cert.KernelIdeal.KerValue
end
-- ==== Proof.KerRun.lean ====
/-
  The program's value at the exact-real reading: every weakly fair execution ends with the result buffer holding
  `out` of the six argument arrays and the arguments unchanged. `out` is rows 0 … 999,999 of `combine` of the five
  arrays the host computes before the region (the volume's, the three planes' and the line's interpolated values,
  each a chain of the table's definitions over the arguments).
-/
import proofs.«135735_j20624432955487_2_alg».proof.Proof.KerArray
import proofs.«135735_j20624432955487_2_alg».proof.Proof.KerWin0
import proofs.«135735_j20624432955487_2_alg».proof.Proof.KerWin1
import proofs.«135735_j20624432955487_2_alg».proof.Proof.KerWin2
import proofs.«135735_j20624432955487_2_alg».proof.Proof.KerWin3
import proofs.«135735_j20624432955487_2_alg».proof.Proof.KerWin4

set_option maxRecDepth 16384

noncomputable section
namespace Cert.KernelIdeal.KerValue
open Cert.KernelIdeal Cert.KernelIdeal.Gen Cert.KernelIdeal.GenP
open Idealize.ShloMosaic Idealize.ShloMosaic.TcCoe Idealize.SL.Sem Idealize.ShloMosaic.ValueIdx
open Idealize.ShloMosaic.Pipeline (Dat)

/-- The whole output array (1,015,808 rows) from the argument arrays. -/
def outArr (a : Args Ideal) : S1015808x32.Idx → Ideal .f32 :=
  combine (k_v214 a : S1015808x16.Idx → Ideal .f32) (k_v309 a : S1015808x16.Idx → Ideal .f32)
    (k_v404 a : S1015808x16.Idx → Ideal .f32) (k_v499 a : S1015808x16.Idx → Ideal .f32) (k_v532 a : S1015808x16.Idx → Ideal .f32)

/-- The program's result from its six arguments. -/
def out (X : (⟨S1000000x4, .f32⟩ : BufTy).Contents (Elt Ideal)) (G : (⟨S16x128x128x128, .f32⟩ : BufTy).Contents (Elt Ideal))
    (P0 P1 P2 : (⟨S16x256x256, .f32⟩ : BufTy).Contents (Elt Ideal)) (L : (⟨S16x64, .f32⟩ : BufTy).Contents (Elt Ideal)) :
    (⟨S1000000x32, .f32⟩ : BufTy).Contents (Elt Ideal) :=
  tailSlice (F := Ideal) (outArr ⟨X, G, P0, P1, P2, L⟩)

variable (m : (ℓ : Loc nD τ sig) → Buf (Elt Ideal) ℓ) (ρ : Dev nD → PrngReg)

/-- The output array the region leaves is `outArr` of the arguments as launched. -/
theorem arrOut_eq (c : Dev nD) : arrOut (F := Ideal) m c = outArr (argsOf m c) := by
  have h0 : (GenP.V m c (Pipeline.arrRef spec0 0) : S1015808x16.Idx → Ideal .f32) = k_v214 (argsOf m c) := V_main_v214 m c
  have h1 : (GenP.V m c (Pipeline.arrRef spec0 1) : S1015808x16.Idx → Ideal .f32) = k_v309 (argsOf m c) := V_main_v309 m c
  have h2 : (GenP.V m c (Pipeline.arrRef spec0 2) : S1015808x16.Idx → Ideal .f32) = k_v404 (argsOf m c) := V_main_v404 m c
  have h3 : (GenP.V m c (Pipeline.arrRef spec0 3) : S1015808x16.Idx → Ideal .f32) = k_v499 (argsOf m c) := V_main_v499 m c
  have h4 : (GenP.V m c (Pipeline.arrRef spec0 4) : S1015808x16.Idx → Ideal .f32) = k_v532 (argsOf m c) := V_main_v532 m c
  unfold arrOut outArr
  rw [h0, h1, h2, h3, h4]

/-- The result buffer after the whole program. -/
theorem result_eq (c : Dev nD) :
    Pipeline.afterTail₀ cfgs (dats m) 0 (V0 m) [hostOps1] c main_v534
      = out (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  rw [tail_eq, arrOut_eq]
  rfl

theorem run : θ_run (defs (F := Ideal)) (onTc (τ := τ) (main (F := Ideal))) ⟨m, fun _ => 0, ρ⟩ fun r => ∀ c : Dev nD,
      r.2.mem ((c.tc : Thread nD τ).loc main_v534)
        = out (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c =>
    ⟨((h c).2 main_v534 (Pipeline.mem_restRefs_of main_v534 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.KerValue
end
-- ==== Proof.KerShape.lean ====
/-
  The shapes of the host computation, as functions of arrays. The program repeats a few patterns many times with fresh
  names: a pixel position p = ((v + 1)·½)·s of a coordinate column; its clipped lower and upper neighbours as 32-bit
  words and its weight p − ⌊p⌋; a flat row number y·W + x (or z·HW + y·W + x) of such words; the normalisation every
  gather index goes through (a negative word has the extent added); a gather of whole rows of a channel-last table; and
  the interpolation g0·(1 − w) + g1·w along one axis with the weight a column broadcast over the 16 channels. Each
  pattern is written here ONCE as a definition, in exactly the printed operations, so that a value of the program is
  such a definition applied to earlier values by unfolding alone.
-/
import proofs.«135735_j20624432955487_2_alg».proof.Proof.Gen.KernelIdeal
import Idealize.ShloMosaic.PureOps.Ideal

noncomputable section
namespace Cert.KernelIdeal.KerValue
open Cert.KernelIdeal Cert.KernelIdeal.Gen Idealize.ShloMosaic

variable {F : FTy → Type} [FloatOps F]

/-- A 32-bit word in every row. -/
def bI (b : BitVec 32) : IVec S1015808 32 := broadcastInDim S1015808 ![] bcast_S_S1015808 (constantI S_ 32 b)
/-- A float word in every row. -/
def bF (b : BitVec 32) : FVec F S1015808 .f32 := broadcastInDim S1015808 ![] bcast_S_S1015808 (constant S_ .f32 b)
/-- An integer word converted to a float, in every row. -/
def bFI (b : BitVec 32) : FVec F S1015808 .f32 :=
  broadcastInDim S1015808 ![] bcast_S_S1015808 (sitofp .f32 (constantI S_ 32 b) : FVec F S_ .f32)
/-- A float word in every row of a one-column array. -/
def bF1 (b : BitVec 32) : FVec F S1015808x1 .f32 := broadcastInDim S1015808x1 ![] bcast_S_S1015808x1 (constant S_ .f32 b)

/-- Column o of the padded coordinates, as a vector of rows. -/
def colOf (V : FVec F S1015808x4 .f32) (o : Nat) (h : S1015808x4.Slices ![0, o] S1015808x1) : FVec F S1015808 .f32 :=
  shapeCast S1015808 (extractStridedSlice S1015808x1 ![0, o] V h) shapeCasts_S1015808x1_S1015808

/-- Column o of the first three columns of the padded coordinates, as a vector of rows. -/
def colOf3 (V : FVec F S1015808x4 .f32) (o : Nat) (h : S1015808x3.Slices ![0, o] S1015808x1) : FVec F S1015808 .f32 :=
  shapeCast S1015808 (extractStridedSlice S1015808x1 ![0, o] (extractStridedSlice S1015808x3 ![0, 0] V slices_S1015808x4_S1015808x3_0_0) h)
    shapeCasts_S1015808x1_S1015808

/-- The pixel position ((v + 1)·½)·s of every row. -/
def pixOf (v : FVec F S1015808 .f32) (s : BitVec 32) : FVec F S1015808 .f32 :=
  mulf (mulf (addf v (bF 0x3F800000#32)) (bF 0x3F000000#32)) (bF s)

/-- A value clipped to [0, hi], the bounds integer words converted to floats. -/
def clipOf (hi : BitVec 32) (v : FVec F S1015808 .f32) : FVec F S1015808 .f32 :=
  minimumf (bFI hi) (maximumf (bFI 0#32) v)

/-- The lower neighbour's word: the floor, clipped, converted. -/
def loOf (hi : BitVec 32) (p : FVec F S1015808 .f32) : IVec S1015808 32 := fptosi 32 (clipOf hi (Host.floor p))
/-- The upper neighbour's word: the floor plus one, clipped, converted. -/
def upOf (hi : BitVec 32) (p : FVec F S1015808 .f32) : IVec S1015808 32 :=
  fptosi 32 (clipOf hi (addf (Host.floor p) (bF 0x3F800000#32)))
/-- The weight p − ⌊p⌋. -/
def wtOf (p : FVec F S1015808 .f32) : FVec F S1015808 .f32 := subf p (Host.floor p)

/-- The line's upper neighbour: the floor plus one clipped to [0, 63], the lower bound a float word. -/
def upLineOf (p : FVec F S1015808 .f32) : IVec S1015808 32 :=
  fptosi 32 (minimumf (bFI 63#32)
    (maximumf (broadcastInDim S1015808 ![] bcast_S_S1015808 (id (constant S_ .f32 0x00000000#32 : FVec F S_ .f32)))
      (addf (Host.floor p) (bF 0x3F800000#32))))

/-- The flat row number z·16384 + y·128 + x of three words. -/
def flat3 (iz iy ix : IVec S1015808 32) : IVec S1015808 32 :=
  addi (addi (muli iz (bI 16384#32)) (muli iy (bI 128#32))) ix
/-- The flat row number y·256 + x of two words. -/
def flat2 (iy ix : IVec S1015808 32) : IVec S1015808 32 := addi (muli iy (bI 256#32)) ix

/-- The normalisation of a gather index: a negative word has the extent added. -/
def normIdx (ext : BitVec 32) (w : IVec S1015808 32) : IVec S1015808 32 :=
  select (cmpi .slt w (bI 0#32)) (addi w (bI ext)) w
/-- A vector of row numbers as the one-column table a gather takes. -/
def rowsOf (w : IVec S1015808 32) : IVec S1015808x1 32 := broadcastInDim S1015808x1 ![0] bcast_S1015808_S1015808x1_0 w

/-- Whole rows of the volume's channel-last table, by normalised row numbers. -/
def gatG (T : FVec F S2097152x16 .f32) (w : IVec S1015808 32) : FVec F S1015808x16 .f32 :=
  Host.gather gather_S2097152x16_S1015808x1_S1015808x16_1_0_n_n_0_1_116 T (rowsOf (normIdx 2097152#32 w))
/-- Whole rows of a plane's channel-last table. -/
def gatP (T : FVec F S65536x16 .f32) (w : IVec S1015808 32) : FVec F S1015808x16 .f32 :=
  Host.gather gather_S65536x16_S1015808x1_S1015808x16_1_0_n_n_0_1_116 T (rowsOf (normIdx 65536#32 w))
/-- Whole rows of the line's channel-last table. -/
def gatL (T : FVec F S64x16 .f32) (w : IVec S1015808 32) : FVec F S1015808x16 .f32 :=
  Host.gather gather_S64x16_S1015808x1_S1015808x16_1_0_n_n_0_1_116 T (rowsOf (normIdx 64#32 w))

/-- A vector of rows as a one-column array. -/
def col1 (w : FVec F S1015808 .f32) : FVec F S1015808x1 .f32 := shapeCast S1015808x1 w shapeCasts_S1015808_S1015808x1
/-- A one-column array over the 16 channels. -/
def b16 (x : FVec F S1015808x1 .f32) : FVec F S1015808x16 .f32 :=
  broadcastInDim S1015808x16 ![0, 1] bcast_S1015808x1_S1015808x16_0_1 x
/-- Interpolation along one axis: g0·(1 − w) + g1·w, the weight a column. -/
def lerpOf (g0 g1 : FVec F S1015808x16 .f32) (wc : FVec F S1015808x1 .f32) : FVec F S1015808x16 .f32 :=
  addf (mulf g0 (b16 (subf (bF1 0x3F800000#32) wc))) (mulf g1 (b16 wc))

/-- The volume: eight corner rows, interpolated along x, then y, then z. -/
def triOf (T : FVec F S2097152x16 .f32) (z0 z1 y0 y1 x0 x1 : IVec S1015808 32) (wz wy wx : FVec F S1015808 .f32) :
    FVec F S1015808x16 .f32 :=
  lerpOf
    (lerpOf (lerpOf (gatG T (flat3 z0 y0 x0)) (gatG T (flat3 z0 y0 x1)) (col1 wx))
      (lerpOf (gatG T (flat3 z0 y1 x0)) (gatG T (flat3 z0 y1 x1)) (col1 wx)) (col1 wy))
    (lerpOf (lerpOf (gatG T (flat3 z1 y0 x0)) (gatG T (flat3 z1 y0 x1)) (col1 wx))
      (lerpOf (gatG T (flat3 z1 y1 x0)) (gatG T (flat3 z1 y1 x1)) (col1 wx)) (col1 wy))
    (col1 wz)

/-- A plane: four corner rows, interpolated along x, then y. -/
def bilOf (T : FVec F S65536x16 .f32) (y0 y1 x0 x1 : IVec S1015808 32) (wy wx : FVec F S1015808 .f32) :
    FVec F S1015808x16 .f32 :=
  lerpOf (lerpOf (gatP T (flat2 y0 x0)) (gatP T (flat2 y0 x1)) (col1 wx))
    (lerpOf (gatP T (flat2 y1 x0)) (gatP T (flat2 y1 x1)) (col1 wx)) (col1 wy)

/-- The line: two rows, interpolated. -/
def linOf (T : FVec F S64x16 .f32) (i0 i1 : IVec S1015808 32) (w : FVec F S1015808 .f32) : FVec F S1015808x16 .f32 :=
  lerpOf (gatL T i0) (gatL T i1) (col1 w)

end Cert.KernelIdeal.KerValue
end
-- ==== Proof.KerInst.lean ====
/-
  The program's values as the shapes of KerShape applied to earlier values: each equation holds by unfolding the
  table's definitions (the printed operations are exactly the shape's). The volume reads coordinate columns 0, 1, 2
  (through the first three columns) for its x, y, z pixels; the planes read columns (1, 2), (0, 2), (0, 1) for their
  (x, y) pixels; the line reads column 3.
-/
import proofs.«135735_j20624432955487_2_alg».proof.Proof.KerTab4
import proofs.«135735_j20624432955487_2_alg».proof.Proof.KerShape

set_option maxRecDepth 16384

noncomputable section
namespace Cert.KernelIdeal.KerValue
open Cert.KernelIdeal Cert.KernelIdeal.Gen Idealize.ShloMosaic

variable {F : FTy → Type} [FloatOps F]

/-! ## The padded coordinates and their columns -/

theorem e_v0 (a : Args F) : k_v0 a = pad S1015808x4 ![0, 0] ![15808, 0] ![0, 0] a.X (k_call0_v0 a) pads_S1000000x4_S1015808x4_0158080_000 h_S_ := rfl
theorem e_v12 (a : Args F) : k_v12 a = colOf3 (k_v0 a) 0 slices_S1015808x3_S1015808x1_0_0 := rfl
theorem e_v20 (a : Args F) : k_v20 a = colOf3 (k_v0 a) 1 slices_S1015808x3_S1015808x1_0_1 := rfl
theorem e_v28 (a : Args F) : k_v28 a = colOf3 (k_v0 a) 2 slices_S1015808x3_S1015808x1_0_2 := rfl
theorem e_v216 (a : Args F) : k_v216 a = colOf (k_v0 a) 1 slices_S1015808x4_S1015808x1_0_1 := rfl
theorem e_v218 (a : Args F) : k_v218 a = colOf (k_v0 a) 2 slices_S1015808x4_S1015808x1_0_2 := rfl
theorem e_v311 (a : Args F) : k_v311 a = colOf (k_v0 a) 0 slices_S1015808x4_S1015808x1_0_0 := rfl
theorem e_v313 (a : Args F) : k_v313 a = colOf (k_v0 a) 2 slices_S1015808x4_S1015808x1_0_2 := rfl
theorem e_v406 (a : Args F) : k_v406 a = colOf (k_v0 a) 0 slices_S1015808x4_S1015808x1_0_0 := rfl
theorem e_v408 (a : Args F) : k_v408 a = colOf (k_v0 a) 1 slices_S1015808x4_S1015808x1_0_1 := rfl
theorem e_v501 (a : Args F) : k_v501 a = colOf (k_v0 a) 3 slices_S1015808x4_S1015808x1_0_3 := rfl

/-! ## The volume's three coordinates: position, lower and upper neighbour, weight -/

theorem e_v18 (a : Args F) : k_v18 a = pixOf (k_v12 a) 0x42FE0000#32 := rfl
theorem e_v37 (a : Args F) : k_v37 a = loOf 127#32 (k_v18 a) := rfl
theorem e_v41 (a : Args F) : k_v41 a = upOf 127#32 (k_v18 a) := rfl
theorem e_v42 (a : Args F) : k_v42 a = wtOf (k_v18 a) := rfl
theorem e_v26 (a : Args F) : k_v26 a = pixOf (k_v20 a) 0x42FE0000#32 := rfl
theorem e_v45 (a : Args F) : k_v45 a = loOf 127#32 (k_v26 a) := rfl
theorem e_v49 (a : Args F) : k_v49 a = upOf 127#32 (k_v26 a) := rfl
theorem e_v50 (a : Args F) : k_v50 a = wtOf (k_v26 a) := rfl
theorem e_v34 (a : Args F) : k_v34 a = pixOf (k_v28 a) 0x42FE0000#32 := rfl
theorem e_v53 (a : Args F) : k_v53 a = loOf 127#32 (k_v34 a) := rfl
theorem e_v57 (a : Args F) : k_v57 a = upOf 127#32 (k_v34 a) := rfl
theorem e_v58 (a : Args F) : k_v58 a = wtOf (k_v34 a) := rfl

/-! ## The first plane's two coordinates -/

theorem e_v224 (a : Args F) : k_v224 a = pixOf (k_v216 a) 0x437F0000#32 := rfl
theorem e_v233 (a : Args F) : k_v233 a = loOf 255#32 (k_v224 a) := rfl
theorem e_v237 (a : Args F) : k_v237 a = upOf 255#32 (k_v224 a) := rfl
theorem e_v238 (a : Args F) : k_v238 a = wtOf (k_v224 a) := rfl
theorem e_v230 (a : Args F) : k_v230 a = pixOf (k_v218 a) 0x437F0000#32 := rfl
theorem e_v241 (a : Args F) : k_v241 a = loOf 255#32 (k_v230 a) := rfl
theorem e_v245 (a : Args F) : k_v245 a = upOf 255#32 (k_v230 a) := rfl
theorem e_v246 (a : Args F) : k_v246 a = wtOf (k_v230 a) := rfl

/-! ## The second plane's two coordinates -/

theorem e_v319 (a : Args F) : k_v319 a = pixOf (k_v311 a) 0x437F0000#32 := rfl
theorem e_v328 (a : Args F) : k_v328 a = loOf 255#32 (k_v319 a) := rfl
theorem e_v332 (a : Args F) : k_v332 a = upOf 255#32 (k_v319 a) := rfl
theorem e_v333 (a : Args F) : k_v333 a = wtOf (k_v319 a) := rfl
theorem e_v325 (a : Args F) : k_v325 a = pixOf (k_v313 a) 0x437F0000#32 := rfl
theorem e_v336 (a : Args F) : k_v336 a = loOf 255#32 (k_v325 a) := rfl
theorem e_v340 (a : Args F) : k_v340 a = upOf 255#32 (k_v325 a) := rfl
theorem e_v341 (a : Args F) : k_v341 a = wtOf (k_v325 a) := rfl

/-! ## The third plane's two coordinates -/

theorem e_v414 (a : Args F) : k_v414 a = pixOf (k_v406 a) 0x437F0000#32 := rfl
theorem e_v423 (a : Args F) : k_v423 a = loOf 255#32 (k_v414 a) := rfl
theorem e_v427 (a : Args F) : k_v427 a = upOf 255#32 (k_v414 a) := rfl
theorem e_v428 (a : Args F) : k_v428 a = wtOf (k_v414 a) := rfl
theorem e_v420 (a : Args F) : k_v420 a = pixOf (k_v408 a) 0x437F0000#32 := rfl
theorem e_v431 (a : Args F) : k_v431 a = loOf 255#32 (k_v420 a) := rfl
theorem e_v435 (a : Args F) : k_v435 a = upOf 255#32 (k_v420 a) := rfl
theorem e_v436 (a : Args F) : k_v436 a = wtOf (k_v420 a) := rfl

/-! ## The line's position, neighbours and weight -/

theorem e_v503 (a : Args F) : k_v503 a = mulf (k_v501 a) (bF 0x427C0000#32) := rfl
theorem e_v505 (a : Args F) : k_v505 a = fptosi 32 (Host.floor (k_v503 a)) := rfl
theorem e_v509 (a : Args F) : k_v509 a = upLineOf (k_v503 a) := rfl
theorem e_v510 (a : Args F) : k_v510 a = wtOf (k_v503 a) := rfl

/-! ## The channel-last tables -/

theorem e_v2 (a : Args F) : k_v2 a = shapeCast S2097152x16 (transpose S128x128x128x16 [1, 2, 3, 0] a.G transposes_S16x128x128x128_S128x128x128x16_1_2_3_0) shapeCasts_S128x128x128x16_S2097152x16 := rfl
theorem e_v4 (a : Args F) : k_v4 a = shapeCast S65536x16 (transpose S256x256x16 [1, 2, 0] a.P0 transposes_S16x256x256_S256x256x16_1_2_0) shapeCasts_S256x256x16_S65536x16 := rfl
theorem e_v6 (a : Args F) : k_v6 a = shapeCast S65536x16 (transpose S256x256x16 [1, 2, 0] a.P1 transposes_S16x256x256_S256x256x16_1_2_0) shapeCasts_S256x256x16_S65536x16 := rfl
theorem e_v8 (a : Args F) : k_v8 a = shapeCast S65536x16 (transpose S256x256x16 [1, 2, 0] a.P2 transposes_S16x256x256_S256x256x16_1_2_0) shapeCasts_S256x256x16_S65536x16 := rfl
theorem e_v9 (a : Args F) : k_v9 a = transpose S64x16 [1, 0] a.L transposes_S16x64_S64x16_1_0 := rfl

/-! ## The five interpolated arrays -/

theorem e_v214 (a : Args F) : k_v214 a = triOf (k_v2 a) (k_v53 a) (k_v57 a) (k_v45 a) (k_v49 a) (k_v37 a) (k_v41 a) (k_v58 a) (k_v50 a) (k_v42 a) := rfl
theorem e_v309 (a : Args F) : k_v309 a = bilOf (k_v4 a) (k_v241 a) (k_v245 a) (k_v233 a) (k_v237 a) (k_v246 a) (k_v238 a) := rfl
theorem e_v404 (a : Args F) : k_v404 a = bilOf (k_v6 a) (k_v336 a) (k_v340 a) (k_v328 a) (k_v332 a) (k_v341 a) (k_v333 a) := rfl
theorem e_v499 (a : Args F) : k_v499 a = bilOf (k_v8 a) (k_v431 a) (k_v435 a) (k_v423 a) (k_v427 a) (k_v436 a) (k_v428 a) := rfl
theorem e_v532 (a : Args F) : k_v532 a = linOf (k_v9 a) (k_v505 a) (k_v509 a) (k_v510 a) := rfl

end Cert.KernelIdeal.KerValue
end
-- ==== Proof.LibRowTable.lean ====
/-
  Gathers and accumulating scatters along the ROW axis of an array, driven by an `[E, 1]` table of row numbers —
  what `x[rows]` and `segment_sum(·, rows)` lower to — read at an index, for a vector `[N]` and for a matrix `[N, C]`
  whose rows move whole. Any extents and any index width.

  * A gather reads, at entry `e`, the operand's row number `min (table e) (N - 1)`, the table word read as a signed
    integer and negative words clamped to row 0 (`Int.toNat`). For the matrix form the column is kept.
  * An update `e` of a scatter lands on row `n` exactly when the table word, read signed, IS `n`; a word that is
    negative or at least `N` lands nowhere. For the matrix form the column is kept.

  So the matrix forms are the vector forms applied column by column, with ONE source-row function and ONE
  landing test: this is what lets a contraction over the columns move across a gather and a scatter.
-/
import Idealize.ShloMosaic.Lib.ValueIdx
import Idealize.ShloMosaic.PureOps.Ideal

noncomputable section

namespace Cert.LibRowTable

open Idealize.ShloMosaic Idealize.ShloMosaic.ValueIdx

variable {α : Type}

/-! ## The landing test of any scatter, axis by axis -/

/-- An update lands on the operand index `i` exactly when, on every operand axis, start plus window coordinate is
    `i`'s coordinate. -/
theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split
  · rename_i h
    constructor
    · intro heq a
      have h1 := congrFun (Option.some.inj heq) a
      have h2 := congrArg Fin.val h1
      have h3 := (h a).1
      simp only at h2
      omega
    · intro hall
      refine congrArg some (funext fun a => Fin.ext ?_)
      have := hall a
      simp only
      omega
  · rename_i h
    constructor
    · intro heq; exact absurd heq (by simp)
    · intro hall
      exact absurd (fun a => ⟨by rw [hall a]; exact Int.natCast_nonneg _, by rw [hall a]; exact_mod_cast (i a).isLt⟩) h

/-- An operand axis receives a window coordinate exactly when it is not an inserted axis. -/
theorem mem_scatter_sKept {s si u : Shape} (d : ScatterDims s si u) (a : Fin s.rank) : a ∈ d.sKept ↔ a ∉ d.insertedWindowDims := by
  simp [ScatterDims.sKept, Shape.kept, List.mem_filter, List.mem_finRange]

/-! ## The source row of a gather and the landing row of a scatter -/

/-- The row a gather reads for the table word `b`: the word read signed, negative words at 0, clamped to the last row. -/
def srcRow (N : Nat) (hN : 0 < N) {w : Nat} (b : BitVec w) : Fin N := ⟨min b.toInt.toNat (N - 1), by omega⟩

/-! ## A vector `[N]` gathered by an `[E, 1]` table -/

/-- The dimension numbers of `x[rows]` for a vector: the one operand axis collapsed, the table's last axis the index vector. -/
abbrev gatherVec (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Entry `e` of the gathered vector is the operand at the source row of table entry `(e, 0)`. -/
theorem gatherVec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (gatherVec N E wf) x idx (ix1 e) = x (ix1 (srcRow N hN (idx (ix2 e (0 : Fin 1))))) := by
  unfold Host.gather
  congr 1
  funext a
  obtain rfl : a = 0 := Subsingleton.elim _ _
  refine Fin.ext ?_
  show (gatherVec N E wf).start (ix1 e) idx 0 + (gatherVec N E wf).batchCoord (ix1 e) 0 + (gatherVec N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gatherVec N E wf).startIndexMap from List.mem_singleton.mpr rfl)]
  have hsi : (gatherVec N E wf).siIdx (ix1 e) ⟨List.idxOf (0 : Fin 1) (gatherVec N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## A matrix `[N, C]` whose rows are gathered by an `[E, 1]` table -/

/-- The dimension numbers of `x[rows]` for a matrix: the row axis collapsed, the column axis an offset axis of full width. -/
abbrev gatherRows (N C E : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Entry `(e, k)` of the gathered matrix is the operand at the source row of table entry `(e, 0)`, column `k`. -/
theorem gatherRows_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (gatherRows N C E wf) x idx (ix2 e k) = x (ix2 (srcRow N hN (idx (ix2 e (0 : Fin 1)))) k) := by
  unfold Host.gather
  congr 1
  funext a
  refine Fin.ext ?_
  match a with
  | ⟨0, _⟩ =>
    show (gatherRows N C E wf).start (ix2 e k) idx 0 + (gatherRows N C E wf).batchCoord (ix2 e k) 0 + (gatherRows N C E wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherRows N C E wf).startIndexMap from List.mem_singleton.mpr rfl)]
    have hsi : (gatherRows N C E wf).siIdx (ix2 e k) ⟨List.idxOf (0 : Fin 2) (gatherRows N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (gatherRows N C E wf).start (ix2 e k) idx 1 + (gatherRows N C E wf).batchCoord (ix2 e k) 1 + (gatherRows N C E wf).offCoord (ix2 e k) 1 = k.val
    rw [GatherDims.batchCoord_eq_zero _ _ _ List.not_mem_nil]
    have hs : (gatherRows N C E wf).start (ix2 e k) idx 1 = 0 := by
      unfold GatherDims.start
      rw [dif_neg (show ¬ (1 : Fin 2) ∈ ([0] : List (Fin 2)) by decide)]
    have ho : (gatherRows N C E wf).offCoord (ix2 e k) 1 = k.val := by
      unfold GatherDims.offCoord
      rw [dif_pos ((GatherDims.mem_sKept _ _).mpr ⟨(by decide : ¬ (1 : Fin 2) ∈ ([0] : List (Fin 2))), List.not_mem_nil⟩)]
      rfl
    rw [hs, ho]
    omega

/-! ## Updates `[E]` scattered into a vector `[N]` by an `[E, 1]` table -/

/-- The dimension numbers of `segment_sum` into a vector: the one operand axis inserted, no window axis. -/
abbrev scatterVec (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Update `e` lands on row `n` exactly when table entry `(e, 0)`, read signed, is `n`. -/
theorem scatterVec_lands {N E w : Nat} (wf : ScatterDims.WF ⟨1, ![N]⟩ ⟨2, ![E, 1]⟩ ⟨1, ![E]⟩ [] [0] [0] 1)
    (idx : IVec ⟨2, ![E, 1]⟩ w) (e : Fin E) (n : Fin N) :
    (scatterVec N E wf).resultIdx? (ix1 e) idx = some (ix1 n) ↔ (idx (ix2 e (0 : Fin 1))).toInt = (n.val : Int) := by
  rw [resultIdx?_eq_some_iff]
  have hstart : (scatterVec N E wf).start (ix1 e) idx 0 = (idx (ix2 e (0 : Fin 1))).toInt := by
    unfold ScatterDims.start
    rw [dif_pos (show (0 : Fin 1) ∈ (scatterVec N E wf).scatterDimsToOperandDims from List.mem_singleton.mpr rfl)]
    have hsi : (scatterVec N E wf).siIdx (ix1 e) ⟨List.idxOf (0 : Fin 1) (scatterVec N E wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hwin : (scatterVec N E wf).window (ix1 e) 0 = 0 := by
    unfold ScatterDims.window
    rw [dif_neg (fun h => ((mem_scatter_sKept _ _).mp h) (List.mem_singleton.mpr rfl))]
  have hn : ((ix1 n : (⟨1, ![N]⟩ : Shape).Idx) 0).val = n.val := rfl
  constructor
  · intro h
    have := h 0
    rw [hstart, hwin, hn] at this
    omega
  · intro h a
    obtain rfl : a = 0 := Subsingleton.elim _ _
    rw [hstart, hwin, hn]
    omega

/-! ## Update rows `[E, C]` scattered into a matrix `[N, C]` by an `[E, 1]` table -/

/-- The dimension numbers of `segment_sum` into a matrix: the row axis inserted, the column axis a window axis. -/
abbrev scatterRows (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Update `(e, k)` lands on `(n, k')` exactly when table entry `(e, 0)`, read signed, is `n`, and `k = k'`. -/
theorem scatterRows_lands {N C E w : Nat} (wf : ScatterDims.WF ⟨2, ![N, C]⟩ ⟨2, ![E, 1]⟩ ⟨2, ![E, C]⟩ [1] [0] [0] 1)
    (idx : IVec ⟨2, ![E, 1]⟩ w) (e : Fin E) (k : Fin C) (n : Fin N) (k' : Fin C) :
    (scatterRows N C E wf).resultIdx? (ix2 e k) idx = some (ix2 n k')
      ↔ (idx (ix2 e (0 : Fin 1))).toInt = (n.val : Int) ∧ k = k' := by
  rw [resultIdx?_eq_some_iff]
  have hstart0 : (scatterRows N C E wf).start (ix2 e k) idx 0 = (idx (ix2 e (0 : Fin 1))).toInt := by
    unfold ScatterDims.start
    rw [dif_pos (show (0 : Fin 2) ∈ (scatterRows N C E wf).scatterDimsToOperandDims from List.mem_singleton.mpr rfl)]
    have hsi : (scatterRows N C E wf).siIdx (ix2 e k) ⟨List.idxOf (0 : Fin 2) (scatterRows N C E wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hwin0 : (scatterRows N C E wf).window (ix2 e k) 0 = 0 := by
    unfold ScatterDims.window
    rw [dif_neg (fun h => ((mem_scatter_sKept _ _).mp h) (List.mem_singleton.mpr rfl))]
  have hstart1 : (scatterRows N C E wf).start (ix2 e k) idx 1 = 0 := by
    unfold ScatterDims.start
    rw [dif_neg (show ¬ (1 : Fin 2) ∈ ([0] : List (Fin 2)) by decide)]
  have hwin1 : (scatterRows N C E wf).window (ix2 e k) 1 = k.val := by
    unfold ScatterDims.window
    rw [dif_pos ((mem_scatter_sKept _ _).mpr (by decide : ¬ (1 : Fin 2) ∈ ([0] : List (Fin 2))))]
    rfl
  have hn0 : ((ix2 n k' : (⟨2, ![N, C]⟩ : Shape).Idx) 0).val = n.val := rfl
  have hn1 : ((ix2 n k' : (⟨2, ![N, C]⟩ : Shape).Idx) 1).val = k'.val := rfl
  constructor
  · intro h
    have h0 := h 0
    have h1 := h 1
    rw [hstart0, hwin0, hn0] at h0
    rw [hstart1, hwin1, hn1] at h1
    exact ⟨by omega, Fin.ext (by omega)⟩
  · rintro ⟨h, rfl⟩ a
    match a with
    | ⟨0, _⟩ =>
      show (scatterRows N C E wf).start (ix2 e k) idx 0 + ((scatterRows N C E wf).window (ix2 e k) 0 : Int) = (((ix2 n k : (⟨2, ![N, C]⟩ : Shape).Idx) 0).val : Int)
      rw [hstart0, hwin0, hn0]
      omega
    | ⟨1, _⟩ =>
      show (scatterRows N C E wf).start (ix2 e k) idx 1 + ((scatterRows N C E wf).window (ix2 e k) 1 : Int) = (((ix2 n k : (⟨2, ![N, C]⟩ : Shape).Idx) 1).val : Int)
      rw [hstart1, hwin1, hn1]
      omega

end Cert.LibRowTable

end
-- ==== Proof.LibLayout.lean ====
/-
  Layout operations read at an index given by coordinates: the forms a row-wise normalization meets and the
  library does not yet have.

  * a column of row statistics: a vector `[a]` cast to `[a, 1]` (`keepdims`), and that column broadcast back over
    the `b` lanes of every row, `[a, 1] → [a, b]`;
  * one matrix broadcast over a new leading axis, `[1, b, c] → [a, b, c]`;
  * the rows of a `[4096, 768]` block regrouped as `[4, 1024, 768]` and back: row `r` is group `r / 1024`,
    member `r % 1024`, because both arrays list their entries in the same row-major order;
  * a sum over the lane axis of a matrix, read at row `r`: the sum over `k` of the entries `(r, k)`.
-/
import Idealize.ShloMosaic.Lib.ValueLayout
import Idealize.ShloMosaic.PureOps.Ideal.Laws

noncomputable section

namespace Cert.LibLayout

open Idealize.ShloMosaic Idealize.ShloMosaic.ValueIdx

variable {α : Type}

/-- An `[a]` vector cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `b` lanes reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- One `[1, b, c]` matrix broadcast over a leading axis of `a` copies reads, at `(p, q, r)`, the matrix at `(q, r)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ v h (ix3 p q r) = v (ix3 (0 : Fin 1) q r) := by
  refine broadcastTo_apply v h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

/-- The 4096 rows regrouped as 4 groups of 1024: entry `(g, n, k)` of the regrouped array is row `g · 1024 + n`. -/
theorem shapeCast_split_apply (x : (⟨2, ![4096, 768]⟩ : Shape).Idx → α)
    (h : (⟨2, ![4096, 768]⟩ : Shape).ShapeCasts ⟨3, ![4, 1024, 768]⟩) (g : Fin 4) (n : Fin 1024) (k : Fin 768) :
    shapeCast ⟨3, ![4, 1024, 768]⟩ x h (ix3 g n k) = x (ix2 (⟨g.val * 1024 + n.val, by omega⟩ : Fin 4096) k) :=
  shapeCast_apply x h _ _ (by
    rw [Shape.rowMajor_val_two, Shape.rowMajor_val_three]
    rfl)

/-- The 4 groups of 1024 rows listed again as 4096 rows: row `r` is member `r % 1024` of group `r / 1024`. -/
theorem shapeCast_merge_apply (y : (⟨3, ![4, 1024, 768]⟩ : Shape).Idx → α)
    (h : (⟨3, ![4, 1024, 768]⟩ : Shape).ShapeCasts ⟨2, ![4096, 768]⟩) (r : Fin 4096) (k : Fin 768) :
    shapeCast ⟨2, ![4096, 768]⟩ y h (ix2 r k)
      = y (ix3 (⟨r.val / 1024, by omega⟩ : Fin 4) (⟨r.val % 1024, by omega⟩ : Fin 1024) k) :=
  shapeCast_apply y h _ _ (by
    rw [Shape.rowMajor_val_two, Shape.rowMajor_val_three]
    show (r.val / 1024 * 1024 + r.val % 1024) * 768 + k.val = r.val * 768 + k.val
    omega)

/-- Over row `r` of a matrix, the index with lane `k` put back on the summed axis is `(r, k)`. -/
theorem lift_row {a b : ℕ} (h : Shape.Reduces ⟨2, ![a, b]⟩ [1] ⟨1, ![a]⟩) (r : Fin a) (k : Fin b) :
    h.lift (ix1 r) k = ix2 r k := by
  funext c
  refine Fin.ext ?_
  match c with
  | ⟨0, _⟩ => rfl
  | ⟨1, _⟩ => rfl

/-- A float sum over the lane axis of a matrix, read at row `r` at the exact instance: the sum of the row's entries. -/
theorem laneSum_apply {a b : ℕ} (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ k : Fin b, v (ix2 r k) :=
  (Ideal.multiReduction_add_single v 0x00000000#32 h hφ hacc (ix1 r)).trans
    (Finset.sum_congr rfl fun k _ => congrArg v (lift_row h r k))

end Cert.LibLayout

end
-- ==== Proof.KerRead.lean ====
/-
  The host computation's patterns read at one row (and one channel), at the exact-real reading. A pixel position is
  the specification's `pix`; the clipped neighbours' words are the words of the naturals `cidx`; a flat row number of
  such words is the word of the natural z·HW + y·W + x, which the index normalisation leaves alone and the gather's
  clamp keeps; a gather of whole rows then reads the table at that row; an interpolation reads
  g0·(1 − w) + g1·w with the weight taken from its column.
-/
import proofs.«135735_j20624432955487_2_alg».proof.Proof.KerShape
import proofs.«135735_j20624432955487_2_alg».proof.Proof.SpecWords
import proofs.«135735_j20624432955487_2_alg».proof.Proof.LibRowTable
import proofs.«135735_j20624432955487_2_alg».proof.Proof.LibLayout
import proofs.«135735_j20624432955487_2_alg».proof.Proof.LibColCast
import proofs.«135735_j20624432955487_2_alg».proof.Proof.LibFlatIndex
import Idealize.ShloMosaic.Lib.ValueIdx
import Idealize.ShloMosaic.Lib.ValueLayout
import Idealize.ShloMosaic.Lib.Pipeline.Value
import Idealize.ShloMosaic.Lib.KernelVsHost

set_option maxRecDepth 16384

noncomputable section
namespace Cert.KernelIdeal.KerValue
open Cert.KernelIdeal Cert.KernelIdeal.Gen Idealize.ShloMosaic Idealize.ShloMosaic.ValueIdx

/-! ## Words and constants in every row -/

theorem bI_apply (b : BitVec 32) (i : S1015808.Idx) : bI b i = b := rfl
theorem bF_apply (b : BitVec 32) (i : S1015808.Idx) : bF (F := Ideal) b i = Ideal.ofBits .f32 b := rfl
theorem bFI_apply (b : BitVec 32) (i : S1015808.Idx) : bFI (F := Ideal) b i = (((b.toInt : ℤ) : ℝ) : EReal) := rfl
theorem bF1_apply (b : BitVec 32) (j : S1015808x1.Idx) : bF1 (F := Ideal) b j = Ideal.ofBits .f32 b := rfl

/-! ## One coordinate -/

theorem pixOf_apply (v : FVec Ideal S1015808 .f32) (s : BitVec 32) (i : S1015808.Idx) :
    pixOf v s i = Spec.pix (Ideal.ofBits .f32 s) (v i) := rfl

theorem floor_apply (p : FVec Ideal S1015808 .f32) (i : S1015808.Idx) :
    (Host.floor p : FVec Ideal S1015808 .f32) i = Spec.fl (p i) := rfl

theorem wtOf_apply (p : FVec Ideal S1015808 .f32) (i : S1015808.Idx) : wtOf p i = Spec.wt (p i) := rfl

theorem loOf_apply (hiw : BitVec 32) (hi : ℕ) (hhi : hi < 2 ^ 31) (h : hiw.toInt = (hi : ℤ))
    (p : FVec Ideal S1015808 .f32) (i : S1015808.Idx) :
    loOf hiw p i = BitVec.ofNat 32 (Spec.cidx hi (Spec.fl (p i))) :=
  Spec.fptosi_clip_words hiw hi hhi h (Spec.fl (p i))

theorem upOf_apply (hiw : BitVec 32) (hi : ℕ) (hhi : hi < 2 ^ 31) (h : hiw.toInt = (hi : ℤ))
    (p : FVec Ideal S1015808 .f32) (i : S1015808.Idx) :
    upOf hiw p i = BitVec.ofNat 32 (Spec.cidx hi (Spec.fl (p i) + Spec.one)) :=
  Spec.fptosi_clip_words hiw hi hhi h (Spec.fl (p i) + Spec.one)

theorem upLineOf_apply (p : FVec Ideal S1015808 .f32) (i : S1015808.Idx) :
    upLineOf p i = BitVec.ofNat 32 (Spec.cidx 63 (Spec.fl (p i) + Spec.one)) :=
  Spec.fptosi_clip63 (Spec.fl (p i) + Spec.one)

/-! ## Flat row numbers and the index normalisation -/

theorem flat3_apply (iz iy ix : IVec S1015808 32) (i : S1015808.Idx) (z y x : ℕ)
    (hz : iz i = BitVec.ofNat 32 z) (hy : iy i = BitVec.ofNat 32 y) (hx : ix i = BitVec.ofNat 32 x) :
    flat3 iz iy ix i = BitVec.ofNat 32 (z * 16384 + y * 128 + x) := by
  show IntOp.addi (IntOp.addi (IntOp.muli (iz i) 16384#32) (IntOp.muli (iy i) 128#32)) (ix i) = _
  rw [hz, hy, hx]; exact FlatIndex.flat3 z y x 16384 128

theorem flat2_apply (iy ix : IVec S1015808 32) (i : S1015808.Idx) (y x : ℕ)
    (hy : iy i = BitVec.ofNat 32 y) (hx : ix i = BitVec.ofNat 32 x) :
    flat2 iy ix i = BitVec.ofNat 32 (y * 256 + x) := by
  show IntOp.addi (IntOp.muli (iy i) 256#32) (ix i) = _
  rw [hy, hx]; exact FlatIndex.flat2 y x 256

theorem normIdx_apply (ext : BitVec 32) (w : IVec S1015808 32) (i : S1015808.Idx) (N : ℕ) (hN : N < 2 ^ 31)
    (hw : w i = BitVec.ofNat 32 N) : normIdx ext w i = BitVec.ofNat 32 N := by
  show Scalar.select (IntOp.cmpi .slt (w i) 0#32) (IntOp.addi (w i) ext) (w i) = _
  rw [hw, FlatIndex.cmpi_slt_zero N hN, select_zero]

theorem rowsOf_apply (w : IVec S1015808 32) (i : Fin 1015808) : rowsOf w (ix2 i (0 : Fin 1)) = w (ix1 i) := by
  unfold rowsOf
  refine broadcastInDim_apply _ _ w _ (ix1 i) fun a => ?_
  match a with
  | ⟨0, _⟩ => show i.val = if (1015808 : ℕ) = 1 then 0 else i.val; rw [if_neg (by decide)]

/-! ## A gather of whole rows -/

theorem gatherRow_apply {M : ℕ} (hM : 0 < M)
    (wf : GatherDims.WF ⟨2, ![M, 16]⟩ ⟨2, ![1015808, 1]⟩ ⟨2, ![1015808, 16]⟩ [1] [0] [] [0] [] 1 ![1, 16])
    (T : (⟨2, ![M, 16]⟩ : Shape).Idx → EReal) (ext : BitVec 32) (w : IVec S1015808 32) (i : Fin 1015808) (q : Fin 16)
    (N : ℕ) (hN : N < M) (hN31 : N < 2 ^ 31) (hw : w (ix1 i) = BitVec.ofNat 32 N) :
    Host.gather (LibRowTable.gatherRows M 16 1015808 wf) T (rowsOf (normIdx ext w)) (ix2 i q) = T (ix2 (⟨N, hN⟩ : Fin M) q) := by
  rw [LibRowTable.gatherRows_apply hM wf T (rowsOf (normIdx ext w)) i q, rowsOf_apply, normIdx_apply ext w (ix1 i) N hN31 hw]
  have e : LibRowTable.srcRow M hM (BitVec.ofNat 32 N) = (⟨N, hN⟩ : Fin M) := Fin.ext (FlatIndex.clamp_id N M hN31 hN)
  rw [e]

theorem gatG_apply (T : FVec Ideal S2097152x16 .f32) (w : IVec S1015808 32) (i : Fin 1015808) (q : Fin 16)
    (N : ℕ) (hN : N < 2097152) (hw : w (ix1 i) = BitVec.ofNat 32 N) :
    gatG T w (ix2 i q) = T (ix2 (⟨N, hN⟩ : Fin 2097152) q) :=
  gatherRow_apply (by decide) gather_S2097152x16_S1015808x1_S1015808x16_1_0_n_n_0_1_116_wf T 2097152#32 w i q N hN (by omega) hw

theorem gatP_apply (T : FVec Ideal S65536x16 .f32) (w : IVec S1015808 32) (i : Fin 1015808) (q : Fin 16)
    (N : ℕ) (hN : N < 65536) (hw : w (ix1 i) = BitVec.ofNat 32 N) :
    gatP T w (ix2 i q) = T (ix2 (⟨N, hN⟩ : Fin 65536) q) :=
  gatherRow_apply (by decide) gather_S65536x16_S1015808x1_S1015808x16_1_0_n_n_0_1_116_wf T 65536#32 w i q N hN (by omega) hw

/-! ## Interpolation along one axis -/

theorem col1_apply (w : FVec Ideal S1015808 .f32) (i : Fin 1015808) : col1 w (ix2 i (0 : Fin 1)) = w (ix1 i) :=
  LibLayout.shapeCast_a_a1_apply w _ i 0

theorem b16_apply (x : FVec Ideal S1015808x1 .f32) (i : Fin 1015808) (q : Fin 16) : b16 x (ix2 i q) = x (ix2 i (0 : Fin 1)) := by
  unfold b16
  refine broadcastInDim_apply _ _ x _ (ix2 i (0 : Fin 1)) fun a => ?_
  match a with
  | ⟨0, _⟩ => show i.val = if (1015808 : ℕ) = 1 then 0 else i.val; rw [if_neg (by decide)]
  | ⟨1, _⟩ => show (0 : ℕ) = if (1 : ℕ) = 1 then 0 else q.val; rw [if_pos rfl]

theorem lerpOf_apply (g0 g1 : FVec Ideal S1015808x16 .f32) (wc : FVec Ideal S1015808x1 .f32) (i : Fin 1015808) (q : Fin 16) :
    lerpOf g0 g1 wc (ix2 i q)
      = g0 (ix2 i q) * (Spec.one - wc (ix2 i (0 : Fin 1))) + g1 (ix2 i q) * wc (ix2 i (0 : Fin 1)) := by
  show g0 (ix2 i q) * b16 (subf (bF1 0x3F800000#32) wc) (ix2 i q) + g1 (ix2 i q) * b16 wc (ix2 i q) = _
  rw [b16_apply, b16_apply]; rfl

/-! ## The coordinate columns -/

theorem colOf_apply (V : FVec Ideal S1015808x4 .f32) (o : ℕ) (h : S1015808x4.Slices ![0, o] S1015808x1) (ho : o < 4)
    (i : Fin 1015808) : colOf V o h (ix1 i) = V (ix2 i (⟨o, ho⟩ : Fin 4)) := by
  unfold colOf
  rw [LibColCast.shapeCast_a1_a_apply]
  exact slice2_axis1_apply o V h i (0 : Fin 1) ⟨o, ho⟩ (by simp)

theorem colOf3_apply (V : FVec Ideal S1015808x4 .f32) (o : ℕ) (h : S1015808x3.Slices ![0, o] S1015808x1) (ho : o < 3)
    (i : Fin 1015808) : colOf3 V o h (ix1 i) = V (ix2 i (⟨o, by omega⟩ : Fin 4)) := by
  unfold colOf3
  rw [LibColCast.shapeCast_a1_a_apply, slice2_axis1_apply o _ h i (0 : Fin 1) (⟨o, ho⟩ : Fin 3) (by simp)]
  exact slice2_axis1_apply 0 V slices_S1015808x4_S1015808x3_0_0 i (⟨o, ho⟩ : Fin 3) (⟨o, by omega⟩ : Fin 4) (by simp)

/-- The padded coordinates at a row below 1,000,000 are the coordinates. -/
theorem pad_row (X : FVec Ideal S1000000x4 .f32) (v : FVec Ideal S_ .f32) (r : Fin 1000000) (k : Fin 4) (i : Fin 1015808)
    (hi : i.val = r.val) :
    pad S1015808x4 ![0, 0] ![15808, 0] ![0, 0] X v pads_S1000000x4_S1015808x4_0158080_000 h_S_ (ix2 i k) = X (ix2 r k) := by
  refine pad_apply_of_inside _ _ _ X v _ _ (ix2 i k) (ix2 r k) fun a => ?_
  match a with
  | ⟨0, _⟩ => show i.val = 0 + r.val * (0 + 1); omega
  | ⟨1, _⟩ => show k.val = 0 + k.val * (0 + 1); omega

end Cert.KernelIdeal.KerValue
end
-- ==== Proof.SpecNested.lean ====
/-
  The nested interpolations land on the specification's corner sums.  With the corner entries read from a table
  of real numbers and the weights p − ⌊p⌋ of real pixel positions, interpolating along x, then y, then z is the sum
  over the corners of entry · weight started from 0 (`tri_nested`, `bil_nested`: distributivity over the reals);
  here that is stated with the specification's own neighbours and weights, so that a program whose entry is the
  nested form is the specification's `tri` / `bil`.
-/
import proofs.«135735_j20624432955487_2_alg».proof.Proof.SpecWords

noncomputable section

namespace Cert.Spec

open Idealize.ShloMosaic Idealize.ShloMosaic.ValueIdx

/-- The volume: x innermost, z outermost. -/
theorem tri_of_nested (G : SG.Idx → EReal) (hG : ∀ i, ∃ x : ℝ, G i = (x : EReal)) (q : Fin 16) (pz py px : EReal)
    (hz : ∃ y : ℝ, pz = (y : EReal)) (hy : ∃ y : ℝ, py = (y : EReal)) (hx : ∃ y : ℝ, px = (y : EReal)) :
    ((G (ix4 q (nb 128 (by decide) pz false) (nb 128 (by decide) py false) (nb 128 (by decide) px false)) * (one - wt px)
          + G (ix4 q (nb 128 (by decide) pz false) (nb 128 (by decide) py false) (nb 128 (by decide) px true)) * wt px) * (one - wt py)
        + (G (ix4 q (nb 128 (by decide) pz false) (nb 128 (by decide) py true) (nb 128 (by decide) px false)) * (one - wt px)
          + G (ix4 q (nb 128 (by decide) pz false) (nb 128 (by decide) py true) (nb 128 (by decide) px true)) * wt px) * wt py) * (one - wt pz)
      + ((G (ix4 q (nb 128 (by decide) pz true) (nb 128 (by decide) py false) (nb 128 (by decide) px false)) * (one - wt px)
          + G (ix4 q (nb 128 (by decide) pz true) (nb 128 (by decide) py false) (nb 128 (by decide) px true)) * wt px) * (one - wt py)
        + (G (ix4 q (nb 128 (by decide) pz true) (nb 128 (by decide) py true) (nb 128 (by decide) px false)) * (one - wt px)
          + G (ix4 q (nb 128 (by decide) pz true) (nb 128 (by decide) py true) (nb 128 (by decide) px true)) * wt px) * wt py) * wt pz
    = tri G q pz py px := by
  obtain ⟨wz, hwz⟩ := wt_real pz hz
  obtain ⟨wy, hwy⟩ := wt_real py hy
  obtain ⟨wx, hwx⟩ := wt_real px hx
  obtain ⟨g000, h000⟩ := hG (ix4 q (nb 128 (by decide) pz false) (nb 128 (by decide) py false) (nb 128 (by decide) px false))
  obtain ⟨g001, h001⟩ := hG (ix4 q (nb 128 (by decide) pz false) (nb 128 (by decide) py false) (nb 128 (by decide) px true))
  obtain ⟨g010, h010⟩ := hG (ix4 q (nb 128 (by decide) pz false) (nb 128 (by decide) py true) (nb 128 (by decide) px false))
  obtain ⟨g011, h011⟩ := hG (ix4 q (nb 128 (by decide) pz false) (nb 128 (by decide) py true) (nb 128 (by decide) px true))
  obtain ⟨g100, h100⟩ := hG (ix4 q (nb 128 (by decide) pz true) (nb 128 (by decide) py false) (nb 128 (by decide) px false))
  obtain ⟨g101, h101⟩ := hG (ix4 q (nb 128 (by decide) pz true) (nb 128 (by decide) py false) (nb 128 (by decide) px true))
  obtain ⟨g110, h110⟩ := hG (ix4 q (nb 128 (by decide) pz true) (nb 128 (by decide) py true) (nb 128 (by decide) px false))
  obtain ⟨g111, h111⟩ := hG (ix4 q (nb 128 (by decide) pz true) (nb 128 (by decide) py true) (nb 128 (by decide) px true))
  unfold tri term3
  simp only [wsel_false, wsel_true]
  rw [h000, h001, h010, h011, h100, h101, h110, h111, hwz, hwy, hwx]
  exact tri_nested g000 g001 g010 g011 g100 g101 g110 g111 wz wy wx

/-- A plane: x inner, y outer. -/
theorem bil_of_nested (P : SP.Idx → EReal) (hP : ∀ i, ∃ x : ℝ, P i = (x : EReal)) (q : Fin 16) (py px : EReal)
    (hy : ∃ y : ℝ, py = (y : EReal)) (hx : ∃ y : ℝ, px = (y : EReal)) :
    (P (ix3 q (nb 256 (by decide) py false) (nb 256 (by decide) px false)) * (one - wt px)
        + P (ix3 q (nb 256 (by decide) py false) (nb 256 (by decide) px true)) * wt px) * (one - wt py)
      + (P (ix3 q (nb 256 (by decide) py true) (nb 256 (by decide) px false)) * (one - wt px)
        + P (ix3 q (nb 256 (by decide) py true) (nb 256 (by decide) px true)) * wt px) * wt py
    = bil P q py px := by
  obtain ⟨wy, hwy⟩ := wt_real py hy
  obtain ⟨wx, hwx⟩ := wt_real px hx
  obtain ⟨g00, h00⟩ := hP (ix3 q (nb 256 (by decide) py false) (nb 256 (by decide) px false))
  obtain ⟨g01, h01⟩ := hP (ix3 q (nb 256 (by decide) py false) (nb 256 (by decide) px true))
  obtain ⟨g10, h10⟩ := hP (ix3 q (nb 256 (by decide) py true) (nb 256 (by decide) px false))
  obtain ⟨g11, h11⟩ := hP (ix3 q (nb 256 (by decide) py true) (nb 256 (by decide) px true))
  unfold bil term2
  simp only [wsel_false, wsel_true]
  rw [h00, h01, h10, h11, hwy, hwx]
  exact bil_nested g00 g01 g10 g11 wy wx

/-- The pixel positions of a real coordinate are real (the scales are the words of 127, 255 and 63). -/
theorem s127_real : ∃ y : ℝ, s127 = (y : EReal) := ⟨127, by unfold s127; simp [Ideal.ofBits, Ideal.ieee, -EReal.coe_mul]; norm_num⟩
theorem s255_real : ∃ y : ℝ, s255 = (y : EReal) := ⟨255, by unfold s255; simp [Ideal.ofBits, Ideal.ieee, -EReal.coe_mul]; norm_num⟩
theorem s63_real : ∃ y : ℝ, s63 = (y : EReal) := ⟨63, by unfold s63; simp [Ideal.ofBits, Ideal.ieee, -EReal.coe_mul]; norm_num⟩

theorem pix127_real (v : EReal) (hv : ∃ y : ℝ, v = (y : EReal)) : ∃ y : ℝ, pix s127 v = (y : EReal) := pix_real _ _ s127_real hv
theorem pix255_real (v : EReal) (hv : ∃ y : ℝ, v = (y : EReal)) : ∃ y : ℝ, pix s255 v = (y : EReal) := pix_real _ _ s255_real hv

end Cert.Spec

end
-- ==== Proof.KerStruct.lean ====
/-
  The three interpolated structures read at one row and channel. With the neighbours' words the words of the
  specification's clipped naturals and the weights the specification's, every corner row of a gather is the table at
  the flat row number of those naturals, i.e. the argument array at the corner; the nested interpolation of the
  corners is then the specification's corner sum (for real entries and positions).
-/
import proofs.«135735_j20624432955487_2_alg».proof.Proof.KerRead
import proofs.«135735_j20624432955487_2_alg».proof.Proof.SpecNested

set_option maxRecDepth 16384

noncomputable section
namespace Cert.KernelIdeal.KerValue
open Cert.KernelIdeal Cert.KernelIdeal.Gen Idealize.ShloMosaic Idealize.ShloMosaic.ValueIdx

/-! ## The volume -/

/-- One corner row of the volume. -/
theorem corner3 (G : Spec.SG.Idx → EReal) (T : FVec Ideal S2097152x16 .f32)
    (hT : ∀ (z y x : Fin 128) (q : Fin 16) (row : Fin 2097152), row.val = z.val * 16384 + y.val * 128 + x.val → T (ix2 row q) = G (ix4 q z y x))
    (iz iy ix : IVec S1015808 32) (i : Fin 1015808) (q : Fin 16) (vz vy vx : EReal)
    (hz : iz (ix1 i) = BitVec.ofNat 32 (Spec.cidx 127 vz)) (hy : iy (ix1 i) = BitVec.ofNat 32 (Spec.cidx 127 vy))
    (hx : ix (ix1 i) = BitVec.ofNat 32 (Spec.cidx 127 vx)) :
    gatG T (flat3 iz iy ix) (ix2 i q)
      = G (ix4 q (Spec.cfin 128 (by decide) vz) (Spec.cfin 128 (by decide) vy) (Spec.cfin 128 (by decide) vx)) := by
  have bz := Spec.cidx_le 127 vz
  have by' := Spec.cidx_le 127 vy
  have bx := Spec.cidx_le 127 vx
  have hN : Spec.cidx 127 vz * 16384 + Spec.cidx 127 vy * 128 + Spec.cidx 127 vx < 2097152 := by omega
  rw [gatG_apply T _ i q _ hN (flat3_apply iz iy ix (ix1 i) _ _ _ hz hy hx)]
  exact hT (Spec.cfin 128 (by decide) vz) (Spec.cfin 128 (by decide) vy) (Spec.cfin 128 (by decide) vx) q _ rfl

theorem triOf_apply (G : Spec.SG.Idx → EReal) (hG : ∀ j, ∃ x : ℝ, G j = (x : EReal)) (T : FVec Ideal S2097152x16 .f32)
    (hT : ∀ (z y x : Fin 128) (q : Fin 16) (row : Fin 2097152), row.val = z.val * 16384 + y.val * 128 + x.val → T (ix2 row q) = G (ix4 q z y x))
    (z0 z1 y0 y1 x0 x1 : IVec S1015808 32) (wz wy wx : FVec Ideal S1015808 .f32) (i : Fin 1015808) (q : Fin 16) (pz py px : EReal)
    (hpz : ∃ y : ℝ, pz = (y : EReal)) (hpy : ∃ y : ℝ, py = (y : EReal)) (hpx : ∃ y : ℝ, px = (y : EReal))
    (hz0 : z0 (ix1 i) = BitVec.ofNat 32 (Spec.cidx 127 (Spec.fl pz))) (hz1 : z1 (ix1 i) = BitVec.ofNat 32 (Spec.cidx 127 (Spec.fl pz + Spec.one)))
    (hy0 : y0 (ix1 i) = BitVec.ofNat 32 (Spec.cidx 127 (Spec.fl py))) (hy1 : y1 (ix1 i) = BitVec.ofNat 32 (Spec.cidx 127 (Spec.fl py + Spec.one)))
    (hx0 : x0 (ix1 i) = BitVec.ofNat 32 (Spec.cidx 127 (Spec.fl px))) (hx1 : x1 (ix1 i) = BitVec.ofNat 32 (Spec.cidx 127 (Spec.fl px + Spec.one)))
    (hwz : wz (ix1 i) = Spec.wt pz) (hwy : wy (ix1 i) = Spec.wt py) (hwx : wx (ix1 i) = Spec.wt px) :
    triOf T z0 z1 y0 y1 x0 x1 wz wy wx (ix2 i q) = Spec.tri G q pz py px := by
  unfold triOf
  simp only [lerpOf_apply, col1_apply, hwz, hwy, hwx]
  rw [corner3 G T hT z0 y0 x0 i q _ _ _ hz0 hy0 hx0, corner3 G T hT z0 y0 x1 i q _ _ _ hz0 hy0 hx1,
    corner3 G T hT z0 y1 x0 i q _ _ _ hz0 hy1 hx0, corner3 G T hT z0 y1 x1 i q _ _ _ hz0 hy1 hx1,
    corner3 G T hT z1 y0 x0 i q _ _ _ hz1 hy0 hx0, corner3 G T hT z1 y0 x1 i q _ _ _ hz1 hy0 hx1,
    corner3 G T hT z1 y1 x0 i q _ _ _ hz1 hy1 hx0, corner3 G T hT z1 y1 x1 i q _ _ _ hz1 hy1 hx1]
  exact Spec.tri_of_nested G hG q pz py px hpz hpy hpx

/-! ## A plane -/

/-- One corner row of a plane. -/
theorem corner2 (P : Spec.SP.Idx → EReal) (T : FVec Ideal S65536x16 .f32)
    (hT : ∀ (y x : Fin 256) (q : Fin 16) (row : Fin 65536), row.val = y.val * 256 + x.val → T (ix2 row q) = P (ix3 q y x))
    (iy ix : IVec S1015808 32) (i : Fin 1015808) (q : Fin 16) (vy vx : EReal)
    (hy : iy (ix1 i) = BitVec.ofNat 32 (Spec.cidx 255 vy)) (hx : ix (ix1 i) = BitVec.ofNat 32 (Spec.cidx 255 vx)) :
    gatP T (flat2 iy ix) (ix2 i q) = P (ix3 q (Spec.cfin 256 (by decide) vy) (Spec.cfin 256 (by decide) vx)) := by
  have by' := Spec.cidx_le 255 vy
  have bx := Spec.cidx_le 255 vx
  have hN : Spec.cidx 255 vy * 256 + Spec.cidx 255 vx < 65536 := by omega
  rw [gatP_apply T _ i q _ hN (flat2_apply iy ix (ix1 i) _ _ hy hx)]
  exact hT (Spec.cfin 256 (by decide) vy) (Spec.cfin 256 (by decide) vx) q _ rfl

theorem bilOf_apply (P : Spec.SP.Idx → EReal) (hP : ∀ j, ∃ x : ℝ, P j = (x : EReal)) (T : FVec Ideal S65536x16 .f32)
    (hT : ∀ (y x : Fin 256) (q : Fin 16) (row : Fin 65536), row.val = y.val * 256 + x.val → T (ix2 row q) = P (ix3 q y x))
    (y0 y1 x0 x1 : IVec S1015808 32) (wy wx : FVec Ideal S1015808 .f32) (i : Fin 1015808) (q : Fin 16) (py px : EReal)
    (hpy : ∃ y : ℝ, py = (y : EReal)) (hpx : ∃ y : ℝ, px = (y : EReal))
    (hy0 : y0 (ix1 i) = BitVec.ofNat 32 (Spec.cidx 255 (Spec.fl py))) (hy1 : y1 (ix1 i) = BitVec.ofNat 32 (Spec.cidx 255 (Spec.fl py + Spec.one)))
    (hx0 : x0 (ix1 i) = BitVec.ofNat 32 (Spec.cidx 255 (Spec.fl px))) (hx1 : x1 (ix1 i) = BitVec.ofNat 32 (Spec.cidx 255 (Spec.fl px + Spec.one)))
    (hwy : wy (ix1 i) = Spec.wt py) (hwx : wx (ix1 i) = Spec.wt px) :
    bilOf T y0 y1 x0 x1 wy wx (ix2 i q) = Spec.bil P q py px := by
  unfold bilOf
  simp only [lerpOf_apply, col1_apply, hwy, hwx]
  rw [corner2 P T hT y0 x0 i q _ _ hy0 hx0, corner2 P T hT y0 x1 i q _ _ hy0 hx1,
    corner2 P T hT y1 x0 i q _ _ hy1 hx0, corner2 P T hT y1 x1 i q _ _ hy1 hx1]
  exact Spec.bil_of_nested P hP q py px hpy hpx

/-! ## The line -/

/-- The index normalisation on one word, as the specification spells it. -/
theorem select_slt_normw (n w : BitVec 32) :
    Scalar.select (IntOp.cmpi .slt w 0#32) (IntOp.addi w n) w = Spec.normw n w := by
  unfold Spec.normw Scalar.select IntOp.cmpi IntOp.addi
  cases h : w.slt 0#32 <;> simp [h]

/-- A row of the line's table by an arbitrary word: the row the specification names for that word. -/
theorem gatL_word (T : FVec Ideal S64x16 .f32) (w : IVec S1015808 32) (i : Fin 1015808) (q : Fin 16) :
    gatL T w (ix2 i q) = T (ix2 (Spec.lrow (w (ix1 i))) q) := by
  unfold gatL
  have e : gather_S64x16_S1015808x1_S1015808x16_1_0_n_n_0_1_116
      = LibRowTable.gatherRows 64 16 1015808 gather_S64x16_S1015808x1_S1015808x16_1_0_n_n_0_1_116_wf := rfl
  rw [e, LibRowTable.gatherRows_apply (by decide) _ T _ i q, rowsOf_apply]
  refine congrArg T ?_
  have e2 : normIdx 64#32 w (ix1 i) = Spec.normw 64#32 (w (ix1 i)) := select_slt_normw 64#32 (w (ix1 i))
  rw [e2]
  rfl

/-- A row of the line's table by the word of a natural below 64. -/
theorem gatL_nat (T : FVec Ideal S64x16 .f32) (w : IVec S1015808 32) (i : Fin 1015808) (q : Fin 16)
    (N : ℕ) (hN : N < 64) (hw : w (ix1 i) = BitVec.ofNat 32 N) :
    gatL T w (ix2 i q) = T (ix2 (⟨N, hN⟩ : Fin 64) q) :=
  gatherRow_apply (by decide) gather_S64x16_S1015808x1_S1015808x16_1_0_n_n_0_1_116_wf T 64#32 w i q N hN (by omega) hw

theorem linOf_apply (L : Spec.SL.Idx → EReal) (T : FVec Ideal S64x16 .f32)
    (hT : ∀ (row : Fin 64) (q : Fin 16), T (ix2 row q) = L (ix2 q row))
    (i0 i1 : IVec S1015808 32) (w : FVec Ideal S1015808 .f32) (i : Fin 1015808) (q : Fin 16) (pn : EReal)
    (h0 : i0 (ix1 i) = Ideal.fptosi 32 (Spec.fl pn)) (h1 : i1 (ix1 i) = BitVec.ofNat 32 (Spec.cidx 63 (Spec.fl pn + Spec.one)))
    (hw : w (ix1 i) = Spec.wt pn) :
    linOf T i0 i1 w (ix2 i q) = Spec.lin L q pn := by
  unfold linOf
  have b1 := Spec.cidx_le 63 (Spec.fl pn + Spec.one)
  rw [lerpOf_apply, col1_apply, hw, gatL_word T i0 i q, h0,
    gatL_nat T i1 i q _ (by omega : Spec.cidx 63 (Spec.fl pn + Spec.one) < 64) h1, hT, hT]
  rfl

end Cert.KernelIdeal.KerValue
end
-- ==== Proof.LibChannelLast.lean ====
/-
  Channel-last tables.  A channel-first array [C, A, B, D] transposed to [A, B, D, C] and flattened to
  [A·B·D, C] holds, at row z·(B·D) + y·D + x and column q, the entry (q, z, y, x) of the array: the flat row is the
  row-major position of (z, y, x).  Likewise [C, A, B] → [A·B, C] at row y·B + x, and [C, A] → [A, C].
  Any extents, any entry type.
-/
import Idealize.ShloMosaic.Lib.Pipeline.Value
import Idealize.ShloMosaic.Lib.ValueIdx
import Idealize.ShloMosaic.Lib.ValueLayout

noncomputable section

namespace Idealize.ShloMosaic.ChannelLast

open Idealize.ShloMosaic Idealize.ShloMosaic.ValueIdx

variable {α : Type}

/-- The channel axis moved last, rank 4. -/
theorem transpose4_apply {C A B D : ℕ} (x : (⟨4, ![C, A, B, D]⟩ : Shape).Idx → α)
    (h : (⟨4, ![C, A, B, D]⟩ : Shape).Transposes [1, 2, 3, 0] ⟨4, ![A, B, D, C]⟩) (z : Fin A) (y : Fin B) (u : Fin D) (q : Fin C) :
    transpose ⟨4, ![A, B, D, C]⟩ [1, 2, 3, 0] x h (ix4 z y u q) = x (ix4 q z y u) :=
  transpose_apply _ x h _ _ fun c => match c with | ⟨0, _⟩ => rfl | ⟨1, _⟩ => rfl | ⟨2, _⟩ => rfl | ⟨3, _⟩ => rfl

/-- The channel axis moved last, rank 3. -/
theorem transpose3_apply {C A B : ℕ} (x : (⟨3, ![C, A, B]⟩ : Shape).Idx → α)
    (h : (⟨3, ![C, A, B]⟩ : Shape).Transposes [1, 2, 0] ⟨3, ![A, B, C]⟩) (y : Fin A) (u : Fin B) (q : Fin C) :
    transpose ⟨3, ![A, B, C]⟩ [1, 2, 0] x h (ix3 y u q) = x (ix3 q y u) :=
  transpose_apply _ x h _ _ fun c => match c with | ⟨0, _⟩ => rfl | ⟨1, _⟩ => rfl | ⟨2, _⟩ => rfl

/-- [A, B, D, C] flattened to [M, C] (M = A·B·D) at the row of (z, y, x). -/
theorem flatten4_apply {C A B D M : ℕ} (v : (⟨4, ![A, B, D, C]⟩ : Shape).Idx → α)
    (h : (⟨4, ![A, B, D, C]⟩ : Shape).ShapeCasts ⟨2, ![M, C]⟩) (z : Fin A) (y : Fin B) (u : Fin D) (q : Fin C) (row : Fin M)
    (hrow : row.val = z.val * (B * D) + y.val * D + u.val) :
    shapeCast ⟨2, ![M, C]⟩ v h (ix2 row q) = v (ix4 z y u q) := by
  refine shapeCast_apply v h _ _ ?_
  rw [Shape.rowMajor_val_four, Shape.rowMajor_val_two]
  show ((z.val * B + y.val) * D + u.val) * C + q.val = row.val * C + q.val
  rw [hrow]; ring

/-- [A, B, C] flattened to [M, C] (M = A·B) at the row of (y, x). -/
theorem flatten3_apply {C A B M : ℕ} (v : (⟨3, ![A, B, C]⟩ : Shape).Idx → α)
    (h : (⟨3, ![A, B, C]⟩ : Shape).ShapeCasts ⟨2, ![M, C]⟩) (y : Fin A) (u : Fin B) (q : Fin C) (row : Fin M)
    (hrow : row.val = y.val * B + u.val) :
    shapeCast ⟨2, ![M, C]⟩ v h (ix2 row q) = v (ix3 y u q) := by
  refine shapeCast_apply v h _ _ ?_
  rw [Shape.rowMajor_val_three, Shape.rowMajor_val_two]
  show (y.val * B + u.val) * C + q.val = row.val * C + q.val
  rw [hrow]

/-- The volume's channel-last table at the flat row of (z, y, x), column q, is the volume at (q, z, y, x). -/
theorem table4_apply {C A B D M : ℕ} (x : (⟨4, ![C, A, B, D]⟩ : Shape).Idx → α)
    (ht : (⟨4, ![C, A, B, D]⟩ : Shape).Transposes [1, 2, 3, 0] ⟨4, ![A, B, D, C]⟩)
    (hc : (⟨4, ![A, B, D, C]⟩ : Shape).ShapeCasts ⟨2, ![M, C]⟩) (z : Fin A) (y : Fin B) (u : Fin D) (q : Fin C) (row : Fin M)
    (hrow : row.val = z.val * (B * D) + y.val * D + u.val) :
    shapeCast ⟨2, ![M, C]⟩ (transpose ⟨4, ![A, B, D, C]⟩ [1, 2, 3, 0] x ht) hc (ix2 row q) = x (ix4 q z y u) :=
  (flatten4_apply _ hc z y u q row hrow).trans (transpose4_apply x ht z y u q)

/-- A plane's channel-last table at the flat row of (y, x), column q, is the plane at (q, y, x). -/
theorem table3_apply {C A B M : ℕ} (x : (⟨3, ![C, A, B]⟩ : Shape).Idx → α)
    (ht : (⟨3, ![C, A, B]⟩ : Shape).Transposes [1, 2, 0] ⟨3, ![A, B, C]⟩)
    (hc : (⟨3, ![A, B, C]⟩ : Shape).ShapeCasts ⟨2, ![M, C]⟩) (y : Fin A) (u : Fin B) (q : Fin C) (row : Fin M)
    (hrow : row.val = y.val * B + u.val) :
    shapeCast ⟨2, ![M, C]⟩ (transpose ⟨3, ![A, B, C]⟩ [1, 2, 0] x ht) hc (ix2 row q) = x (ix3 q y u) :=
  (flatten3_apply _ hc y u q row hrow).trans (transpose3_apply x ht y u q)

end Idealize.ShloMosaic.ChannelLast

end
-- ==== Proof.KerAt.lean ====
/-
  The program's result at one entry is the specification's. Row r < 1,000,000 of the padded coordinates is row r of
  the coordinates; each pixel position, neighbour word and weight of that row is the specification's; the volume's,
  the planes' and the line's interpolated values at (r, q) are therefore the specification's `tri`, `bil` and `lin`;
  the region multiplies the first four and copies the fifth, and the final slice keeps row r.
-/
import proofs.«135735_j20624432955487_2_alg».proof.Proof.KerRun
import proofs.«135735_j20624432955487_2_alg».proof.Proof.KerInst
import proofs.«135735_j20624432955487_2_alg».proof.Proof.KerStruct
import proofs.«135735_j20624432955487_2_alg».proof.Proof.LibChannelLast

set_option maxRecDepth 16384

noncomputable section
namespace Cert.KernelIdeal.KerValue
open Cert.KernelIdeal Cert.KernelIdeal.Gen Idealize.ShloMosaic Idealize.ShloMosaic.ValueIdx

/-- One coordinate of one row: its pixel position, the words of its two clipped neighbours and its weight. -/
theorem coord_facts (hiw : BitVec 32) (hi : ℕ) (hhi : hi < 2 ^ 31) (h : hiw.toInt = (hi : ℤ)) (s : BitVec 32)
    (v : FVec Ideal S1015808 .f32) (j : S1015808.Idx) (x : EReal) (hv : v j = x) :
    pixOf v s j = Spec.pix (Ideal.ofBits .f32 s) x
    ∧ loOf hiw (pixOf v s) j = BitVec.ofNat 32 (Spec.cidx hi (Spec.fl (Spec.pix (Ideal.ofBits .f32 s) x)))
    ∧ upOf hiw (pixOf v s) j = BitVec.ofNat 32 (Spec.cidx hi (Spec.fl (Spec.pix (Ideal.ofBits .f32 s) x) + Spec.one))
    ∧ wtOf (pixOf v s) j = Spec.wt (Spec.pix (Ideal.ofBits .f32 s) x) := by
  have hp : pixOf v s j = Spec.pix (Ideal.ofBits .f32 s) x := by rw [pixOf_apply, hv]
  refine ⟨hp, ?_, ?_, ?_⟩
  · rw [loOf_apply hiw hi hhi h, hp]
  · rw [upOf_apply hiw hi hhi h, hp]
  · rw [wtOf_apply, hp]

section Row
variable (a : Args Ideal) (r : Fin 1000000) (i : Fin 1015808) (hi : i.val = r.val)
include hi

/-- The padded coordinates at a row below 1,000,000. -/
theorem padded (k : Fin 4) : k_v0 a (ix2 i k) = a.X (ix2 r k) := by
  rw [e_v0]; exact pad_row a.X _ r k i hi

/-- A coordinate column read through the first three columns. -/
theorem col3_read (o : ℕ) (h : S1015808x3.Slices ![0, o] S1015808x1) (ho : o < 3) :
    colOf3 (k_v0 a) o h (ix1 i) = a.X (ix2 r (⟨o, by omega⟩ : Fin 4)) := by
  rw [colOf3_apply _ o h ho i]; exact padded a r i hi _

/-- A coordinate column read directly. -/
theorem col_read (o : ℕ) (h : S1015808x4.Slices ![0, o] S1015808x1) (ho : o < 4) :
    colOf (k_v0 a) o h (ix1 i) = a.X (ix2 r (⟨o, ho⟩ : Fin 4)) := by
  rw [colOf_apply _ o h ho i]; exact padded a r i hi _

/-! ## The tables -/

omit hi in
theorem tableG (z y x : Fin 128) (q : Fin 16) (row : Fin 2097152) (hrow : row.val = z.val * 16384 + y.val * 128 + x.val) :
    k_v2 a (ix2 row q) = a.G (ix4 q z y x) := by
  rw [e_v2]
  exact ChannelLast.table4_apply (C := 16) (A := 128) (B := 128) (D := 128) (M := 2097152) a.G _ _ z y x q row hrow

omit hi in
theorem tableP0 (y x : Fin 256) (q : Fin 16) (row : Fin 65536) (hrow : row.val = y.val * 256 + x.val) :
    k_v4 a (ix2 row q) = a.P0 (ix3 q y x) := by
  rw [e_v4]
  exact ChannelLast.table3_apply (C := 16) (A := 256) (B := 256) (M := 65536) a.P0 _ _ y x q row hrow

omit hi in
theorem tableP1 (y x : Fin 256) (q : Fin 16) (row : Fin 65536) (hrow : row.val = y.val * 256 + x.val) :
    k_v6 a (ix2 row q) = a.P1 (ix3 q y x) := by
  rw [e_v6]
  exact ChannelLast.table3_apply (C := 16) (A := 256) (B := 256) (M := 65536) a.P1 _ _ y x q row hrow

omit hi in
theorem tableP2 (y x : Fin 256) (q : Fin 16) (row : Fin 65536) (hrow : row.val = y.val * 256 + x.val) :
    k_v8 a (ix2 row q) = a.P2 (ix3 q y x) := by
  rw [e_v8]
  exact ChannelLast.table3_apply (C := 16) (A := 256) (B := 256) (M := 65536) a.P2 _ _ y x q row hrow

omit hi in
theorem tableL (row : Fin 64) (q : Fin 16) : k_v9 a (ix2 row q) = a.L (ix2 q row) := by
  rw [e_v9]
  exact transpose_ix2_apply (a := 16) (b := 64) a.L _ row q

/-! ## The five interpolated arrays at row r -/

theorem tri_read (hX : ∀ j, ∃ x : ℝ, a.X j = (x : EReal)) (hG : ∀ j, ∃ x : ℝ, a.G j = (x : EReal)) (q : Fin 16) :
    k_v214 a (ix2 i q) = Spec.tri a.G q (Spec.pix Spec.s127 (a.X (ix2 r 2))) (Spec.pix Spec.s127 (a.X (ix2 r 1))) (Spec.pix Spec.s127 (a.X (ix2 r 0))) := by
  have fx := coord_facts 127#32 127 (by norm_num) (by decide) 0x42FE0000#32 _ (ix1 i) _ (col3_read a r i hi 0 slices_S1015808x3_S1015808x1_0_0 (by decide))
  have fy := coord_facts 127#32 127 (by norm_num) (by decide) 0x42FE0000#32 _ (ix1 i) _ (col3_read a r i hi 1 slices_S1015808x3_S1015808x1_0_1 (by decide))
  have fz := coord_facts 127#32 127 (by norm_num) (by decide) 0x42FE0000#32 _ (ix1 i) _ (col3_read a r i hi 2 slices_S1015808x3_S1015808x1_0_2 (by decide))
  rw [e_v214]
  exact triOf_apply a.G hG (k_v2 a) (tableG a) _ _ _ _ _ _ _ _ _ i q (Spec.pix Spec.s127 (a.X (ix2 r 2))) (Spec.pix Spec.s127 (a.X (ix2 r 1))) (Spec.pix Spec.s127 (a.X (ix2 r 0)))
    (Spec.pix127_real _ (hX _)) (Spec.pix127_real _ (hX _)) (Spec.pix127_real _ (hX _))
    (by rw [e_v53, e_v34, e_v28]; exact fz.2.1) (by rw [e_v57, e_v34, e_v28]; exact fz.2.2.1)
    (by rw [e_v45, e_v26, e_v20]; exact fy.2.1) (by rw [e_v49, e_v26, e_v20]; exact fy.2.2.1)
    (by rw [e_v37, e_v18, e_v12]; exact fx.2.1) (by rw [e_v41, e_v18, e_v12]; exact fx.2.2.1)
    (by rw [e_v58, e_v34, e_v28]; exact fz.2.2.2) (by rw [e_v50, e_v26, e_v20]; exact fy.2.2.2)
    (by rw [e_v42, e_v18, e_v12]; exact fx.2.2.2)

theorem bil0_read (hX : ∀ j, ∃ x : ℝ, a.X j = (x : EReal)) (hP : ∀ j, ∃ x : ℝ, a.P0 j = (x : EReal)) (q : Fin 16) :
    k_v309 a (ix2 i q) = Spec.bil a.P0 q (Spec.pix Spec.s255 (a.X (ix2 r 2))) (Spec.pix Spec.s255 (a.X (ix2 r 1))) := by
  have fx := coord_facts 255#32 255 (by norm_num) (by decide) 0x437F0000#32 _ (ix1 i) _ (col_read a r i hi 1 slices_S1015808x4_S1015808x1_0_1 (by decide))
  have fy := coord_facts 255#32 255 (by norm_num) (by decide) 0x437F0000#32 _ (ix1 i) _ (col_read a r i hi 2 slices_S1015808x4_S1015808x1_0_2 (by decide))
  rw [e_v309]
  exact bilOf_apply a.P0 hP (k_v4 a) (tableP0 a) _ _ _ _ _ _ i q (Spec.pix Spec.s255 (a.X (ix2 r 2))) (Spec.pix Spec.s255 (a.X (ix2 r 1)))
    (Spec.pix255_real _ (hX _)) (Spec.pix255_real _ (hX _))
    (by rw [e_v241, e_v230, e_v218]; exact fy.2.1) (by rw [e_v245, e_v230, e_v218]; exact fy.2.2.1)
    (by rw [e_v233, e_v224, e_v216]; exact fx.2.1) (by rw [e_v237, e_v224, e_v216]; exact fx.2.2.1)
    (by rw [e_v246, e_v230, e_v218]; exact fy.2.2.2) (by rw [e_v238, e_v224, e_v216]; exact fx.2.2.2)

theorem bil1_read (hX : ∀ j, ∃ x : ℝ, a.X j = (x : EReal)) (hP : ∀ j, ∃ x : ℝ, a.P1 j = (x : EReal)) (q : Fin 16) :
    k_v404 a (ix2 i q) = Spec.bil a.P1 q (Spec.pix Spec.s255 (a.X (ix2 r 2))) (Spec.pix Spec.s255 (a.X (ix2 r 0))) := by
  have fx := coord_facts 255#32 255 (by norm_num) (by decide) 0x437F0000#32 _ (ix1 i) _ (col_read a r i hi 0 slices_S1015808x4_S1015808x1_0_0 (by decide))
  have fy := coord_facts 255#32 255 (by norm_num) (by decide) 0x437F0000#32 _ (ix1 i) _ (col_read a r i hi 2 slices_S1015808x4_S1015808x1_0_2 (by decide))
  rw [e_v404]
  exact bilOf_apply a.P1 hP (k_v6 a) (tableP1 a) _ _ _ _ _ _ i q (Spec.pix Spec.s255 (a.X (ix2 r 2))) (Spec.pix Spec.s255 (a.X (ix2 r 0)))
    (Spec.pix255_real _ (hX _)) (Spec.pix255_real _ (hX _))
    (by rw [e_v336, e_v325, e_v313]; exact fy.2.1) (by rw [e_v340, e_v325, e_v313]; exact fy.2.2.1)
    (by rw [e_v328, e_v319, e_v311]; exact fx.2.1) (by rw [e_v332, e_v319, e_v311]; exact fx.2.2.1)
    (by rw [e_v341, e_v325, e_v313]; exact fy.2.2.2) (by rw [e_v333, e_v319, e_v311]; exact fx.2.2.2)

theorem bil2_read (hX : ∀ j, ∃ x : ℝ, a.X j = (x : EReal)) (hP : ∀ j, ∃ x : ℝ, a.P2 j = (x : EReal)) (q : Fin 16) :
    k_v499 a (ix2 i q) = Spec.bil a.P2 q (Spec.pix Spec.s255 (a.X (ix2 r 1))) (Spec.pix Spec.s255 (a.X (ix2 r 0))) := by
  have fx := coord_facts 255#32 255 (by norm_num) (by decide) 0x437F0000#32 _ (ix1 i) _ (col_read a r i hi 0 slices_S1015808x4_S1015808x1_0_0 (by decide))
  have fy := coord_facts 255#32 255 (by norm_num) (by decide) 0x437F0000#32 _ (ix1 i) _ (col_read a r i hi 1 slices_S1015808x4_S1015808x1_0_1 (by decide))
  rw [e_v499]
  exact bilOf_apply a.P2 hP (k_v8 a) (tableP2 a) _ _ _ _ _ _ i q (Spec.pix Spec.s255 (a.X (ix2 r 1))) (Spec.pix Spec.s255 (a.X (ix2 r 0)))
    (Spec.pix255_real _ (hX _)) (Spec.pix255_real _ (hX _))
    (by rw [e_v431, e_v420, e_v408]; exact fy.2.1) (by rw [e_v435, e_v420, e_v408]; exact fy.2.2.1)
    (by rw [e_v423, e_v414, e_v406]; exact fx.2.1) (by rw [e_v427, e_v414, e_v406]; exact fx.2.2.1)
    (by rw [e_v436, e_v420, e_v408]; exact fy.2.2.2) (by rw [e_v428, e_v414, e_v406]; exact fx.2.2.2)

theorem lin_read (q : Fin 16) : k_v532 a (ix2 i q) = Spec.lin a.L q (a.X (ix2 r 3) * Spec.s63) := by
  have c3 : k_v501 a (ix1 i) = a.X (ix2 r 3) := by
    rw [e_v501]; exact col_read a r i hi 3 slices_S1015808x4_S1015808x1_0_3 (by decide)
  have pn : k_v503 a (ix1 i) = a.X (ix2 r 3) * Spec.s63 := by
    rw [e_v503]
    show k_v501 a (ix1 i) * Ideal.ofBits .f32 0x427C0000#32 = _
    rw [c3]; rfl
  rw [e_v532]
  exact linOf_apply a.L (k_v9 a) (tableL a) _ _ _ i q (a.X (ix2 r 3) * Spec.s63)
    (by rw [e_v505]; show Ideal.fptosi 32 (Spec.fl (k_v503 a (ix1 i))) = _; rw [pn])
    (by rw [e_v509, upLineOf_apply, pn])
    (by rw [e_v510, wtOf_apply, pn])

end Row

/-- THE KERNEL'S VALUE AT ONE ENTRY is the specification's, for real argument entries. -/
theorem out_apply (X : Cert.Spec.SX.Idx → EReal) (G : Cert.Spec.SG.Idx → EReal) (P0 P1 P2 : Cert.Spec.SP.Idx → EReal)
    (L : Cert.Spec.SL.Idx → EReal)
    (hX : ∀ i, ∃ x : ℝ, X i = (x : EReal)) (hG : ∀ i, ∃ x : ℝ, G i = (x : EReal)) (hP0 : ∀ i, ∃ x : ℝ, P0 i = (x : EReal))
    (hP1 : ∀ i, ∃ x : ℝ, P1 i = (x : EReal)) (hP2 : ∀ i, ∃ x : ℝ, P2 i = (x : EReal)) (hL : ∀ i, ∃ x : ℝ, L i = (x : EReal))
    (r : Fin 1000000) (c : Fin 32) :
    out X G P0 P1 P2 L (ValueIdx.ix2 r c) = Cert.Spec.out X G P0 P1 P2 L r c := by
  have hlt : r.val < 1015808 := by have := r.isLt; omega
  have h1 : out X G P0 P1 P2 L (ix2 r c) = outArr ⟨X, G, P0, P1, P2, L⟩ (ix2 (⟨r.val, hlt⟩ : Fin 1015808) c) := by
    unfold out tailSlice
    exact slice2_axis0_apply 0 _ _ r c ⟨r.val, hlt⟩ (by simp)
  rw [h1]
  unfold outArr Spec.out
  by_cases hc : c.val < 16
  · rw [dif_pos hc, combine_lo _ _ _ _ _ _ (⟨r.val, hlt⟩ : Fin 1015808) (⟨c.val, hc⟩ : Fin 16) rfl rfl]
    unfold prod4 Spec.spatial
    rw [tri_read ⟨X, G, P0, P1, P2, L⟩ r ⟨r.val, hlt⟩ rfl hX hG, bil0_read ⟨X, G, P0, P1, P2, L⟩ r ⟨r.val, hlt⟩ rfl hX hP0,
      bil1_read ⟨X, G, P0, P1, P2, L⟩ r ⟨r.val, hlt⟩ rfl hX hP1, bil2_read ⟨X, G, P0, P1, P2, L⟩ r ⟨r.val, hlt⟩ rfl hX hP2]
    rfl
  · rw [dif_neg hc, combine_hi _ _ _ _ _ _ (⟨r.val, hlt⟩ : Fin 1015808) (⟨c.val - 16, by omega⟩ : Fin 16) rfl
      (by show c.val = 16 + (c.val - 16); omega)]
    unfold Spec.param
    exact lin_read ⟨X, G, P0, P1, P2, L⟩ r ⟨r.val, hlt⟩ rfl _

end Cert.KernelIdeal.KerValue
end
-- ==== Proof.lean ====
/-
  The proof of the certificate's claim for the multi-grid lookup: a 3-D volume, three planes and a line, each
  interpolated at a million query rows, the volume and the planes multiplied channel by channel and the line's
  sixteen channels appended.

  Both programs compute entry (r, c) of one function of the six argument arrays, stated as scalar mathematics in
  Proof/Spec.lean.  The reference gathers every corner with a multi-index table from the channel-first arrays and adds
  the corners' weighted entries to zero; the kernel pads the rows to a multiple of the block, turns the tables
  channel-last, gathers each corner's sixteen channels as one row through a flat index, interpolates axis by axis,
  and multiplies and joins the five results block by block.  The clipped indices are naturals in range whatever the
  coordinates are, so the index normalisation and the clamp of a gather do nothing on them and the flat index is the
  row of the corner; the nested interpolation is the corner sum because every entry and weight is a real number,
  which is what the precondition (every input finite) gives, and where distributivity is used.
  The frames: the two kernel programs' are the launch-and-flush argument around the pointwise body; the reference is
  a straight line of host operations, whose run also names its result.  Nothing is rewritten between the kernel and
  its idealization, so the preservation claim is empty.
-/
import proofs.«135735_j20624432955487_2_alg».proof.Defs
import proofs.«135735_j20624432955487_2_alg».proof.Proof.Gen.Kernel
import proofs.«135735_j20624432955487_2_alg».proof.Proof.Gen.KernelIdeal
import proofs.«135735_j20624432955487_2_alg».proof.Proof.Gen.ReferenceIdeal
import proofs.«135735_j20624432955487_2_alg».proof.Proof.Gen.Pre_finite_inputs
import proofs.«135735_j20624432955487_2_alg».proof.Proof.KernelFrameP
import proofs.«135735_j20624432955487_2_alg».proof.Proof.KernelIdealFrameP
import proofs.«135735_j20624432955487_2_alg».proof.Proof.Spec
import proofs.«135735_j20624432955487_2_alg».proof.Proof.Finite
import proofs.«135735_j20624432955487_2_alg».proof.Proof.RefRun
import proofs.«135735_j20624432955487_2_alg».proof.Proof.RefAt
import proofs.«135735_j20624432955487_2_alg».proof.Proof.KerRun
import proofs.«135735_j20624432955487_2_alg».proof.Proof.KerAt
import Idealize.ShloMosaic.Adequacy
import Idealize.ShloMosaic.Init

noncomputable section

namespace Cert.Proof

open Idealize.ShloMosaic Idealize.ShloMosaic.ValueIdx Idealize.SL.Sem

/-- The word-level kernel runs and leaves its arguments as launched. -/
theorem frame_kernel : Cert.frame_Kernel := fun m ρ _ => Cert.Kernel.GenP.frame m ρ

/-- So does the kernel read over the extended reals. -/
theorem frame_kernelIdeal : Cert.frame_KernelIdeal := fun m ρ _ => Cert.KernelIdeal.GenP.frame m ρ

/-- The reference's run names its result and keeps its arguments; the frame forgets the result. -/
theorem frame_referenceIdeal : Cert.frame_ReferenceIdeal := fun m ρ _ =>
  (θ_run Cert.ReferenceIdeal.defs _ _).mono (fun _ h c => (h c).2) (Cert.ReferenceIdeal.RefValue.run m ρ)

/-- No operation was rewritten between the kernel and its idealization. -/
theorem preserves : Cert.preserves_Kernel_KernelIdeal := trivial

/-- From memories that agree on the six arguments both programs end with the same array: entry (r, c) of either
    is the specification's entry, the arguments being real by the precondition. -/
theorem algebraic : Cert.algebraic_KernelIdeal_ReferenceIdeal := by
  intro m ρ m' ρ' hpre hagree
  refine ⟨_, Cert.KernelIdeal.KerValue.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2.1, (hagree c).2.2.2.2.1, (hagree c).2.2.2.2.2]
  obtain ⟨h0, h1, h2, h3, h4, h5⟩ := Cert.Finite.reals _ _ _ _ _ _ (hpre c)
  funext i
  obtain ⟨r, q, rfl⟩ : ∃ (r : Fin 1000000) (q : Fin 32), i = ix2 r q := ⟨i 0, i 1, eq_ix2 i⟩
  exact (Cert.ReferenceIdeal.RefValue.out_apply _ _ _ _ _ _ h0 h1 h2 h3 h4 h5 r q).trans
    (Cert.KernelIdeal.KerValue.out_apply _ _ _ _ _ _ h0 h1 h2 h3 h4 h5 r q).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
